-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S10000x128 : Shape := ⟨2, ![10000, 128]⟩
abbrev S10000 : Shape := ⟨1, ![10000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S10000 : S_.BroadcastsInDim S10000 (![] : Fin 0 → Fin S10000.rank)
  reducesTo_S10000_S_d0 : S10000.ReducesTo [0] S_
  bcast_S_S4096x50 : S_.BroadcastsInDim S4096x50 (![] : Fin 0 → Fin S4096x50.rank)
  reducesTo_S4096x50_S_d0_1 : S4096x50.ReducesTo [0, 1] S_

variable [Facts]

def fn_part2 {F : FTy → Type} [FloatOps F] (main_v27 : IVec S_ 1) (main_v32 : IVec S4096x50 1) (main_c_12 : IVec S_ 1) : IVec S_ 1 :=
  let main_v33 : IVec S_ 1 := (fun x v => Host.reduce IntOp.andi x v reducesTo_S4096x50_S_d0_1 h_S_) main_v32 main_c_12
  let main_v34 : IVec S_ 1 := andi main_v27 main_v33
  main_v34

def fn_part1 {F : FTy → Type} [FloatOps F] (main_arg0 : IVec S4096x50 32) (main_arg1 : IVec S4096x50 32) (main_arg2 : IVec S4096x50 32) (main_v13 : IVec S_ 1) (main_v15 : IVec S4096x50 1) (main_c_5 : IVec S_ 32) : IVec S_ 1 :=
  let main_v16 : IVec S4096x50 32 := broadcastInDim S4096x50 ![] bcast_S_S4096x50 main_c_5
  let main_v17 : IVec S4096x50 1 := cmpi .sle main_arg0 main_v16
  let main_v18 : IVec S4096x50 1 := andi main_v15 main_v17
  let main_c_6 : IVec S_ 1 := constantI S_ 1 1#1
  let main_v19 : IVec S_ 1 := (fun x v => Host.reduce IntOp.andi x v reducesTo_S4096x50_S_d0_1 h_S_) main_v18 main_c_6
  let main_v20 : IVec S_ 1 := andi main_v13 main_v19
  let main_c_7 : IVec S_ 32 := constantI S_ 32 0#32
  let main_v21 : IVec S4096x50 32 := broadcastInDim S4096x50 ![] bcast_S_S4096x50 main_c_7
  let main_v22 : IVec S4096x50 1 := cmpi .sge main_arg1 main_v21
  let main_c_8 : IVec S_ 32 := constantI S_ 32 0#32
  let main_v23 : IVec S4096x50 32 := broadcastInDim S4096x50 ![] bcast_S_S4096x50 main_c_8
  let main_v24 : IVec S4096x50 1 := cmpi .sle main_arg1 main_v23
  let main_v25 : IVec S4096x50 1 := andi main_v22 main_v24
  let main_c_9 : IVec S_ 1 := constantI S_ 1 1#1
  let main_v26 : IVec S_ 1 := (fun x v => Host.reduce IntOp.andi x v reducesTo_S4096x50_S_d0_1 h_S_) main_v25 main_c_9
  let main_v27 : IVec S_ 1 := andi main_v20 main_v26
  let main_c_10 : IVec S_ 32 := constantI S_ 32 1#32
  let main_v28 : IVec S4096x50 32 := broadcastInDim S4096x50 ![] bcast_S_S4096x50 main_c_10
  let main_v29 : IVec S4096x50 1 := cmpi .sge main_arg2 main_v28
  let main_c_11 : IVec S_ 32 := constantI S_ 32 1#32
  let main_v30 : IVec S4096x50 32 := broadcastInDim S4096x50 ![] bcast_S_S4096x50 main_c_11
  let main_v31 : IVec S4096x50 1 := cmpi .sle main_arg2 main_v30
  let main_v32 : IVec S4096x50 1 := andi main_v29 main_v31
  let main_c_12 : IVec S_ 1 := constantI S_ 1 1#1
  fn_part2 (F := F) main_v27 main_v32 main_c_12

def fn {F : FTy → Type} [FloatOps F] (main_arg0 : IVec S4096x50 32) (main_arg1 : IVec S4096x50 32) (main_arg2 : IVec S4096x50 32) (main_arg3 : FVec F S100000x128 .f32) (main_arg4 : FVec F S10000x128 .f32) (main_arg5 : FVec F S10000 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg4
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000 .f32 := Host.absf main_arg5
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_c_4 : IVec S_ 32 := constantI S_ 32 0#32
  let main_v14 : IVec S4096x50 32 := broadcastInDim S4096x50 ![] bcast_S_S4096x50 main_c_4
  let main_v15 : IVec S4096x50 1 := cmpi .sge main_arg0 main_v14
  let main_c_5 : IVec S_ 32 := constantI S_ 32 99999#32
  fn_part1 (F := F) main_arg0 main_arg1 main_arg2 main_v13 main_v15 main_c_5
-- ==== Kernel.lean ====
abbrev S4096x50 : Shape := ⟨2, ![4096, 50]⟩
abbrev S100000x128 : Shape := ⟨2, ![100000, 128]⟩
abbrev S10000x128 : Shape := ⟨2, ![10000, 128]⟩
abbrev S10000 : Shape := ⟨1, ![10000]⟩
abbrev S1x10000 : Shape := ⟨2, ![1, 10000]⟩
abbrev S_ : Shape := ⟨0, ![]⟩
abbrev S1024x50 : Shape := ⟨2, ![1024, 50]⟩
abbrev S32x16x100 : Shape := ⟨3, ![32, 16, 100]⟩
abbrev S32x32x128 : Shape := ⟨3, ![32, 32, 128]⟩
abbrev S16x100 : Shape := ⟨2, ![16, 100]⟩
abbrev S100x128 : Shape := ⟨2, ![100, 128]⟩
abbrev S32x128 : Shape := ⟨2, ![32, 128]⟩
abbrev S1x16x100 : Shape := ⟨3, ![1, 16, 100]⟩
abbrev S1x100 : Shape := ⟨2, ![1, 100]⟩
abbrev S100 : Shape := ⟨1, ![100]⟩
abbrev S1x16 : Shape := ⟨2, ![1, 16]⟩
abbrev S16 : Shape := ⟨1, ![16]⟩
abbrev S1x32x128 : Shape := ⟨3, ![1, 32, 128]⟩
abbrev S1024x128 : Shape := ⟨2, ![1024, 128]⟩
abbrev S3072x50 : Shape := ⟨2, ![3072, 50]⟩
abbrev S32x48x100 : Shape := ⟨3, ![32, 48, 100]⟩
abbrev S32x96x128 : Shape := ⟨3, ![32, 96, 128]⟩
abbrev S48x100 : Shape := ⟨2, ![48, 100]⟩
abbrev S96x128 : Shape := ⟨2, ![96, 128]⟩
abbrev S1x48x100 : Shape := ⟨3, ![1, 48, 100]⟩
abbrev S1x96x128 : Shape := ⟨3, ![1, 96, 128]⟩
abbrev S3072x128 : Shape := ⟨2, ![3072, 128]⟩
abbrev S4096x10000 : Shape := ⟨2, ![4096, 10000]⟩
abbrev S512x128 : Shape := ⟨2, ![512, 128]⟩
abbrev S512x10000 : Shape := ⟨2, ![512, 10000]⟩

abbrev nBuf : Table → Nat
  | .hbm => 21
  | .local .tc .vmem => 12
  | .local .scVector .vmem => 8
  | _ => 0

abbrev bufTy : (tb : Table) → Fin (nBuf tb) → BufTy
  | .hbm, ⟨0, _⟩ => ⟨S4096x50, .i32⟩
  | .hbm, ⟨1, _⟩ => ⟨S4096x50, .i32⟩
  | .hbm, ⟨2, _⟩ => ⟨S4096x50, .i32⟩
  | .hbm, ⟨3, _⟩ => ⟨S100000x128, .f32⟩
  | .hbm, ⟨4, _⟩ => ⟨S10000x128, .f32⟩
  | .hbm, ⟨5, _⟩ => ⟨S10000, .f32⟩
  | .hbm, ⟨6, _⟩ => ⟨S1x10000, .f32⟩
  | .hbm, ⟨7, _⟩ => ⟨S_, .i32⟩
  | .hbm, ⟨8, _⟩ => ⟨S_, .i32⟩
  | .hbm, ⟨9, _⟩ => ⟨S1024x50, .i32⟩
  | .hbm, ⟨10, _⟩ => ⟨S32x16x100, .i32⟩
  | .hbm, ⟨11, _⟩ => ⟨S32x32x128, .f32⟩
  | .hbm, ⟨12, _⟩ => ⟨S1024x128, .f32⟩
  | .hbm, ⟨13, _⟩ => ⟨S_, .i32⟩
  | .hbm, ⟨14, _⟩ => ⟨S_, .i32⟩
  | .hbm, ⟨15, _⟩ => ⟨S3072x50, .i32⟩
  | .hbm, ⟨16, _⟩ => ⟨S32x48x100, .i32⟩
  | .hbm, ⟨17, _⟩ => ⟨S32x96x128, .f32⟩
  | .hbm, ⟨18, _⟩ => ⟨S3072x128, .f32⟩
  | .hbm, ⟨19, _⟩ => ⟨S4096x10000, .f32⟩
  | .hbm, ⟨20, _⟩ => ⟨S4096x10000, .f32⟩
  | .local .tc .vmem, ⟨0, _⟩ => ⟨S512x128, .f32⟩
  | .local .tc .vmem, ⟨1, _⟩ => ⟨S512x128, .f32⟩
  | .local .tc .vmem, ⟨2, _⟩ => ⟨S10000x128, .f32⟩
  | .local .tc .vmem, ⟨3, _⟩ => ⟨S1x10000, .f32⟩
  | .local .tc .vmem, ⟨4, _⟩ => ⟨S512x10000, .f32⟩
  | .local .tc .vmem, ⟨5, _⟩ => ⟨S512x10000, .f32⟩
  | .local .tc .vmem, ⟨6, _⟩ => ⟨S512x128, .f32⟩
  | .local .tc .vmem, ⟨7, _⟩ => ⟨S512x128, .f32⟩
  | .local .tc .vmem, ⟨8, _⟩ => ⟨S10000x128, .f32⟩
  | .local .tc .vmem, ⟨9, _⟩ => ⟨S1x10000, .f32⟩
  | .local .tc .vmem, ⟨10, _⟩ => ⟨S512x10000, .f32⟩
  | .local .tc .vmem, ⟨11, _⟩ => ⟨S512x10000, .f32⟩
  | .local .scVector .vmem, ⟨0, _⟩ => ⟨S16x100, .i32⟩
  | .local .scVector .vmem, ⟨1, _⟩ => ⟨S100x128, .f32⟩
  | .local .scVector .vmem, ⟨2, _⟩ => ⟨S100x128, .f32⟩
  | .local .scVector .vmem, ⟨3, _⟩ => ⟨S32x128, .f32⟩
  | .local .scVector .vmem, ⟨4, _⟩ => ⟨S48x100, .i32⟩
  | .local .scVector .vmem, ⟨5, _⟩ => ⟨S100x128, .f32⟩
  | .local .scVector .vmem, ⟨6, _⟩ => ⟨S100x128, .f32⟩
  | .local .scVector .vmem, ⟨7, _⟩ => ⟨S96x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v2_scv : Ref sig .scVector := ⟨.hbm, 10, rfl⟩
abbrev main_arg3_scv : Ref sig .scVector := ⟨.hbm, 3, rfl⟩
abbrev main_v3_scv : Ref sig .scVector := ⟨.hbm, 11, rfl⟩
abbrev main_v6_scv : Ref sig .scVector := ⟨.hbm, 16, rfl⟩
abbrev main_v7_scv : Ref sig .scVector := ⟨.hbm, 17, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg3_1 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg2_0 : Ref sig .tc := ⟨.vmem, 9, rfl⟩
abbrev cc3_stg3_0 : Ref sig .tc := ⟨.vmem, 10, rfl⟩
abbrev cc3_stg3_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem3_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r0 : BitVec 32 := 0#32
  let c0_i32_10_r0 : BitVec 32 := 0#32
  ![v1.toNat, 0, 0]
@[reducible] def k0_t1_loop : Scf.Loop 32 :=
  let c0_i32_3 : BitVec 32 := 0#32
  let c8_i32 : BitVec 32 := 8#32
  let v5 : BitVec 32 := Scalar.addi c0_i32_3 c8_i32
  let c1_i32 : BitVec 32 := 1#32
  ⟨c0_i32_3, v5, c1_i32⟩
def k0_off2 (k0_t1 : Fin k0_t1_loop.trips) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_10 : BitVec 32 := 1#32
  let v11 : BitVec 32 := Scalar.addi v10 c1_i32_10
  let c0_i32_11 : BitVec 32 := 0#32
  ![v11.toNat, 0]
def k0_off3 (k0_t1 : Fin k0_t1_loop.trips) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c0_i32_14 : BitVec 32 := 0#32
  ![v10.toNat, 0]
@[reducible] def k0_t2_loop : Scf.Loop 32 :=
  let c0_i32_25 : BitVec 32 := 0#32
  let c49_i32 : BitVec 32 := 49#32
  let v42 : BitVec 32 := Scalar.addi c0_i32_25 c49_i32
  let c1_i32_26 : BitVec 32 := 1#32
  ⟨c0_i32_25, v42, c1_i32_26⟩
def k0_off4 (k0_t2 : Fin k0_t2_loop.trips) : Fin 2 → Nat :=
  let c0_i32_193 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v325 : BitVec 32 := Scalar.addi c0_i32_193 v324
  let v326 : Index := Scalar.indexCast v325
  let c0_194 : Index := 0#32
  ![v326.toNat, 0]
def k0_off5 (k0_t2 : Fin k0_t2_loop.trips) : Fin 2 → Nat :=
  let c0_i32_195 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v330 : BitVec 32 := Scalar.addi c0_i32_195 v324
  let v331 : Index := Scalar.indexCast v330
  let c16_196 : Index := 16#32
  ![v331.toNat, 16]
def k0_off6 (k0_t2 : Fin k0_t2_loop.trips) : Fin 2 → Nat :=
  let c0_i32_197 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v335 : BitVec 32 := Scalar.addi c0_i32_197 v324
  let v336 : Index := Scalar.indexCast v335
  let c32_198 : Index := 32#32
  ![v336.toNat, 32]
def k0_off7 (k0_t2 : Fin k0_t2_loop.trips) : Fin 2 → Nat :=
  let c0_i32_199 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v340 : BitVec 32 := Scalar.addi c0_i32_199 v324
  let v341 : Index := Scalar.indexCast v340
  let c48_200 : Index := 48#32
  ![v341.toNat, 48]
def k0_off8 (k0_t2 : Fin k0_t2_loop.trips) : Fin 2 → Nat :=
  let c0_i32_201 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v345 : BitVec 32 := Scalar.addi c0_i32_201 v324
  let v346 : Index := Scalar.indexCast v345
  let c64_202 : Index := 64#32
  ![v346.toNat, 64]
def k0_off9 (k0_t2 : Fin k0_t2_loop.trips) : Fin 2 → Nat :=
  let c0_i32_203 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v350 : BitVec 32 := Scalar.addi c0_i32_203 v324
  let v351 : Index := Scalar.indexCast v350
  let c80_204 : Index := 80#32
  ![v351.toNat, 80]
def k0_off10 (k0_t2 : Fin k0_t2_loop.trips) : Fin 2 → Nat :=
  let c0_i32_205 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v355 : BitVec 32 := Scalar.addi c0_i32_205 v324
  let v356 : Index := Scalar.indexCast v355
  let c96_206 : Index := 96#32
  ![v356.toNat, 96]
def k0_off11 (k0_t2 : Fin k0_t2_loop.trips) : Fin 2 → Nat :=
  let c0_i32_207 : BitVec 32 := 0#32
  let c1_i32_192 : BitVec 32 := 1#32
  let c0_i32_25 : BitVec 32 := 0#32
  let c1_i32_26 : BitVec 32 := 1#32
  let arg12 : BitVec 32 := Scf.iv c0_i32_25 c1_i32_26 k0_t2
  let c1_i32_191 : BitVec 32 := 1#32
  let v323 : BitVec 32 := Scalar.muli arg12 c1_i32_191
  let v324 : BitVec 32 := Scalar.addi c1_i32_192 v323
  let v360 : BitVec 32 := Scalar.addi c0_i32_207 v324
  let v361 : Index := Scalar.indexCast v360
  let c112_208 : Index := 112#32
  ![v361.toNat, 112]
def k0_off12 (k0_t1 : Fin k0_t1_loop.trips) (c0_i32_29 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_28 : BitVec 32 := 2#32
  let v44 : BitVec 32 := Scalar.muli v10 c2_i32_28
  let v45 : BitVec 32 := Scalar.addi v44 c0_i32_29
  let v46 : Index := Scalar.indexCast v45
  let c0_30 : Index := 0#32
  ![v46.toNat, 0]
def k0_off13 (k0_t1 : Fin k0_t1_loop.trips) (c0_i32_32 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_31 : BitVec 32 := 2#32
  let v50 : BitVec 32 := Scalar.muli v10 c2_i32_31
  let v51 : BitVec 32 := Scalar.addi v50 c0_i32_32
  let v52 : Index := Scalar.indexCast v51
  let c16_33 : Index := 16#32
  ![v52.toNat, 16]
def k0_off14 (k0_t1 : Fin k0_t1_loop.trips) (c0_i32_35 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_34 : BitVec 32 := 2#32
  let v56 : BitVec 32 := Scalar.muli v10 c2_i32_34
  let v57 : BitVec 32 := Scalar.addi v56 c0_i32_35
  let v58 : Index := Scalar.indexCast v57
  let c32_36 : Index := 32#32
  ![v58.toNat, 32]
def k0_off15 (k0_t1 : Fin k0_t1_loop.trips) (c0_i32_38 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_37 : BitVec 32 := 2#32
  let v62 : BitVec 32 := Scalar.muli v10 c2_i32_37
  let v63 : BitVec 32 := Scalar.addi v62 c0_i32_38
  let v64 : Index := Scalar.indexCast v63
  let c48_39 : Index := 48#32
  ![v64.toNat, 48]
def k0_off16 (k0_t1 : Fin k0_t1_loop.trips) (c0_i32_41 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_40 : BitVec 32 := 2#32
  let v68 : BitVec 32 := Scalar.muli v10 c2_i32_40
  let v69 : BitVec 32 := Scalar.addi v68 c0_i32_41
  let v70 : Index := Scalar.indexCast v69
  let c64_42 : Index := 64#32
  ![v70.toNat, 64]
def k0_off17 (k0_t1 : Fin k0_t1_loop.trips) (c0_i32_44 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_43 : BitVec 32 := 2#32
  let v74 : BitVec 32 := Scalar.muli v10 c2_i32_43
  let v75 : BitVec 32 := Scalar.addi v74 c0_i32_44
  let v76 : Index := Scalar.indexCast v75
  let c80_45 : Index := 80#32
  ![v76.toNat, 80]
def k0_off18 (k0_t1 : Fin k0_t1_loop.trips) (c0_i32_47 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_46 : BitVec 32 := 2#32
  let v80 : BitVec 32 := Scalar.muli v10 c2_i32_46
  let v81 : BitVec 32 := Scalar.addi v80 c0_i32_47
  let v82 : Index := Scalar.indexCast v81
  let c96_48 : Index := 96#32
  ![v82.toNat, 96]
def k0_off19 (k0_t1 : Fin k0_t1_loop.trips) (c0_i32_50 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_49 : BitVec 32 := 2#32
  let v86 : BitVec 32 := Scalar.muli v10 c2_i32_49
  let v87 : BitVec 32 := Scalar.addi v86 c0_i32_50
  let v88 : Index := Scalar.indexCast v87
  let c112_51 : Index := 112#32
  ![v88.toNat, 112]
@[reducible] def k0_t3_loop : Scf.Loop 32 :=
  let c0_i32_67 : BitVec 32 := 0#32
  let c49_i32_68 : BitVec 32 := 49#32
  let v116 : BitVec 32 := Scalar.addi c0_i32_67 c49_i32_68
  let c1_i32_69 : BitVec 32 := 1#32
  ⟨c0_i32_67, v116, c1_i32_69⟩
def k0_off20 (k0_t3 : Fin k0_t3_loop.trips) : Fin 2 → Nat :=
  let c50_i32_193 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v325 : BitVec 32 := Scalar.addi c50_i32_193 v324
  let v326 : Index := Scalar.indexCast v325
  let c0_194 : Index := 0#32
  ![v326.toNat, 0]
def k0_off21 (k0_t3 : Fin k0_t3_loop.trips) : Fin 2 → Nat :=
  let c50_i32_195 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v330 : BitVec 32 := Scalar.addi c50_i32_195 v324
  let v331 : Index := Scalar.indexCast v330
  let c16_196 : Index := 16#32
  ![v331.toNat, 16]
def k0_off22 (k0_t3 : Fin k0_t3_loop.trips) : Fin 2 → Nat :=
  let c50_i32_197 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v335 : BitVec 32 := Scalar.addi c50_i32_197 v324
  let v336 : Index := Scalar.indexCast v335
  let c32_198 : Index := 32#32
  ![v336.toNat, 32]
def k0_off23 (k0_t3 : Fin k0_t3_loop.trips) : Fin 2 → Nat :=
  let c50_i32_199 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v340 : BitVec 32 := Scalar.addi c50_i32_199 v324
  let v341 : Index := Scalar.indexCast v340
  let c48_200 : Index := 48#32
  ![v341.toNat, 48]
def k0_off24 (k0_t3 : Fin k0_t3_loop.trips) : Fin 2 → Nat :=
  let c50_i32_201 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v345 : BitVec 32 := Scalar.addi c50_i32_201 v324
  let v346 : Index := Scalar.indexCast v345
  let c64_202 : Index := 64#32
  ![v346.toNat, 64]
def k0_off25 (k0_t3 : Fin k0_t3_loop.trips) : Fin 2 → Nat :=
  let c50_i32_203 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v350 : BitVec 32 := Scalar.addi c50_i32_203 v324
  let v351 : Index := Scalar.indexCast v350
  let c80_204 : Index := 80#32
  ![v351.toNat, 80]
def k0_off26 (k0_t3 : Fin k0_t3_loop.trips) : Fin 2 → Nat :=
  let c50_i32_205 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v355 : BitVec 32 := Scalar.addi c50_i32_205 v324
  let v356 : Index := Scalar.indexCast v355
  let c96_206 : Index := 96#32
  ![v356.toNat, 96]
def k0_off27 (k0_t3 : Fin k0_t3_loop.trips) : Fin 2 → Nat :=
  let c50_i32_207 : BitVec 32 := 50#32
  let c1_i32_192 : BitVec 32 := 1#32
  let c0_i32_67 : BitVec 32 := 0#32
  let c1_i32_69 : BitVec 32 := 1#32
  let arg12 : BitVec 32 := Scf.iv c0_i32_67 c1_i32_69 k0_t3
  let c1_i32_191 : BitVec 32 := 1#32
  let v323 : BitVec 32 := Scalar.muli arg12 c1_i32_191
  let v324 : BitVec 32 := Scalar.addi c1_i32_192 v323
  let v360 : BitVec 32 := Scalar.addi c50_i32_207 v324
  let v361 : Index := Scalar.indexCast v360
  let c112_208 : Index := 112#32
  ![v361.toNat, 112]
def k0_cond1 (k0_t1 : Fin k0_t1_loop.trips) : BitVec 1 :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_95 : BitVec 32 := 2#32
  let v166 : BitVec 32 := Scalar.addi v10 c2_i32_95
  let c16_i32_96 : BitVec 32 := 16#32
  let v167 : BitVec 1 := Scalar.cmpi .slt v166 c16_i32_96
  let v168 : BitVec 32 := Scalar.extui v167
  let c0_i32_97 : BitVec 32 := 0#32
  let v169 : BitVec 1 := Scalar.cmpi .ne v168 c0_i32_97
  v169

def k0_off28 (k0_t1 : Fin k0_t1_loop.trips) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c2_i32_191 : BitVec 32 := 2#32
  let v323 : BitVec 32 := Scalar.addi v10 c2_i32_191
  let c0_i32_192 : BitVec 32 := 0#32
  ![v323.toNat, 0]
@[reducible] def k0_t4_loop : Scf.Loop 32 :=
  let c0_i32_119 : BitVec 32 := 0#32
  let c49_i32_120 : BitVec 32 := 49#32
  let v199 : BitVec 32 := Scalar.addi c0_i32_119 c49_i32_120
  let c1_i32_121 : BitVec 32 := 1#32
  ⟨c0_i32_119, v199, c1_i32_121⟩
def k0_off29 (k0_t4 : Fin k0_t4_loop.trips) : Fin 2 → Nat :=
  let c0_i32_193 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v325 : BitVec 32 := Scalar.addi c0_i32_193 v324
  let v326 : Index := Scalar.indexCast v325
  let c0_194 : Index := 0#32
  ![v326.toNat, 0]
def k0_off30 (k0_t4 : Fin k0_t4_loop.trips) : Fin 2 → Nat :=
  let c0_i32_195 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v330 : BitVec 32 := Scalar.addi c0_i32_195 v324
  let v331 : Index := Scalar.indexCast v330
  let c16_196 : Index := 16#32
  ![v331.toNat, 16]
def k0_off31 (k0_t4 : Fin k0_t4_loop.trips) : Fin 2 → Nat :=
  let c0_i32_197 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v335 : BitVec 32 := Scalar.addi c0_i32_197 v324
  let v336 : Index := Scalar.indexCast v335
  let c32_198 : Index := 32#32
  ![v336.toNat, 32]
def k0_off32 (k0_t4 : Fin k0_t4_loop.trips) : Fin 2 → Nat :=
  let c0_i32_199 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v340 : BitVec 32 := Scalar.addi c0_i32_199 v324
  let v341 : Index := Scalar.indexCast v340
  let c48_200 : Index := 48#32
  ![v341.toNat, 48]
def k0_off33 (k0_t4 : Fin k0_t4_loop.trips) : Fin 2 → Nat :=
  let c0_i32_201 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v345 : BitVec 32 := Scalar.addi c0_i32_201 v324
  let v346 : Index := Scalar.indexCast v345
  let c64_202 : Index := 64#32
  ![v346.toNat, 64]
def k0_off34 (k0_t4 : Fin k0_t4_loop.trips) : Fin 2 → Nat :=
  let c0_i32_203 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v350 : BitVec 32 := Scalar.addi c0_i32_203 v324
  let v351 : Index := Scalar.indexCast v350
  let c80_204 : Index := 80#32
  ![v351.toNat, 80]
def k0_off35 (k0_t4 : Fin k0_t4_loop.trips) : Fin 2 → Nat :=
  let c0_i32_205 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v355 : BitVec 32 := Scalar.addi c0_i32_205 v324
  let v356 : Index := Scalar.indexCast v355
  let c96_206 : Index := 96#32
  ![v356.toNat, 96]
def k0_off36 (k0_t4 : Fin k0_t4_loop.trips) : Fin 2 → Nat :=
  let c0_i32_207 : BitVec 32 := 0#32
  let c1_i32_192 : BitVec 32 := 1#32
  let c0_i32_119 : BitVec 32 := 0#32
  let c1_i32_121 : BitVec 32 := 1#32
  let arg12 : BitVec 32 := Scf.iv c0_i32_119 c1_i32_121 k0_t4
  let c1_i32_191 : BitVec 32 := 1#32
  let v323 : BitVec 32 := Scalar.muli arg12 c1_i32_191
  let v324 : BitVec 32 := Scalar.addi c1_i32_192 v323
  let v360 : BitVec 32 := Scalar.addi c0_i32_207 v324
  let v361 : Index := Scalar.indexCast v360
  let c112_208 : Index := 112#32
  ![v361.toNat, 112]
def k0_off37 (k0_t1 : Fin k0_t1_loop.trips) (c0_i32_124 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_123 : BitVec 32 := 2#32
  let v201 : BitVec 32 := Scalar.muli v174 c2_i32_123
  let v202 : BitVec 32 := Scalar.addi v201 c0_i32_124
  let v203 : Index := Scalar.indexCast v202
  let c0_125 : Index := 0#32
  ![v203.toNat, 0]
def k0_off38 (k0_t1 : Fin k0_t1_loop.trips) (c0_i32_127 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_126 : BitVec 32 := 2#32
  let v207 : BitVec 32 := Scalar.muli v174 c2_i32_126
  let v208 : BitVec 32 := Scalar.addi v207 c0_i32_127
  let v209 : Index := Scalar.indexCast v208
  let c16_128 : Index := 16#32
  ![v209.toNat, 16]
def k0_off39 (k0_t1 : Fin k0_t1_loop.trips) (c0_i32_130 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_129 : BitVec 32 := 2#32
  let v213 : BitVec 32 := Scalar.muli v174 c2_i32_129
  let v214 : BitVec 32 := Scalar.addi v213 c0_i32_130
  let v215 : Index := Scalar.indexCast v214
  let c32_131 : Index := 32#32
  ![v215.toNat, 32]
def k0_off40 (k0_t1 : Fin k0_t1_loop.trips) (c0_i32_133 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_132 : BitVec 32 := 2#32
  let v219 : BitVec 32 := Scalar.muli v174 c2_i32_132
  let v220 : BitVec 32 := Scalar.addi v219 c0_i32_133
  let v221 : Index := Scalar.indexCast v220
  let c48_134 : Index := 48#32
  ![v221.toNat, 48]
def k0_off41 (k0_t1 : Fin k0_t1_loop.trips) (c0_i32_136 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_135 : BitVec 32 := 2#32
  let v225 : BitVec 32 := Scalar.muli v174 c2_i32_135
  let v226 : BitVec 32 := Scalar.addi v225 c0_i32_136
  let v227 : Index := Scalar.indexCast v226
  let c64_137 : Index := 64#32
  ![v227.toNat, 64]
def k0_off42 (k0_t1 : Fin k0_t1_loop.trips) (c0_i32_139 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_138 : BitVec 32 := 2#32
  let v231 : BitVec 32 := Scalar.muli v174 c2_i32_138
  let v232 : BitVec 32 := Scalar.addi v231 c0_i32_139
  let v233 : Index := Scalar.indexCast v232
  let c80_140 : Index := 80#32
  ![v233.toNat, 80]
def k0_off43 (k0_t1 : Fin k0_t1_loop.trips) (c0_i32_142 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_141 : BitVec 32 := 2#32
  let v237 : BitVec 32 := Scalar.muli v174 c2_i32_141
  let v238 : BitVec 32 := Scalar.addi v237 c0_i32_142
  let v239 : Index := Scalar.indexCast v238
  let c96_143 : Index := 96#32
  ![v239.toNat, 96]
def k0_off44 (k0_t1 : Fin k0_t1_loop.trips) (c0_i32_145 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k0_t1
  let c2_i32 : BitVec 32 := 2#32
  let v9 : BitVec 32 := Scalar.muli arg11 c2_i32
  let v10 : BitVec 32 := Scalar.addi c0_i32_9 v9
  let c1_i32_102 : BitVec 32 := 1#32
  let v174 : BitVec 32 := Scalar.addi v10 c1_i32_102
  let c2_i32_144 : BitVec 32 := 2#32
  let v243 : BitVec 32 := Scalar.muli v174 c2_i32_144
  let v244 : BitVec 32 := Scalar.addi v243 c0_i32_145
  let v245 : Index := Scalar.indexCast v244
  let c112_146 : Index := 112#32
  ![v245.toNat, 112]
@[reducible] def k0_t5_loop : Scf.Loop 32 :=
  let c0_i32_163 : BitVec 32 := 0#32
  let c49_i32_164 : BitVec 32 := 49#32
  let v273 : BitVec 32 := Scalar.addi c0_i32_163 c49_i32_164
  let c1_i32_165 : BitVec 32 := 1#32
  ⟨c0_i32_163, v273, c1_i32_165⟩
def k0_off45 (k0_t5 : Fin k0_t5_loop.trips) : Fin 2 → Nat :=
  let c50_i32_193 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v325 : BitVec 32 := Scalar.addi c50_i32_193 v324
  let v326 : Index := Scalar.indexCast v325
  let c0_194 : Index := 0#32
  ![v326.toNat, 0]
def k0_off46 (k0_t5 : Fin k0_t5_loop.trips) : Fin 2 → Nat :=
  let c50_i32_195 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v330 : BitVec 32 := Scalar.addi c50_i32_195 v324
  let v331 : Index := Scalar.indexCast v330
  let c16_196 : Index := 16#32
  ![v331.toNat, 16]
def k0_off47 (k0_t5 : Fin k0_t5_loop.trips) : Fin 2 → Nat :=
  let c50_i32_197 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v335 : BitVec 32 := Scalar.addi c50_i32_197 v324
  let v336 : Index := Scalar.indexCast v335
  let c32_198 : Index := 32#32
  ![v336.toNat, 32]
def k0_off48 (k0_t5 : Fin k0_t5_loop.trips) : Fin 2 → Nat :=
  let c50_i32_199 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v340 : BitVec 32 := Scalar.addi c50_i32_199 v324
  let v341 : Index := Scalar.indexCast v340
  let c48_200 : Index := 48#32
  ![v341.toNat, 48]
def k0_off49 (k0_t5 : Fin k0_t5_loop.trips) : Fin 2 → Nat :=
  let c50_i32_201 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v345 : BitVec 32 := Scalar.addi c50_i32_201 v324
  let v346 : Index := Scalar.indexCast v345
  let c64_202 : Index := 64#32
  ![v346.toNat, 64]
def k0_off50 (k0_t5 : Fin k0_t5_loop.trips) : Fin 2 → Nat :=
  let c50_i32_203 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v350 : BitVec 32 := Scalar.addi c50_i32_203 v324
  let v351 : Index := Scalar.indexCast v350
  let c80_204 : Index := 80#32
  ![v351.toNat, 80]
def k0_off51 (k0_t5 : Fin k0_t5_loop.trips) : Fin 2 → Nat :=
  let c50_i32_205 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v355 : BitVec 32 := Scalar.addi c50_i32_205 v324
  let v356 : Index := Scalar.indexCast v355
  let c96_206 : Index := 96#32
  ![v356.toNat, 96]
def k0_off52 (k0_t5 : Fin k0_t5_loop.trips) : Fin 2 → Nat :=
  let c50_i32_207 : BitVec 32 := 50#32
  let c1_i32_192 : BitVec 32 := 1#32
  let c0_i32_163 : BitVec 32 := 0#32
  let c1_i32_165 : BitVec 32 := 1#32
  let arg12 : BitVec 32 := Scf.iv c0_i32_163 c1_i32_165 k0_t5
  let c1_i32_191 : BitVec 32 := 1#32
  let v323 : BitVec 32 := Scalar.muli arg12 c1_i32_191
  let v324 : BitVec 32 := Scalar.addi c1_i32_192 v323
  let v360 : BitVec 32 := Scalar.addi c50_i32_207 v324
  let v361 : Index := Scalar.indexCast v360
  let c112_208 : Index := 112#32
  ![v361.toNat, 112]
@[reducible] def k0_t6_loop : Scf.Loop 32 :=
  let c0_i32_6 : BitVec 32 := 0#32
  let c32_i32 : BitVec 32 := 32#32
  let v8 : BitVec 32 := Scalar.addi c0_i32_6 c32_i32
  let c1_i32_7 : BitVec 32 := 1#32
  ⟨c0_i32_6, v8, c1_i32_7⟩
def k0_off53 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v11 : Index := Scalar.indexCast v10
  let c0 : Index := 0#32
  ![v11.toNat, 0]
def k0_off54 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v20 : Index := Scalar.indexCast v10
  let c16 : Index := 16#32
  ![v20.toNat, 16]
def k0_off55 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v29 : Index := Scalar.indexCast v10
  let c32 : Index := 32#32
  ![v29.toNat, 32]
def k0_off56 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v38 : Index := Scalar.indexCast v10
  let c48 : Index := 48#32
  ![v38.toNat, 48]
def k0_off57 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v47 : Index := Scalar.indexCast v10
  let c64 : Index := 64#32
  ![v47.toNat, 64]
def k0_off58 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v56 : Index := Scalar.indexCast v10
  let c80 : Index := 80#32
  ![v56.toNat, 80]
def k0_off59 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v65 : Index := Scalar.indexCast v10
  let c96 : Index := 96#32
  ![v65.toNat, 96]
def k0_off60 (k0_t6 : Fin k0_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k0_t6
  let c1_i32_9 : BitVec 32 := 1#32
  let v9 : BitVec 32 := Scalar.muli arg11 c1_i32_9
  let v10 : BitVec 32 := Scalar.addi c0_i32_10 v9
  let v74 : Index := Scalar.indexCast v10
  let c112 : Index := 112#32
  ![v74.toNat, 112]
def k0_off61 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r1 : BitVec 32 := 0#32
  let c0_i32_10_r1 : BitVec 32 := 0#32
  ![v1.toNat, 0, 0]
abbrev grid1 : Pipeline.Grid := ⟨2, ![2, 16], ![false, false]⟩

def k1_off1 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r0 : BitVec 32 := 0#32
  let c0_i32_10_r0 : BitVec 32 := 0#32
  ![v1.toNat, 0, 0]
@[reducible] def k1_t1_loop : Scf.Loop 32 :=
  let c0_i32_3 : BitVec 32 := 0#32
  let c24_i32 : BitVec 32 := 24#32
  let v5 : BitVec 32 := Scalar.addi c0_i32_3 c24_i32
  let c1_i32 : BitVec 32 := 1#32
  ⟨c0_i32_3, v5, c1_i32⟩
def k1_off2 (k1_t1 : Fin k1_t1_loop.trips) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_10 : BitVec 32 := 1#32
  let v11 : BitVec 32 := Scalar.addi v10 c1_i32_10
  let c0_i32_11 : BitVec 32 := 0#32
  ![v11.toNat, 0]
def k1_off3 (k1_t1 : Fin k1_t1_loop.trips) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c0_i32_14 : BitVec 32 := 0#32
  ![v10.toNat, 0]
@[reducible] def k1_t2_loop : Scf.Loop 32 :=
  let c0_i32_25 : BitVec 32 := 0#32
  let c49_i32 : BitVec 32 := 49#32
  let v42 : BitVec 32 := Scalar.addi c0_i32_25 c49_i32
  let c1_i32_26 : BitVec 32 := 1#32
  ⟨c0_i32_25, v42, c1_i32_26⟩
def k1_off4 (k1_t2 : Fin k1_t2_loop.trips) : Fin 2 → Nat :=
  let c0_i32_192 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v325 : BitVec 32 := Scalar.addi c0_i32_192 v324
  let v326 : Index := Scalar.indexCast v325
  let c0_193 : Index := 0#32
  ![v326.toNat, 0]
def k1_off5 (k1_t2 : Fin k1_t2_loop.trips) : Fin 2 → Nat :=
  let c0_i32_194 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v330 : BitVec 32 := Scalar.addi c0_i32_194 v324
  let v331 : Index := Scalar.indexCast v330
  let c16_195 : Index := 16#32
  ![v331.toNat, 16]
def k1_off6 (k1_t2 : Fin k1_t2_loop.trips) : Fin 2 → Nat :=
  let c0_i32_196 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v335 : BitVec 32 := Scalar.addi c0_i32_196 v324
  let v336 : Index := Scalar.indexCast v335
  let c32_197 : Index := 32#32
  ![v336.toNat, 32]
def k1_off7 (k1_t2 : Fin k1_t2_loop.trips) : Fin 2 → Nat :=
  let c0_i32_198 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v340 : BitVec 32 := Scalar.addi c0_i32_198 v324
  let v341 : Index := Scalar.indexCast v340
  let c48_199 : Index := 48#32
  ![v341.toNat, 48]
def k1_off8 (k1_t2 : Fin k1_t2_loop.trips) : Fin 2 → Nat :=
  let c0_i32_200 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v345 : BitVec 32 := Scalar.addi c0_i32_200 v324
  let v346 : Index := Scalar.indexCast v345
  let c64_201 : Index := 64#32
  ![v346.toNat, 64]
def k1_off9 (k1_t2 : Fin k1_t2_loop.trips) : Fin 2 → Nat :=
  let c0_i32_202 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v350 : BitVec 32 := Scalar.addi c0_i32_202 v324
  let v351 : Index := Scalar.indexCast v350
  let c80_203 : Index := 80#32
  ![v351.toNat, 80]
def k1_off10 (k1_t2 : Fin k1_t2_loop.trips) : Fin 2 → Nat :=
  let c0_i32_204 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v355 : BitVec 32 := Scalar.addi c0_i32_204 v324
  let v356 : Index := Scalar.indexCast v355
  let c96_205 : Index := 96#32
  ![v356.toNat, 96]
def k1_off11 (k1_t2 : Fin k1_t2_loop.trips) : Fin 2 → Nat :=
  let c0_i32_206 : BitVec 32 := 0#32
  let c1_i32_191 : BitVec 32 := 1#32
  let c0_i32_25 : BitVec 32 := 0#32
  let c1_i32_26 : BitVec 32 := 1#32
  let arg12 : BitVec 32 := Scf.iv c0_i32_25 c1_i32_26 k1_t2
  let c1_i32_190 : BitVec 32 := 1#32
  let v323 : BitVec 32 := Scalar.muli arg12 c1_i32_190
  let v324 : BitVec 32 := Scalar.addi c1_i32_191 v323
  let v360 : BitVec 32 := Scalar.addi c0_i32_206 v324
  let v361 : Index := Scalar.indexCast v360
  let c112_207 : Index := 112#32
  ![v361.toNat, 112]
def k1_off12 (k1_t1 : Fin k1_t1_loop.trips) (c0_i32_29 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_28 : BitVec 32 := 2#32
  let v44 : BitVec 32 := Scalar.muli v10 c2_i32_28
  let v45 : BitVec 32 := Scalar.addi v44 c0_i32_29
  let v46 : Index := Scalar.indexCast v45
  let c0_30 : Index := 0#32
  ![v46.toNat, 0]
def k1_off13 (k1_t1 : Fin k1_t1_loop.trips) (c0_i32_32 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_31 : BitVec 32 := 2#32
  let v50 : BitVec 32 := Scalar.muli v10 c2_i32_31
  let v51 : BitVec 32 := Scalar.addi v50 c0_i32_32
  let v52 : Index := Scalar.indexCast v51
  let c16_33 : Index := 16#32
  ![v52.toNat, 16]
def k1_off14 (k1_t1 : Fin k1_t1_loop.trips) (c0_i32_35 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_34 : BitVec 32 := 2#32
  let v56 : BitVec 32 := Scalar.muli v10 c2_i32_34
  let v57 : BitVec 32 := Scalar.addi v56 c0_i32_35
  let v58 : Index := Scalar.indexCast v57
  let c32_36 : Index := 32#32
  ![v58.toNat, 32]
def k1_off15 (k1_t1 : Fin k1_t1_loop.trips) (c0_i32_38 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_37 : BitVec 32 := 2#32
  let v62 : BitVec 32 := Scalar.muli v10 c2_i32_37
  let v63 : BitVec 32 := Scalar.addi v62 c0_i32_38
  let v64 : Index := Scalar.indexCast v63
  let c48_39 : Index := 48#32
  ![v64.toNat, 48]
def k1_off16 (k1_t1 : Fin k1_t1_loop.trips) (c0_i32_41 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_40 : BitVec 32 := 2#32
  let v68 : BitVec 32 := Scalar.muli v10 c2_i32_40
  let v69 : BitVec 32 := Scalar.addi v68 c0_i32_41
  let v70 : Index := Scalar.indexCast v69
  let c64_42 : Index := 64#32
  ![v70.toNat, 64]
def k1_off17 (k1_t1 : Fin k1_t1_loop.trips) (c0_i32_44 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_43 : BitVec 32 := 2#32
  let v74 : BitVec 32 := Scalar.muli v10 c2_i32_43
  let v75 : BitVec 32 := Scalar.addi v74 c0_i32_44
  let v76 : Index := Scalar.indexCast v75
  let c80_45 : Index := 80#32
  ![v76.toNat, 80]
def k1_off18 (k1_t1 : Fin k1_t1_loop.trips) (c0_i32_47 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_46 : BitVec 32 := 2#32
  let v80 : BitVec 32 := Scalar.muli v10 c2_i32_46
  let v81 : BitVec 32 := Scalar.addi v80 c0_i32_47
  let v82 : Index := Scalar.indexCast v81
  let c96_48 : Index := 96#32
  ![v82.toNat, 96]
def k1_off19 (k1_t1 : Fin k1_t1_loop.trips) (c0_i32_50 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_49 : BitVec 32 := 2#32
  let v86 : BitVec 32 := Scalar.muli v10 c2_i32_49
  let v87 : BitVec 32 := Scalar.addi v86 c0_i32_50
  let v88 : Index := Scalar.indexCast v87
  let c112_51 : Index := 112#32
  ![v88.toNat, 112]
@[reducible] def k1_t3_loop : Scf.Loop 32 :=
  let c0_i32_67 : BitVec 32 := 0#32
  let c49_i32_68 : BitVec 32 := 49#32
  let v116 : BitVec 32 := Scalar.addi c0_i32_67 c49_i32_68
  let c1_i32_69 : BitVec 32 := 1#32
  ⟨c0_i32_67, v116, c1_i32_69⟩
def k1_off20 (k1_t3 : Fin k1_t3_loop.trips) : Fin 2 → Nat :=
  let c50_i32_192 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v325 : BitVec 32 := Scalar.addi c50_i32_192 v324
  let v326 : Index := Scalar.indexCast v325
  let c0_193 : Index := 0#32
  ![v326.toNat, 0]
def k1_off21 (k1_t3 : Fin k1_t3_loop.trips) : Fin 2 → Nat :=
  let c50_i32_194 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v330 : BitVec 32 := Scalar.addi c50_i32_194 v324
  let v331 : Index := Scalar.indexCast v330
  let c16_195 : Index := 16#32
  ![v331.toNat, 16]
def k1_off22 (k1_t3 : Fin k1_t3_loop.trips) : Fin 2 → Nat :=
  let c50_i32_196 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v335 : BitVec 32 := Scalar.addi c50_i32_196 v324
  let v336 : Index := Scalar.indexCast v335
  let c32_197 : Index := 32#32
  ![v336.toNat, 32]
def k1_off23 (k1_t3 : Fin k1_t3_loop.trips) : Fin 2 → Nat :=
  let c50_i32_198 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v340 : BitVec 32 := Scalar.addi c50_i32_198 v324
  let v341 : Index := Scalar.indexCast v340
  let c48_199 : Index := 48#32
  ![v341.toNat, 48]
def k1_off24 (k1_t3 : Fin k1_t3_loop.trips) : Fin 2 → Nat :=
  let c50_i32_200 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v345 : BitVec 32 := Scalar.addi c50_i32_200 v324
  let v346 : Index := Scalar.indexCast v345
  let c64_201 : Index := 64#32
  ![v346.toNat, 64]
def k1_off25 (k1_t3 : Fin k1_t3_loop.trips) : Fin 2 → Nat :=
  let c50_i32_202 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v350 : BitVec 32 := Scalar.addi c50_i32_202 v324
  let v351 : Index := Scalar.indexCast v350
  let c80_203 : Index := 80#32
  ![v351.toNat, 80]
def k1_off26 (k1_t3 : Fin k1_t3_loop.trips) : Fin 2 → Nat :=
  let c50_i32_204 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v355 : BitVec 32 := Scalar.addi c50_i32_204 v324
  let v356 : Index := Scalar.indexCast v355
  let c96_205 : Index := 96#32
  ![v356.toNat, 96]
def k1_off27 (k1_t3 : Fin k1_t3_loop.trips) : Fin 2 → Nat :=
  let c50_i32_206 : BitVec 32 := 50#32
  let c1_i32_191 : BitVec 32 := 1#32
  let c0_i32_67 : BitVec 32 := 0#32
  let c1_i32_69 : BitVec 32 := 1#32
  let arg12 : BitVec 32 := Scf.iv c0_i32_67 c1_i32_69 k1_t3
  let c1_i32_190 : BitVec 32 := 1#32
  let v323 : BitVec 32 := Scalar.muli arg12 c1_i32_190
  let v324 : BitVec 32 := Scalar.addi c1_i32_191 v323
  let v360 : BitVec 32 := Scalar.addi c50_i32_206 v324
  let v361 : Index := Scalar.indexCast v360
  let c112_207 : Index := 112#32
  ![v361.toNat, 112]
def k1_cond1 (k1_t1 : Fin k1_t1_loop.trips) : BitVec 1 :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_95 : BitVec 32 := 2#32
  let v166 : BitVec 32 := Scalar.addi v10 c2_i32_95
  let c48_i32 : BitVec 32 := 48#32
  let v167 : BitVec 1 := Scalar.cmpi .slt v166 c48_i32
  let v168 : BitVec 32 := Scalar.extui v167
  let c0_i32_96 : BitVec 32 := 0#32
  let v169 : BitVec 1 := Scalar.cmpi .ne v168 c0_i32_96
  v169

def k1_off28 (k1_t1 : Fin k1_t1_loop.trips) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c2_i32_190 : BitVec 32 := 2#32
  let v323 : BitVec 32 := Scalar.addi v10 c2_i32_190
  let c0_i32_191 : BitVec 32 := 0#32
  ![v323.toNat, 0]
@[reducible] def k1_t4_loop : Scf.Loop 32 :=
  let c0_i32_118 : BitVec 32 := 0#32
  let c49_i32_119 : BitVec 32 := 49#32
  let v199 : BitVec 32 := Scalar.addi c0_i32_118 c49_i32_119
  let c1_i32_120 : BitVec 32 := 1#32
  ⟨c0_i32_118, v199, c1_i32_120⟩
def k1_off29 (k1_t4 : Fin k1_t4_loop.trips) : Fin 2 → Nat :=
  let c0_i32_192 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v325 : BitVec 32 := Scalar.addi c0_i32_192 v324
  let v326 : Index := Scalar.indexCast v325
  let c0_193 : Index := 0#32
  ![v326.toNat, 0]
def k1_off30 (k1_t4 : Fin k1_t4_loop.trips) : Fin 2 → Nat :=
  let c0_i32_194 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v330 : BitVec 32 := Scalar.addi c0_i32_194 v324
  let v331 : Index := Scalar.indexCast v330
  let c16_195 : Index := 16#32
  ![v331.toNat, 16]
def k1_off31 (k1_t4 : Fin k1_t4_loop.trips) : Fin 2 → Nat :=
  let c0_i32_196 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v335 : BitVec 32 := Scalar.addi c0_i32_196 v324
  let v336 : Index := Scalar.indexCast v335
  let c32_197 : Index := 32#32
  ![v336.toNat, 32]
def k1_off32 (k1_t4 : Fin k1_t4_loop.trips) : Fin 2 → Nat :=
  let c0_i32_198 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v340 : BitVec 32 := Scalar.addi c0_i32_198 v324
  let v341 : Index := Scalar.indexCast v340
  let c48_199 : Index := 48#32
  ![v341.toNat, 48]
def k1_off33 (k1_t4 : Fin k1_t4_loop.trips) : Fin 2 → Nat :=
  let c0_i32_200 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v345 : BitVec 32 := Scalar.addi c0_i32_200 v324
  let v346 : Index := Scalar.indexCast v345
  let c64_201 : Index := 64#32
  ![v346.toNat, 64]
def k1_off34 (k1_t4 : Fin k1_t4_loop.trips) : Fin 2 → Nat :=
  let c0_i32_202 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v350 : BitVec 32 := Scalar.addi c0_i32_202 v324
  let v351 : Index := Scalar.indexCast v350
  let c80_203 : Index := 80#32
  ![v351.toNat, 80]
def k1_off35 (k1_t4 : Fin k1_t4_loop.trips) : Fin 2 → Nat :=
  let c0_i32_204 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v355 : BitVec 32 := Scalar.addi c0_i32_204 v324
  let v356 : Index := Scalar.indexCast v355
  let c96_205 : Index := 96#32
  ![v356.toNat, 96]
def k1_off36 (k1_t4 : Fin k1_t4_loop.trips) : Fin 2 → Nat :=
  let c0_i32_206 : BitVec 32 := 0#32
  let c1_i32_191 : BitVec 32 := 1#32
  let c0_i32_118 : BitVec 32 := 0#32
  let c1_i32_120 : BitVec 32 := 1#32
  let arg12 : BitVec 32 := Scf.iv c0_i32_118 c1_i32_120 k1_t4
  let c1_i32_190 : BitVec 32 := 1#32
  let v323 : BitVec 32 := Scalar.muli arg12 c1_i32_190
  let v324 : BitVec 32 := Scalar.addi c1_i32_191 v323
  let v360 : BitVec 32 := Scalar.addi c0_i32_206 v324
  let v361 : Index := Scalar.indexCast v360
  let c112_207 : Index := 112#32
  ![v361.toNat, 112]
def k1_off37 (k1_t1 : Fin k1_t1_loop.trips) (c0_i32_123 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_122 : BitVec 32 := 2#32
  let v201 : BitVec 32 := Scalar.muli v174 c2_i32_122
  let v202 : BitVec 32 := Scalar.addi v201 c0_i32_123
  let v203 : Index := Scalar.indexCast v202
  let c0_124 : Index := 0#32
  ![v203.toNat, 0]
def k1_off38 (k1_t1 : Fin k1_t1_loop.trips) (c0_i32_126 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_125 : BitVec 32 := 2#32
  let v207 : BitVec 32 := Scalar.muli v174 c2_i32_125
  let v208 : BitVec 32 := Scalar.addi v207 c0_i32_126
  let v209 : Index := Scalar.indexCast v208
  let c16_127 : Index := 16#32
  ![v209.toNat, 16]
def k1_off39 (k1_t1 : Fin k1_t1_loop.trips) (c0_i32_129 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_128 : BitVec 32 := 2#32
  let v213 : BitVec 32 := Scalar.muli v174 c2_i32_128
  let v214 : BitVec 32 := Scalar.addi v213 c0_i32_129
  let v215 : Index := Scalar.indexCast v214
  let c32_130 : Index := 32#32
  ![v215.toNat, 32]
def k1_off40 (k1_t1 : Fin k1_t1_loop.trips) (c0_i32_132 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_131 : BitVec 32 := 2#32
  let v219 : BitVec 32 := Scalar.muli v174 c2_i32_131
  let v220 : BitVec 32 := Scalar.addi v219 c0_i32_132
  let v221 : Index := Scalar.indexCast v220
  let c48_133 : Index := 48#32
  ![v221.toNat, 48]
def k1_off41 (k1_t1 : Fin k1_t1_loop.trips) (c0_i32_135 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_134 : BitVec 32 := 2#32
  let v225 : BitVec 32 := Scalar.muli v174 c2_i32_134
  let v226 : BitVec 32 := Scalar.addi v225 c0_i32_135
  let v227 : Index := Scalar.indexCast v226
  let c64_136 : Index := 64#32
  ![v227.toNat, 64]
def k1_off42 (k1_t1 : Fin k1_t1_loop.trips) (c0_i32_138 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_137 : BitVec 32 := 2#32
  let v231 : BitVec 32 := Scalar.muli v174 c2_i32_137
  let v232 : BitVec 32 := Scalar.addi v231 c0_i32_138
  let v233 : Index := Scalar.indexCast v232
  let c80_139 : Index := 80#32
  ![v233.toNat, 80]
def k1_off43 (k1_t1 : Fin k1_t1_loop.trips) (c0_i32_141 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_140 : BitVec 32 := 2#32
  let v237 : BitVec 32 := Scalar.muli v174 c2_i32_140
  let v238 : BitVec 32 := Scalar.addi v237 c0_i32_141
  let v239 : Index := Scalar.indexCast v238
  let c96_142 : Index := 96#32
  ![v239.toNat, 96]
def k1_off44 (k1_t1 : Fin k1_t1_loop.trips) (c0_i32_144 : BitVec 32) : Fin 2 → Nat :=
  let c0_i32_9 : BitVec 32 := 0#32
  let c0_i32_3 : BitVec 32 := 0#32
  let c1_i32 : BitVec 32 := 1#32
  let arg11 : BitVec 32 := Scf.iv c0_i32_3 c1_i32 k1_t1
  let c2_i32 : BitVec 32 := 2#32
  let v9 : BitVec 32 := Scalar.muli arg11 c2_i32
  let v10 : BitVec 32 := Scalar.addi c0_i32_9 v9
  let c1_i32_101 : BitVec 32 := 1#32
  let v174 : BitVec 32 := Scalar.addi v10 c1_i32_101
  let c2_i32_143 : BitVec 32 := 2#32
  let v243 : BitVec 32 := Scalar.muli v174 c2_i32_143
  let v244 : BitVec 32 := Scalar.addi v243 c0_i32_144
  let v245 : Index := Scalar.indexCast v244
  let c112_145 : Index := 112#32
  ![v245.toNat, 112]
@[reducible] def k1_t5_loop : Scf.Loop 32 :=
  let c0_i32_162 : BitVec 32 := 0#32
  let c49_i32_163 : BitVec 32 := 49#32
  let v273 : BitVec 32 := Scalar.addi c0_i32_162 c49_i32_163
  let c1_i32_164 : BitVec 32 := 1#32
  ⟨c0_i32_162, v273, c1_i32_164⟩
def k1_off45 (k1_t5 : Fin k1_t5_loop.trips) : Fin 2 → Nat :=
  let c50_i32_192 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v325 : BitVec 32 := Scalar.addi c50_i32_192 v324
  let v326 : Index := Scalar.indexCast v325
  let c0_193 : Index := 0#32
  ![v326.toNat, 0]
def k1_off46 (k1_t5 : Fin k1_t5_loop.trips) : Fin 2 → Nat :=
  let c50_i32_194 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v330 : BitVec 32 := Scalar.addi c50_i32_194 v324
  let v331 : Index := Scalar.indexCast v330
  let c16_195 : Index := 16#32
  ![v331.toNat, 16]
def k1_off47 (k1_t5 : Fin k1_t5_loop.trips) : Fin 2 → Nat :=
  let c50_i32_196 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v335 : BitVec 32 := Scalar.addi c50_i32_196 v324
  let v336 : Index := Scalar.indexCast v335
  let c32_197 : Index := 32#32
  ![v336.toNat, 32]
def k1_off48 (k1_t5 : Fin k1_t5_loop.trips) : Fin 2 → Nat :=
  let c50_i32_198 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v340 : BitVec 32 := Scalar.addi c50_i32_198 v324
  let v341 : Index := Scalar.indexCast v340
  let c48_199 : Index := 48#32
  ![v341.toNat, 48]
def k1_off49 (k1_t5 : Fin k1_t5_loop.trips) : Fin 2 → Nat :=
  let c50_i32_200 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v345 : BitVec 32 := Scalar.addi c50_i32_200 v324
  let v346 : Index := Scalar.indexCast v345
  let c64_201 : Index := 64#32
  ![v346.toNat, 64]
def k1_off50 (k1_t5 : Fin k1_t5_loop.trips) : Fin 2 → Nat :=
  let c50_i32_202 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v350 : BitVec 32 := Scalar.addi c50_i32_202 v324
  let v351 : Index := Scalar.indexCast v350
  let c80_203 : Index := 80#32
  ![v351.toNat, 80]
def k1_off51 (k1_t5 : Fin k1_t5_loop.trips) : Fin 2 → Nat :=
  let c50_i32_204 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v355 : BitVec 32 := Scalar.addi c50_i32_204 v324
  let v356 : Index := Scalar.indexCast v355
  let c96_205 : Index := 96#32
  ![v356.toNat, 96]
def k1_off52 (k1_t5 : Fin k1_t5_loop.trips) : Fin 2 → Nat :=
  let c50_i32_206 : BitVec 32 := 50#32
  let c1_i32_191 : BitVec 32 := 1#32
  let c0_i32_162 : BitVec 32 := 0#32
  let c1_i32_164 : BitVec 32 := 1#32
  let arg12 : BitVec 32 := Scf.iv c0_i32_162 c1_i32_164 k1_t5
  let c1_i32_190 : BitVec 32 := 1#32
  let v323 : BitVec 32 := Scalar.muli arg12 c1_i32_190
  let v324 : BitVec 32 := Scalar.addi c1_i32_191 v323
  let v360 : BitVec 32 := Scalar.addi c50_i32_206 v324
  let v361 : Index := Scalar.indexCast v360
  let c112_207 : Index := 112#32
  ![v361.toNat, 112]
@[reducible] def k1_t6_loop : Scf.Loop 32 :=
  let c0_i32_6 : BitVec 32 := 0#32
  let c96_i32 : BitVec 32 := 96#32
  let v8 : BitVec 32 := Scalar.addi c0_i32_6 c96_i32
  let c1_i32_7 : BitVec 32 := 1#32
  ⟨c0_i32_6, v8, c1_i32_7⟩
def k1_off53 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v11 : Index := Scalar.indexCast v10
  let c0 : Index := 0#32
  ![v11.toNat, 0]
def k1_off54 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v20 : Index := Scalar.indexCast v10
  let c16 : Index := 16#32
  ![v20.toNat, 16]
def k1_off55 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v29 : Index := Scalar.indexCast v10
  let c32 : Index := 32#32
  ![v29.toNat, 32]
def k1_off56 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v38 : Index := Scalar.indexCast v10
  let c48 : Index := 48#32
  ![v38.toNat, 48]
def k1_off57 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v47 : Index := Scalar.indexCast v10
  let c64 : Index := 64#32
  ![v47.toNat, 64]
def k1_off58 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v56 : Index := Scalar.indexCast v10
  let c80 : Index := 80#32
  ![v56.toNat, 80]
def k1_off59 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v65 : Index := Scalar.indexCast v10
  let c96 : Index := 96#32
  ![v65.toNat, 96]
def k1_off60 (k1_t6 : Fin k1_t6_loop.trips) : Fin 2 → Nat :=
  let c0_i32_10 : BitVec 32 := 0#32
  let c0_i32_6 : BitVec 32 := 0#32
  let c1_i32_7 : BitVec 32 := 1#32
  let arg11 : BitVec 32 := Scf.iv c0_i32_6 c1_i32_7 k1_t6
  let c1_i32_9 : BitVec 32 := 1#32
  let v9 : BitVec 32 := Scalar.muli arg11 c1_i32_9
  let v10 : BitVec 32 := Scalar.addi c0_i32_10 v9
  let v74 : Index := Scalar.indexCast v10
  let c112 : Index := 112#32
  ![v74.toNat, 112]
def k1_off61 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r1 : BitVec 32 := 0#32
  let c0_i32_10_r1 : BitVec 32 := 0#32
  ![v1.toNat, 0, 0]
abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x10000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S10000_S1x10000 : S10000.ShapeCasts S1x10000
  sliceFits_S4096x50_S1024x50 : S4096x50.Slices (fun _ => 0) S1024x50
  h_S_ : 0 < S_.numel
  shapeCasts_S1024x50_S32x16x100 : S1024x50.ShapeCasts S32x16x100
  squeezes_S1x16x100_S16x100 : S1x16x100.Squeezes S16x100
  inb_S16x100_S1x100_0_0 : ∀ a, (![0, 0] : Fin 2 → Nat) a + S1x100.size a ≤ S16x100.size a
  squeezes_S1x100_S100 : S1x100.Squeezes S100
  inb_S100000x128_S100000x128_0_0 : ∀ a, (![0, 0] : Fin 2 → Nat) a + S100000x128.size a ≤ S100000x128.size a
  gathers_S100000x128_S100x128 : S100000x128.Gathers 0 S100x128
  inb_S100x128_S1x16_0_0 : ∀ a, (![0, 0] : Fin 2 → Nat) a + S1x16.size a ≤ S100x128.size a
  h_S1x16 : 0 < S1x16.numel
  shapeCasts_S1x16_S16 : S1x16.ShapeCasts S16
  inb_S100x128_S1x16_0_16 : ∀ a, (![0, 16] : Fin 2 → Nat) a + S1x16.size a ≤ S100x128.size a
  inb_S100x128_S1x16_0_32 : ∀ a, (![0, 32] : Fin 2 → Nat) a + S1x16.size a ≤ S100x128.size a
  inb_S100x128_S1x16_0_48 : ∀ a, (![0, 48] : Fin 2 → Nat) a + S1x16.size a ≤ S100x128.size a
  inb_S100x128_S1x16_0_64 : ∀ a, (![0, 64] : Fin 2 → Nat) a + S1x16.size a ≤ S100x128.size a
  inb_S100x128_S1x16_0_80 : ∀ a, (![0, 80] : Fin 2 → Nat) a + S1x16.size a ≤ S100x128.size a
  inb_S100x128_S1x16_0_96 : ∀ a, (![0, 96] : Fin 2 → Nat) a + S1x16.size a ≤ S100x128.size a
  inb_S100x128_S1x16_0_112 : ∀ a, (![0, 112] : Fin 2 → Nat) a + S1x16.size a ≤ S100x128.size a
  shapeCasts_S16_S1x16 : S16.ShapeCasts S1x16
  inb_S100x128_S1x16_50_0 : ∀ a, (![50, 0] : Fin 2 → Nat) a + S1x16.size a ≤ S100x128.size a
  inb_S100x128_S1x16_50_16 : ∀ a, (![50, 16] : Fin 2 → Nat) a + S1x16.size a ≤ S100x128.size a
  inb_S100x128_S1x16_50_32 : ∀ a, (![50, 32] : Fin 2 → Nat) a + S1x16.size a ≤ S100x128.size a
  inb_S100x128_S1x16_50_48 : ∀ a, (![50, 48] : Fin 2 → Nat) a + S1x16.size a ≤ S100x128.size a
  inb_S100x128_S1x16_50_64 : ∀ a, (![50, 64] : Fin 2 → Nat) a + S1x16.size a ≤ S100x128.size a
  inb_S100x128_S1x16_50_80 : ∀ a, (![50, 80] : Fin 2 → Nat) a + S1x16.size a ≤ S100x128.size a
  inb_S100x128_S1x16_50_96 : ∀ a, (![50, 96] : Fin 2 → Nat) a + S1x16.size a ≤ S100x128.size a
  inb_S100x128_S1x16_50_112 : ∀ a, (![50, 112] : Fin 2 → Nat) a + S1x16.size a ≤ S100x128.size a
  squeezes_S1x32x128_S32x128 : S1x32x128.Squeezes S32x128
  shapeCasts_S32x32x128_S1024x128 : S32x32x128.ShapeCasts S1024x128
  sliceFits_S4096x50_S3072x50 : S4096x50.Slices (fun _ => 0) S3072x50
  shapeCasts_S3072x50_S32x48x100 : S3072x50.ShapeCasts S32x48x100
  squeezes_S1x48x100_S48x100 : S1x48x100.Squeezes S48x100
  inb_S48x100_S1x100_0_0 : ∀ a, (![0, 0] : Fin 2 → Nat) a + S1x100.size a ≤ S48x100.size a
  squeezes_S1x96x128_S96x128 : S1x96x128.Squeezes S96x128
  shapeCasts_S32x96x128_S3072x128 : S32x96x128.ShapeCasts S3072x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S10000x128_S10000x128_0_0 : ∀ a, (![0, 0] : Fin 2 → Nat) a + S10000x128.size a ≤ S10000x128.size a
  h_S10000x128 : 0 < S10000x128.numel
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S512x10000 : S1x10000.Broadcasts S512x10000
  inb_S512x10000_S512x10000_0_0 : ∀ a, (![0, 0] : Fin 2 → Nat) a + S512x10000.size a ≤ S512x10000.size a
  h_S512x10000 : 0 < S512x10000.numel
  dot_S512x128_S10000x128_S512x10000_1_1_0_0_n_n_wf : DotDims.WF S512x128 S10000x128 S512x10000 [1] [1] [0] [0] [] []
  hcc0_scratch4 : 0 + S_.numel ≤ 20
  hcc0_scratch5 : 1 + S_.numel ≤ 20
  hcc0_scoped0 : 2 + S_.numel ≤ 20
  hcc0_scoped1 : 3 + S_.numel ≤ 20
  hcc1_scratch4 : 4 + S_.numel ≤ 20
  hcc1_scratch5 : 5 + S_.numel ≤ 20
  hcc1_scoped0 : 6 + S_.numel ≤ 20
  hcc1_scoped1 : 7 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x16x100.size a ≤ S32x16x100.size a
  k0_t1_ok : k0_t1_loop.OK
  k0_off2_inb : ∀ k0_t1 : Fin k0_t1_loop.trips, ∀ a, (k0_off2 k0_t1) a + S1x100.size a ≤ S16x100.size a
  k0_off3_inb : ∀ k0_t1 : Fin k0_t1_loop.trips, ∀ a, (k0_off3 k0_t1) a + S1x100.size a ≤ S16x100.size a
  k0_t2_ok : k0_t2_loop.OK
  k0_off4_inb : ∀ k0_t2 : Fin k0_t2_loop.trips, ∀ a, (k0_off4 k0_t2) a + S1x16.size a ≤ S100x128.size a
  k0_off5_inb : ∀ k0_t2 : Fin k0_t2_loop.trips, ∀ a, (k0_off5 k0_t2) a + S1x16.size a ≤ S100x128.size a
  k0_off6_inb : ∀ k0_t2 : Fin k0_t2_loop.trips, ∀ a, (k0_off6 k0_t2) a + S1x16.size a ≤ S100x128.size a
  k0_off7_inb : ∀ k0_t2 : Fin k0_t2_loop.trips, ∀ a, (k0_off7 k0_t2) a + S1x16.size a ≤ S100x128.size a
  k0_off8_inb : ∀ k0_t2 : Fin k0_t2_loop.trips, ∀ a, (k0_off8 k0_t2) a + S1x16.size a ≤ S100x128.size a
  k0_off9_inb : ∀ k0_t2 : Fin k0_t2_loop.trips, ∀ a, (k0_off9 k0_t2) a + S1x16.size a ≤ S100x128.size a
  k0_off10_inb : ∀ k0_t2 : Fin k0_t2_loop.trips, ∀ a, (k0_off10 k0_t2) a + S1x16.size a ≤ S100x128.size a
  k0_off11_inb : ∀ k0_t2 : Fin k0_t2_loop.trips, ∀ a, (k0_off11 k0_t2) a + S1x16.size a ≤ S100x128.size a
  k0_off12_inb : ∀ k0_t1 : Fin k0_t1_loop.trips, ∀ (r : Fin 2), ∀ a, (k0_off12 k0_t1 (BitVec.ofNat 32 r.val)) a + S1x16.size a ≤ S32x128.size a
  k0_off13_inb : ∀ k0_t1 : Fin k0_t1_loop.trips, ∀ (r : Fin 2), ∀ a, (k0_off13 k0_t1 (BitVec.ofNat 32 r.val)) a + S1x16.size a ≤ S32x128.size a
  k0_off14_inb : ∀ k0_t1 : Fin k0_t1_loop.trips, ∀ (r : Fin 2), ∀ a, (k0_off14 k0_t1 (BitVec.ofNat 32 r.val)) a + S1x16.size a ≤ S32x128.size a
  k0_off15_inb : ∀ k0_t1 : Fin k0_t1_loop.trips, ∀ (r : Fin 2), ∀ a, (k0_off15 k0_t1 (BitVec.ofNat 32 r.val)) a + S1x16.size a ≤ S32x128.size a
  k0_off16_inb : ∀ k0_t1 : Fin k0_t1_loop.trips, ∀ (r : Fin 2), ∀ a, (k0_off16 k0_t1 (BitVec.ofNat 32 r.val)) a + S1x16.size a ≤ S32x128.size a
  k0_off17_inb : ∀ k0_t1 : Fin k0_t1_loop.trips, ∀ (r : Fin 2), ∀ a, (k0_off17 k0_t1 (BitVec.ofNat 32 r.val)) a + S1x16.size a ≤ S32x128.size a
  k0_off18_inb : ∀ k0_t1 : Fin k0_t1_loop.trips, ∀ (r : Fin 2), ∀ a, (k0_off18 k0_t1 (BitVec.ofNat 32 r.val)) a + S1x16.size a ≤ S32x128.size a
  k0_off19_inb : ∀ k0_t1 : Fin k0_t1_loop.trips, ∀ (r : Fin 2), ∀ a, (k0_off19 k0_t1 (BitVec.ofNat 32 r.val)) a + S1x16.size a ≤ S32x128.size a
  k0_t3_ok : k0_t3_loop.OK
  k0_off20_inb : ∀ k0_t3 : Fin k0_t3_loop.trips, ∀ a, (k0_off20 k0_t3) a + S1x16.size a ≤ S100x128.size a
  k0_off21_inb : ∀ k0_t3 : Fin k0_t3_loop.trips, ∀ a, (k0_off21 k0_t3) a + S1x16.size a ≤ S100x128.size a
  k0_off22_inb : ∀ k0_t3 : Fin k0_t3_loop.trips, ∀ a, (k0_off22 k0_t3) a + S1x16.size a ≤ S100x128.size a
  k0_off23_inb : ∀ k0_t3 : Fin k0_t3_loop.trips, ∀ a, (k0_off23 k0_t3) a + S1x16.size a ≤ S100x128.size a
  k0_off24_inb : ∀ k0_t3 : Fin k0_t3_loop.trips, ∀ a, (k0_off24 k0_t3) a + S1x16.size a ≤ S100x128.size a
  k0_off25_inb : ∀ k0_t3 : Fin k0_t3_loop.trips, ∀ a, (k0_off25 k0_t3) a + S1x16.size a ≤ S100x128.size a
  k0_off26_inb : ∀ k0_t3 : Fin k0_t3_loop.trips, ∀ a, (k0_off26 k0_t3) a + S1x16.size a ≤ S100x128.size a
  k0_off27_inb : ∀ k0_t3 : Fin k0_t3_loop.trips, ∀ a, (k0_off27 k0_t3) a + S1x16.size a ≤ S100x128.size a
  k0_off28_inb : ∀ k0_t1 : Fin k0_t1_loop.trips, ∀ (k0_h1 : k0_cond1 k0_t1 = 1#1), ∀ a, (k0_off28 k0_t1) a + S1x100.size a ≤ S16x100.size a
  k0_t4_ok : k0_t4_loop.OK
  k0_off29_inb : ∀ k0_t4 : Fin k0_t4_loop.trips, ∀ a, (k0_off29 k0_t4) a + S1x16.size a ≤ S100x128.size a
  k0_off30_inb : ∀ k0_t4 : Fin k0_t4_loop.trips, ∀ a, (k0_off30 k0_t4) a + S1x16.size a ≤ S100x128.size a
  k0_off31_inb : ∀ k0_t4 : Fin k0_t4_loop.trips, ∀ a, (k0_off31 k0_t4) a + S1x16.size a ≤ S100x128.size a
  k0_off32_inb : ∀ k0_t4 : Fin k0_t4_loop.trips, ∀ a, (k0_off32 k0_t4) a + S1x16.size a ≤ S100x128.size a
  k0_off33_inb : ∀ k0_t4 : Fin k0_t4_loop.trips, ∀ a, (k0_off33 k0_t4) a + S1x16.size a ≤ S100x128.size a
  k0_off34_inb : ∀ k0_t4 : Fin k0_t4_loop.trips, ∀ a, (k0_off34 k0_t4) a + S1x16.size a ≤ S100x128.size a
  k0_off35_inb : ∀ k0_t4 : Fin k0_t4_loop.trips, ∀ a, (k0_off35 k0_t4) a + S1x16.size a ≤ S100x128.size a
  k0_off36_inb : ∀ k0_t4 : Fin k0_t4_loop.trips, ∀ a, (k0_off36 k0_t4) a + S1x16.size a ≤ S100x128.size a
  k0_off37_inb : ∀ k0_t1 : Fin k0_t1_loop.trips, ∀ (r : Fin 2), ∀ a, (k0_off37 k0_t1 (BitVec.ofNat 32 r.val)) a + S1x16.size a ≤ S32x128.size a
  k0_off38_inb : ∀ k0_t1 : Fin k0_t1_loop.trips, ∀ (r : Fin 2), ∀ a, (k0_off38 k0_t1 (BitVec.ofNat 32 r.val)) a + S1x16.size a ≤ S32x128.size a
  k0_off39_inb : ∀ k0_t1 : Fin k0_t1_loop.trips, ∀ (r : Fin 2), ∀ a, (k0_off39 k0_t1 (BitVec.ofNat 32 r.val)) a + S1x16.size a ≤ S32x128.size a
  k0_off40_inb : ∀ k0_t1 : Fin k0_t1_loop.trips, ∀ (r : Fin 2), ∀ a, (k0_off40 k0_t1 (BitVec.ofNat 32 r.val)) a + S1x16.size a ≤ S32x128.size a
  k0_off41_inb : ∀ k0_t1 : Fin k0_t1_loop.trips, ∀ (r : Fin 2), ∀ a, (k0_off41 k0_t1 (BitVec.ofNat 32 r.val)) a + S1x16.size a ≤ S32x128.size a
  k0_off42_inb : ∀ k0_t1 : Fin k0_t1_loop.trips, ∀ (r : Fin 2), ∀ a, (k0_off42 k0_t1 (BitVec.ofNat 32 r.val)) a + S1x16.size a ≤ S32x128.size a
  k0_off43_inb : ∀ k0_t1 : Fin k0_t1_loop.trips, ∀ (r : Fin 2), ∀ a, (k0_off43 k0_t1 (BitVec.ofNat 32 r.val)) a + S1x16.size a ≤ S32x128.size a
  k0_off44_inb : ∀ k0_t1 : Fin k0_t1_loop.trips, ∀ (r : Fin 2), ∀ a, (k0_off44 k0_t1 (BitVec.ofNat 32 r.val)) a + S1x16.size a ≤ S32x128.size a
  k0_t5_ok : k0_t5_loop.OK
  k0_off45_inb : ∀ k0_t5 : Fin k0_t5_loop.trips, ∀ a, (k0_off45 k0_t5) a + S1x16.size a ≤ S100x128.size a
  k0_off46_inb : ∀ k0_t5 : Fin k0_t5_loop.trips, ∀ a, (k0_off46 k0_t5) a + S1x16.size a ≤ S100x128.size a
  k0_off47_inb : ∀ k0_t5 : Fin k0_t5_loop.trips, ∀ a, (k0_off47 k0_t5) a + S1x16.size a ≤ S100x128.size a
  k0_off48_inb : ∀ k0_t5 : Fin k0_t5_loop.trips, ∀ a, (k0_off48 k0_t5) a + S1x16.size a ≤ S100x128.size a
  k0_off49_inb : ∀ k0_t5 : Fin k0_t5_loop.trips, ∀ a, (k0_off49 k0_t5) a + S1x16.size a ≤ S100x128.size a
  k0_off50_inb : ∀ k0_t5 : Fin k0_t5_loop.trips, ∀ a, (k0_off50 k0_t5) a + S1x16.size a ≤ S100x128.size a
  k0_off51_inb : ∀ k0_t5 : Fin k0_t5_loop.trips, ∀ a, (k0_off51 k0_t5) a + S1x16.size a ≤ S100x128.size a
  k0_off52_inb : ∀ k0_t5 : Fin k0_t5_loop.trips, ∀ a, (k0_off52 k0_t5) a + S1x16.size a ≤ S100x128.size a
  k0_t6_ok : k0_t6_loop.OK
  k0_off53_inb : ∀ k0_t6 : Fin k0_t6_loop.trips, ∀ a, (k0_off53 k0_t6) a + S1x16.size a ≤ S32x128.size a
  k0_off54_inb : ∀ k0_t6 : Fin k0_t6_loop.trips, ∀ a, (k0_off54 k0_t6) a + S1x16.size a ≤ S32x128.size a
  k0_off55_inb : ∀ k0_t6 : Fin k0_t6_loop.trips, ∀ a, (k0_off55 k0_t6) a + S1x16.size a ≤ S32x128.size a
  k0_off56_inb : ∀ k0_t6 : Fin k0_t6_loop.trips, ∀ a, (k0_off56 k0_t6) a + S1x16.size a ≤ S32x128.size a
  k0_off57_inb : ∀ k0_t6 : Fin k0_t6_loop.trips, ∀ a, (k0_off57 k0_t6) a + S1x16.size a ≤ S32x128.size a
  k0_off58_inb : ∀ k0_t6 : Fin k0_t6_loop.trips, ∀ a, (k0_off58 k0_t6) a + S1x16.size a ≤ S32x128.size a
  k0_off59_inb : ∀ k0_t6 : Fin k0_t6_loop.trips, ∀ a, (k0_off59 k0_t6) a + S1x16.size a ≤ S32x128.size a
  k0_off60_inb : ∀ k0_t6 : Fin k0_t6_loop.trips, ∀ a, (k0_off60 k0_t6) a + S1x16.size a ≤ S32x128.size a
  k0_off61_inb : ∀ i : grid0.Coords, ∀ a, (k0_off61 i) a + S1x32x128.size a ≤ S32x32x128.size a
  hcore1 : grid1.bound 0 ≤ τ.nSC
  hsub1 : grid1.bound 1 ≤ τ.nSub
  k1_off1_inb : ∀ i : grid1.Coords, ∀ a, (k1_off1 i) a + S1x48x100.size a ≤ S32x48x100.size a
  k1_t1_ok : k1_t1_loop.OK
  k1_off2_inb : ∀ k1_t1 : Fin k1_t1_loop.trips, ∀ a, (k1_off2 k1_t1) a + S1x100.size a ≤ S48x100.size a
  k1_off3_inb : ∀ k1_t1 : Fin k1_t1_loop.trips, ∀ a, (k1_off3 k1_t1) a + S1x100.size a ≤ S48x100.size a
  k1_t2_ok : k1_t2_loop.OK
  k1_off4_inb : ∀ k1_t2 : Fin k1_t2_loop.trips, ∀ a, (k1_off4 k1_t2) a + S1x16.size a ≤ S100x128.size a
  k1_off5_inb : ∀ k1_t2 : Fin k1_t2_loop.trips, ∀ a, (k1_off5 k1_t2) a + S1x16.size a ≤ S100x128.size a
  k1_off6_inb : ∀ k1_t2 : Fin k1_t2_loop.trips, ∀ a, (k1_off6 k1_t2) a + S1x16.size a ≤ S100x128.size a
  k1_off7_inb : ∀ k1_t2 : Fin k1_t2_loop.trips, ∀ a, (k1_off7 k1_t2) a + S1x16.size a ≤ S100x128.size a
  k1_off8_inb : ∀ k1_t2 : Fin k1_t2_loop.trips, ∀ a, (k1_off8 k1_t2) a + S1x16.size a ≤ S100x128.size a
  k1_off9_inb : ∀ k1_t2 : Fin k1_t2_loop.trips, ∀ a, (k1_off9 k1_t2) a + S1x16.size a ≤ S100x128.size a
  k1_off10_inb : ∀ k1_t2 : Fin k1_t2_loop.trips, ∀ a, (k1_off10 k1_t2) a + S1x16.size a ≤ S100x128.size a
  k1_off11_inb : ∀ k1_t2 : Fin k1_t2_loop.trips, ∀ a, (k1_off11 k1_t2) a + S1x16.size a ≤ S100x128.size a
  k1_off12_inb : ∀ k1_t1 : Fin k1_t1_loop.trips, ∀ (r : Fin 2), ∀ a, (k1_off12 k1_t1 (BitVec.ofNat 32 r.val)) a + S1x16.size a ≤ S96x128.size a
  k1_off13_inb : ∀ k1_t1 : Fin k1_t1_loop.trips, ∀ (r : Fin 2), ∀ a, (k1_off13 k1_t1 (BitVec.ofNat 32 r.val)) a + S1x16.size a ≤ S96x128.size a
  k1_off14_inb : ∀ k1_t1 : Fin k1_t1_loop.trips, ∀ (r : Fin 2), ∀ a, (k1_off14 k1_t1 (BitVec.ofNat 32 r.val)) a + S1x16.size a ≤ S96x128.size a
  k1_off15_inb : ∀ k1_t1 : Fin k1_t1_loop.trips, ∀ (r : Fin 2), ∀ a, (k1_off15 k1_t1 (BitVec.ofNat 32 r.val)) a + S1x16.size a ≤ S96x128.size a
  k1_off16_inb : ∀ k1_t1 : Fin k1_t1_loop.trips, ∀ (r : Fin 2), ∀ a, (k1_off16 k1_t1 (BitVec.ofNat 32 r.val)) a + S1x16.size a ≤ S96x128.size a
  k1_off17_inb : ∀ k1_t1 : Fin k1_t1_loop.trips, ∀ (r : Fin 2), ∀ a, (k1_off17 k1_t1 (BitVec.ofNat 32 r.val)) a + S1x16.size a ≤ S96x128.size a
  k1_off18_inb : ∀ k1_t1 : Fin k1_t1_loop.trips, ∀ (r : Fin 2), ∀ a, (k1_off18 k1_t1 (BitVec.ofNat 32 r.val)) a + S1x16.size a ≤ S96x128.size a
  k1_off19_inb : ∀ k1_t1 : Fin k1_t1_loop.trips, ∀ (r : Fin 2), ∀ a, (k1_off19 k1_t1 (BitVec.ofNat 32 r.val)) a + S1x16.size a ≤ S96x128.size a
  k1_t3_ok : k1_t3_loop.OK
  k1_off20_inb : ∀ k1_t3 : Fin k1_t3_loop.trips, ∀ a, (k1_off20 k1_t3) a + S1x16.size a ≤ S100x128.size a
  k1_off21_inb : ∀ k1_t3 : Fin k1_t3_loop.trips, ∀ a, (k1_off21 k1_t3) a + S1x16.size a ≤ S100x128.size a
  k1_off22_inb : ∀ k1_t3 : Fin k1_t3_loop.trips, ∀ a, (k1_off22 k1_t3) a + S1x16.size a ≤ S100x128.size a
  k1_off23_inb : ∀ k1_t3 : Fin k1_t3_loop.trips, ∀ a, (k1_off23 k1_t3) a + S1x16.size a ≤ S100x128.size a
  k1_off24_inb : ∀ k1_t3 : Fin k1_t3_loop.trips, ∀ a, (k1_off24 k1_t3) a + S1x16.size a ≤ S100x128.size a
  k1_off25_inb : ∀ k1_t3 : Fin k1_t3_loop.trips, ∀ a, (k1_off25 k1_t3) a + S1x16.size a ≤ S100x128.size a
  k1_off26_inb : ∀ k1_t3 : Fin k1_t3_loop.trips, ∀ a, (k1_off26 k1_t3) a + S1x16.size a ≤ S100x128.size a
  k1_off27_inb : ∀ k1_t3 : Fin k1_t3_loop.trips, ∀ a, (k1_off27 k1_t3) a + S1x16.size a ≤ S100x128.size a
  k1_off28_inb : ∀ k1_t1 : Fin k1_t1_loop.trips, ∀ (k1_h1 : k1_cond1 k1_t1 = 1#1), ∀ a, (k1_off28 k1_t1) a + S1x100.size a ≤ S48x100.size a
  k1_t4_ok : k1_t4_loop.OK
  k1_off29_inb : ∀ k1_t4 : Fin k1_t4_loop.trips, ∀ a, (k1_off29 k1_t4) a + S1x16.size a ≤ S100x128.size a
  k1_off30_inb : ∀ k1_t4 : Fin k1_t4_loop.trips, ∀ a, (k1_off30 k1_t4) a + S1x16.size a ≤ S100x128.size a
  k1_off31_inb : ∀ k1_t4 : Fin k1_t4_loop.trips, ∀ a, (k1_off31 k1_t4) a + S1x16.size a ≤ S100x128.size a
  k1_off32_inb : ∀ k1_t4 : Fin k1_t4_loop.trips, ∀ a, (k1_off32 k1_t4) a + S1x16.size a ≤ S100x128.size a
  k1_off33_inb : ∀ k1_t4 : Fin k1_t4_loop.trips, ∀ a, (k1_off33 k1_t4) a + S1x16.size a ≤ S100x128.size a
  k1_off34_inb : ∀ k1_t4 : Fin k1_t4_loop.trips, ∀ a, (k1_off34 k1_t4) a + S1x16.size a ≤ S100x128.size a
  k1_off35_inb : ∀ k1_t4 : Fin k1_t4_loop.trips, ∀ a, (k1_off35 k1_t4) a + S1x16.size a ≤ S100x128.size a
  k1_off36_inb : ∀ k1_t4 : Fin k1_t4_loop.trips, ∀ a, (k1_off36 k1_t4) a + S1x16.size a ≤ S100x128.size a
  k1_off37_inb : ∀ k1_t1 : Fin k1_t1_loop.trips, ∀ (r : Fin 2), ∀ a, (k1_off37 k1_t1 (BitVec.ofNat 32 r.val)) a + S1x16.size a ≤ S96x128.size a
  k1_off38_inb : ∀ k1_t1 : Fin k1_t1_loop.trips, ∀ (r : Fin 2), ∀ a, (k1_off38 k1_t1 (BitVec.ofNat 32 r.val)) a + S1x16.size a ≤ S96x128.size a
  k1_off39_inb : ∀ k1_t1 : Fin k1_t1_loop.trips, ∀ (r : Fin 2), ∀ a, (k1_off39 k1_t1 (BitVec.ofNat 32 r.val)) a + S1x16.size a ≤ S96x128.size a
  k1_off40_inb : ∀ k1_t1 : Fin k1_t1_loop.trips, ∀ (r : Fin 2), ∀ a, (k1_off40 k1_t1 (BitVec.ofNat 32 r.val)) a + S1x16.size a ≤ S96x128.size a
  k1_off41_inb : ∀ k1_t1 : Fin k1_t1_loop.trips, ∀ (r : Fin 2), ∀ a, (k1_off41 k1_t1 (BitVec.ofNat 32 r.val)) a + S1x16.size a ≤ S96x128.size a
  k1_off42_inb : ∀ k1_t1 : Fin k1_t1_loop.trips, ∀ (r : Fin 2), ∀ a, (k1_off42 k1_t1 (BitVec.ofNat 32 r.val)) a + S1x16.size a ≤ S96x128.size a
  k1_off43_inb : ∀ k1_t1 : Fin k1_t1_loop.trips, ∀ (r : Fin 2), ∀ a, (k1_off43 k1_t1 (BitVec.ofNat 32 r.val)) a + S1x16.size a ≤ S96x128.size a
  k1_off44_inb : ∀ k1_t1 : Fin k1_t1_loop.trips, ∀ (r : Fin 2), ∀ a, (k1_off44 k1_t1 (BitVec.ofNat 32 r.val)) a + S1x16.size a ≤ S96x128.size a
  k1_t5_ok : k1_t5_loop.OK
  k1_off45_inb : ∀ k1_t5 : Fin k1_t5_loop.trips, ∀ a, (k1_off45 k1_t5) a + S1x16.size a ≤ S100x128.size a
  k1_off46_inb : ∀ k1_t5 : Fin k1_t5_loop.trips, ∀ a, (k1_off46 k1_t5) a + S1x16.size a ≤ S100x128.size a
  k1_off47_inb : ∀ k1_t5 : Fin k1_t5_loop.trips, ∀ a, (k1_off47 k1_t5) a + S1x16.size a ≤ S100x128.size a
  k1_off48_inb : ∀ k1_t5 : Fin k1_t5_loop.trips, ∀ a, (k1_off48 k1_t5) a + S1x16.size a ≤ S100x128.size a
  k1_off49_inb : ∀ k1_t5 : Fin k1_t5_loop.trips, ∀ a, (k1_off49 k1_t5) a + S1x16.size a ≤ S100x128.size a
  k1_off50_inb : ∀ k1_t5 : Fin k1_t5_loop.trips, ∀ a, (k1_off50 k1_t5) a + S1x16.size a ≤ S100x128.size a
  k1_off51_inb : ∀ k1_t5 : Fin k1_t5_loop.trips, ∀ a, (k1_off51 k1_t5) a + S1x16.size a ≤ S100x128.size a
  k1_off52_inb : ∀ k1_t5 : Fin k1_t5_loop.trips, ∀ a, (k1_off52 k1_t5) a + S1x16.size a ≤ S100x128.size a
  k1_t6_ok : k1_t6_loop.OK
  k1_off53_inb : ∀ k1_t6 : Fin k1_t6_loop.trips, ∀ a, (k1_off53 k1_t6) a + S1x16.size a ≤ S96x128.size a
  k1_off54_inb : ∀ k1_t6 : Fin k1_t6_loop.trips, ∀ a, (k1_off54 k1_t6) a + S1x16.size a ≤ S96x128.size a
  k1_off55_inb : ∀ k1_t6 : Fin k1_t6_loop.trips, ∀ a, (k1_off55 k1_t6) a + S1x16.size a ≤ S96x128.size a
  k1_off56_inb : ∀ k1_t6 : Fin k1_t6_loop.trips, ∀ a, (k1_off56 k1_t6) a + S1x16.size a ≤ S96x128.size a
  k1_off57_inb : ∀ k1_t6 : Fin k1_t6_loop.trips, ∀ a, (k1_off57 k1_t6) a + S1x16.size a ≤ S96x128.size a
  k1_off58_inb : ∀ k1_t6 : Fin k1_t6_loop.trips, ∀ a, (k1_off58 k1_t6) a + S1x16.size a ≤ S96x128.size a
  k1_off59_inb : ∀ k1_t6 : Fin k1_t6_loop.trips, ∀ a, (k1_off59 k1_t6) a + S1x16.size a ≤ S96x128.size a
  k1_off60_inb : ∀ k1_t6 : Fin k1_t6_loop.trips, ∀ a, (k1_off60 k1_t6) a + S1x16.size a ≤ S96x128.size a
  k1_off61_inb : ∀ i : grid1.Coords, ∀ a, (k1_off61 i) a + S1x96x128.size a ≤ S32x96x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S1024x128.size a
  hwx2_0 : ∀ i : grid2.Coords, EltTy.bits .f32 = 32 ∨ (Rect.block (s := S1024x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10000.size a ≤ S1x10000.size a
  hwx2_2 : ∀ i : grid2.Coords, EltTy.bits .f32 = 32 ∨ (Rect.block (s := S1x10000) S1x10000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x10000.size a ≤ S4096x10000.size a
  hwx2_3 : ∀ i : grid2.Coords, EltTy.bits .f32 = 32 ∨ (Rect.block (s := S4096x10000) S512x10000.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S3072x128.size a
  hwx3_0 : ∀ i : grid3.Coords, EltTy.bits .f32 = 32 ∨ (Rect.block (s := S3072x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10000.size a ≤ S1x10000.size a
  hwx3_2 : ∀ i : grid3.Coords, EltTy.bits .f32 = 32 ∨ (Rect.block (s := S1x10000) S1x10000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hinb3_3 : ∀ (i : grid3.Coords) a, (cc3_transform_4 i a + 1) * S512x10000.size a ≤ S4096x10000.size a
  hwx3_3 : ∀ i : grid3.Coords, EltTy.bits .f32 = 32 ∨ (Rect.block (s := S4096x10000) S512x10000.size (cc3_transform_4 i) (hinb3_3 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc1_scratch4 : DmaSems sig S_ := SemArray.consecutive 4 S_ hcc1_scratch4
abbrev cc1_scratch5 : DmaSems sig S_ := SemArray.consecutive 5 S_ hcc1_scratch5
abbrev cc1_scoped0 : DmaSems sig S_ := SemArray.consecutive 6 S_ hcc1_scoped0
abbrev cc1_scoped1 : DmaSems sig S_ := SemArray.consecutive 7 S_ hcc1_scoped1
def dot_S512x128_S10000x128_S512x10000_1_1_0_0_n_n : DotDims S512x128 S10000x128 S512x10000 where
  lhsContracting := [1]
  rhsContracting := [1]
  lhsNonContracting := [0]
  rhsNonContracting := [0]
  lhsBatch := []
  rhsBatch := []
  wf := dot_S512x128_S10000x128_S512x10000_1_1_0_0_n_n_wf

abbrev win2_0 : Pipeline.Window sig grid2 :=
  Pipeline.Window.ofSpec (Memref.whole main_v4) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x10000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x10000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v8) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0) S1x10000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S512x10000.size cc3_transform_4 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x50 : Shape := ⟨2, ![4096, 50]⟩
abbrev S100000x128 : Shape := ⟨2, ![100000, 128]⟩
abbrev S10000x128 : Shape := ⟨2, ![10000, 128]⟩
abbrev S10000 : Shape := ⟨1, ![10000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩
abbrev S128x10000 : Shape := ⟨2, ![128, 10000]⟩
abbrev S4096x10000 : Shape := ⟨2, ![4096, 10000]⟩
abbrev S1x10000 : Shape := ⟨2, ![1, 10000]⟩

abbrev nBuf : Space → Nat
  | .hbm => 42
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S4096x50, .i32⟩
  | .hbm, ⟨3, _⟩ => ⟨S100000x128, .f32⟩
  | .hbm, ⟨4, _⟩ => ⟨S10000x128, .f32⟩
  | .hbm, ⟨5, _⟩ => ⟨S10000, .f32⟩
  | .hbm, ⟨6, _⟩ => ⟨S_, .i32⟩
  | .hbm, ⟨7, _⟩ => ⟨S4096x50, .i32⟩
  | .hbm, ⟨8, _⟩ => ⟨S4096x50, .i1⟩
  | .hbm, ⟨9, _⟩ => ⟨S_, .i32⟩
  | .hbm, ⟨10, _⟩ => ⟨S4096x50, .i32⟩
  | .hbm, ⟨11, _⟩ => ⟨S4096x50, .i32⟩
  | .hbm, ⟨12, _⟩ => ⟨S4096x50, .i32⟩
  | .hbm, ⟨13, _⟩ => ⟨S4096x50x1, .i32⟩
  | .hbm, ⟨14, _⟩ => ⟨S1, .i32⟩
  | .hbm, ⟨15, _⟩ => ⟨S_, .i32⟩
  | .hbm, ⟨16, _⟩ => ⟨S4096x50x1, .i32⟩
  | .hbm, ⟨17, _⟩ => ⟨S4096x50x1, .i1⟩
  | .hbm, ⟨18, _⟩ => ⟨S1x1x1, .i32⟩
  | .hbm, ⟨19, _⟩ => ⟨S4096x50x1, .i32⟩
  | .hbm, ⟨20, _⟩ => ⟨S4096x50x1, .i1⟩
  | .hbm, ⟨21, _⟩ => ⟨S4096x50x1, .i1⟩
  | .hbm, ⟨22, _⟩ => ⟨S_, .i1⟩
  | .hbm, ⟨23, _⟩ => ⟨S4096x50, .i1⟩
  | .hbm, ⟨24, _⟩ => ⟨S4096x50x128, .f32⟩
  | .hbm, ⟨25, _⟩ => ⟨S4096x50x128, .i1⟩
  | .hbm, ⟨26, _⟩ => ⟨S_, .f32⟩
  | .hbm, ⟨27, _⟩ => ⟨S4096x50x128, .f32⟩
  | .hbm, ⟨28, _⟩ => ⟨S4096x50x128, .f32⟩
  | .hbm, ⟨29, _⟩ => ⟨S_, .f32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | .hbm, ⟨37, _⟩ => ⟨S128x10000, .f32⟩
  | .hbm, ⟨38, _⟩ => ⟨S4096x10000, .f32⟩
  | .hbm, ⟨39, _⟩ => ⟨S1x10000, .f32⟩
  | .hbm, ⟨40, _⟩ => ⟨S4096x10000, .f32⟩
  | .hbm, ⟨41, _⟩ => ⟨S4096x10000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_call1_cst : Ref sig .tc := ⟨.hbm, 34, rfl⟩
abbrev main_call1_v0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  reducesTo_S4096x50x128_S4096x128_d1 : S4096x50x128.ReducesTo [1] S4096x128
  bcast_S_S4096x128 : S_.BroadcastsInDim S4096x128 (![] : Fin 0 → Fin S4096x128.rank)
  transposes_S10000x128_S128x10000_1_0 : S10000x128.Transposes [1, 0] S128x10000
  bcast_S10000_S1x10000_1 : S10000.BroadcastsInDim S1x10000 (![1] : Fin 1 → Fin S1x10000.rank)
  bcast_S1x10000_S4096x10000_0_1 : S1x10000.BroadcastsInDim S4096x10000 (![0, 1] : Fin 2 → Fin S4096x10000.rank)
  gather_S100000x128_S4096x50x1_S4096x50x128_2_0_n_n_0_2_1128_wf : GatherDims.WF S100000x128 S4096x50x1 S4096x50x128 [2] [0] [] [0] [] 2 ![1, 128]
  dot_S4096x128_S128x10000_S4096x10000_1_0_0_1_n_n_wf : DotDims.WF S4096x128 S128x10000 S4096x10000 [1] [0] [0] [1] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x128_S128x10000_S4096x10000_1_0_0_1_n_n : DotDims S4096x128 S128x10000 S4096x10000 where
  lhsContracting := [1]
  rhsContracting := [0]
  lhsNonContracting := [0]
  rhsNonContracting := [1]
  lhsBatch := []
  rhsBatch := []
  wf := dot_S4096x128_S128x10000_S4096x10000_1_0_0_1_n_n_wf

class Facts : Prop extends Facts₀ where

variable [Facts]
-- ==== Proof.Common.lean ====
/-
  The shared set-up of this certificate's kernel-side proof: the SparseCore launch configuration of the printed
  program (two vector-subcore calls, two TensorCore pipelines), and the ghost state every module states its
  assertions over — the SparseCore handshakes' rounds, the TensorCore pipelines' staging cells' rounds, and the
  counters of the tasks' own transfers.
-/
import proofs.«204104_g71330816851969_cont_9to1_m_219_17_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204104_g71330816851969_cont_9to1_m_219_17_alg».proof.Proof.Gen.KernelIdeal
import proofs.«204104_g71330816851969_cont_9to1_m_219_17_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_q (q : Fin 2) : (K (F := F)).nSub q = 16 := by
  match q with
  | 0 => rfl
  | 1 => rfl
theorem nCore_q (q : Fin 2) : (K (F := F)).nCore q = 2 := by
  match q with
  | 0 => rfl
  | 1 => rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The SparseCore handshakes' rounds. -/
abbrev UH : Type := URounds (GSem nD τ sig) ℕ
/-- The TensorCore pipelines' staging cells' rounds. -/
abbrev UP : Type := URounds (GSem nD τ sig) Unit
/-- Handshakes, staging cells, and the counters of the tasks' own transfers. -/
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by unfold EP embR; infer_instance

omit [FloatOps F] [Named F] in
/-- The launch element splits into the handshakes' part and the staging cells' part (the counters' part, the unit of
    its algebra, is dropped). -/
theorem ownU_split3 (a : UH) (b : UP) (c : Counters) :
    (ownU ((a, (b, c)) : UU) : sProp 𝕄) ⊢ iprop(BI.own (EH a) ∗ BI.own (EP b)) := by
  iintro Hu
  ihave H := (ownU_pair a (b, c)) $$ Hu
  icases H with ⟨HH, HR⟩
  ihave H2 := (own_pair_emb (embR : Emb (UP × Counters) 𝕄) b c) $$ HR
  icases H2 with ⟨HP, -⟩
  isplitl [HH]; · iexact HH
  iexact HP

end Cert.Proof.KI

end
-- ==== Proof.Rows.lean ====
/-
  The rows the 32 vector-subcore tasks of each SparseCore call work on: task w = 16·c + s (SparseCore c, subcore s)
  reads row w of the call's index array and writes row w of its result array; every task reads the whole
  embedding table.
-/
import proofs.«204104_g71330816851969_cont_9to1_m_219_17_alg».proof.Proof.Common

noncomputable section

namespace Cert.Proof.KI

open Cert.KernelIdeal Cert.KernelIdeal.Gen

open Idealize.ShloMosaic
open Idealize.ShloMosaic.SparseCore (S V T)

/-- Task number of subcore `s` of SparseCore `c`. -/
def taskIx (c : Fin 2) (s : Fin 16) : Fin 32 := ⟨16 * c.val + s.val, by omega⟩

theorem taskIx_injective : Function.Injective (fun cs : Fin 2 × Fin 16 => taskIx cs.1 cs.2) := by
  rintro ⟨c, s⟩ ⟨c', s'⟩ h
  have h' : 16 * c.val + s.val = 16 * c'.val + s'.val := congrArg Fin.val h
  have hc : c.val = c'.val := by omega
  have hs : s.val = s'.val := by omega
  exact Prod.ext (Fin.ext hc) (Fin.ext hs)

theorem taskIx_surjective : Function.Surjective (fun cs : Fin 2 × Fin 16 => taskIx cs.1 cs.2) := by
  intro w
  refine ⟨(⟨w.val / 16, by omega⟩, ⟨w.val % 16, Nat.mod_lt _ (by decide)⟩), Fin.ext ?_⟩
  show 16 * (w.val / 16) + w.val % 16 = w.val
  omega

/-! ## Call 0: index array `main_v2 : i32[32,16,100]`, result `main_v3 : f32[32,32,128]` -/

theorem hdivI0 : 32 ∣ S32x16x100.size 0 := ⟨1, rfl⟩
theorem hdivO0 : 32 ∣ S32x32x128.size 0 := ⟨1, rfl⟩
/-- Row `w` of the index array of call 0, as a rectangle and as a set of indices. -/
abbrev rowI0 (w : Fin 32) : Rect S32x16x100 := Rect.part (s := S32x16x100) (a₀ := 0) hdivI0 w
abbrev rowO0 (w : Fin 32) : Rect S32x32x128 := Rect.part (s := S32x32x128) (a₀ := 0) hdivO0 w
abbrev rowSetI0 (w : Fin 32) : Finset S32x16x100.Idx := (rowI0 w).set
abbrev rowSetO0 (w : Fin 32) : Finset S32x32x128.Idx := (rowO0 w).set

/-! ## Call 1: index array `main_v6 : i32[32,48,100]`, result `main_v7 : f32[32,96,128]` -/

theorem hdivI1 : 32 ∣ S32x48x100.size 0 := ⟨1, rfl⟩
theorem hdivO1 : 32 ∣ S32x96x128.size 0 := ⟨1, rfl⟩
abbrev rowI1 (w : Fin 32) : Rect S32x48x100 := Rect.part (s := S32x48x100) (a₀ := 0) hdivI1 w
abbrev rowO1 (w : Fin 32) : Rect S32x96x128 := Rect.part (s := S32x96x128) (a₀ := 0) hdivO1 w
abbrev rowSetI1 (w : Fin 32) : Finset S32x48x100.Idx := (rowI1 w).set
abbrev rowSetO1 (w : Fin 32) : Finset S32x96x128.Idx := (rowO1 w).set

theorem rowsI0_disjoint : ∀ i ∈ (Finset.univ : Finset (Fin 32)), ∀ j ∈ (Finset.univ : Finset (Fin 32)), i ≠ j → Disjoint (rowSetI0 i) (rowSetI0 j) :=
  fun _ _ _ _ h => Rect.part_disjoint hdivI0 h
theorem rowsI0_cover : (Finset.univ : Finset (Fin 32)).biUnion rowSetI0 = Finset.univ := Rect.biUnion_part hdivI0
theorem rowsO0_disjoint : ∀ i ∈ (Finset.univ : Finset (Fin 32)), ∀ j ∈ (Finset.univ : Finset (Fin 32)), i ≠ j → Disjoint (rowSetO0 i) (rowSetO0 j) :=
  fun _ _ _ _ h => Rect.part_disjoint hdivO0 h
theorem rowsO0_cover : (Finset.univ : Finset (Fin 32)).biUnion rowSetO0 = Finset.univ := Rect.biUnion_part hdivO0
theorem rowsI1_disjoint : ∀ i ∈ (Finset.univ : Finset (Fin 32)), ∀ j ∈ (Finset.univ : Finset (Fin 32)), i ≠ j → Disjoint (rowSetI1 i) (rowSetI1 j) :=
  fun _ _ _ _ h => Rect.part_disjoint hdivI1 h
theorem rowsI1_cover : (Finset.univ : Finset (Fin 32)).biUnion rowSetI1 = Finset.univ := Rect.biUnion_part hdivI1
theorem rowsO1_disjoint : ∀ i ∈ (Finset.univ : Finset (Fin 32)), ∀ j ∈ (Finset.univ : Finset (Fin 32)), i ≠ j → Disjoint (rowSetO1 i) (rowSetO1 j) :=
  fun _ _ _ _ h => Rect.part_disjoint hdivO1 h
theorem rowsO1_cover : (Finset.univ : Finset (Fin 32)).biUnion rowSetO1 = Finset.univ := Rect.biUnion_part hdivO1

end Cert.Proof.KI

end
-- ==== Proof.Pay.lean ====
/-
  What the SparseCore handshakes carry in this program, and how a SparseCore's share splits among its sixteen
  tasks: call q hands SparseCore c rows 16c … 16c+15 of the call's index array and of its result array and a read
  share of the embedding table; task (c, i) gets row 16c + i of both and a read share of the table; the results come
  back row by row, each row at the call's result function.
-/
import proofs.«204104_g71330816851969_cont_9to1_m_219_17_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F] [Named F]

local notation "𝕄" => MT nD τ sig (HIx 2) (Elt F) ℕ UU ℕ

/-! ## The arrays, as locations of device `d` -/

abbrev i0Loc (d : Dev nD) : Loc nD τ sig := (SparseCore.T d).loc main_v2
abbrev i1Loc (d : Dev nD) : Loc nD τ sig := (SparseCore.T d).loc main_v6
abbrev eLoc (d : Dev nD) : Loc nD τ sig := (SparseCore.T d).loc main_arg3
abbrev o0Loc (d : Dev nD) : Loc nD τ sig := (SparseCore.T d).loc main_v3
abbrev o1Loc (d : Dev nD) : Loc nD τ sig := (SparseCore.T d).loc main_v7

/-- The contents the two calls run on and leave: the index arrays, the table, the result arrays before and after. -/
structure Conts (F : FTy → Type) where
  ids0 : (d : Dev nD) → Buf (Elt F) (i0Loc d)
  ids1 : (d : Dev nD) → Buf (Elt F) (i1Loc d)
  emb : (d : Dev nD) → Buf (Elt F) (eLoc d)
  old0 : (d : Dev nD) → Buf (Elt F) (o0Loc d)
  old1 : (d : Dev nD) → Buf (Elt F) (o1Loc d)
  res0 : (d : Dev nD) → Buf (Elt F) (o0Loc d)
  res1 : (d : Dev nD) → Buf (Elt F) (o1Loc d)

variable (C : Conts F)

/-- The read share of the table SparseCore `c` holds during a call, and task `(c, i)`'s. -/
abbrev shC (c : Fin 2) : PosShare TreeShare := shareTok fullShare 2 c
abbrev shT (c : Fin 2) (i : Fin 16) : PosShare TreeShare := shareTok (shC c) 16 i

/-- Task `w`'s holdings at call 0 with the result row at `f`; at call 1. -/
abbrev task0 (d : Dev nD) (c : Fin 2) (i : Fin 16) (f : Buf (Elt F) (o0Loc d)) : sProp 𝕄 :=
  iprop((i0Loc d ↦[rowSetI0 (taskIx c i)]{fullShare} C.ids0 d) ∗ (eLoc d ↦{shT c i} C.emb d) ∗ (o0Loc d ↦[rowSetO0 (taskIx c i)]{fullShare} f))
abbrev task1 (d : Dev nD) (c : Fin 2) (i : Fin 16) (f : Buf (Elt F) (o1Loc d)) : sProp 𝕄 :=
  iprop((i1Loc d ↦[rowSetI1 (taskIx c i)]{fullShare} C.ids1 d) ∗ (eLoc d ↦{shT c i} C.emb d) ∗ (o1Loc d ↦[rowSetO1 (taskIx c i)]{fullShare} f))

/-- SparseCore `c`'s holdings at call 0 with its result rows at `f`; at call 1. -/
abbrev core0 (d : Dev nD) (c : Fin 2) (f : Buf (Elt F) (o0Loc d)) : sProp 𝕄 :=
  iprop((bigSep Finset.univ fun i : Fin 16 => i0Loc d ↦[rowSetI0 (taskIx c i)]{fullShare} C.ids0 d) ∗ (eLoc d ↦{shC c} C.emb d)
    ∗ (bigSep Finset.univ fun i : Fin 16 => o0Loc d ↦[rowSetO0 (taskIx c i)]{fullShare} f))
abbrev core1 (d : Dev nD) (c : Fin 2) (f : Buf (Elt F) (o1Loc d)) : sProp 𝕄 :=
  iprop((bigSep Finset.univ fun i : Fin 16 => i1Loc d ↦[rowSetI1 (taskIx c i)]{fullShare} C.ids1 d) ∗ (eLoc d ↦{shC c} C.emb d)
    ∗ (bigSep Finset.univ fun i : Fin 16 => o1Loc d ↦[rowSetO1 (taskIx c i)]{fullShare} f))

/-- The two calls' payloads. -/
def P : (K (F := F)).Pay (nD := nD) (Val := Elt F) (Name := ℕ) (U := UU) where
  st := fun q d c => match q with
    | 0 => core0 C d (Fin.cast (nCore_q 0) c) (C.old0 d)
    | 1 => core1 C d (Fin.cast (nCore_q 1) c) (C.old1 d)
  dn := fun q d c => match q with
    | 0 => core0 C d (Fin.cast (nCore_q 0) c) (C.res0 d)
    | 1 => core1 C d (Fin.cast (nCore_q 1) c) (C.res1 d)
  go := fun q d c i => match q with
    | 0 => task0 C d (Fin.cast (nCore_q 0) c) (Fin.cast (nSub_q 0) i) (C.old0 d)
    | 1 => task1 C d (Fin.cast (nCore_q 1) c) (Fin.cast (nSub_q 1) i) (C.old1 d)
  td := fun q d c i => match q with
    | 0 => task0 C d (Fin.cast (nCore_q 0) c) (Fin.cast (nSub_q 0) i) (C.res0 d)
    | 1 => task1 C d (Fin.cast (nCore_q 1) c) (Fin.cast (nSub_q 1) i) (C.res1 d)
  x := fun _ _ => iprop(emp)

instance P_storable : (P (F := F) C).IsStorable where
  st q d c := match q with
    | 0 => (inferInstance : BI.Storable (upEmb : UEmb _ 𝕄) (core0 C d (Fin.cast (nCore_q 0) c) (C.old0 d)))
    | 1 => (inferInstance : BI.Storable (upEmb : UEmb _ 𝕄) (core1 C d (Fin.cast (nCore_q 1) c) (C.old1 d)))
  dn q d c := match q with
    | 0 => (inferInstance : BI.Storable (upEmb : UEmb _ 𝕄) (core0 C d (Fin.cast (nCore_q 0) c) (C.res0 d)))
    | 1 => (inferInstance : BI.Storable (upEmb : UEmb _ 𝕄) (core1 C d (Fin.cast (nCore_q 1) c) (C.res1 d)))
  go q d c i := match q with
    | 0 => (inferInstance : BI.Storable (upEmb : UEmb _ 𝕄) (task0 C d (Fin.cast (nCore_q 0) c) (Fin.cast (nSub_q 0) i) (C.old0 d)))
    | 1 => (inferInstance : BI.Storable (upEmb : UEmb _ 𝕄) (task1 C d (Fin.cast (nCore_q 1) c) (Fin.cast (nSub_q 1) i) (C.old1 d)))
  td q d c i := match q with
    | 0 => (inferInstance : BI.Storable (upEmb : UEmb _ 𝕄) (task0 C d (Fin.cast (nCore_q 0) c) (Fin.cast (nSub_q 0) i) (C.res0 d)))
    | 1 => (inferInstance : BI.Storable (upEmb : UEmb _ 𝕄) (task1 C d (Fin.cast (nCore_q 1) c) (Fin.cast (nSub_q 1) i) (C.res1 d)))

end Cert.Proof.KI

end
-- ==== Proof.Split.lean ====
/-
  How a SparseCore's holdings at a call split among its sixteen tasks and gather again: the rows are already one
  per task; the read share of the embedding table splits into sixteen read tokens, the remainder kept aside until
  the tasks' tokens come back.
-/
import proofs.«204104_g71330816851969_cont_9to1_m_219_17_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F] [Named F]

local notation "𝕄" => MT nD τ sig (HIx 2) (Elt F) ℕ UU ℕ

omit [FloatOps F] [Named F] in
/-- Sixteen row pairs and a read share of one array: the share splits into one read token per row pair, and comes
    back whole when every token does, whatever the second rows have become. -/
theorem split16 (A B B' : Fin 16 → sProp 𝕄) (ℓ : Loc nD τ sig) (f : Buf (Elt F) ℓ) (q : PosShare TreeShare) :
    iprop((bigSep Finset.univ A) ∗ (ℓ ↦{q} f) ∗ bigSep Finset.univ B)
      ⊢ |={Set.univ}=> iprop((bigSep Finset.univ fun i : Fin 16 => iprop(A i ∗ (ℓ ↦{shareTok q 16 i} f) ∗ B i))
          ∗ ((bigSep Finset.univ fun i : Fin 16 => iprop(A i ∗ (ℓ ↦{shareTok q 16 i} f) ∗ B' i))
              -∗ iprop((bigSep Finset.univ A) ∗ (ℓ ↦{q} f) ∗ bigSep Finset.univ B'))) := by
  rw [bigSep_sep', bigSep_sep', bigSep_sep', bigSep_sep']
  iintro ⟨HA, He, HB⟩
  ihave He' := (pointsTo_toks_split (ℓ := ℓ) (S := Finset.univ) (f := f) q 16) $$ He
  icases He' with ⟨Hd, Ht⟩
  imodintro
  isplitl [HA Ht HB]
  · isplitl [HA]; · iexact HA
    isplitl [Ht]; · iexact Ht
    iexact HB
  iintro ⟨HA, Ht, HB⟩
  isplitl [HA]; · iexact HA
  isplitl [Hd Ht]
  · iapply (pointsTo_toks_join (ℓ := ℓ) (S := Finset.univ) (f := f) q 16)
    isplitl [Hd]; · iexact Hd
    iexact Ht
  iexact HB

theorem bigSep_tasks (q : Fin 2) (Φ : Fin 16 → sProp 𝕄) :
    (bigSep Finset.univ fun i : Fin ((K (F := F)).nSub q) => Φ (Fin.cast (nSub_q q) i)) = bigSep Finset.univ Φ := by
  match q with
  | 0 => exact bigSep_congr fun _ _ => congrArg Φ (Fin.ext rfl)
  | 1 => exact bigSep_congr fun _ _ => congrArg Φ (Fin.ext rfl)

variable (C : Conts F)

theorem vecSplit0 : (K (F := F)).VecSplit' (P C) 0 := by
  intro d c
  show core0 C d (Fin.cast (nCore_q 0) c) (C.old0 d) ⊢ |={Set.univ}=> iprop(
      (bigSep Finset.univ fun i : Fin ((K (F := F)).nSub 0) => task0 C d (Fin.cast (nCore_q 0) c) (Fin.cast (nSub_q 0) i) (C.old0 d))
      ∗ ((bigSep Finset.univ fun i : Fin ((K (F := F)).nSub 0) => task0 C d (Fin.cast (nCore_q 0) c) (Fin.cast (nSub_q 0) i) (C.res0 d))
          -∗ core0 C d (Fin.cast (nCore_q 0) c) (C.res0 d)))
  rw [bigSep_tasks (F := F) 0 (fun i => task0 C d (Fin.cast (nCore_q 0) c) i (C.old0 d)),
    bigSep_tasks (F := F) 0 (fun i => task0 C d (Fin.cast (nCore_q 0) c) i (C.res0 d))]
  exact split16 _ _ _ (eLoc d) (C.emb d) (shC (Fin.cast (nCore_q 0) c))

theorem vecSplit1 : (K (F := F)).VecSplit' (P C) 1 := by
  intro d c
  show core1 C d (Fin.cast (nCore_q 1) c) (C.old1 d) ⊢ |={Set.univ}=> iprop(
      (bigSep Finset.univ fun i : Fin ((K (F := F)).nSub 1) => task1 C d (Fin.cast (nCore_q 1) c) (Fin.cast (nSub_q 1) i) (C.old1 d))
      ∗ ((bigSep Finset.univ fun i : Fin ((K (F := F)).nSub 1) => task1 C d (Fin.cast (nCore_q 1) c) (Fin.cast (nSub_q 1) i) (C.res1 d))
          -∗ core1 C d (Fin.cast (nCore_q 1) c) (C.res1 d)))
  rw [bigSep_tasks (F := F) 1 (fun i => task1 C d (Fin.cast (nCore_q 1) c) i (C.old1 d)),
    bigSep_tasks (F := F) 1 (fun i => task1 C d (Fin.cast (nCore_q 1) c) i (C.res1 d))]
  exact split16 _ _ _ (eLoc d) (C.emb d) (shC (Fin.cast (nCore_q 1) c))

end Cert.Proof.KI

end
-- ==== Proof.Cores.lean ====
/-
  How the arrays a SparseCore call works on split between the two SparseCores, and gather again: the index array
  and the result array row by row (32 rows, 16 per SparseCore), the embedding table by read shares (one per
  SparseCore, a remainder kept aside).
-/
import proofs.«204104_g71330816851969_cont_9to1_m_219_17_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F] [Named F]

local notation "𝕄" => MT nD τ sig (HIx 2) (Elt F) ℕ UU ℕ

/-- Tasks are numbered SparseCore-major: (c, s) ↦ 16·c + s is a bijection onto the 32 rows. -/
def taskEquiv : Fin 2 × Fin 16 ≃ Fin 32 := Equiv.ofBijective (fun cs : Fin 2 × Fin 16 => taskIx cs.1 cs.2) ⟨taskIx_injective, taskIx_surjective⟩

omit [FloatOps F] [Named F] in
theorem bigSep_tasks32 (Φ : Fin 32 → sProp 𝕄) :
    bigSep Finset.univ Φ = bigSep Finset.univ fun c : Fin 2 => bigSep Finset.univ fun i : Fin 16 => Φ (taskIx c i) := by
  rw [bigSep_univ_equiv taskEquiv Φ, bigSep_univ_prod]; rfl

omit [FloatOps F] [Named F] in
theorem rows_I0 (d : Dev nD) (f : Buf (Elt F) (i0Loc d)) :
    (i0Loc d ↦{fullShare} f : sProp 𝕄) = bigSep Finset.univ fun c : Fin 2 => bigSep Finset.univ fun i : Fin 16 => i0Loc d ↦[rowSetI0 (taskIx c i)]{fullShare} f := by
  rw [← bigSep_tasks32 (fun w => (i0Loc d ↦[rowSetI0 w]{fullShare} f : sProp 𝕄)), ← pointsTo_biUnion Finset.univ (ℓ := i0Loc d) rowSetI0 rowsI0_disjoint, rowsI0_cover]; try rfl
omit [FloatOps F] [Named F] in
theorem rows_O0 (d : Dev nD) (f : Buf (Elt F) (o0Loc d)) :
    (o0Loc d ↦{fullShare} f : sProp 𝕄) = bigSep Finset.univ fun c : Fin 2 => bigSep Finset.univ fun i : Fin 16 => o0Loc d ↦[rowSetO0 (taskIx c i)]{fullShare} f := by
  rw [← bigSep_tasks32 (fun w => (o0Loc d ↦[rowSetO0 w]{fullShare} f : sProp 𝕄)), ← pointsTo_biUnion Finset.univ (ℓ := o0Loc d) rowSetO0 rowsO0_disjoint, rowsO0_cover]; try rfl
omit [FloatOps F] [Named F] in
theorem rows_I1 (d : Dev nD) (f : Buf (Elt F) (i1Loc d)) :
    (i1Loc d ↦{fullShare} f : sProp 𝕄) = bigSep Finset.univ fun c : Fin 2 => bigSep Finset.univ fun i : Fin 16 => i1Loc d ↦[rowSetI1 (taskIx c i)]{fullShare} f := by
  rw [← bigSep_tasks32 (fun w => (i1Loc d ↦[rowSetI1 w]{fullShare} f : sProp 𝕄)), ← pointsTo_biUnion Finset.univ (ℓ := i1Loc d) rowSetI1 rowsI1_disjoint, rowsI1_cover]; try rfl
omit [FloatOps F] [Named F] in
theorem rows_O1 (d : Dev nD) (f : Buf (Elt F) (o1Loc d)) :
    (o1Loc d ↦{fullShare} f : sProp 𝕄) = bigSep Finset.univ fun c : Fin 2 => bigSep Finset.univ fun i : Fin 16 => o1Loc d ↦[rowSetO1 (taskIx c i)]{fullShare} f := by
  rw [← bigSep_tasks32 (fun w => (o1Loc d ↦[rowSetO1 w]{fullShare} f : sProp 𝕄)), ← pointsTo_biUnion Finset.univ (ℓ := o1Loc d) rowSetO1 rowsO1_disjoint, rowsO1_cover]; try rfl

variable (C : Conts F)

/-- The three arrays of call 0, whole, are the table's kept remainder and the two SparseCores' holdings. -/
theorem cores0_split (d : Dev nD) (f : Buf (Elt F) (o0Loc d)) :
    iprop((i0Loc d ↦{fullShare} C.ids0 d) ∗ (eLoc d ↦{fullShare} C.emb d) ∗ (o0Loc d ↦{fullShare} f))
      ⊢ (iprop((eLoc d ↦{shareDrop fullShare 2} C.emb d) ∗ bigSep Finset.univ fun c : Fin 2 => core0 C d c f) : sProp 𝕄) := by
  rw [rows_I0, rows_O0, bigSep_sep', bigSep_sep']
  iintro ⟨HI, He, HO⟩
  ihave He' := (pointsTo_toks_split (ℓ := eLoc d) (S := Finset.univ) (f := C.emb d) fullShare 2) $$ He
  icases He' with ⟨Hd, Ht⟩
  isplitl [Hd]; · iexact Hd
  isplitl [HI]; · iexact HI
  isplitl [Ht]; · iexact Ht
  iexact HO
theorem cores0_join (d : Dev nD) (f : Buf (Elt F) (o0Loc d)) :
    (iprop((eLoc d ↦{shareDrop fullShare 2} C.emb d) ∗ bigSep Finset.univ fun c : Fin 2 => core0 C d c f) : sProp 𝕄)
      ⊢ iprop((i0Loc d ↦{fullShare} C.ids0 d) ∗ (eLoc d ↦{fullShare} C.emb d) ∗ (o0Loc d ↦{fullShare} f)) := by
  rw [rows_I0, rows_O0, bigSep_sep', bigSep_sep']
  iintro ⟨Hd, HI, Ht, HO⟩
  isplitl [HI]; · iexact HI
  isplitl [Hd Ht]
  · iapply (pointsTo_toks_join (ℓ := eLoc d) (S := Finset.univ) (f := C.emb d) fullShare 2)
    isplitl [Hd]; · iexact Hd
    iexact Ht
  iexact HO
theorem cores1_split (d : Dev nD) (f : Buf (Elt F) (o1Loc d)) :
    iprop((i1Loc d ↦{fullShare} C.ids1 d) ∗ (eLoc d ↦{fullShare} C.emb d) ∗ (o1Loc d ↦{fullShare} f))
      ⊢ (iprop((eLoc d ↦{shareDrop fullShare 2} C.emb d) ∗ bigSep Finset.univ fun c : Fin 2 => core1 C d c f) : sProp 𝕄) := by
  rw [rows_I1, rows_O1, bigSep_sep', bigSep_sep']
  iintro ⟨HI, He, HO⟩
  ihave He' := (pointsTo_toks_split (ℓ := eLoc d) (S := Finset.univ) (f := C.emb d) fullShare 2) $$ He
  icases He' with ⟨Hd, Ht⟩
  isplitl [Hd]; · iexact Hd
  isplitl [HI]; · iexact HI
  isplitl [Ht]; · iexact Ht
  iexact HO
theorem cores1_join (d : Dev nD) (f : Buf (Elt F) (o1Loc d)) :
    (iprop((eLoc d ↦{shareDrop fullShare 2} C.emb d) ∗ bigSep Finset.univ fun c : Fin 2 => core1 C d c f) : sProp 𝕄)
      ⊢ iprop((i1Loc d ↦{fullShare} C.ids1 d) ∗ (eLoc d ↦{fullShare} C.emb d) ∗ (o1Loc d ↦{fullShare} f)) := by
  rw [rows_I1, rows_O1, bigSep_sep', bigSep_sep']
  iintro ⟨Hd, HI, Ht, HO⟩
  isplitl [HI]; · iexact HI
  isplitl [Hd Ht]
  · iapply (pointsTo_toks_join (ℓ := eLoc d) (S := Finset.univ) (f := C.emb d) fullShare 2)
    isplitl [Hd]; · iexact Hd
    iexact Ht
  iexact HO

/-- The calls' payloads over the call's SparseCores are the holdings over `Fin 2`. -/
theorem st0_eq (d : Dev nD) : (bigSep Finset.univ fun c : Fin ((K (F := F)).nCore 0) => (P C).st 0 d c) = bigSep Finset.univ fun c : Fin 2 => core0 C d c (C.old0 d) :=
  bigSep_congr fun _ _ => rfl
theorem dn0_eq (d : Dev nD) : (bigSep Finset.univ fun c : Fin ((K (F := F)).nCore 0) => (P C).dn 0 d c) = bigSep Finset.univ fun c : Fin 2 => core0 C d c (C.res0 d) :=
  bigSep_congr fun _ _ => rfl
theorem st1_eq (d : Dev nD) : (bigSep Finset.univ fun c : Fin ((K (F := F)).nCore 1) => (P C).st 1 d c) = bigSep Finset.univ fun c : Fin 2 => core1 C d c (C.old1 d) :=
  bigSep_congr fun _ _ => rfl
theorem dn1_eq (d : Dev nD) : (bigSep Finset.univ fun c : Fin ((K (F := F)).nCore 1) => (P C).dn 1 d c) = bigSep Finset.univ fun c : Fin 2 => core1 C d c (C.res1 d) :=
  bigSep_congr fun _ _ => rfl

end Cert.Proof.KI

end
-- ==== Proof.MainShape.lean ====
/-
  @main of the printed program, regrouped: its host operations as four lists, between them the two SparseCore
  calls and the two TensorCore pipeline entries.
-/
import proofs.«204104_g71330816851969_cont_9to1_m_219_17_alg».proof.Proof.Common

noncomputable section
namespace Cert.Proof.KI
open Cert.KernelIdeal Cert.KernelIdeal.Gen
open Idealize.ShloMosaic
open Idealize.SL Idealize.SL.Sem
open Idealize.ShloMosaic.StableHlo (seq)

variable {F : FTy → Type} [FloatOps F] [Named F]

/-- The host operations before the first SparseCore call. -/
def ops0 : List (HloOp τ sig (Elt F)) :=
  [StableHlo.reshape main_arg5 main_v0 rfl shapeCasts_S10000_S1x10000,
   StableHlo.nullary main_c (constantI S_ 32 0#32),
   StableHlo.nullary main_c_0 (constantI S_ 32 0#32),
   StableHlo.unaryIndexed main_arg0 ![main_c, main_c_0] ⟨S_, .i32⟩ main_v1 ((fun x i => Host.dynamicSlice S1024x50 x (fun k => (i k (Shape.Idx.first h_S_)).toInt) sliceFits_S4096x50_S1024x50) : (⟨S4096x50, .i32⟩ : BufTy).Contents (Elt F) → (Fin 2 → (⟨S_, .i32⟩ : BufTy).Contents (Elt F)) → (⟨S1024x50, .i32⟩ : BufTy).Contents (Elt F)),
   StableHlo.reshape main_v1 main_v2 rfl shapeCasts_S1024x50_S32x16x100]
def ops1 : List (HloOp τ sig (Elt F)) :=
  [StableHlo.reshape main_v3 main_v4 rfl shapeCasts_S32x32x128_S1024x128,
   StableHlo.nullary main_c_1 (constantI S_ 32 1024#32),
   StableHlo.nullary main_c_2 (constantI S_ 32 0#32),
   StableHlo.unaryIndexed main_arg0 ![main_c_1, main_c_2] ⟨S_, .i32⟩ main_v5 ((fun x i => Host.dynamicSlice S3072x50 x (fun k => (i k (Shape.Idx.first h_S_)).toInt) sliceFits_S4096x50_S3072x50) : (⟨S4096x50, .i32⟩ : BufTy).Contents (Elt F) → (Fin 2 → (⟨S_, .i32⟩ : BufTy).Contents (Elt F)) → (⟨S3072x50, .i32⟩ : BufTy).Contents (Elt F)),
   StableHlo.reshape main_v5 main_v6 rfl shapeCasts_S3072x50_S32x48x100]
def ops2 : List (HloOp τ sig (Elt F)) :=
  [StableHlo.reshape main_v7 main_v8 rfl shapeCasts_S32x96x128_S3072x128]
def ops3 : List (HloOp τ sig (Elt F)) :=
  [StableHlo.unary main_v9 main_v10 id]

/-- @main: four stretches of host operations around the two SparseCore calls and the two TensorCore pipelines. -/
theorem main_eq (d : Dev nD) :
    main (F := F) d = (seq ops0 >>= fun _ => sc.run d 0 >>= fun _ => seq ops1 >>= fun _ => sc.run d 1 >>= fun _ => seq ops2 >>= fun _ =>
      Prog.lift (.customCall (SparseCore.inner (Pipeline.entry 0)) ()) >>= fun _ => seq ops3 >>= fun _ =>
      Prog.lift (.customCall (SparseCore.inner (Pipeline.entry 1)) ()) >>= fun _ => pure ⟨⟩) := by
  rfl

end Cert.Proof.KI
end
-- ==== Proof.PoolSpec.lean ====
/-
  The value a pooling task computes, as a pure function of the index array and the embedding table: for output
  row `i` of task `w` (chunk `i / 2`, half `i % 2`), the fifty table rows named by the index words
  `ids (w, i / 2, (i % 2) * 50 + l)`, `l < 50`, are added from the left, lane by lane, the sum scaled by `inv`
  and clamped below at `zero`. Generic in the float instance.
-/
import proofs.«204104_g71330816851969_cont_9to1_m_219_17_alg».proof.KernelIdeal

noncomputable section

namespace Cert.Proof.KI

open Cert.KernelIdeal
open Idealize.ShloMosaic

variable {F : FTy → Type} [FloatOps F]

/-- The sum of `x 0, …, x n` taken from the left: `((x 0 + x 1) + x 2) + … + x n`. -/
def lsum (x : ℕ → F .f32) : ℕ → F .f32
  | 0 => x 0
  | n + 1 => FloatOps.addf (lsum x n) (x (n + 1))

theorem lsum_zero (x : ℕ → F .f32) : lsum x 0 = x 0 := rfl
theorem lsum_succ (x : ℕ → F .f32) (n : ℕ) : lsum x (n + 1) = FloatOps.addf (lsum x n) (x (n + 1)) := rfl

/-- A multi-index of a rank-3 shape from its three coordinates. -/
def ix3 {a b c : ℕ} (i : Fin a) (j : Fin b) (k : Fin c) : (⟨3, ![a, b, c]⟩ : Shape).Idx := fun x =>
  match x with
  | ⟨0, _⟩ => i
  | ⟨1, _⟩ => j
  | ⟨2, _⟩ => k

/-- The table's element at row number `r` (a word's value as a natural number; in range wherever it is used) and
    lane `q`. -/
def embAt (emb : S100000x128.Idx → Elt F .f32) (r : ℕ) (q : Fin 128) : F .f32 :=
  emb (Shape.pair (d := ![100000, 128]) ⟨r % 100000, Nat.mod_lt _ (by decide)⟩ q)

/-- The row number the index array names for output row `i` of task `w` at position `l` of the fifty: the word
    at `(w, i / 2, (i % 2) * 50 + l)`, read as the indirect gather reads an offset word (its value as a natural
    number). -/
def rowNo {nch : ℕ} (ids : (⟨3, ![32, nch, 100]⟩ : Shape).Idx → Elt F .i32) (w : Fin 32) (i : ℕ) (hi : i / 2 < nch) (l : ℕ) : ℕ :=
  (ids (ix3 w ⟨i / 2, hi⟩ ⟨(i % 2) * 50 + l % 50, by omega⟩)).toNat

/-- The pooled value at `(w, i, q)`: the fifty named rows' lane `q` added from the left, times `inv`, clamped
    below at `zero`. -/
def poolAt {nch : ℕ} (inv zero : F .f32) (ids : (⟨3, ![32, nch, 100]⟩ : Shape).Idx → Elt F .i32)
    (emb : S100000x128.Idx → Elt F .f32) (w : Fin 32) (i : ℕ) (hi : i / 2 < nch) (q : Fin 128) : F .f32 :=
  FloatOps.maximumf (FloatOps.mulf (lsum (fun l => embAt emb (rowNo ids w i hi l) q) 49) inv) zero

/-- The first pooling call's result: `main_v3` as a function of `main_v2` and `main_arg3`. -/
def pool0 (inv zero : F .f32) (ids : S32x16x100.Idx → Elt F .i32) (emb : S100000x128.Idx → Elt F .f32) :
    S32x32x128.Idx → Elt F .f32 :=
  fun x => poolAt (nch := 16) inv zero ids emb (x 0) (x 1).val (by have := (x 1).isLt; change _ < 32 at this; omega) (x 2)

/-- The second pooling call's result: `main_v7` as a function of `main_v6` and `main_arg3`. -/
def pool1 (inv zero : F .f32) (ids : S32x48x100.Idx → Elt F .i32) (emb : S100000x128.Idx → Elt F .f32) :
    S32x96x128.Idx → Elt F .f32 :=
  fun x => poolAt (nch := 48) inv zero ids emb (x 0) (x 1).val (by have := (x 1).isLt; change _ < 96 at this; omega) (x 2)

end Cert.Proof.KI

end
-- ==== Proof.Held.lean ====
/-
  The TensorCore's unscoped arrays as one held set, the valuations @main passes through, and the contents the two
  SparseCore calls run on: the index arrays are reshaped slices of the token ids, the table is the launch's, the
  results are the pooled rows.
-/
import proofs.«204104_g71330816851969_cont_9to1_m_219_17_alg».proof.Proof.Cores
import proofs.«204104_g71330816851969_cont_9to1_m_219_17_alg».proof.Proof.MainShape
import proofs.«204104_g71330816851969_cont_9to1_m_219_17_alg».proof.Proof.PoolSpec

noncomputable section
namespace Cert.Proof.KI
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Named F]
local notation "𝕄" => MT nD τ sig (HIx 2) (Elt F) ℕ UU ℕ

variable (m : (ℓ : Loc nD τ sig) → Buf (Elt F) ℓ) (ρ : Dev nD → PrngReg)

/-- The TensorCore's unscoped buffers. -/
def Sall : Finset (DevRef τ sig) := (Finset.univ.filter fun b : Ref sig .tc => ¬ b.isScoped).image (Proc.devRef .tc)

def V0 (d : Dev nD) : Valuation τ sig (Elt F) := fun b => m (d, b)

omit [FloatOps F] [Named F] in
theorem unscoped_held (d : Dev nD) : (unscopedBufs d (fun b => m ((SparseCore.T d).loc b)) : sProp 𝕄) = held (T d) Sall (V0 m d) := by
  unfold unscopedBufs held Sall
  rw [SparseCore.bigSep_image_of_injOn (fun a _ b _ e => Proc.devRef_injective _ e)]
  rfl

/-! ## The four stretches of host operations touch unscoped buffers only, and allocate nothing -/

theorem ops0_sub : ∀ op ∈ (ops0 (F := F)), op.bufs ⊆ Sall := by
  intro op hop
  simp only [ops0, List.mem_cons, List.not_mem_nil, or_false] at hop
  rcases hop with rfl | rfl | rfl | rfl | rfl
  · show ({(main_arg5 : DevRef τ sig), (main_v0 : DevRef τ sig)} : Finset (DevRef τ sig)) ⊆ Sall; decide
  · show ({(main_c : DevRef τ sig)} : Finset (DevRef τ sig)) ⊆ Sall; decide
  · show ({(main_c_0 : DevRef τ sig)} : Finset (DevRef τ sig)) ⊆ Sall; decide
  · show insert (main_arg0 : DevRef τ sig) (insert (main_v1 : DevRef τ sig) (Finset.univ.image fun k => ((![main_c, main_c_0] k : Ref sig .tc) : DevRef τ sig))) ⊆ Sall; decide
  · show ({(main_v1 : DevRef τ sig), (main_v2 : DevRef τ sig)} : Finset (DevRef τ sig)) ⊆ Sall; decide
theorem ops0_fresh : ∀ op ∈ (ops0 (F := F)), op.fresh = ∅ := by
  intro op hop
  simp only [ops0, List.mem_cons, List.not_mem_nil, or_false] at hop
  rcases hop with rfl | rfl | rfl | rfl | rfl <;> first | rfl | decide
theorem ops1_sub : ∀ op ∈ (ops1 (F := F)), op.bufs ⊆ Sall := by
  intro op hop
  simp only [ops1, List.mem_cons, List.not_mem_nil, or_false] at hop
  rcases hop with rfl | rfl | rfl | rfl | rfl
  · show ({(main_v3 : DevRef τ sig), (main_v4 : DevRef τ sig)} : Finset (DevRef τ sig)) ⊆ Sall; decide
  · show ({(main_c_1 : DevRef τ sig)} : Finset (DevRef τ sig)) ⊆ Sall; decide
  · show ({(main_c_2 : DevRef τ sig)} : Finset (DevRef τ sig)) ⊆ Sall; decide
  · show insert (main_arg0 : DevRef τ sig) (insert (main_v5 : DevRef τ sig) (Finset.univ.image fun k => ((![main_c_1, main_c_2] k : Ref sig .tc) : DevRef τ sig))) ⊆ Sall; decide
  · show ({(main_v5 : DevRef τ sig), (main_v6 : DevRef τ sig)} : Finset (DevRef τ sig)) ⊆ Sall; decide
theorem ops1_fresh : ∀ op ∈ (ops1 (F := F)), op.fresh = ∅ := by
  intro op hop
  simp only [ops1, List.mem_cons, List.not_mem_nil, or_false] at hop
  rcases hop with rfl | rfl | rfl | rfl | rfl <;> first | rfl | decide
theorem ops2_sub : ∀ op ∈ (ops2 (F := F)), op.bufs ⊆ Sall := by
  intro op hop
  simp only [ops2, List.mem_cons, List.not_mem_nil, or_false] at hop
  subst hop
  show ({(main_v7 : DevRef τ sig), (main_v8 : DevRef τ sig)} : Finset (DevRef τ sig)) ⊆ Sall; decide
theorem ops2_fresh : ∀ op ∈ (ops2 (F := F)), op.fresh = ∅ := by
  intro op hop
  simp only [ops2, List.mem_cons, List.not_mem_nil, or_false] at hop
  subst hop; first | rfl | decide
theorem ops3_sub : ∀ op ∈ (ops3 (F := F)), op.bufs ⊆ Sall := by
  intro op hop
  simp only [ops3, List.mem_cons, List.not_mem_nil, or_false] at hop
  subst hop
  show ({(main_v9 : DevRef τ sig), (main_v10 : DevRef τ sig)} : Finset (DevRef τ sig)) ⊆ Sall; decide
theorem ops3_fresh : ∀ op ∈ (ops3 (F := F)), op.fresh = ∅ := by
  intro op hop
  simp only [ops3, List.mem_cons, List.not_mem_nil, or_false] at hop
  subst hop; first | rfl | decide

/-! ## The arrays of the two SparseCore calls, out of the held set -/

abbrev v2' : DevRef τ sig := (main_v2 : DevRef τ sig)
abbrev v3' : DevRef τ sig := (main_v3 : DevRef τ sig)
abbrev v6' : DevRef τ sig := (main_v6 : DevRef τ sig)
abbrev v7' : DevRef τ sig := (main_v7 : DevRef τ sig)
abbrev e' : DevRef τ sig := (main_arg3 : DevRef τ sig)

def S0set : Finset (DevRef τ sig) := {v2', e', v3'}
def S1set : Finset (DevRef τ sig) := {v6', e', v7'}
theorem S0set_sub : S0set ⊆ Sall := by decide
theorem S1set_sub : S1set ⊆ Sall := by decide

omit [FloatOps F] [Named F] in
theorem held_S0 (d : Dev nD) (W : Valuation τ sig (Elt F)) :
    (held (T d) S0set W : sProp 𝕄) = iprop((i0Loc d ↦{fullShare} W v2') ∗ (eLoc d ↦{fullShare} W e') ∗ (o0Loc d ↦{fullShare} W v3')) := by
  unfold held S0set
  rw [SparseCore.bigSep_insert' (by decide), SparseCore.bigSep_insert' (by decide), bigSep_singleton]
omit [FloatOps F] [Named F] in
theorem held_S1 (d : Dev nD) (W : Valuation τ sig (Elt F)) :
    (held (T d) S1set W : sProp 𝕄) = iprop((i1Loc d ↦{fullShare} W v6') ∗ (eLoc d ↦{fullShare} W e') ∗ (o1Loc d ↦{fullShare} W v7')) := by
  unfold held S1set
  rw [SparseCore.bigSep_insert' (by decide), SparseCore.bigSep_insert' (by decide), bigSep_singleton]

/-! ## The valuations @main passes through -/

variable (inv0 zero0 inv1 zero1 : F .f32)

/-- After the first stretch of host operations. -/
def V1 (d : Dev nD) : Valuation τ sig (Elt F) := after ops0 (V0 m d)
/-- What SparseCore call 0 leaves in its result array: the pooled rows of the first 1024 token rows. -/
def res0 (d : Dev nD) : Buf (Elt F) (o0Loc d) := pool0 inv0 zero0 (V1 m d v2') (m (eLoc d))
def V2 (d : Dev nD) : Valuation τ sig (Elt F) := Function.update (V1 m d) v3' (res0 m inv0 zero0 d)
def V3 (d : Dev nD) : Valuation τ sig (Elt F) := after ops1 (V2 m inv0 zero0 d)
/-- What SparseCore call 1 leaves: the pooled rows of the last 3072 token rows. -/
def res1 (d : Dev nD) : Buf (Elt F) (o1Loc d) := pool1 inv1 zero1 (V3 m inv0 zero0 d v6') (m (eLoc d))
def V4 (d : Dev nD) : Valuation τ sig (Elt F) := Function.update (V3 m inv0 zero0 d) v7' (res1 m inv0 zero0 inv1 zero1 d)
def V5 (d : Dev nD) : Valuation τ sig (Elt F) := after ops2 (V4 m inv0 zero0 inv1 zero1 d)

/-- The contents the two calls run on. -/
def C : Conts F where
  ids0 d := V1 m d v2'
  ids1 d := V3 m inv0 zero0 d v6'
  emb d := m (eLoc d)
  old0 d := m (o0Loc d)
  old1 d := m (o1Loc d)
  res0 := res0 m inv0 zero0
  res1 := res1 m inv0 zero0 inv1 zero1

theorem V1_e (d : Dev nD) : V1 m d e' = m (eLoc d) := by
  unfold V1 ops0; after_results; rfl
theorem V1_v3 (d : Dev nD) : V1 m d v3' = m (o0Loc d) := by
  unfold V1 ops0; after_results; rfl
theorem V2_v2 (d : Dev nD) : V2 m inv0 zero0 d v2' = V1 m d v2' := Function.update_of_ne (show v2' ≠ v3' by decide) _ _
theorem V2_e (d : Dev nD) : V2 m inv0 zero0 d e' = m (eLoc d) := (Function.update_of_ne (show e' ≠ v3' by decide) _ _).trans (V1_e m d)
theorem V2_v3 (d : Dev nD) : V2 m inv0 zero0 d v3' = res0 m inv0 zero0 d := Function.update_self _ _ _
theorem V3_e (d : Dev nD) : V3 m inv0 zero0 d e' = m (eLoc d) := by
  unfold V3 ops1; after_results; exact V2_e m inv0 zero0 d
theorem V3_v7 (d : Dev nD) : V3 m inv0 zero0 d v7' = m (o1Loc d) := by
  unfold V3 ops1; after_results
  refine (Function.update_of_ne (show v7' ≠ v3' by decide) _ _).trans ?_
  unfold V1 ops0; after_results; rfl
theorem V4_v6 (d : Dev nD) : V4 m inv0 zero0 inv1 zero1 d v6' = V3 m inv0 zero0 d v6' := Function.update_of_ne (show v6' ≠ v7' by decide) _ _
theorem V4_e (d : Dev nD) : V4 m inv0 zero0 inv1 zero1 d e' = m (eLoc d) := (Function.update_of_ne (show e' ≠ v7' by decide) _ _).trans (V3_e m inv0 zero0 d)
theorem V4_v7 (d : Dev nD) : V4 m inv0 zero0 inv1 zero1 d v7' = res1 m inv0 zero0 inv1 zero1 d := Function.update_self _ _ _

end Cert.Proof.KI
end
-- ==== Proof.MainI.lean ====
/-
  @main on the TensorCore, first half: the host operations before each SparseCore call, the two calls — each handed
  its index array, the embedding table and its result array, and giving them back with the result array at the
  pooled rows — and the reshape after the second; up to the first TensorCore pipeline's entry.
-/
import proofs.«204104_g71330816851969_cont_9to1_m_219_17_alg».proof.Proof.Held

noncomputable section
namespace Cert.Proof.KI
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Transfers (shareTok shareDrop)

variable {F : FTy → Type} [FloatOps F] [Named F]
local notation "𝕄" => MT nD τ sig (HIx 2) (Elt F) ℕ UU ℕ

variable (m : (ℓ : Loc nD τ sig) → Buf (Elt F) ℓ) (inv0 zero0 inv1 zero1 : F .f32)

/-- What is left of @main after the second SparseCore call and its reshape: the two TensorCore pipelines around the
    copy of the first's result into the second's aliased buffer. -/
def mainRest : Prog (TpuEff nD τ sig (Elt F) (SparseCore.Sig (ΛP (F := F)) 2) .tc) PUnit :=
  Prog.lift (.customCall (SparseCore.inner (Pipeline.entry 0)) ()) >>= fun _ => seq ops3 >>= fun _ =>
    Prog.lift (.customCall (SparseCore.inner (Pipeline.entry 1)) ()) >>= fun _ => pure ⟨⟩

theorem main_eq' (d : Dev nD) :
    main (F := F) d = (seq ops0 >>= fun _ => sc.run d 0 >>= fun _ => seq ops1 >>= fun _ => sc.run d 1 >>= fun _ => seq ops2 >>= fun _ => mainRest) := main_eq d

omit [FloatOps F] [Named F] in
theorem held_split0 (d : Dev nD) (W : Valuation τ sig (Elt F)) :
    (held (T d) Sall W : sProp 𝕄) = iprop(((i0Loc d ↦{fullShare} W v2') ∗ (eLoc d ↦{fullShare} W e') ∗ (o0Loc d ↦{fullShare} W v3')) ∗ held (T d) (Sall \ S0set) W) := by
  rw [held_sub_split (T d) S0set_sub, held_S0]
omit [FloatOps F] [Named F] in
theorem held_split1 (d : Dev nD) (W : Valuation τ sig (Elt F)) :
    (held (T d) Sall W : sProp 𝕄) = iprop(((i1Loc d ↦{fullShare} W v6') ∗ (eLoc d ↦{fullShare} W e') ∗ (o1Loc d ↦{fullShare} W v7')) ∗ held (T d) (Sall \ S1set) W) := by
  rw [held_sub_split (T d) S1set_sub, held_S1]

omit [Named F] in
/-- Outside call 0's three arrays the valuation after the call is the one before it. -/
theorem held_rest0 (d : Dev nD) :
    (held (T d) (Sall \ S0set) (V2 m inv0 zero0 d) : sProp 𝕄) = held (T d) (Sall \ S0set) (V1 m d) :=
  held_congr (T d) fun b hb => Function.update_of_ne (fun e => (Finset.mem_sdiff.mp hb).2 (by subst e; decide)) _ _
omit [Named F] in
theorem held_rest1 (d : Dev nD) :
    (held (T d) (Sall \ S1set) (V4 m inv0 zero0 inv1 zero1 d) : sProp 𝕄) = held (T d) (Sall \ S1set) (V3 m inv0 zero0 d) :=
  held_congr (T d) fun b hb => Function.update_of_ne (fun e => (Finset.mem_sdiff.mp hb).2 (by subst e; decide)) _ _

theorem hmainI (κ : GSem nD τ sig → ℕ) (d : Dev nD) (Φ : PUnit → sProp 𝕄) :
    iprop((K (F := F)).ctx EH (P (C m inv0 zero0 inv1 zero1)) κ ∗ (K (F := F)).tcSt EH d 0 ∗ boundary (T d) ∗ held (T d) Sall (V0 m d)
        ∗ (((K (F := F)).tcSt EH d 2 ∗ boundary (T d) ∗ held (T d) Sall (V5 m inv0 zero0 inv1 zero1 d))
            -∗ wp frame (wpE ((K (F := F)).defs (D (F := F))) 𝒱 (SparseCore.T d) none) Set.univ (mainRest (F := F)) Φ))
      ⊢ wp frame (wpE ((K (F := F)).defs (D (F := F))) 𝒱 (SparseCore.T d) none) Set.univ (main d) Φ := by
  rw [main_eq']
  iintro ⟨#Hctx, Hst, Hb, Hheld, Hk⟩
  -- the first stretch of host operations
  iapply (wp_seq 𝒱 none Set.univ d Sall _ ops0 ops0_sub ops0_fresh (V0 m d)) $$ [Hb Hheld]
  · isplitl [Hb]; · iexact Hb
    iexact Hheld
  iintro ⟨Hb, Hheld⟩
  -- call 0: its three arrays out of the held set, split between the SparseCores
  ihave Hh := (Entails.of_eq (held_split0 d (after ops0 (V0 m d)))) $$ Hheld
  icases Hh with ⟨⟨Hi, He, Ho⟩, Hrest⟩
  rw [wp_bind]
  rw [show after ops0 (V0 m d) = V1 m d from rfl, V1_e, V1_v3]
  ihave Hc := (cores0_split (C m inv0 zero0 inv1 zero1) d (m (o0Loc d))) $$ [Hi He Ho]
  · isplitl [Hi]; · iexact Hi
    isplitl [He]; · iexact He
    iexact Ho
  icases Hc with ⟨Hd, Hcores⟩
  iapply ((K (F := F)).wp_run (D (F := F)) 𝒱 (EH := EH) (P := P (C m inv0 zero0 inv1 zero1)) κ d 0) $$ [Hst Hcores Hd Hb Hrest Hk]
  isplitr; · iexact Hctx
  isplitl [Hst]; · iexact Hst
  isplitl [Hcores]
  · rw [st0_eq]; iexact Hcores
  iintro ⟨Hst, Hdn⟩
  ihave Hdn' := (Entails.of_eq (dn0_eq (C m inv0 zero0 inv1 zero1) d)) $$ Hdn
  ihave Hj := (cores0_join (C m inv0 zero0 inv1 zero1) d (res0 m inv0 zero0 d)) $$ [Hd Hdn']
  · isplitl [Hd]; · iexact Hd
    iexact Hdn'
  icases Hj with ⟨Hi, He, Ho⟩
  -- the arrays back into the held set, the result array at the pooled rows
  ihave Hheld := (Entails.of_eq (held_split0 d (V2 m inv0 zero0 d)).symm) $$ [Hi He Ho Hrest]
  · rw [V2_v2, V2_e, V2_v3, held_rest0]
    isplitr [Hrest]
    · isplitl [Hi]; · iexact Hi
      isplitl [He]; · iexact He
      iexact Ho
    · iexact Hrest
  -- the second stretch of host operations
  iapply (wp_seq 𝒱 none Set.univ d Sall _ ops1 ops1_sub ops1_fresh (V2 m inv0 zero0 d)) $$ [Hb Hheld]
  · isplitl [Hb]; · iexact Hb
    iexact Hheld
  iintro ⟨Hb, Hheld⟩
  -- call 1
  ihave Hh := (Entails.of_eq (held_split1 d (after ops1 (V2 m inv0 zero0 d)))) $$ Hheld
  icases Hh with ⟨⟨Hi, He, Ho⟩, Hrest⟩
  rw [wp_bind]
  rw [show after ops1 (V2 m inv0 zero0 d) = V3 m inv0 zero0 d from rfl, V3_e, V3_v7]
  ihave Hc := (cores1_split (C m inv0 zero0 inv1 zero1) d (m (o1Loc d))) $$ [Hi He Ho]
  · isplitl [Hi]; · iexact Hi
    isplitl [He]; · iexact He
    iexact Ho
  icases Hc with ⟨Hd, Hcores⟩
  iapply ((K (F := F)).wp_run (D (F := F)) 𝒱 (EH := EH) (P := P (C m inv0 zero0 inv1 zero1)) κ d 1) $$ [Hst Hcores Hd Hb Hrest Hk]
  isplitr; · iexact Hctx
  isplitl [Hst]; · iexact Hst
  isplitl [Hcores]
  · rw [st1_eq]; iexact Hcores
  iintro ⟨Hst, Hdn⟩
  ihave Hdn' := (Entails.of_eq (dn1_eq (C m inv0 zero0 inv1 zero1) d)) $$ Hdn
  ihave Hj := (cores1_join (C m inv0 zero0 inv1 zero1) d (res1 m inv0 zero0 inv1 zero1 d)) $$ [Hd Hdn']
  · isplitl [Hd]; · iexact Hd
    iexact Hdn'
  icases Hj with ⟨Hi, He, Ho⟩
  ihave Hheld := (Entails.of_eq (held_split1 d (V4 m inv0 zero0 inv1 zero1 d)).symm) $$ [Hi He Ho Hrest]
  · rw [V4_v6, V4_e, V4_v7, held_rest1]
    isplitr [Hrest]
    · isplitl [Hi]; · iexact Hi
      isplitl [He]; · iexact He
      iexact Ho
    · iexact Hrest
  -- the reshape of the second call's result
  iapply (wp_seq 𝒱 none Set.univ d Sall _ ops2 ops2_sub ops2_fresh (V4 m inv0 zero0 inv1 zero1 d)) $$ [Hb Hheld]
  · isplitl [Hb]; · iexact Hb
    iexact Hheld
  iintro ⟨Hb, Hheld⟩
  iapply Hk
  isplitl [Hst]; · iexact Hst
  isplitl [Hb]; · iexact Hb
  iexact Hheld

end Cert.Proof.KI
end
-- ==== Proof.Fund.lean ====
/-
  The launch element of the ghost state: the SparseCore handshakes' rounds, and the TensorCore pipelines' staging
  cells' rounds, funded for every device and pipeline at once; the kernels' proofs consume nothing of the launch's.
-/
import proofs.«204104_g71330816851969_cont_9to1_m_219_17_alg».proof.Proof.Pay

noncomputable section
namespace Cert.Proof.KI
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 2) (Elt F) ℕ UU ℕ

/-- What @main's proof on device `d` starts from beyond what the launch deals every TensorCore: the two pipelines'
    staging cells' ghost state and their transfers' duty tokens. -/
def G (d : Dev nD) : sProp 𝕄 :=
  iprop((bigSep Finset.univ fun p : Fin 2 => Pipeline.cellsGhost cfgs EP p d) ∗ bigSep Finset.univ fun p : Fin 2 => (Pipeline.toksInit cfgs EP p d : sProp 𝕄))

def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

omit [FloatOps F] [Named F] in
theorem bigSep_emp' {I : Type} (s : Finset I) : (bigSep s fun _ => iprop(emp)) = (iprop(emp) : sProp 𝕄) := bigSep_emp_const s

variable (C : Conts F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P C).x q thr) := by
  unfold u₀
  iintro Hu
  ihave H := (ownU_split3 _ _ _) $$ Hu
  icases H with ⟨HH, HP⟩
  imod (Pipeline.fund_ghost cfgs EP cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KI
end
-- ==== Proof.Region2.lean ====
import proofs.«204104_g71330816851969_cont_9to1_m_219_17_alg».proof.Proof.Common
import proofs.«204104_g71330816851969_cont_9to1_m_219_17_alg».proof.Proof.Gen.KernelIdeal.Skeleton
import proofs.«204104_g71330816851969_cont_9to1_m_219_17_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 2) (Elt F) ℕ UU ℕ

/-! ## The first matrix-product call: the body on whole staging buffers -/

/-- The rectangles the body's loads and its store go through: each staging buffer whole. -/
abbrev rX : Rect S512x128 := Rect.unit (s := S512x128) ![0, 0] S512x128.size inb_S512x128_S512x128_0_0
abbrev rW : Rect S10000x128 := Rect.unit (s := S10000x128) ![0, 0] S10000x128.size inb_S10000x128_S10000x128_0_0
abbrev rB : Rect S1x10000 := Rect.unit (s := S1x10000) ![0, 0] S1x10000.size inb_S1x10000_S1x10000_0_0
abbrev rO : Rect S512x10000 := Rect.unit (s := S512x10000) ![0, 0] S512x10000.size inb_S512x10000_S512x10000_0_0

/-- What the body leaves in the result's staging buffer, from the three input blocks: its one store, through the whole
    buffer, of the product of the row block with the transposed weights plus the bias row. -/
def out2 (x0 : Vec F S512x128 .f32) (x1 : Vec F S10000x128 .f32) (x2 : Vec F S1x10000 .f32) : Vec F S512x10000 .f32 :=
  View.canon [⟨rO, k2_pay1 (View.ld x0 rX) (View.ld x1 rW) (View.ld x2 rB)⟩]

theorem cover2 (p0 : Vec F S512x10000 .f32) (y : S512x10000.Idx) :
    ∃ pc ∈ ([⟨rO, p0⟩] : List (View.Piece (Elt F) S512x10000 .f32)), y ∈ pc.1.set :=
  View.cover_of_tiled [⟨rO, p0⟩] S512x10000.size (by rfl) y

set_option maxHeartbeats 1000000 in
theorem sound_kernel2 (c : Dev nD) (E : Set ℕ) (i : grid2.Coords)
    (arg1 : Memref sig .tc .vmem S512x128 .f32) (harg1 : arg1.IsWhole) (arg2 : Memref sig .tc .vmem S10000x128 .f32) (harg2 : arg2.IsWhole)
    (arg3 : Memref sig .tc .vmem S1x10000 .f32) (harg3 : arg3.IsWhole) (arg4 : Memref sig .tc .vmem S512x10000 .f32) (harg4 : arg4.IsWhole)
    (x0 : Vec F S512x128 .f32) (x1 : Vec F S10000x128 .f32) (x2 : Vec F S1x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__mm_body_first i arg1 harg1 arg2 harg2 arg3 harg3 arg4 harg4) K := by
  simp only [cc2__mm_body_first_eq_skeleton]; unfold cc2__mm_body_first_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The first matrix-product call: the proof data on one core -/

section Data

variable (c : Dev nD) (V : (b : Ref sig .tc) → Buf (Elt F) ((c : Thread nD τ).loc b))

/-- Window `w`'s block at point `t`, read off its array as the call finds it. -/
def blk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- The proof data: the arrays as the call finds them; after the body at point `t` each input's buffer at its block and
    the result's at the product of the row block with the transposed weights plus the bias; between points the scoped
    buffers no window stages; nothing owed, the core's recorded waits at or below the level the handshakes have reached;
    full shares. -/
def dat2 : Dat τ (Elt F) (HIx 2) ℕ UU ℕ cfg2 c where
  A w := V (Pipeline.arrRef spec2 w)
  after w t := match w with
    | ⟨0, _⟩ => blk2 c V 0 t
    | ⟨1, _⟩ => blk2 c V 1 t
    | ⟨2, _⟩ => blk2 c V 2 t
    | ⟨3, _⟩ => out2 (blk2 c V 0 t) (blk2 c V 1 t) (blk2 c V 2 t)
  Φ _ := Pipeline.scopedRest (Ix := HIx 2) (Name := ℕ) (U := UU) (Lvl := ℕ) (Val := Elt F) spec2 c
  q _ := fullShare
  owed _ := 0
  recorded _ := {p | (K (F := F)).lev ((c : Thread nD τ), p.1) p.2 ≤ 8 * 2}

theorem A2_eq (w : Fin cfg2.W) : (dat2 c V).A w = V (Pipeline.arrRef spec2 w) := by dsimp only [dat2]
theorem after2_0 (t : Fin cfg2.N) : (dat2 c V).after 0 t = blk2 c V 0 t := by dsimp only [dat2]
theorem after2_1 (t : Fin cfg2.N) : (dat2 c V).after 1 t = blk2 c V 1 t := by dsimp only [dat2]
theorem after2_2 (t : Fin cfg2.N) : (dat2 c V).after 2 t = blk2 c V 2 t := by dsimp only [dat2]
theorem after2_3 (t : Fin cfg2.N) : (dat2 c V).after 3 t = out2 (blk2 c V 0 t) (blk2 c V 1 t) (blk2 c V 2 t) := by dsimp only [dat2]

/-- Each input's current staging buffer holds its block at every point, fetched there or not: unfetched, the block index
    has not moved and the body left the block in place. -/
theorem before2_0 (t : Fin cfg2.N) (d) : (dat2 c V).before 0 t d = blk2 c V 0 t :=
  ((dat2 c V).before_in_eq_fetched 0 rfl (fun _ => rfl) (fun _ _ _ => rfl)
    (fun t => by rw [after2_0]; unfold Dat.blockOf blk2; rw [A2_eq]; try rfl) t d).trans
    (by unfold Dat.fetched Dat.blockOf blk2; rw [A2_eq]; try rfl)
theorem before2_1 (t : Fin cfg2.N) (d) : (dat2 c V).before 1 t d = blk2 c V 1 t :=
  ((dat2 c V).before_in_eq_fetched 1 rfl (fun _ => rfl) (fun _ _ _ => rfl)
    (fun t => by rw [after2_1]; unfold Dat.blockOf blk2; rw [A2_eq]; try rfl) t d).trans
    (by unfold Dat.fetched Dat.blockOf blk2; rw [A2_eq]; try rfl)
theorem before2_2 (t : Fin cfg2.N) (d) : (dat2 c V).before 2 t d = blk2 c V 2 t :=
  ((dat2 c V).before_in_eq_fetched 2 rfl (fun _ => rfl) (fun _ _ _ => rfl)
    (fun t => by rw [after2_2]; unfold Dat.blockOf blk2; rw [A2_eq]; try rfl) t d).trans
    (by unfold Dat.fetched Dat.blockOf blk2; rw [A2_eq]; try rfl)

/-- What the body is called with at point `t`, the windows one by one, -/
def bodyPre2 (t : Fin cfg2.N) : sProp 𝕄 :=
  iprop((dat2 c V).Φ t.castSucc ∗ (dat2 c V).owesAt none t.castSucc
    ∗ (∃ d, owns (c : Thread nD τ) (st2_0 t) fullShare ((dat2 c V).before 0 t d))
    ∗ (∃ d, owns (c : Thread nD τ) (st2_1 t) fullShare ((dat2 c V).before 1 t d))
    ∗ (∃ d, owns (c : Thread nD τ) (st2_2 t) fullShare ((dat2 c V).before 2 t d))
    ∗ (∃ d, owns (c : Thread nD τ) (st2_3 t) fullShare ((dat2 c V).before 3 t d)))

/-- and what it returns. -/
def bodyPost2 (t : Fin cfg2.N) : sProp 𝕄 :=
  iprop((dat2 c V).Φ t.succ ∗ (dat2 c V).owesAt none t.succ
    ∗ owns (c : Thread nD τ) (st2_0 t) fullShare ((dat2 c V).after 0 t)
    ∗ owns (c : Thread nD τ) (st2_1 t) fullShare ((dat2 c V).after 1 t)
    ∗ owns (c : Thread nD τ) (st2_2 t) fullShare ((dat2 c V).after 2 t)
    ∗ owns (c : Thread nD τ) (st2_3 t) fullShare ((dat2 c V).after 3 t))

theorem sound_body2 (t : Fin cfg2.N) :
    bodyPre2 c V t ⊢ wp frame (wpE (defs₀ (F := F)) Variants.none c none) Set.univ (bodyAt2 t) (fun _ => bodyPost2 c V t) := by
  unfold bodyPre2 bodyPost2 bodyAt2
  simp only [before2_0, before2_1, before2_2]
  rw [show (dat2 c V).Φ t.succ = (dat2 c V).Φ t.castSucc from rfl,
    show (dat2 c V).owesAt none t.succ = (dat2 c V).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (blk2 c V 0 t) (blk2 c V 1 t) (blk2 c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 : BodyObligation (dat2 (F := F) c V) (defs₀ (F := F)) Variants.none none Set.univ := fun t => by
  rw [bigSep_W2, bigSep_W2]
  exact sound_body2 c V t

end Data

end Cert.Proof.KI

end
-- ==== Proof.Region3.lean ====
import proofs.«204104_g71330816851969_cont_9to1_m_219_17_alg».proof.Proof.Common
import proofs.«204104_g71330816851969_cont_9to1_m_219_17_alg».proof.Proof.Gen.KernelIdeal.Skeleton
import proofs.«204104_g71330816851969_cont_9to1_m_219_17_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«204104_g71330816851969_cont_9to1_m_219_17_alg».proof.Proof.Region2
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 2) (Elt F) ℕ UU ℕ

/-! ## The second matrix-product call: the body on whole staging buffers -/

/-- What the body leaves in the result's staging buffer, from the three input blocks: its one store, through the whole
    buffer, of the product of the row block with the transposed weights plus the bias row; the aliased operand it is
    also handed, whole in HBM, it never touches. -/
def out3 (x0 : Vec F S512x128 .f32) (x1 : Vec F S10000x128 .f32) (x2 : Vec F S1x10000 .f32) : Vec F S512x10000 .f32 :=
  View.canon [⟨rO, k3_pay1 (View.ld x0 rX) (View.ld x1 rW) (View.ld x2 rB)⟩]

theorem cover3 (p0 : Vec F S512x10000 .f32) (y : S512x10000.Idx) :
    ∃ pc ∈ ([⟨rO, p0⟩] : List (View.Piece (Elt F) S512x10000 .f32)), y ∈ pc.1.set :=
  View.cover_of_tiled [⟨rO, p0⟩] S512x10000.size (by rfl) y

set_option maxHeartbeats 1000000 in
theorem sound_kernel3 (c : Dev nD) (E : Set ℕ) (i : grid3.Coords)
    (arg1 : Memref sig .tc .vmem S512x128 .f32) (harg1 : arg1.IsWhole) (arg2 : Memref sig .tc .vmem S10000x128 .f32) (harg2 : arg2.IsWhole)
    (arg3 : Memref sig .tc .vmem S1x10000 .f32) (harg3 : arg3.IsWhole) (arg4 : Memref sig .tc .hbm S4096x10000 .f32) (harg4 : arg4.IsWhole) (arg5 : Memref sig .tc .vmem S512x10000 .f32) (harg5 : arg5.IsWhole)
    (x0 : Vec F S512x128 .f32) (x1 : Vec F S10000x128 .f32) (x2 : Vec F S1x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (out3 x0 x1 x2)) -∗ K ⟨⟩))
      ⊢ wp frame (wpE (defs₀ (F := F)) Variants.none c none) E (cc3__mm_body_rest i arg1 harg1 arg2 harg2 arg3 harg3 arg4 harg4 arg5 harg5) K := by
  simp only [cc3__mm_body_rest_eq_skeleton]; unfold cc3__mm_body_rest_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The second matrix-product call: the proof data on one core -/

section Data

variable (c : Dev nD) (V : (b : Ref sig .tc) → Buf (Elt F) ((c : Thread nD τ).loc b))

/-- Window `w`'s block at point `t`, read off its array as the call finds it. -/
def blk3 (w : Fin cfg3.W) (t : Fin cfg3.N) : ((cfg3.win w).xblock (cfg3.grid.coords t)).Idx → Elt F (cfg3.win w).elt :=
  ((cfg3.win w).blk t).view.read (Elt F) (V (Pipeline.arrRef spec3 w))

/-- The proof data: the arrays as the call finds them; after the body at point `t` each input's buffer at its block and
    the result's at the product of the row block with the transposed weights plus the bias; between points the scoped
    buffers no window stages; nothing owed, the core's recorded waits at or below the level the handshakes have reached;
    full shares. -/
def dat3 : Dat τ (Elt F) (HIx 2) ℕ UU ℕ cfg3 c where
  A w := V (Pipeline.arrRef spec3 w)
  after w t := match w with
    | ⟨0, _⟩ => blk3 c V 0 t
    | ⟨1, _⟩ => blk3 c V 1 t
    | ⟨2, _⟩ => blk3 c V 2 t
    | ⟨3, _⟩ => out3 (blk3 c V 0 t) (blk3 c V 1 t) (blk3 c V 2 t)
  Φ _ := Pipeline.scopedRest (Ix := HIx 2) (Name := ℕ) (U := UU) (Lvl := ℕ) (Val := Elt F) spec3 c
  q _ := fullShare
  owed _ := 0
  recorded _ := {p | (K (F := F)).lev ((c : Thread nD τ), p.1) p.2 ≤ 8 * 2}

theorem A3_eq (w : Fin cfg3.W) : (dat3 c V).A w = V (Pipeline.arrRef spec3 w) := by dsimp only [dat3]
theorem after3_0 (t : Fin cfg3.N) : (dat3 c V).after 0 t = blk3 c V 0 t := by dsimp only [dat3]
theorem after3_1 (t : Fin cfg3.N) : (dat3 c V).after 1 t = blk3 c V 1 t := by dsimp only [dat3]
theorem after3_2 (t : Fin cfg3.N) : (dat3 c V).after 2 t = blk3 c V 2 t := by dsimp only [dat3]
theorem after3_3 (t : Fin cfg3.N) : (dat3 c V).after 3 t = out3 (blk3 c V 0 t) (blk3 c V 1 t) (blk3 c V 2 t) := by dsimp only [dat3]

/-- Each input's current staging buffer holds its block at every point, fetched there or not: unfetched, the block index
    has not moved and the body left the block in place. -/
theorem before3_0 (t : Fin cfg3.N) (d) : (dat3 c V).before 0 t d = blk3 c V 0 t :=
  ((dat3 c V).before_in_eq_fetched 0 rfl (fun _ => rfl) (fun _ _ _ => rfl)
    (fun t => by rw [after3_0]; unfold Dat.blockOf blk3; rw [A3_eq]; try rfl) t d).trans
    (by unfold Dat.fetched Dat.blockOf blk3; rw [A3_eq]; try rfl)
theorem before3_1 (t : Fin cfg3.N) (d) : (dat3 c V).before 1 t d = blk3 c V 1 t :=
  ((dat3 c V).before_in_eq_fetched 1 rfl (fun _ => rfl) (fun _ _ _ => rfl)
    (fun t => by rw [after3_1]; unfold Dat.blockOf blk3; rw [A3_eq]; try rfl) t d).trans
    (by unfold Dat.fetched Dat.blockOf blk3; rw [A3_eq]; try rfl)
theorem before3_2 (t : Fin cfg3.N) (d) : (dat3 c V).before 2 t d = blk3 c V 2 t :=
  ((dat3 c V).before_in_eq_fetched 2 rfl (fun _ => rfl) (fun _ _ _ => rfl)
    (fun t => by rw [after3_2]; unfold Dat.blockOf blk3; rw [A3_eq]; try rfl) t d).trans
    (by unfold Dat.fetched Dat.blockOf blk3; rw [A3_eq]; try rfl)

/-- What the body is called with at point `t`, the windows one by one, -/
def bodyPre3 (t : Fin cfg3.N) : sProp 𝕄 :=
  iprop((dat3 c V).Φ t.castSucc ∗ (dat3 c V).owesAt none t.castSucc
    ∗ (∃ d, owns (c : Thread nD τ) (st3_0 t) fullShare ((dat3 c V).before 0 t d))
    ∗ (∃ d, owns (c : Thread nD τ) (st3_1 t) fullShare ((dat3 c V).before 1 t d))
    ∗ (∃ d, owns (c : Thread nD τ) (st3_2 t) fullShare ((dat3 c V).before 2 t d))
    ∗ (∃ d, owns (c : Thread nD τ) (st3_3 t) fullShare ((dat3 c V).before 3 t d)))

/-- and what it returns. -/
def bodyPost3 (t : Fin cfg3.N) : sProp 𝕄 :=
  iprop((dat3 c V).Φ t.succ ∗ (dat3 c V).owesAt none t.succ
    ∗ owns (c : Thread nD τ) (st3_0 t) fullShare ((dat3 c V).after 0 t)
    ∗ owns (c : Thread nD τ) (st3_1 t) fullShare ((dat3 c V).after 1 t)
    ∗ owns (c : Thread nD τ) (st3_2 t) fullShare ((dat3 c V).after 2 t)
    ∗ owns (c : Thread nD τ) (st3_3 t) fullShare ((dat3 c V).after 3 t))

theorem sound_body3 (t : Fin cfg3.N) :
    bodyPre3 c V t ⊢ wp frame (wpE (defs₀ (F := F)) Variants.none c none) Set.univ (bodyAt3 t) (fun _ => bodyPost3 c V t) := by
  unfold bodyPre3 bodyPost3 bodyAt3
  simp only [before3_0, before3_1, before3_2]
  rw [show (dat3 c V).Φ t.succ = (dat3 c V).Φ t.castSucc from rfl,
    show (dat3 c V).owesAt none t.succ = (dat3 c V).owesAt none t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ _ _ (blk3 c V 0 t) (blk3 c V 1 t) (blk3 c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 : BodyObligation (dat3 (F := F) c V) (defs₀ (F := F)) Variants.none none Set.univ := fun t => by
  rw [bigSep_W3, bigSep_W3]
  exact sound_body3 c V t

end Data

end Cert.Proof.KI

end
-- ==== Proof.RegionsWp.lean ====
import proofs.«204104_g71330816851969_cont_9to1_m_219_17_alg».proof.Proof.Common
import proofs.«204104_g71330816851969_cont_9to1_m_219_17_alg».proof.Proof.Gen.KernelIdeal.Skeleton
import proofs.«204104_g71330816851969_cont_9to1_m_219_17_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«204104_g71330816851969_cont_9to1_m_219_17_alg».proof.Proof.Region3
import Idealize.ShloMosaic.Lib.Pipeline.Regions
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 2) (Elt F) ℕ UU ℕ

/-! ## The two matrix-product calls entered from the program's main thread

Each call is a pipeline over four windows: the row block of the activations moves with the grid, the weights and the
bias row are staged once, and the result's row block is written back at every point. The call is entered from the
region boundary, the four arrays held whole, and what the main thread then owes; it returns to the boundary with the
three inputs as they were and the result array at what the write-backs leave (the library's account of it,
`Dat.arrAt`, over the proof data of Region2 / Region3). -/

variable [∀ e, Nonempty (Elt F e)]

/-- No pipeline has a prefetched table. -/
abbrev adm : (p : Fin 2) → (pcfgs (F := F) p).Adm := fun p => (cfgs p).toPCfg_adm

section Entry

variable (d : Dev nD)

/-- One core's contents as contents on every core (only that core's are ever read). -/
def Vall (Vd : (b : Ref sig .tc) → Buf (Elt F) ((d : Thread nD τ).loc b)) (c : Dev nD) :
    (b : Ref sig .tc) → Buf (Elt F) ((c : Thread nD τ).loc b) :=
  if h : d = c then h ▸ Vd else fun _ => Classical.arbitrary _

theorem Vall_self (Vd : (b : Ref sig .tc) → Buf (Elt F) ((d : Thread nD τ).loc b)) : Vall d Vd d = Vd := by
  unfold Vall; rw [dif_pos rfl]

variable (V2 V3 : (b : Ref sig .tc) → Buf (Elt F) ((d : Thread nD τ).loc b))

/-- Both pipelines' proof data, on every core. -/
def pdats : (p : Fin 2) → (c : Dev nD) → Dat τ (Elt F) (HIx 2) ℕ UU ℕ (cfgs p) c
  | ⟨0, _⟩, c => dat2 c (Vall d V2 c)
  | ⟨1, _⟩, c => dat3 c (Vall d V3 c)
  | ⟨_ + 2, h⟩, _ => absurd h (by omega)

theorem pdats_zero (c : Dev nD) : pdats d V2 V3 0 c = dat2 c (Vall d V2 c) := rfl
theorem pdats_one (c : Dev nD) : pdats d V2 V3 1 c = dat3 c (Vall d V3 c) := rfl

/-- What the main thread owes between the calls: nothing, its recorded waits at or below the level the handshakes
    have reached. -/
def owesT (c : Dev nD) : sProp 𝕄 :=
  iprop(∃ W, ⌜(K (F := F)).WBelow (c : Thread nD τ) W (8 * 2)⌝ ∗ owes (c : Thread nD τ) (0 : CellTallies nD τ sig (HIx 2)) W)

set_option backward.isDefEq.respectTransparency.types false in
theorem hin2 (c : Dev nD) : iprop((iprop(emp) : sProp 𝕄) ∗ Pipeline.prefHeld (pcfgs (F := F) 0).pre c (fun _ => fullShare) (adm (F := F) 0).1
      ∗ Pipeline.scopedRest (Pipeline.pin (pcfgs (F := F)) adm 0).spec c) ⊢ (pdats d V2 V3 0 c).Φ 0 := by
  rw [pdats_zero]
  dsimp only [dat2]
  exact sep_elim_right.trans sep_elim_right

set_option backward.isDefEq.respectTransparency.types false in
theorem hout2 (c : Dev nD) : (pdats d V2 V3 0 c).Φ (Fin.last (Pipeline.pin (pcfgs (F := F)) adm 0).N)
    ⊢ iprop((iprop(emp) : sProp 𝕄) ∗ Pipeline.ownSems0 (fun k : PEmpty => k.elim) c ∗ Pipeline.scopedRest (Pipeline.pin (pcfgs (F := F)) adm 0).spec c) := by
  unfold Pipeline.ownSems0; rw [Finset.univ_eq_empty, BI.bigSep_empty]
  rw [pdats_zero]
  dsimp only [dat2]
  iintro Hr
  isplitr; · iempintro
  isplitr; · iempintro
  iexact Hr

set_option backward.isDefEq.respectTransparency.types false in
def reg2 : Pipeline.RegionSeg (pcfgs (F := F)) adm (pdats d V2 V3) none defs₀ 𝒱₀ (K (F := F)).L (K (F := F)).lev 0 where
  win := launch2.win.to₀
  block_pos := launch2.block_pos
  stage_whole := launch2.stage_whole
  K := PEmpty
  osem := fun k => k.elim
  ho := Pipeline.OwnSemFacts.none _
  hbody c := (body_obligation2 c (Vall d V2 c)).loose
  hwaits := Pipeline.hwaits_of_owed_zero _ _ _ _ _ _ 0 fun _ _ => rfl
  pre c := iprop((dat2 c (Vall d V2 c)).arrays ((dat2 c (Vall d V2 c)).arrAt · 0) ∗ owesT c)
  post c := iprop((dat2 c (Vall d V2 c)).arrays ((dat2 c (Vall d V2 c)).arrAt · cfg2.N) ∗ owesT c)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owesT Pipeline.Dat.owesAt Pipeline.owesWithin
      icases HO with ⟨%W, %hW, HO⟩
      iexists W; isplitr
      · ipureintro; exact fun p hp => Or.inl (hW p (Finset.mem_coe.mp hp))
      iexact HO
    isplitr <;> iempintro
  hin c := hin2 d V2 V3 c
  hout c := hout2 d V2 V3 c
  hexit c := by
    iintro ⟨Ha, HO, -, -⟩
    imodintro
    isplitl [Ha]; · iexact Ha
    unfold owesT Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

/-- The arrays of the first call, window by window. -/
theorem arrays2_eq (c : Dev nD) (V : (b : Ref sig .tc) → Buf (Elt F) ((c : Thread nD τ).loc b))
    (G : (w : Fin cfg2.W) → Buf (Elt F) ((cfg2.win w).arr.view.loc (c : Thread nD τ))) :
    (dat2 c V).arrays G
      = iprop((((c : Thread nD τ).loc main_v4) ↦{fullShare} G 0) ∗ (((c : Thread nD τ).loc main_arg4) ↦{fullShare} G 1)
          ∗ (((c : Thread nD τ).loc main_v0) ↦{fullShare} G 2) ∗ (((c : Thread nD τ).loc main_v9) ↦{fullShare} G 3)) := by
  have h := Pipeline.arrays_eq cfgs (pdats c V V) 0 c arr_whole2
    (fun w => by rw [pdats_zero]; exact (dat2 c _).share_full (fun _ => rfl) w) G
  rw [pdats_zero, Vall_self] at h
  rw [h, bigSep_W2]; rfl

/-- What the first call leaves in the result array: the library's account of the write-backs, over the proof data. -/
def res2 (V : (b : Ref sig .tc) → Buf (Elt F) ((d : Thread nD τ).loc b)) : Buf (Elt F) ((d : Thread nD τ).loc main_v9) :=
  (dat2 d V).arrAt 3 cfg2.N

theorem pre2_eq (V : (b : Ref sig .tc) → Buf (Elt F) ((d : Thread nD τ).loc b)) :
    (reg2 d V V).pre d
      = iprop(((((d : Thread nD τ).loc main_v4) ↦{fullShare} V main_v4) ∗ (((d : Thread nD τ).loc main_arg4) ↦{fullShare} V main_arg4)
          ∗ (((d : Thread nD τ).loc main_v0) ↦{fullShare} V main_v0) ∗ (((d : Thread nD τ).loc main_v9) ↦{fullShare} V main_v9)) ∗ owesT d) := by
  show iprop((dat2 d (Vall d V d)).arrays ((dat2 d (Vall d V d)).arrAt · 0) ∗ owesT d) = _
  rw [Vall_self, arrays2_eq]; rfl

theorem post2_eq (V : (b : Ref sig .tc) → Buf (Elt F) ((d : Thread nD τ).loc b)) :
    (reg2 d V V).post d
      = iprop(((((d : Thread nD τ).loc main_v4) ↦{fullShare} V main_v4) ∗ (((d : Thread nD τ).loc main_arg4) ↦{fullShare} V main_arg4)
          ∗ (((d : Thread nD τ).loc main_v0) ↦{fullShare} V main_v0) ∗ (((d : Thread nD τ).loc main_v9) ↦{fullShare} res2 d V)) ∗ owesT d) := by
  show iprop((dat2 d (Vall d V d)).arrays ((dat2 d (Vall d V d)).arrAt · cfg2.N) ∗ owesT d) = _
  rw [Vall_self, arrays2_eq]
  rw [(dat2 d V).arrAt_in 0 rfl _, (dat2 d V).arrAt_in 1 rfl _, (dat2 d V).arrAt_in 2 rfl _]
  rfl

set_option backward.isDefEq.respectTransparency.types false in
/-- THE FIRST CALL, from the program's main thread. -/
theorem wp_region0 (V : (b : Ref sig .tc) → Buf (Elt F) ((d : Thread nD τ).loc b)) {Φ : PUnit → sProp 𝕄} :
    iprop(levAts (K (F := F)).L (K (F := F)).lev ∗ boundary (T d) ∗ owesT d
        ∗ (((d : Thread nD τ).loc main_v4) ↦{fullShare} V main_v4) ∗ (((d : Thread nD τ).loc main_arg4) ↦{fullShare} V main_arg4)
        ∗ (((d : Thread nD τ).loc main_v0) ↦{fullShare} V main_v0) ∗ (((d : Thread nD τ).loc main_v9) ↦{fullShare} V main_v9)
        ∗ Pipeline.cellsGhost cfgs EP 0 d ∗ Pipeline.toksInit cfgs EP 0 d
        ∗ (iprop(boundary (T d) ∗ owesT d
            ∗ (((d : Thread nD τ).loc main_v4) ↦{fullShare} V main_v4) ∗ (((d : Thread nD τ).loc main_arg4) ↦{fullShare} V main_arg4)
            ∗ (((d : Thread nD τ).loc main_v0) ↦{fullShare} V main_v0) ∗ (((d : Thread nD τ).loc main_v9) ↦{fullShare} res2 d V)) -∗ Φ ⟨⟩))
      ⊢ wp frame (wpE ((K (F := F)).defs D) 𝒱 (T d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 2) .tc) PUnit)
      = SparseCore.liftProg (.op (.customCall (Pipeline.entry 0) ()) .ret) := rfl
  rw [hprog]
  refine BIBase.Entails.trans ?_ ((K (F := F)).wp_liftProg D 𝒱 (T d) Set.univ none _ Φ)
  refine BIBase.Entails.trans ?_ (Pipeline.RegionSeg.wp (pcfgs (F := F)) adm (pdats d V V) none cellOf_inj EP defs₀ 𝒱₀ (K (F := F)).L (K (F := F)).lev
    (reg2 d V V) d none (fun _ h => nomatch h) .ret Φ)
  rw [pre2_eq, post2_eq]
  iintro ⟨#Hlev, Hb, HO, H4, HW, H0, H9, Hg, Ht, Hk⟩
  isplitl [Hk]
  · iintro ⟨Hb, ⟨H4, HW, H0, H9⟩, HO⟩
    rw [wp_ret]; imodintro
    iapply Hk
    isplitl [Hb]; · iexact Hb
    isplitl [HO]; · iexact HO
    isplitl [H4]; · iexact H4
    isplitl [HW]; · iexact HW
    isplitl [H0]; · iexact H0
    iexact H9
  isplitl [Hb]; · iexact Hb
  isplitl [HO H4 HW H0 H9]
  · isplitr [HO]
    · isplitl [H4]; · iexact H4
      isplitl [HW]; · iexact HW
      isplitl [H0]; · iexact H0
      iexact H9
    · iexact HO
  isplitr; · iexact Hlev
  isplitl [Hg]; · iexact Hg
  iexact Ht

/-! ### The second call -/

set_option backward.isDefEq.respectTransparency.types false in
theorem hin3 (c : Dev nD) : iprop((iprop(emp) : sProp 𝕄) ∗ Pipeline.prefHeld (pcfgs (F := F) 1).pre c (fun _ => fullShare) (adm (F := F) 1).1
      ∗ Pipeline.scopedRest (Pipeline.pin (pcfgs (F := F)) adm 1).spec c) ⊢ (pdats d V2 V3 1 c).Φ 0 := by
  rw [pdats_one]
  dsimp only [dat3]
  exact sep_elim_right.trans sep_elim_right

set_option backward.isDefEq.respectTransparency.types false in
theorem hout3 (c : Dev nD) : (pdats d V2 V3 1 c).Φ (Fin.last (Pipeline.pin (pcfgs (F := F)) adm 1).N)
    ⊢ iprop((iprop(emp) : sProp 𝕄) ∗ Pipeline.ownSems0 (fun k : PEmpty => k.elim) c ∗ Pipeline.scopedRest (Pipeline.pin (pcfgs (F := F)) adm 1).spec c) := by
  unfold Pipeline.ownSems0; rw [Finset.univ_eq_empty, BI.bigSep_empty]
  rw [pdats_one]
  dsimp only [dat3]
  iintro Hr
  isplitr; · iempintro
  isplitr; · iempintro
  iexact Hr

set_option backward.isDefEq.respectTransparency.types false in
def reg3 : Pipeline.RegionSeg (pcfgs (F := F)) adm (pdats d V2 V3) none defs₀ 𝒱₀ (K (F := F)).L (K (F := F)).lev 1 where
  win := launch3.win.to₀
  block_pos := launch3.block_pos
  stage_whole := launch3.stage_whole
  K := PEmpty
  osem := fun k => k.elim
  ho := Pipeline.OwnSemFacts.none _
  hbody c := (body_obligation3 c (Vall d V3 c)).loose
  hwaits := Pipeline.hwaits_of_owed_zero _ _ _ _ _ _ 1 fun _ _ => rfl
  pre c := iprop((dat3 c (Vall d V3 c)).arrays ((dat3 c (Vall d V3 c)).arrAt · 0) ∗ owesT c)
  post c := iprop((dat3 c (Vall d V3 c)).arrays ((dat3 c (Vall d V3 c)).arrAt · cfg3.N) ∗ owesT c)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owesT Pipeline.Dat.owesAt Pipeline.owesWithin
      icases HO with ⟨%W, %hW, HO⟩
      iexists W; isplitr
      · ipureintro; exact fun p hp => Or.inl (hW p (Finset.mem_coe.mp hp))
      iexact HO
    isplitr <;> iempintro
  hin c := hin3 d V2 V3 c
  hout c := hout3 d V2 V3 c
  hexit c := by
    iintro ⟨Ha, HO, -, -⟩
    imodintro
    isplitl [Ha]; · iexact Ha
    unfold owesT Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

/-- The arrays of the second call, window by window. -/
theorem arrays3_eq (c : Dev nD) (V : (b : Ref sig .tc) → Buf (Elt F) ((c : Thread nD τ).loc b))
    (G : (w : Fin cfg3.W) → Buf (Elt F) ((cfg3.win w).arr.view.loc (c : Thread nD τ))) :
    (dat3 c V).arrays G
      = iprop((((c : Thread nD τ).loc main_v8) ↦{fullShare} G 0) ∗ (((c : Thread nD τ).loc main_arg4) ↦{fullShare} G 1)
          ∗ (((c : Thread nD τ).loc main_v0) ↦{fullShare} G 2) ∗ (((c : Thread nD τ).loc main_v10) ↦{fullShare} G 3)) := by
  have h := Pipeline.arrays_eq cfgs (pdats c V V) 1 c arr_whole3
    (fun w => by rw [pdats_one]; exact (dat3 c _).share_full (fun _ => rfl) w) G
  rw [pdats_one, Vall_self] at h
  rw [h, bigSep_W3]; rfl

/-- What the second call leaves in the result array: the library's account of the write-backs, over the proof data. -/
def res3 (V : (b : Ref sig .tc) → Buf (Elt F) ((d : Thread nD τ).loc b)) : Buf (Elt F) ((d : Thread nD τ).loc main_v10) :=
  (dat3 d V).arrAt 3 cfg3.N

theorem pre3_eq (V : (b : Ref sig .tc) → Buf (Elt F) ((d : Thread nD τ).loc b)) :
    (reg3 d V V).pre d
      = iprop(((((d : Thread nD τ).loc main_v8) ↦{fullShare} V main_v8) ∗ (((d : Thread nD τ).loc main_arg4) ↦{fullShare} V main_arg4)
          ∗ (((d : Thread nD τ).loc main_v0) ↦{fullShare} V main_v0) ∗ (((d : Thread nD τ).loc main_v10) ↦{fullShare} V main_v10)) ∗ owesT d) := by
  show iprop((dat3 d (Vall d V d)).arrays ((dat3 d (Vall d V d)).arrAt · 0) ∗ owesT d) = _
  rw [Vall_self, arrays3_eq]; rfl

theorem post3_eq (V : (b : Ref sig .tc) → Buf (Elt F) ((d : Thread nD τ).loc b)) :
    (reg3 d V V).post d
      = iprop(((((d : Thread nD τ).loc main_v8) ↦{fullShare} V main_v8) ∗ (((d : Thread nD τ).loc main_arg4) ↦{fullShare} V main_arg4)
          ∗ (((d : Thread nD τ).loc main_v0) ↦{fullShare} V main_v0) ∗ (((d : Thread nD τ).loc main_v10) ↦{fullShare} res3 d V)) ∗ owesT d) := by
  show iprop((dat3 d (Vall d V d)).arrays ((dat3 d (Vall d V d)).arrAt · cfg3.N) ∗ owesT d) = _
  rw [Vall_self, arrays3_eq]
  rw [(dat3 d V).arrAt_in 0 rfl _, (dat3 d V).arrAt_in 1 rfl _, (dat3 d V).arrAt_in 2 rfl _]
  rfl

set_option backward.isDefEq.respectTransparency.types false in
/-- THE SECOND CALL, from the program's main thread. -/
theorem wp_region1 (V : (b : Ref sig .tc) → Buf (Elt F) ((d : Thread nD τ).loc b)) {Φ : PUnit → sProp 𝕄} :
    iprop(levAts (K (F := F)).L (K (F := F)).lev ∗ boundary (T d) ∗ owesT d
        ∗ (((d : Thread nD τ).loc main_v8) ↦{fullShare} V main_v8) ∗ (((d : Thread nD τ).loc main_arg4) ↦{fullShare} V main_arg4)
        ∗ (((d : Thread nD τ).loc main_v0) ↦{fullShare} V main_v0) ∗ (((d : Thread nD τ).loc main_v10) ↦{fullShare} V main_v10)
        ∗ Pipeline.cellsGhost cfgs EP 1 d ∗ Pipeline.toksInit cfgs EP 1 d
        ∗ (iprop(boundary (T d) ∗ owesT d
            ∗ (((d : Thread nD τ).loc main_v8) ↦{fullShare} V main_v8) ∗ (((d : Thread nD τ).loc main_arg4) ↦{fullShare} V main_arg4)
            ∗ (((d : Thread nD τ).loc main_v0) ↦{fullShare} V main_v0) ∗ (((d : Thread nD τ).loc main_v10) ↦{fullShare} res3 d V)) -∗ Φ ⟨⟩))
      ⊢ wp frame (wpE ((K (F := F)).defs D) 𝒱 (T d) none) Set.univ
          (Prog.lift (.customCall (SparseCore.inner (Pipeline.entry 1)) ())) Φ := by
  have hprog : (Prog.lift (.customCall (SparseCore.inner (Pipeline.entry 1)) ()) : Prog (TpuEff nD τ sig (Elt F) (SparseCore.Sig (ΛP (F := F)) 2) .tc) PUnit)
      = SparseCore.liftProg (.op (.customCall (Pipeline.entry 1) ()) .ret) := rfl
  rw [hprog]
  refine BIBase.Entails.trans ?_ ((K (F := F)).wp_liftProg D 𝒱 (T d) Set.univ none _ Φ)
  refine BIBase.Entails.trans ?_ (Pipeline.RegionSeg.wp (pcfgs (F := F)) adm (pdats d V V) none cellOf_inj EP defs₀ 𝒱₀ (K (F := F)).L (K (F := F)).lev
    (reg3 d V V) d none (fun _ h => nomatch h) .ret Φ)
  rw [pre3_eq, post3_eq]
  iintro ⟨#Hlev, Hb, HO, H4, HW, H0, H9, Hg, Ht, Hk⟩
  isplitl [Hk]
  · iintro ⟨Hb, ⟨H4, HW, H0, H9⟩, HO⟩
    rw [wp_ret]; imodintro
    iapply Hk
    isplitl [Hb]; · iexact Hb
    isplitl [HO]; · iexact HO
    isplitl [H4]; · iexact H4
    isplitl [HW]; · iexact HW
    isplitl [H0]; · iexact H0
    iexact H9
  isplitl [Hb]; · iexact Hb
  isplitl [HO H4 HW H0 H9]
  · isplitr [HO]
    · isplitl [H4]; · iexact H4
      isplitl [HW]; · iexact HW
      isplitl [H0]; · iexact H0
      iexact H9
    · iexact HO
  isplitr; · iexact Hlev
  isplitl [Hg]; · iexact Hg
  iexact Ht

end Entry

end Cert.Proof.KI

end
-- ==== Proof.MainII.lean ====
/-
  @main on the TensorCore, second half: the first matrix-product pipeline over the pooled rows of the first 1024
  tokens, the copy of its result into the second pipeline's aliased buffer, and the second pipeline over the pooled
  rows of the other 3072; each pipeline is handed its four arrays out of the held set and gives them back with the
  result array at the pipeline's final contents.
-/
import proofs.«204104_g71330816851969_cont_9to1_m_219_17_alg».proof.Proof.MainI
import proofs.«204104_g71330816851969_cont_9to1_m_219_17_alg».proof.Proof.Fund
import proofs.«204104_g71330816851969_cont_9to1_m_219_17_alg».proof.Proof.RegionsWp

noncomputable section
namespace Cert.Proof.KI
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Named F] [∀ e, Nonempty (Elt F e)]
local notation "𝕄" => MT nD τ sig (HIx 2) (Elt F) ℕ UU ℕ

variable (m : (ℓ : Loc nD τ sig) → Buf (Elt F) ℓ) (inv0 zero0 inv1 zero1 : F .f32)

abbrev v0' : DevRef τ sig := (main_v0 : DevRef τ sig)
abbrev v4' : DevRef τ sig := (main_v4 : DevRef τ sig)
abbrev v8' : DevRef τ sig := (main_v8 : DevRef τ sig)
abbrev v9' : DevRef τ sig := (main_v9 : DevRef τ sig)
abbrev v10' : DevRef τ sig := (main_v10 : DevRef τ sig)
abbrev w' : DevRef τ sig := (main_arg4 : DevRef τ sig)

/-- The arrays of the first pipeline (pooled rows, weights, bias row, result) and of the second. -/
def R0set : Finset (DevRef τ sig) := {v4', w', v0', v9'}
def R1set : Finset (DevRef τ sig) := {v8', w', v0', v10'}
theorem R0set_sub : R0set ⊆ Sall := by decide
theorem R1set_sub : R1set ⊆ Sall := by decide

omit [FloatOps F] [Named F] [∀ e, Nonempty (Elt F e)] in
theorem held_splitR0 (d : Dev nD) (W : Valuation τ sig (Elt F)) :
    (held (T d) Sall W : sProp 𝕄) = iprop(((((d : Thread nD τ).loc main_v4) ↦{fullShare} W v4') ∗ (((d : Thread nD τ).loc main_arg4) ↦{fullShare} W w')
        ∗ (((d : Thread nD τ).loc main_v0) ↦{fullShare} W v0') ∗ (((d : Thread nD τ).loc main_v9) ↦{fullShare} W v9')) ∗ held (T d) (Sall \ R0set) W) := by
  rw [held_sub_split (T d) R0set_sub]
  congr 1
  unfold held R0set
  rw [SparseCore.bigSep_insert' (by decide), SparseCore.bigSep_insert' (by decide), SparseCore.bigSep_insert' (by decide), bigSep_singleton]
omit [FloatOps F] [Named F] [∀ e, Nonempty (Elt F e)] in
theorem held_splitR1 (d : Dev nD) (W : Valuation τ sig (Elt F)) :
    (held (T d) Sall W : sProp 𝕄) = iprop(((((d : Thread nD τ).loc main_v8) ↦{fullShare} W v8') ∗ (((d : Thread nD τ).loc main_arg4) ↦{fullShare} W w')
        ∗ (((d : Thread nD τ).loc main_v0) ↦{fullShare} W v0') ∗ (((d : Thread nD τ).loc main_v10) ↦{fullShare} W v10')) ∗ held (T d) (Sall \ R1set) W) := by
  rw [held_sub_split (T d) R1set_sub]
  congr 1
  unfold held R1set
  rw [SparseCore.bigSep_insert' (by decide), SparseCore.bigSep_insert' (by decide), SparseCore.bigSep_insert' (by decide), bigSep_singleton]

/-- A valuation of the device's buffers, read at the TensorCore's references. -/
abbrev Vr (W : Valuation τ sig (Elt F)) (d : Dev nD) : (b : Ref sig .tc) → Buf (Elt F) ((d : Thread nD τ).loc b) := fun b => W (b : DevRef τ sig)

/-- After the first pipeline; after the copy into the aliased buffer; after the second pipeline. -/
def V6 (d : Dev nD) : Valuation τ sig (Elt F) := Function.update (V5 m inv0 zero0 inv1 zero1 d) v9' (res2 d (Vr (V5 m inv0 zero0 inv1 zero1 d) d))
def V7 (d : Dev nD) : Valuation τ sig (Elt F) := after ops3 (V6 m inv0 zero0 inv1 zero1 d)
def V8 (d : Dev nD) : Valuation τ sig (Elt F) := Function.update (V7 m inv0 zero0 inv1 zero1 d) v10' (res3 d (Vr (V7 m inv0 zero0 inv1 zero1 d) d))

theorem held_restR0 (d : Dev nD) :
    (held (T d) (Sall \ R0set) (V6 m inv0 zero0 inv1 zero1 d) : sProp 𝕄) = held (T d) (Sall \ R0set) (V5 m inv0 zero0 inv1 zero1 d) :=
  held_congr (T d) fun b hb => Function.update_of_ne (fun e => (Finset.mem_sdiff.mp hb).2 (by subst e; decide)) _ _
theorem held_restR1 (d : Dev nD) :
    (held (T d) (Sall \ R1set) (V8 m inv0 zero0 inv1 zero1 d) : sProp 𝕄) = held (T d) (Sall \ R1set) (V7 m inv0 zero0 inv1 zero1 d) :=
  held_congr (T d) fun b hb => Function.update_of_ne (fun e => (Finset.mem_sdiff.mp hb).2 (by subst e; decide)) _ _
theorem V6_v4 (d : Dev nD) : V6 m inv0 zero0 inv1 zero1 d v4' = V5 m inv0 zero0 inv1 zero1 d v4' := Function.update_of_ne (show v4' ≠ v9' by decide) _ _
theorem V6_w (d : Dev nD) : V6 m inv0 zero0 inv1 zero1 d w' = V5 m inv0 zero0 inv1 zero1 d w' := Function.update_of_ne (show w' ≠ v9' by decide) _ _
theorem V6_v0 (d : Dev nD) : V6 m inv0 zero0 inv1 zero1 d v0' = V5 m inv0 zero0 inv1 zero1 d v0' := Function.update_of_ne (show v0' ≠ v9' by decide) _ _
theorem V6_v9 (d : Dev nD) : V6 m inv0 zero0 inv1 zero1 d v9' = res2 d (Vr (V5 m inv0 zero0 inv1 zero1 d) d) := Function.update_self _ _ _
theorem V8_v8 (d : Dev nD) : V8 m inv0 zero0 inv1 zero1 d v8' = V7 m inv0 zero0 inv1 zero1 d v8' := Function.update_of_ne (show v8' ≠ v10' by decide) _ _
theorem V8_w (d : Dev nD) : V8 m inv0 zero0 inv1 zero1 d w' = V7 m inv0 zero0 inv1 zero1 d w' := Function.update_of_ne (show w' ≠ v10' by decide) _ _
theorem V8_v0 (d : Dev nD) : V8 m inv0 zero0 inv1 zero1 d v0' = V7 m inv0 zero0 inv1 zero1 d v0' := Function.update_of_ne (show v0' ≠ v10' by decide) _ _
theorem V8_v10 (d : Dev nD) : V8 m inv0 zero0 inv1 zero1 d v10' = res3 d (Vr (V7 m inv0 zero0 inv1 zero1 d) d) := Function.update_self _ _ _

theorem hmainII (κ : GSem nD τ sig → ℕ) (d : Dev nD) :
    iprop((K (F := F)).ctx EH (P (C m inv0 zero0 inv1 zero1)) κ ∗ (K (F := F)).tcSt EH d 2 ∗ boundary (T d)
        ∗ held (T d) Sall (V5 m inv0 zero0 inv1 zero1 d) ∗ G (F := F) d)
      ⊢ wp frame (wpE ((K (F := F)).defs (D (F := F))) 𝒱 (SparseCore.T d) none) Set.univ (mainRest (F := F))
          fun _ => iprop((K (F := F)).tcSt EH d 2 ∗ held (T d) Sall (V8 m inv0 zero0 inv1 zero1 d)) := by
  unfold mainRest G
  rw [bigSep_univ_two (fun p : Fin 2 => (Pipeline.cellsGhost cfgs EP p d : sProp 𝕄)), bigSep_univ_two (fun p : Fin 2 => (Pipeline.toksInit cfgs EP p d : sProp 𝕄))]
  unfold SparseCore.Cfg.tcSt
  rw [(K (F := F)).Otc_end d (le_refl 2)]
  iintro ⟨#Hctx, ⟨Howes, Hat⟩, Hb, Hheld, ⟨Hg0, Hg1⟩, ⟨Ht0, Ht1⟩⟩
  ihave #Hlev := (SparseCore.Cfg.ctx_levAts (K := K (F := F)) (EH := EH) (P := P (C m inv0 zero0 inv1 zero1)) κ) $$ Hctx
  -- the first pipeline
  ihave Hh := (Entails.of_eq (held_splitR0 d (V5 m inv0 zero0 inv1 zero1 d))) $$ Hheld
  icases Hh with ⟨⟨Hx, Hw, Hbias, Ho⟩, Hrest⟩
  rw [wp_bind]
  iapply (wp_region0 d (Vr (V5 m inv0 zero0 inv1 zero1 d) d)) $$ [Howes Hb Hx Hw Hbias Ho Hg0 Ht0 Hat Hrest Hg1 Ht1]
  unfold owesT
  isplitr; · iexact Hlev
  isplitl [Hb]; · iexact Hb
  isplitl [Howes]; · iexact Howes
  isplitl [Hx]; · iexact Hx
  isplitl [Hw]; · iexact Hw
  isplitl [Hbias]; · iexact Hbias
  isplitl [Ho]; · iexact Ho
  isplitl [Hg0]; · iexact Hg0
  isplitl [Ht0]; · iexact Ht0
  iintro ⟨Hb, Howes, Hx, Hw, Hbias, Ho⟩
  ihave Hheld := (Entails.of_eq (held_splitR0 d (V6 m inv0 zero0 inv1 zero1 d)).symm) $$ [Hx Hw Hbias Ho Hrest]
  · rw [V6_v4, V6_w, V6_v0, V6_v9, held_restR0]
    isplitr [Hrest]
    · isplitl [Hx]; · iexact Hx
      isplitl [Hw]; · iexact Hw
      isplitl [Hbias]; · iexact Hbias
      iexact Ho
    · iexact Hrest
  -- the copy of its result into the second pipeline's aliased buffer
  iapply (wp_seq 𝒱 none Set.univ d Sall _ ops3 ops3_sub ops3_fresh (V6 m inv0 zero0 inv1 zero1 d)) $$ [Hb Hheld]
  · isplitl [Hb]; · iexact Hb
    iexact Hheld
  iintro ⟨Hb, Hheld⟩
  -- the second pipeline
  ihave Hh := (Entails.of_eq (held_splitR1 d (after ops3 (V6 m inv0 zero0 inv1 zero1 d)))) $$ Hheld
  icases Hh with ⟨⟨Hx, Hw, Hbias, Ho⟩, Hrest⟩
  rw [wp_bind]
  rw [show after ops3 (V6 m inv0 zero0 inv1 zero1 d) = V7 m inv0 zero0 inv1 zero1 d from rfl]
  iapply (wp_region1 d (Vr (V7 m inv0 zero0 inv1 zero1 d) d)) $$ [Howes Hb Hx Hw Hbias Ho Hg1 Ht1 Hat Hrest]
  unfold owesT
  isplitr; · iexact Hlev
  isplitl [Hb]; · iexact Hb
  isplitl [Howes]; · iexact Howes
  isplitl [Hx]; · iexact Hx
  isplitl [Hw]; · iexact Hw
  isplitl [Hbias]; · iexact Hbias
  isplitl [Ho]; · iexact Ho
  isplitl [Hg1]; · iexact Hg1
  isplitl [Ht1]; · iexact Ht1
  iintro ⟨Hb, Howes, Hx, Hw, Hbias, Ho⟩
  ihave Hheld := (Entails.of_eq (held_splitR1 d (V8 m inv0 zero0 inv1 zero1 d)).symm) $$ [Hx Hw Hbias Ho Hrest]
  · rw [V8_v8, V8_w, V8_v0, V8_v10, held_restR1]
    isplitr [Hrest]
    · isplitl [Hx]; · iexact Hx
      isplitl [Hw]; · iexact Hw
      isplitl [Hbias]; · iexact Hbias
      iexact Ho
    · iexact Hrest
  rw [wp_pure]
  imodintro
  isplitl [Howes Hat]
  · isplitl [Howes]; · iexact Howes
    iexact Hat
  iexact Hheld

end Cert.Proof.KI
end
-- ==== Proof.Launch.lean ====
/-
  The run of the printed program: @main's two halves composed; what the final memory holds, read off the
  TensorCore's held arrays; and the launch theorem applied to the two vector-subcore calls' task obligations.
-/
import proofs.«204104_g71330816851969_cont_9to1_m_219_17_alg».proof.Proof.MainII

noncomputable section
namespace Cert.Proof.KI
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Named F] [∀ e, Nonempty (Elt F e)]
local notation "𝕄" => MT nD τ sig (HIx 2) (Elt F) ℕ UU ℕ

variable (m : (ℓ : Loc nD τ sig) → Buf (Elt F) ℓ) (ρ : Dev nD → PrngReg) (inv0 zero0 inv1 zero1 : F .f32)

/-- What @main leaves: the TensorCore's unscoped arrays at the final valuation. -/
abbrev FIN (d : Dev nD) : sProp 𝕄 := held (T d) Sall (V8 m inv0 zero0 inv1 zero1 d)

theorem hmain (κ : GSem nD τ sig → ℕ) (d : Dev nD) :
    iprop((K (F := F)).ctx EH (P (C m inv0 zero0 inv1 zero1)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m inv0 zero0 inv1 zero1 d) := by
  unfold SparseCore.Cfg.tcRes
  rw [unscoped_held]
  iintro ⟨#Hctx, Hst, ⟨Hb, Hheld, -, -⟩, HG⟩
  iapply (hmainI m inv0 zero0 inv1 zero1 κ d _)
  isplitr; · iexact Hctx
  isplitl [Hst]; · iexact Hst
  isplitl [Hb]; · iexact Hb
  isplitl [Hheld]; · iexact Hheld
  iintro ⟨Hst, Hb, Hheld⟩
  iapply (hmainII m inv0 zero0 inv1 zero1 κ d)
  isplitr; · iexact Hctx
  isplitl [Hst]; · iexact Hst
  isplitl [Hb]; · iexact Hb
  isplitl [Hheld]; · iexact Hheld
  iexact HG

/-! ## Reading the final memory -/

abbrev a0' : DevRef τ sig := (main_arg0 : DevRef τ sig)
abbrev a1' : DevRef τ sig := (main_arg1 : DevRef τ sig)
abbrev a2' : DevRef τ sig := (main_arg2 : DevRef τ sig)
abbrev a5' : DevRef τ sig := (main_arg5 : DevRef τ sig)

/-- The result and the six arguments. -/
def F7set : Finset (DevRef τ sig) := {v10', a0', a1', a2', e', w', a5'}
theorem F7set_sub : F7set ⊆ Sall := by decide

omit [FloatOps F] [Named F] [∀ e, Nonempty (Elt F e)] in
theorem held_F7 (d : Dev nD) (W : Valuation τ sig (Elt F)) :
    (held (T d) F7set W : sProp 𝕄) = iprop((((d : Thread nD τ).loc main_v10) ↦{fullShare} W v10') ∗ (((d : Thread nD τ).loc main_arg0) ↦{fullShare} W a0')
      ∗ (((d : Thread nD τ).loc main_arg1) ↦{fullShare} W a1') ∗ (((d : Thread nD τ).loc main_arg2) ↦{fullShare} W a2')
      ∗ (((d : Thread nD τ).loc main_arg3) ↦{fullShare} W e') ∗ (((d : Thread nD τ).loc main_arg4) ↦{fullShare} W w')
      ∗ (((d : Thread nD τ).loc main_arg5) ↦{fullShare} W a5')) := by
  unfold held F7set
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The final memory of device `d` holds the final valuation at the result and at the six arguments. -/
def fq (d : Dev nD) (s' : Phys nD τ sig (Elt F)) : Prop :=
  s'.mem.mem ((d : Thread nD τ).loc main_v10) = V8 m inv0 zero0 inv1 zero1 d v10'
  ∧ s'.mem.mem ((d : Thread nD τ).loc main_arg0) = V8 m inv0 zero0 inv1 zero1 d a0'
  ∧ s'.mem.mem ((d : Thread nD τ).loc main_arg1) = V8 m inv0 zero0 inv1 zero1 d a1'
  ∧ s'.mem.mem ((d : Thread nD τ).loc main_arg2) = V8 m inv0 zero0 inv1 zero1 d a2'
  ∧ s'.mem.mem ((d : Thread nD τ).loc main_arg3) = V8 m inv0 zero0 inv1 zero1 d e'
  ∧ s'.mem.mem ((d : Thread nD τ).loc main_arg4) = V8 m inv0 zero0 inv1 zero1 d w'
  ∧ s'.mem.mem ((d : Thread nD τ).loc main_arg5) = V8 m inv0 zero0 inv1 zero1 d a5'

omit [FloatOps F] [Named F] [∀ e, Nonempty (Elt F e)] in
/-- A whole buffer held at `f` is what the memory holds there; the memory is kept. -/
theorem agree_keep (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) :
    iprop(FIN m inv0 zero0 inv1 zero1 d ∗ SI s') ⊢ (⌜fq m inv0 zero0 inv1 zero1 d s'⌝ : sProp 𝕄) := by
  unfold FIN
  rw [held_sub_split (T d) F7set_sub, held_F7]
  iintro ⟨⟨⟨H0, H1, H2, H3, H4, H5, H6⟩, -⟩, HSI⟩
  ihave H := (agree_keep _ _ s') $$ [HSI H0]
  · isplitl [HSI] <;> iassumption
  icases H with ⟨%h0, HSI⟩
  ihave H := (agree_keep _ _ s') $$ [HSI H1]
  · isplitl [HSI] <;> iassumption
  icases H with ⟨%h1, HSI⟩
  ihave H := (agree_keep _ _ s') $$ [HSI H2]
  · isplitl [HSI] <;> iassumption
  icases H with ⟨%h2, HSI⟩
  ihave H := (agree_keep _ _ s') $$ [HSI H3]
  · isplitl [HSI] <;> iassumption
  icases H with ⟨%h3, HSI⟩
  ihave H := (agree_keep _ _ s') $$ [HSI H4]
  · isplitl [HSI] <;> iassumption
  icases H with ⟨%h4, HSI⟩
  ihave H := (agree_keep _ _ s') $$ [HSI H5]
  · isplitl [HSI] <;> iassumption
  icases H with ⟨%h5, HSI⟩
  ihave H := (agree_keep _ _ s') $$ [HSI H6]
  · isplitl [HSI] <;> iassumption
  icases H with ⟨%h6, HSI⟩
  ipureintro
  exact ⟨h0, h1, h2, h3, h4, h5, h6⟩

/-! ## The program's run -/

def QC : PUnit × MemSt nD τ sig (Elt F) → Prop := fun r => ∀ c : Dev nD,
  r.2.mem ((c : Thread nD τ).loc main_v10) = V8 m inv0 zero0 inv1 zero1 c v10'
  ∧ r.2.mem ((c : Thread nD τ).loc main_arg0) = V8 m inv0 zero0 inv1 zero1 c a0'
  ∧ r.2.mem ((c : Thread nD τ).loc main_arg1) = V8 m inv0 zero0 inv1 zero1 c a1'
  ∧ r.2.mem ((c : Thread nD τ).loc main_arg2) = V8 m inv0 zero0 inv1 zero1 c a2'
  ∧ r.2.mem ((c : Thread nD τ).loc main_arg3) = V8 m inv0 zero0 inv1 zero1 c e'
  ∧ r.2.mem ((c : Thread nD τ).loc main_arg4) = V8 m inv0 zero0 inv1 zero1 c w'
  ∧ r.2.mem ((c : Thread nD τ).loc main_arg5) = V8 m inv0 zero0 inv1 zero1 c a5'

/-- Every weakly fair execution of the program's threads terminates, nothing faulting, with the result array and the
    arguments at the final valuation — given each call's task obligation. -/
theorem run_main (htile0 : (K (F := F)).TileObl (D (F := F)) 𝒱 (P (C m inv0 zero0 inv1 zero1)) v₀ 0)
    (htile1 : (K (F := F)).TileObl (D (F := F)) 𝒱 (P (C m inv0 zero0 inv1 zero1)) v₀ 1) :
    θ_run (Cert.KernelIdeal.defs (F := F)) (Cert.KernelIdeal.threads (F := F)) ⟨m, fun _ => 0, ρ⟩ (QC m inv0 zero0 inv1 zero1) :=
  SparseCore.Cfg.θ_run_sc (K := K (F := F)) (D := D (F := F)) (𝒱 := 𝒱) (EH := EH) (P := P (C m inv0 zero0 inv1 zero1)) facts v₀
    (fun q hq => match q with | 0 => nomatch hq | 1 => nomatch hq)
    (fun q _ => match q with | 0 => htile0 | 1 => htile1)
    (fun q _ => match q with
      | 0 => SparseCore.Cfg.VecSplit.of_plain (vecSplit0 (C m inv0 zero0 inv1 zero1))
      | 1 => SparseCore.Cfg.VecSplit.of_plain (vecSplit1 (C m inv0 zero0 inv1 zero1)))
    m ρ main (G (F := F)) (FIN m inv0 zero0 inv1 zero1) (u₀ (F := F)) (sep_elim_left.trans (hu₀ (C m inv0 zero0 inv1 zero1)))
    (hmain m ρ inv0 zero0 inv1 zero1) (fq m inv0 zero0 inv1 zero1) (hfin m inv0 zero0 inv1 zero1) (QC m inv0 zero0 inv1 zero1) (fun _ h => h)

end Cert.Proof.KI
end
-- ==== Proof.B.Common.lean ====
/-
  The shared set-up of this certificate's kernel-side proof: the SparseCore launch configuration of the printed
  program (two vector-subcore calls, two TensorCore pipelines), and the ghost state every module states its
  assertions over — the SparseCore handshakes' rounds, the TensorCore pipelines' staging cells' rounds, and the
  counters of the tasks' own transfers.
-/
import proofs.«204104_g71330816851969_cont_9to1_m_219_17_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204104_g71330816851969_cont_9to1_m_219_17_alg».proof.Proof.Gen.Kernel
import proofs.«204104_g71330816851969_cont_9to1_m_219_17_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_q (q : Fin 2) : (K (F := F)).nSub q = 16 := by
  match q with
  | 0 => rfl
  | 1 => rfl
theorem nCore_q (q : Fin 2) : (K (F := F)).nCore q = 2 := by
  match q with
  | 0 => rfl
  | 1 => rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The SparseCore handshakes' rounds. -/
abbrev UH : Type := URounds (GSem nD τ sig) ℕ
/-- The TensorCore pipelines' staging cells' rounds. -/
abbrev UP : Type := URounds (GSem nD τ sig) Unit
/-- Handshakes, staging cells, and the counters of the tasks' own transfers. -/
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by unfold EP embR; infer_instance

omit [FloatOps F] in
/-- The launch element splits into the handshakes' part and the staging cells' part (the counters' part, the unit of
    its algebra, is dropped). -/
theorem ownU_split3 (a : UH) (b : UP) (c : Counters) :
    (ownU ((a, (b, c)) : UU) : sProp 𝕄) ⊢ iprop(BI.own (EH a) ∗ BI.own (EP b)) := by
  iintro Hu
  ihave H := (ownU_pair a (b, c)) $$ Hu
  icases H with ⟨HH, HR⟩
  ihave H2 := (own_pair_emb (embR : Emb (UP × Counters) 𝕄) b c) $$ HR
  icases H2 with ⟨HP, -⟩
  isplitl [HH]; · iexact HH
  iexact HP

end Cert.Proof.KB

end
-- ==== Proof.B.Rows.lean ====
/-
  The rows the 32 vector-subcore tasks of each SparseCore call work on: task w = 16·c + s (SparseCore c, subcore s)
  reads row w of the call's index array and writes row w of its result array; every task reads the whole
  embedding table.
-/
import proofs.«204104_g71330816851969_cont_9to1_m_219_17_alg».proof.Proof.B.Common

noncomputable section

namespace Cert.Proof.KB

open Cert.Kernel Cert.Kernel.Gen

open Idealize.ShloMosaic
open Idealize.ShloMosaic.SparseCore (S V T)

/-- Task number of subcore `s` of SparseCore `c`. -/
def taskIx (c : Fin 2) (s : Fin 16) : Fin 32 := ⟨16 * c.val + s.val, by omega⟩

theorem taskIx_injective : Function.Injective (fun cs : Fin 2 × Fin 16 => taskIx cs.1 cs.2) := by
  rintro ⟨c, s⟩ ⟨c', s'⟩ h
  have h' : 16 * c.val + s.val = 16 * c'.val + s'.val := congrArg Fin.val h
  have hc : c.val = c'.val := by omega
  have hs : s.val = s'.val := by omega
  exact Prod.ext (Fin.ext hc) (Fin.ext hs)

theorem taskIx_surjective : Function.Surjective (fun cs : Fin 2 × Fin 16 => taskIx cs.1 cs.2) := by
  intro w
  refine ⟨(⟨w.val / 16, by omega⟩, ⟨w.val % 16, Nat.mod_lt _ (by decide)⟩), Fin.ext ?_⟩
  show 16 * (w.val / 16) + w.val % 16 = w.val
  omega

/-! ## Call 0: index array `main_v2 : i32[32,16,100]`, result `main_v3 : f32[32,32,128]` -/

theorem hdivI0 : 32 ∣ S32x16x100.size 0 := ⟨1, rfl⟩
theorem hdivO0 : 32 ∣ S32x32x128.size 0 := ⟨1, rfl⟩
/-- Row `w` of the index array of call 0, as a rectangle and as a set of indices. -/
abbrev rowI0 (w : Fin 32) : Rect S32x16x100 := Rect.part (s := S32x16x100) (a₀ := 0) hdivI0 w
abbrev rowO0 (w : Fin 32) : Rect S32x32x128 := Rect.part (s := S32x32x128) (a₀ := 0) hdivO0 w
abbrev rowSetI0 (w : Fin 32) : Finset S32x16x100.Idx := (rowI0 w).set
abbrev rowSetO0 (w : Fin 32) : Finset S32x32x128.Idx := (rowO0 w).set

/-! ## Call 1: index array `main_v6 : i32[32,48,100]`, result `main_v7 : f32[32,96,128]` -/

theorem hdivI1 : 32 ∣ S32x48x100.size 0 := ⟨1, rfl⟩
theorem hdivO1 : 32 ∣ S32x96x128.size 0 := ⟨1, rfl⟩
abbrev rowI1 (w : Fin 32) : Rect S32x48x100 := Rect.part (s := S32x48x100) (a₀ := 0) hdivI1 w
abbrev rowO1 (w : Fin 32) : Rect S32x96x128 := Rect.part (s := S32x96x128) (a₀ := 0) hdivO1 w
abbrev rowSetI1 (w : Fin 32) : Finset S32x48x100.Idx := (rowI1 w).set
abbrev rowSetO1 (w : Fin 32) : Finset S32x96x128.Idx := (rowO1 w).set

theorem rowsI0_disjoint : ∀ i ∈ (Finset.univ : Finset (Fin 32)), ∀ j ∈ (Finset.univ : Finset (Fin 32)), i ≠ j → Disjoint (rowSetI0 i) (rowSetI0 j) :=
  fun _ _ _ _ h => Rect.part_disjoint hdivI0 h
theorem rowsI0_cover : (Finset.univ : Finset (Fin 32)).biUnion rowSetI0 = Finset.univ := Rect.biUnion_part hdivI0
theorem rowsO0_disjoint : ∀ i ∈ (Finset.univ : Finset (Fin 32)), ∀ j ∈ (Finset.univ : Finset (Fin 32)), i ≠ j → Disjoint (rowSetO0 i) (rowSetO0 j) :=
  fun _ _ _ _ h => Rect.part_disjoint hdivO0 h
theorem rowsO0_cover : (Finset.univ : Finset (Fin 32)).biUnion rowSetO0 = Finset.univ := Rect.biUnion_part hdivO0
theorem rowsI1_disjoint : ∀ i ∈ (Finset.univ : Finset (Fin 32)), ∀ j ∈ (Finset.univ : Finset (Fin 32)), i ≠ j → Disjoint (rowSetI1 i) (rowSetI1 j) :=
  fun _ _ _ _ h => Rect.part_disjoint hdivI1 h
theorem rowsI1_cover : (Finset.univ : Finset (Fin 32)).biUnion rowSetI1 = Finset.univ := Rect.biUnion_part hdivI1
theorem rowsO1_disjoint : ∀ i ∈ (Finset.univ : Finset (Fin 32)), ∀ j ∈ (Finset.univ : Finset (Fin 32)), i ≠ j → Disjoint (rowSetO1 i) (rowSetO1 j) :=
  fun _ _ _ _ h => Rect.part_disjoint hdivO1 h
theorem rowsO1_cover : (Finset.univ : Finset (Fin 32)).biUnion rowSetO1 = Finset.univ := Rect.biUnion_part hdivO1

end Cert.Proof.KB

end
-- ==== Proof.B.Pay.lean ====
/-
  What the SparseCore handshakes carry in this program, and how a SparseCore's share splits among its sixteen
  tasks: call q hands SparseCore c rows 16c … 16c+15 of the call's index array and of its result array and a read
  share of the embedding table; task (c, i) gets row 16c + i of both and a read share of the table; the results come
  back row by row, each row at the call's result function.
-/
import proofs.«204104_g71330816851969_cont_9to1_m_219_17_alg».proof.Proof.B.Rows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 2) (Elt F) ℕ UU ℕ

/-! ## The arrays, as locations of device `d` -/

abbrev i0Loc (d : Dev nD) : Loc nD τ sig := (SparseCore.T d).loc main_v2
abbrev i1Loc (d : Dev nD) : Loc nD τ sig := (SparseCore.T d).loc main_v6
abbrev eLoc (d : Dev nD) : Loc nD τ sig := (SparseCore.T d).loc main_arg3
abbrev o0Loc (d : Dev nD) : Loc nD τ sig := (SparseCore.T d).loc main_v3
abbrev o1Loc (d : Dev nD) : Loc nD τ sig := (SparseCore.T d).loc main_v7

/-- The contents the two calls run on and leave: the index arrays, the table, the result arrays before and after. -/
structure Conts (F : FTy → Type) where
  ids0 : (d : Dev nD) → Buf (Elt F) (i0Loc d)
  ids1 : (d : Dev nD) → Buf (Elt F) (i1Loc d)
  emb : (d : Dev nD) → Buf (Elt F) (eLoc d)
  old0 : (d : Dev nD) → Buf (Elt F) (o0Loc d)
  old1 : (d : Dev nD) → Buf (Elt F) (o1Loc d)
  res0 : (d : Dev nD) → Buf (Elt F) (o0Loc d)
  res1 : (d : Dev nD) → Buf (Elt F) (o1Loc d)

variable (C : Conts F)

/-- The read share of the table SparseCore `c` holds during a call, and task `(c, i)`'s. -/
abbrev shC (c : Fin 2) : PosShare TreeShare := shareTok fullShare 2 c
abbrev shT (c : Fin 2) (i : Fin 16) : PosShare TreeShare := shareTok (shC c) 16 i

/-- Task `w`'s holdings at call 0 with the result row at `f`; at call 1. -/
abbrev task0 (d : Dev nD) (c : Fin 2) (i : Fin 16) (f : Buf (Elt F) (o0Loc d)) : sProp 𝕄 :=
  iprop((i0Loc d ↦[rowSetI0 (taskIx c i)]{fullShare} C.ids0 d) ∗ (eLoc d ↦{shT c i} C.emb d) ∗ (o0Loc d ↦[rowSetO0 (taskIx c i)]{fullShare} f))
abbrev task1 (d : Dev nD) (c : Fin 2) (i : Fin 16) (f : Buf (Elt F) (o1Loc d)) : sProp 𝕄 :=
  iprop((i1Loc d ↦[rowSetI1 (taskIx c i)]{fullShare} C.ids1 d) ∗ (eLoc d ↦{shT c i} C.emb d) ∗ (o1Loc d ↦[rowSetO1 (taskIx c i)]{fullShare} f))

/-- SparseCore `c`'s holdings at call 0 with its result rows at `f`; at call 1. -/
abbrev core0 (d : Dev nD) (c : Fin 2) (f : Buf (Elt F) (o0Loc d)) : sProp 𝕄 :=
  iprop((bigSep Finset.univ fun i : Fin 16 => i0Loc d ↦[rowSetI0 (taskIx c i)]{fullShare} C.ids0 d) ∗ (eLoc d ↦{shC c} C.emb d)
    ∗ (bigSep Finset.univ fun i : Fin 16 => o0Loc d ↦[rowSetO0 (taskIx c i)]{fullShare} f))
abbrev core1 (d : Dev nD) (c : Fin 2) (f : Buf (Elt F) (o1Loc d)) : sProp 𝕄 :=
  iprop((bigSep Finset.univ fun i : Fin 16 => i1Loc d ↦[rowSetI1 (taskIx c i)]{fullShare} C.ids1 d) ∗ (eLoc d ↦{shC c} C.emb d)
    ∗ (bigSep Finset.univ fun i : Fin 16 => o1Loc d ↦[rowSetO1 (taskIx c i)]{fullShare} f))

/-- The two calls' payloads. -/
def P : (K (F := F)).Pay (nD := nD) (Val := Elt F) (Name := ℕ) (U := UU) where
  st := fun q d c => match q with
    | 0 => core0 C d (Fin.cast (nCore_q 0) c) (C.old0 d)
    | 1 => core1 C d (Fin.cast (nCore_q 1) c) (C.old1 d)
  dn := fun q d c => match q with
    | 0 => core0 C d (Fin.cast (nCore_q 0) c) (C.res0 d)
    | 1 => core1 C d (Fin.cast (nCore_q 1) c) (C.res1 d)
  go := fun q d c i => match q with
    | 0 => task0 C d (Fin.cast (nCore_q 0) c) (Fin.cast (nSub_q 0) i) (C.old0 d)
    | 1 => task1 C d (Fin.cast (nCore_q 1) c) (Fin.cast (nSub_q 1) i) (C.old1 d)
  td := fun q d c i => match q with
    | 0 => task0 C d (Fin.cast (nCore_q 0) c) (Fin.cast (nSub_q 0) i) (C.res0 d)
    | 1 => task1 C d (Fin.cast (nCore_q 1) c) (Fin.cast (nSub_q 1) i) (C.res1 d)
  x := fun _ _ => iprop(emp)

instance P_storable : (P (F := F) C).IsStorable where
  st q d c := match q with
    | 0 => (inferInstance : BI.Storable (upEmb : UEmb _ 𝕄) (core0 C d (Fin.cast (nCore_q 0) c) (C.old0 d)))
    | 1 => (inferInstance : BI.Storable (upEmb : UEmb _ 𝕄) (core1 C d (Fin.cast (nCore_q 1) c) (C.old1 d)))
  dn q d c := match q with
    | 0 => (inferInstance : BI.Storable (upEmb : UEmb _ 𝕄) (core0 C d (Fin.cast (nCore_q 0) c) (C.res0 d)))
    | 1 => (inferInstance : BI.Storable (upEmb : UEmb _ 𝕄) (core1 C d (Fin.cast (nCore_q 1) c) (C.res1 d)))
  go q d c i := match q with
    | 0 => (inferInstance : BI.Storable (upEmb : UEmb _ 𝕄) (task0 C d (Fin.cast (nCore_q 0) c) (Fin.cast (nSub_q 0) i) (C.old0 d)))
    | 1 => (inferInstance : BI.Storable (upEmb : UEmb _ 𝕄) (task1 C d (Fin.cast (nCore_q 1) c) (Fin.cast (nSub_q 1) i) (C.old1 d)))
  td q d c i := match q with
    | 0 => (inferInstance : BI.Storable (upEmb : UEmb _ 𝕄) (task0 C d (Fin.cast (nCore_q 0) c) (Fin.cast (nSub_q 0) i) (C.res0 d)))
    | 1 => (inferInstance : BI.Storable (upEmb : UEmb _ 𝕄) (task1 C d (Fin.cast (nCore_q 1) c) (Fin.cast (nSub_q 1) i) (C.res1 d)))

end Cert.Proof.KB

end
-- ==== Proof.B.Split.lean ====
/-
  How a SparseCore's holdings at a call split among its sixteen tasks and gather again: the rows are already one
  per task; the read share of the embedding table splits into sixteen read tokens, the remainder kept aside until
  the tasks' tokens come back.
-/
import proofs.«204104_g71330816851969_cont_9to1_m_219_17_alg».proof.Proof.B.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 2) (Elt F) ℕ UU ℕ

omit [FloatOps F] in
/-- Sixteen row pairs and a read share of one array: the share splits into one read token per row pair, and comes
    back whole when every token does, whatever the second rows have become. -/
theorem split16 (A B B' : Fin 16 → sProp 𝕄) (ℓ : Loc nD τ sig) (f : Buf (Elt F) ℓ) (q : PosShare TreeShare) :
    iprop((bigSep Finset.univ A) ∗ (ℓ ↦{q} f) ∗ bigSep Finset.univ B)
      ⊢ |={Set.univ}=> iprop((bigSep Finset.univ fun i : Fin 16 => iprop(A i ∗ (ℓ ↦{shareTok q 16 i} f) ∗ B i))
          ∗ ((bigSep Finset.univ fun i : Fin 16 => iprop(A i ∗ (ℓ ↦{shareTok q 16 i} f) ∗ B' i))
              -∗ iprop((bigSep Finset.univ A) ∗ (ℓ ↦{q} f) ∗ bigSep Finset.univ B'))) := by
  rw [bigSep_sep', bigSep_sep', bigSep_sep', bigSep_sep']
  iintro ⟨HA, He, HB⟩
  ihave He' := (pointsTo_toks_split (ℓ := ℓ) (S := Finset.univ) (f := f) q 16) $$ He
  icases He' with ⟨Hd, Ht⟩
  imodintro
  isplitl [HA Ht HB]
  · isplitl [HA]; · iexact HA
    isplitl [Ht]; · iexact Ht
    iexact HB
  iintro ⟨HA, Ht, HB⟩
  isplitl [HA]; · iexact HA
  isplitl [Hd Ht]
  · iapply (pointsTo_toks_join (ℓ := ℓ) (S := Finset.univ) (f := f) q 16)
    isplitl [Hd]; · iexact Hd
    iexact Ht
  iexact HB

theorem bigSep_tasks (q : Fin 2) (Φ : Fin 16 → sProp 𝕄) :
    (bigSep Finset.univ fun i : Fin ((K (F := F)).nSub q) => Φ (Fin.cast (nSub_q q) i)) = bigSep Finset.univ Φ := by
  match q with
  | 0 => exact bigSep_congr fun _ _ => congrArg Φ (Fin.ext rfl)
  | 1 => exact bigSep_congr fun _ _ => congrArg Φ (Fin.ext rfl)

variable (C : Conts F)

theorem vecSplit0 : (K (F := F)).VecSplit' (P C) 0 := by
  intro d c
  show core0 C d (Fin.cast (nCore_q 0) c) (C.old0 d) ⊢ |={Set.univ}=> iprop(
      (bigSep Finset.univ fun i : Fin ((K (F := F)).nSub 0) => task0 C d (Fin.cast (nCore_q 0) c) (Fin.cast (nSub_q 0) i) (C.old0 d))
      ∗ ((bigSep Finset.univ fun i : Fin ((K (F := F)).nSub 0) => task0 C d (Fin.cast (nCore_q 0) c) (Fin.cast (nSub_q 0) i) (C.res0 d))
          -∗ core0 C d (Fin.cast (nCore_q 0) c) (C.res0 d)))
  rw [bigSep_tasks (F := F) 0 (fun i => task0 C d (Fin.cast (nCore_q 0) c) i (C.old0 d)),
    bigSep_tasks (F := F) 0 (fun i => task0 C d (Fin.cast (nCore_q 0) c) i (C.res0 d))]
  exact split16 _ _ _ (eLoc d) (C.emb d) (shC (Fin.cast (nCore_q 0) c))

theorem vecSplit1 : (K (F := F)).VecSplit' (P C) 1 := by
  intro d c
  show core1 C d (Fin.cast (nCore_q 1) c) (C.old1 d) ⊢ |={Set.univ}=> iprop(
      (bigSep Finset.univ fun i : Fin ((K (F := F)).nSub 1) => task1 C d (Fin.cast (nCore_q 1) c) (Fin.cast (nSub_q 1) i) (C.old1 d))
      ∗ ((bigSep Finset.univ fun i : Fin ((K (F := F)).nSub 1) => task1 C d (Fin.cast (nCore_q 1) c) (Fin.cast (nSub_q 1) i) (C.res1 d))
          -∗ core1 C d (Fin.cast (nCore_q 1) c) (C.res1 d)))
  rw [bigSep_tasks (F := F) 1 (fun i => task1 C d (Fin.cast (nCore_q 1) c) i (C.old1 d)),
    bigSep_tasks (F := F) 1 (fun i => task1 C d (Fin.cast (nCore_q 1) c) i (C.res1 d))]
  exact split16 _ _ _ (eLoc d) (C.emb d) (shC (Fin.cast (nCore_q 1) c))

end Cert.Proof.KB

end
-- ==== Proof.B.Cores.lean ====
/-
  How the arrays a SparseCore call works on split between the two SparseCores, and gather again: the index array
  and the result array row by row (32 rows, 16 per SparseCore), the embedding table by read shares (one per
  SparseCore, a remainder kept aside).
-/
import proofs.«204104_g71330816851969_cont_9to1_m_219_17_alg».proof.Proof.B.Split

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 2) (Elt F) ℕ UU ℕ

/-- Tasks are numbered SparseCore-major: (c, s) ↦ 16·c + s is a bijection onto the 32 rows. -/
def taskEquiv : Fin 2 × Fin 16 ≃ Fin 32 := Equiv.ofBijective (fun cs : Fin 2 × Fin 16 => taskIx cs.1 cs.2) ⟨taskIx_injective, taskIx_surjective⟩

omit [FloatOps F] in
theorem bigSep_tasks32 (Φ : Fin 32 → sProp 𝕄) :
    bigSep Finset.univ Φ = bigSep Finset.univ fun c : Fin 2 => bigSep Finset.univ fun i : Fin 16 => Φ (taskIx c i) := by
  rw [bigSep_univ_equiv taskEquiv Φ, bigSep_univ_prod]; rfl

omit [FloatOps F] in
theorem rows_I0 (d : Dev nD) (f : Buf (Elt F) (i0Loc d)) :
    (i0Loc d ↦{fullShare} f : sProp 𝕄) = bigSep Finset.univ fun c : Fin 2 => bigSep Finset.univ fun i : Fin 16 => i0Loc d ↦[rowSetI0 (taskIx c i)]{fullShare} f := by
  rw [← bigSep_tasks32 (fun w => (i0Loc d ↦[rowSetI0 w]{fullShare} f : sProp 𝕄)), ← pointsTo_biUnion Finset.univ (ℓ := i0Loc d) rowSetI0 rowsI0_disjoint, rowsI0_cover]; try rfl
omit [FloatOps F] in
theorem rows_O0 (d : Dev nD) (f : Buf (Elt F) (o0Loc d)) :
    (o0Loc d ↦{fullShare} f : sProp 𝕄) = bigSep Finset.univ fun c : Fin 2 => bigSep Finset.univ fun i : Fin 16 => o0Loc d ↦[rowSetO0 (taskIx c i)]{fullShare} f := by
  rw [← bigSep_tasks32 (fun w => (o0Loc d ↦[rowSetO0 w]{fullShare} f : sProp 𝕄)), ← pointsTo_biUnion Finset.univ (ℓ := o0Loc d) rowSetO0 rowsO0_disjoint, rowsO0_cover]; try rfl
omit [FloatOps F] in
theorem rows_I1 (d : Dev nD) (f : Buf (Elt F) (i1Loc d)) :
    (i1Loc d ↦{fullShare} f : sProp 𝕄) = bigSep Finset.univ fun c : Fin 2 => bigSep Finset.univ fun i : Fin 16 => i1Loc d ↦[rowSetI1 (taskIx c i)]{fullShare} f := by
  rw [← bigSep_tasks32 (fun w => (i1Loc d ↦[rowSetI1 w]{fullShare} f : sProp 𝕄)), ← pointsTo_biUnion Finset.univ (ℓ := i1Loc d) rowSetI1 rowsI1_disjoint, rowsI1_cover]; try rfl
omit [FloatOps F] in
theorem rows_O1 (d : Dev nD) (f : Buf (Elt F) (o1Loc d)) :
    (o1Loc d ↦{fullShare} f : sProp 𝕄) = bigSep Finset.univ fun c : Fin 2 => bigSep Finset.univ fun i : Fin 16 => o1Loc d ↦[rowSetO1 (taskIx c i)]{fullShare} f := by
  rw [← bigSep_tasks32 (fun w => (o1Loc d ↦[rowSetO1 w]{fullShare} f : sProp 𝕄)), ← pointsTo_biUnion Finset.univ (ℓ := o1Loc d) rowSetO1 rowsO1_disjoint, rowsO1_cover]; try rfl

variable (C : Conts F)

/-- The three arrays of call 0, whole, are the table's kept remainder and the two SparseCores' holdings. -/
theorem cores0_split (d : Dev nD) (f : Buf (Elt F) (o0Loc d)) :
    iprop((i0Loc d ↦{fullShare} C.ids0 d) ∗ (eLoc d ↦{fullShare} C.emb d) ∗ (o0Loc d ↦{fullShare} f))
      ⊢ (iprop((eLoc d ↦{shareDrop fullShare 2} C.emb d) ∗ bigSep Finset.univ fun c : Fin 2 => core0 C d c f) : sProp 𝕄) := by
  rw [rows_I0, rows_O0, bigSep_sep', bigSep_sep']
  iintro ⟨HI, He, HO⟩
  ihave He' := (pointsTo_toks_split (ℓ := eLoc d) (S := Finset.univ) (f := C.emb d) fullShare 2) $$ He
  icases He' with ⟨Hd, Ht⟩
  isplitl [Hd]; · iexact Hd
  isplitl [HI]; · iexact HI
  isplitl [Ht]; · iexact Ht
  iexact HO
theorem cores0_join (d : Dev nD) (f : Buf (Elt F) (o0Loc d)) :
    (iprop((eLoc d ↦{shareDrop fullShare 2} C.emb d) ∗ bigSep Finset.univ fun c : Fin 2 => core0 C d c f) : sProp 𝕄)
      ⊢ iprop((i0Loc d ↦{fullShare} C.ids0 d) ∗ (eLoc d ↦{fullShare} C.emb d) ∗ (o0Loc d ↦{fullShare} f)) := by
  rw [rows_I0, rows_O0, bigSep_sep', bigSep_sep']
  iintro ⟨Hd, HI, Ht, HO⟩
  isplitl [HI]; · iexact HI
  isplitl [Hd Ht]
  · iapply (pointsTo_toks_join (ℓ := eLoc d) (S := Finset.univ) (f := C.emb d) fullShare 2)
    isplitl [Hd]; · iexact Hd
    iexact Ht
  iexact HO
theorem cores1_split (d : Dev nD) (f : Buf (Elt F) (o1Loc d)) :
    iprop((i1Loc d ↦{fullShare} C.ids1 d) ∗ (eLoc d ↦{fullShare} C.emb d) ∗ (o1Loc d ↦{fullShare} f))
      ⊢ (iprop((eLoc d ↦{shareDrop fullShare 2} C.emb d) ∗ bigSep Finset.univ fun c : Fin 2 => core1 C d c f) : sProp 𝕄) := by
  rw [rows_I1, rows_O1, bigSep_sep', bigSep_sep']
  iintro ⟨HI, He, HO⟩
  ihave He' := (pointsTo_toks_split (ℓ := eLoc d) (S := Finset.univ) (f := C.emb d) fullShare 2) $$ He
  icases He' with ⟨Hd, Ht⟩
  isplitl [Hd]; · iexact Hd
  isplitl [HI]; · iexact HI
  isplitl [Ht]; · iexact Ht
  iexact HO
theorem cores1_join (d : Dev nD) (f : Buf (Elt F) (o1Loc d)) :
    (iprop((eLoc d ↦{shareDrop fullShare 2} C.emb d) ∗ bigSep Finset.univ fun c : Fin 2 => core1 C d c f) : sProp 𝕄)
      ⊢ iprop((i1Loc d ↦{fullShare} C.ids1 d) ∗ (eLoc d ↦{fullShare} C.emb d) ∗ (o1Loc d ↦{fullShare} f)) := by
  rw [rows_I1, rows_O1, bigSep_sep', bigSep_sep']
  iintro ⟨Hd, HI, Ht, HO⟩
  isplitl [HI]; · iexact HI
  isplitl [Hd Ht]
  · iapply (pointsTo_toks_join (ℓ := eLoc d) (S := Finset.univ) (f := C.emb d) fullShare 2)
    isplitl [Hd]; · iexact Hd
    iexact Ht
  iexact HO

/-- The calls' payloads over the call's SparseCores are the holdings over `Fin 2`. -/
theorem st0_eq (d : Dev nD) : (bigSep Finset.univ fun c : Fin ((K (F := F)).nCore 0) => (P C).st 0 d c) = bigSep Finset.univ fun c : Fin 2 => core0 C d c (C.old0 d) :=
  bigSep_congr fun _ _ => rfl
theorem dn0_eq (d : Dev nD) : (bigSep Finset.univ fun c : Fin ((K (F := F)).nCore 0) => (P C).dn 0 d c) = bigSep Finset.univ fun c : Fin 2 => core0 C d c (C.res0 d) :=
  bigSep_congr fun _ _ => rfl
theorem st1_eq (d : Dev nD) : (bigSep Finset.univ fun c : Fin ((K (F := F)).nCore 1) => (P C).st 1 d c) = bigSep Finset.univ fun c : Fin 2 => core1 C d c (C.old1 d) :=
  bigSep_congr fun _ _ => rfl
theorem dn1_eq (d : Dev nD) : (bigSep Finset.univ fun c : Fin ((K (F := F)).nCore 1) => (P C).dn 1 d c) = bigSep Finset.univ fun c : Fin 2 => core1 C d c (C.res1 d) :=
  bigSep_congr fun _ _ => rfl

end Cert.Proof.KB

end
-- ==== Proof.B.MainShape.lean ====
/-
  @main of the printed program, regrouped: its host operations as four lists, between them the two SparseCore
  calls and the two TensorCore pipeline entries.
-/
import proofs.«204104_g71330816851969_cont_9to1_m_219_17_alg».proof.Proof.B.Common

noncomputable section
namespace Cert.Proof.KB
open Cert.Kernel Cert.Kernel.Gen
open Idealize.ShloMosaic
open Idealize.SL Idealize.SL.Sem
open Idealize.ShloMosaic.StableHlo (seq)

variable {F : FTy → Type} [FloatOps F]

/-- The host operations before the first SparseCore call. -/
def ops0 : List (HloOp τ sig (Elt F)) :=
  [StableHlo.reshape main_arg5 main_v0 rfl shapeCasts_S10000_S1x10000,
   StableHlo.nullary main_c (constantI S_ 32 0#32),
   StableHlo.nullary main_c_0 (constantI S_ 32 0#32),
   StableHlo.unaryIndexed main_arg0 ![main_c, main_c_0] ⟨S_, .i32⟩ main_v1 ((fun x i => Host.dynamicSlice S1024x50 x (fun k => (i k (Shape.Idx.first h_S_)).toInt) sliceFits_S4096x50_S1024x50) : (⟨S4096x50, .i32⟩ : BufTy).Contents (Elt F) → (Fin 2 → (⟨S_, .i32⟩ : BufTy).Contents (Elt F)) → (⟨S1024x50, .i32⟩ : BufTy).Contents (Elt F)),
   StableHlo.reshape main_v1 main_v2 rfl shapeCasts_S1024x50_S32x16x100]
def ops1 : List (HloOp τ sig (Elt F)) :=
  [StableHlo.reshape main_v3 main_v4 rfl shapeCasts_S32x32x128_S1024x128,
   StableHlo.nullary main_c_1 (constantI S_ 32 1024#32),
   StableHlo.nullary main_c_2 (constantI S_ 32 0#32),
   StableHlo.unaryIndexed main_arg0 ![main_c_1, main_c_2] ⟨S_, .i32⟩ main_v5 ((fun x i => Host.dynamicSlice S3072x50 x (fun k => (i k (Shape.Idx.first h_S_)).toInt) sliceFits_S4096x50_S3072x50) : (⟨S4096x50, .i32⟩ : BufTy).Contents (Elt F) → (Fin 2 → (⟨S_, .i32⟩ : BufTy).Contents (Elt F)) → (⟨S3072x50, .i32⟩ : BufTy).Contents (Elt F)),
   StableHlo.reshape main_v5 main_v6 rfl shapeCasts_S3072x50_S32x48x100]
def ops2 : List (HloOp τ sig (Elt F)) :=
  [StableHlo.reshape main_v7 main_v8 rfl shapeCasts_S32x96x128_S3072x128]
def ops3 : List (HloOp τ sig (Elt F)) :=
  [StableHlo.unary main_v9 main_v10 id]

/-- @main: four stretches of host operations around the two SparseCore calls and the two TensorCore pipelines. -/
theorem main_eq (d : Dev nD) :
    main (F := F) d = (seq ops0 >>= fun _ => sc.run d 0 >>= fun _ => seq ops1 >>= fun _ => sc.run d 1 >>= fun _ => seq ops2 >>= fun _ =>
      Prog.lift (.customCall (SparseCore.inner (Pipeline.entry 0)) ()) >>= fun _ => seq ops3 >>= fun _ =>
      Prog.lift (.customCall (SparseCore.inner (Pipeline.entry 1)) ()) >>= fun _ => pure ⟨⟩) := by
  rfl

end Cert.Proof.KB
end
-- ==== Proof.B.PoolSpec.lean ====
/-
  The value a pooling task computes, as a pure function of the index array and the embedding table: for output
  row `i` of task `w` (chunk `i / 2`, half `i % 2`), the fifty table rows named by the index words
  `ids (w, i / 2, (i % 2) * 50 + l)`, `l < 50`, are added from the left, lane by lane, the sum scaled by `inv`
  and clamped below at `zero`. Generic in the float instance.
-/
import proofs.«204104_g71330816851969_cont_9to1_m_219_17_alg».proof.Kernel

noncomputable section

namespace Cert.Proof.KB

open Cert.Kernel
open Idealize.ShloMosaic

variable {F : FTy → Type} [FloatOps F]

/-- The sum of `x 0, …, x n` taken from the left: `((x 0 + x 1) + x 2) + … + x n`. -/
def lsum (x : ℕ → F .f32) : ℕ → F .f32
  | 0 => x 0
  | n + 1 => FloatOps.addf (lsum x n) (x (n + 1))

theorem lsum_zero (x : ℕ → F .f32) : lsum x 0 = x 0 := rfl
theorem lsum_succ (x : ℕ → F .f32) (n : ℕ) : lsum x (n + 1) = FloatOps.addf (lsum x n) (x (n + 1)) := rfl

/-- A multi-index of a rank-3 shape from its three coordinates. -/
def ix3 {a b c : ℕ} (i : Fin a) (j : Fin b) (k : Fin c) : (⟨3, ![a, b, c]⟩ : Shape).Idx := fun x =>
  match x with
  | ⟨0, _⟩ => i
  | ⟨1, _⟩ => j
  | ⟨2, _⟩ => k

/-- The table's element at row number `r` (a word's value as a natural number; in range wherever it is used) and
    lane `q`. -/
def embAt (emb : S100000x128.Idx → Elt F .f32) (r : ℕ) (q : Fin 128) : F .f32 :=
  emb (Shape.pair (d := ![100000, 128]) ⟨r % 100000, Nat.mod_lt _ (by decide)⟩ q)

/-- The row number the index array names for output row `i` of task `w` at position `l` of the fifty: the word
    at `(w, i / 2, (i % 2) * 50 + l)`, read as the indirect gather reads an offset word (its value as a natural
    number). -/
def rowNo {nch : ℕ} (ids : (⟨3, ![32, nch, 100]⟩ : Shape).Idx → Elt F .i32) (w : Fin 32) (i : ℕ) (hi : i / 2 < nch) (l : ℕ) : ℕ :=
  (ids (ix3 w ⟨i / 2, hi⟩ ⟨(i % 2) * 50 + l % 50, by omega⟩)).toNat

/-- The pooled value at `(w, i, q)`: the fifty named rows' lane `q` added from the left, times `inv`, clamped
    below at `zero`. -/
def poolAt {nch : ℕ} (inv zero : F .f32) (ids : (⟨3, ![32, nch, 100]⟩ : Shape).Idx → Elt F .i32)
    (emb : S100000x128.Idx → Elt F .f32) (w : Fin 32) (i : ℕ) (hi : i / 2 < nch) (q : Fin 128) : F .f32 :=
  FloatOps.maximumf (FloatOps.mulf (lsum (fun l => embAt emb (rowNo ids w i hi l) q) 49) inv) zero

/-- The first pooling call's result: `main_v3` as a function of `main_v2` and `main_arg3`. -/
def pool0 (inv zero : F .f32) (ids : S32x16x100.Idx → Elt F .i32) (emb : S100000x128.Idx → Elt F .f32) :
    S32x32x128.Idx → Elt F .f32 :=
  fun x => poolAt (nch := 16) inv zero ids emb (x 0) (x 1).val (by have := (x 1).isLt; change _ < 32 at this; omega) (x 2)

/-- The second pooling call's result: `main_v7` as a function of `main_v6` and `main_arg3`. -/
def pool1 (inv zero : F .f32) (ids : S32x48x100.Idx → Elt F .i32) (emb : S100000x128.Idx → Elt F .f32) :
    S32x96x128.Idx → Elt F .f32 :=
  fun x => poolAt (nch := 48) inv zero ids emb (x 0) (x 1).val (by have := (x 1).isLt; change _ < 96 at this; omega) (x 2)

end Cert.Proof.KB

end
-- ==== Proof.B.Held.lean ====
/-
  The TensorCore's unscoped arrays as one held set, the valuations @main passes through, and the contents the two
  SparseCore calls run on: the index arrays are reshaped slices of the token ids, the table is the launch's, the
  results are the pooled rows.
-/
import proofs.«204104_g71330816851969_cont_9to1_m_219_17_alg».proof.Proof.B.Cores
import proofs.«204104_g71330816851969_cont_9to1_m_219_17_alg».proof.Proof.B.MainShape
import proofs.«204104_g71330816851969_cont_9to1_m_219_17_alg».proof.Proof.B.PoolSpec

noncomputable section
namespace Cert.Proof.KB
open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]
local notation "𝕄" => MT nD τ sig (HIx 2) (Elt F) ℕ UU ℕ

variable (m : (ℓ : Loc nD τ sig) → Buf (Elt F) ℓ) (ρ : Dev nD → PrngReg)

/-- The TensorCore's unscoped buffers. -/
def Sall : Finset (DevRef τ sig) := (Finset.univ.filter fun b : Ref sig .tc => ¬ b.isScoped).image (Proc.devRef .tc)

def V0 (d : Dev nD) : Valuation τ sig (Elt F) := fun b => m (d, b)

omit [FloatOps F] in
theorem unscoped_held (d : Dev nD) : (unscopedBufs d (fun b => m ((SparseCore.T d).loc b)) : sProp 𝕄) = held (T d) Sall (V0 m d) := by
  unfold unscopedBufs held Sall
  rw [SparseCore.bigSep_image_of_injOn (fun a _ b _ e => Proc.devRef_injective _ e)]
  rfl

/-! ## The four stretches of host operations touch unscoped buffers only, and allocate nothing -/

theorem ops0_sub : ∀ op ∈ (ops0 (F := F)), op.bufs ⊆ Sall := by
  intro op hop
  simp only [ops0, List.mem_cons, List.not_mem_nil, or_false] at hop
  rcases hop with rfl | rfl | rfl | rfl | rfl
  · show ({(main_arg5 : DevRef τ sig), (main_v0 : DevRef τ sig)} : Finset (DevRef τ sig)) ⊆ Sall; decide
  · show ({(main_c : DevRef τ sig)} : Finset (DevRef τ sig)) ⊆ Sall; decide
  · show ({(main_c_0 : DevRef τ sig)} : Finset (DevRef τ sig)) ⊆ Sall; decide
  · show insert (main_arg0 : DevRef τ sig) (insert (main_v1 : DevRef τ sig) (Finset.univ.image fun k => ((![main_c, main_c_0] k : Ref sig .tc) : DevRef τ sig))) ⊆ Sall; decide
  · show ({(main_v1 : DevRef τ sig), (main_v2 : DevRef τ sig)} : Finset (DevRef τ sig)) ⊆ Sall; decide
theorem ops0_fresh : ∀ op ∈ (ops0 (F := F)), op.fresh = ∅ := by
  intro op hop
  simp only [ops0, List.mem_cons, List.not_mem_nil, or_false] at hop
  rcases hop with rfl | rfl | rfl | rfl | rfl <;> first | rfl | decide
theorem ops1_sub : ∀ op ∈ (ops1 (F := F)), op.bufs ⊆ Sall := by
  intro op hop
  simp only [ops1, List.mem_cons, List.not_mem_nil, or_false] at hop
  rcases hop with rfl | rfl | rfl | rfl | rfl
  · show ({(main_v3 : DevRef τ sig), (main_v4 : DevRef τ sig)} : Finset (DevRef τ sig)) ⊆ Sall; decide
  · show ({(main_c_1 : DevRef τ sig)} : Finset (DevRef τ sig)) ⊆ Sall; decide
  · show ({(main_c_2 : DevRef τ sig)} : Finset (DevRef τ sig)) ⊆ Sall; decide
  · show insert (main_arg0 : DevRef τ sig) (insert (main_v5 : DevRef τ sig) (Finset.univ.image fun k => ((![main_c_1, main_c_2] k : Ref sig .tc) : DevRef τ sig))) ⊆ Sall; decide
  · show ({(main_v5 : DevRef τ sig), (main_v6 : DevRef τ sig)} : Finset (DevRef τ sig)) ⊆ Sall; decide
theorem ops1_fresh : ∀ op ∈ (ops1 (F := F)), op.fresh = ∅ := by
  intro op hop
  simp only [ops1, List.mem_cons, List.not_mem_nil, or_false] at hop
  rcases hop with rfl | rfl | rfl | rfl | rfl <;> first | rfl | decide
theorem ops2_sub : ∀ op ∈ (ops2 (F := F)), op.bufs ⊆ Sall := by
  intro op hop
  simp only [ops2, List.mem_cons, List.not_mem_nil, or_false] at hop
  subst hop
  show ({(main_v7 : DevRef τ sig), (main_v8 : DevRef τ sig)} : Finset (DevRef τ sig)) ⊆ Sall; decide
theorem ops2_fresh : ∀ op ∈ (ops2 (F := F)), op.fresh = ∅ := by
  intro op hop
  simp only [ops2, List.mem_cons, List.not_mem_nil, or_false] at hop
  subst hop; first | rfl | decide
theorem ops3_sub : ∀ op ∈ (ops3 (F := F)), op.bufs ⊆ Sall := by
  intro op hop
  simp only [ops3, List.mem_cons, List.not_mem_nil, or_false] at hop
  subst hop
  show ({(main_v9 : DevRef τ sig), (main_v10 : DevRef τ sig)} : Finset (DevRef τ sig)) ⊆ Sall; decide
theorem ops3_fresh : ∀ op ∈ (ops3 (F := F)), op.fresh = ∅ := by
  intro op hop
  simp only [ops3, List.mem_cons, List.not_mem_nil, or_false] at hop
  subst hop; first | rfl | decide

/-! ## The arrays of the two SparseCore calls, out of the held set -/

abbrev v2' : DevRef τ sig := (main_v2 : DevRef τ sig)
abbrev v3' : DevRef τ sig := (main_v3 : DevRef τ sig)
abbrev v6' : DevRef τ sig := (main_v6 : DevRef τ sig)
abbrev v7' : DevRef τ sig := (main_v7 : DevRef τ sig)
abbrev e' : DevRef τ sig := (main_arg3 : DevRef τ sig)

def S0set : Finset (DevRef τ sig) := {v2', e', v3'}
def S1set : Finset (DevRef τ sig) := {v6', e', v7'}
theorem S0set_sub : S0set ⊆ Sall := by decide
theorem S1set_sub : S1set ⊆ Sall := by decide

omit [FloatOps F] in
theorem held_S0 (d : Dev nD) (W : Valuation τ sig (Elt F)) :
    (held (T d) S0set W : sProp 𝕄) = iprop((i0Loc d ↦{fullShare} W v2') ∗ (eLoc d ↦{fullShare} W e') ∗ (o0Loc d ↦{fullShare} W v3')) := by
  unfold held S0set
  rw [SparseCore.bigSep_insert' (by decide), SparseCore.bigSep_insert' (by decide), bigSep_singleton]
omit [FloatOps F] in
theorem held_S1 (d : Dev nD) (W : Valuation τ sig (Elt F)) :
    (held (T d) S1set W : sProp 𝕄) = iprop((i1Loc d ↦{fullShare} W v6') ∗ (eLoc d ↦{fullShare} W e') ∗ (o1Loc d ↦{fullShare} W v7')) := by
  unfold held S1set
  rw [SparseCore.bigSep_insert' (by decide), SparseCore.bigSep_insert' (by decide), bigSep_singleton]

/-! ## The valuations @main passes through -/

variable (inv0 zero0 inv1 zero1 : F .f32)

/-- After the first stretch of host operations. -/
def V1 (d : Dev nD) : Valuation τ sig (Elt F) := after ops0 (V0 m d)
/-- What SparseCore call 0 leaves in its result array: the pooled rows of the first 1024 token rows. -/
def res0 (d : Dev nD) : Buf (Elt F) (o0Loc d) := pool0 inv0 zero0 (V1 m d v2') (m (eLoc d))
def V2 (d : Dev nD) : Valuation τ sig (Elt F) := Function.update (V1 m d) v3' (res0 m inv0 zero0 d)
def V3 (d : Dev nD) : Valuation τ sig (Elt F) := after ops1 (V2 m inv0 zero0 d)
/-- What SparseCore call 1 leaves: the pooled rows of the last 3072 token rows. -/
def res1 (d : Dev nD) : Buf (Elt F) (o1Loc d) := pool1 inv1 zero1 (V3 m inv0 zero0 d v6') (m (eLoc d))
def V4 (d : Dev nD) : Valuation τ sig (Elt F) := Function.update (V3 m inv0 zero0 d) v7' (res1 m inv0 zero0 inv1 zero1 d)
def V5 (d : Dev nD) : Valuation τ sig (Elt F) := after ops2 (V4 m inv0 zero0 inv1 zero1 d)

/-- The contents the two calls run on. -/
def C : Conts F where
  ids0 d := V1 m d v2'
  ids1 d := V3 m inv0 zero0 d v6'
  emb d := m (eLoc d)
  old0 d := m (o0Loc d)
  old1 d := m (o1Loc d)
  res0 := res0 m inv0 zero0
  res1 := res1 m inv0 zero0 inv1 zero1

theorem V1_e (d : Dev nD) : V1 m d e' = m (eLoc d) := by
  unfold V1 ops0; after_results; rfl
theorem V1_v3 (d : Dev nD) : V1 m d v3' = m (o0Loc d) := by
  unfold V1 ops0; after_results; rfl
theorem V2_v2 (d : Dev nD) : V2 m inv0 zero0 d v2' = V1 m d v2' := Function.update_of_ne (show v2' ≠ v3' by decide) _ _
theorem V2_e (d : Dev nD) : V2 m inv0 zero0 d e' = m (eLoc d) := (Function.update_of_ne (show e' ≠ v3' by decide) _ _).trans (V1_e m d)
theorem V2_v3 (d : Dev nD) : V2 m inv0 zero0 d v3' = res0 m inv0 zero0 d := Function.update_self _ _ _
theorem V3_e (d : Dev nD) : V3 m inv0 zero0 d e' = m (eLoc d) := by
  unfold V3 ops1; after_results; exact V2_e m inv0 zero0 d
theorem V3_v7 (d : Dev nD) : V3 m inv0 zero0 d v7' = m (o1Loc d) := by
  unfold V3 ops1; after_results
  refine (Function.update_of_ne (show v7' ≠ v3' by decide) _ _).trans ?_
  unfold V1 ops0; after_results; rfl
theorem V4_v6 (d : Dev nD) : V4 m inv0 zero0 inv1 zero1 d v6' = V3 m inv0 zero0 d v6' := Function.update_of_ne (show v6' ≠ v7' by decide) _ _
theorem V4_e (d : Dev nD) : V4 m inv0 zero0 inv1 zero1 d e' = m (eLoc d) := (Function.update_of_ne (show e' ≠ v7' by decide) _ _).trans (V3_e m inv0 zero0 d)
theorem V4_v7 (d : Dev nD) : V4 m inv0 zero0 inv1 zero1 d v7' = res1 m inv0 zero0 inv1 zero1 d := Function.update_self _ _ _

end Cert.Proof.KB
end
-- ==== Proof.B.MainI.lean ====
/-
  @main on the TensorCore, first half: the host operations before each SparseCore call, the two calls — each handed
  its index array, the embedding table and its result array, and giving them back with the result array at the
  pooled rows — and the reshape after the second; up to the first TensorCore pipeline's entry.
-/
import proofs.«204104_g71330816851969_cont_9to1_m_219_17_alg».proof.Proof.B.Held

noncomputable section
namespace Cert.Proof.KB
open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Transfers (shareTok shareDrop)

variable {F : FTy → Type} [FloatOps F]
local notation "𝕄" => MT nD τ sig (HIx 2) (Elt F) ℕ UU ℕ

variable (m : (ℓ : Loc nD τ sig) → Buf (Elt F) ℓ) (inv0 zero0 inv1 zero1 : F .f32)

/-- What is left of @main after the second SparseCore call and its reshape: the two TensorCore pipelines around the
    copy of the first's result into the second's aliased buffer. -/
def mainRest : Prog (TpuEff nD τ sig (Elt F) (SparseCore.Sig (ΛP (F := F)) 2) .tc) PUnit :=
  Prog.lift (.customCall (SparseCore.inner (Pipeline.entry 0)) ()) >>= fun _ => seq ops3 >>= fun _ =>
    Prog.lift (.customCall (SparseCore.inner (Pipeline.entry 1)) ()) >>= fun _ => pure ⟨⟩

theorem main_eq' (d : Dev nD) :
    main (F := F) d = (seq ops0 >>= fun _ => sc.run d 0 >>= fun _ => seq ops1 >>= fun _ => sc.run d 1 >>= fun _ => seq ops2 >>= fun _ => mainRest) := main_eq d

omit [FloatOps F] in
theorem held_split0 (d : Dev nD) (W : Valuation τ sig (Elt F)) :
    (held (T d) Sall W : sProp 𝕄) = iprop(((i0Loc d ↦{fullShare} W v2') ∗ (eLoc d ↦{fullShare} W e') ∗ (o0Loc d ↦{fullShare} W v3')) ∗ held (T d) (Sall \ S0set) W) := by
  rw [held_sub_split (T d) S0set_sub, held_S0]
omit [FloatOps F] in
theorem held_split1 (d : Dev nD) (W : Valuation τ sig (Elt F)) :
    (held (T d) Sall W : sProp 𝕄) = iprop(((i1Loc d ↦{fullShare} W v6') ∗ (eLoc d ↦{fullShare} W e') ∗ (o1Loc d ↦{fullShare} W v7')) ∗ held (T d) (Sall \ S1set) W) := by
  rw [held_sub_split (T d) S1set_sub, held_S1]

/-- Outside call 0's three arrays the valuation after the call is the one before it. -/
theorem held_rest0 (d : Dev nD) :
    (held (T d) (Sall \ S0set) (V2 m inv0 zero0 d) : sProp 𝕄) = held (T d) (Sall \ S0set) (V1 m d) :=
  held_congr (T d) fun b hb => Function.update_of_ne (fun e => (Finset.mem_sdiff.mp hb).2 (by subst e; decide)) _ _
theorem held_rest1 (d : Dev nD) :
    (held (T d) (Sall \ S1set) (V4 m inv0 zero0 inv1 zero1 d) : sProp 𝕄) = held (T d) (Sall \ S1set) (V3 m inv0 zero0 d) :=
  held_congr (T d) fun b hb => Function.update_of_ne (fun e => (Finset.mem_sdiff.mp hb).2 (by subst e; decide)) _ _

theorem hmainI (κ : GSem nD τ sig → ℕ) (d : Dev nD) (Φ : PUnit → sProp 𝕄) :
    iprop((K (F := F)).ctx EH (P (C m inv0 zero0 inv1 zero1)) κ ∗ (K (F := F)).tcSt EH d 0 ∗ boundary (T d) ∗ held (T d) Sall (V0 m d)
        ∗ (((K (F := F)).tcSt EH d 2 ∗ boundary (T d) ∗ held (T d) Sall (V5 m inv0 zero0 inv1 zero1 d))
            -∗ wp frame (wpE ((K (F := F)).defs (D (F := F))) 𝒱 (SparseCore.T d) none) Set.univ (mainRest (F := F)) Φ))
      ⊢ wp frame (wpE ((K (F := F)).defs (D (F := F))) 𝒱 (SparseCore.T d) none) Set.univ (main d) Φ := by
  rw [main_eq']
  iintro ⟨#Hctx, Hst, Hb, Hheld, Hk⟩
  -- the first stretch of host operations
  iapply (wp_seq 𝒱 none Set.univ d Sall _ ops0 ops0_sub ops0_fresh (V0 m d)) $$ [Hb Hheld]
  · isplitl [Hb]; · iexact Hb
    iexact Hheld
  iintro ⟨Hb, Hheld⟩
  -- call 0: its three arrays out of the held set, split between the SparseCores
  ihave Hh := (Entails.of_eq (held_split0 d (after ops0 (V0 m d)))) $$ Hheld
  icases Hh with ⟨⟨Hi, He, Ho⟩, Hrest⟩
  rw [wp_bind]
  rw [show after ops0 (V0 m d) = V1 m d from rfl, V1_e, V1_v3]
  ihave Hc := (cores0_split (C m inv0 zero0 inv1 zero1) d (m (o0Loc d))) $$ [Hi He Ho]
  · isplitl [Hi]; · iexact Hi
    isplitl [He]; · iexact He
    iexact Ho
  icases Hc with ⟨Hd, Hcores⟩
  iapply ((K (F := F)).wp_run (D (F := F)) 𝒱 (EH := EH) (P := P (C m inv0 zero0 inv1 zero1)) κ d 0) $$ [Hst Hcores Hd Hb Hrest Hk]
  isplitr; · iexact Hctx
  isplitl [Hst]; · iexact Hst
  isplitl [Hcores]
  · rw [st0_eq]; iexact Hcores
  iintro ⟨Hst, Hdn⟩
  ihave Hdn' := (Entails.of_eq (dn0_eq (C m inv0 zero0 inv1 zero1) d)) $$ Hdn
  ihave Hj := (cores0_join (C m inv0 zero0 inv1 zero1) d (res0 m inv0 zero0 d)) $$ [Hd Hdn']
  · isplitl [Hd]; · iexact Hd
    iexact Hdn'
  icases Hj with ⟨Hi, He, Ho⟩
  -- the arrays back into the held set, the result array at the pooled rows
  ihave Hheld := (Entails.of_eq (held_split0 d (V2 m inv0 zero0 d)).symm) $$ [Hi He Ho Hrest]
  · rw [V2_v2, V2_e, V2_v3, held_rest0]
    isplitr [Hrest]
    · isplitl [Hi]; · iexact Hi
      isplitl [He]; · iexact He
      iexact Ho
    · iexact Hrest
  -- the second stretch of host operations
  iapply (wp_seq 𝒱 none Set.univ d Sall _ ops1 ops1_sub ops1_fresh (V2 m inv0 zero0 d)) $$ [Hb Hheld]
  · isplitl [Hb]; · iexact Hb
    iexact Hheld
  iintro ⟨Hb, Hheld⟩
  -- call 1
  ihave Hh := (Entails.of_eq (held_split1 d (after ops1 (V2 m inv0 zero0 d)))) $$ Hheld
  icases Hh with ⟨⟨Hi, He, Ho⟩, Hrest⟩
  rw [wp_bind]
  rw [show after ops1 (V2 m inv0 zero0 d) = V3 m inv0 zero0 d from rfl, V3_e, V3_v7]
  ihave Hc := (cores1_split (C m inv0 zero0 inv1 zero1) d (m (o1Loc d))) $$ [Hi He Ho]
  · isplitl [Hi]; · iexact Hi
    isplitl [He]; · iexact He
    iexact Ho
  icases Hc with ⟨Hd, Hcores⟩
  iapply ((K (F := F)).wp_run (D (F := F)) 𝒱 (EH := EH) (P := P (C m inv0 zero0 inv1 zero1)) κ d 1) $$ [Hst Hcores Hd Hb Hrest Hk]
  isplitr; · iexact Hctx
  isplitl [Hst]; · iexact Hst
  isplitl [Hcores]
  · rw [st1_eq]; iexact Hcores
  iintro ⟨Hst, Hdn⟩
  ihave Hdn' := (Entails.of_eq (dn1_eq (C m inv0 zero0 inv1 zero1) d)) $$ Hdn
  ihave Hj := (cores1_join (C m inv0 zero0 inv1 zero1) d (res1 m inv0 zero0 inv1 zero1 d)) $$ [Hd Hdn']
  · isplitl [Hd]; · iexact Hd
    iexact Hdn'
  icases Hj with ⟨Hi, He, Ho⟩
  ihave Hheld := (Entails.of_eq (held_split1 d (V4 m inv0 zero0 inv1 zero1 d)).symm) $$ [Hi He Ho Hrest]
  · rw [V4_v6, V4_e, V4_v7, held_rest1]
    isplitr [Hrest]
    · isplitl [Hi]; · iexact Hi
      isplitl [He]; · iexact He
      iexact Ho
    · iexact Hrest
  -- the reshape of the second call's result
  iapply (wp_seq 𝒱 none Set.univ d Sall _ ops2 ops2_sub ops2_fresh (V4 m inv0 zero0 inv1 zero1 d)) $$ [Hb Hheld]
  · isplitl [Hb]; · iexact Hb
    iexact Hheld
  iintro ⟨Hb, Hheld⟩
  iapply Hk
  isplitl [Hst]; · iexact Hst
  isplitl [Hb]; · iexact Hb
  iexact Hheld

end Cert.Proof.KB
end
-- ==== Proof.B.Fund.lean ====
/-
  The launch element of the ghost state: the SparseCore handshakes' rounds, and the TensorCore pipelines' staging
  cells' rounds, funded for every device and pipeline at once; the kernels' proofs consume nothing of the launch's.
-/
import proofs.«204104_g71330816851969_cont_9to1_m_219_17_alg».proof.Proof.B.Pay

noncomputable section
namespace Cert.Proof.KB
open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

/-- What @main's proof on device `d` starts from beyond what the launch deals every TensorCore: the two pipelines'
    staging cells' ghost state and their transfers' duty tokens. -/
def G (d : Dev nD) : sProp 𝕄 :=
  iprop((bigSep Finset.univ fun p : Fin 2 => Pipeline.cellsGhost cfgs EP p d) ∗ bigSep Finset.univ fun p : Fin 2 => (Pipeline.toksInit cfgs EP p d : sProp 𝕄))

def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

omit [FloatOps F] in
theorem bigSep_emp' {I : Type} (s : Finset I) : (bigSep s fun _ => iprop(emp)) = (iprop(emp) : sProp 𝕄) := bigSep_emp_const s

variable (C : Conts F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P C).x q thr) := by
  unfold u₀
  iintro Hu
  ihave H := (ownU_split3 _ _ _) $$ Hu
  icases H with ⟨HH, HP⟩
  imod (Pipeline.fund_ghost cfgs EP cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KB
end
-- ==== Proof.B.Region2.lean ====
import proofs.«204104_g71330816851969_cont_9to1_m_219_17_alg».proof.Proof.B.Common
import proofs.«204104_g71330816851969_cont_9to1_m_219_17_alg».proof.Proof.Gen.Kernel.Skeleton
import proofs.«204104_g71330816851969_cont_9to1_m_219_17_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## The first matrix-product call: the body on whole staging buffers -/

/-- The rectangles the body's loads and its store go through: each staging buffer whole. -/
abbrev rX : Rect S512x128 := Rect.unit (s := S512x128) ![0, 0] S512x128.size inb_S512x128_S512x128_0_0
abbrev rW : Rect S10000x128 := Rect.unit (s := S10000x128) ![0, 0] S10000x128.size inb_S10000x128_S10000x128_0_0
abbrev rB : Rect S1x10000 := Rect.unit (s := S1x10000) ![0, 0] S1x10000.size inb_S1x10000_S1x10000_0_0
abbrev rO : Rect S512x10000 := Rect.unit (s := S512x10000) ![0, 0] S512x10000.size inb_S512x10000_S512x10000_0_0

/-- What the body leaves in the result's staging buffer, from the three input blocks: its one store, through the whole
    buffer, of the product of the row block with the transposed weights plus the bias row. -/
def out2 (x0 : Vec F S512x128 .f32) (x1 : Vec F S10000x128 .f32) (x2 : Vec F S1x10000 .f32) : Vec F S512x10000 .f32 :=
  View.canon [⟨rO, k2_pay1 (View.ld x0 rX) (View.ld x1 rW) (View.ld x2 rB)⟩]

theorem cover2 (p0 : Vec F S512x10000 .f32) (y : S512x10000.Idx) :
    ∃ pc ∈ ([⟨rO, p0⟩] : List (View.Piece (Elt F) S512x10000 .f32)), y ∈ pc.1.set :=
  View.cover_of_tiled [⟨rO, p0⟩] S512x10000.size (by rfl) y

set_option maxHeartbeats 1000000 in
theorem sound_kernel2 (c : Dev nD) (E : Set ℕ) (i : grid2.Coords)
    (arg1 : Memref sig .tc .vmem S512x128 .f32) (harg1 : arg1.IsWhole) (arg2 : Memref sig .tc .vmem S10000x128 .f32) (harg2 : arg2.IsWhole)
    (arg3 : Memref sig .tc .vmem S1x10000 .f32) (harg3 : arg3.IsWhole) (arg4 : Memref sig .tc .vmem S512x10000 .f32) (harg4 : arg4.IsWhole)
    (x0 : Vec F S512x128 .f32) (x1 : Vec F S10000x128 .f32) (x2 : Vec F S1x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__mm_body_first i arg1 harg1 arg2 harg2 arg3 harg3 arg4 harg4) K := by
  simp only [cc2__mm_body_first_eq_skeleton]; unfold cc2__mm_body_first_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The first matrix-product call: the proof data on one core -/

section Data

variable (c : Dev nD) (V : (b : Ref sig .tc) → Buf (Elt F) ((c : Thread nD τ).loc b))

/-- Window `w`'s block at point `t`, read off its array as the call finds it. -/
def blk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- The proof data: the arrays as the call finds them; after the body at point `t` each input's buffer at its block and
    the result's at the product of the row block with the transposed weights plus the bias; between points the scoped
    buffers no window stages; nothing owed, the core's recorded waits at or below the level the handshakes have reached;
    full shares. -/
def dat2 : Dat τ (Elt F) (HIx 2) ℕ UU ℕ cfg2 c where
  A w := V (Pipeline.arrRef spec2 w)
  after w t := match w with
    | ⟨0, _⟩ => blk2 c V 0 t
    | ⟨1, _⟩ => blk2 c V 1 t
    | ⟨2, _⟩ => blk2 c V 2 t
    | ⟨3, _⟩ => out2 (blk2 c V 0 t) (blk2 c V 1 t) (blk2 c V 2 t)
  Φ _ := Pipeline.scopedRest (Ix := HIx 2) (Name := ℕ) (U := UU) (Lvl := ℕ) (Val := Elt F) spec2 c
  q _ := fullShare
  owed _ := 0
  recorded _ := {p | (K (F := F)).lev ((c : Thread nD τ), p.1) p.2 ≤ 8 * 2}

theorem A2_eq (w : Fin cfg2.W) : (dat2 c V).A w = V (Pipeline.arrRef spec2 w) := by dsimp only [dat2]
theorem after2_0 (t : Fin cfg2.N) : (dat2 c V).after 0 t = blk2 c V 0 t := by dsimp only [dat2]
theorem after2_1 (t : Fin cfg2.N) : (dat2 c V).after 1 t = blk2 c V 1 t := by dsimp only [dat2]
theorem after2_2 (t : Fin cfg2.N) : (dat2 c V).after 2 t = blk2 c V 2 t := by dsimp only [dat2]
theorem after2_3 (t : Fin cfg2.N) : (dat2 c V).after 3 t = out2 (blk2 c V 0 t) (blk2 c V 1 t) (blk2 c V 2 t) := by dsimp only [dat2]

/-- Each input's current staging buffer holds its block at every point, fetched there or not: unfetched, the block index
    has not moved and the body left the block in place. -/
theorem before2_0 (t : Fin cfg2.N) (d) : (dat2 c V).before 0 t d = blk2 c V 0 t :=
  ((dat2 c V).before_in_eq_fetched 0 rfl (fun _ => rfl) (fun _ _ _ => rfl)
    (fun t => by rw [after2_0]; unfold Dat.blockOf blk2; rw [A2_eq]; try rfl) t d).trans
    (by unfold Dat.fetched Dat.blockOf blk2; rw [A2_eq]; try rfl)
theorem before2_1 (t : Fin cfg2.N) (d) : (dat2 c V).before 1 t d = blk2 c V 1 t :=
  ((dat2 c V).before_in_eq_fetched 1 rfl (fun _ => rfl) (fun _ _ _ => rfl)
    (fun t => by rw [after2_1]; unfold Dat.blockOf blk2; rw [A2_eq]; try rfl) t d).trans
    (by unfold Dat.fetched Dat.blockOf blk2; rw [A2_eq]; try rfl)
theorem before2_2 (t : Fin cfg2.N) (d) : (dat2 c V).before 2 t d = blk2 c V 2 t :=
  ((dat2 c V).before_in_eq_fetched 2 rfl (fun _ => rfl) (fun _ _ _ => rfl)
    (fun t => by rw [after2_2]; unfold Dat.blockOf blk2; rw [A2_eq]; try rfl) t d).trans
    (by unfold Dat.fetched Dat.blockOf blk2; rw [A2_eq]; try rfl)

/-- What the body is called with at point `t`, the windows one by one, -/
def bodyPre2 (t : Fin cfg2.N) : sProp 𝕄 :=
  iprop((dat2 c V).Φ t.castSucc ∗ (dat2 c V).owesAt none t.castSucc
    ∗ (∃ d, owns (c : Thread nD τ) (st2_0 t) fullShare ((dat2 c V).before 0 t d))
    ∗ (∃ d, owns (c : Thread nD τ) (st2_1 t) fullShare ((dat2 c V).before 1 t d))
    ∗ (∃ d, owns (c : Thread nD τ) (st2_2 t) fullShare ((dat2 c V).before 2 t d))
    ∗ (∃ d, owns (c : Thread nD τ) (st2_3 t) fullShare ((dat2 c V).before 3 t d)))

/-- and what it returns. -/
def bodyPost2 (t : Fin cfg2.N) : sProp 𝕄 :=
  iprop((dat2 c V).Φ t.succ ∗ (dat2 c V).owesAt none t.succ
    ∗ owns (c : Thread nD τ) (st2_0 t) fullShare ((dat2 c V).after 0 t)
    ∗ owns (c : Thread nD τ) (st2_1 t) fullShare ((dat2 c V).after 1 t)
    ∗ owns (c : Thread nD τ) (st2_2 t) fullShare ((dat2 c V).after 2 t)
    ∗ owns (c : Thread nD τ) (st2_3 t) fullShare ((dat2 c V).after 3 t))

theorem sound_body2 (t : Fin cfg2.N) :
    bodyPre2 c V t ⊢ wp frame (wpE (defs₀ (F := F)) Variants.none c none) Set.univ (bodyAt2 t) (fun _ => bodyPost2 c V t) := by
  unfold bodyPre2 bodyPost2 bodyAt2
  simp only [before2_0, before2_1, before2_2]
  rw [show (dat2 c V).Φ t.succ = (dat2 c V).Φ t.castSucc from rfl,
    show (dat2 c V).owesAt none t.succ = (dat2 c V).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (blk2 c V 0 t) (blk2 c V 1 t) (blk2 c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 : BodyObligation (dat2 (F := F) c V) (defs₀ (F := F)) Variants.none none Set.univ := fun t => by
  rw [bigSep_W2, bigSep_W2]
  exact sound_body2 c V t

end Data

end Cert.Proof.KB

end
-- ==== Proof.B.Region3.lean ====
import proofs.«204104_g71330816851969_cont_9to1_m_219_17_alg».proof.Proof.B.Common
import proofs.«204104_g71330816851969_cont_9to1_m_219_17_alg».proof.Proof.Gen.Kernel.Skeleton
import proofs.«204104_g71330816851969_cont_9to1_m_219_17_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«204104_g71330816851969_cont_9to1_m_219_17_alg».proof.Proof.B.Region2
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## The second matrix-product call: the body on whole staging buffers -/

/-- What the body leaves in the result's staging buffer, from the three input blocks: its one store, through the whole
    buffer, of the product of the row block with the transposed weights plus the bias row; the aliased operand it is
    also handed, whole in HBM, it never touches. -/
def out3 (x0 : Vec F S512x128 .f32) (x1 : Vec F S10000x128 .f32) (x2 : Vec F S1x10000 .f32) : Vec F S512x10000 .f32 :=
  View.canon [⟨rO, k3_pay1 (View.ld x0 rX) (View.ld x1 rW) (View.ld x2 rB)⟩]

theorem cover3 (p0 : Vec F S512x10000 .f32) (y : S512x10000.Idx) :
    ∃ pc ∈ ([⟨rO, p0⟩] : List (View.Piece (Elt F) S512x10000 .f32)), y ∈ pc.1.set :=
  View.cover_of_tiled [⟨rO, p0⟩] S512x10000.size (by rfl) y

set_option maxHeartbeats 1000000 in
theorem sound_kernel3 (c : Dev nD) (E : Set ℕ) (i : grid3.Coords)
    (arg1 : Memref sig .tc .vmem S512x128 .f32) (harg1 : arg1.IsWhole) (arg2 : Memref sig .tc .vmem S10000x128 .f32) (harg2 : arg2.IsWhole)
    (arg3 : Memref sig .tc .vmem S1x10000 .f32) (harg3 : arg3.IsWhole) (arg4 : Memref sig .tc .hbm S4096x10000 .f32) (harg4 : arg4.IsWhole) (arg5 : Memref sig .tc .vmem S512x10000 .f32) (harg5 : arg5.IsWhole)
    (x0 : Vec F S512x128 .f32) (x1 : Vec F S10000x128 .f32) (x2 : Vec F S1x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (out3 x0 x1 x2)) -∗ K ⟨⟩))
      ⊢ wp frame (wpE (defs₀ (F := F)) Variants.none c none) E (cc3__mm_body_rest i arg1 harg1 arg2 harg2 arg3 harg3 arg4 harg4 arg5 harg5) K := by
  simp only [cc3__mm_body_rest_eq_skeleton]; unfold cc3__mm_body_rest_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The second matrix-product call: the proof data on one core -/

section Data

variable (c : Dev nD) (V : (b : Ref sig .tc) → Buf (Elt F) ((c : Thread nD τ).loc b))

/-- Window `w`'s block at point `t`, read off its array as the call finds it. -/
def blk3 (w : Fin cfg3.W) (t : Fin cfg3.N) : ((cfg3.win w).xblock (cfg3.grid.coords t)).Idx → Elt F (cfg3.win w).elt :=
  ((cfg3.win w).blk t).view.read (Elt F) (V (Pipeline.arrRef spec3 w))

/-- The proof data: the arrays as the call finds them; after the body at point `t` each input's buffer at its block and
    the result's at the product of the row block with the transposed weights plus the bias; between points the scoped
    buffers no window stages; nothing owed, the core's recorded waits at or below the level the handshakes have reached;
    full shares. -/
def dat3 : Dat τ (Elt F) (HIx 2) ℕ UU ℕ cfg3 c where
  A w := V (Pipeline.arrRef spec3 w)
  after w t := match w with
    | ⟨0, _⟩ => blk3 c V 0 t
    | ⟨1, _⟩ => blk3 c V 1 t
    | ⟨2, _⟩ => blk3 c V 2 t
    | ⟨3, _⟩ => out3 (blk3 c V 0 t) (blk3 c V 1 t) (blk3 c V 2 t)
  Φ _ := Pipeline.scopedRest (Ix := HIx 2) (Name := ℕ) (U := UU) (Lvl := ℕ) (Val := Elt F) spec3 c
  q _ := fullShare
  owed _ := 0
  recorded _ := {p | (K (F := F)).lev ((c : Thread nD τ), p.1) p.2 ≤ 8 * 2}

theorem A3_eq (w : Fin cfg3.W) : (dat3 c V).A w = V (Pipeline.arrRef spec3 w) := by dsimp only [dat3]
theorem after3_0 (t : Fin cfg3.N) : (dat3 c V).after 0 t = blk3 c V 0 t := by dsimp only [dat3]
theorem after3_1 (t : Fin cfg3.N) : (dat3 c V).after 1 t = blk3 c V 1 t := by dsimp only [dat3]
theorem after3_2 (t : Fin cfg3.N) : (dat3 c V).after 2 t = blk3 c V 2 t := by dsimp only [dat3]
theorem after3_3 (t : Fin cfg3.N) : (dat3 c V).after 3 t = out3 (blk3 c V 0 t) (blk3 c V 1 t) (blk3 c V 2 t) := by dsimp only [dat3]

/-- Each input's current staging buffer holds its block at every point, fetched there or not: unfetched, the block index
    has not moved and the body left the block in place. -/
theorem before3_0 (t : Fin cfg3.N) (d) : (dat3 c V).before 0 t d = blk3 c V 0 t :=
  ((dat3 c V).before_in_eq_fetched 0 rfl (fun _ => rfl) (fun _ _ _ => rfl)
    (fun t => by rw [after3_0]; unfold Dat.blockOf blk3; rw [A3_eq]; try rfl) t d).trans
    (by unfold Dat.fetched Dat.blockOf blk3; rw [A3_eq]; try rfl)
theorem before3_1 (t : Fin cfg3.N) (d) : (dat3 c V).before 1 t d = blk3 c V 1 t :=
  ((dat3 c V).before_in_eq_fetched 1 rfl (fun _ => rfl) (fun _ _ _ => rfl)
    (fun t => by rw [after3_1]; unfold Dat.blockOf blk3; rw [A3_eq]; try rfl) t d).trans
    (by unfold Dat.fetched Dat.blockOf blk3; rw [A3_eq]; try rfl)
theorem before3_2 (t : Fin cfg3.N) (d) : (dat3 c V).before 2 t d = blk3 c V 2 t :=
  ((dat3 c V).before_in_eq_fetched 2 rfl (fun _ => rfl) (fun _ _ _ => rfl)
    (fun t => by rw [after3_2]; unfold Dat.blockOf blk3; rw [A3_eq]; try rfl) t d).trans
    (by unfold Dat.fetched Dat.blockOf blk3; rw [A3_eq]; try rfl)

/-- What the body is called with at point `t`, the windows one by one, -/
def bodyPre3 (t : Fin cfg3.N) : sProp 𝕄 :=
  iprop((dat3 c V).Φ t.castSucc ∗ (dat3 c V).owesAt none t.castSucc
    ∗ (∃ d, owns (c : Thread nD τ) (st3_0 t) fullShare ((dat3 c V).before 0 t d))
    ∗ (∃ d, owns (c : Thread nD τ) (st3_1 t) fullShare ((dat3 c V).before 1 t d))
    ∗ (∃ d, owns (c : Thread nD τ) (st3_2 t) fullShare ((dat3 c V).before 2 t d))
    ∗ (∃ d, owns (c : Thread nD τ) (st3_3 t) fullShare ((dat3 c V).before 3 t d)))

/-- and what it returns. -/
def bodyPost3 (t : Fin cfg3.N) : sProp 𝕄 :=
  iprop((dat3 c V).Φ t.succ ∗ (dat3 c V).owesAt none t.succ
    ∗ owns (c : Thread nD τ) (st3_0 t) fullShare ((dat3 c V).after 0 t)
    ∗ owns (c : Thread nD τ) (st3_1 t) fullShare ((dat3 c V).after 1 t)
    ∗ owns (c : Thread nD τ) (st3_2 t) fullShare ((dat3 c V).after 2 t)
    ∗ owns (c : Thread nD τ) (st3_3 t) fullShare ((dat3 c V).after 3 t))

theorem sound_body3 (t : Fin cfg3.N) :
    bodyPre3 c V t ⊢ wp frame (wpE (defs₀ (F := F)) Variants.none c none) Set.univ (bodyAt3 t) (fun _ => bodyPost3 c V t) := by
  unfold bodyPre3 bodyPost3 bodyAt3
  simp only [before3_0, before3_1, before3_2]
  rw [show (dat3 c V).Φ t.succ = (dat3 c V).Φ t.castSucc from rfl,
    show (dat3 c V).owesAt none t.succ = (dat3 c V).owesAt none t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ _ _ (blk3 c V 0 t) (blk3 c V 1 t) (blk3 c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 : BodyObligation (dat3 (F := F) c V) (defs₀ (F := F)) Variants.none none Set.univ := fun t => by
  rw [bigSep_W3, bigSep_W3]
  exact sound_body3 c V t

end Data

end Cert.Proof.KB

end
-- ==== Proof.B.RegionsWp.lean ====
import proofs.«204104_g71330816851969_cont_9to1_m_219_17_alg».proof.Proof.B.Common
import proofs.«204104_g71330816851969_cont_9to1_m_219_17_alg».proof.Proof.Gen.Kernel.Skeleton
import proofs.«204104_g71330816851969_cont_9to1_m_219_17_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«204104_g71330816851969_cont_9to1_m_219_17_alg».proof.Proof.B.Region3
import Idealize.ShloMosaic.Lib.Pipeline.Regions
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## The two matrix-product calls entered from the program's main thread

Each call is a pipeline over four windows: the row block of the activations moves with the grid, the weights and the
bias row are staged once, and the result's row block is written back at every point. The call is entered from the
region boundary, the four arrays held whole, and what the main thread then owes; it returns to the boundary with the
three inputs as they were and the result array at what the write-backs leave (the library's account of it,
`Dat.arrAt`, over the proof data of Region2 / Region3). -/

variable [∀ e, Nonempty (Elt F e)]

/-- No pipeline has a prefetched table. -/
abbrev adm : (p : Fin 2) → (pcfgs (F := F) p).Adm := fun p => (cfgs p).toPCfg_adm

section Entry

variable (d : Dev nD)

/-- One core's contents as contents on every core (only that core's are ever read). -/
def Vall (Vd : (b : Ref sig .tc) → Buf (Elt F) ((d : Thread nD τ).loc b)) (c : Dev nD) :
    (b : Ref sig .tc) → Buf (Elt F) ((c : Thread nD τ).loc b) :=
  if h : d = c then h ▸ Vd else fun _ => Classical.arbitrary _

theorem Vall_self (Vd : (b : Ref sig .tc) → Buf (Elt F) ((d : Thread nD τ).loc b)) : Vall d Vd d = Vd := by
  unfold Vall; rw [dif_pos rfl]

variable (V2 V3 : (b : Ref sig .tc) → Buf (Elt F) ((d : Thread nD τ).loc b))

/-- Both pipelines' proof data, on every core. -/
def pdats : (p : Fin 2) → (c : Dev nD) → Dat τ (Elt F) (HIx 2) ℕ UU ℕ (cfgs p) c
  | ⟨0, _⟩, c => dat2 c (Vall d V2 c)
  | ⟨1, _⟩, c => dat3 c (Vall d V3 c)
  | ⟨_ + 2, h⟩, _ => absurd h (by omega)

theorem pdats_zero (c : Dev nD) : pdats d V2 V3 0 c = dat2 c (Vall d V2 c) := rfl
theorem pdats_one (c : Dev nD) : pdats d V2 V3 1 c = dat3 c (Vall d V3 c) := rfl

/-- What the main thread owes between the calls: nothing, its recorded waits at or below the level the handshakes
    have reached. -/
def owesT (c : Dev nD) : sProp 𝕄 :=
  iprop(∃ W, ⌜(K (F := F)).WBelow (c : Thread nD τ) W (8 * 2)⌝ ∗ owes (c : Thread nD τ) (0 : CellTallies nD τ sig (HIx 2)) W)

set_option backward.isDefEq.respectTransparency.types false in
theorem hin2 (c : Dev nD) : iprop((iprop(emp) : sProp 𝕄) ∗ Pipeline.prefHeld (pcfgs (F := F) 0).pre c (fun _ => fullShare) (adm (F := F) 0).1
      ∗ Pipeline.scopedRest (Pipeline.pin (pcfgs (F := F)) adm 0).spec c) ⊢ (pdats d V2 V3 0 c).Φ 0 := by
  rw [pdats_zero]
  dsimp only [dat2]
  exact sep_elim_right.trans sep_elim_right

set_option backward.isDefEq.respectTransparency.types false in
theorem hout2 (c : Dev nD) : (pdats d V2 V3 0 c).Φ (Fin.last (Pipeline.pin (pcfgs (F := F)) adm 0).N)
    ⊢ iprop((iprop(emp) : sProp 𝕄) ∗ Pipeline.ownSems0 (fun k : PEmpty => k.elim) c ∗ Pipeline.scopedRest (Pipeline.pin (pcfgs (F := F)) adm 0).spec c) := by
  unfold Pipeline.ownSems0; rw [Finset.univ_eq_empty, BI.bigSep_empty]
  rw [pdats_zero]
  dsimp only [dat2]
  iintro Hr
  isplitr; · iempintro
  isplitr; · iempintro
  iexact Hr

set_option backward.isDefEq.respectTransparency.types false in
def reg2 : Pipeline.RegionSeg (pcfgs (F := F)) adm (pdats d V2 V3) none defs₀ 𝒱₀ (K (F := F)).L (K (F := F)).lev 0 where
  win := launch2.win.to₀
  block_pos := launch2.block_pos
  stage_whole := launch2.stage_whole
  K := PEmpty
  osem := fun k => k.elim
  ho := Pipeline.OwnSemFacts.none _
  hbody c := (body_obligation2 c (Vall d V2 c)).loose
  hwaits := Pipeline.hwaits_of_owed_zero _ _ _ _ _ _ 0 fun _ _ => rfl
  pre c := iprop((dat2 c (Vall d V2 c)).arrays ((dat2 c (Vall d V2 c)).arrAt · 0) ∗ owesT c)
  post c := iprop((dat2 c (Vall d V2 c)).arrays ((dat2 c (Vall d V2 c)).arrAt · cfg2.N) ∗ owesT c)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owesT Pipeline.Dat.owesAt Pipeline.owesWithin
      icases HO with ⟨%W, %hW, HO⟩
      iexists W; isplitr
      · ipureintro; exact fun p hp => Or.inl (hW p (Finset.mem_coe.mp hp))
      iexact HO
    isplitr <;> iempintro
  hin c := hin2 d V2 V3 c
  hout c := hout2 d V2 V3 c
  hexit c := by
    iintro ⟨Ha, HO, -, -⟩
    imodintro
    isplitl [Ha]; · iexact Ha
    unfold owesT Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

/-- The arrays of the first call, window by window. -/
theorem arrays2_eq (c : Dev nD) (V : (b : Ref sig .tc) → Buf (Elt F) ((c : Thread nD τ).loc b))
    (G : (w : Fin cfg2.W) → Buf (Elt F) ((cfg2.win w).arr.view.loc (c : Thread nD τ))) :
    (dat2 c V).arrays G
      = iprop((((c : Thread nD τ).loc main_v4) ↦{fullShare} G 0) ∗ (((c : Thread nD τ).loc main_arg4) ↦{fullShare} G 1)
          ∗ (((c : Thread nD τ).loc main_v0) ↦{fullShare} G 2) ∗ (((c : Thread nD τ).loc main_v9) ↦{fullShare} G 3)) := by
  have h := Pipeline.arrays_eq cfgs (pdats c V V) 0 c arr_whole2
    (fun w => by rw [pdats_zero]; exact (dat2 c _).share_full (fun _ => rfl) w) G
  rw [pdats_zero, Vall_self] at h
  rw [h, bigSep_W2]; rfl

/-- What the first call leaves in the result array: the library's account of the write-backs, over the proof data. -/
def res2 (V : (b : Ref sig .tc) → Buf (Elt F) ((d : Thread nD τ).loc b)) : Buf (Elt F) ((d : Thread nD τ).loc main_v9) :=
  (dat2 d V).arrAt 3 cfg2.N

theorem pre2_eq (V : (b : Ref sig .tc) → Buf (Elt F) ((d : Thread nD τ).loc b)) :
    (reg2 d V V).pre d
      = iprop(((((d : Thread nD τ).loc main_v4) ↦{fullShare} V main_v4) ∗ (((d : Thread nD τ).loc main_arg4) ↦{fullShare} V main_arg4)
          ∗ (((d : Thread nD τ).loc main_v0) ↦{fullShare} V main_v0) ∗ (((d : Thread nD τ).loc main_v9) ↦{fullShare} V main_v9)) ∗ owesT d) := by
  show iprop((dat2 d (Vall d V d)).arrays ((dat2 d (Vall d V d)).arrAt · 0) ∗ owesT d) = _
  rw [Vall_self, arrays2_eq]; rfl

theorem post2_eq (V : (b : Ref sig .tc) → Buf (Elt F) ((d : Thread nD τ).loc b)) :
    (reg2 d V V).post d
      = iprop(((((d : Thread nD τ).loc main_v4) ↦{fullShare} V main_v4) ∗ (((d : Thread nD τ).loc main_arg4) ↦{fullShare} V main_arg4)
          ∗ (((d : Thread nD τ).loc main_v0) ↦{fullShare} V main_v0) ∗ (((d : Thread nD τ).loc main_v9) ↦{fullShare} res2 d V)) ∗ owesT d) := by
  show iprop((dat2 d (Vall d V d)).arrays ((dat2 d (Vall d V d)).arrAt · cfg2.N) ∗ owesT d) = _
  rw [Vall_self, arrays2_eq]
  rw [(dat2 d V).arrAt_in 0 rfl _, (dat2 d V).arrAt_in 1 rfl _, (dat2 d V).arrAt_in 2 rfl _]
  rfl

set_option backward.isDefEq.respectTransparency.types false in
/-- THE FIRST CALL, from the program's main thread. -/
theorem wp_region0 (V : (b : Ref sig .tc) → Buf (Elt F) ((d : Thread nD τ).loc b)) {Φ : PUnit → sProp 𝕄} :
    iprop(levAts (K (F := F)).L (K (F := F)).lev ∗ boundary (T d) ∗ owesT d
        ∗ (((d : Thread nD τ).loc main_v4) ↦{fullShare} V main_v4) ∗ (((d : Thread nD τ).loc main_arg4) ↦{fullShare} V main_arg4)
        ∗ (((d : Thread nD τ).loc main_v0) ↦{fullShare} V main_v0) ∗ (((d : Thread nD τ).loc main_v9) ↦{fullShare} V main_v9)
        ∗ Pipeline.cellsGhost cfgs EP 0 d ∗ Pipeline.toksInit cfgs EP 0 d
        ∗ (iprop(boundary (T d) ∗ owesT d
            ∗ (((d : Thread nD τ).loc main_v4) ↦{fullShare} V main_v4) ∗ (((d : Thread nD τ).loc main_arg4) ↦{fullShare} V main_arg4)
            ∗ (((d : Thread nD τ).loc main_v0) ↦{fullShare} V main_v0) ∗ (((d : Thread nD τ).loc main_v9) ↦{fullShare} res2 d V)) -∗ Φ ⟨⟩))
      ⊢ wp frame (wpE ((K (F := F)).defs D) 𝒱 (T d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 2) .tc) PUnit)
      = SparseCore.liftProg (.op (.customCall (Pipeline.entry 0) ()) .ret) := rfl
  rw [hprog]
  refine BIBase.Entails.trans ?_ ((K (F := F)).wp_liftProg D 𝒱 (T d) Set.univ none _ Φ)
  refine BIBase.Entails.trans ?_ (Pipeline.RegionSeg.wp (pcfgs (F := F)) adm (pdats d V V) none cellOf_inj EP defs₀ 𝒱₀ (K (F := F)).L (K (F := F)).lev
    (reg2 d V V) d none (fun _ h => nomatch h) .ret Φ)
  rw [pre2_eq, post2_eq]
  iintro ⟨#Hlev, Hb, HO, H4, HW, H0, H9, Hg, Ht, Hk⟩
  isplitl [Hk]
  · iintro ⟨Hb, ⟨H4, HW, H0, H9⟩, HO⟩
    rw [wp_ret]; imodintro
    iapply Hk
    isplitl [Hb]; · iexact Hb
    isplitl [HO]; · iexact HO
    isplitl [H4]; · iexact H4
    isplitl [HW]; · iexact HW
    isplitl [H0]; · iexact H0
    iexact H9
  isplitl [Hb]; · iexact Hb
  isplitl [HO H4 HW H0 H9]
  · isplitr [HO]
    · isplitl [H4]; · iexact H4
      isplitl [HW]; · iexact HW
      isplitl [H0]; · iexact H0
      iexact H9
    · iexact HO
  isplitr; · iexact Hlev
  isplitl [Hg]; · iexact Hg
  iexact Ht

/-! ### The second call -/

set_option backward.isDefEq.respectTransparency.types false in
theorem hin3 (c : Dev nD) : iprop((iprop(emp) : sProp 𝕄) ∗ Pipeline.prefHeld (pcfgs (F := F) 1).pre c (fun _ => fullShare) (adm (F := F) 1).1
      ∗ Pipeline.scopedRest (Pipeline.pin (pcfgs (F := F)) adm 1).spec c) ⊢ (pdats d V2 V3 1 c).Φ 0 := by
  rw [pdats_one]
  dsimp only [dat3]
  exact sep_elim_right.trans sep_elim_right

set_option backward.isDefEq.respectTransparency.types false in
theorem hout3 (c : Dev nD) : (pdats d V2 V3 1 c).Φ (Fin.last (Pipeline.pin (pcfgs (F := F)) adm 1).N)
    ⊢ iprop((iprop(emp) : sProp 𝕄) ∗ Pipeline.ownSems0 (fun k : PEmpty => k.elim) c ∗ Pipeline.scopedRest (Pipeline.pin (pcfgs (F := F)) adm 1).spec c) := by
  unfold Pipeline.ownSems0; rw [Finset.univ_eq_empty, BI.bigSep_empty]
  rw [pdats_one]
  dsimp only [dat3]
  iintro Hr
  isplitr; · iempintro
  isplitr; · iempintro
  iexact Hr

set_option backward.isDefEq.respectTransparency.types false in
def reg3 : Pipeline.RegionSeg (pcfgs (F := F)) adm (pdats d V2 V3) none defs₀ 𝒱₀ (K (F := F)).L (K (F := F)).lev 1 where
  win := launch3.win.to₀
  block_pos := launch3.block_pos
  stage_whole := launch3.stage_whole
  K := PEmpty
  osem := fun k => k.elim
  ho := Pipeline.OwnSemFacts.none _
  hbody c := (body_obligation3 c (Vall d V3 c)).loose
  hwaits := Pipeline.hwaits_of_owed_zero _ _ _ _ _ _ 1 fun _ _ => rfl
  pre c := iprop((dat3 c (Vall d V3 c)).arrays ((dat3 c (Vall d V3 c)).arrAt · 0) ∗ owesT c)
  post c := iprop((dat3 c (Vall d V3 c)).arrays ((dat3 c (Vall d V3 c)).arrAt · cfg3.N) ∗ owesT c)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owesT Pipeline.Dat.owesAt Pipeline.owesWithin
      icases HO with ⟨%W, %hW, HO⟩
      iexists W; isplitr
      · ipureintro; exact fun p hp => Or.inl (hW p (Finset.mem_coe.mp hp))
      iexact HO
    isplitr <;> iempintro
  hin c := hin3 d V2 V3 c
  hout c := hout3 d V2 V3 c
  hexit c := by
    iintro ⟨Ha, HO, -, -⟩
    imodintro
    isplitl [Ha]; · iexact Ha
    unfold owesT Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

/-- The arrays of the second call, window by window. -/
theorem arrays3_eq (c : Dev nD) (V : (b : Ref sig .tc) → Buf (Elt F) ((c : Thread nD τ).loc b))
    (G : (w : Fin cfg3.W) → Buf (Elt F) ((cfg3.win w).arr.view.loc (c : Thread nD τ))) :
    (dat3 c V).arrays G
      = iprop((((c : Thread nD τ).loc main_v8) ↦{fullShare} G 0) ∗ (((c : Thread nD τ).loc main_arg4) ↦{fullShare} G 1)
          ∗ (((c : Thread nD τ).loc main_v0) ↦{fullShare} G 2) ∗ (((c : Thread nD τ).loc main_v10) ↦{fullShare} G 3)) := by
  have h := Pipeline.arrays_eq cfgs (pdats c V V) 1 c arr_whole3
    (fun w => by rw [pdats_one]; exact (dat3 c _).share_full (fun _ => rfl) w) G
  rw [pdats_one, Vall_self] at h
  rw [h, bigSep_W3]; rfl

/-- What the second call leaves in the result array: the library's account of the write-backs, over the proof data. -/
def res3 (V : (b : Ref sig .tc) → Buf (Elt F) ((d : Thread nD τ).loc b)) : Buf (Elt F) ((d : Thread nD τ).loc main_v10) :=
  (dat3 d V).arrAt 3 cfg3.N

theorem pre3_eq (V : (b : Ref sig .tc) → Buf (Elt F) ((d : Thread nD τ).loc b)) :
    (reg3 d V V).pre d
      = iprop(((((d : Thread nD τ).loc main_v8) ↦{fullShare} V main_v8) ∗ (((d : Thread nD τ).loc main_arg4) ↦{fullShare} V main_arg4)
          ∗ (((d : Thread nD τ).loc main_v0) ↦{fullShare} V main_v0) ∗ (((d : Thread nD τ).loc main_v10) ↦{fullShare} V main_v10)) ∗ owesT d) := by
  show iprop((dat3 d (Vall d V d)).arrays ((dat3 d (Vall d V d)).arrAt · 0) ∗ owesT d) = _
  rw [Vall_self, arrays3_eq]; rfl

theorem post3_eq (V : (b : Ref sig .tc) → Buf (Elt F) ((d : Thread nD τ).loc b)) :
    (reg3 d V V).post d
      = iprop(((((d : Thread nD τ).loc main_v8) ↦{fullShare} V main_v8) ∗ (((d : Thread nD τ).loc main_arg4) ↦{fullShare} V main_arg4)
          ∗ (((d : Thread nD τ).loc main_v0) ↦{fullShare} V main_v0) ∗ (((d : Thread nD τ).loc main_v10) ↦{fullShare} res3 d V)) ∗ owesT d) := by
  show iprop((dat3 d (Vall d V d)).arrays ((dat3 d (Vall d V d)).arrAt · cfg3.N) ∗ owesT d) = _
  rw [Vall_self, arrays3_eq]
  rw [(dat3 d V).arrAt_in 0 rfl _, (dat3 d V).arrAt_in 1 rfl _, (dat3 d V).arrAt_in 2 rfl _]
  rfl

set_option backward.isDefEq.respectTransparency.types false in
/-- THE SECOND CALL, from the program's main thread. -/
theorem wp_region1 (V : (b : Ref sig .tc) → Buf (Elt F) ((d : Thread nD τ).loc b)) {Φ : PUnit → sProp 𝕄} :
    iprop(levAts (K (F := F)).L (K (F := F)).lev ∗ boundary (T d) ∗ owesT d
        ∗ (((d : Thread nD τ).loc main_v8) ↦{fullShare} V main_v8) ∗ (((d : Thread nD τ).loc main_arg4) ↦{fullShare} V main_arg4)
        ∗ (((d : Thread nD τ).loc main_v0) ↦{fullShare} V main_v0) ∗ (((d : Thread nD τ).loc main_v10) ↦{fullShare} V main_v10)
        ∗ Pipeline.cellsGhost cfgs EP 1 d ∗ Pipeline.toksInit cfgs EP 1 d
        ∗ (iprop(boundary (T d) ∗ owesT d
            ∗ (((d : Thread nD τ).loc main_v8) ↦{fullShare} V main_v8) ∗ (((d : Thread nD τ).loc main_arg4) ↦{fullShare} V main_arg4)
            ∗ (((d : Thread nD τ).loc main_v0) ↦{fullShare} V main_v0) ∗ (((d : Thread nD τ).loc main_v10) ↦{fullShare} res3 d V)) -∗ Φ ⟨⟩))
      ⊢ wp frame (wpE ((K (F := F)).defs D) 𝒱 (T d) none) Set.univ
          (Prog.lift (.customCall (SparseCore.inner (Pipeline.entry 1)) ())) Φ := by
  have hprog : (Prog.lift (.customCall (SparseCore.inner (Pipeline.entry 1)) ()) : Prog (TpuEff nD τ sig (Elt F) (SparseCore.Sig (ΛP (F := F)) 2) .tc) PUnit)
      = SparseCore.liftProg (.op (.customCall (Pipeline.entry 1) ()) .ret) := rfl
  rw [hprog]
  refine BIBase.Entails.trans ?_ ((K (F := F)).wp_liftProg D 𝒱 (T d) Set.univ none _ Φ)
  refine BIBase.Entails.trans ?_ (Pipeline.RegionSeg.wp (pcfgs (F := F)) adm (pdats d V V) none cellOf_inj EP defs₀ 𝒱₀ (K (F := F)).L (K (F := F)).lev
    (reg3 d V V) d none (fun _ h => nomatch h) .ret Φ)
  rw [pre3_eq, post3_eq]
  iintro ⟨#Hlev, Hb, HO, H4, HW, H0, H9, Hg, Ht, Hk⟩
  isplitl [Hk]
  · iintro ⟨Hb, ⟨H4, HW, H0, H9⟩, HO⟩
    rw [wp_ret]; imodintro
    iapply Hk
    isplitl [Hb]; · iexact Hb
    isplitl [HO]; · iexact HO
    isplitl [H4]; · iexact H4
    isplitl [HW]; · iexact HW
    isplitl [H0]; · iexact H0
    iexact H9
  isplitl [Hb]; · iexact Hb
  isplitl [HO H4 HW H0 H9]
  · isplitr [HO]
    · isplitl [H4]; · iexact H4
      isplitl [HW]; · iexact HW
      isplitl [H0]; · iexact H0
      iexact H9
    · iexact HO
  isplitr; · iexact Hlev
  isplitl [Hg]; · iexact Hg
  iexact Ht

end Entry

end Cert.Proof.KB

end
-- ==== Proof.B.MainII.lean ====
/-
  @main on the TensorCore, second half: the first matrix-product pipeline over the pooled rows of the first 1024
  tokens, the copy of its result into the second pipeline's aliased buffer, and the second pipeline over the pooled
  rows of the other 3072; each pipeline is handed its four arrays out of the held set and gives them back with the
  result array at the pipeline's final contents.
-/
import proofs.«204104_g71330816851969_cont_9to1_m_219_17_alg».proof.Proof.B.MainI
import proofs.«204104_g71330816851969_cont_9to1_m_219_17_alg».proof.Proof.B.Fund
import proofs.«204104_g71330816851969_cont_9to1_m_219_17_alg».proof.Proof.B.RegionsWp

noncomputable section
namespace Cert.Proof.KB
open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [∀ e, Nonempty (Elt F e)]
local notation "𝕄" => MT nD τ sig (HIx 2) (Elt F) ℕ UU ℕ

variable (m : (ℓ : Loc nD τ sig) → Buf (Elt F) ℓ) (inv0 zero0 inv1 zero1 : F .f32)

abbrev v0' : DevRef τ sig := (main_v0 : DevRef τ sig)
abbrev v4' : DevRef τ sig := (main_v4 : DevRef τ sig)
abbrev v8' : DevRef τ sig := (main_v8 : DevRef τ sig)
abbrev v9' : DevRef τ sig := (main_v9 : DevRef τ sig)
abbrev v10' : DevRef τ sig := (main_v10 : DevRef τ sig)
abbrev w' : DevRef τ sig := (main_arg4 : DevRef τ sig)

/-- The arrays of the first pipeline (pooled rows, weights, bias row, result) and of the second. -/
def R0set : Finset (DevRef τ sig) := {v4', w', v0', v9'}
def R1set : Finset (DevRef τ sig) := {v8', w', v0', v10'}
theorem R0set_sub : R0set ⊆ Sall := by decide
theorem R1set_sub : R1set ⊆ Sall := by decide

omit [FloatOps F] [∀ e, Nonempty (Elt F e)] in
theorem held_splitR0 (d : Dev nD) (W : Valuation τ sig (Elt F)) :
    (held (T d) Sall W : sProp 𝕄) = iprop(((((d : Thread nD τ).loc main_v4) ↦{fullShare} W v4') ∗ (((d : Thread nD τ).loc main_arg4) ↦{fullShare} W w')
        ∗ (((d : Thread nD τ).loc main_v0) ↦{fullShare} W v0') ∗ (((d : Thread nD τ).loc main_v9) ↦{fullShare} W v9')) ∗ held (T d) (Sall \ R0set) W) := by
  rw [held_sub_split (T d) R0set_sub]
  congr 1
  unfold held R0set
  rw [SparseCore.bigSep_insert' (by decide), SparseCore.bigSep_insert' (by decide), SparseCore.bigSep_insert' (by decide), bigSep_singleton]
omit [FloatOps F] [∀ e, Nonempty (Elt F e)] in
theorem held_splitR1 (d : Dev nD) (W : Valuation τ sig (Elt F)) :
    (held (T d) Sall W : sProp 𝕄) = iprop(((((d : Thread nD τ).loc main_v8) ↦{fullShare} W v8') ∗ (((d : Thread nD τ).loc main_arg4) ↦{fullShare} W w')
        ∗ (((d : Thread nD τ).loc main_v0) ↦{fullShare} W v0') ∗ (((d : Thread nD τ).loc main_v10) ↦{fullShare} W v10')) ∗ held (T d) (Sall \ R1set) W) := by
  rw [held_sub_split (T d) R1set_sub]
  congr 1
  unfold held R1set
  rw [SparseCore.bigSep_insert' (by decide), SparseCore.bigSep_insert' (by decide), SparseCore.bigSep_insert' (by decide), bigSep_singleton]

/-- A valuation of the device's buffers, read at the TensorCore's references. -/
abbrev Vr (W : Valuation τ sig (Elt F)) (d : Dev nD) : (b : Ref sig .tc) → Buf (Elt F) ((d : Thread nD τ).loc b) := fun b => W (b : DevRef τ sig)

/-- After the first pipeline; after the copy into the aliased buffer; after the second pipeline. -/
def V6 (d : Dev nD) : Valuation τ sig (Elt F) := Function.update (V5 m inv0 zero0 inv1 zero1 d) v9' (res2 d (Vr (V5 m inv0 zero0 inv1 zero1 d) d))
def V7 (d : Dev nD) : Valuation τ sig (Elt F) := after ops3 (V6 m inv0 zero0 inv1 zero1 d)
def V8 (d : Dev nD) : Valuation τ sig (Elt F) := Function.update (V7 m inv0 zero0 inv1 zero1 d) v10' (res3 d (Vr (V7 m inv0 zero0 inv1 zero1 d) d))

theorem held_restR0 (d : Dev nD) :
    (held (T d) (Sall \ R0set) (V6 m inv0 zero0 inv1 zero1 d) : sProp 𝕄) = held (T d) (Sall \ R0set) (V5 m inv0 zero0 inv1 zero1 d) :=
  held_congr (T d) fun b hb => Function.update_of_ne (fun e => (Finset.mem_sdiff.mp hb).2 (by subst e; decide)) _ _
theorem held_restR1 (d : Dev nD) :
    (held (T d) (Sall \ R1set) (V8 m inv0 zero0 inv1 zero1 d) : sProp 𝕄) = held (T d) (Sall \ R1set) (V7 m inv0 zero0 inv1 zero1 d) :=
  held_congr (T d) fun b hb => Function.update_of_ne (fun e => (Finset.mem_sdiff.mp hb).2 (by subst e; decide)) _ _
theorem V6_v4 (d : Dev nD) : V6 m inv0 zero0 inv1 zero1 d v4' = V5 m inv0 zero0 inv1 zero1 d v4' := Function.update_of_ne (show v4' ≠ v9' by decide) _ _
theorem V6_w (d : Dev nD) : V6 m inv0 zero0 inv1 zero1 d w' = V5 m inv0 zero0 inv1 zero1 d w' := Function.update_of_ne (show w' ≠ v9' by decide) _ _
theorem V6_v0 (d : Dev nD) : V6 m inv0 zero0 inv1 zero1 d v0' = V5 m inv0 zero0 inv1 zero1 d v0' := Function.update_of_ne (show v0' ≠ v9' by decide) _ _
theorem V6_v9 (d : Dev nD) : V6 m inv0 zero0 inv1 zero1 d v9' = res2 d (Vr (V5 m inv0 zero0 inv1 zero1 d) d) := Function.update_self _ _ _
theorem V8_v8 (d : Dev nD) : V8 m inv0 zero0 inv1 zero1 d v8' = V7 m inv0 zero0 inv1 zero1 d v8' := Function.update_of_ne (show v8' ≠ v10' by decide) _ _
theorem V8_w (d : Dev nD) : V8 m inv0 zero0 inv1 zero1 d w' = V7 m inv0 zero0 inv1 zero1 d w' := Function.update_of_ne (show w' ≠ v10' by decide) _ _
theorem V8_v0 (d : Dev nD) : V8 m inv0 zero0 inv1 zero1 d v0' = V7 m inv0 zero0 inv1 zero1 d v0' := Function.update_of_ne (show v0' ≠ v10' by decide) _ _
theorem V8_v10 (d : Dev nD) : V8 m inv0 zero0 inv1 zero1 d v10' = res3 d (Vr (V7 m inv0 zero0 inv1 zero1 d) d) := Function.update_self _ _ _

theorem hmainII (κ : GSem nD τ sig → ℕ) (d : Dev nD) :
    iprop((K (F := F)).ctx EH (P (C m inv0 zero0 inv1 zero1)) κ ∗ (K (F := F)).tcSt EH d 2 ∗ boundary (T d)
        ∗ held (T d) Sall (V5 m inv0 zero0 inv1 zero1 d) ∗ G (F := F) d)
      ⊢ wp frame (wpE ((K (F := F)).defs (D (F := F))) 𝒱 (SparseCore.T d) none) Set.univ (mainRest (F := F))
          fun _ => iprop((K (F := F)).tcSt EH d 2 ∗ held (T d) Sall (V8 m inv0 zero0 inv1 zero1 d)) := by
  unfold mainRest G
  rw [bigSep_univ_two (fun p : Fin 2 => (Pipeline.cellsGhost cfgs EP p d : sProp 𝕄)), bigSep_univ_two (fun p : Fin 2 => (Pipeline.toksInit cfgs EP p d : sProp 𝕄))]
  unfold SparseCore.Cfg.tcSt
  rw [(K (F := F)).Otc_end d (le_refl 2)]
  iintro ⟨#Hctx, ⟨Howes, Hat⟩, Hb, Hheld, ⟨Hg0, Hg1⟩, ⟨Ht0, Ht1⟩⟩
  ihave #Hlev := (SparseCore.Cfg.ctx_levAts (K := K (F := F)) (EH := EH) (P := P (C m inv0 zero0 inv1 zero1)) κ) $$ Hctx
  -- the first pipeline
  ihave Hh := (Entails.of_eq (held_splitR0 d (V5 m inv0 zero0 inv1 zero1 d))) $$ Hheld
  icases Hh with ⟨⟨Hx, Hw, Hbias, Ho⟩, Hrest⟩
  rw [wp_bind]
  iapply (wp_region0 d (Vr (V5 m inv0 zero0 inv1 zero1 d) d)) $$ [Howes Hb Hx Hw Hbias Ho Hg0 Ht0 Hat Hrest Hg1 Ht1]
  unfold owesT
  isplitr; · iexact Hlev
  isplitl [Hb]; · iexact Hb
  isplitl [Howes]; · iexact Howes
  isplitl [Hx]; · iexact Hx
  isplitl [Hw]; · iexact Hw
  isplitl [Hbias]; · iexact Hbias
  isplitl [Ho]; · iexact Ho
  isplitl [Hg0]; · iexact Hg0
  isplitl [Ht0]; · iexact Ht0
  iintro ⟨Hb, Howes, Hx, Hw, Hbias, Ho⟩
  ihave Hheld := (Entails.of_eq (held_splitR0 d (V6 m inv0 zero0 inv1 zero1 d)).symm) $$ [Hx Hw Hbias Ho Hrest]
  · rw [V6_v4, V6_w, V6_v0, V6_v9, held_restR0]
    isplitr [Hrest]
    · isplitl [Hx]; · iexact Hx
      isplitl [Hw]; · iexact Hw
      isplitl [Hbias]; · iexact Hbias
      iexact Ho
    · iexact Hrest
  -- the copy of its result into the second pipeline's aliased buffer
  iapply (wp_seq 𝒱 none Set.univ d Sall _ ops3 ops3_sub ops3_fresh (V6 m inv0 zero0 inv1 zero1 d)) $$ [Hb Hheld]
  · isplitl [Hb]; · iexact Hb
    iexact Hheld
  iintro ⟨Hb, Hheld⟩
  -- the second pipeline
  ihave Hh := (Entails.of_eq (held_splitR1 d (after ops3 (V6 m inv0 zero0 inv1 zero1 d)))) $$ Hheld
  icases Hh with ⟨⟨Hx, Hw, Hbias, Ho⟩, Hrest⟩
  rw [wp_bind]
  rw [show after ops3 (V6 m inv0 zero0 inv1 zero1 d) = V7 m inv0 zero0 inv1 zero1 d from rfl]
  iapply (wp_region1 d (Vr (V7 m inv0 zero0 inv1 zero1 d) d)) $$ [Howes Hb Hx Hw Hbias Ho Hg1 Ht1 Hat Hrest]
  unfold owesT
  isplitr; · iexact Hlev
  isplitl [Hb]; · iexact Hb
  isplitl [Howes]; · iexact Howes
  isplitl [Hx]; · iexact Hx
  isplitl [Hw]; · iexact Hw
  isplitl [Hbias]; · iexact Hbias
  isplitl [Ho]; · iexact Ho
  isplitl [Hg1]; · iexact Hg1
  isplitl [Ht1]; · iexact Ht1
  iintro ⟨Hb, Howes, Hx, Hw, Hbias, Ho⟩
  ihave Hheld := (Entails.of_eq (held_splitR1 d (V8 m inv0 zero0 inv1 zero1 d)).symm) $$ [Hx Hw Hbias Ho Hrest]
  · rw [V8_v8, V8_w, V8_v0, V8_v10, held_restR1]
    isplitr [Hrest]
    · isplitl [Hx]; · iexact Hx
      isplitl [Hw]; · iexact Hw
      isplitl [Hbias]; · iexact Hbias
      iexact Ho
    · iexact Hrest
  rw [wp_pure]
  imodintro
  isplitl [Howes Hat]
  · isplitl [Howes]; · iexact Howes
    iexact Hat
  iexact Hheld

end Cert.Proof.KB
end
-- ==== Proof.B.Launch.lean ====
/-
  The run of the printed program: @main's two halves composed; what the final memory holds, read off the
  TensorCore's held arrays; and the launch theorem applied to the two vector-subcore calls' task obligations.
-/
import proofs.«204104_g71330816851969_cont_9to1_m_219_17_alg».proof.Proof.B.MainII

noncomputable section
namespace Cert.Proof.KB
open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [∀ e, Nonempty (Elt F e)]
local notation "𝕄" => MT nD τ sig (HIx 2) (Elt F) ℕ UU ℕ

variable (m : (ℓ : Loc nD τ sig) → Buf (Elt F) ℓ) (ρ : Dev nD → PrngReg) (inv0 zero0 inv1 zero1 : F .f32)

/-- What @main leaves: the TensorCore's unscoped arrays at the final valuation. -/
abbrev FIN (d : Dev nD) : sProp 𝕄 := held (T d) Sall (V8 m inv0 zero0 inv1 zero1 d)

theorem hmain (κ : GSem nD τ sig → ℕ) (d : Dev nD) :
    iprop((K (F := F)).ctx EH (P (C m inv0 zero0 inv1 zero1)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m inv0 zero0 inv1 zero1 d) := by
  unfold SparseCore.Cfg.tcRes
  rw [unscoped_held]
  iintro ⟨#Hctx, Hst, ⟨Hb, Hheld, -, -⟩, HG⟩
  iapply (hmainI m inv0 zero0 inv1 zero1 κ d _)
  isplitr; · iexact Hctx
  isplitl [Hst]; · iexact Hst
  isplitl [Hb]; · iexact Hb
  isplitl [Hheld]; · iexact Hheld
  iintro ⟨Hst, Hb, Hheld⟩
  iapply (hmainII m inv0 zero0 inv1 zero1 κ d)
  isplitr; · iexact Hctx
  isplitl [Hst]; · iexact Hst
  isplitl [Hb]; · iexact Hb
  isplitl [Hheld]; · iexact Hheld
  iexact HG

/-! ## Reading the final memory -/

abbrev a0' : DevRef τ sig := (main_arg0 : DevRef τ sig)
abbrev a1' : DevRef τ sig := (main_arg1 : DevRef τ sig)
abbrev a2' : DevRef τ sig := (main_arg2 : DevRef τ sig)
abbrev a5' : DevRef τ sig := (main_arg5 : DevRef τ sig)

/-- The result and the six arguments. -/
def F7set : Finset (DevRef τ sig) := {v10', a0', a1', a2', e', w', a5'}
theorem F7set_sub : F7set ⊆ Sall := by decide

omit [FloatOps F] [∀ e, Nonempty (Elt F e)] in
theorem held_F7 (d : Dev nD) (W : Valuation τ sig (Elt F)) :
    (held (T d) F7set W : sProp 𝕄) = iprop((((d : Thread nD τ).loc main_v10) ↦{fullShare} W v10') ∗ (((d : Thread nD τ).loc main_arg0) ↦{fullShare} W a0')
      ∗ (((d : Thread nD τ).loc main_arg1) ↦{fullShare} W a1') ∗ (((d : Thread nD τ).loc main_arg2) ↦{fullShare} W a2')
      ∗ (((d : Thread nD τ).loc main_arg3) ↦{fullShare} W e') ∗ (((d : Thread nD τ).loc main_arg4) ↦{fullShare} W w')
      ∗ (((d : Thread nD τ).loc main_arg5) ↦{fullShare} W a5')) := by
  unfold held F7set
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The final memory of device `d` holds the final valuation at the result and at the six arguments. -/
def fq (d : Dev nD) (s' : Phys nD τ sig (Elt F)) : Prop :=
  s'.mem.mem ((d : Thread nD τ).loc main_v10) = V8 m inv0 zero0 inv1 zero1 d v10'
  ∧ s'.mem.mem ((d : Thread nD τ).loc main_arg0) = V8 m inv0 zero0 inv1 zero1 d a0'
  ∧ s'.mem.mem ((d : Thread nD τ).loc main_arg1) = V8 m inv0 zero0 inv1 zero1 d a1'
  ∧ s'.mem.mem ((d : Thread nD τ).loc main_arg2) = V8 m inv0 zero0 inv1 zero1 d a2'
  ∧ s'.mem.mem ((d : Thread nD τ).loc main_arg3) = V8 m inv0 zero0 inv1 zero1 d e'
  ∧ s'.mem.mem ((d : Thread nD τ).loc main_arg4) = V8 m inv0 zero0 inv1 zero1 d w'
  ∧ s'.mem.mem ((d : Thread nD τ).loc main_arg5) = V8 m inv0 zero0 inv1 zero1 d a5'

omit [FloatOps F] [∀ e, Nonempty (Elt F e)] in
/-- A whole buffer held at `f` is what the memory holds there; the memory is kept. -/
theorem agree_keep (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) :
    iprop(FIN m inv0 zero0 inv1 zero1 d ∗ SI s') ⊢ (⌜fq m inv0 zero0 inv1 zero1 d s'⌝ : sProp 𝕄) := by
  unfold FIN
  rw [held_sub_split (T d) F7set_sub, held_F7]
  iintro ⟨⟨⟨H0, H1, H2, H3, H4, H5, H6⟩, -⟩, HSI⟩
  ihave H := (agree_keep _ _ s') $$ [HSI H0]
  · isplitl [HSI] <;> iassumption
  icases H with ⟨%h0, HSI⟩
  ihave H := (agree_keep _ _ s') $$ [HSI H1]
  · isplitl [HSI] <;> iassumption
  icases H with ⟨%h1, HSI⟩
  ihave H := (agree_keep _ _ s') $$ [HSI H2]
  · isplitl [HSI] <;> iassumption
  icases H with ⟨%h2, HSI⟩
  ihave H := (agree_keep _ _ s') $$ [HSI H3]
  · isplitl [HSI] <;> iassumption
  icases H with ⟨%h3, HSI⟩
  ihave H := (agree_keep _ _ s') $$ [HSI H4]
  · isplitl [HSI] <;> iassumption
  icases H with ⟨%h4, HSI⟩
  ihave H := (agree_keep _ _ s') $$ [HSI H5]
  · isplitl [HSI] <;> iassumption
  icases H with ⟨%h5, HSI⟩
  ihave H := (agree_keep _ _ s') $$ [HSI H6]
  · isplitl [HSI] <;> iassumption
  icases H with ⟨%h6, HSI⟩
  ipureintro
  exact ⟨h0, h1, h2, h3, h4, h5, h6⟩

/-! ## The program's run -/

def QC : PUnit × MemSt nD τ sig (Elt F) → Prop := fun r => ∀ c : Dev nD,
  r.2.mem ((c : Thread nD τ).loc main_v10) = V8 m inv0 zero0 inv1 zero1 c v10'
  ∧ r.2.mem ((c : Thread nD τ).loc main_arg0) = V8 m inv0 zero0 inv1 zero1 c a0'
  ∧ r.2.mem ((c : Thread nD τ).loc main_arg1) = V8 m inv0 zero0 inv1 zero1 c a1'
  ∧ r.2.mem ((c : Thread nD τ).loc main_arg2) = V8 m inv0 zero0 inv1 zero1 c a2'
  ∧ r.2.mem ((c : Thread nD τ).loc main_arg3) = V8 m inv0 zero0 inv1 zero1 c e'
  ∧ r.2.mem ((c : Thread nD τ).loc main_arg4) = V8 m inv0 zero0 inv1 zero1 c w'
  ∧ r.2.mem ((c : Thread nD τ).loc main_arg5) = V8 m inv0 zero0 inv1 zero1 c a5'

/-- Every weakly fair execution of the program's threads terminates, nothing faulting, with the result array and the
    arguments at the final valuation — given each call's task obligation. -/
theorem run_main (htile0 : (K (F := F)).TileObl (D (F := F)) 𝒱 (P (C m inv0 zero0 inv1 zero1)) v₀ 0)
    (htile1 : (K (F := F)).TileObl (D (F := F)) 𝒱 (P (C m inv0 zero0 inv1 zero1)) v₀ 1) :
    θ_run (Cert.Kernel.defs (F := F)) (Cert.Kernel.threads (F := F)) ⟨m, fun _ => 0, ρ⟩ (QC m inv0 zero0 inv1 zero1) :=
  SparseCore.Cfg.θ_run_sc (K := K (F := F)) (D := D (F := F)) (𝒱 := 𝒱) (EH := EH) (P := P (C m inv0 zero0 inv1 zero1)) facts v₀
    (fun q hq => match q with | 0 => nomatch hq | 1 => nomatch hq)
    (fun q _ => match q with | 0 => htile0 | 1 => htile1)
    (fun q _ => match q with
      | 0 => SparseCore.Cfg.VecSplit.of_plain (vecSplit0 (C m inv0 zero0 inv1 zero1))
      | 1 => SparseCore.Cfg.VecSplit.of_plain (vecSplit1 (C m inv0 zero0 inv1 zero1)))
    m ρ main (G (F := F)) (FIN m inv0 zero0 inv1 zero1) (u₀ (F := F)) (sep_elim_left.trans (hu₀ (C m inv0 zero0 inv1 zero1)))
    (hmain m ρ inv0 zero0 inv1 zero1) (fq m inv0 zero0 inv1 zero1) (hfin m inv0 zero0 inv1 zero1) (QC m inv0 zero0 inv1 zero1) (fun _ h => h)

end Cert.Proof.KB
end
-- ==== Proof.Regroup.lean ====
/-
  Blocks of a 4096 × 50 array regrouped, read at a position; and stacks of rows read back as rows.

  The block of rows [0, 1024) (or [1024, 4096)) of the array, read in row-major order, is regrouped as 32 groups of
  chunks of 100 words, two rows of fifty to a chunk: position (w, c, p) of the regrouped first block is the word at
  row 32·w + 2·c + p / 50 and column p mod 50; of the second, at row 1024 + 96·w + 2·c + p / 50. The other way,
  32 groups of 32 (or 96) rows of 128 read in row-major order as 1024 (or 3072) rows: row R is row R mod 32 of group
  R / 32 (R mod 96 of R / 96). Pure index arithmetic, for any contents.
-/
import Idealize.ShloMosaic.Lib.DynamicIndex
import Idealize.ShloMosaic.Lib.Pipeline.Value
import Idealize.ShloMosaic.Lib.ValueLayout

noncomputable section

namespace Cert.Proof.Regroup

open Idealize.ShloMosaic Idealize.ShloMosaic.ValueIdx

variable {α : Type}

/-- The first block (rows 0 to 1023) regrouped as 32 groups of 16 chunks of 100 words: position (w, c, p) is the
    word at row 32·w + 2·c + p / 50, column p mod 50. -/
theorem ids0_apply (ids : (⟨2, ![4096, 50]⟩ : Shape).Idx → α) (st : Fin 2 → Int) (h0 : st 0 = 0) (h1 : st 1 = 0)
    (hs : (⟨2, ![4096, 50]⟩ : Shape).Slices (fun _ => 0) ⟨2, ![1024, 50]⟩)
    (hc : (⟨2, ![1024, 50]⟩ : Shape).ShapeCasts ⟨3, ![32, 16, 100]⟩) (w : Fin 32) (c : Fin 16) (p : Fin 100) :
    shapeCast ⟨3, ![32, 16, 100]⟩ (Host.dynamicSlice ⟨2, ![1024, 50]⟩ ids st hs) hc (ix3 w c p)
      = ids (ix2 (⟨w.val * 32 + c.val * 2 + p.val / 50, by omega⟩ : Fin 4096) (⟨p.val % 50, by omega⟩ : Fin 50)) := by
  rw [shapeCast_apply _ hc (ix3 w c p)
    (ix2 (⟨w.val * 32 + c.val * 2 + p.val / 50, by omega⟩ : Fin 1024) (⟨p.val % 50, by omega⟩ : Fin 50)) (by
      rw [Shape.rowMajor_val_two, Shape.rowMajor_val_three]
      show (w.val * 32 + c.val * 2 + p.val / 50) * 50 + p.val % 50 = (w.val * 16 + c.val) * 100 + p.val
      omega)]
  rw [Host.dynamicSlice_eq_extractStridedSlice _ _ st (fun _ => 0) hs hs (fun a => match a with | ⟨0, _⟩ => h0 | ⟨1, _⟩ => h1)]
  exact extractStridedSlice_apply _ _ hs _ _ (fun a => match a with | ⟨0, _⟩ => (Nat.zero_add _).symm | ⟨1, _⟩ => (Nat.zero_add _).symm)

/-- The offsets of the second block: 1024 rows down. -/
abbrev off1 : Fin 2 → Nat := fun a => match a with | ⟨0, _⟩ => 1024 | ⟨1, _⟩ => 0

/-- The second block (rows 1024 to 4095) regrouped as 32 groups of 48 chunks of 100 words: position (w, c, p) is
    the word at row 1024 + 96·w + 2·c + p / 50, column p mod 50. -/
theorem ids1_apply (ids : (⟨2, ![4096, 50]⟩ : Shape).Idx → α) (st : Fin 2 → Int) (h0 : st 0 = 1024) (h1 : st 1 = 0)
    (hs : (⟨2, ![4096, 50]⟩ : Shape).Slices (fun _ => 0) ⟨2, ![3072, 50]⟩)
    (hc : (⟨2, ![3072, 50]⟩ : Shape).ShapeCasts ⟨3, ![32, 48, 100]⟩) (w : Fin 32) (c : Fin 48) (p : Fin 100) :
    shapeCast ⟨3, ![32, 48, 100]⟩ (Host.dynamicSlice ⟨2, ![3072, 50]⟩ ids st hs) hc (ix3 w c p)
      = ids (ix2 (⟨1024 + (w.val * 96 + c.val * 2 + p.val / 50), by omega⟩ : Fin 4096) (⟨p.val % 50, by omega⟩ : Fin 50)) := by
  rw [shapeCast_apply _ hc (ix3 w c p)
    (ix2 (⟨w.val * 96 + c.val * 2 + p.val / 50, by omega⟩ : Fin 3072) (⟨p.val % 50, by omega⟩ : Fin 50)) (by
      rw [Shape.rowMajor_val_two, Shape.rowMajor_val_three]
      show (w.val * 96 + c.val * 2 + p.val / 50) * 50 + p.val % 50 = (w.val * 48 + c.val) * 100 + p.val
      omega)]
  have hs' : (⟨2, ![4096, 50]⟩ : Shape).Slices off1 ⟨2, ![3072, 50]⟩ := by decide
  rw [Host.dynamicSlice_eq_extractStridedSlice _ _ st off1 hs hs' (fun a => match a with | ⟨0, _⟩ => h0 | ⟨1, _⟩ => h1)]
  exact extractStridedSlice_apply _ _ hs' _ _ (fun a => match a with | ⟨0, _⟩ => rfl | ⟨1, _⟩ => (Nat.zero_add _).symm)

/-- 32 groups of 32 rows read in row-major order as 1024 rows: row R is row R mod 32 of group R / 32. -/
theorem rows0_apply (x : (⟨3, ![32, 32, 128]⟩ : Shape).Idx → α)
    (hc : (⟨3, ![32, 32, 128]⟩ : Shape).ShapeCasts ⟨2, ![1024, 128]⟩) (R : Fin 1024) (q : Fin 128) :
    shapeCast ⟨2, ![1024, 128]⟩ x hc (ix2 R q) = x (ix3 (⟨R.val / 32, by omega⟩ : Fin 32) (⟨R.val % 32, by omega⟩ : Fin 32) q) := by
  refine shapeCast_apply _ hc _ _ ?_
  rw [Shape.rowMajor_val_two, Shape.rowMajor_val_three]
  show (R.val / 32 * 32 + R.val % 32) * 128 + q.val = R.val * 128 + q.val
  omega

/-- 32 groups of 96 rows read in row-major order as 3072 rows: row R is row R mod 96 of group R / 96. -/
theorem rows1_apply (x : (⟨3, ![32, 96, 128]⟩ : Shape).Idx → α)
    (hc : (⟨3, ![32, 96, 128]⟩ : Shape).ShapeCasts ⟨2, ![3072, 128]⟩) (R : Fin 3072) (q : Fin 128) :
    shapeCast ⟨2, ![3072, 128]⟩ x hc (ix2 R q) = x (ix3 (⟨R.val / 96, by omega⟩ : Fin 32) (⟨R.val % 96, by omega⟩ : Fin 96) q) := by
  refine shapeCast_apply _ hc _ _ ?_
  rw [Shape.rowMajor_val_two, Shape.rowMajor_val_three]
  show (R.val / 96 * 96 + R.val % 96) * 128 + q.val = R.val * 128 + q.val
  omega

end Cert.Proof.Regroup

end
-- ==== Proof.ArgsKept.lean ====
/-
  What the program never changes, for any float instance. No host operation, pooling call or product call writes an
  argument's array, so each argument ends as the launch found it. And the two index arrays the pooling calls read
  are the blocks of rows [0, 1024) and [1024, 4096) of the launch's index array, regrouped as 32 groups of chunks
  of 100 words: their words are words of that array, below the table's height when all of its words are.
-/
import proofs.«204104_g71330816851969_cont_9to1_m_219_17_alg».proof.Proof.MainII
import proofs.«204104_g71330816851969_cont_9to1_m_219_17_alg».proof.Proof.Regroup

noncomputable section
namespace Cert.Proof.KI
open Cert.KernelIdeal Cert.KernelIdeal.Gen
open Idealize.ShloMosaic Idealize.ShloMosaic.TcCoe
open Idealize.ShloMosaic.SparseCore (S V)
open Idealize.SL.Sem
open Idealize.ShloMosaic.StableHlo

variable {F : FTy → Type} [FloatOps F] [Named F] [∀ e, Nonempty (Elt F e)]
variable (m : (ℓ : Loc nD τ sig) → Buf (Elt F) ℓ) (inv0 zero0 inv1 zero1 : F .f32)

/-! ## The arguments are never written -/

theorem V1_a0 (d : Dev nD) : V1 m d (main_arg0 : DevRef τ sig) = m ((SparseCore.T d).loc main_arg0) := by
  unfold V1 ops0; after_results; rfl
theorem V2_a0 (d : Dev nD) : V2 m inv0 zero0 d (main_arg0 : DevRef τ sig) = m ((SparseCore.T d).loc main_arg0) :=
  (Function.update_of_ne (show (main_arg0 : DevRef τ sig) ≠ v3' by decide) _ _).trans (V1_a0 m d)
theorem V3_a0 (d : Dev nD) : V3 m inv0 zero0 d (main_arg0 : DevRef τ sig) = m ((SparseCore.T d).loc main_arg0) := by
  unfold V3 ops1; after_results; exact V2_a0 m inv0 zero0 d
theorem V4_a0 (d : Dev nD) : V4 m inv0 zero0 inv1 zero1 d (main_arg0 : DevRef τ sig) = m ((SparseCore.T d).loc main_arg0) :=
  (Function.update_of_ne (show (main_arg0 : DevRef τ sig) ≠ v7' by decide) _ _).trans (V3_a0 m inv0 zero0 d)
theorem V5_a0 (d : Dev nD) : V5 m inv0 zero0 inv1 zero1 d (main_arg0 : DevRef τ sig) = m ((SparseCore.T d).loc main_arg0) := by
  unfold V5 ops2; after_results; exact V4_a0 m inv0 zero0 inv1 zero1 d
theorem V6_a0 (d : Dev nD) : V6 m inv0 zero0 inv1 zero1 d (main_arg0 : DevRef τ sig) = m ((SparseCore.T d).loc main_arg0) :=
  (Function.update_of_ne (show (main_arg0 : DevRef τ sig) ≠ v9' by decide) _ _).trans (V5_a0 m inv0 zero0 inv1 zero1 d)
theorem V7_a0 (d : Dev nD) : V7 m inv0 zero0 inv1 zero1 d (main_arg0 : DevRef τ sig) = m ((SparseCore.T d).loc main_arg0) := by
  unfold V7 ops3; after_results; exact V6_a0 m inv0 zero0 inv1 zero1 d
/-- Argument 0 ends as the launch found it. -/
theorem V8_a0 (d : Dev nD) : V8 m inv0 zero0 inv1 zero1 d (main_arg0 : DevRef τ sig) = m ((SparseCore.T d).loc main_arg0) :=
  (Function.update_of_ne (show (main_arg0 : DevRef τ sig) ≠ v10' by decide) _ _).trans (V7_a0 m inv0 zero0 inv1 zero1 d)

theorem V1_a1 (d : Dev nD) : V1 m d (main_arg1 : DevRef τ sig) = m ((SparseCore.T d).loc main_arg1) := by
  unfold V1 ops0; after_results; rfl
theorem V2_a1 (d : Dev nD) : V2 m inv0 zero0 d (main_arg1 : DevRef τ sig) = m ((SparseCore.T d).loc main_arg1) :=
  (Function.update_of_ne (show (main_arg1 : DevRef τ sig) ≠ v3' by decide) _ _).trans (V1_a1 m d)
theorem V3_a1 (d : Dev nD) : V3 m inv0 zero0 d (main_arg1 : DevRef τ sig) = m ((SparseCore.T d).loc main_arg1) := by
  unfold V3 ops1; after_results; exact V2_a1 m inv0 zero0 d
theorem V4_a1 (d : Dev nD) : V4 m inv0 zero0 inv1 zero1 d (main_arg1 : DevRef τ sig) = m ((SparseCore.T d).loc main_arg1) :=
  (Function.update_of_ne (show (main_arg1 : DevRef τ sig) ≠ v7' by decide) _ _).trans (V3_a1 m inv0 zero0 d)
theorem V5_a1 (d : Dev nD) : V5 m inv0 zero0 inv1 zero1 d (main_arg1 : DevRef τ sig) = m ((SparseCore.T d).loc main_arg1) := by
  unfold V5 ops2; after_results; exact V4_a1 m inv0 zero0 inv1 zero1 d
theorem V6_a1 (d : Dev nD) : V6 m inv0 zero0 inv1 zero1 d (main_arg1 : DevRef τ sig) = m ((SparseCore.T d).loc main_arg1) :=
  (Function.update_of_ne (show (main_arg1 : DevRef τ sig) ≠ v9' by decide) _ _).trans (V5_a1 m inv0 zero0 inv1 zero1 d)
theorem V7_a1 (d : Dev nD) : V7 m inv0 zero0 inv1 zero1 d (main_arg1 : DevRef τ sig) = m ((SparseCore.T d).loc main_arg1) := by
  unfold V7 ops3; after_results; exact V6_a1 m inv0 zero0 inv1 zero1 d
/-- Argument 1 ends as the launch found it. -/
theorem V8_a1 (d : Dev nD) : V8 m inv0 zero0 inv1 zero1 d (main_arg1 : DevRef τ sig) = m ((SparseCore.T d).loc main_arg1) :=
  (Function.update_of_ne (show (main_arg1 : DevRef τ sig) ≠ v10' by decide) _ _).trans (V7_a1 m inv0 zero0 inv1 zero1 d)

theorem V1_a2 (d : Dev nD) : V1 m d (main_arg2 : DevRef τ sig) = m ((SparseCore.T d).loc main_arg2) := by
  unfold V1 ops0; after_results; rfl
theorem V2_a2 (d : Dev nD) : V2 m inv0 zero0 d (main_arg2 : DevRef τ sig) = m ((SparseCore.T d).loc main_arg2) :=
  (Function.update_of_ne (show (main_arg2 : DevRef τ sig) ≠ v3' by decide) _ _).trans (V1_a2 m d)
theorem V3_a2 (d : Dev nD) : V3 m inv0 zero0 d (main_arg2 : DevRef τ sig) = m ((SparseCore.T d).loc main_arg2) := by
  unfold V3 ops1; after_results; exact V2_a2 m inv0 zero0 d
theorem V4_a2 (d : Dev nD) : V4 m inv0 zero0 inv1 zero1 d (main_arg2 : DevRef τ sig) = m ((SparseCore.T d).loc main_arg2) :=
  (Function.update_of_ne (show (main_arg2 : DevRef τ sig) ≠ v7' by decide) _ _).trans (V3_a2 m inv0 zero0 d)
theorem V5_a2 (d : Dev nD) : V5 m inv0 zero0 inv1 zero1 d (main_arg2 : DevRef τ sig) = m ((SparseCore.T d).loc main_arg2) := by
  unfold V5 ops2; after_results; exact V4_a2 m inv0 zero0 inv1 zero1 d
theorem V6_a2 (d : Dev nD) : V6 m inv0 zero0 inv1 zero1 d (main_arg2 : DevRef τ sig) = m ((SparseCore.T d).loc main_arg2) :=
  (Function.update_of_ne (show (main_arg2 : DevRef τ sig) ≠ v9' by decide) _ _).trans (V5_a2 m inv0 zero0 inv1 zero1 d)
theorem V7_a2 (d : Dev nD) : V7 m inv0 zero0 inv1 zero1 d (main_arg2 : DevRef τ sig) = m ((SparseCore.T d).loc main_arg2) := by
  unfold V7 ops3; after_results; exact V6_a2 m inv0 zero0 inv1 zero1 d
/-- Argument 2 ends as the launch found it. -/
theorem V8_a2 (d : Dev nD) : V8 m inv0 zero0 inv1 zero1 d (main_arg2 : DevRef τ sig) = m ((SparseCore.T d).loc main_arg2) :=
  (Function.update_of_ne (show (main_arg2 : DevRef τ sig) ≠ v10' by decide) _ _).trans (V7_a2 m inv0 zero0 inv1 zero1 d)

theorem V1_a3 (d : Dev nD) : V1 m d (main_arg3 : DevRef τ sig) = m ((SparseCore.T d).loc main_arg3) := by
  unfold V1 ops0; after_results; rfl
theorem V2_a3 (d : Dev nD) : V2 m inv0 zero0 d (main_arg3 : DevRef τ sig) = m ((SparseCore.T d).loc main_arg3) :=
  (Function.update_of_ne (show (main_arg3 : DevRef τ sig) ≠ v3' by decide) _ _).trans (V1_a3 m d)
theorem V3_a3 (d : Dev nD) : V3 m inv0 zero0 d (main_arg3 : DevRef τ sig) = m ((SparseCore.T d).loc main_arg3) := by
  unfold V3 ops1; after_results; exact V2_a3 m inv0 zero0 d
theorem V4_a3 (d : Dev nD) : V4 m inv0 zero0 inv1 zero1 d (main_arg3 : DevRef τ sig) = m ((SparseCore.T d).loc main_arg3) :=
  (Function.update_of_ne (show (main_arg3 : DevRef τ sig) ≠ v7' by decide) _ _).trans (V3_a3 m inv0 zero0 d)
theorem V5_a3 (d : Dev nD) : V5 m inv0 zero0 inv1 zero1 d (main_arg3 : DevRef τ sig) = m ((SparseCore.T d).loc main_arg3) := by
  unfold V5 ops2; after_results; exact V4_a3 m inv0 zero0 inv1 zero1 d
theorem V6_a3 (d : Dev nD) : V6 m inv0 zero0 inv1 zero1 d (main_arg3 : DevRef τ sig) = m ((SparseCore.T d).loc main_arg3) :=
  (Function.update_of_ne (show (main_arg3 : DevRef τ sig) ≠ v9' by decide) _ _).trans (V5_a3 m inv0 zero0 inv1 zero1 d)
theorem V7_a3 (d : Dev nD) : V7 m inv0 zero0 inv1 zero1 d (main_arg3 : DevRef τ sig) = m ((SparseCore.T d).loc main_arg3) := by
  unfold V7 ops3; after_results; exact V6_a3 m inv0 zero0 inv1 zero1 d
/-- Argument 3 ends as the launch found it. -/
theorem V8_a3 (d : Dev nD) : V8 m inv0 zero0 inv1 zero1 d (main_arg3 : DevRef τ sig) = m ((SparseCore.T d).loc main_arg3) :=
  (Function.update_of_ne (show (main_arg3 : DevRef τ sig) ≠ v10' by decide) _ _).trans (V7_a3 m inv0 zero0 inv1 zero1 d)

theorem V1_a4 (d : Dev nD) : V1 m d (main_arg4 : DevRef τ sig) = m ((SparseCore.T d).loc main_arg4) := by
  unfold V1 ops0; after_results; rfl
theorem V2_a4 (d : Dev nD) : V2 m inv0 zero0 d (main_arg4 : DevRef τ sig) = m ((SparseCore.T d).loc main_arg4) :=
  (Function.update_of_ne (show (main_arg4 : DevRef τ sig) ≠ v3' by decide) _ _).trans (V1_a4 m d)
theorem V3_a4 (d : Dev nD) : V3 m inv0 zero0 d (main_arg4 : DevRef τ sig) = m ((SparseCore.T d).loc main_arg4) := by
  unfold V3 ops1; after_results; exact V2_a4 m inv0 zero0 d
theorem V4_a4 (d : Dev nD) : V4 m inv0 zero0 inv1 zero1 d (main_arg4 : DevRef τ sig) = m ((SparseCore.T d).loc main_arg4) :=
  (Function.update_of_ne (show (main_arg4 : DevRef τ sig) ≠ v7' by decide) _ _).trans (V3_a4 m inv0 zero0 d)
theorem V5_a4 (d : Dev nD) : V5 m inv0 zero0 inv1 zero1 d (main_arg4 : DevRef τ sig) = m ((SparseCore.T d).loc main_arg4) := by
  unfold V5 ops2; after_results; exact V4_a4 m inv0 zero0 inv1 zero1 d
theorem V6_a4 (d : Dev nD) : V6 m inv0 zero0 inv1 zero1 d (main_arg4 : DevRef τ sig) = m ((SparseCore.T d).loc main_arg4) :=
  (Function.update_of_ne (show (main_arg4 : DevRef τ sig) ≠ v9' by decide) _ _).trans (V5_a4 m inv0 zero0 inv1 zero1 d)
theorem V7_a4 (d : Dev nD) : V7 m inv0 zero0 inv1 zero1 d (main_arg4 : DevRef τ sig) = m ((SparseCore.T d).loc main_arg4) := by
  unfold V7 ops3; after_results; exact V6_a4 m inv0 zero0 inv1 zero1 d
/-- Argument 4 ends as the launch found it. -/
theorem V8_a4 (d : Dev nD) : V8 m inv0 zero0 inv1 zero1 d (main_arg4 : DevRef τ sig) = m ((SparseCore.T d).loc main_arg4) :=
  (Function.update_of_ne (show (main_arg4 : DevRef τ sig) ≠ v10' by decide) _ _).trans (V7_a4 m inv0 zero0 inv1 zero1 d)

theorem V1_a5 (d : Dev nD) : V1 m d (main_arg5 : DevRef τ sig) = m ((SparseCore.T d).loc main_arg5) := by
  unfold V1 ops0; after_results; rfl
theorem V2_a5 (d : Dev nD) : V2 m inv0 zero0 d (main_arg5 : DevRef τ sig) = m ((SparseCore.T d).loc main_arg5) :=
  (Function.update_of_ne (show (main_arg5 : DevRef τ sig) ≠ v3' by decide) _ _).trans (V1_a5 m d)
theorem V3_a5 (d : Dev nD) : V3 m inv0 zero0 d (main_arg5 : DevRef τ sig) = m ((SparseCore.T d).loc main_arg5) := by
  unfold V3 ops1; after_results; exact V2_a5 m inv0 zero0 d
theorem V4_a5 (d : Dev nD) : V4 m inv0 zero0 inv1 zero1 d (main_arg5 : DevRef τ sig) = m ((SparseCore.T d).loc main_arg5) :=
  (Function.update_of_ne (show (main_arg5 : DevRef τ sig) ≠ v7' by decide) _ _).trans (V3_a5 m inv0 zero0 d)
theorem V5_a5 (d : Dev nD) : V5 m inv0 zero0 inv1 zero1 d (main_arg5 : DevRef τ sig) = m ((SparseCore.T d).loc main_arg5) := by
  unfold V5 ops2; after_results; exact V4_a5 m inv0 zero0 inv1 zero1 d
theorem V6_a5 (d : Dev nD) : V6 m inv0 zero0 inv1 zero1 d (main_arg5 : DevRef τ sig) = m ((SparseCore.T d).loc main_arg5) :=
  (Function.update_of_ne (show (main_arg5 : DevRef τ sig) ≠ v9' by decide) _ _).trans (V5_a5 m inv0 zero0 inv1 zero1 d)
theorem V7_a5 (d : Dev nD) : V7 m inv0 zero0 inv1 zero1 d (main_arg5 : DevRef τ sig) = m ((SparseCore.T d).loc main_arg5) := by
  unfold V7 ops3; after_results; exact V6_a5 m inv0 zero0 inv1 zero1 d
/-- Argument 5 ends as the launch found it. -/
theorem V8_a5 (d : Dev nD) : V8 m inv0 zero0 inv1 zero1 d (main_arg5 : DevRef τ sig) = m ((SparseCore.T d).loc main_arg5) :=
  (Function.update_of_ne (show (main_arg5 : DevRef τ sig) ≠ v10' by decide) _ _).trans (V7_a5 m inv0 zero0 inv1 zero1 d)

/-! ## The pooling calls' index arrays are the launch's index array, regrouped -/

/-- The two spellings of a rank-3 index by its coordinates agree. -/
theorem ix3_eq {a b c : ℕ} (i : Fin a) (j : Fin b) (k : Fin c) : ix3 i j k = ValueIdx.ix3 i j k := by
  funext x
  match x with
  | ⟨0, _⟩ => rfl
  | ⟨1, _⟩ => rfl
  | ⟨2, _⟩ => rfl

/-- The first call's index array: position (w, c, p) is the word at row 32·w + 2·c + p / 50, column p mod 50 of the
    launch's index array. -/
theorem V1_v2_apply (d : Dev nD) (w : Fin 32) (c : Fin 16) (p : Fin 100) :
    V1 m d v2' (ix3 w c p)
      = m ((SparseCore.T d).loc main_arg0) (ValueIdx.ix2 (⟨w.val * 32 + c.val * 2 + p.val / 50, by omega⟩ : Fin 4096) (⟨p.val % 50, by omega⟩ : Fin 50)) := by
  refine (congrArg (V1 m d v2') (ix3_eq w c p)).trans ?_
  unfold V1 ops0
  after_results
  exact Cert.Proof.Regroup.ids0_apply (m ((SparseCore.T d).loc main_arg0)) _ rfl rfl sliceFits_S4096x50_S1024x50 shapeCasts_S1024x50_S32x16x100 w c p

/-- The second call's: position (w, c, p) is the word at row 1024 + 96·w + 2·c + p / 50, column p mod 50. -/
theorem V3_v6_apply (d : Dev nD) (w : Fin 32) (c : Fin 48) (p : Fin 100) :
    V3 m inv0 zero0 d v6' (ix3 w c p)
      = m ((SparseCore.T d).loc main_arg0) (ValueIdx.ix2 (⟨1024 + (w.val * 96 + c.val * 2 + p.val / 50), by omega⟩ : Fin 4096) (⟨p.val % 50, by omega⟩ : Fin 50)) := by
  refine (congrArg (V3 m inv0 zero0 d v6') (ix3_eq w c p)).trans ?_
  unfold V3 ops1
  after_results
  refine (Cert.Proof.Regroup.ids1_apply (V2 m inv0 zero0 d (main_arg0 : DevRef τ sig)) _ rfl rfl sliceFits_S4096x50_S3072x50 shapeCasts_S3072x50_S32x48x100 w c p).trans ?_
  exact congrFun (V2_a0 m inv0 zero0 d) _

/-- Every rank-3 index is the index of its coordinates. -/
theorem eq_ix3' {a b c : ℕ} (x : (⟨3, ![a, b, c]⟩ : Shape).Idx) : x = ix3 (x 0) (x 1) (x 2) := by
  funext k
  match k with
  | ⟨0, _⟩ => rfl
  | ⟨1, _⟩ => rfl
  | ⟨2, _⟩ => rfl

/-- So where every word of the launch's index array is below 100000, every word the first pooling call reads is, -/
theorem ids0_lt (d : Dev nD) (hr : ∀ i, (show BitVec 32 from m ((SparseCore.T d).loc main_arg0) i).toNat < 100000) :
    ∀ x : S32x16x100.Idx, (show BitVec 32 from V1 m d v2' x).toNat < 100000 := by
  intro x
  have e : (show BitVec 32 from V1 m d v2' x) = (show BitVec 32 from m ((SparseCore.T d).loc main_arg0) _) :=
    (congrArg (V1 m d v2') (eq_ix3' x)).trans (V1_v2_apply m d (x 0) (x 1) (x 2))
  exact lt_of_eq_of_lt (congrArg BitVec.toNat e) (hr _)

/-- and every word the second reads. -/
theorem ids1_lt (d : Dev nD) (hr : ∀ i, (show BitVec 32 from m ((SparseCore.T d).loc main_arg0) i).toNat < 100000) :
    ∀ x : S32x48x100.Idx, (show BitVec 32 from V3 m inv0 zero0 d v6' x).toNat < 100000 := by
  intro x
  have e : (show BitVec 32 from V3 m inv0 zero0 d v6' x) = (show BitVec 32 from m ((SparseCore.T d).loc main_arg0) _) :=
    (congrArg (V3 m inv0 zero0 d v6') (eq_ix3' x)).trans (V3_v6_apply m inv0 zero0 d (x 0) (x 1) (x 2))
  exact lt_of_eq_of_lt (congrArg BitVec.toNat e) (hr _)

end Cert.Proof.KI
end
-- ==== Proof.B.ArgsKept.lean ====
/-
  What the program never changes, for any float instance. No host operation, pooling call or product call writes an
  argument's array, so each argument ends as the launch found it. And the two index arrays the pooling calls read
  are the blocks of rows [0, 1024) and [1024, 4096) of the launch's index array, regrouped as 32 groups of chunks
  of 100 words: their words are words of that array, below the table's height when all of its words are.
-/
import proofs.«204104_g71330816851969_cont_9to1_m_219_17_alg».proof.Proof.B.MainII
import proofs.«204104_g71330816851969_cont_9to1_m_219_17_alg».proof.Proof.Regroup

noncomputable section
namespace Cert.Proof.KB
open Cert.Kernel Cert.Kernel.Gen
open Idealize.ShloMosaic Idealize.ShloMosaic.TcCoe
open Idealize.ShloMosaic.SparseCore (S V)
open Idealize.SL.Sem
open Idealize.ShloMosaic.StableHlo

variable {F : FTy → Type} [FloatOps F] [∀ e, Nonempty (Elt F e)]
variable (m : (ℓ : Loc nD τ sig) → Buf (Elt F) ℓ) (inv0 zero0 inv1 zero1 : F .f32)

/-! ## The arguments are never written -/

theorem V1_a0 (d : Dev nD) : V1 m d (main_arg0 : DevRef τ sig) = m ((SparseCore.T d).loc main_arg0) := by
  unfold V1 ops0; after_results; rfl
theorem V2_a0 (d : Dev nD) : V2 m inv0 zero0 d (main_arg0 : DevRef τ sig) = m ((SparseCore.T d).loc main_arg0) :=
  (Function.update_of_ne (show (main_arg0 : DevRef τ sig) ≠ v3' by decide) _ _).trans (V1_a0 m d)
theorem V3_a0 (d : Dev nD) : V3 m inv0 zero0 d (main_arg0 : DevRef τ sig) = m ((SparseCore.T d).loc main_arg0) := by
  unfold V3 ops1; after_results; exact V2_a0 m inv0 zero0 d
theorem V4_a0 (d : Dev nD) : V4 m inv0 zero0 inv1 zero1 d (main_arg0 : DevRef τ sig) = m ((SparseCore.T d).loc main_arg0) :=
  (Function.update_of_ne (show (main_arg0 : DevRef τ sig) ≠ v7' by decide) _ _).trans (V3_a0 m inv0 zero0 d)
theorem V5_a0 (d : Dev nD) : V5 m inv0 zero0 inv1 zero1 d (main_arg0 : DevRef τ sig) = m ((SparseCore.T d).loc main_arg0) := by
  unfold V5 ops2; after_results; exact V4_a0 m inv0 zero0 inv1 zero1 d
theorem V6_a0 (d : Dev nD) : V6 m inv0 zero0 inv1 zero1 d (main_arg0 : DevRef τ sig) = m ((SparseCore.T d).loc main_arg0) :=
  (Function.update_of_ne (show (main_arg0 : DevRef τ sig) ≠ v9' by decide) _ _).trans (V5_a0 m inv0 zero0 inv1 zero1 d)
theorem V7_a0 (d : Dev nD) : V7 m inv0 zero0 inv1 zero1 d (main_arg0 : DevRef τ sig) = m ((SparseCore.T d).loc main_arg0) := by
  unfold V7 ops3; after_results; exact V6_a0 m inv0 zero0 inv1 zero1 d
/-- Argument 0 ends as the launch found it. -/
theorem V8_a0 (d : Dev nD) : V8 m inv0 zero0 inv1 zero1 d (main_arg0 : DevRef τ sig) = m ((SparseCore.T d).loc main_arg0) :=
  (Function.update_of_ne (show (main_arg0 : DevRef τ sig) ≠ v10' by decide) _ _).trans (V7_a0 m inv0 zero0 inv1 zero1 d)

theorem V1_a1 (d : Dev nD) : V1 m d (main_arg1 : DevRef τ sig) = m ((SparseCore.T d).loc main_arg1) := by
  unfold V1 ops0; after_results; rfl
theorem V2_a1 (d : Dev nD) : V2 m inv0 zero0 d (main_arg1 : DevRef τ sig) = m ((SparseCore.T d).loc main_arg1) :=
  (Function.update_of_ne (show (main_arg1 : DevRef τ sig) ≠ v3' by decide) _ _).trans (V1_a1 m d)
theorem V3_a1 (d : Dev nD) : V3 m inv0 zero0 d (main_arg1 : DevRef τ sig) = m ((SparseCore.T d).loc main_arg1) := by
  unfold V3 ops1; after_results; exact V2_a1 m inv0 zero0 d
theorem V4_a1 (d : Dev nD) : V4 m inv0 zero0 inv1 zero1 d (main_arg1 : DevRef τ sig) = m ((SparseCore.T d).loc main_arg1) :=
  (Function.update_of_ne (show (main_arg1 : DevRef τ sig) ≠ v7' by decide) _ _).trans (V3_a1 m inv0 zero0 d)
theorem V5_a1 (d : Dev nD) : V5 m inv0 zero0 inv1 zero1 d (main_arg1 : DevRef τ sig) = m ((SparseCore.T d).loc main_arg1) := by
  unfold V5 ops2; after_results; exact V4_a1 m inv0 zero0 inv1 zero1 d
theorem V6_a1 (d : Dev nD) : V6 m inv0 zero0 inv1 zero1 d (main_arg1 : DevRef τ sig) = m ((SparseCore.T d).loc main_arg1) :=
  (Function.update_of_ne (show (main_arg1 : DevRef τ sig) ≠ v9' by decide) _ _).trans (V5_a1 m inv0 zero0 inv1 zero1 d)
theorem V7_a1 (d : Dev nD) : V7 m inv0 zero0 inv1 zero1 d (main_arg1 : DevRef τ sig) = m ((SparseCore.T d).loc main_arg1) := by
  unfold V7 ops3; after_results; exact V6_a1 m inv0 zero0 inv1 zero1 d
/-- Argument 1 ends as the launch found it. -/
theorem V8_a1 (d : Dev nD) : V8 m inv0 zero0 inv1 zero1 d (main_arg1 : DevRef τ sig) = m ((SparseCore.T d).loc main_arg1) :=
  (Function.update_of_ne (show (main_arg1 : DevRef τ sig) ≠ v10' by decide) _ _).trans (V7_a1 m inv0 zero0 inv1 zero1 d)

theorem V1_a2 (d : Dev nD) : V1 m d (main_arg2 : DevRef τ sig) = m ((SparseCore.T d).loc main_arg2) := by
  unfold V1 ops0; after_results; rfl
theorem V2_a2 (d : Dev nD) : V2 m inv0 zero0 d (main_arg2 : DevRef τ sig) = m ((SparseCore.T d).loc main_arg2) :=
  (Function.update_of_ne (show (main_arg2 : DevRef τ sig) ≠ v3' by decide) _ _).trans (V1_a2 m d)
theorem V3_a2 (d : Dev nD) : V3 m inv0 zero0 d (main_arg2 : DevRef τ sig) = m ((SparseCore.T d).loc main_arg2) := by
  unfold V3 ops1; after_results; exact V2_a2 m inv0 zero0 d
theorem V4_a2 (d : Dev nD) : V4 m inv0 zero0 inv1 zero1 d (main_arg2 : DevRef τ sig) = m ((SparseCore.T d).loc main_arg2) :=
  (Function.update_of_ne (show (main_arg2 : DevRef τ sig) ≠ v7' by decide) _ _).trans (V3_a2 m inv0 zero0 d)
theorem V5_a2 (d : Dev nD) : V5 m inv0 zero0 inv1 zero1 d (main_arg2 : DevRef τ sig) = m ((SparseCore.T d).loc main_arg2) := by
  unfold V5 ops2; after_results; exact V4_a2 m inv0 zero0 inv1 zero1 d
theorem V6_a2 (d : Dev nD) : V6 m inv0 zero0 inv1 zero1 d (main_arg2 : DevRef τ sig) = m ((SparseCore.T d).loc main_arg2) :=
  (Function.update_of_ne (show (main_arg2 : DevRef τ sig) ≠ v9' by decide) _ _).trans (V5_a2 m inv0 zero0 inv1 zero1 d)
theorem V7_a2 (d : Dev nD) : V7 m inv0 zero0 inv1 zero1 d (main_arg2 : DevRef τ sig) = m ((SparseCore.T d).loc main_arg2) := by
  unfold V7 ops3; after_results; exact V6_a2 m inv0 zero0 inv1 zero1 d
/-- Argument 2 ends as the launch found it. -/
theorem V8_a2 (d : Dev nD) : V8 m inv0 zero0 inv1 zero1 d (main_arg2 : DevRef τ sig) = m ((SparseCore.T d).loc main_arg2) :=
  (Function.update_of_ne (show (main_arg2 : DevRef τ sig) ≠ v10' by decide) _ _).trans (V7_a2 m inv0 zero0 inv1 zero1 d)

theorem V1_a3 (d : Dev nD) : V1 m d (main_arg3 : DevRef τ sig) = m ((SparseCore.T d).loc main_arg3) := by
  unfold V1 ops0; after_results; rfl
theorem V2_a3 (d : Dev nD) : V2 m inv0 zero0 d (main_arg3 : DevRef τ sig) = m ((SparseCore.T d).loc main_arg3) :=
  (Function.update_of_ne (show (main_arg3 : DevRef τ sig) ≠ v3' by decide) _ _).trans (V1_a3 m d)
theorem V3_a3 (d : Dev nD) : V3 m inv0 zero0 d (main_arg3 : DevRef τ sig) = m ((SparseCore.T d).loc main_arg3) := by
  unfold V3 ops1; after_results; exact V2_a3 m inv0 zero0 d
theorem V4_a3 (d : Dev nD) : V4 m inv0 zero0 inv1 zero1 d (main_arg3 : DevRef τ sig) = m ((SparseCore.T d).loc main_arg3) :=
  (Function.update_of_ne (show (main_arg3 : DevRef τ sig) ≠ v7' by decide) _ _).trans (V3_a3 m inv0 zero0 d)
theorem V5_a3 (d : Dev nD) : V5 m inv0 zero0 inv1 zero1 d (main_arg3 : DevRef τ sig) = m ((SparseCore.T d).loc main_arg3) := by
  unfold V5 ops2; after_results; exact V4_a3 m inv0 zero0 inv1 zero1 d
theorem V6_a3 (d : Dev nD) : V6 m inv0 zero0 inv1 zero1 d (main_arg3 : DevRef τ sig) = m ((SparseCore.T d).loc main_arg3) :=
  (Function.update_of_ne (show (main_arg3 : DevRef τ sig) ≠ v9' by decide) _ _).trans (V5_a3 m inv0 zero0 inv1 zero1 d)
theorem V7_a3 (d : Dev nD) : V7 m inv0 zero0 inv1 zero1 d (main_arg3 : DevRef τ sig) = m ((SparseCore.T d).loc main_arg3) := by
  unfold V7 ops3; after_results; exact V6_a3 m inv0 zero0 inv1 zero1 d
/-- Argument 3 ends as the launch found it. -/
theorem V8_a3 (d : Dev nD) : V8 m inv0 zero0 inv1 zero1 d (main_arg3 : DevRef τ sig) = m ((SparseCore.T d).loc main_arg3) :=
  (Function.update_of_ne (show (main_arg3 : DevRef τ sig) ≠ v10' by decide) _ _).trans (V7_a3 m inv0 zero0 inv1 zero1 d)

theorem V1_a4 (d : Dev nD) : V1 m d (main_arg4 : DevRef τ sig) = m ((SparseCore.T d).loc main_arg4) := by
  unfold V1 ops0; after_results; rfl
theorem V2_a4 (d : Dev nD) : V2 m inv0 zero0 d (main_arg4 : DevRef τ sig) = m ((SparseCore.T d).loc main_arg4) :=
  (Function.update_of_ne (show (main_arg4 : DevRef τ sig) ≠ v3' by decide) _ _).trans (V1_a4 m d)
theorem V3_a4 (d : Dev nD) : V3 m inv0 zero0 d (main_arg4 : DevRef τ sig) = m ((SparseCore.T d).loc main_arg4) := by
  unfold V3 ops1; after_results; exact V2_a4 m inv0 zero0 d
theorem V4_a4 (d : Dev nD) : V4 m inv0 zero0 inv1 zero1 d (main_arg4 : DevRef τ sig) = m ((SparseCore.T d).loc main_arg4) :=
  (Function.update_of_ne (show (main_arg4 : DevRef τ sig) ≠ v7' by decide) _ _).trans (V3_a4 m inv0 zero0 d)
theorem V5_a4 (d : Dev nD) : V5 m inv0 zero0 inv1 zero1 d (main_arg4 : DevRef τ sig) = m ((SparseCore.T d).loc main_arg4) := by
  unfold V5 ops2; after_results; exact V4_a4 m inv0 zero0 inv1 zero1 d
theorem V6_a4 (d : Dev nD) : V6 m inv0 zero0 inv1 zero1 d (main_arg4 : DevRef τ sig) = m ((SparseCore.T d).loc main_arg4) :=
  (Function.update_of_ne (show (main_arg4 : DevRef τ sig) ≠ v9' by decide) _ _).trans (V5_a4 m inv0 zero0 inv1 zero1 d)
theorem V7_a4 (d : Dev nD) : V7 m inv0 zero0 inv1 zero1 d (main_arg4 : DevRef τ sig) = m ((SparseCore.T d).loc main_arg4) := by
  unfold V7 ops3; after_results; exact V6_a4 m inv0 zero0 inv1 zero1 d
/-- Argument 4 ends as the launch found it. -/
theorem V8_a4 (d : Dev nD) : V8 m inv0 zero0 inv1 zero1 d (main_arg4 : DevRef τ sig) = m ((SparseCore.T d).loc main_arg4) :=
  (Function.update_of_ne (show (main_arg4 : DevRef τ sig) ≠ v10' by decide) _ _).trans (V7_a4 m inv0 zero0 inv1 zero1 d)

theorem V1_a5 (d : Dev nD) : V1 m d (main_arg5 : DevRef τ sig) = m ((SparseCore.T d).loc main_arg5) := by
  unfold V1 ops0; after_results; rfl
theorem V2_a5 (d : Dev nD) : V2 m inv0 zero0 d (main_arg5 : DevRef τ sig) = m ((SparseCore.T d).loc main_arg5) :=
  (Function.update_of_ne (show (main_arg5 : DevRef τ sig) ≠ v3' by decide) _ _).trans (V1_a5 m d)
theorem V3_a5 (d : Dev nD) : V3 m inv0 zero0 d (main_arg5 : DevRef τ sig) = m ((SparseCore.T d).loc main_arg5) := by
  unfold V3 ops1; after_results; exact V2_a5 m inv0 zero0 d
theorem V4_a5 (d : Dev nD) : V4 m inv0 zero0 inv1 zero1 d (main_arg5 : DevRef τ sig) = m ((SparseCore.T d).loc main_arg5) :=
  (Function.update_of_ne (show (main_arg5 : DevRef τ sig) ≠ v7' by decide) _ _).trans (V3_a5 m inv0 zero0 d)
theorem V5_a5 (d : Dev nD) : V5 m inv0 zero0 inv1 zero1 d (main_arg5 : DevRef τ sig) = m ((SparseCore.T d).loc main_arg5) := by
  unfold V5 ops2; after_results; exact V4_a5 m inv0 zero0 inv1 zero1 d
theorem V6_a5 (d : Dev nD) : V6 m inv0 zero0 inv1 zero1 d (main_arg5 : DevRef τ sig) = m ((SparseCore.T d).loc main_arg5) :=
  (Function.update_of_ne (show (main_arg5 : DevRef τ sig) ≠ v9' by decide) _ _).trans (V5_a5 m inv0 zero0 inv1 zero1 d)
theorem V7_a5 (d : Dev nD) : V7 m inv0 zero0 inv1 zero1 d (main_arg5 : DevRef τ sig) = m ((SparseCore.T d).loc main_arg5) := by
  unfold V7 ops3; after_results; exact V6_a5 m inv0 zero0 inv1 zero1 d
/-- Argument 5 ends as the launch found it. -/
theorem V8_a5 (d : Dev nD) : V8 m inv0 zero0 inv1 zero1 d (main_arg5 : DevRef τ sig) = m ((SparseCore.T d).loc main_arg5) :=
  (Function.update_of_ne (show (main_arg5 : DevRef τ sig) ≠ v10' by decide) _ _).trans (V7_a5 m inv0 zero0 inv1 zero1 d)

/-! ## The pooling calls' index arrays are the launch's index array, regrouped -/

/-- The two spellings of a rank-3 index by its coordinates agree. -/
theorem ix3_eq {a b c : ℕ} (i : Fin a) (j : Fin b) (k : Fin c) : ix3 i j k = ValueIdx.ix3 i j k := by
  funext x
  match x with
  | ⟨0, _⟩ => rfl
  | ⟨1, _⟩ => rfl
  | ⟨2, _⟩ => rfl

/-- The first call's index array: position (w, c, p) is the word at row 32·w + 2·c + p / 50, column p mod 50 of the
    launch's index array. -/
theorem V1_v2_apply (d : Dev nD) (w : Fin 32) (c : Fin 16) (p : Fin 100) :
    V1 m d v2' (ix3 w c p)
      = m ((SparseCore.T d).loc main_arg0) (ValueIdx.ix2 (⟨w.val * 32 + c.val * 2 + p.val / 50, by omega⟩ : Fin 4096) (⟨p.val % 50, by omega⟩ : Fin 50)) := by
  refine (congrArg (V1 m d v2') (ix3_eq w c p)).trans ?_
  unfold V1 ops0
  after_results
  exact Cert.Proof.Regroup.ids0_apply (m ((SparseCore.T d).loc main_arg0)) _ rfl rfl sliceFits_S4096x50_S1024x50 shapeCasts_S1024x50_S32x16x100 w c p

/-- The second call's: position (w, c, p) is the word at row 1024 + 96·w + 2·c + p / 50, column p mod 50. -/
theorem V3_v6_apply (d : Dev nD) (w : Fin 32) (c : Fin 48) (p : Fin 100) :
    V3 m inv0 zero0 d v6' (ix3 w c p)
      = m ((SparseCore.T d).loc main_arg0) (ValueIdx.ix2 (⟨1024 + (w.val * 96 + c.val * 2 + p.val / 50), by omega⟩ : Fin 4096) (⟨p.val % 50, by omega⟩ : Fin 50)) := by
  refine (congrArg (V3 m inv0 zero0 d v6') (ix3_eq w c p)).trans ?_
  unfold V3 ops1
  after_results
  refine (Cert.Proof.Regroup.ids1_apply (V2 m inv0 zero0 d (main_arg0 : DevRef τ sig)) _ rfl rfl sliceFits_S4096x50_S3072x50 shapeCasts_S3072x50_S32x48x100 w c p).trans ?_
  exact congrFun (V2_a0 m inv0 zero0 d) _

/-- Every rank-3 index is the index of its coordinates. -/
theorem eq_ix3' {a b c : ℕ} (x : (⟨3, ![a, b, c]⟩ : Shape).Idx) : x = ix3 (x 0) (x 1) (x 2) := by
  funext k
  match k with
  | ⟨0, _⟩ => rfl
  | ⟨1, _⟩ => rfl
  | ⟨2, _⟩ => rfl

/-- So where every word of the launch's index array is below 100000, every word the first pooling call reads is, -/
theorem ids0_lt (d : Dev nD) (hr : ∀ i, (show BitVec 32 from m ((SparseCore.T d).loc main_arg0) i).toNat < 100000) :
    ∀ x : S32x16x100.Idx, (show BitVec 32 from V1 m d v2' x).toNat < 100000 := by
  intro x
  have e : (show BitVec 32 from V1 m d v2' x) = (show BitVec 32 from m ((SparseCore.T d).loc main_arg0) _) :=
    (congrArg (V1 m d v2') (eq_ix3' x)).trans (V1_v2_apply m d (x 0) (x 1) (x 2))
  exact lt_of_eq_of_lt (congrArg BitVec.toNat e) (hr _)

/-- and every word the second reads. -/
theorem ids1_lt (d : Dev nD) (hr : ∀ i, (show BitVec 32 from m ((SparseCore.T d).loc main_arg0) i).toNat < 100000) :
    ∀ x : S32x48x100.Idx, (show BitVec 32 from V3 m inv0 zero0 d v6' x).toNat < 100000 := by
  intro x
  have e : (show BitVec 32 from V3 m inv0 zero0 d v6' x) = (show BitVec 32 from m ((SparseCore.T d).loc main_arg0) _) :=
    (congrArg (V3 m inv0 zero0 d v6') (eq_ix3' x)).trans (V3_v6_apply m inv0 zero0 d (x 0) (x 1) (x 2))
  exact lt_of_eq_of_lt (congrArg BitVec.toNat e) (hr _)

end Cert.Proof.KB
end
-- ==== Proof.RegionsVal.lean ====
import proofs.«204104_g71330816851969_cont_9to1_m_219_17_alg».proof.Proof.Common
import proofs.«204104_g71330816851969_cont_9to1_m_219_17_alg».proof.Proof.Gen.KernelIdeal.Skeleton
import proofs.«204104_g71330816851969_cont_9to1_m_219_17_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«204104_g71330816851969_cont_9to1_m_219_17_alg».proof.Proof.RegionsWp
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 2) (Elt F) ℕ UU ℕ

variable [∀ e, Nonempty (Elt F e)]

/-! ## What the calls leave in their result arrays, read

The result array after a call is the library's account of the write-backs (`res2`, `res3`). Read here: the block a
grid point wrote is the product of that point's row block with the transposed weights plus the bias row (the body's
one payload), the points' blocks being pairwise disjoint; an element no point's block covers is as the call found it. -/

theorem out2_eq (x0 : Vec F S512x128 .f32) (x1 : Vec F S10000x128 .f32) (x2 : Vec F S1x10000 .f32) :
    out2 x0 x1 x2 = k2_pay1 x0 x1 x2 := by
  unfold out2 rO rX rW rB
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

section Read

variable (d : Dev nD) (V : (b : Ref sig .tc) → Buf (Elt F) ((d : Thread nD τ).loc b))

/-- Membership in the block of the result a point writes back: on each axis, within the block's extent from the block
    index times the block's size. -/
theorem mem_blk2 (t : Fin cfg2.N) (i : S4096x10000.Idx) :
    i ∈ ((cfg2.win 3).blk t).view.set ↔ ∀ a : Fin 2, win2_3.index t a * win2_3.size a ≤ (i a).val ∧ (i a).val < win2_3.index t a * win2_3.size a + win2_3.size a := by
  show i ∈ ((View.whole main_v9).slice (win2_3.rect t)).set ↔ _
  rw [View.set_slice_whole, Rect.mem_set_unit]; exact Iff.rfl

/-- The result's block index is the point, its row extent 512. -/
theorem idx2 : ∀ t : Fin cfg2.N, win2_3.index t 0 = t.val ∧ win2_3.size 0 = 512 ∧ win2_3.index t 1 = 0 ∧ win2_3.size 1 = 10000 :=
  (by decide +kernel : ∀ t : Fin grid2.N, win2_3.index t 0 = t.val ∧ win2_3.size 0 = 512 ∧ win2_3.index t 1 = 0 ∧ win2_3.size 1 = 10000)

/-- Two points' blocks of the result are disjoint. -/
theorem disj2 (t t' : Fin cfg2.N) (_ : (cfg2.win 3).flush t = true) (_ : (cfg2.win 3).flush t' = true) (hne : t ≠ t') :
    Disjoint ((cfg2.win 3).blk t).view.set ((cfg2.win 3).blk t').view.set := by
  rw [Finset.disjoint_left]
  intro i hi hi'
  rw [mem_blk2] at hi hi'
  have h0 := hi 0; have h0' := hi' 0
  obtain ⟨e, s, -, -⟩ := idx2 t; obtain ⟨e', s', -, -⟩ := idx2 t'
  rw [e, s] at h0; rw [e', s'] at h0'
  exact hne (Fin.ext (by omega))

/-- The block of the result array point `t` wrote, read back after the call. -/
theorem res2_blk (t : Fin cfg2.N) :
    ((cfg2.win 3).blk t).view.read (Elt F) (res2 d V) = k2_pay1 (blk2 d V 0 t) (blk2 d V 1 t) (blk2 d V 2 t) := by
  unfold res2
  rw [(dat2 d V).read_blk_arrAt_eq_flushed 3 (disj2) cfg2.N t t.isLt (flush2_3 t)]
  show (dat2 d V).after 3 t = _
  rw [after2_3, out2_eq]

/-- An element of the result array in no point's block is as the call found it. -/
theorem res2_rest (i : S4096x10000.Idx) (hno : ∀ t : Fin cfg2.N, i ∉ ((cfg2.win 3).blk t).view.set) :
    res2 d V i = V main_v9 i := by
  unfold res2
  exact (dat2 d V).arrAt_apply_of_forall_not_mem 3 cfg2.N i fun t _ _ => hno t

/-- The same element by element: the element of the result array under element `y` of point `t`'s block. -/
theorem res2_emb (t : Fin cfg2.N) (y : S512x10000.Idx) :
    res2 d V (((cfg2.win 3).blk t).view.emb y) = k2_pay1 (blk2 d V 0 t) (blk2 d V 1 t) (blk2 d V 2 t) y := by
  unfold res2
  rw [(dat2 d V).arrAt_emb_eq_flushed 3 (disj2) t (flush2_3 t) y, cast_eq]
  show (dat2 d V).after 3 t y = _
  rw [after2_3, out2_eq]

/-- Where that element sits: row `512 t + y₀`, column `y₁`. -/
theorem blk2_emb_val (t : Fin cfg2.N) (y : S512x10000.Idx) :
    ((((cfg2.win 3).blk t).view.emb y) 0).val = 512 * t.val + (y 0).val ∧ ((((cfg2.win 3).blk t).view.emb y) 1).val = (y 1).val := by
  obtain ⟨e0, s0, e1, s1⟩ := idx2 t
  have h0 := win2_3.rect_emb_val t y 0
  have h1 := win2_3.rect_emb_val t y 1
  rw [e0, s0] at h0; rw [e1, s1] at h1
  exact ⟨by rw [show ((((cfg2.win 3).blk t).view.emb y) 0).val = ((win2_3.rect t).emb y 0 : Nat) from rfl, h0]; omega,
    by rw [show ((((cfg2.win 3).blk t).view.emb y) 1).val = ((win2_3.rect t).emb y 1 : Nat) from rfl, h1]; omega⟩

/-- ROWS BELOW 1024: row `512 t + y₀`, column `y₁` of the result is the product's element `y` at point `t`. -/
theorem res2_at (i : S4096x10000.Idx) (t : Fin cfg2.N) (y : S512x10000.Idx)
    (h0 : (i 0).val = 512 * t.val + (y 0).val) (h1 : (i 1).val = (y 1).val) :
    res2 d V i = k2_pay1 (blk2 d V 0 t) (blk2 d V 1 t) (blk2 d V 2 t) y := by
  obtain ⟨e0, e1⟩ := blk2_emb_val t y
  have hi : i = ((cfg2.win 3).blk t).view.emb y := by
    funext a; apply Fin.ext
    fin_cases a
    · exact h0.trans e0.symm
    · exact h1.trans e1.symm
  rw [hi]; exact res2_emb d V t y

/-- ROWS FROM 1024 ON are as the call found them. -/
theorem res2_above (i : S4096x10000.Idx) (hi : 1024 ≤ (i 0).val) : res2 d V i = V main_v9 i := by
  refine res2_rest d V i fun t hm => ?_
  rw [mem_blk2] at hm
  obtain ⟨e0, s0, -, -⟩ := idx2 t
  have h := (hm 0).2
  rw [e0, s0] at h
  have ht : t.val < 2 := N_2 ▸ t.isLt
  omega

end Read

/-! ### The second call -/

theorem out3_eq (x0 : Vec F S512x128 .f32) (x1 : Vec F S10000x128 .f32) (x2 : Vec F S1x10000 .f32) :
    out3 x0 x1 x2 = k3_pay1 x0 x1 x2 := by
  unfold out3 rO rX rW rB
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

section Read3

variable (d : Dev nD) (V : (b : Ref sig .tc) → Buf (Elt F) ((d : Thread nD τ).loc b))

/-- Membership in the block of the result a point writes back: on each axis, within the block's extent from the block
    index times the block's size. -/
theorem mem_blk3 (t : Fin cfg3.N) (i : S4096x10000.Idx) :
    i ∈ ((cfg3.win 3).blk t).view.set ↔ ∀ a : Fin 2, win3_3.index t a * win3_3.size a ≤ (i a).val ∧ (i a).val < win3_3.index t a * win3_3.size a + win3_3.size a := by
  show i ∈ ((View.whole main_v10).slice (win3_3.rect t)).set ↔ _
  rw [View.set_slice_whole, Rect.mem_set_unit]; exact Iff.rfl

/-- The result's block index is the point's, two blocks on (the first call's rows come first); its row extent 512. -/
theorem idx3 : ∀ t : Fin cfg3.N, win3_3.index t 0 = t.val + 2 ∧ win3_3.size 0 = 512 ∧ win3_3.index t 1 = 0 ∧ win3_3.size 1 = 10000 :=
  (by decide +kernel : ∀ t : Fin grid3.N, win3_3.index t 0 = t.val + 2 ∧ win3_3.size 0 = 512 ∧ win3_3.index t 1 = 0 ∧ win3_3.size 1 = 10000)

/-- Two points' blocks of the result are disjoint. -/
theorem disj3 (t t' : Fin cfg3.N) (_ : (cfg3.win 3).flush t = true) (_ : (cfg3.win 3).flush t' = true) (hne : t ≠ t') :
    Disjoint ((cfg3.win 3).blk t).view.set ((cfg3.win 3).blk t').view.set := by
  rw [Finset.disjoint_left]
  intro i hi hi'
  rw [mem_blk3] at hi hi'
  have h0 := hi 0; have h0' := hi' 0
  obtain ⟨e, s, -, -⟩ := idx3 t; obtain ⟨e', s', -, -⟩ := idx3 t'
  rw [e, s] at h0; rw [e', s'] at h0'
  exact hne (Fin.ext (by omega))

/-- The block of the result array point `t` wrote, read back after the call. -/
theorem res3_blk (t : Fin cfg3.N) :
    ((cfg3.win 3).blk t).view.read (Elt F) (res3 d V) = k3_pay1 (blk3 d V 0 t) (blk3 d V 1 t) (blk3 d V 2 t) := by
  unfold res3
  rw [(dat3 d V).read_blk_arrAt_eq_flushed 3 (disj3) cfg3.N t t.isLt (flush3_3 t)]
  show (dat3 d V).after 3 t = _
  rw [after3_3, out3_eq]

/-- An element of the result array in no point's block is as the call found it. -/
theorem res3_rest (i : S4096x10000.Idx) (hno : ∀ t : Fin cfg3.N, i ∉ ((cfg3.win 3).blk t).view.set) :
    res3 d V i = V main_v10 i := by
  unfold res3
  exact (dat3 d V).arrAt_apply_of_forall_not_mem 3 cfg3.N i fun t _ _ => hno t

/-- The same element by element: the element of the result array under element `y` of point `t`'s block. -/
theorem res3_emb (t : Fin cfg3.N) (y : S512x10000.Idx) :
    res3 d V (((cfg3.win 3).blk t).view.emb y) = k3_pay1 (blk3 d V 0 t) (blk3 d V 1 t) (blk3 d V 2 t) y := by
  unfold res3
  rw [(dat3 d V).arrAt_emb_eq_flushed 3 (disj3) t (flush3_3 t) y, cast_eq]
  show (dat3 d V).after 3 t y = _
  rw [after3_3, out3_eq]

/-- Where that element sits: row `512 (t + 2) + y₀`, column `y₁`. -/
theorem blk3_emb_val (t : Fin cfg3.N) (y : S512x10000.Idx) :
    ((((cfg3.win 3).blk t).view.emb y) 0).val = 512 * (t.val + 2) + (y 0).val ∧ ((((cfg3.win 3).blk t).view.emb y) 1).val = (y 1).val := by
  obtain ⟨e0, s0, e1, s1⟩ := idx3 t
  have h0 := win3_3.rect_emb_val t y 0
  have h1 := win3_3.rect_emb_val t y 1
  rw [e0, s0] at h0; rw [e1, s1] at h1
  exact ⟨by rw [show ((((cfg3.win 3).blk t).view.emb y) 0).val = ((win3_3.rect t).emb y 0 : Nat) from rfl, h0]; omega,
    by rw [show ((((cfg3.win 3).blk t).view.emb y) 1).val = ((win3_3.rect t).emb y 1 : Nat) from rfl, h1]; omega⟩

/-- ROWS FROM 1024 ON: row `512 (t + 2) + y₀`, column `y₁` of the result is the product's element `y` at point `t`. -/
theorem res3_at (i : S4096x10000.Idx) (t : Fin cfg3.N) (y : S512x10000.Idx)
    (h0 : (i 0).val = 512 * (t.val + 2) + (y 0).val) (h1 : (i 1).val = (y 1).val) :
    res3 d V i = k3_pay1 (blk3 d V 0 t) (blk3 d V 1 t) (blk3 d V 2 t) y := by
  obtain ⟨e0, e1⟩ := blk3_emb_val t y
  have hi : i = ((cfg3.win 3).blk t).view.emb y := by
    funext a; apply Fin.ext
    fin_cases a
    · exact h0.trans e0.symm
    · exact h1.trans e1.symm
  rw [hi]; exact res3_emb d V t y

/-- ROWS BELOW 1024 are as the call found them. -/
theorem res3_below (i : S4096x10000.Idx) (hi : (i 0).val < 1024) : res3 d V i = V main_v10 i := by
  refine res3_rest d V i fun t hm => ?_
  rw [mem_blk3] at hm
  obtain ⟨e0, s0, -, -⟩ := idx3 t
  have h := (hm 0).1
  rw [e0, s0] at h
  omega

end Read3

/-! ### The first call's input blocks, read off the arrays -/

section Blocks2

variable (d : Dev nD) (V : (b : Ref sig .tc) → Buf (Elt F) ((d : Thread nD τ).loc b))

/-- The activations' block index is the point, its row extent 512; the weights and the bias row are one block each. -/
theorem idxIn2 : ∀ t : Fin cfg2.N, (win2_0.index t 0 = t.val ∧ win2_0.size 0 = 512 ∧ win2_0.index t 1 = 0 ∧ win2_0.size 1 = 128)
      ∧ (win2_1.index t 0 = 0 ∧ win2_1.index t 1 = 0) ∧ (win2_2.index t 0 = 0 ∧ win2_2.index t 1 = 0) :=
  (by decide +kernel : ∀ t : Fin grid2.N, (win2_0.index t 0 = t.val ∧ win2_0.size 0 = 512 ∧ win2_0.index t 1 = 0 ∧ win2_0.size 1 = 128)
      ∧ (win2_1.index t 0 = 0 ∧ win2_1.index t 1 = 0) ∧ (win2_2.index t 0 = 0 ∧ win2_2.index t 1 = 0))

/-- Element `y` of the activations' block at point `t` is the array's at row `512 t + y₀`, column `y₁`. -/
theorem blk2_0_at (t : Fin cfg2.N) (y : S512x128.Idx) (i : S1024x128.Idx)
    (h0 : (i 0).val = 512 * t.val + (y 0).val) (h1 : (i 1).val = (y 1).val) : blk2 d V 0 t y = V main_v4 i := by
  obtain ⟨⟨e0, s0, e1, s1⟩, -, -⟩ := idxIn2 t
  have g0 := win2_0.rect_emb_val t y 0
  have g1 := win2_0.rect_emb_val t y 1
  rw [e0, s0] at g0; rw [e1, s1] at g1
  have hi : i = ((cfg2.win 0).blk t).view.emb y := by
    funext a; apply Fin.ext
    fin_cases a
    · show (i 0).val = ((win2_0.rect t).emb y 0 : Nat); rw [g0, h0]; omega
    · show (i 1).val = ((win2_0.rect t).emb y 1 : Nat); rw [g1, h1]; omega
  unfold blk2
  rw [View.read_apply, hi]; rfl

/-- The weights' block is the whole array, -/
theorem blk2_1_at (t : Fin cfg2.N) (y : S10000x128.Idx) : blk2 d V 1 t y = V main_arg4 y := by
  obtain ⟨-, ⟨e0, e1⟩, -⟩ := idxIn2 t
  have g0 := win2_1.rect_emb_val t y 0
  have g1 := win2_1.rect_emb_val t y 1
  rw [e0] at g0; rw [e1] at g1
  have hi : y = ((cfg2.win 1).blk t).view.emb y := by
    funext a; apply Fin.ext
    fin_cases a
    · show (y 0).val = ((win2_1.rect t).emb y 0 : Nat); rw [g0]; omega
    · show (y 1).val = ((win2_1.rect t).emb y 1 : Nat); rw [g1]; omega
  unfold blk2
  rw [View.read_apply, ← hi]; rfl

/-- and so is the bias row's. -/
theorem blk2_2_at (t : Fin cfg2.N) (y : S1x10000.Idx) : blk2 d V 2 t y = V main_v0 y := by
  obtain ⟨-, -, ⟨e0, e1⟩⟩ := idxIn2 t
  have g0 := win2_2.rect_emb_val t y 0
  have g1 := win2_2.rect_emb_val t y 1
  rw [e0] at g0; rw [e1] at g1
  have hi : y = ((cfg2.win 2).blk t).view.emb y := by
    funext a; apply Fin.ext
    fin_cases a
    · show (y 0).val = ((win2_2.rect t).emb y 0 : Nat); rw [g0]; omega
    · show (y 1).val = ((win2_2.rect t).emb y 1 : Nat); rw [g1]; omega
  unfold blk2
  rw [View.read_apply, ← hi]; rfl

end Blocks2

/-! ### The second call's input blocks, read off the arrays -/

section Blocks3

variable (d : Dev nD) (V : (b : Ref sig .tc) → Buf (Elt F) ((d : Thread nD τ).loc b))

/-- The activations' block index is the point, its row extent 512; the weights and the bias row are one block each. -/
theorem idxIn3 : ∀ t : Fin cfg3.N, (win3_0.index t 0 = t.val ∧ win3_0.size 0 = 512 ∧ win3_0.index t 1 = 0 ∧ win3_0.size 1 = 128)
      ∧ (win3_1.index t 0 = 0 ∧ win3_1.index t 1 = 0) ∧ (win3_2.index t 0 = 0 ∧ win3_2.index t 1 = 0) :=
  (by decide +kernel : ∀ t : Fin grid3.N, (win3_0.index t 0 = t.val ∧ win3_0.size 0 = 512 ∧ win3_0.index t 1 = 0 ∧ win3_0.size 1 = 128)
      ∧ (win3_1.index t 0 = 0 ∧ win3_1.index t 1 = 0) ∧ (win3_2.index t 0 = 0 ∧ win3_2.index t 1 = 0))

/-- Element `y` of the activations' block at point `t` is the array's at row `512 t + y₀`, column `y₁`. -/
theorem blk3_0_at (t : Fin cfg3.N) (y : S512x128.Idx) (i : S3072x128.Idx)
    (h0 : (i 0).val = 512 * t.val + (y 0).val) (h1 : (i 1).val = (y 1).val) : blk3 d V 0 t y = V main_v8 i := by
  obtain ⟨⟨e0, s0, e1, s1⟩, -, -⟩ := idxIn3 t
  have g0 := win3_0.rect_emb_val t y 0
  have g1 := win3_0.rect_emb_val t y 1
  rw [e0, s0] at g0; rw [e1, s1] at g1
  have hi : i = ((cfg3.win 0).blk t).view.emb y := by
    funext a; apply Fin.ext
    fin_cases a
    · show (i 0).val = ((win3_0.rect t).emb y 0 : Nat); rw [g0, h0]; omega
    · show (i 1).val = ((win3_0.rect t).emb y 1 : Nat); rw [g1, h1]; omega
  unfold blk3
  rw [View.read_apply, hi]; rfl

/-- The weights' block is the whole array, -/
theorem blk3_1_at (t : Fin cfg3.N) (y : S10000x128.Idx) : blk3 d V 1 t y = V main_arg4 y := by
  obtain ⟨-, ⟨e0, e1⟩, -⟩ := idxIn3 t
  have g0 := win3_1.rect_emb_val t y 0
  have g1 := win3_1.rect_emb_val t y 1
  rw [e0] at g0; rw [e1] at g1
  have hi : y = ((cfg3.win 1).blk t).view.emb y := by
    funext a; apply Fin.ext
    fin_cases a
    · show (y 0).val = ((win3_1.rect t).emb y 0 : Nat); rw [g0]; omega
    · show (y 1).val = ((win3_1.rect t).emb y 1 : Nat); rw [g1]; omega
  unfold blk3
  rw [View.read_apply, ← hi]; rfl

/-- and so is the bias row's. -/
theorem blk3_2_at (t : Fin cfg3.N) (y : S1x10000.Idx) : blk3 d V 2 t y = V main_v0 y := by
  obtain ⟨-, -, ⟨e0, e1⟩⟩ := idxIn3 t
  have g0 := win3_2.rect_emb_val t y 0
  have g1 := win3_2.rect_emb_val t y 1
  rw [e0] at g0; rw [e1] at g1
  have hi : y = ((cfg3.win 2).blk t).view.emb y := by
    funext a; apply Fin.ext
    fin_cases a
    · show (y 0).val = ((win3_2.rect t).emb y 0 : Nat); rw [g0]; omega
    · show (y 1).val = ((win3_2.rect t).emb y 1 : Nat); rw [g1]; omega
  unfold blk3
  rw [View.read_apply, ← hi]; rfl

end Blocks3

end Cert.Proof.KI

end
-- ==== Proof.Spec.lean ====
/-
  The specification of the result, index by index over the extended reals, as one function of the four arrays
  the programs read: an index array `ids` of 4096 rows of 50 words, a table `emb` of 100000 rows of 128
  numbers, a weight `W` of 10000 rows of 128 numbers and a bias `b` of 10000 numbers.

  Entry (r, o) of the result is   Σ_{k < 128} max((Σ_{l < 50} emb(row(ids(r, l)), k)) · (1/50), 0) · W(o, k)  +  b(o),

  where `row(w)` is the table row an index word names: the word read as a signed integer and clamped into
  [0, 99999], which for a word in range is the word's own value. Beside it, the three laws that join the
  programs' spellings to this one: a division by the real number fifty is the product with its reciprocal on
  every extended real (the infinities too); the word 0x42480000 denotes fifty; and a sum accumulated from left to
  right is the sum over the index set (addition of extended reals is associative, so no finiteness is asked).
-/
import Idealize.ShloMosaic.PureOps.Ideal
import Idealize.ShloMosaic.Lib.ValueIdx

noncomputable section

open scoped BigOperators

namespace Cert.Proof.Spec

open Idealize.ShloMosaic Idealize.ShloMosaic.ValueIdx

/-- The table row an index word names: the word read signed, clamped into the table's rows. -/
def rowOf (w : BitVec 32) : Fin 100000 := ⟨min w.toInt.toNat 99999, by omega⟩

/-- A word below the table's height names the row of its own value. -/
theorem rowOf_val_of_lt {w : BitVec 32} (h : w.toNat < 100000) : (rowOf w).val = w.toNat := by
  have e : w.toInt = (w.toNat : Int) := BitVec.toInt_eq_toNat_of_lt (by omega)
  show min w.toInt.toNat 99999 = w.toNat
  rw [e, Int.toNat_natCast]
  omega

/-- For such a word the remainder by the table's height is the same row. -/
theorem rowOf_val_of_lt_mod {w : BitVec 32} (h : w.toNat < 100000) : (rowOf w).val = w.toNat % 100000 := by
  rw [rowOf_val_of_lt h, Nat.mod_eq_of_lt h]

/-- The rectified mean of the fifty table rows that row `r` of the index array names, at column `k`. -/
def pooledAt (ids : (⟨2, ![4096, 50]⟩ : Shape).Idx → BitVec 32) (emb : (⟨2, ![100000, 128]⟩ : Shape).Idx → EReal)
    (r : Fin 4096) (k : Fin 128) : EReal :=
  max ((∑ l : Fin 50, emb (ix2 (rowOf (ids (ix2 r l))) k)) * ((1 / 50 : ℝ) : EReal)) 0

/-- THE RESULT: the rectified means contracted with the weight's rows, plus the bias. -/
def Gspec (ids : (⟨2, ![4096, 50]⟩ : Shape).Idx → BitVec 32) (emb : (⟨2, ![100000, 128]⟩ : Shape).Idx → EReal)
    (W : (⟨2, ![10000, 128]⟩ : Shape).Idx → EReal) (b : (⟨1, ![10000]⟩ : Shape).Idx → EReal) :
    (⟨2, ![4096, 10000]⟩ : Shape).Idx → EReal :=
  fun i => (∑ k : Fin 128, pooledAt ids emb (i 0) k * W (ix2 (i 1) k)) + b (ix1 (i 1))

/-! ## The laws -/

/-- Division by fifty is multiplication by one fiftieth, on every extended real. -/
theorem div_fifty (x : EReal) : Ideal.div x ((50 : ℝ) : EReal) = x * ((1 / 50 : ℝ) : EReal) :=
  Ideal.div_coe (by norm_num) x

/-- The single-precision word 0x42480000 denotes fifty. -/
theorem ofBits_fifty : Ideal.ofBits .f32 0x42480000#32 = ((50 : ℝ) : EReal) := by
  simp [Ideal.ofBits, Ideal.ieee, -EReal.coe_mul]; norm_num

/-- The single-precision zero word denotes zero. -/
theorem ofBits_zero : Ideal.ofBits .f32 0x00000000#32 = 0 := by simp [Ideal.ofBits, Ideal.ieee]

/-- A sum accumulated from left to right — the first term, then one more term per step — is the sum over the
    index set. -/
theorem leftSum_eq (x s : ℕ → EReal) (h0 : s 0 = x 0) (hs : ∀ n, s (n + 1) = s n + x (n + 1)) (n : ℕ) :
    s n = ∑ l : Fin (n + 1), x l.val := by
  induction n with
  | zero => simp [h0]
  | succ n ih => rw [hs, ih]; exact (Fin.sum_univ_castSucc (fun l : Fin (n + 1 + 1) => x l.val)).symm

end Cert.Proof.Spec

end
-- ==== Proof.Bridge.lean ====
/-
  The kernel's pooled rows are the specification's rectified means.

  The index array is split by rows into a block of 1024 and a block of 3072, and each block, read in row-major
  order, is regrouped as 32 tasks of chunks of 100 words: two rows of fifty words to a chunk. Position
  (w, c, p) of the regrouped first block is the word at row 32·w + 2·c + p / 50 and column p mod 50 of the array;
  of the second block, 1024 rows further down with 96 rows to a task. Output row i of task w sums the fifty
  words of half i mod 2 of chunk i / 2, which are the fifty columns of row 32·w + i (or 1024 + 96·w + i): the
  row the regrouped result, read back in row-major order as 1024 (or 3072) rows, holds at that place. A sum
  taken from the left is the sum over the fifty positions; the scale is one fiftieth and the clamp is at zero;
  a word in range names the row of its own value, however it is read.
-/
import proofs.«204104_g71330816851969_cont_9to1_m_219_17_alg».proof.Proof.PoolSpec
import proofs.«204104_g71330816851969_cont_9to1_m_219_17_alg».proof.Proof.Spec
import Idealize.ShloMosaic.Lib.DynamicIndex
import Idealize.ShloMosaic.Lib.Pipeline.Value
import Idealize.ShloMosaic.Lib.ValueLayout
import Idealize.ShloMosaic.PureOps.IdealRules

noncomputable section

open scoped BigOperators

namespace Cert.Proof.Bridge

open Idealize.ShloMosaic Idealize.ShloMosaic.ValueIdx Cert.Proof.Spec
open Cert.Proof (KI.lsum KI.ix3 KI.embAt KI.rowNo KI.poolAt KI.pool0 KI.pool1)

/-- At the extended reals a sum taken from the left is the sum over the positions. -/
theorem lsum_ideal (x : ℕ → EReal) (n : ℕ) : KI.lsum (F := Ideal) x n = ∑ l : Fin (n + 1), x l.val :=
  leftSum_eq x (KI.lsum (F := Ideal) x) rfl (fun _ => rfl) n

/-- The two spellings of a rank-2 index by its coordinates agree. -/
theorem pair_eq_ix2 {n0 n1 : ℕ} (a : Fin n0) (b : Fin n1) : Shape.pair (d := ![n0, n1]) a b = ix2 a b := by
  funext c
  match c with
  | ⟨0, _⟩ => rfl
  | ⟨1, _⟩ => rfl

/-- ONE POOLED ENTRY: if the fifty words of half `i % 2` of chunk `i / 2` of task `w` are row `R` of the index
    array, and every word is in range, the task's value at output row `i`, lane `q`, with scale one fiftieth and
    clamp zero, is the specification's rectified mean at (R, q). -/
theorem poolAt_ideal {nch : ℕ} (ids3 : (⟨3, ![32, nch, 100]⟩ : Shape).Idx → BitVec 32)
    (emb : (⟨2, ![100000, 128]⟩ : Shape).Idx → EReal) (w : Fin 32) (i : ℕ) (hi : i / 2 < nch) (q : Fin 128)
    (ids : (⟨2, ![4096, 50]⟩ : Shape).Idx → BitVec 32) (R : Fin 4096)
    (hrow : ∀ l : Fin 50, ids3 (KI.ix3 w ⟨i / 2, hi⟩ ⟨(i % 2) * 50 + l.val, by omega⟩) = ids (ix2 R l))
    (hr : ∀ j, (ids j).toNat < 100000) :
    KI.poolAt (F := Ideal) (((1 / 50 : ℝ) : EReal)) (0 : EReal) ids3 emb w i hi q = pooledAt ids emb R q := by
  unfold KI.poolAt pooledAt
  show max (KI.lsum (F := Ideal) _ 49 * _) 0 = _
  rw [lsum_ideal]
  refine congrArg (fun s => max (s * ((1 / 50 : ℝ) : EReal)) 0) ?_
  refine Finset.sum_congr rfl fun l _ => ?_
  unfold KI.embAt KI.rowNo
  have hl : l.val % 50 = l.val := Nat.mod_eq_of_lt l.isLt
  have e1 : ids3 (KI.ix3 w ⟨i / 2, hi⟩ ⟨(i % 2) * 50 + l.val % 50, by omega⟩) = ids (ix2 R l) :=
    (congrArg ids3 (congrArg (KI.ix3 w ⟨i / 2, hi⟩) (Fin.ext (by show _ + l.val % 50 = _ + l.val; rw [hl])))).trans (hrow l)
  refine congrArg emb (funext fun c => Fin.ext ?_)
  match c with
  | ⟨0, _⟩ =>
    show (ids3 (KI.ix3 w ⟨i / 2, hi⟩ ⟨(i % 2) * 50 + l.val % 50, _⟩)).toNat % 100000 = (rowOf (ids (ix2 R l))).val
    rw [e1]
    exact (rowOf_val_of_lt_mod (hr _)).symm
  | ⟨1, _⟩ => rfl

/-! ## The regrouped blocks of the index array, read at a position -/

/-- The first block (rows 0 to 1023) regrouped as 32 tasks of 16 chunks of 100 words: position (w, c, p) is the
    word at row 32·w + 2·c + p / 50, column p mod 50. -/
theorem ids0_apply (ids : (⟨2, ![4096, 50]⟩ : Shape).Idx → BitVec 32) (st : Fin 2 → Int) (h0 : st 0 = 0) (h1 : st 1 = 0)
    (hs : (⟨2, ![4096, 50]⟩ : Shape).Slices (fun _ => 0) ⟨2, ![1024, 50]⟩)
    (hc : (⟨2, ![1024, 50]⟩ : Shape).ShapeCasts ⟨3, ![32, 16, 100]⟩) (w : Fin 32) (c : Fin 16) (p : Fin 100) :
    shapeCast ⟨3, ![32, 16, 100]⟩ (Host.dynamicSlice ⟨2, ![1024, 50]⟩ ids st hs) hc (KI.ix3 w c p)
      = ids (ix2 (⟨w.val * 32 + c.val * 2 + p.val / 50, by omega⟩ : Fin 4096) (⟨p.val % 50, by omega⟩ : Fin 50)) := by
  rw [shapeCast_apply _ hc (KI.ix3 w c p)
    (ix2 (⟨w.val * 32 + c.val * 2 + p.val / 50, by omega⟩ : Fin 1024) (⟨p.val % 50, by omega⟩ : Fin 50)) (by
      rw [Shape.rowMajor_val_two, Shape.rowMajor_val_three]
      show (w.val * 32 + c.val * 2 + p.val / 50) * 50 + p.val % 50 = (w.val * 16 + c.val) * 100 + p.val
      omega)]
  rw [Host.dynamicSlice_eq_extractStridedSlice _ _ st (fun _ => 0) hs hs (fun a => match a with | ⟨0, _⟩ => h0 | ⟨1, _⟩ => h1)]
  exact extractStridedSlice_apply _ _ hs _ _ (fun a => match a with | ⟨0, _⟩ => (Nat.zero_add _).symm | ⟨1, _⟩ => (Nat.zero_add _).symm)

/-- The offsets of the second block: 1024 rows down. -/
abbrev off1 : Fin 2 → Nat := fun a => match a with | ⟨0, _⟩ => 1024 | ⟨1, _⟩ => 0

/-- The second block (rows 1024 to 4095) regrouped as 32 tasks of 48 chunks of 100 words: position (w, c, p) is
    the word at row 1024 + 96·w + 2·c + p / 50, column p mod 50. -/
theorem ids1_apply (ids : (⟨2, ![4096, 50]⟩ : Shape).Idx → BitVec 32) (st : Fin 2 → Int) (h0 : st 0 = 1024) (h1 : st 1 = 0)
    (hs : (⟨2, ![4096, 50]⟩ : Shape).Slices (fun _ => 0) ⟨2, ![3072, 50]⟩)
    (hc : (⟨2, ![3072, 50]⟩ : Shape).ShapeCasts ⟨3, ![32, 48, 100]⟩) (w : Fin 32) (c : Fin 48) (p : Fin 100) :
    shapeCast ⟨3, ![32, 48, 100]⟩ (Host.dynamicSlice ⟨2, ![3072, 50]⟩ ids st hs) hc (KI.ix3 w c p)
      = ids (ix2 (⟨1024 + (w.val * 96 + c.val * 2 + p.val / 50), by omega⟩ : Fin 4096) (⟨p.val % 50, by omega⟩ : Fin 50)) := by
  rw [shapeCast_apply _ hc (KI.ix3 w c p)
    (ix2 (⟨w.val * 96 + c.val * 2 + p.val / 50, by omega⟩ : Fin 3072) (⟨p.val % 50, by omega⟩ : Fin 50)) (by
      rw [Shape.rowMajor_val_two, Shape.rowMajor_val_three]
      show (w.val * 96 + c.val * 2 + p.val / 50) * 50 + p.val % 50 = (w.val * 48 + c.val) * 100 + p.val
      omega)]
  have hs' : (⟨2, ![4096, 50]⟩ : Shape).Slices off1 ⟨2, ![3072, 50]⟩ := by decide
  rw [Host.dynamicSlice_eq_extractStridedSlice _ _ st off1 hs hs' (fun a => match a with | ⟨0, _⟩ => h0 | ⟨1, _⟩ => h1)]
  exact extractStridedSlice_apply _ _ hs' _ _ (fun a => match a with | ⟨0, _⟩ => rfl | ⟨1, _⟩ => (Nat.zero_add _).symm)

/-! ## The tasks' results, read back as rows -/

/-- 32 tasks of 32 rows read in row-major order as 1024 rows: row R is row R mod 32 of task R / 32. -/
theorem rows0_apply {α : Type} (x : (⟨3, ![32, 32, 128]⟩ : Shape).Idx → α)
    (hc : (⟨3, ![32, 32, 128]⟩ : Shape).ShapeCasts ⟨2, ![1024, 128]⟩) (R : Fin 1024) (q : Fin 128) :
    shapeCast ⟨2, ![1024, 128]⟩ x hc (ix2 R q) = x (KI.ix3 (⟨R.val / 32, by omega⟩ : Fin 32) (⟨R.val % 32, by omega⟩ : Fin 32) q) := by
  refine shapeCast_apply _ hc _ _ ?_
  rw [Shape.rowMajor_val_two, Shape.rowMajor_val_three]
  show (R.val / 32 * 32 + R.val % 32) * 128 + q.val = R.val * 128 + q.val
  omega

/-- 32 tasks of 96 rows read in row-major order as 3072 rows: row R is row R mod 96 of task R / 96. -/
theorem rows1_apply {α : Type} (x : (⟨3, ![32, 96, 128]⟩ : Shape).Idx → α)
    (hc : (⟨3, ![32, 96, 128]⟩ : Shape).ShapeCasts ⟨2, ![3072, 128]⟩) (R : Fin 3072) (q : Fin 128) :
    shapeCast ⟨2, ![3072, 128]⟩ x hc (ix2 R q) = x (KI.ix3 (⟨R.val / 96, by omega⟩ : Fin 32) (⟨R.val % 96, by omega⟩ : Fin 96) q) := by
  refine shapeCast_apply _ hc _ _ ?_
  rw [Shape.rowMajor_val_two, Shape.rowMajor_val_three]
  show (R.val / 96 * 96 + R.val % 96) * 128 + q.val = R.val * 128 + q.val
  omega

/-! ## The kernel's constants, at the extended reals -/

/-- The named scale is one fiftieth. -/
theorem inv50 : Named.named (F := Ideal) Cert.KernelIdeal.κ "inv_50" (φ := .f32) 0x3CA3D70A#32 = ((1 / 50 : ℝ) : EReal) :=
  IdealRules.named_const.ideal_named_scalar _ _ _ _ rfl

/-- The clamp's zero word is zero. -/
theorem zero32 : Scalar.ofBits (F := Ideal) .f32 0x00000000#32 = (0 : EReal) := ofBits_zero

/-! ## The pooled rows, block by block -/

/-- THE FIRST BLOCK: row R (below 1024), lane q of the first pooling call's result, read back as 1024 rows, is the
    specification's rectified mean at (R, q). -/
theorem pooled0_apply (ids : (⟨2, ![4096, 50]⟩ : Shape).Idx → BitVec 32) (hr : ∀ j, (ids j).toNat < 100000)
    (emb : (⟨2, ![100000, 128]⟩ : Shape).Idx → EReal) (st : Fin 2 → Int) (h0 : st 0 = 0) (h1 : st 1 = 0)
    (hs : (⟨2, ![4096, 50]⟩ : Shape).Slices (fun _ => 0) ⟨2, ![1024, 50]⟩)
    (hc : (⟨2, ![1024, 50]⟩ : Shape).ShapeCasts ⟨3, ![32, 16, 100]⟩)
    (hc' : (⟨3, ![32, 32, 128]⟩ : Shape).ShapeCasts ⟨2, ![1024, 128]⟩) (R : Fin 1024) (q : Fin 128) :
    shapeCast ⟨2, ![1024, 128]⟩
        (KI.pool0 (F := Ideal) (((1 / 50 : ℝ) : EReal)) (0 : EReal)
          (shapeCast ⟨3, ![32, 16, 100]⟩ (Host.dynamicSlice ⟨2, ![1024, 50]⟩ ids st hs) hc) emb) hc' (ix2 R q)
      = pooledAt ids emb (⟨R.val, by omega⟩ : Fin 4096) q := by
  rw [rows0_apply]
  unfold KI.pool0
  refine poolAt_ideal _ emb _ _ _ q ids (⟨R.val, by omega⟩ : Fin 4096) (fun l => ?_) hr
  refine (ids0_apply ids st h0 h1 hs hc _ _ _).trans (congrArg ids ?_)
  funext a
  refine Fin.ext ?_
  have hR := R.isLt
  have hl := l.isLt
  match a with
  | ⟨0, _⟩ =>
    show R.val / 32 * 32 + R.val % 32 / 2 * 2 + (R.val % 32 % 2 * 50 + l.val) / 50 = R.val
    omega
  | ⟨1, _⟩ =>
    show (R.val % 32 % 2 * 50 + l.val) % 50 = l.val
    omega

/-- THE SECOND BLOCK: row R (below 3072), lane q of the second pooling call's result, read back as 3072 rows, is the
    specification's rectified mean at (1024 + R, q). -/
theorem pooled1_apply (ids : (⟨2, ![4096, 50]⟩ : Shape).Idx → BitVec 32) (hr : ∀ j, (ids j).toNat < 100000)
    (emb : (⟨2, ![100000, 128]⟩ : Shape).Idx → EReal) (st : Fin 2 → Int) (h0 : st 0 = 1024) (h1 : st 1 = 0)
    (hs : (⟨2, ![4096, 50]⟩ : Shape).Slices (fun _ => 0) ⟨2, ![3072, 50]⟩)
    (hc : (⟨2, ![3072, 50]⟩ : Shape).ShapeCasts ⟨3, ![32, 48, 100]⟩)
    (hc' : (⟨3, ![32, 96, 128]⟩ : Shape).ShapeCasts ⟨2, ![3072, 128]⟩) (R : Fin 3072) (q : Fin 128) :
    shapeCast ⟨2, ![3072, 128]⟩
        (KI.pool1 (F := Ideal) (((1 / 50 : ℝ) : EReal)) (0 : EReal)
          (shapeCast ⟨3, ![32, 48, 100]⟩ (Host.dynamicSlice ⟨2, ![3072, 50]⟩ ids st hs) hc) emb) hc' (ix2 R q)
      = pooledAt ids emb (⟨1024 + R.val, by omega⟩ : Fin 4096) q := by
  rw [rows1_apply]
  unfold KI.pool1
  refine poolAt_ideal _ emb _ _ _ q ids (⟨1024 + R.val, by omega⟩ : Fin 4096) (fun l => ?_) hr
  refine (ids1_apply ids st h0 h1 hs hc _ _ _).trans (congrArg ids ?_)
  funext a
  refine Fin.ext ?_
  have hR := R.isLt
  have hl := l.isLt
  match a with
  | ⟨0, _⟩ =>
    show 1024 + (R.val / 96 * 96 + R.val % 96 / 2 * 2 + (R.val % 96 % 2 * 50 + l.val) / 50) = 1024 + R.val
    omega
  | ⟨1, _⟩ =>
    show (R.val % 96 % 2 * 50 + l.val) % 50 = l.val
    omega

end Cert.Proof.Bridge

end
-- ==== Proof.MatmulValue.lean ====
/-
  The two matrix-product bodies read at one entry, at the extended reals: each stores, for a block of 512 pooled rows x, the
  whole weight w (10000 rows of 128) and the bias as one row b2, the array whose entry (r, o) is
  Σ_{k < 128} x(r, k) · w(o, k) + b2(0, o): the product contracts the two operands' last coordinates into a zero
  accumulator, the one-row bias is repeated down the rows, and the casts of a shape to itself change nothing.
-/
import proofs.«204104_g71330816851969_cont_9to1_m_219_17_alg».proof.Proof.Gen.KernelIdeal.Skeleton
import Idealize.ShloMosaic.PureOps.Ideal.Laws
import Idealize.ShloMosaic.Lib.Pipeline.Value
import Idealize.ShloMosaic.Lib.ValueLayout

noncomputable section

open scoped BigOperators

namespace Cert.Proof.MatmulValue

open Idealize.ShloMosaic Idealize.ShloMosaic.ValueIdx
open Cert.KernelIdeal Cert.KernelIdeal.Gen

/-- A product contracting both operands' last coordinates, into a zero accumulator, read at (a, b): the sum over the
    contracted coordinate of the products of the entries (a, c) and (b, c). -/
theorem matmul_tr_apply {M K N : ℕ} (A : FVec Ideal ⟨2, ![M, K]⟩ .f32) (B : FVec Ideal ⟨2, ![N, K]⟩ .f32) (a : Fin M) (b : Fin N) :
    matmul (DotDims.transposedRhs M K N) none A B (constant ⟨2, ![M, N]⟩ .f32 0x00000000#32) (ix2 a b)
      = ∑ c : Fin K, A (ix2 a c) * B (ix2 b c) := by
  show FloatOps.matmul _ none A B _ (ix2 a b) = _
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The first product body's stored array at (r, o). -/
theorem k2_pay1_apply (x : Vec Ideal S512x128 .f32) (w : Vec Ideal S10000x128 .f32) (b2 : Vec Ideal S1x10000 .f32)
    (r : Fin 512) (o : Fin 10000) :
    k2_pay1 (F := Ideal) x w b2 (ix2 r o) = (∑ k : Fin 128, x (ix2 r k) * w (ix2 o k)) + b2 (ix2 (0 : Fin 1) o) := by
  unfold k2_pay1
  rw [addf_apply, shapeCast_self, shapeCast_self]
  have hd : dot_S512x128_S10000x128_S512x10000_1_1_0_0_n_n = DotDims.transposedRhs 512 128 10000 := rfl
  rw [hd, matmul_tr_apply, broadcastTo_1b_ab_apply]

/-- The second product body's stored array at (r, o): the same function. -/
theorem k3_pay1_apply (x : Vec Ideal S512x128 .f32) (w : Vec Ideal S10000x128 .f32) (b2 : Vec Ideal S1x10000 .f32)
    (r : Fin 512) (o : Fin 10000) :
    k3_pay1 (F := Ideal) x w b2 (ix2 r o) = (∑ k : Fin 128, x (ix2 r k) * w (ix2 o k)) + b2 (ix2 (0 : Fin 1) o) := by
  unfold k3_pay1
  rw [addf_apply, shapeCast_self, shapeCast_self]
  have hd : dot_S512x128_S10000x128_S512x10000_1_1_0_0_n_n = DotDims.transposedRhs 512 128 10000 := rfl
  rw [hd, matmul_tr_apply, broadcastTo_1b_ab_apply]

end Cert.Proof.MatmulValue

end
-- ==== Proof.Assemble.lean ====
/-
  The assembly: an array of 4096 rows whose first two blocks of 512 rows are the first product body's stored arrays
  over the first 1024 pooled rows, and whose next six blocks are the second body's over the other 3072, is the
  specification, entry by entry: row R lies in block R / 512, and at (R, o) each body stores the sum over the 128
  columns of the pooled row times the weight's row o, plus the bias at o, of which the pooled row is the
  specification's rectified mean.
-/
import proofs.«204104_g71330816851969_cont_9to1_m_219_17_alg».proof.Proof.Bridge
import proofs.«204104_g71330816851969_cont_9to1_m_219_17_alg».proof.Proof.MatmulValue

noncomputable section

open scoped BigOperators

namespace Cert.Proof.Assemble

open Idealize.ShloMosaic Idealize.ShloMosaic.ValueIdx Cert.Proof.Spec
open Cert.KernelIdeal Cert.KernelIdeal.Gen

/-- One entry: a pooled row that is the specification's, contracted with the weight's row o, plus a bias row that is the
    bias, is the specification at (R, o). -/
theorem entry_eq (ids : (⟨2, ![4096, 50]⟩ : Shape).Idx → BitVec 32) (emb : (⟨2, ![100000, 128]⟩ : Shape).Idx → EReal)
    (W : (⟨2, ![10000, 128]⟩ : Shape).Idx → EReal) (b : (⟨1, ![10000]⟩ : Shape).Idx → EReal) (R : Fin 4096) (o : Fin 10000)
    (x : Fin 128 → EReal) (hx : ∀ k, x k = pooledAt ids emb R k) (c : EReal) (hc : c = b (ix1 o)) :
    (∑ k : Fin 128, x k * W (ix2 o k)) + c = Gspec ids emb W b (ix2 R o) := by
  subst hc
  show _ = (∑ k : Fin 128, pooledAt ids emb R k * W (ix2 o k)) + b (ix1 o)
  refine congrArg (· + b (ix1 o)) (Finset.sum_congr rfl fun k _ => ?_)
  rw [hx k]

/-- THE RESULT IS THE SPECIFICATION. `X0`, `X1` are the pooled rows of the two blocks of the index array, `b2` the bias
    as one row; `x0 t`, `w0 t`, `c0 t` are what the first product body reads at its block t (512 rows of `X0`, the
    weight, the bias row), `x1`, `w1`, `c1` the second body's; `out` holds each body's stored array at its rows. -/
theorem out_eq (ids : (⟨2, ![4096, 50]⟩ : Shape).Idx → BitVec 32) (emb : (⟨2, ![100000, 128]⟩ : Shape).Idx → EReal)
    (W : (⟨2, ![10000, 128]⟩ : Shape).Idx → EReal) (b : (⟨1, ![10000]⟩ : Shape).Idx → EReal)
    (X0 : (⟨2, ![1024, 128]⟩ : Shape).Idx → EReal) (X1 : (⟨2, ![3072, 128]⟩ : Shape).Idx → EReal)
    (b2 : (⟨2, ![1, 10000]⟩ : Shape).Idx → EReal) (out : (⟨2, ![4096, 10000]⟩ : Shape).Idx → EReal)
    (hX0 : ∀ (R : Fin 1024) (q : Fin 128), X0 (ix2 R q) = pooledAt ids emb (⟨R.val, by omega⟩ : Fin 4096) q)
    (hX1 : ∀ (R : Fin 3072) (q : Fin 128), X1 (ix2 R q) = pooledAt ids emb (⟨1024 + R.val, by omega⟩ : Fin 4096) q)
    (hb2 : ∀ o : Fin 10000, b2 (ix2 (0 : Fin 1) o) = b (ix1 o))
    (x0 : Fin 2 → Vec Ideal S512x128 .f32) (w0 : Fin 2 → Vec Ideal S10000x128 .f32) (c0 : Fin 2 → Vec Ideal S1x10000 .f32)
    (hx0 : ∀ (t : Fin 2) (r : Fin 512) (k : Fin 128), x0 t (ix2 r k) = X0 (ix2 (⟨512 * t.val + r.val, by omega⟩ : Fin 1024) k))
    (hw0 : ∀ t, w0 t = W) (hc0 : ∀ t, c0 t = b2)
    (h0 : ∀ (t : Fin 2) (r : Fin 512) (o : Fin 10000),
      out (ix2 (⟨512 * t.val + r.val, by omega⟩ : Fin 4096) o) = k2_pay1 (F := Ideal) (x0 t) (w0 t) (c0 t) (ix2 r o))
    (x1 : Fin 6 → Vec Ideal S512x128 .f32) (w1 : Fin 6 → Vec Ideal S10000x128 .f32) (c1 : Fin 6 → Vec Ideal S1x10000 .f32)
    (hx1 : ∀ (t : Fin 6) (r : Fin 512) (k : Fin 128), x1 t (ix2 r k) = X1 (ix2 (⟨512 * t.val + r.val, by omega⟩ : Fin 3072) k))
    (hw1 : ∀ t, w1 t = W) (hc1 : ∀ t, c1 t = b2)
    (h1 : ∀ (t : Fin 6) (r : Fin 512) (o : Fin 10000),
      out (ix2 (⟨1024 + (512 * t.val + r.val), by omega⟩ : Fin 4096) o) = k3_pay1 (F := Ideal) (x1 t) (w1 t) (c1 t) (ix2 r o)) :
    out = Gspec ids emb W b := by
  funext i
  obtain ⟨R, o, rfl⟩ : ∃ (R : Fin 4096) (o : Fin 10000), i = ix2 R o := ⟨i 0, i 1, eq_ix2 i⟩
  have hR := R.isLt
  by_cases hlt : R.val < 1024
  · have e : R = (⟨512 * (⟨R.val / 512, by omega⟩ : Fin 2).val + (⟨R.val % 512, by omega⟩ : Fin 512).val, by
        show 512 * (R.val / 512) + R.val % 512 < 4096; omega⟩ : Fin 4096) := Fin.ext (by
        show R.val = 512 * (R.val / 512) + R.val % 512; omega)
    rw [e, h0, MatmulValue.k2_pay1_apply, hw0, hc0]
    refine entry_eq ids emb W b _ o _ (fun k => ?_) _ (hb2 o)
    rw [hx0, hX0]
  · have e : R = (⟨1024 + (512 * (⟨(R.val - 1024) / 512, by omega⟩ : Fin 6).val + (⟨(R.val - 1024) % 512, by omega⟩ : Fin 512).val), by
        show 1024 + (512 * ((R.val - 1024) / 512) + (R.val - 1024) % 512) < 4096; omega⟩ : Fin 4096) := Fin.ext (by
        show R.val = 1024 + (512 * ((R.val - 1024) / 512) + (R.val - 1024) % 512); omega)
    rw [e, h1, MatmulValue.k3_pay1_apply, hw1, hc1]
    refine entry_eq ids emb W b _ o _ (fun k => ?_) _ (hb2 o)
    rw [hx1, hX1]

end Cert.Proof.Assemble

end
-- ==== Proof.FinalValue.lean ====
/-
  The kernel program's result array is the specification, at the extended reals, where every word of the index
  array is below the table's height.

  Rows below 1024 of the result were written by the first product call (and copied into the second call's array,
  which leaves them alone); rows from 1024 on by the second. Either way entry (R, o) is the product body's stored
  value at row R mod 512 of block R / 512: the sum over the 128 columns of the pooled row times the weight's row o,
  plus the bias at o. The pooled rows are the pooling calls' results read back as rows, and the pooled row R is the
  specification's rectified mean of the fifty table rows that row R of the index array names: the scale is one
  fiftieth, the clamp is at zero, and a word in range names the row of its own value.
-/
import proofs.«204104_g71330816851969_cont_9to1_m_219_17_alg».proof.Proof.ArgsKept
import proofs.«204104_g71330816851969_cont_9to1_m_219_17_alg».proof.Proof.RegionsVal
import proofs.«204104_g71330816851969_cont_9to1_m_219_17_alg».proof.Proof.Bridge
import proofs.«204104_g71330816851969_cont_9to1_m_219_17_alg».proof.Proof.MatmulValue
import proofs.«204104_g71330816851969_cont_9to1_m_219_17_alg».proof.Proof.Assemble

noncomputable section

open scoped BigOperators

namespace Cert.Proof.KI
open Cert.KernelIdeal Cert.KernelIdeal.Gen
open Idealize.ShloMosaic Idealize.ShloMosaic.TcCoe
open Idealize.ShloMosaic.SparseCore (S V)
open Idealize.SL.Sem
open Idealize.ShloMosaic.StableHlo
open Cert.Proof.Spec

variable (m : (ℓ : Loc nD τ sig) → Buf (Elt Ideal) ℓ) (inv0 zero0 inv1 zero1 : EReal)

/-! ## The arrays the product calls read, traced back -/

/-- The first product call's row operand is the first pooling call's result, read back as 1024 rows. -/
theorem V5_v4_apply (d : Dev nD) (R : Fin 1024) (q : Fin 128) :
    V5 (F := Ideal) m inv0 zero0 inv1 zero1 d v4' (ValueIdx.ix2 R q)
      = res0 (F := Ideal) m inv0 zero0 d (ValueIdx.ix3 (⟨R.val / 32, by omega⟩ : Fin 32) (⟨R.val % 32, by omega⟩ : Fin 32) q) := by
  unfold V5 ops2
  after_results
  refine (congrFun (Function.update_of_ne (show v4' ≠ v7' by decide) _ _) _).trans ?_
  unfold V3 ops1
  after_results
  refine (Cert.Proof.Regroup.rows0_apply (V2 (F := Ideal) m inv0 zero0 d v3') shapeCasts_S32x32x128_S1024x128 R q).trans ?_
  exact congrFun (V2_v3 m inv0 zero0 d) _

/-- The second product call's row operand is the second pooling call's result, read back as 3072 rows. -/
theorem V7_v8_apply (d : Dev nD) (R : Fin 3072) (q : Fin 128) :
    V7 (F := Ideal) m inv0 zero0 inv1 zero1 d v8' (ValueIdx.ix2 R q)
      = res1 (F := Ideal) m inv0 zero0 inv1 zero1 d (ValueIdx.ix3 (⟨R.val / 96, by omega⟩ : Fin 32) (⟨R.val % 96, by omega⟩ : Fin 96) q) := by
  unfold V7 ops3
  after_results
  refine (congrFun (Function.update_of_ne (show v8' ≠ v9' by decide) _ _) _).trans ?_
  unfold V5 ops2
  after_results
  refine (Cert.Proof.Regroup.rows1_apply (V4 (F := Ideal) m inv0 zero0 inv1 zero1 d v7') shapeCasts_S32x96x128_S3072x128 R q).trans ?_
  exact congrFun (V4_v7 m inv0 zero0 inv1 zero1 d) _

/-- The bias row both product calls read is the bias argument as one row. -/
theorem V1_v0_apply (d : Dev nD) (o : Fin 10000) :
    V1 (F := Ideal) m d v0' (ValueIdx.ix2 (0 : Fin 1) o) = m ((SparseCore.T d).loc main_arg5) (ValueIdx.ix1 o) := by
  unfold V1 ops0
  after_results
  exact ValueIdx.shapeCast_a_1a_apply (m ((SparseCore.T d).loc main_arg5)) shapeCasts_S10000_S1x10000 0 o

theorem V5_v0 (d : Dev nD) : V5 (F := Ideal) m inv0 zero0 inv1 zero1 d v0' = V1 (F := Ideal) m d v0' := by
  unfold V5 ops2
  after_results
  refine (Function.update_of_ne (show v0' ≠ v7' by decide) _ _).trans ?_
  unfold V3 ops1
  after_results
  exact Function.update_of_ne (show v0' ≠ v3' by decide) _ _

theorem V7_v0 (d : Dev nD) : V7 (F := Ideal) m inv0 zero0 inv1 zero1 d v0' = V1 (F := Ideal) m d v0' := by
  unfold V7 ops3
  after_results
  exact (Function.update_of_ne (show v0' ≠ v9' by decide) _ _).trans (V5_v0 m inv0 zero0 inv1 zero1 d)

/-- The second product call finds, in its result array, the first call's result (the copy). -/
theorem V7_v10 (d : Dev nD) :
    V7 (F := Ideal) m inv0 zero0 inv1 zero1 d v10' = res2 d (Vr (V5 (F := Ideal) m inv0 zero0 inv1 zero1 d) d) := by
  unfold V7 ops3
  after_results
  exact V6_v9 m inv0 zero0 inv1 zero1 d

/-! ## The pooled rows are the specification's rectified means -/

/-- Row R (below 1024) of the first pooling call's result. -/
theorem res0_apply (d : Dev nD) (hr : ∀ i, (show BitVec 32 from m ((SparseCore.T d).loc main_arg0) i).toNat < 100000)
    (R : Fin 1024) (q : Fin 128) :
    res0 (F := Ideal) m (((1 / 50 : ℝ) : EReal)) (0 : EReal) d (ValueIdx.ix3 (⟨R.val / 32, by omega⟩ : Fin 32) (⟨R.val % 32, by omega⟩ : Fin 32) q)
      = pooledAt (m ((SparseCore.T d).loc main_arg0)) (m ((SparseCore.T d).loc main_arg3)) (⟨R.val, by omega⟩ : Fin 4096) q := by
  unfold res0 pool0
  refine Cert.Proof.Bridge.poolAt_ideal _ _ _ _ _ q (m ((SparseCore.T d).loc main_arg0)) (⟨R.val, by omega⟩ : Fin 4096) (fun l => ?_) hr
  refine (V1_v2_apply m d _ _ _).trans (congrArg (m ((SparseCore.T d).loc main_arg0)) ?_)
  funext a
  refine Fin.ext ?_
  have hR := R.isLt
  have hl := l.isLt
  match a with
  | ⟨0, _⟩ =>
    show R.val / 32 * 32 + R.val % 32 / 2 * 2 + (R.val % 32 % 2 * 50 + l.val) / 50 = R.val
    omega
  | ⟨1, _⟩ =>
    show (R.val % 32 % 2 * 50 + l.val) % 50 = l.val
    omega

/-- Row R (below 3072) of the second pooling call's result. -/
theorem res1_apply (d : Dev nD) (hr : ∀ i, (show BitVec 32 from m ((SparseCore.T d).loc main_arg0) i).toNat < 100000)
    (R : Fin 3072) (q : Fin 128) :
    res1 (F := Ideal) m inv0 zero0 (((1 / 50 : ℝ) : EReal)) (0 : EReal) d (ValueIdx.ix3 (⟨R.val / 96, by omega⟩ : Fin 32) (⟨R.val % 96, by omega⟩ : Fin 96) q)
      = pooledAt (m ((SparseCore.T d).loc main_arg0)) (m ((SparseCore.T d).loc main_arg3)) (⟨1024 + R.val, by omega⟩ : Fin 4096) q := by
  unfold res1 pool1
  refine Cert.Proof.Bridge.poolAt_ideal _ _ _ _ _ q (m ((SparseCore.T d).loc main_arg0)) (⟨1024 + R.val, by omega⟩ : Fin 4096) (fun l => ?_) hr
  refine (V3_v6_apply m inv0 zero0 d _ _ _).trans (congrArg (m ((SparseCore.T d).loc main_arg0)) ?_)
  funext a
  refine Fin.ext ?_
  have hR := R.isLt
  have hl := l.isLt
  match a with
  | ⟨0, _⟩ =>
    show 1024 + (R.val / 96 * 96 + R.val % 96 / 2 * 2 + (R.val % 96 % 2 * 50 + l.val) / 50) = 1024 + R.val
    omega
  | ⟨1, _⟩ =>
    show (R.val % 96 % 2 * 50 + l.val) % 50 = l.val
    omega

/-! ## The result array -/

/-- THE KERNEL'S RESULT IS THE SPECIFICATION. `inv0`, `zero0` (and `inv1`, `zero1`) are the scale and the clamp
    of the first (second) pooling call: one fiftieth and zero. -/
theorem final_value (d : Dev nD) (hi0 : inv0 = ((1 / 50 : ℝ) : EReal)) (hz0 : zero0 = 0)
    (hi1 : inv1 = ((1 / 50 : ℝ) : EReal)) (hz1 : zero1 = 0)
    (hr : ∀ i, (show BitVec 32 from m ((SparseCore.T d).loc main_arg0) i).toNat < 100000) :
    V8 (F := Ideal) m inv0 zero0 inv1 zero1 d v10'
      = Gspec (m ((SparseCore.T d).loc main_arg0)) (m ((SparseCore.T d).loc main_arg3))
          (m ((SparseCore.T d).loc main_arg4)) (m ((SparseCore.T d).loc main_arg5)) := by
  subst hi0 hz0 hi1 hz1
  funext i
  obtain ⟨R, o, rfl⟩ : ∃ (R : Fin 4096) (o : Fin 10000), i = ValueIdx.ix2 R o := ⟨i 0, i 1, ValueIdx.eq_ix2 i⟩
  have hR := R.isLt
  refine (congrFun (V8_v10 m _ _ _ _ d) _).trans ?_
  show _ = (∑ k : Fin 128, pooledAt (m ((SparseCore.T d).loc main_arg0)) (m ((SparseCore.T d).loc main_arg3)) R k
      * m ((SparseCore.T d).loc main_arg4) (ValueIdx.ix2 o k)) + m ((SparseCore.T d).loc main_arg5) (ValueIdx.ix1 o)
  by_cases hlt : R.val < 1024
  · -- a row the first product call wrote: the second call leaves it as the copy left it
    refine (res3_below d _ (ValueIdx.ix2 R o) hlt).trans ?_
    refine (congrFun (V7_v10 m _ _ _ _ d) _).trans ?_
    refine (res2_at d _ (ValueIdx.ix2 R o) (⟨R.val / 512, by rw [show cfg2.N = 2 from N_2]; omega⟩ : Fin cfg2.N)
      (ValueIdx.ix2 (⟨R.val % 512, Nat.mod_lt _ (by decide)⟩ : Fin 512) o)
      (by show R.val = 512 * (R.val / 512) + R.val % 512; omega) rfl).trans ?_
    rw [Cert.Proof.MatmulValue.k2_pay1_apply]
    refine congrArg₂ (· + ·) (Finset.sum_congr rfl fun k _ => congrArg₂ (· * ·) ?_ ?_) ?_
    · refine (blk2_0_at d _ _ (ValueIdx.ix2 (⟨R.val % 512, Nat.mod_lt _ (by decide)⟩ : Fin 512) k)
        (ValueIdx.ix2 (⟨R.val, hlt⟩ : Fin 1024) k) (by show R.val = 512 * (R.val / 512) + R.val % 512; omega) rfl).trans ?_
      refine (V5_v4_apply m _ _ _ _ d (⟨R.val, hlt⟩ : Fin 1024) k).trans ?_
      exact res0_apply m d hr (⟨R.val, hlt⟩ : Fin 1024) k
    · refine (blk2_1_at d _ _ (ValueIdx.ix2 o k)).trans ?_
      exact congrFun (V5_a4 m _ _ _ _ d) _
    · refine (blk2_2_at d _ _ (ValueIdx.ix2 (0 : Fin 1) o)).trans ?_
      refine (congrFun (V5_v0 m _ _ _ _ d) _).trans ?_
      exact V1_v0_apply m d o
  · -- a row the second product call wrote
    refine (res3_at d _ (ValueIdx.ix2 R o) (⟨(R.val - 1024) / 512, by rw [show cfg3.N = 6 from N_3]; omega⟩ : Fin cfg3.N)
      (ValueIdx.ix2 (⟨(R.val - 1024) % 512, Nat.mod_lt _ (by decide)⟩ : Fin 512) o)
      (by show R.val = 512 * ((R.val - 1024) / 512 + 2) + (R.val - 1024) % 512; omega) rfl).trans ?_
    rw [Cert.Proof.MatmulValue.k3_pay1_apply]
    refine congrArg₂ (· + ·) (Finset.sum_congr rfl fun k _ => congrArg₂ (· * ·) ?_ ?_) ?_
    · refine (blk3_0_at d _ _ (ValueIdx.ix2 (⟨(R.val - 1024) % 512, Nat.mod_lt _ (by decide)⟩ : Fin 512) k)
        (ValueIdx.ix2 (⟨R.val - 1024, by omega⟩ : Fin 3072) k)
        (by show R.val - 1024 = 512 * ((R.val - 1024) / 512) + (R.val - 1024) % 512; omega) rfl).trans ?_
      refine (V7_v8_apply m _ _ _ _ d (⟨R.val - 1024, by omega⟩ : Fin 3072) k).trans ?_
      refine (res1_apply m _ _ d hr (⟨R.val - 1024, by omega⟩ : Fin 3072) k).trans ?_
      refine congrArg (fun r => pooledAt _ _ r k) (Fin.ext ?_)
      show 1024 + (R.val - 1024) = R.val
      omega
    · refine (blk3_1_at d _ _ (ValueIdx.ix2 o k)).trans ?_
      exact congrFun (V7_a4 m _ _ _ _ d) _
    · refine (blk3_2_at d _ _ (ValueIdx.ix2 (0 : Fin 1) o)).trans ?_
      refine (congrFun (V7_v0 m _ _ _ _ d) _).trans ?_
      exact V1_v0_apply m d o

end Cert.Proof.KI
end
-- ==== Proof.RefRun.lean ====
/-
  The reference program's run. The reference is a straight line of thirty-six array operations: the
  index-to-row lookup `take` (the wrap of negative indices, the in-range mask, the gather, the masked fill:
  twenty-three operations), the sum over the fifty positions, the division by fifty, the rectifier (three
  operations), the transposed weight, the contraction, the bias broadcast twice and the final sum. Listed in
  order, the program is that list run step by step; what the result buffer holds afterwards is the
  composition of the operations' functions applied to the four arrays the program reads, written here stage
  by stage (`takeIds` … `refTerm`), and every argument buffer holds what it held.
-/
import proofs.«204104_g71330816851969_cont_9to1_m_219_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the argument arrays -/

/-- The lookup's indices after the wrap of negative ones (an index below zero has the table's height added),
    as the column array the gather reads. -/
def takeIds (ids : IVec S4096x50 32) : IVec S4096x50x1 32 :=
  broadcastInDim S4096x50x1 ![0, 1] bcast_S4096x50_S4096x50x1_0_1
    (select (cmpi .slt ids (broadcastInDim S4096x50 ![] bcast_S_S4096x50 (constantI S_ 32 0#32)))
      (addi ids (broadcastInDim S4096x50 ![] bcast_S_S4096x50 (constantI S_ 32 100000#32))) ids)

/-- The lookup's mask: which wrapped indices name a row of the table (at least zero, at most 99999). -/
def takeMask (ids : IVec S4096x50 32) : IVec S4096x50 1 :=
  Host.reduce IntOp.andi
    (andi (cmpi .sge (takeIds ids) (broadcastInDim S4096x50x1 ![] bcast_S_S4096x50x1 (constantI S_ 32 0#32)))
      (cmpi .sle (takeIds ids) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- The lookup: the table's rows at the wrapped indices, a fill word where the mask is off. -/
def takeRows (ids : IVec S4096x50 32) (emb : FVec F S100000x128 .f32) : FVec F S4096x50x128 .f32 :=
  select (broadcastInDim S4096x50x128 ![0, 1] bcast_S4096x50_S4096x50x128_0_1 (takeMask ids))
    (Host.gather gather_S100000x128_S4096x50x1_S4096x50x128_2_0_n_n_0_2_1128 emb (takeIds ids))
    (broadcastInDim S4096x50x128 ![] bcast_S_S4096x50x128 (constant S_ .f32 0x7FC00000#32))

/-- The mean over the fifty positions: their sum from zero, divided by fifty. -/
def pooled (ids : IVec S4096x50 32) (emb : FVec F S100000x128 .f32) : FVec F S4096x128 .f32 :=
  Host.divf (Host.reduceAdd (takeRows ids emb) (constant S_ .f32 0x00000000#32) reducesTo_S4096x50x128_S4096x128_d1 h_S_)
    (broadcastInDim S4096x128 ![] bcast_S_S4096x128 (constant S_ .f32 0x42480000#32))

/-- The rectifier of the mean. -/
def act (ids : IVec S4096x50 32) (emb : FVec F S100000x128 .f32) : FVec F S4096x128 .f32 :=
  maximumf (pooled ids emb) (broadcastInDim S4096x128 ![] bcast_S_S4096x128 (constant S_ .f32 0x00000000#32))

/-- The reference's result: the rectified means contracted with the transposed weight, plus the bias along rows. -/
def refTerm (ids : IVec S4096x50 32) (emb : FVec F S100000x128 .f32) (W : FVec F S10000x128 .f32) (b : FVec F S10000 .f32) :
    FVec F S4096x10000 .f32 :=
  addf (Host.dotGeneral dot_S4096x128_S128x10000_S4096x10000_1_0_0_1_n_n none (act ids emb)
      (transpose S128x10000 [1, 0] W transposes_S10000x128_S128x10000_1_0))
    (broadcastInDim S4096x10000 ![0, 1] bcast_S1x10000_S4096x10000_0_1 (broadcastInDim S1x10000 ![1] bcast_S10000_S1x10000_1 b))

/-! ## The program as a list of operations -/

/-- The thirty-six operations, in order, each callee's at its call site over that call's buffers. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg3) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    nullary main_cst (constant S_ .f32 0x00000000#32),
    binary main_v0 main_cst main_v1 ((fun x v => Host.reduceAdd x v reducesTo_S4096x50x128_S4096x128_d1 h_S_) : (⟨S4096x50x128, .f32⟩ : BufTy).Contents (Elt F) → (⟨S_, .f32⟩ : BufTy).Contents (Elt F) → (⟨S4096x128, .f32⟩ : BufTy).Contents (Elt F)),
    nullary main_cst_0 (constant S_ .f32 0x42480000#32),
    unary main_cst_0 main_v2 (broadcastInDim S4096x128 ![] bcast_S_S4096x128 : (⟨S_, .f32⟩ : BufTy).Contents (Elt F) → (⟨S4096x128, .f32⟩ : BufTy).Contents (Elt F)),
    binary main_v1 main_v2 main_v3 (Host.divf : (⟨S4096x128, .f32⟩ : BufTy).Contents (Elt F) → (⟨S4096x128, .f32⟩ : BufTy).Contents (Elt F) → (⟨S4096x128, .f32⟩ : BufTy).Contents (Elt F)),
    TRef.nullary main_call1.cst (constant S_ .f32 0x00000000#32),
    TRef.unary main_call1.cst main_call1.v0 (broadcastInDim S4096x128 ![] bcast_S_S4096x128),
    TRef.binary (.of main_v3) main_call1.v0 main_call1.v1 maximumf,
    unary main_arg4 main_v5 ((transpose S128x10000 [1, 0] · transposes_S10000x128_S128x10000_1_0) : (⟨S10000x128, .f32⟩ : BufTy).Contents (Elt F) → (⟨S128x10000, .f32⟩ : BufTy).Contents (Elt F)),
    binary main_v4 main_v5 main_v6 ((fun l r => Host.dotGeneral dot_S4096x128_S128x10000_S4096x10000_1_0_0_1_n_n none l r) : (⟨S4096x128, .f32⟩ : BufTy).Contents (Elt F) → (⟨S128x10000, .f32⟩ : BufTy).Contents (Elt F) → (⟨S4096x10000, .f32⟩ : BufTy).Contents (Elt F)),
    unary main_arg5 main_v7 (broadcastInDim S1x10000 ![1] bcast_S10000_S1x10000_1 : (⟨S10000, .f32⟩ : BufTy).Contents (Elt F) → (⟨S1x10000, .f32⟩ : BufTy).Contents (Elt F)),
    unary main_v7 main_v8 (broadcastInDim S4096x10000 ![0, 1] bcast_S1x10000_S4096x10000_0_1 : (⟨S1x10000, .f32⟩ : BufTy).Contents (Elt F) → (⟨S4096x10000, .f32⟩ : BufTy).Contents (Elt F)),
    binary main_v6 main_v8 main_v9 (addf : (⟨S4096x10000, .f32⟩ : BufTy).Contents (Elt F) → (⟨S4096x10000, .f32⟩ : BufTy).Contents (Elt F) → (⟨S4096x10000, .f32⟩ : BufTy).Contents (Elt F)) ]

set_option maxRecDepth 4096 in
/-- The program is that straight line: the callees unfolded at their calls, the sequencing reassociated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub ..,
    nullary_bufs_sub .., unary_bufs_sub .., binary_bufs_sub ..,
    unary_bufs_sub .., binary_bufs_sub .., unary_bufs_sub .., unary_bufs_sub .., binary_bufs_sub ..⟩

/-- Every buffer after the run, as the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold at the result buffer is the composed term: each operation's result read at the buffer it writes. -/
theorem out_eq (V : Valuation τ sig (Elt F)) :
    after ops V (main_v9 : DevRef τ sig)
      = refTerm (V (main_arg0 : DevRef τ sig)) (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- The reference's run: every weakly fair execution terminates with the result buffer at `refTerm` of the four
    arrays the program reads, and every argument buffer at what it held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = refTerm (m ((c.tc : Thread nD τ).loc main_arg0)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v9).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_main m ρ)

end Cert.ReferenceIdeal.RefRun

end
-- ==== Proof.RefValue.lean ====
/-
  The reference's result is the specification, at the extended reals, wherever every index word names a row of
  the table (is below 100000 read unsigned, hence between 0 and 99999 read signed).

  Stage by stage, each read at one index. The lookup: a word that is not negative is not wrapped, so the gather's
  start index at (r, l) is the word itself; the in-range mask is one everywhere (both comparisons hold at every
  word, and a conjunction of ones is one), so the fill value is never selected; and the gather reads the table at
  the row the word names — read signed, clamped into the table, which is the specification's reading — and the
  result's last coordinate. The sum over the fifty positions from zero is the sum over that coordinate; dividing
  by the word that denotes fifty is multiplying by one fiftieth; the rectifier is the maximum with zero; the
  contraction with the transposed weight sums, over the 128 columns, the rectified mean times the weight's
  entry (o, k); the bias, broadcast twice, reads b(o).
-/
import proofs.«204104_g71330816851969_cont_9to1_m_219_17_alg».proof.Proof.RefRun
import proofs.«204104_g71330816851969_cont_9to1_m_219_17_alg».proof.Proof.Spec
import Idealize.ShloMosaic.Lib.IdealHost
import Idealize.ShloMosaic.Lib.Pipeline.Value
import Idealize.ShloMosaic.Lib.ValueLayout
import Idealize.ShloMosaic.Lib.StackMember
import Idealize.ShloMosaic.Lib.Affine

noncomputable section

open scoped BigOperators

namespace Cert.Proof.RefValue

open Cert.ReferenceIdeal Cert.ReferenceIdeal.Gen Cert.ReferenceIdeal.RefRun Cert.Proof.Spec
open Idealize.ShloMosaic Idealize.ShloMosaic.ValueIdx

/-- A word below 100000 unsigned is between 0 and 99999 signed, and its signed value is its unsigned one. -/
theorem signed_of_lt {w : BitVec 32} (h : w.toNat < 100000) : w.toInt = (w.toNat : Int) :=
  BitVec.toInt_eq_toNat_of_lt (by omega)

variable (ids : IVec S4096x50 32)

/-- Under the range fact no index is wrapped: the gather's start index at (r, l) is the word at (r, l). -/
theorem takeIds_apply (hr : ∀ i, (ids i).toNat < 100000) (r : Fin 4096) (l : Fin 50) (z : Fin 1) : takeIds ids (ix3 r l z) = ids (ix2 r l) := by
  unfold takeIds
  rw [broadcastInDim_apply _ _ _ (ix3 r l z) (ix2 r l) (fun a => match a with | ⟨0, _⟩ => rfl | ⟨1, _⟩ => rfl)]
  show Scalar.select (IntOp.cmpi .slt (ids (ix2 r l)) 0#32) _ (ids (ix2 r l)) = _
  unfold Scalar.select
  rw [if_neg]
  intro hc
  have h1 := IntOp.cmpi_slt.1 hc
  rw [signed_of_lt (hr (ix2 r l))] at h1
  have z0 : (0#32 : BitVec 32).toInt = 0 := by decide
  rw [z0] at h1
  omega

/-- A conjunction, taken from one, of bits that are all one is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_all_one f l fun n hn => h n (List.mem_cons_of_mem _ hn)

/-- Under the range fact the lookup's in-range mask is one at every position. -/
theorem takeMask_apply (hr : ∀ i, (ids i).toNat < 100000) (j : S4096x50.Idx) : takeMask ids j = 1#1 := by
  unfold takeMask
  rw [Host.reduce_eq_foldl]
  refine foldl_andi_all_one _ _ fun i _ => ?_
  obtain ⟨r, l, z, rfl⟩ : ∃ (r : Fin 4096) (l : Fin 50) (z : Fin 1), i = ix3 r l z := ⟨i 0, i 1, i 2, eq_ix3 i⟩
  show IntOp.andi (IntOp.cmpi .sge (takeIds ids (ix3 r l z)) 0#32) (IntOp.cmpi .sle (takeIds ids (ix3 r l z)) 99999#32) = 1#1
  rw [takeIds_apply ids hr]
  refine IntOp.andi_eq_one.2 ⟨IntOp.cmpi_sge.2 ?_, IntOp.cmpi_sle.2 ?_⟩
  · rw [signed_of_lt (hr _), show (0#32 : BitVec 32).toInt = 0 from by decide]; omega
  · rw [signed_of_lt (hr _), show (99999#32 : BitVec 32).toInt = 99999 from by decide]; have := hr (ix2 r l); omega

/-- The lookup's dimension numbers: rows of the table (axis 0 collapsed, the row's 128 numbers kept), one start
    index per (r, l). -/
abbrev GD := gather_S100000x128_S4096x50x1_S4096x50x128_2_0_n_n_0_2_1128

/-- The lookup's gather read at (r, l, k): the table at the row the start index (r, l, 0) names — read signed,
    clamped into the table — and column k. -/
theorem gather_apply {α : Type} (emb : S100000x128.Idx → α) (idx : IVec S4096x50x1 32) (r : Fin 4096) (l : Fin 50) (k : Fin 128) :
    Host.gather GD emb idx (ix3 r l k)
      = emb (ix2 (⟨min (idx (ix3 r l (0 : Fin 1))).toInt.toNat 99999, by omega⟩ : Fin 100000) k) := by
  unfold Host.gather
  congr 1
  funext a
  refine Fin.ext ?_
  match a with
  | ⟨0, _⟩ =>
    show GD.start (ix3 r l k) idx 0 + GD.batchCoord (ix3 r l k) 0 + GD.offCoord (ix3 r l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix3 r l k) ⟨List.idxOf (0 : Fin 2) GD.startIndexMap,
        List.idxOf_lt_length_iff.2 (List.mem_singleton.mpr rfl)⟩ = ix3 r l (0 : Fin 1) := by
      funext b; refine Fin.ext ?_
      match b with
      | ⟨0, _⟩ => rfl
      | ⟨1, _⟩ => rfl
      | ⟨2, _⟩ => rfl
    rw [hsi]
    rfl
  | ⟨1, _⟩ =>
    show GD.start (ix3 r l k) idx 1 + GD.batchCoord (ix3 r l k) 1 + GD.offCoord (ix3 r l k) 1 = k.val
    rw [GatherDims.batchCoord_eq_zero _ _ _ List.not_mem_nil]
    have hs : GD.start (ix3 r l k) idx 1 = 0 := by
      unfold GatherDims.start
      rw [dif_neg (show (1 : Fin 2) ∉ GD.startIndexMap from by decide)]
    have h1 : (1 : Fin 2) ∈ GD.sKept := (GatherDims.mem_sKept GD 1).2 ⟨by decide, List.not_mem_nil⟩
    have ho : GD.offCoord (ix3 r l k) 1 = k.val := by
      unfold GatherDims.offCoord
      rw [dif_pos h1]
      rfl
    rw [hs, ho]; omega

/-- The lookup under the range fact: the table's row that the index word names, at column k. -/
theorem takeRows_apply (hr : ∀ i, (ids i).toNat < 100000) (emb : FVec Ideal S100000x128 .f32) (r : Fin 4096) (l : Fin 50) (k : Fin 128) :
    takeRows (F := Ideal) ids emb (ix3 r l k) = emb (ix2 (rowOf (ids (ix2 r l))) k) := by
  unfold takeRows
  rw [select_apply]
  rw [broadcastInDim_apply _ _ _ (ix3 r l k) (ix2 r l) (fun a => match a with | ⟨0, _⟩ => rfl | ⟨1, _⟩ => rfl)]
  rw [takeMask_apply ids hr, select_one]
  show Host.gather GD emb (takeIds ids) (ix3 r l k) = _
  rw [gather_apply]
  refine congrArg emb (congrArg (fun x : Fin 100000 => ix2 x k) (Fin.ext ?_))
  show min (takeIds ids (ix3 r l (0 : Fin 1))).toInt.toNat 99999 = min (ids (ix2 r l)).toInt.toNat 99999
  rw [takeIds_apply ids hr]

/-- The witness that the sum runs over the fifty positions. -/
theorem reduces_pos : S4096x50x128.Reduces [1] S4096x128 := by decide

/-- The mean under the range fact. -/
theorem pooled_apply (hr : ∀ i, (ids i).toNat < 100000) (emb : FVec Ideal S100000x128 .f32) (r : Fin 4096) (k : Fin 128) :
    pooled (F := Ideal) ids emb (ix2 r k) = (∑ l : Fin 50, emb (ix2 (rowOf (ids (ix2 r l))) k)) * ((1 / 50 : ℝ) : EReal) := by
  unfold pooled
  rw [hostDivf_apply, hostReduceAdd_apply, Ideal.hostReduceAdd_single _ reduces_pos]
  show Ideal.div (Ideal.ofBits .f32 0x00000000#32 + _) (Ideal.ofBits .f32 0x42480000#32) = _
  rw [ofBits_zero, zero_add, ofBits_fifty, div_fifty]
  refine congrArg (· * ((1 / 50 : ℝ) : EReal)) ?_
  refine Finset.sum_congr rfl fun l _ => ?_
  have e : reduces_pos.lift (ix2 r k) l = ix3 r l k := by
    funext a; refine Fin.ext ?_
    match a with
    | ⟨0, _⟩ => rfl
    | ⟨1, _⟩ => rfl
    | ⟨2, _⟩ => rfl
  rw [e]
  exact takeRows_apply ids hr emb r l k

/-- The rectified mean under the range fact is the specification's. -/
theorem act_apply (hr : ∀ i, (ids i).toNat < 100000) (emb : FVec Ideal S100000x128 .f32) (r : Fin 4096) (k : Fin 128) :
    act (F := Ideal) ids emb (ix2 r k) = pooledAt ids emb r k := by
  unfold act pooledAt
  rw [maximumf_apply, pooled_apply ids hr]
  show max _ (Ideal.ofBits .f32 0x00000000#32) = _
  rw [ofBits_zero]

/-- THE REFERENCE IS THE SPECIFICATION, under the range fact. -/
theorem refTerm_eq (hr : ∀ i, (ids i).toNat < 100000) (emb : FVec Ideal S100000x128 .f32) (W : FVec Ideal S10000x128 .f32)
    (b : FVec Ideal S10000 .f32) : refTerm (F := Ideal) ids emb W b = Gspec ids emb W b := by
  funext i
  obtain ⟨r, o, rfl⟩ : ∃ (r : Fin 4096) (o : Fin 10000), i = ix2 r o := ⟨i 0, i 1, eq_ix2 i⟩
  unfold refTerm Gspec
  rw [addf_apply]
  have hd : dot_S4096x128_S128x10000_S4096x10000_1_0_0_1_n_n = DotDims.plain 4096 128 10000 := rfl
  rw [hd, StackMember.dotGeneral_plain_apply]
  show _ = (∑ k : Fin 128, pooledAt ids emb r k * W (ix2 o k)) + b (ix1 o)
  refine congrArg₂ (· + ·) ?_ ?_
  · refine Finset.sum_congr rfl fun c _ => ?_
    rw [act_apply ids hr, transpose_ix2_apply]
  · rw [broadcastInDim_apply _ _ _ (ix2 r o) (ix2 (0 : Fin 1) o) (fun a => match a with | ⟨0, _⟩ => rfl | ⟨1, _⟩ => rfl),
      broadcastInDim_apply _ _ _ (ix2 (0 : Fin 1) o) (ix1 o) (fun a => match a with | ⟨0, _⟩ => rfl)]

end Cert.Proof.RefValue

end
-- ==== Proof.PreRange.lean ====
/-
  The precondition decoded, for every float instance: the printed predicate is a conjunction of six whole-array
  tests, one of which says that every word of the index array lies between 0 and 99999 as a signed integer.
  From "the predicate is all ones" that test is all ones (a conjunction of bits is one only if each is), so the
  comparison at every index is one (a reduction by conjunction into one cell is one only if every element is),
  and a word between 0 and 99999 signed is its own value unsigned, below the table's 100000 rows.
-/
import proofs.«204104_g71330816851969_cont_9to1_m_219_17_alg».proof.Pre_input_domain
import Idealize.ShloMosaic.Lib.ReduceAll
import Idealize.ShloMosaic.Lib.ValueIdx

noncomputable section

namespace Cert.Proof.PreRange

open Idealize.ShloMosaic Cert.Pre_input_domain

variable {F : FTy → Type} [FloatOps F] [Cert.Pre_input_domain.Facts]

/-- Under the precondition every word of the index array is between 0 and 99999, read signed. -/
theorem ids_signed (a0 a1 a2 : IVec S4096x50 32) (a3 : FVec F S100000x128 .f32) (a4 : FVec F S10000x128 .f32)
    (a5 : FVec F S10000 .f32) (h : fn (F := F) a0 a1 a2 a3 a4 a5 = fun _ => 1#1) (i : S4096x50.Idx) :
    0 ≤ (a0 i).toInt ∧ (a0 i).toInt ≤ 99999 := by
  haveI : Subsingleton S_.Idx := ⟨fun a b => funext fun d => d.elim0⟩
  have e := congrFun h ValueIdx.ix0
  dsimp only [fn, fn_part1, fn_part2] at e
  -- the predicate is ((((t3 ∧ t4) ∧ t5) ∧ t0) ∧ t1) ∧ t2, the test of the index array fourth
  have e1 := (IntOp.andi_eq_one.1 e).1
  have e2 := (IntOp.andi_eq_one.1 e1).1
  have e3 := (IntOp.andi_eq_one.1 e2).2
  have e4 := Host.reduce_andi_all _ _ _ _ _ e3 i
  have e5 := IntOp.andi_eq_one.1 e4
  have h0 : (0#32 : BitVec 32).toInt ≤ (a0 i).toInt := IntOp.cmpi_sge.1 e5.1
  have h1 : (a0 i).toInt ≤ (99999#32 : BitVec 32).toInt := IntOp.cmpi_sle.1 e5.2
  have z0 : (0#32 : BitVec 32).toInt = 0 := by decide
  have z1 : (99999#32 : BitVec 32).toInt = 99999 := by decide
  rw [z0] at h0; rw [z1] at h1
  exact ⟨h0, h1⟩

/-- So every word, read unsigned, is below the table's 100000 rows. -/
theorem ids_lt (a0 a1 a2 : IVec S4096x50 32) (a3 : FVec F S100000x128 .f32) (a4 : FVec F S10000x128 .f32)
    (a5 : FVec F S10000 .f32) (h : fn (F := F) a0 a1 a2 a3 a4 a5 = fun _ => 1#1) (i : S4096x50.Idx) :
    (a0 i).toNat < 100000 := by
  obtain ⟨h0, h1⟩ := ids_signed a0 a1 a2 a3 a4 a5 h i
  have hlt := (a0 i).isLt
  rw [BitVec.toInt_eq_toNat_cond] at h0 h1
  by_cases hc : 2 * (a0 i).toNat < 2 ^ 32
  · rw [if_pos hc] at h1; omega
  · rw [if_neg hc] at h0; omega

end Cert.Proof.PreRange

end
-- ==== Proof.RefClaims.lean ====
/-
  The reference's two conjuncts. Its frame is its run with the result's value dropped. Its half of the comparison:
  from a memory that agrees with the kernel's on the six arguments, under the kernel's precondition (which puts every
  index word below the table's height), the run ends with the result at the specification of the KERNEL's
  arguments — the reference's composed term is the specification wherever the index words are in range — and the
  arguments unchanged.
-/
import proofs.«204104_g71330816851969_cont_9to1_m_219_17_alg».proof.Defs
import proofs.«204104_g71330816851969_cont_9to1_m_219_17_alg».proof.Proof.Gen.Pre_input_domain
import proofs.«204104_g71330816851969_cont_9to1_m_219_17_alg».proof.Proof.RefRun
import proofs.«204104_g71330816851969_cont_9to1_m_219_17_alg».proof.Proof.RefValue
import proofs.«204104_g71330816851969_cont_9to1_m_219_17_alg».proof.Proof.PreRange

noncomputable section

namespace Cert.Proof.RefClaims

open Idealize.ShloMosaic Idealize.SL.Sem
open Cert.Proof.Spec

variable [hKernelIdeal : Cert.KernelIdeal.Facts] [hReferenceIdeal : Cert.ReferenceIdeal.Facts] [hPre_input_domain : Cert.Pre_input_domain.Facts]

/-- The reference runs and leaves its arguments unchanged. -/
theorem frame_ref : Cert.frame_ReferenceIdeal := fun m ρ _ =>
  (θ_run Cert.ReferenceIdeal.defs _ _).mono (fun _ h c => (h c).2) (Cert.ReferenceIdeal.RefRun.run (F := Ideal) m ρ)

/-- The reference's half of the comparison, with the common result named: the specification of the kernel's arguments. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v9)
        = Gspec (m ((c.tc : Thread Cert.KernelIdeal.nD Cert.KernelIdeal.τ).loc Cert.KernelIdeal.main_arg0))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c => ⟨(h c).1.trans (by
      rw [(hagree c).1, (hagree c).2.2.2.1, (hagree c).2.2.2.2.1, (hagree c).2.2.2.2.2]
      exact Cert.Proof.RefValue.refTerm_eq _ (fun i => Cert.Proof.PreRange.ids_lt _ _ _ _ _ _ (hpre c) i) _ _ _), (h c).2⟩)
    (Cert.ReferenceIdeal.RefRun.run (F := Ideal) m' g')

end Cert.Proof.RefClaims

end
-- ==== Proof.Tile0Defs.lean ====
/-
  The task of the first pooling call at a symbolic place: its thread, the arrays' rows it is dealt, its own scratch
  buffers and semaphores, the index scratch by rows, the streams' loop's invariant, and the values the buffers hold.
-/
import proofs.«204104_g71330816851969_cont_9to1_m_219_17_alg».proof.Proof.Common
import proofs.«204104_g71330816851969_cont_9to1_m_219_17_alg».proof.Proof.Rows
import proofs.«204104_g71330816851969_cont_9to1_m_219_17_alg».proof.Proof.PoolSpec
import proofs.«204104_g71330816851969_cont_9to1_m_219_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The task of call 0 at a symbolic place -/

section Tile0

variable (d : Dev nD) (L : grid0.Coords)

abbrev cV0 (L : grid0.Coords) : Fin τ.nSC := (L 0).castLE hcore0
abbrev jV0 (L : grid0.Coords) : Fin τ.nSub := (L 1).castLE hsub0
theorem bound0_zero : grid0.bound 0 = 2 := rfl
theorem bound0_one : grid0.bound 1 = 16 := rfl
abbrev cL0 (L : grid0.Coords) : Fin 2 := Fin.cast bound0_zero (L 0)
abbrev jL0 (L : grid0.Coords) : Fin 16 := Fin.cast bound0_one (L 1)
/-- The task's number: sixteen times its SparseCore plus its subcore. -/
abbrev wL0 (L : grid0.Coords) : Fin 32 := taskIx (cL0 L) (jL0 L)

/-- The scale and the clamp of the activation, as the printed body spells them (each a lane of the broadcast). -/
def inv0 : F .f32 := k0_pay106 (F := F) (Shape.ofLane (d := ![16]) (0 : Fin 16))
def zero0 : F .f32 := k0_pay107 (F := F) (Shape.ofLane (d := ![16]) (0 : Fin 16))

abbrev thr0 (d : Dev nD) (L : grid0.Coords) : Thread nD τ := V d (cV0 L) (jV0 L)

abbrev idsLoc0 (d : Dev nD) : Loc nD τ sig := (SparseCore.T d).loc main_v2
abbrev embLoc (d : Dev nD) : Loc nD τ sig := (SparseCore.T d).loc main_arg3
abbrev outLoc0 (d : Dev nD) : Loc nD τ sig := (SparseCore.T d).loc main_v3
abbrev idsPts0 (d : Dev nD) (w : Fin 32) (ids : Buf (Elt F) (idsLoc0 d)) : sProp 𝕄 := idsLoc0 d ↦[rowSetI0 w]{fullShare} ids
abbrev embPts (d : Dev nD) (q : PosShare TreeShare) (emb : Buf (Elt F) (embLoc d)) : sProp 𝕄 := embLoc d ↦{q} emb
abbrev outPts0 (d : Dev nD) (w : Fin 32) (o : Buf (Elt F) (outLoc0 d)) : sProp 𝕄 := outLoc0 d ↦[rowSetO0 w]{fullShare} o

/-! ### The task's own semaphores and scratch buffers -/

abbrev c4 (d : Dev nD) (L : grid0.Coords) : GSem nD τ sig := (thr0 d L, SemLoc.dma cc0_scratch4.sem)
abbrev c5 (d : Dev nD) (L : grid0.Coords) : GSem nD τ sig := (thr0 d L, SemLoc.dma cc0_scratch5.sem)
abbrev cs0 (d : Dev nD) (L : grid0.Coords) : GSem nD τ sig := (thr0 d L, SemLoc.dma cc0_scoped0.sem)
abbrev cs1 (d : Dev nD) (L : grid0.Coords) : GSem nD τ sig := (thr0 d L, SemLoc.dma cc0_scoped1.sem)

omit [FloatOps F] [Named F] in
theorem cell_ne0 {a b : DmaSem sig} (h : a ≠ b) : ((thr0 d L, SemLoc.dma a) : GSem nD τ sig) ≠ (thr0 d L, SemLoc.dma b) :=
  fun e => h (by injection e with _ e2; injection e2)

omit [FloatOps F] [Named F] in
theorem cell_mem0 (a : DmaSem sig) (h : (SemLoc.dma a : SemLoc sig).isScoped .scVector = true) :
    ((thr0 d L, SemLoc.dma a) : GSem nD τ sig) ∈ ownCells (thr0 d L) := mem_ownCells.mpr ⟨rfl, h⟩

omit [FloatOps F] [Named F] in
theorem ownSems0_V0 :
    (ownSems0 (thr0 d L) : sProp 𝕄)
      = iprop(semVal (c4 d L) 0 ∗ semVal (c5 d L) 0 ∗ semVal (cs0 d L) 0 ∗ semVal (cs1 d L) 0
          ∗ bigSep (((((ownCells (thr0 d L)).erase (c4 d L)).erase (c5 d L)).erase (cs0 d L)).erase (cs1 d L)) fun g => semVal g 0) := by
  unfold SparseCore.Cfg.ownSems0
  rw [SparseCore.bigSep_erase' (cell_mem0 d L cc0_scratch4.sem (by decide)),
    SparseCore.bigSep_erase' (Finset.mem_erase.mpr ⟨cell_ne0 d L (a := cc0_scratch5.sem) (b := cc0_scratch4.sem) (by decide), cell_mem0 d L cc0_scratch5.sem (by decide)⟩),
    SparseCore.bigSep_erase' (Finset.mem_erase.mpr ⟨cell_ne0 d L (a := cc0_scoped0.sem) (b := cc0_scratch5.sem) (by decide),
      Finset.mem_erase.mpr ⟨cell_ne0 d L (a := cc0_scoped0.sem) (b := cc0_scratch4.sem) (by decide), cell_mem0 d L cc0_scoped0.sem (by decide)⟩⟩),
    SparseCore.bigSep_erase' (Finset.mem_erase.mpr ⟨cell_ne0 d L (a := cc0_scoped1.sem) (b := cc0_scoped0.sem) (by decide),
      Finset.mem_erase.mpr ⟨cell_ne0 d L (a := cc0_scoped1.sem) (b := cc0_scratch5.sem) (by decide),
      Finset.mem_erase.mpr ⟨cell_ne0 d L (a := cc0_scoped1.sem) (b := cc0_scratch4.sem) (by decide), cell_mem0 d L cc0_scoped1.sem (by decide)⟩⟩⟩)]

abbrev pV0 (L : grid0.Coords) : Proc τ := Proc.scVector (cV0 L) (jV0 L)

omit [FloatOps F] [Named F] in
theorem ref_ne0 {a b : Ref sig .scVector} (h : a ≠ b) : (pV0 L).devRef a ≠ (pV0 L).devRef b :=
  fun e => h (Proc.devRef_injective _ e)

omit [FloatOps F] [Named F] in
theorem ref_mem0 (a : Ref sig .scVector) (h : ((pV0 L).devRef a).owner = .proc (pV0 L)) : (pV0 L).devRef a ∈ ownRefs (τ := τ) (pV0 L) :=
  SparseCore.Cfg.mem_ownRefs_of_owner h

omit [FloatOps F] [Named F] in
/-- The four scratch buffers are among the subcore's own: they are them, at some contents, and the rest. -/
theorem ownBufs_V0 :
    (ownBufs (thr0 d L) : sProp 𝕄)
      = iprop((∃ f, (thr0 d L).loc cc0_scratch0 ↦{fullShare} f) ∗ (∃ f, (thr0 d L).loc cc0_scratch1 ↦{fullShare} f)
          ∗ (∃ f, (thr0 d L).loc cc0_scratch2 ↦{fullShare} f) ∗ (∃ f, (thr0 d L).loc cc0_scratch3 ↦{fullShare} f)
          ∗ bigSep (((((ownRefs (τ := τ) (pV0 L)).erase ((pV0 L).devRef cc0_scratch0)).erase ((pV0 L).devRef cc0_scratch1)).erase
              ((pV0 L).devRef cc0_scratch2)).erase ((pV0 L).devRef cc0_scratch3))
              fun b => iprop(∃ f, ((d, b) : Loc nD τ sig) ↦{fullShare} f)) := by
  unfold SparseCore.Cfg.ownBufs
  refine (SparseCore.bigSep_erase' (ref_mem0 L cc0_scratch0 rfl)).trans ?_
  rw [SparseCore.bigSep_erase' (Finset.mem_erase.mpr ⟨ref_ne0 L (a := cc0_scratch1) (b := cc0_scratch0) (by decide), ref_mem0 L cc0_scratch1 rfl⟩),
    SparseCore.bigSep_erase' (Finset.mem_erase.mpr ⟨ref_ne0 L (a := cc0_scratch2) (b := cc0_scratch1) (by decide),
      Finset.mem_erase.mpr ⟨ref_ne0 L (a := cc0_scratch2) (b := cc0_scratch0) (by decide), ref_mem0 L cc0_scratch2 rfl⟩⟩),
    SparseCore.bigSep_erase' (Finset.mem_erase.mpr ⟨ref_ne0 L (a := cc0_scratch3) (b := cc0_scratch2) (by decide),
      Finset.mem_erase.mpr ⟨ref_ne0 L (a := cc0_scratch3) (b := cc0_scratch1) (by decide),
      Finset.mem_erase.mpr ⟨ref_ne0 L (a := cc0_scratch3) (b := cc0_scratch0) (by decide), ref_mem0 L cc0_scratch3 rfl⟩⟩⟩)]

/-! ### The task's rows of the index array and of the result, as the body slices them -/

abbrev idsRect (L : grid0.Coords) : Rect S32x16x100 := Rect.unit (s := S32x16x100) (k0_off1 L) S1x16x100.size (k0_off1_inb L)
abbrev outRect (L : grid0.Coords) : Rect S32x32x128 := Rect.unit (s := S32x32x128) (k0_off61 L) S1x32x128.size (k0_off61_inb L)
abbrev idsW : Memref sig .scVector .hbm S32x16x100 .i32 := Memref.whole main_v2_scv
abbrev embW : Memref sig .scVector .hbm S100000x128 .f32 := Memref.whole main_arg3_scv
abbrev outW : Memref sig .scVector .hbm S32x32x128 .f32 := Memref.whole main_v3_scv
abbrev idsRowK (L : grid0.Coords) : Memref sig .scVector .hbm S16x100 .i32 := ((idsW).slice (idsRect L) (fun _ => rfl)).squeeze S16x100 squeezes_S1x16x100_S16x100
abbrev outRowK (L : grid0.Coords) : Memref sig .scVector .hbm S32x128 .f32 := ((outW).slice (outRect L) (fun _ => rfl)).squeeze S32x128 squeezes_S1x32x128_S32x128

omit [FloatOps F] [Named F] in
theorem idsRect_eq : idsRect L = rowI0 (wL0 L) := by
  unfold idsRect rowI0 Rect.part Rect.block
  congr 1 <;> funext a
  · rw [k0_off1_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]
omit [FloatOps F] [Named F] in
theorem outRect_eq : outRect L = rowO0 (wL0 L) := by
  unfold outRect rowO0 Rect.part Rect.block
  congr 1 <;> funext a
  · rw [k0_off61_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]

omit [FloatOps F] [Named F] in
theorem set_idsRowK : (idsRowK L).view.set = rowSetI0 (wL0 L) := by
  show (((View.whole main_v2_scv : View sig .scVector .hbm S32x16x100 .i32).slice (idsRect L)).reshape S16x100 squeezes_S1x16x100_S16x100.numel_eq).set = (rowI0 (wL0 L)).set
  rw [View.set_reshape, View.set_slice_whole]
  exact congrArg (fun r : Rect S32x16x100 => r.set) (idsRect_eq L)
omit [FloatOps F] [Named F] in
theorem set_outRowK : (outRowK L).view.set = rowSetO0 (wL0 L) := by
  show (((View.whole main_v3_scv : View sig .scVector .hbm S32x32x128 .f32).slice (outRect L)).reshape S32x128 squeezes_S1x32x128_S32x128.numel_eq).set = (rowO0 (wL0 L)).set
  rw [View.set_reshape, View.set_slice_whole]
  exact congrArg (fun r : Rect S32x32x128 => r.set) (outRect_eq L)

omit [FloatOps F] [Named F] in
theorem pts_idsRowK (f : Buf (Elt F) (idsLoc0 d)) :
    ((idsRowK L).view.loc (thr0 d L) ↦[(idsRowK L).view.set]{fullShare} f : sProp 𝕄) = idsLoc0 d ↦[rowSetI0 (wL0 L)]{fullShare} f := by
  rw [set_idsRowK]
omit [FloatOps F] [Named F] in
theorem pts_outRowK (f : Buf (Elt F) (outLoc0 d)) :
    ((outRowK L).view.loc (thr0 d L) ↦[(outRowK L).view.set]{fullShare} f : sProp 𝕄) = outLoc0 d ↦[rowSetO0 (wL0 L)]{fullShare} f := by
  rw [set_outRowK]
omit [FloatOps F] [Named F] in
theorem pts_embW (q : PosShare TreeShare) (f : Buf (Elt F) (embLoc d)) :
    ((embW).view.loc (thr0 d L) ↦{q} f : sProp 𝕄) = embLoc d ↦{q} f := rfl

abbrev sIW : Memref sig .scVector .vmem S16x100 .i32 := Memref.whole cc0_scratch0
abbrev sR0W : Memref sig .scVector .vmem S100x128 .f32 := Memref.whole cc0_scratch1
abbrev sR1W : Memref sig .scVector .vmem S100x128 .f32 := Memref.whole cc0_scratch2
abbrev sAW : Memref sig .scVector .vmem S32x128 .f32 := Memref.whole cc0_scratch3
omit [FloatOps F] [Named F] in
theorem pts_sI0 (f : Buf (Elt F) ((thr0 d L).loc cc0_scratch0)) :
    ((sIW).view.loc (thr0 d L) ↦{fullShare} f : sProp 𝕄) = (thr0 d L).loc cc0_scratch0 ↦{fullShare} f := rfl
omit [FloatOps F] [Named F] in
theorem pts_sR0 (f : Buf (Elt F) ((thr0 d L).loc cc0_scratch1)) :
    ((sR0W).view.loc (thr0 d L) ↦{fullShare} f : sProp 𝕄) = (thr0 d L).loc cc0_scratch1 ↦{fullShare} f := rfl
omit [FloatOps F] [Named F] in
theorem pts_sR1 (f : Buf (Elt F) ((thr0 d L).loc cc0_scratch2)) :
    ((sR1W).view.loc (thr0 d L) ↦{fullShare} f : sProp 𝕄) = (thr0 d L).loc cc0_scratch2 ↦{fullShare} f := rfl
omit [FloatOps F] [Named F] in
theorem pts_sA0 (f : Buf (Elt F) ((thr0 d L).loc cc0_scratch3)) :
    ((sAW).view.loc (thr0 d L) ↦{fullShare} f : sProp 𝕄) = (thr0 d L).loc cc0_scratch3 ↦{fullShare} f := rfl

/-! ### The offset lists are in range -/

/-- What the first copy lands in the index scratch: the task's row of the index array. -/
abbrev idsPay (ids : Buf (Elt F) (idsLoc0 d)) : S16x100.Idx → Elt F .i32 := (idsRowK L).view.read (Elt F) ids

omit [FloatOps F] [Named F] in
theorem idsPay_lt (ids : Buf (Elt F) (idsLoc0 d)) (hin : ∀ x : S32x16x100.Idx, (show BitVec 32 from ids x).toNat < 100000) (y : S16x100.Idx) :
    (show BitVec 32 from idsPay d L ids y).toNat < 100000 := by
  show (show BitVec 32 from (idsRowK L).view.read (Elt F) ids y).toNat < 100000
  rw [View.read_apply]
  exact hin _

omit [FloatOps F] [Named F] in
/-- Every word of any row of the index scratch, once the copy has landed a payload whose words are row numbers of the
    table, is one: for any prior contents of the scratch and any row. -/
theorem offs_inb (g0 : Buf (Elt F) ((sIW).view.loc (thr0 d L))) (pay : S16x100.Idx → Elt F .i32)
    (hpay : ∀ y, (show BitVec 32 from pay y).toNat < 100000)
    (row : Fin 2 → Nat) (hk : ∀ a, row a + S1x100.size a ≤ S16x100.size a)
    (hr : ∀ a, (Rect.unit (s := S16x100) row S1x100.size hk).stride a = 1)
    (hq : (Rect.unit (s := S16x100) row S1x100.size hk).shape.Squeezes S100) :
    ∀ x, (View.read (Elt F) (((sIW).slice (Rect.unit (s := S16x100) row S1x100.size hk) hr).squeeze S100 hq).view
      (View.write (Elt F) (sIW).view g0 pay Finset.univ) x).toNat < 100000 := by
  intro x
  rw [View.write_whole_univ, View.read_apply]
  exact hpay _

/-! ### The index scratch by rows: each gather's offset list is one row, lent whole to its stream -/

/-- Row `j` of the index scratch as the body slices it at offsets `off`. -/
abbrev offsP (off : Fin 2 → Nat) (h : ∀ a, off a + S1x100.size a ≤ S16x100.size a) : Memref sig .scVector .vmem S100 .i32 :=
  ((Memref.whole cc0_scratch0 : Memref sig .scVector .vmem S16x100 .i32).slice (Rect.unit (s := S16x100) off S1x100.size h) (fun _ => rfl)).squeeze S100 squeezes_S1x100_S100

/-- Row `j` of the index scratch held outright at contents `f`. -/
abbrev rowPts (f : Buf (Elt F) ((sIW).view.loc (thr0 d L))) (j : Fin 16) : sProp 𝕄 :=
  (sIW).view.loc (thr0 d L) ↦[((sIW).view.slice (S16x100.rowRect 0 j)).set]{fullShare} f

omit [FloatOps F] [Named F] in
theorem rect_row (off : Fin 2 → Nat) (h : ∀ a, off a + S1x100.size a ≤ S16x100.size a) (j : Fin 16) (hoff : off = ![j.val, 0]) :
    Rect.unit (s := S16x100) off S1x100.size h = S16x100.rowRect 0 j := by
  subst hoff
  unfold Shape.rowRect
  congr 1
  congr 1
  · funext a; match a with
    | 0 => rfl
    | 1 => rfl
  · funext a; match a with
    | 0 => rfl
    | 1 => rfl

omit [FloatOps F] [Named F] in
theorem win_eq (off : Fin 2 → Nat) (h : ∀ a, off a + S1x100.size a ≤ S16x100.size a) (j : Fin 16) (hoff : off = ![j.val, 0]) :
    (offsP off h).view.set = ((sIW).view.slice (S16x100.rowRect 0 j)).set := by
  show (((sIW).view.slice (Rect.unit (s := S16x100) off S1x100.size h)).reshape S100 squeezes_S1x100_S100.numel_eq).set = _
  rw [View.set_reshape]
  exact rect_row off h j hoff ▸ rfl

omit [FloatOps F] [Named F] in
theorem pts_offsP (off : Fin 2 → Nat) (h : ∀ a, off a + S1x100.size a ≤ S16x100.size a) (j : Fin 16) (hoff : off = ![j.val, 0])
    (f : Buf (Elt F) ((sIW).view.loc (thr0 d L))) :
    ((offsP off h).view.loc (thr0 d L) ↦[(offsP off h).view.set]{fullShare} f : sProp 𝕄) = rowPts d L f j := by
  rw [win_eq off h j hoff]

omit [FloatOps F] [Named F] in
theorem idsv_rows (f : Buf (Elt F) ((sIW).view.loc (thr0 d L))) :
    ((sIW).view.loc (thr0 d L) ↦{fullShare} f : sProp 𝕄) = bigSep Finset.univ fun j : Fin 16 => rowPts d L f j := by
  have h := pointsTo_rows (Val := Elt F) (U := UU) (Ix := HIx 2) (Name := ℕ) (Lvl := ℕ) (thr0 d L) (sIW).view 0 fullShare f
  rw [show ((sIW).view.set) = Finset.univ from View.set_whole cc0_scratch0] at h
  exact h

omit [FloatOps F] [Named F] in
theorem idsv_row_split (f : Buf (Elt F) ((sIW).view.loc (thr0 d L))) (j : Fin 16) :
    ((sIW).view.loc (thr0 d L) ↦{fullShare} f : sProp 𝕄) = iprop(rowPts d L f j ∗ bigSep (Finset.univ.erase j) fun j : Fin 16 => rowPts d L f j) :=
  (idsv_rows d L f).trans (bigSep_univ_split j)

/-! ### The streams' loop: its invariant -/

/-- A row number of the index scratch from a natural number (in range wherever it is used). -/
abbrev fin16 (n : ℕ) : Fin 16 := ⟨n % 16, Nat.mod_lt _ (by decide)⟩

/-- The table as the gathers slice it (whole). -/
abbrev embSl : Memref sig .scVector .hbm S100000x128 .f32 :=
  (Memref.whole main_arg3_scv : Memref sig .scVector .hbm S100000x128 .f32).slice (Rect.unit (s := S100000x128) ![0, 0] S100000x128.size inb_S100000x128_S100000x128_0_0) (fun _ => rfl)

omit [FloatOps F] [Named F] in
theorem inbRow (j : Fin 16) : ∀ a, (![j.val, 0] : Fin 2 → ℕ) a + S1x100.size a ≤ S16x100.size a := by
  intro a
  match a with
  | 0 => show j.val + 1 ≤ 16; omega
  | 1 => show 0 + 100 ≤ 100; omega

/-- Every word of every row of the index scratch at contents `fi` names a row of the table. -/
abbrev IdxOK (fi : Buf (Elt F) ((sIW).view.loc (thr0 d L))) : Prop :=
  ∀ (row : Fin 2 → ℕ) (hk : ∀ a, row a + S1x100.size a ≤ S16x100.size a) (x : S100.Idx),
    ((offsP row hk).view.read (Elt F) fi x).toNat < 100000

/-- What a gather over row `c` of the index scratch (contents `fi`) lands in a rows buffer. -/
def gPay (emb : Buf (Elt F) (embLoc d)) (fi : Buf (Elt F) ((sIW).view.loc (thr0 d L))) (hfi : IdxOK d L fi) (c : Fin 16) :
    S100x128.Idx → Elt F .f32 :=
  SparseCore.gatherPayload gathers_S100000x128_S100x128 ((embSl).view.read (Elt F) emb)
    (SparseCore.rows ((offsP ![c.val, 0] (inbRow c)).view.read (Elt F) fi) rfl (hfi ![c.val, 0] (inbRow c)))

/-- A gather of chunk `c` into the first rows buffer in flight on its semaphore, reading the table at share `qe`: it
    delivers the buffer at the gathered rows, row `c` of the index scratch, and the table's share. -/
def flightC0 (emb : Buf (Elt F) (embLoc d)) (fi : Buf (Elt F) ((sIW).view.loc (thr0 d L))) (hfi : IdxOK d L fi)
    (c : Fin 16) (qe : PosShare TreeShare) : sProp 𝕄 :=
  Transfers.Flight countersEmb (thr0 d L) (SemLoc.dma cc0_scratch4.sem) default 409600
    iprop((((sR0W).view.loc (thr0 d L) ↦{fullShare} gPay d L emb fi hfi c) ∗ rowPts d L fi c)
      ∗ ((embW).view.loc (thr0 d L) ↦{qe} emb))

/-- Before trip `k` of the streams' loop: the second rows buffer and its semaphore free, the accumulator held, the
    table's second share held; while trips remain, the gather of chunk `2k` in flight into the first rows buffer and
    every other row of the index scratch held; after the last, everything back. -/
def outerInv (emb : Buf (Elt F) (embLoc d)) (fi : Buf (Elt F) ((sIW).view.loc (thr0 d L))) (hfi : IdxOK d L fi)
    (q : PosShare TreeShare) (O : CellTallies nD τ sig (HIx 2)) (W : Waits sig (HIx 2)) (k : ℕ) (_ : PUnit) : sProp 𝕄 :=
  iprop(Transfers.MayWaits (thr0 d L) (none : HIx 2) O
    ∗ semVal (c5 d L) 0
    ∗ (∃ f1, (sR1W).view.loc (thr0 d L) ↦{fullShare} f1)
    ∗ ((embW).view.loc (thr0 d L) ↦{q.right} emb)
    ∗ (∃ fA, (sAW).view.loc (thr0 d L) ↦{fullShare} fA)
    ∗ (if k < 8 then iprop(flightC0 d L emb fi hfi (fin16 (2 * k)) q.left
          ∗ bigSep (Finset.univ.erase (fin16 (2 * k))) fun j => rowPts d L fi j)
       else iprop(semVal (c4 d L) 0 ∗ (∃ f0, (sR0W).view.loc (thr0 d L) ↦{fullShare} f0)
          ∗ ((sIW).view.loc (thr0 d L) ↦{fullShare} fi) ∗ ((embW).view.loc (thr0 d L) ↦{q.left} emb)))
    ∗ ∃ W', ⌜∀ p ∈ W', p ∈ W ∨ p.2 = none⌝ ∗ owes (thr0 d L) O W')

/-! ### The values: what the buffers hold -/

/-- Element `(r, q)` of a rows buffer's contents (total: the coordinates reduced into range). -/
def Gat (G : S100x128.Idx → Elt F .f32) (r q : ℕ) : F .f32 :=
  G (Shape.pair (d := ![100, 128]) ⟨r % 100, Nat.mod_lt _ (by decide)⟩ ⟨q % 128, Nat.mod_lt _ (by decide)⟩)

/-- Lane group `j` of the sum, from the left, of rows `base, …, base + t` of a rows buffer's contents. -/
def accV (G : S100x128.Idx → Elt F .f32) (base j t : ℕ) : FVec F S16 .f32 :=
  fun lane => lsum (fun l => Gat G (base + l) (16 * j + (lane 0).val)) t

omit [Named F] in
theorem accV_zero (G : S100x128.Idx → Elt F .f32) (base j : ℕ) :
    accV G base j 0 = fun lane => Gat G base (16 * j + (lane 0).val) := rfl

omit [Named F] in
/-- One more row added to every lane of a lane group. -/
theorem accV_succ (G : S100x128.Idx → Elt F .f32) (base j t r : ℕ) (hr : r = base + (t + 1)) :
    addf (accV G base j t) (fun lane => Gat G r (16 * j + (lane 0).val)) = accV G base j (t + 1) := by
  subst hr; rfl

/-- The eight lane groups after `t` additions. -/
def accs8 (G : S100x128.Idx → Elt F .f32) (base t : ℕ) :
    FVec F S16 .f32 × FVec F S16 .f32 × FVec F S16 .f32 × FVec F S16 .f32 × FVec F S16 .f32 × FVec F S16 .f32 × FVec F S16 .f32 × FVec F S16 .f32 :=
  (accV G base 0 t, accV G base 1 t, accV G base 2 t, accV G base 3 t, accV G base 4 t, accV G base 5 t, accV G base 6 t, accV G base 7 t)

/-- The pooled sum before the activation at `(i, q)` of the task's result block, from the index array and the table. -/
def Spre (ids : S32x16x100.Idx → Elt F .i32) (emb : S100000x128.Idx → Elt F .f32) (w : Fin 32) (x : S32x128.Idx) : F .f32 :=
  lsum (fun l => embAt emb (rowNo (nch := 16) ids w (x 0).val (by have := (x 0).isLt; change _ < 32 at this; omega) l) (x 1)) 49

/-- The accumulator's rows below `n` hold the pooled sums. -/
def AccOK (ids : S32x16x100.Idx → Elt F .i32) (emb : S100000x128.Idx → Elt F .f32) (w : Fin 32) (n : ℕ)
    (fA : S32x128.Idx → Elt F .f32) : Prop :=
  ∀ x : S32x128.Idx, (x 0).val < n → fA x = Spre ids emb w x

/-- The accumulator's rows below `n` hold the activated values, the others the pooled sums. -/
def ActOK (inv zero : F .f32) (ids : S32x16x100.Idx → Elt F .i32) (emb : S100000x128.Idx → Elt F .f32) (w : Fin 32) (n : ℕ)
    (fA : S32x128.Idx → Elt F .f32) : Prop :=
  ∀ x : S32x128.Idx, fA x = if (x 0).val < n then FloatOps.maximumf (FloatOps.mulf (Spre ids emb w x) inv) zero else Spre ids emb w x

/-! ### Small facts the run's bookkeeping uses -/

omit [FloatOps F] [Named F] in
/-- The table sliced whole is the table. -/
theorem embSl_set : (embSl).view.set = Finset.univ := by
  show ((View.whole main_arg3_scv : View sig .scVector .hbm S100000x128 .f32).slice (Rect.unit (s := S100000x128) ![0, 0] S100000x128.size inb_S100000x128_S100000x128_0_0)).set = Finset.univ
  rw [View.set_slice_whole]
  ext i
  simp only [Rect.mem_set_unit, Finset.mem_univ, iff_true]
  intro a
  match a with
  | 0 => exact ⟨Nat.zero_le _, by simp; exact (i 0).isLt⟩
  | 1 => exact ⟨Nat.zero_le _, by simp; exact (i 1).isLt⟩

omit [FloatOps F] [Named F] in
theorem pts_embSl (qe : PosShare TreeShare) (f : Buf (Elt F) (embLoc d)) :
    ((embW).view.loc (thr0 d L) ↦[(embSl).view.set]{qe} f : sProp 𝕄) = ((embW).view.loc (thr0 d L) ↦{qe} f) := by
  rw [embSl_set]

omit [FloatOps F] [Named F] in
/-- A whole buffer written whole holds what was written. -/
theorem whole_writes (b : Ref sig .scVector) (f w : b.ty.Contents (Elt F)) :
    (Memref.whole b).view.writes (Elt F) f [⟨Rect.whole _, w⟩] = w :=
  Memref.write_access_whole_univ (Elt F) b f w

omit [FloatOps F] [Named F] in
/-- The gather's payload over a row of the index scratch sliced at offsets `off` is the one over row `c` when `off` names it. -/
theorem gPay_off (emb : Buf (Elt F) (embLoc d)) (fi : Buf (Elt F) ((sIW).view.loc (thr0 d L))) (hfi : IdxOK d L fi)
    (off : Fin 2 → Nat) (h : ∀ a, off a + S1x100.size a ≤ S16x100.size a) (c : Fin 16) (hoff : off = ![c.val, 0])
    (hn : S100.numel = S100x128.size gathers_S100000x128_S100x128.axis')
    (hin : ∀ x, ((offsP off h).view.read (Elt F) fi x).toNat < S100000x128.size gathers_S100000x128_S100x128.axis) :
    SparseCore.gatherPayload gathers_S100000x128_S100x128 ((embSl).view.read (Elt F) emb)
        (SparseCore.rows ((offsP off h).view.read (Elt F) fi) hn hin) = gPay d L emb fi hfi c := by
  subst hoff; rfl

omit [FloatOps F] [Named F] in
/-- Rows `a` and `b` back among the others, row `c` out. -/
theorem rows_shift (fi : Buf (Elt F) ((sIW).view.loc (thr0 d L))) (a b c : Fin 16) (hab : a ≠ b) (hac : a ≠ c) (hbc : b ≠ c) :
    iprop(rowPts d L fi a ∗ rowPts d L fi b ∗ bigSep (((Finset.univ.erase a).erase b).erase c) fun j : Fin 16 => rowPts d L fi j)
      ⊢ (bigSep (Finset.univ.erase c) fun j : Fin 16 => rowPts d L fi j : sProp 𝕄) := by
  rw [SparseCore.bigSep_erase' (i := a) (s := Finset.univ.erase c) (Finset.mem_erase.mpr ⟨hac, Finset.mem_univ _⟩),
    SparseCore.bigSep_erase' (i := b) (s := (Finset.univ.erase c).erase a) (Finset.mem_erase.mpr ⟨hab.symm, Finset.mem_erase.mpr ⟨hbc, Finset.mem_univ _⟩⟩),
    show ((Finset.univ : Finset (Fin 16)).erase c).erase a = (Finset.univ.erase a).erase c from Finset.erase_right_comm,
    show (((Finset.univ : Finset (Fin 16)).erase a).erase c).erase b = ((Finset.univ.erase a).erase b).erase c from Finset.erase_right_comm]

omit [FloatOps F] [Named F] in
/-- The last two rows back: every row. -/
theorem rows_all (fi : Buf (Elt F) ((sIW).view.loc (thr0 d L))) (a b : Fin 16) (hab : a ≠ b) :
    iprop(rowPts d L fi a ∗ rowPts d L fi b ∗ bigSep ((Finset.univ.erase a).erase b) fun j : Fin 16 => rowPts d L fi j)
      ⊢ ((sIW).view.loc (thr0 d L) ↦{fullShare} fi : sProp 𝕄) := by
  rw [idsv_rows, SparseCore.bigSep_erase' (i := a) (s := Finset.univ) (Finset.mem_univ _),
    SparseCore.bigSep_erase' (i := b) (s := Finset.univ.erase a) (Finset.mem_erase.mpr ⟨hab.symm, Finset.mem_univ _⟩)]

omit [Named F] in
theorem lsum_congr (f g : ℕ → F .f32) (n : ℕ) (h : ∀ l, l ≤ n → f l = g l) : lsum f n = lsum g n := by
  induction n with
  | zero => exact h 0 (Nat.le_refl _)
  | succ n ih => rw [lsum_succ, lsum_succ, ih (fun l hl => h l (Nat.le_succ_of_le hl)), h (n + 1) (Nat.le_refl _)]

end Tile0
end Cert.Proof.KI
end
-- ==== Proof.Claims.lean ====
/-
  The five conjuncts, from the two pooling calls' task obligations. The program's run (the launch theorem over those
  obligations) ends with the result array and the six arguments at the final valuation; the arguments are never
  written, which is the frame, at either float instance; the precondition puts every index word below the table's
  height, which is what the pooling calls' gathers ask; and at the extended reals the result array is the
  specification, which is also what the reference's run ends at from a memory that agrees on the arguments.
-/
import proofs.«204104_g71330816851969_cont_9to1_m_219_17_alg».proof.Defs
import proofs.«204104_g71330816851969_cont_9to1_m_219_17_alg».proof.Proof.Launch
import proofs.«204104_g71330816851969_cont_9to1_m_219_17_alg».proof.Proof.B.Launch
import proofs.«204104_g71330816851969_cont_9to1_m_219_17_alg».proof.Proof.ArgsKept
import proofs.«204104_g71330816851969_cont_9to1_m_219_17_alg».proof.Proof.B.ArgsKept
import proofs.«204104_g71330816851969_cont_9to1_m_219_17_alg».proof.Proof.FinalValue
import proofs.«204104_g71330816851969_cont_9to1_m_219_17_alg».proof.Proof.RefClaims
import proofs.«204104_g71330816851969_cont_9to1_m_219_17_alg».proof.Proof.PreRange
import proofs.«204104_g71330816851969_cont_9to1_m_219_17_alg».proof.Proof.Tile0Defs

noncomputable section
namespace Cert.Proof.Claims
open Idealize.ShloMosaic Idealize.SL.Sem
open Cert.Proof (KI.run_main KB.run_main)
open Cert.Proof.Spec

/-- The first pooling call's scale, as its body spells it, is one fiftieth at the extended reals, -/
theorem inv0_ideal : KI.inv0 (F := Ideal) = ((1 / 50 : ℝ) : EReal) := Cert.Proof.Bridge.inv50
/-- and its clamp is zero. -/
theorem zero0_ideal : KI.zero0 (F := Ideal) = (0 : EReal) := Cert.Proof.Bridge.zero32

/-- The idealized program's frame. -/
theorem frame_ki_of (inv0 zero0 inv1 zero1 : EReal)
    (ht0 : ∀ m : (ℓ : Loc Cert.KernelIdeal.nD Cert.KernelIdeal.τ Cert.KernelIdeal.sig) → Buf (Elt Ideal) ℓ,
      (∀ d x, (show BitVec 32 from KI.V1 m d KI.v2' x).toNat < 100000) →
        (KI.K (F := Ideal)).TileObl (KI.D (F := Ideal)) KI.𝒱 (KI.P (KI.C m inv0 zero0 inv1 zero1)) KI.v₀ 0)
    (ht1 : ∀ m : (ℓ : Loc Cert.KernelIdeal.nD Cert.KernelIdeal.τ Cert.KernelIdeal.sig) → Buf (Elt Ideal) ℓ,
      (∀ d x, (show BitVec 32 from KI.V3 m inv0 zero0 d KI.v6' x).toNat < 100000) →
        (KI.K (F := Ideal)).TileObl (KI.D (F := Ideal)) KI.𝒱 (KI.P (KI.C m inv0 zero0 inv1 zero1)) KI.v₀ 1) :
    Cert.frame_KernelIdeal (hKernelIdeal := Cert.KernelIdeal.Gen.facts) (hPre_input_domain := Cert.Pre_input_domain.Gen.facts) := by
  intro m g hpre
  have hr : ∀ (d : Dev Cert.KernelIdeal.nD) i, (show BitVec 32 from m ((SparseCore.T d).loc Cert.KernelIdeal.main_arg0) i).toNat < 100000 :=
    fun d i => Cert.Proof.PreRange.ids_lt _ _ _ _ _ _ (hpre d) i
  refine (θ_run _ _ _).mono (fun r h c => ?_)
    (KI.run_main (F := Ideal) m g inv0 zero0 inv1 zero1 (ht0 m fun d => KI.ids0_lt m d (hr d)) (ht1 m fun d => KI.ids1_lt m inv0 zero0 d (hr d)))
  obtain ⟨-, h0, h1, h2, h3, h4, h5⟩ := h c
  exact ⟨h0.trans (KI.V8_a0 m inv0 zero0 inv1 zero1 c), h1.trans (KI.V8_a1 m inv0 zero0 inv1 zero1 c),
    h2.trans (KI.V8_a2 m inv0 zero0 inv1 zero1 c), h3.trans (KI.V8_a3 m inv0 zero0 inv1 zero1 c),
    h4.trans (KI.V8_a4 m inv0 zero0 inv1 zero1 c), h5.trans (KI.V8_a5 m inv0 zero0 inv1 zero1 c)⟩

/-- The word-level program's frame. -/
theorem frame_k_of (inv0 zero0 inv1 zero1 : Bits .f32)
    (ht0 : ∀ m : (ℓ : Loc Cert.Kernel.nD Cert.Kernel.τ Cert.Kernel.sig) → Buf (Elt Bits) ℓ,
      (∀ d x, (show BitVec 32 from KB.V1 m d KB.v2' x).toNat < 100000) →
        (KB.K (F := Bits)).TileObl (KB.D (F := Bits)) KB.𝒱 (KB.P (KB.C m inv0 zero0 inv1 zero1)) KB.v₀ 0)
    (ht1 : ∀ m : (ℓ : Loc Cert.Kernel.nD Cert.Kernel.τ Cert.Kernel.sig) → Buf (Elt Bits) ℓ,
      (∀ d x, (show BitVec 32 from KB.V3 m inv0 zero0 d KB.v6' x).toNat < 100000) →
        (KB.K (F := Bits)).TileObl (KB.D (F := Bits)) KB.𝒱 (KB.P (KB.C m inv0 zero0 inv1 zero1)) KB.v₀ 1) :
    Cert.frame_Kernel (hKernel := Cert.Kernel.Gen.facts) (hPre_input_domain := Cert.Pre_input_domain.Gen.facts) := by
  intro m g hpre
  have hr : ∀ (d : Dev Cert.Kernel.nD) i, (show BitVec 32 from m ((SparseCore.T d).loc Cert.Kernel.main_arg0) i).toNat < 100000 :=
    fun d i => Cert.Proof.PreRange.ids_lt _ _ _ _ _ _ (hpre d) i
  refine (θ_run _ _ _).mono (fun r h c => ?_)
    (KB.run_main (F := Bits) m g inv0 zero0 inv1 zero1 (ht0 m fun d => KB.ids0_lt m d (hr d)) (ht1 m fun d => KB.ids1_lt m inv0 zero0 d (hr d)))
  obtain ⟨-, h0, h1, h2, h3, h4, h5⟩ := h c
  exact ⟨h0.trans (KB.V8_a0 m inv0 zero0 inv1 zero1 c), h1.trans (KB.V8_a1 m inv0 zero0 inv1 zero1 c),
    h2.trans (KB.V8_a2 m inv0 zero0 inv1 zero1 c), h3.trans (KB.V8_a3 m inv0 zero0 inv1 zero1 c),
    h4.trans (KB.V8_a4 m inv0 zero0 inv1 zero1 c), h5.trans (KB.V8_a5 m inv0 zero0 inv1 zero1 c)⟩

/-- The comparison at the extended reals: both programs end with the result at the specification of the arguments. -/
theorem algebraic_of (inv0 zero0 inv1 zero1 : EReal) (hi0 : inv0 = ((1 / 50 : ℝ) : EReal)) (hz0 : zero0 = 0)
    (hi1 : inv1 = ((1 / 50 : ℝ) : EReal)) (hz1 : zero1 = 0)
    (ht0 : ∀ m : (ℓ : Loc Cert.KernelIdeal.nD Cert.KernelIdeal.τ Cert.KernelIdeal.sig) → Buf (Elt Ideal) ℓ,
      (∀ d x, (show BitVec 32 from KI.V1 m d KI.v2' x).toNat < 100000) →
        (KI.K (F := Ideal)).TileObl (KI.D (F := Ideal)) KI.𝒱 (KI.P (KI.C m inv0 zero0 inv1 zero1)) KI.v₀ 0)
    (ht1 : ∀ m : (ℓ : Loc Cert.KernelIdeal.nD Cert.KernelIdeal.τ Cert.KernelIdeal.sig) → Buf (Elt Ideal) ℓ,
      (∀ d x, (show BitVec 32 from KI.V3 m inv0 zero0 d KI.v6' x).toNat < 100000) →
        (KI.K (F := Ideal)).TileObl (KI.D (F := Ideal)) KI.𝒱 (KI.P (KI.C m inv0 zero0 inv1 zero1)) KI.v₀ 1) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hr : ∀ (d : Dev Cert.KernelIdeal.nD) i, (show BitVec 32 from m ((SparseCore.T d).loc Cert.KernelIdeal.main_arg0) i).toNat < 100000 :=
    fun d i => Cert.Proof.PreRange.ids_lt _ _ _ _ _ _ (hpre d) i
  refine ⟨fun c => Gspec (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_,
    Cert.Proof.RefClaims.ref_half m m' g' hpre hagree⟩
  refine (θ_run _ _ _).mono (fun r h c => ?_)
    (KI.run_main (F := Ideal) m g inv0 zero0 inv1 zero1 (ht0 m fun d => KI.ids0_lt m d (hr d)) (ht1 m fun d => KI.ids1_lt m inv0 zero0 d (hr d)))
  obtain ⟨hv, h0, h1, h2, h3, h4, h5⟩ := h c
  exact ⟨hv.trans (KI.final_value m inv0 zero0 inv1 zero1 c hi0 hz0 hi1 hz1 (hr c)),
    h0.trans (KI.V8_a0 m inv0 zero0 inv1 zero1 c), h1.trans (KI.V8_a1 m inv0 zero0 inv1 zero1 c),
    h2.trans (KI.V8_a2 m inv0 zero0 inv1 zero1 c), h3.trans (KI.V8_a3 m inv0 zero0 inv1 zero1 c),
    h4.trans (KI.V8_a4 m inv0 zero0 inv1 zero1 c), h5.trans (KI.V8_a5 m inv0 zero0 inv1 zero1 c)⟩

/-- The two ledger entries: the table gives the named constant the value one fiftieth. -/
theorem preserves_of : Cert.preserves_Kernel_KernelIdeal :=
  ⟨IdealRules.named_const.statement Cert.KernelIdeal.κ "inv_50" .f32 0x3CA3D70A#32 ((1 / 50 : ℝ) : EReal) rfl,
   IdealRules.named_const.statement Cert.KernelIdeal.κ "inv_50" .f32 0x3CA3D70A#32 ((1 / 50 : ℝ) : EReal) rfl⟩

/-- Everything the certificate claims, from the four task obligations (two calls, two float instances). -/
theorem claim_of (iI0 zI0 iI1 zI1 : EReal) (hi0 : iI0 = ((1 / 50 : ℝ) : EReal)) (hz0 : zI0 = 0)
    (hi1 : iI1 = ((1 / 50 : ℝ) : EReal)) (hz1 : zI1 = 0)
    (htI0 : ∀ m : (ℓ : Loc Cert.KernelIdeal.nD Cert.KernelIdeal.τ Cert.KernelIdeal.sig) → Buf (Elt Ideal) ℓ,
      (∀ d x, (show BitVec 32 from KI.V1 m d KI.v2' x).toNat < 100000) →
        (KI.K (F := Ideal)).TileObl (KI.D (F := Ideal)) KI.𝒱 (KI.P (KI.C m iI0 zI0 iI1 zI1)) KI.v₀ 0)
    (htI1 : ∀ m : (ℓ : Loc Cert.KernelIdeal.nD Cert.KernelIdeal.τ Cert.KernelIdeal.sig) → Buf (Elt Ideal) ℓ,
      (∀ d x, (show BitVec 32 from KI.V3 m iI0 zI0 d KI.v6' x).toNat < 100000) →
        (KI.K (F := Ideal)).TileObl (KI.D (F := Ideal)) KI.𝒱 (KI.P (KI.C m iI0 zI0 iI1 zI1)) KI.v₀ 1)
    (iB0 zB0 iB1 zB1 : Bits .f32)
    (htB0 : ∀ m : (ℓ : Loc Cert.Kernel.nD Cert.Kernel.τ Cert.Kernel.sig) → Buf (Elt Bits) ℓ,
      (∀ d x, (show BitVec 32 from KB.V1 m d KB.v2' x).toNat < 100000) →
        (KB.K (F := Bits)).TileObl (KB.D (F := Bits)) KB.𝒱 (KB.P (KB.C m iB0 zB0 iB1 zB1)) KB.v₀ 0)
    (htB1 : ∀ m : (ℓ : Loc Cert.Kernel.nD Cert.Kernel.τ Cert.Kernel.sig) → Buf (Elt Bits) ℓ,
      (∀ d x, (show BitVec 32 from KB.V3 m iB0 zB0 d KB.v6' x).toNat < 100000) →
        (KB.K (F := Bits)).TileObl (KB.D (F := Bits)) KB.𝒱 (KB.P (KB.C m iB0 zB0 iB1 zB1)) KB.v₀ 1) :
    Cert.Claim :=
  ⟨Cert.Kernel.Gen.facts, Cert.KernelIdeal.Gen.facts, Cert.ReferenceIdeal.Gen.facts, Cert.Pre_input_domain.Gen.facts,
    frame_k_of iB0 zB0 iB1 zB1 htB0 htB1, frame_ki_of iI0 zI0 iI1 zI1 htI0 htI1, Cert.Proof.RefClaims.frame_ref, preserves_of,
    algebraic_of iI0 zI0 iI1 zI1 hi0 hz0 hi1 hz1 htI0 htI1⟩

end Cert.Proof.Claims
end
-- ==== Proof.Val0A.lean ====
/-
  The values a pooling task's gathers land: the index scratch holds the task's row of the index array, so row `c` of
  the scratch names, position by position, the table rows the index array names at `(w, c, ·)`; a gather over that row
  lands, at `(r, q)`, lane `q` of the table's row named at `(w, c, r)`.
-/
import proofs.«204104_g71330816851969_cont_9to1_m_219_17_alg».proof.Proof.Tile0Defs

noncomputable section
namespace Cert.Proof.KI
open Cert.KernelIdeal Cert.KernelIdeal.Gen
open Idealize.ShloMosaic
open Idealize.ShloMosaic.SparseCore (S V T)
open Idealize.SL Idealize.SL.Sem

variable {F : FTy → Type} [FloatOps F] [Named F]
section Tile0
variable (d : Dev nD) (L : grid0.Coords)

omit [FloatOps F] [Named F] in
/-- A position of a list of 100 re-indexed as one row of 100: row 0, the same position. -/
theorem rsh_100 (h : S100.numel = S1x100.numel) (x : S100.Idx) :
    Shape.reshapeEquiv h x = Shape.pair (d := ![1, 100]) (0 : Fin 1) (x 0) := by
  refine Shape.reshapeEquiv_eq_of_rowMajor h ?_
  rw [Shape.rowMajor_val_two, Shape.rowMajor_val_one]
  show (0 : ℕ) * 100 + (x 0).val = (x 0).val
  omega

omit [FloatOps F] [Named F] in
/-- An index of [16,100] re-indexed as one slab of [1,16,100]: slab 0, the same coordinates. -/
theorem rsh_16x100 (h : S16x100.numel = S1x16x100.numel) (y : S16x100.Idx) :
    Shape.reshapeEquiv h y = ix3 (a := 1) (b := 16) (c := 100) (0 : Fin 1) (y 0) (y 1) := by
  refine Shape.reshapeEquiv_eq_of_rowMajor h ?_
  rw [Shape.rowMajor_val_three, Shape.rowMajor_val_two]
  show ((0 : ℕ) * 16 + (y 0).val) * 100 + (y 1).val = (y 0).val * 100 + (y 1).val
  omega

omit [Named F] [FloatOps F] in
/-- Position `r` of row `c` of the index scratch, once the task's row of the index array has landed in it, is the
    index array at `(w, c, r)`. -/
theorem offs_read (ids : Buf (Elt F) (idsLoc0 d)) (fI : Buf (Elt F) ((sIW).view.loc (thr0 d L))) (c : Fin 16) (x : S100.Idx)
    (r : ℕ) (hr : r < 100) (hx : (x 0).val = r) :
    (offsP ![c.val, 0] (inbRow c)).view.read (Elt F) (View.write (Elt F) (sIW).view fI (idsPay d L ids) Finset.univ) x
      = ids (ix3 (a := 32) (b := 16) (c := 100) (wL0 L) c ⟨r, hr⟩) := by
  have hw : View.write (Elt F) (sIW).view fI (idsPay d L ids) Finset.univ = idsPay d L ids := View.write_whole_univ _ _ _
  rw [hw, View.read_apply]
  refine (cast_eq _ _).trans ?_
  unfold idsPay
  rw [View.read_apply]
  refine (cast_eq _ _).trans ?_
  refine congrArg ids ?_
  funext b; apply Fin.ext
  simp only [Memref.view_slice, Memref.view_whole, Memref.view_squeeze, View.emb_slice, View.emb_whole, View.emb_reshape,
    Function.Embedding.trans_apply, Function.Embedding.refl_apply, Equiv.coe_toEmbedding, Rect.emb_apply, rsh_100, rsh_16x100]
  show ((idsRect L).emb (Shape.reshapeEquiv _ ((Rect.unit (s := S16x100) ![c.val, 0] S1x100.size (inbRow c)).emb (Shape.reshapeEquiv _ x))) b).val = _
  rw [Rect.emb_apply, rsh_16x100, rsh_100]
  match b with
  | ⟨0, hb⟩ =>
    show (k0_off1 L) 0 + 1 * 0 = 16 * (L 0).val + (L 1).val
    rw [k0_off1_eq]; rfl
  | ⟨1, hb⟩ =>
    show (k0_off1 L) 1 + 1 * ((Rect.unit (s := S16x100) ![c.val, 0] S1x100.size (inbRow c)).emb (Shape.pair (d := ![1, 100]) (0 : Fin 1) (x 0)) 0).val = c.val
    rw [k0_off1_eq, Rect.emb_apply]
    show 0 + 1 * (c.val + 1 * 0) = c.val
    omega
  | ⟨2, hb⟩ =>
    show (k0_off1 L) 2 + 1 * ((Rect.unit (s := S16x100) ![c.val, 0] S1x100.size (inbRow c)).emb (Shape.pair (d := ![1, 100]) (0 : Fin 1) (x 0)) 1).val = r
    rw [k0_off1_eq, Rect.emb_apply]
    show 0 + 1 * (0 + 1 * (x 0).val) = r
    omega

omit [FloatOps F] [Named F] in
/-- The row an offset list names for position `k`: the word at `k`, as a natural number. -/
theorem rows_val {o z : ℕ} (idx : S100.Idx → Elt F .i32) (hn : S100.numel = o) (h : ∀ x, (idx x).toNat < z) (k : Fin o) :
    (SparseCore.rows idx hn h k).val = (idx (S100.rowMajor.symm (k.cast hn.symm))).toNat := rfl

omit [FloatOps F] [Named F] in
/-- The index of a list of 100 at row-major position `k` has coordinate `k`. -/
theorem symm_coord (k : Fin S100.numel) : ((S100.rowMajor.symm k) 0).val = k.val := by
  have h := Shape.rowMajor_val_one (d := ![100]) (S100.rowMajor.symm k)
  rw [Equiv.apply_symm_apply] at h
  exact h.symm

omit [Named F] in
/-- What a gather over row `c` of the index scratch lands at `(r, q)`: lane `q` of the table's row named by the index
    array at `(w, c, r)`. -/
theorem gPay_apply (ids : Buf (Elt F) (idsLoc0 d)) (emb : Buf (Elt F) (embLoc d)) (fI : Buf (Elt F) ((sIW).view.loc (thr0 d L)))
    (hfi : IdxOK d L (View.write (Elt F) (sIW).view fI (idsPay d L ids) Finset.univ)) (c : Fin 16) (r q : ℕ) (hr : r < 100) (hq : q < 128) :
    Gat (gPay d L emb (View.write (Elt F) (sIW).view fI (idsPay d L ids) Finset.univ) hfi c) r q
      = embAt emb (show BitVec 32 from ids (ix3 (wL0 L) c ⟨r, hr⟩)).toNat ⟨q, hq⟩ := by
  unfold Gat gPay SparseCore.gatherPayload embAt
  rw [View.read_apply]
  refine (cast_eq _ _).trans (congrArg emb ?_)
  have hr' : r % 100 = r := Nat.mod_eq_of_lt hr
  have hq' : q % 128 = q := Nat.mod_eq_of_lt hq
  funext b; apply Fin.ext
  show ((Rect.unit (s := S100000x128) ![0, 0] S100000x128.size inb_S100000x128_S100000x128_0_0).emb (gathers_S100000x128_S100x128.idx _ _) b).val = _
  rw [Rect.emb_apply]
  match b with
  | ⟨1, hb⟩ =>
    show 0 + 1 * (gathers_S100000x128_S100x128.idx _ _ ⟨1, hb⟩).val = q
    rw [Shape.Gathers.idx_of_ne _ _ _ ⟨1, hb⟩ Nat.one_ne_zero]
    show 0 + 1 * (q % 128) = q
    omega
  | ⟨0, hb⟩ =>
    show 0 + 1 * (Shape.Gathers.idx gathers_S100000x128_S100x128 _ _ ⟨0, hb⟩).val = _
    unfold Shape.Gathers.idx
    rw [dif_pos rfl, Fin.val_cast]
    let k : Fin (S100x128.size gathers_S100000x128_S100x128.axis') :=
      (Shape.pair (d := ![100, 128]) ⟨r % 100, Nat.mod_lt _ (by decide)⟩ ⟨q % 128, Nat.mod_lt _ (by decide)⟩ : S100x128.Idx) gathers_S100000x128_S100x128.axis'
    let x : S100.Idx := S100.rowMajor.symm (Fin.cast (by rfl) k)
    have hx : (x 0).val = r := by
      show ((S100.rowMajor.symm (Fin.cast _ k)) 0).val = r
      rw [symm_coord]; exact hr'
    have hrd := offs_read d L ids fI c x r hr hx
    have hn := hfi ![c.val, 0] (inbRow c) x
    rw [hrd] at hn
    show 0 + 1 * BitVec.toNat ((offsP ![c.val, 0] (inbRow c)).view.read (Elt F) (View.write (Elt F) (sIW).view fI (idsPay d L ids) Finset.univ) x)
      = BitVec.toNat (ids (ix3 (wL0 L) c ⟨r, hr⟩)) % 100000
    rw [hrd, Nat.mod_eq_of_lt hn]; omega

end Tile0
end Cert.Proof.KI
end
-- ==== Proof.Val0B.lean ====
/-
  Reads and writes of sixteen-lane groups through the task's whole scratch buffers: a group read off a rows buffer or
  off the accumulator is the buffer's contents at the row and the sixteen columns the offsets name, and a group
  stored into the accumulator replaces those sixteen elements and leaves the others.
-/
import proofs.«204104_g71330816851969_cont_9to1_m_219_17_alg».proof.Proof.Tile0Defs
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Val0B

variable (d : Dev nD) (L : grid0.Coords)

/-- The index of the one-row, sixteen-column group under lane `lane`. -/
def laneIx (lane : S16.Idx) : S1x16.Idx :=
  Shape.pair (d := ![1, 16]) ⟨0, by decide⟩ ⟨(lane 0).val, (lane 0).isLt⟩

omit [FloatOps F] [Named F] in
theorem laneIx_rowMajor (lane : S16.Idx) : (S1x16.rowMajor (laneIx lane)).val = (S16.rowMajor lane).val := by
  rw [Shape.rowMajor_val_two, Shape.rowMajor_val_one]
  show 0 * 16 + (lane 0).val = (lane 0).val
  omega

omit [Named F] in
/-- A sixteen-lane group read off the first rows buffer at row `r`, columns `c0 …`. -/
theorem lane_read0 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR0W).view (Rect.unit (s := S100x128) off S1x16.size h).toLoadRect G) hsc
      = fun lane => Gat G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx lane) (laneIx_rowMajor lane), View.readAt_apply, View.read_apply]
  unfold Gat
  show G _ = G _
  congr 1
  funext a; apply Fin.ext
  match a with
  | 0 => show r + 1 * 0 = r % 100; omega
  | 1 => show c0 + 1 * (lane 0).val = (c0 + (lane 0).val) % 128; omega

omit [Named F] in
/-- The same off the second rows buffer. -/
theorem lane_read1 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR1W).view (Rect.unit (s := S100x128) off S1x16.size h).toLoadRect G) hsc
      = fun lane => Gat G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx lane) (laneIx_rowMajor lane), View.readAt_apply, View.read_apply]
  unfold Gat
  show G _ = G _
  congr 1
  funext a; apply Fin.ext
  match a with
  | 0 => show r + 1 * 0 = r % 100; omega
  | 1 => show c0 + 1 * (lane 0).val = (c0 + (lane 0).val) % 128; omega

omit [FloatOps F] [Named F] in
/-- A sixteen-lane group read off the accumulator at row `i`, columns `c0 …`, lane by lane. -/
theorem lane_readA (f : S32x128.Idx → Elt F .f32) (off : Fin 2 → ℕ) (h : ∀ a, off a + S1x16.size a ≤ S32x128.size a) (i c0 : ℕ)
    (hoff : off = ![i, c0]) (hsc : S1x16.ShapeCasts S16) (lane : S16.Idx) :
    shapeCast S16 (View.readAt (Elt F) (sAW).view (Rect.unit (s := S32x128) off S1x16.size h).toLoadRect f) hsc lane
      = f (Shape.pair (d := ![32, 128]) ⟨i % 32, Nat.mod_lt _ (by decide)⟩ ⟨(c0 + (lane 0).val) % 128, Nat.mod_lt _ (by decide)⟩) := by
  subst hoff
  have hr : i + 1 ≤ 32 := h 0
  have hc : c0 + 16 ≤ 128 := h 1
  have hl : (lane 0).val < 16 := (lane 0).isLt
  rw [shapeCast_apply _ hsc lane (laneIx lane) (laneIx_rowMajor lane), View.readAt_apply, View.read_apply]
  show f _ = f _
  congr 1
  funext a; apply Fin.ext
  match a with
  | 0 => show i + 1 * 0 = i % 32; omega
  | 1 => show c0 + 1 * (lane 0).val = (c0 + (lane 0).val) % 128; omega

omit [FloatOps F] [Named F] in
/-- A sixteen-lane group stored into the accumulator at row `i`, columns `c0 …`, last of a run of stores: those sixteen
    elements are the group's lanes, every other element is what the earlier stores left. -/
theorem acc_piece_apply (f : S32x128.Idx → Elt F .f32) (off : Fin 2 → ℕ) (h : ∀ a, off a + S1x16.size a ≤ S32x128.size a) (i c0 : ℕ)
    (hoff : off = ![i, c0]) (v : FVec F S16 .f32) (hc : S16.ShapeCasts S1x16) (Lst : List (View.Piece (Elt F) S32x128 .f32)) (x : S32x128.Idx) :
    (sAW).view.writes (Elt F) f (⟨Rect.unit (s := S32x128) off S1x16.size h, shapeCast S1x16 v hc⟩ :: Lst) x
      = if (x 0).val = i ∧ c0 ≤ (x 1).val ∧ (x 1).val < c0 + 16
        then v (Shape.ofLane (d := ![16]) ⟨((x 1).val - c0) % 16, Nat.mod_lt _ (by decide)⟩)
        else (sAW).view.writes (Elt F) f Lst x := by
  subst hoff
  rw [View.writes_cons]
  by_cases hx : (x 0).val = i ∧ c0 ≤ (x 1).val ∧ (x 1).val < c0 + 16
  · rw [if_pos hx]
    obtain ⟨h0, h1, h2⟩ := hx
    -- the element's index within the group
    let y : S1x16.Idx := Shape.pair (d := ![1, 16]) ⟨0, by decide⟩ ⟨(x 1).val - c0, by show (x 1).val - c0 < 16; omega⟩
    have hxy : x = ((sAW).view.slice (Rect.unit (s := S32x128) ![i, c0] S1x16.size h)).emb y := by
      funext a; apply Fin.ext
      match a with
      | 0 => show (x 0).val = i + 1 * 0; omega
      | 1 => show (x 1).val = c0 + 1 * ((x 1).val - c0); omega
    conv_lhs => rw [hxy]
    rw [View.write_emb_of_mem _ _ (Finset.mem_univ _)]
    show shapeCast S1x16 v hc y = _
    rw [shapeCast_apply _ hc y (Shape.ofLane (d := ![16]) ⟨((x 1).val - c0) % 16, Nat.mod_lt _ (by decide)⟩)
      (by rw [Shape.rowMajor_val_two, Shape.rowMajor_val_one]
          show ((x 1).val - c0) % 16 = 0 * 16 + ((x 1).val - c0); omega)]
  · rw [if_neg hx]
    refine View.write_of_not_mem _ _ _ ?_
    rw [View.setOn_univ]
    show x ∉ ((View.whole cc0_scratch3 : View sig .scVector .vmem S32x128 .f32).slice (Rect.unit (s := S32x128) ![i, c0] S1x16.size h)).set
    rw [View.set_slice_whole, Rect.mem_set_unit]
    intro hm
    have m0 := hm 0; have m1 := hm 1
    apply hx
    have e0 : (![i, c0] : Fin 2 → ℕ) 0 = i := rfl
    have e1 : (![i, c0] : Fin 2 → ℕ) 1 = c0 := rfl
    have s0 : S1x16.size 0 = 1 := rfl
    have s1 : S1x16.size 1 = 16 := rfl
    rw [e0, s0] at m0; rw [e1, s1] at m1
    exact ⟨by omega, m1.1, m1.2⟩

end Val0B
end Cert.Proof.KI
end
-- ==== Proof.Val0C.lean ====
/-
  The accumulator after one row of sixteen-lane groups is stored: the rows below and the new row hold the pooled
  sums; and the lane sums over a rows buffer are the pooled sums once the buffer holds the gathered table rows.
-/
import proofs.«204104_g71330816851969_cont_9to1_m_219_17_alg».proof.Proof.Val0B
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Val0C

variable (d : Dev nD) (L : grid0.Coords)

omit [Named F] in
/-- One stored group's element is the pooled sum there, when the group's lanes are. -/
theorem group_val (ids : S32x16x100.Idx → Elt F .i32) (emb : S100000x128.Idx → Elt F .f32) (w : Fin 32) (i : ℕ) (hi : i < 32)
    (c0 : ℕ) (hc0 : c0 + 16 ≤ 128) (a : FVec F S16 .f32)
    (ha : ∀ lane : S16.Idx, a lane = Spre ids emb w (Shape.pair (d := ![32, 128]) ⟨i % 32, Nat.mod_lt _ (by decide)⟩ ⟨(c0 + (lane 0).val) % 128, Nat.mod_lt _ (by decide)⟩))
    (x : S32x128.Idx) (hx0 : (x 0).val = i) (h1 : c0 ≤ (x 1).val) (h2 : (x 1).val < c0 + 16) :
    a (Shape.ofLane (d := ![16]) ⟨((x 1).val - c0) % 16, Nat.mod_lt _ (by decide)⟩) = Spre ids emb w x := by
  rw [ha]
  congr 1
  funext b; apply Fin.ext
  match b with
  | 0 => show i % 32 = (x 0).val; omega
  | 1 => show (c0 + ((x 1).val - c0) % 16) % 128 = (x 1).val; omega

omit [Named F] in
/-- ONE ROW of the accumulator stored, eight groups, the last store first: the rows up to and including it hold the
    pooled sums. -/
theorem acc_row_ok (ids : S32x16x100.Idx → Elt F .i32) (emb : S100000x128.Idx → Elt F .f32) (w : Fin 32) (f : S32x128.Idx → Elt F .f32) (i : ℕ) (hi : i < 32)
    (o0 o1 o2 o3 o4 o5 o6 o7 : Fin 2 → ℕ)
    (h0 : ∀ a, o0 a + S1x16.size a ≤ S32x128.size a) (h1 : ∀ a, o1 a + S1x16.size a ≤ S32x128.size a)
    (h2 : ∀ a, o2 a + S1x16.size a ≤ S32x128.size a) (h3 : ∀ a, o3 a + S1x16.size a ≤ S32x128.size a)
    (h4 : ∀ a, o4 a + S1x16.size a ≤ S32x128.size a) (h5 : ∀ a, o5 a + S1x16.size a ≤ S32x128.size a)
    (h6 : ∀ a, o6 a + S1x16.size a ≤ S32x128.size a) (h7 : ∀ a, o7 a + S1x16.size a ≤ S32x128.size a)
    (e0 : o0 = ![i, 0]) (e1 : o1 = ![i, 16]) (e2 : o2 = ![i, 32]) (e3 : o3 = ![i, 48]) (e4 : o4 = ![i, 64]) (e5 : o5 = ![i, 80])
    (e6 : o6 = ![i, 96]) (e7 : o7 = ![i, 112])
    (a0 a1 a2 a3 a4 a5 a6 a7 : FVec F S16 .f32) (hc : S16.ShapeCasts S1x16)
    (hf : AccOK ids emb w i f)
    (ha0 : ∀ lane : S16.Idx, a0 lane = Spre ids emb w (Shape.pair (d := ![32, 128]) ⟨i % 32, Nat.mod_lt _ (by decide)⟩ ⟨(0 + (lane 0).val) % 128, Nat.mod_lt _ (by decide)⟩))
    (ha1 : ∀ lane : S16.Idx, a1 lane = Spre ids emb w (Shape.pair (d := ![32, 128]) ⟨i % 32, Nat.mod_lt _ (by decide)⟩ ⟨(16 + (lane 0).val) % 128, Nat.mod_lt _ (by decide)⟩))
    (ha2 : ∀ lane : S16.Idx, a2 lane = Spre ids emb w (Shape.pair (d := ![32, 128]) ⟨i % 32, Nat.mod_lt _ (by decide)⟩ ⟨(32 + (lane 0).val) % 128, Nat.mod_lt _ (by decide)⟩))
    (ha3 : ∀ lane : S16.Idx, a3 lane = Spre ids emb w (Shape.pair (d := ![32, 128]) ⟨i % 32, Nat.mod_lt _ (by decide)⟩ ⟨(48 + (lane 0).val) % 128, Nat.mod_lt _ (by decide)⟩))
    (ha4 : ∀ lane : S16.Idx, a4 lane = Spre ids emb w (Shape.pair (d := ![32, 128]) ⟨i % 32, Nat.mod_lt _ (by decide)⟩ ⟨(64 + (lane 0).val) % 128, Nat.mod_lt _ (by decide)⟩))
    (ha5 : ∀ lane : S16.Idx, a5 lane = Spre ids emb w (Shape.pair (d := ![32, 128]) ⟨i % 32, Nat.mod_lt _ (by decide)⟩ ⟨(80 + (lane 0).val) % 128, Nat.mod_lt _ (by decide)⟩))
    (ha6 : ∀ lane : S16.Idx, a6 lane = Spre ids emb w (Shape.pair (d := ![32, 128]) ⟨i % 32, Nat.mod_lt _ (by decide)⟩ ⟨(96 + (lane 0).val) % 128, Nat.mod_lt _ (by decide)⟩))
    (ha7 : ∀ lane : S16.Idx, a7 lane = Spre ids emb w (Shape.pair (d := ![32, 128]) ⟨i % 32, Nat.mod_lt _ (by decide)⟩ ⟨(112 + (lane 0).val) % 128, Nat.mod_lt _ (by decide)⟩)) :
    AccOK ids emb w (i + 1) ((sAW).view.writes (Elt F) f
      [⟨Rect.unit (s := S32x128) o7 S1x16.size h7, shapeCast S1x16 a7 hc⟩, ⟨Rect.unit (s := S32x128) o6 S1x16.size h6, shapeCast S1x16 a6 hc⟩,
       ⟨Rect.unit (s := S32x128) o5 S1x16.size h5, shapeCast S1x16 a5 hc⟩, ⟨Rect.unit (s := S32x128) o4 S1x16.size h4, shapeCast S1x16 a4 hc⟩,
       ⟨Rect.unit (s := S32x128) o3 S1x16.size h3, shapeCast S1x16 a3 hc⟩, ⟨Rect.unit (s := S32x128) o2 S1x16.size h2, shapeCast S1x16 a2 hc⟩,
       ⟨Rect.unit (s := S32x128) o1 S1x16.size h1, shapeCast S1x16 a1 hc⟩, ⟨Rect.unit (s := S32x128) o0 S1x16.size h0, shapeCast S1x16 a0 hc⟩]) := by
  intro x hx
  have hx1 : (x 1).val < 128 := (x 1).isLt
  rw [acc_piece_apply f o7 h7 i 112 e7, acc_piece_apply f o6 h6 i 96 e6, acc_piece_apply f o5 h5 i 80 e5, acc_piece_apply f o4 h4 i 64 e4,
    acc_piece_apply f o3 h3 i 48 e3, acc_piece_apply f o2 h2 i 32 e2, acc_piece_apply f o1 h1 i 16 e1, acc_piece_apply f o0 h0 i 0 e0, View.writes_nil]
  by_cases c7 : (x 0).val = i ∧ 112 ≤ (x 1).val ∧ (x 1).val < 112 + 16
  · rw [if_pos c7]; exact group_val ids emb w i hi 112 (by omega) a7 ha7 x c7.1 c7.2.1 c7.2.2
  rw [if_neg c7]
  by_cases c6 : (x 0).val = i ∧ 96 ≤ (x 1).val ∧ (x 1).val < 96 + 16
  · rw [if_pos c6]; exact group_val ids emb w i hi 96 (by omega) a6 ha6 x c6.1 c6.2.1 c6.2.2
  rw [if_neg c6]
  by_cases c5 : (x 0).val = i ∧ 80 ≤ (x 1).val ∧ (x 1).val < 80 + 16
  · rw [if_pos c5]; exact group_val ids emb w i hi 80 (by omega) a5 ha5 x c5.1 c5.2.1 c5.2.2
  rw [if_neg c5]
  by_cases c4 : (x 0).val = i ∧ 64 ≤ (x 1).val ∧ (x 1).val < 64 + 16
  · rw [if_pos c4]; exact group_val ids emb w i hi 64 (by omega) a4 ha4 x c4.1 c4.2.1 c4.2.2
  rw [if_neg c4]
  by_cases c3 : (x 0).val = i ∧ 48 ≤ (x 1).val ∧ (x 1).val < 48 + 16
  · rw [if_pos c3]; exact group_val ids emb w i hi 48 (by omega) a3 ha3 x c3.1 c3.2.1 c3.2.2
  rw [if_neg c3]
  by_cases c2 : (x 0).val = i ∧ 32 ≤ (x 1).val ∧ (x 1).val < 32 + 16
  · rw [if_pos c2]; exact group_val ids emb w i hi 32 (by omega) a2 ha2 x c2.1 c2.2.1 c2.2.2
  rw [if_neg c2]
  by_cases c1 : (x 0).val = i ∧ 16 ≤ (x 1).val ∧ (x 1).val < 16 + 16
  · rw [if_pos c1]; exact group_val ids emb w i hi 16 (by omega) a1 ha1 x c1.1 c1.2.1 c1.2.2
  rw [if_neg c1]
  by_cases c0 : (x 0).val = i ∧ 0 ≤ (x 1).val ∧ (x 1).val < 0 + 16
  · rw [if_pos c0]; exact group_val ids emb w i hi 0 (by omega) a0 ha0 x c0.1 c0.2.1 c0.2.2
  rw [if_neg c0]
  refine hf x ?_
  by_contra hge
  have hxi : (x 0).val = i := by omega
  have b7 : (x 1).val < 112 := by omega
  have b6 : (x 1).val < 96 := by omega
  have b5 : (x 1).val < 80 := by omega
  have b4 : (x 1).val < 64 := by omega
  have b3 : (x 1).val < 48 := by omega
  have b2 : (x 1).val < 32 := by omega
  have b1 : (x 1).val < 16 := by omega
  omega

omit [Named F] in
/-- The lane sums over the fifty rows `50 b, …, 50 b + 49` of a rows buffer that holds the table rows chunk `c` of the
    index array names are the pooled sums of output row `2 c + b`. -/
theorem accV_Spre (G : S100x128.Idx → Elt F .f32) (ids : S32x16x100.Idx → Elt F .i32) (emb : S100000x128.Idx → Elt F .f32) (w : Fin 32) (c : Fin 16)
    (hG : ∀ (r q : ℕ) (hr : r < 100) (hq : q < 128), Gat G r q = embAt emb (show BitVec 32 from ids (ix3 w c ⟨r, hr⟩)).toNat ⟨q, hq⟩)
    (b : ℕ) (hb : b < 2) (j : ℕ) (hj : j < 8) (lane : S16.Idx) :
    accV G (50 * b) j 49 lane
      = Spre ids emb w (Shape.pair (d := ![32, 128]) ⟨(2 * c.val + b) % 32, Nat.mod_lt _ (by decide)⟩ ⟨(16 * j + (lane 0).val) % 128, Nat.mod_lt _ (by decide)⟩) := by
  have hl16 : (lane 0).val < 16 := (lane 0).isLt
  have hc : c.val < 16 := c.isLt
  unfold accV Spre
  refine lsum_congr _ _ 49 fun l hl => ?_
  rw [hG (50 * b + l) (16 * j + (lane 0).val) (by omega) (by omega)]
  unfold rowNo
  have e1 : (⟨16 * j + (lane 0).val, by omega⟩ : Fin 128)
      = (Shape.pair (d := ![32, 128]) ⟨(2 * c.val + b) % 32, Nat.mod_lt _ (by decide)⟩ ⟨(16 * j + (lane 0).val) % 128, Nat.mod_lt _ (by decide)⟩ : S32x128.Idx) 1 :=
    Fin.ext (by show 16 * j + (lane 0).val = (16 * j + (lane 0).val) % 128; omega)
  rw [e1]
  congr 3
  show ids _ = ids _
  refine congrArg ids (congrArg₂ (ix3 w) (Fin.ext ?_) (Fin.ext ?_))
  · show c.val = (2 * c.val + b) % 32 / 2; omega
  · show 50 * b + l = (2 * c.val + b) % 32 % 2 * 50 + l % 50; omega

end Val0C
end Cert.Proof.KI
end
-- ==== Proof.Tile0Val.lean ====
/-
  The values through the streams' loop of the first pooling call's task: the loop's invariant with the accumulator's
  finished rows at the pooled sums, and the steps that keep it.
-/
import proofs.«204104_g71330816851969_cont_9to1_m_219_17_alg».proof.Proof.Val0A
import proofs.«204104_g71330816851969_cont_9to1_m_219_17_alg».proof.Proof.Val0C

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Tile0

variable (d : Dev nD) (L : grid0.Coords)

/-! ### The values through the streams' loop -/

/-- The index scratch's contents once the first copy has landed the task's row of the index array over `fI`. -/
abbrev fiOf (ids : Buf (Elt F) (idsLoc0 d)) (fI : Buf (Elt F) ((sIW).view.loc (thr0 d L))) : Buf (Elt F) ((sIW).view.loc (thr0 d L)) :=
  View.write (Elt F) (sIW).view fI (idsPay d L ids) Finset.univ

/-- Before trip `k` of the streams' loop, with the values: as `outerInv`, the accumulator's rows below `4k` at the pooled sums. -/
def outerInvV (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2)) (k : ℕ) (_ : PUnit) : sProp 𝕄 :=
  iprop(Transfers.MayWaits (thr0 d L) (none : HIx 2) O
    ∗ semVal (c5 d L) 0
    ∗ (∃ f1, (sR1W).view.loc (thr0 d L) ↦{fullShare} f1)
    ∗ ((embW).view.loc (thr0 d L) ↦{q.right} emb)
    ∗ (∃ fA, ⌜AccOK ids emb (wL0 L) (4 * k) fA⌝ ∗ (sAW).view.loc (thr0 d L) ↦{fullShare} fA)
    ∗ (if k < 8 then iprop(flightC0 d L emb (fiOf d L ids fI) hfi (fin16 (2 * k)) q.left
          ∗ bigSep (Finset.univ.erase (fin16 (2 * k))) fun j => rowPts d L (fiOf d L ids fI) j)
       else iprop(semVal (c4 d L) 0 ∗ (∃ f0, (sR0W).view.loc (thr0 d L) ↦{fullShare} f0)
          ∗ ((sIW).view.loc (thr0 d L) ↦{fullShare} fiOf d L ids fI) ∗ ((embW).view.loc (thr0 d L) ↦{q.left} emb)))
    ∗ ∃ W', ⌜∀ p ∈ W', p ∈ W ∨ p.2 = none⌝ ∗ owes (thr0 d L) O W')

omit [Named F] in
/-- After the last trip: everything the streams used is back, the accumulator at the pooled sums. -/
theorem outerInvV_exit (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2)) (u : PUnit) :
    outerInvV d L ids emb fI hfi q O W (Scf.trips k0_t1_loop.lb k0_t1_loop.ub k0_t1_loop.st) u
      ⊢ iprop(Transfers.MayWaits (thr0 d L) (none : HIx 2) O
          ∗ semVal (c5 d L) 0
          ∗ (∃ f1, (sR1W).view.loc (thr0 d L) ↦{fullShare} f1)
          ∗ ((embW).view.loc (thr0 d L) ↦{q.right} emb)
          ∗ (∃ fA, ⌜AccOK ids emb (wL0 L) 32 fA⌝ ∗ (sAW).view.loc (thr0 d L) ↦{fullShare} fA)
          ∗ (semVal (c4 d L) 0 ∗ (∃ f0, (sR0W).view.loc (thr0 d L) ↦{fullShare} f0)
              ∗ ((sIW).view.loc (thr0 d L) ↦{fullShare} fiOf d L ids fI) ∗ ((embW).view.loc (thr0 d L) ↦{q.left} emb))
          ∗ ∃ W', ⌜∀ p ∈ W', p ∈ W ∨ p.2 = none⌝ ∗ owes (thr0 d L) O W') := by
  unfold outerInvV
  rw [if_neg (by decide)]
  exact .rfl

omit [FloatOps F] [Named F] in
theorem tuple8_eq {α : Type} {x0 x1 x2 x3 x4 x5 x6 x7 y0 y1 y2 y3 y4 y5 y6 y7 : α}
    (h0 : x0 = y0) (h1 : x1 = y1) (h2 : x2 = y2) (h3 : x3 = y3) (h4 : x4 = y4) (h5 : x5 = y5) (h6 : x6 = y6) (h7 : x7 = y7) :
    (x0, x1, x2, x3, x4, x5, x6, x7) = (y0, y1, y2, y3, y4, y5, y6, y7) := by
  subst h0 h1 h2 h3 h4 h5 h6 h7; rfl

omit [Named F] in
/-- One more row of the first rows buffer added to a lane group. -/
theorem acc_step0 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV G base j t) (shapeCast S16 (View.readAt (Elt F) (sR0W).view (Rect.unit (s := S100x128) off S1x16.size h).toLoadRect G) hsc)
      = accV G base j (t + 1) := by
  rw [lane_read0 G off h r c0 hoff hsc]; subst hc; exact accV_succ G base j t r hr
omit [Named F] in
/-- One more row of the second rows buffer added to a lane group. -/
theorem acc_step1 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV G base j t) (shapeCast S16 (View.readAt (Elt F) (sR1W).view (Rect.unit (s := S100x128) off S1x16.size h).toLoadRect G) hsc)
      = accV G base j (t + 1) := by
  rw [lane_read1 G off h r c0 hoff hsc]; subst hc; exact accV_succ G base j t r hr

omit [Named F] in
/-- The first row of a block of a rows buffer, as a lane group's starting value. -/
theorem acc_init0 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR0W).view (Rect.unit (s := S100x128) off S1x16.size h).toLoadRect G) hsc = accV G base j 0 := by
  rw [lane_read0 G off h base c0 hoff hsc]; subst hc; rfl
omit [Named F] in
theorem acc_init1 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR1W).view (Rect.unit (s := S100x128) off S1x16.size h).toLoadRect G) hsc = accV G base j 0 := by
  rw [lane_read1 G off h base c0 hoff hsc]; subst hc; rfl

omit [Named F] in
theorem accOK_cast (ids : S32x16x100.Idx → Elt F .i32) (emb : S100000x128.Idx → Elt F .f32) (w : Fin 32) {n m : ℕ} (h : n = m)
    {f : S32x128.Idx → Elt F .f32} (hf : AccOK ids emb w n f) : AccOK ids emb w m f := h ▸ hf

omit [Named F] in
/-- One row of the accumulator stored from the eight lane sums of a block of fifty gathered rows: the pooled sums there. -/
theorem acc_row_ok' (ids : Buf (Elt F) (idsLoc0 d)) (emb : Buf (Elt F) (embLoc d)) (fI : Buf (Elt F) ((sIW).view.loc (thr0 d L)))
    (hfi : IdxOK d L (fiOf d L ids fI)) (c : Fin 16) (b : ℕ) (hb : b < 2) (f : S32x128.Idx → Elt F .f32) (i : ℕ) (hi : i < 32) (hic : i = 2 * c.val + b)
    (o0 o1 o2 o3 o4 o5 o6 o7 : Fin 2 → ℕ)
    (h0 : ∀ a, o0 a + S1x16.size a ≤ S32x128.size a) (h1 : ∀ a, o1 a + S1x16.size a ≤ S32x128.size a) (h2 : ∀ a, o2 a + S1x16.size a ≤ S32x128.size a) (h3 : ∀ a, o3 a + S1x16.size a ≤ S32x128.size a) (h4 : ∀ a, o4 a + S1x16.size a ≤ S32x128.size a) (h5 : ∀ a, o5 a + S1x16.size a ≤ S32x128.size a) (h6 : ∀ a, o6 a + S1x16.size a ≤ S32x128.size a) (h7 : ∀ a, o7 a + S1x16.size a ≤ S32x128.size a)
    (e0 : o0 = ![i, 0]) (e1 : o1 = ![i, 16]) (e2 : o2 = ![i, 32]) (e3 : o3 = ![i, 48]) (e4 : o4 = ![i, 64]) (e5 : o5 = ![i, 80]) (e6 : o6 = ![i, 96]) (e7 : o7 = ![i, 112])
    (a0 a1 a2 a3 a4 a5 a6 a7 : FVec F S16 .f32) (hc : S16.ShapeCasts S1x16)
    (hf : AccOK ids emb (wL0 L) i f)
    (hacc : (a0, a1, a2, a3, a4, a5, a6, a7) = accs8 (gPay d L emb (fiOf d L ids fI) hfi c) (50 * b) 49) :
    AccOK ids emb (wL0 L) (i + 1) ((sAW).view.writes (Elt F) f
      [⟨Rect.unit (s := S32x128) o7 S1x16.size h7, shapeCast S1x16 a7 hc⟩, ⟨Rect.unit (s := S32x128) o6 S1x16.size h6, shapeCast S1x16 a6 hc⟩, ⟨Rect.unit (s := S32x128) o5 S1x16.size h5, shapeCast S1x16 a5 hc⟩, ⟨Rect.unit (s := S32x128) o4 S1x16.size h4, shapeCast S1x16 a4 hc⟩, ⟨Rect.unit (s := S32x128) o3 S1x16.size h3, shapeCast S1x16 a3 hc⟩, ⟨Rect.unit (s := S32x128) o2 S1x16.size h2, shapeCast S1x16 a2 hc⟩, ⟨Rect.unit (s := S32x128) o1 S1x16.size h1, shapeCast S1x16 a1 hc⟩, ⟨Rect.unit (s := S32x128) o0 S1x16.size h0, shapeCast S1x16 a0 hc⟩]) := by
  simp only [accs8, Prod.mk.injEq] at hacc
  obtain ⟨rfl, rfl, rfl, rfl, rfl, rfl, rfl, rfl⟩ := hacc
  subst hic
  have hG := fun (r q : ℕ) (hr : r < 100) (hq : q < 128) => gPay_apply d L ids emb fI hfi c r q hr hq
  exact acc_row_ok ids emb (wL0 L) f _ hi o0 o1 o2 o3 o4 o5 o6 o7 h0 h1 h2 h3 h4 h5 h6 h7 e0 e1 e2 e3 e4 e5 e6 e7 _ _ _ _ _ _ _ _ hc hf
    (fun lane => accV_Spre _ ids emb (wL0 L) c hG b hb 0 (by decide) lane)
    (fun lane => accV_Spre _ ids emb (wL0 L) c hG b hb 1 (by decide) lane)
    (fun lane => accV_Spre _ ids emb (wL0 L) c hG b hb 2 (by decide) lane)
    (fun lane => accV_Spre _ ids emb (wL0 L) c hG b hb 3 (by decide) lane)
    (fun lane => accV_Spre _ ids emb (wL0 L) c hG b hb 4 (by decide) lane)
    (fun lane => accV_Spre _ ids emb (wL0 L) c hG b hb 5 (by decide) lane)
    (fun lane => accV_Spre _ ids emb (wL0 L) c hG b hb 6 (by decide) lane)
    (fun lane => accV_Spre _ ids emb (wL0 L) c hG b hb 7 (by decide) lane)

/-- A gather into the first rows buffer issued over the row of the index scratch sliced at `off`, as the run leaves it in
    flight, is the invariant's gather of chunk `c` when `off` names row `c`. -/
theorem flight_canon (emb : Buf (Elt F) (embLoc d)) (fi : Buf (Elt F) ((sIW).view.loc (thr0 d L))) (hfi : IdxOK d L fi)
    (off : Fin 2 → Nat) (h : ∀ a, off a + S1x100.size a ≤ S16x100.size a) (c : Fin 16) (hoff : off = ![c.val, 0])
    (f0 : Buf (Elt F) ((sR0W).view.loc (thr0 d L))) (g : S100x128.Idx → Elt F .f32) (hg : g = gPay d L emb fi hfi c) (qe : PosShare TreeShare) :
    (Transfers.Flight countersEmb (thr0 d L) (SemLoc.dma cc0_scratch4.sem) default 409600
      iprop((((sR0W).view.loc (thr0 d L) ↦{fullShare} (sR0W).view.writes (Elt F) f0 [⟨Rect.whole S100x128, g⟩])
          ∗ ((offsP off h).view.loc (thr0 d L) ↦[(offsP off h).view.set]{fullShare} fi))
        ∗ ((embW).view.loc (thr0 d L) ↦[(embSl).view.set]{qe} emb)) : sProp 𝕄)
      ⊢ (Transfers.Flight countersEmb (thr0 d L) (SemLoc.dma cc0_scratch4.sem) default 409600
          iprop((((sR0W).view.loc (thr0 d L) ↦{fullShare} gPay d L emb fi hfi c) ∗ rowPts d L fi c)
            ∗ ((embW).view.loc (thr0 d L) ↦{qe} emb)) : sProp 𝕄) := by
  refine Transfers.Flight_mono countersEmb (thr0 d L) ?_
  subst hg
  have E : (sR0W).view.writes (Elt F) f0 [⟨Rect.whole S100x128, gPay d L emb fi hfi c⟩] = gPay d L emb fi hfi c :=
    whole_writes (F := F) cc0_scratch1 f0 _
  rw [pts_embSl, pts_offsP (F := F) d L off h c hoff fi, E]

end Tile0
end Cert.Proof.KI
end
-- ==== Proof.Tile0Trip.lean ====
/-
  The streams' loop of the first pooling call's task, with the values: one trip from the loop's invariant to the invariant
  at the next trip — the two chunks' rows summed lane group by lane group into four rows of the accumulator —, while a later
  chunk remains to be fetched and at the last trip.
-/
import proofs.«204104_g71330816851969_cont_9to1_m_219_17_alg».proof.Proof.Tile0Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Tile0

variable (d : Dev nD) (L : grid0.Coords)

theorem trip0 (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2))
    (k : Fin k0_t1_loop.trips) (hk7 : k.val < 7) (acc : PUnit) :
    outerInvV d L ids emb fI hfi q O W k.val acc
      ⊢ wp frame (wpE (defs₀ (F := F)) 𝒱₀ (thr0 d L) none) Set.univ
          (k0_t1_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 k acc)
          (outerInvV d L ids emb fI hfi q O W (k.val + 1)) := by
  have hk8 : k.val < 8 := by omega
  have hk8' : k.val + 1 < 8 := by omega
  have h1 : k0_cond1 k = 1#1 := by revert hk7; revert k; decide
  unfold outerInvV
  rw [if_pos hk8, if_pos hk8']
  unfold flightC0
  iintro ⟨Hmw, Hc5, ⟨%f1, HR1⟩, HeR, ⟨%fA, %hAcc, HA⟩, ⟨Hfl, Hrows⟩, %W', %hW', HO⟩
  have hm1 : fin16 (2 * k.val + 1) ∈ (Finset.univ : Finset (Fin 16)).erase (fin16 (2 * k.val)) :=
    Finset.mem_erase.mpr ⟨fun e => by have := congrArg Fin.val e; simp only [fin16] at this; omega, Finset.mem_univ _⟩
  ihave H1 := (Entails.of_eq (SparseCore.bigSep_erase' hm1)) $$ Hrows
  icases H1 with ⟨Hrow1, Hrows⟩
  have e1 : (2 * k.val + 1) % 16 = 2 * k.val + 1 := by omega
  have hoff1 : k0_off2 k = ![(fin16 (2 * k.val + 1)).val, 0] := by
    show k0_off2 k = ![(2 * k.val + 1) % 16, 0]
    rw [k0_off2_eq, e1]
  ihave Hrow1' := (Entails.of_eq (pts_offsP (F := F) d L (k0_off2 k) (k0_off2_inb k) _ hoff1 _).symm) $$ Hrow1
  have hm2 : fin16 (2 * (k.val + 1)) ∈ ((Finset.univ : Finset (Fin 16)).erase (fin16 (2 * k.val))).erase (fin16 (2 * k.val + 1)) :=
    Finset.mem_erase.mpr ⟨fun e => by have := congrArg Fin.val e; simp only [fin16] at this; omega,
      Finset.mem_erase.mpr ⟨fun e => by have := congrArg Fin.val e; simp only [fin16] at this; omega, Finset.mem_univ _⟩⟩
  ihave H2 := (Entails.of_eq (SparseCore.bigSep_erase' hm2)) $$ Hrows
  icases H2 with ⟨Hrow2, Hrows⟩
  have e2 : (2 * (k.val + 1)) % 16 = 2 * k.val + 2 := by omega
  have hoff2 : k0_off28 k = ![(fin16 (2 * (k.val + 1))).val, 0] := by
    show k0_off28 k = ![(2 * (k.val + 1)) % 16, 0]
    rw [k0_off28_eq, e2]
  ihave Hrow2' := (Entails.of_eq (pts_offsP (F := F) d L (k0_off28 k) (k0_off28_inb k h1) _ hoff2 _).symm) $$ Hrow2
  have hfi' : ∀ (row : Fin 2 → ℕ) (hk : ∀ a, row a + S1x100.size a ≤ S16x100.size a) (x : S100.Idx),
      (View.read (Elt F) (((Memref.whole cc0_scratch0 : Memref sig .scVector .vmem S16x100 .i32).slice (Rect.unit (s := S16x100) row S1x100.size hk) (fun _ => rfl)).squeeze S100 squeezes_S1x100_S100).view (fiOf d L ids fI) x).toNat < 100000 := hfi
  unfold k0_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 0 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 0 0 t.val _ _ _ _ (k0_off4_eq t) (by omega) rfl _)
        (acc_step0 (gPay d L emb (fiOf d L ids fI) hfi (fin16 (2 * k.val))) 0 1 t.val _ _ _ _ (k0_off5_eq t) (by omega) rfl _)
        (acc_step0 (gPay d L emb (fiOf d L ids fI) hfi (fin16 (2 * k.val))) 0 2 t.val _ _ _ _ (k0_off6_eq t) (by omega) rfl _)
        (acc_step0 (gPay d L emb (fiOf d L ids fI) hfi (fin16 (2 * k.val))) 0 3 t.val _ _ _ _ (k0_off7_eq t) (by omega) rfl _)
        (acc_step0 (gPay d L emb (fiOf d L ids fI) hfi (fin16 (2 * k.val))) 0 4 t.val _ _ _ _ (k0_off8_eq t) (by omega) rfl _)
        (acc_step0 (gPay d L emb (fiOf d L ids fI) hfi (fin16 (2 * k.val))) 0 5 t.val _ _ _ _ (k0_off9_eq t) (by omega) rfl _)
        (acc_step0 (gPay d L emb (fiOf d L ids fI) hfi (fin16 (2 * k.val))) 0 6 t.val _ _ _ _ (k0_off10_eq t) (by omega) rfl _)
        (acc_step0 (gPay d L emb (fiOf d L ids fI) hfi (fin16 (2 * k.val))) 0 7 t.val _ _ _ _ (k0_off11_eq t) (by omega) rfl _)
    · iexact HR
  · isplitr
    · ipureintro
      exact tuple8_eq
        (acc_init0 (gPay d L emb (fiOf d L ids fI) hfi (fin16 (2 * k.val))) 0 0 _ _ 0 rfl rfl _)
        (acc_init0 (gPay d L emb (fiOf d L ids fI) hfi (fin16 (2 * k.val))) 0 1 _ _ 16 rfl rfl _)
        (acc_init0 (gPay d L emb (fiOf d L ids fI) hfi (fin16 (2 * k.val))) 0 2 _ _ 32 rfl rfl _)
        (acc_init0 (gPay d L emb (fiOf d L ids fI) hfi (fin16 (2 * k.val))) 0 3 _ _ 48 rfl rfl _)
        (acc_init0 (gPay d L emb (fiOf d L ids fI) hfi (fin16 (2 * k.val))) 0 4 _ _ 64 rfl rfl _)
        (acc_init0 (gPay d L emb (fiOf d L ids fI) hfi (fin16 (2 * k.val))) 0 5 _ _ 80 rfl rfl _)
        (acc_init0 (gPay d L emb (fiOf d L ids fI) hfi (fin16 (2 * k.val))) 0 6 _ _ 96 rfl rfl _)
        (acc_init0 (gPay d L emb (fiOf d L ids fI) hfi (fin16 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 50 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 50 0 t.val _ _ _ _ (k0_off20_eq t) (by omega) rfl _)
        (acc_step0 (gPay d L emb (fiOf d L ids fI) hfi (fin16 (2 * k.val))) 50 1 t.val _ _ _ _ (k0_off21_eq t) (by omega) rfl _)
        (acc_step0 (gPay d L emb (fiOf d L ids fI) hfi (fin16 (2 * k.val))) 50 2 t.val _ _ _ _ (k0_off22_eq t) (by omega) rfl _)
        (acc_step0 (gPay d L emb (fiOf d L ids fI) hfi (fin16 (2 * k.val))) 50 3 t.val _ _ _ _ (k0_off23_eq t) (by omega) rfl _)
        (acc_step0 (gPay d L emb (fiOf d L ids fI) hfi (fin16 (2 * k.val))) 50 4 t.val _ _ _ _ (k0_off24_eq t) (by omega) rfl _)
        (acc_step0 (gPay d L emb (fiOf d L ids fI) hfi (fin16 (2 * k.val))) 50 5 t.val _ _ _ _ (k0_off25_eq t) (by omega) rfl _)
        (acc_step0 (gPay d L emb (fiOf d L ids fI) hfi (fin16 (2 * k.val))) 50 6 t.val _ _ _ _ (k0_off26_eq t) (by omega) rfl _)
        (acc_step0 (gPay d L emb (fiOf d L ids fI) hfi (fin16 (2 * k.val))) 50 7 t.val _ _ _ _ (k0_off27_eq t) (by omega) rfl _)
    · iexact HR
  · isplitr
    · ipureintro
      exact tuple8_eq
        (acc_init0 (gPay d L emb (fiOf d L ids fI) hfi (fin16 (2 * k.val))) 50 0 _ _ 0 rfl rfl _)
        (acc_init0 (gPay d L emb (fiOf d L ids fI) hfi (fin16 (2 * k.val))) 50 1 _ _ 16 rfl rfl _)
        (acc_init0 (gPay d L emb (fiOf d L ids fI) hfi (fin16 (2 * k.val))) 50 2 _ _ 32 rfl rfl _)
        (acc_init0 (gPay d L emb (fiOf d L ids fI) hfi (fin16 (2 * k.val))) 50 3 _ _ 48 rfl rfl _)
        (acc_init0 (gPay d L emb (fiOf d L ids fI) hfi (fin16 (2 * k.val))) 50 4 _ _ 64 rfl rfl _)
        (acc_init0 (gPay d L emb (fiOf d L ids fI) hfi (fin16 (2 * k.val))) 50 5 _ _ 80 rfl rfl _)
        (acc_init0 (gPay d L emb (fiOf d L ids fI) hfi (fin16 (2 * k.val))) 50 6 _ _ 96 rfl rfl _)
        (acc_init0 (gPay d L emb (fiOf d L ids fI) hfi (fin16 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W).view.writes (Elt F) f1 [⟨Rect.whole S100x128, trip0.sl.gather0 d L ids emb fI k hfi'⟩] = (gPay d L emb (fiOf d L ids fI) hfi (fin16 (2 * k.val + 1))) :=
    (whole_writes (F := F) cc0_scratch2 f1 _).trans (gPay_off (F := F) d L emb (fiOf d L ids fI) hfi (k0_off2 k) (k0_off2_inb k) _ hoff1 _ _)
  ihave HR1 := (Entails.of_eq (congrArg (fun f => ((sR1W).view.loc (thr0 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 0 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 0 0 t.val _ _ _ _ (k0_off29_eq t) (by omega) rfl _)
        (acc_step1 (gPay d L emb (fiOf d L ids fI) hfi (fin16 (2 * k.val + 1))) 0 1 t.val _ _ _ _ (k0_off30_eq t) (by omega) rfl _)
        (acc_step1 (gPay d L emb (fiOf d L ids fI) hfi (fin16 (2 * k.val + 1))) 0 2 t.val _ _ _ _ (k0_off31_eq t) (by omega) rfl _)
        (acc_step1 (gPay d L emb (fiOf d L ids fI) hfi (fin16 (2 * k.val + 1))) 0 3 t.val _ _ _ _ (k0_off32_eq t) (by omega) rfl _)
        (acc_step1 (gPay d L emb (fiOf d L ids fI) hfi (fin16 (2 * k.val + 1))) 0 4 t.val _ _ _ _ (k0_off33_eq t) (by omega) rfl _)
        (acc_step1 (gPay d L emb (fiOf d L ids fI) hfi (fin16 (2 * k.val + 1))) 0 5 t.val _ _ _ _ (k0_off34_eq t) (by omega) rfl _)
        (acc_step1 (gPay d L emb (fiOf d L ids fI) hfi (fin16 (2 * k.val + 1))) 0 6 t.val _ _ _ _ (k0_off35_eq t) (by omega) rfl _)
        (acc_step1 (gPay d L emb (fiOf d L ids fI) hfi (fin16 (2 * k.val + 1))) 0 7 t.val _ _ _ _ (k0_off36_eq t) (by omega) rfl _)
    · iexact HR
  · isplitr
    · ipureintro
      exact tuple8_eq
        (acc_init1 (gPay d L emb (fiOf d L ids fI) hfi (fin16 (2 * k.val + 1))) 0 0 _ _ 0 rfl rfl _)
        (acc_init1 (gPay d L emb (fiOf d L ids fI) hfi (fin16 (2 * k.val + 1))) 0 1 _ _ 16 rfl rfl _)
        (acc_init1 (gPay d L emb (fiOf d L ids fI) hfi (fin16 (2 * k.val + 1))) 0 2 _ _ 32 rfl rfl _)
        (acc_init1 (gPay d L emb (fiOf d L ids fI) hfi (fin16 (2 * k.val + 1))) 0 3 _ _ 48 rfl rfl _)
        (acc_init1 (gPay d L emb (fiOf d L ids fI) hfi (fin16 (2 * k.val + 1))) 0 4 _ _ 64 rfl rfl _)
        (acc_init1 (gPay d L emb (fiOf d L ids fI) hfi (fin16 (2 * k.val + 1))) 0 5 _ _ 80 rfl rfl _)
        (acc_init1 (gPay d L emb (fiOf d L ids fI) hfi (fin16 (2 * k.val + 1))) 0 6 _ _ 96 rfl rfl _)
        (acc_init1 (gPay d L emb (fiOf d L ids fI) hfi (fin16 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 50 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 50 0 t.val _ _ _ _ (k0_off45_eq t) (by omega) rfl _)
        (acc_step1 (gPay d L emb (fiOf d L ids fI) hfi (fin16 (2 * k.val + 1))) 50 1 t.val _ _ _ _ (k0_off46_eq t) (by omega) rfl _)
        (acc_step1 (gPay d L emb (fiOf d L ids fI) hfi (fin16 (2 * k.val + 1))) 50 2 t.val _ _ _ _ (k0_off47_eq t) (by omega) rfl _)
        (acc_step1 (gPay d L emb (fiOf d L ids fI) hfi (fin16 (2 * k.val + 1))) 50 3 t.val _ _ _ _ (k0_off48_eq t) (by omega) rfl _)
        (acc_step1 (gPay d L emb (fiOf d L ids fI) hfi (fin16 (2 * k.val + 1))) 50 4 t.val _ _ _ _ (k0_off49_eq t) (by omega) rfl _)
        (acc_step1 (gPay d L emb (fiOf d L ids fI) hfi (fin16 (2 * k.val + 1))) 50 5 t.val _ _ _ _ (k0_off50_eq t) (by omega) rfl _)
        (acc_step1 (gPay d L emb (fiOf d L ids fI) hfi (fin16 (2 * k.val + 1))) 50 6 t.val _ _ _ _ (k0_off51_eq t) (by omega) rfl _)
        (acc_step1 (gPay d L emb (fiOf d L ids fI) hfi (fin16 (2 * k.val + 1))) 50 7 t.val _ _ _ _ (k0_off52_eq t) (by omega) rfl _)
    · iexact HR
  · isplitr
    · ipureintro
      exact tuple8_eq
        (acc_init1 (gPay d L emb (fiOf d L ids fI) hfi (fin16 (2 * k.val + 1))) 50 0 _ _ 0 rfl rfl _)
        (acc_init1 (gPay d L emb (fiOf d L ids fI) hfi (fin16 (2 * k.val + 1))) 50 1 _ _ 16 rfl rfl _)
        (acc_init1 (gPay d L emb (fiOf d L ids fI) hfi (fin16 (2 * k.val + 1))) 50 2 _ _ 32 rfl rfl _)
        (acc_init1 (gPay d L emb (fiOf d L ids fI) hfi (fin16 (2 * k.val + 1))) 50 3 _ _ 48 rfl rfl _)
        (acc_init1 (gPay d L emb (fiOf d L ids fI) hfi (fin16 (2 * k.val + 1))) 50 4 _ _ 64 rfl rfl _)
        (acc_init1 (gPay d L emb (fiOf d L ids fI) hfi (fin16 (2 * k.val + 1))) 50 5 _ _ 80 rfl rfl _)
        (acc_init1 (gPay d L emb (fiOf d L ids fI) hfi (fin16 (2 * k.val + 1))) 50 6 _ _ 96 rfl rfl _)
        (acc_init1 (gPay d L emb (fiOf d L ids fI) hfi (fin16 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok' (F := F) d L ids emb fI hfi (fin16 (2 * k.val)) 0 (by decide) fA (4 * k.val + 0) (by omega) (by show 4 * k.val + 0 = 2 * ((2 * k.val) % 16) + 0; omega)
      _ _ _ _ _ _ _ _
      (k0_off12_inb k 0) (k0_off13_inb k 0) (k0_off14_inb k 0) (k0_off15_inb k 0) (k0_off16_inb k 0) (k0_off17_inb k 0) (k0_off18_inb k 0) (k0_off19_inb k 0)
      (show k0_off12 k 0#32 = ![4 * k.val + 0, 0] from k0_off12_eq k ⟨0, by decide⟩)
      (show k0_off13 k 0#32 = ![4 * k.val + 0, 16] from k0_off13_eq k ⟨0, by decide⟩)
      (show k0_off14 k 0#32 = ![4 * k.val + 0, 32] from k0_off14_eq k ⟨0, by decide⟩)
      (show k0_off15 k 0#32 = ![4 * k.val + 0, 48] from k0_off15_eq k ⟨0, by decide⟩)
      (show k0_off16 k 0#32 = ![4 * k.val + 0, 64] from k0_off16_eq k ⟨0, by decide⟩)
      (show k0_off17 k 0#32 = ![4 * k.val + 0, 80] from k0_off17_eq k ⟨0, by decide⟩)
      (show k0_off18 k 0#32 = ![4 * k.val + 0, 96] from k0_off18_eq k ⟨0, by decide⟩)
      (show k0_off19 k 0#32 = ![4 * k.val + 0, 112] from k0_off19_eq k ⟨0, by decide⟩)
      _ _ _ _ _ _ _ _ shapeCasts_S16_S1x16 hAcc hacc2
  have r1 := acc_row_ok' (F := F) d L ids emb fI hfi (fin16 (2 * k.val)) 1 (by decide) _ (4 * k.val + 1) (by omega) (by show 4 * k.val + 1 = 2 * ((2 * k.val) % 16) + 1; omega)
      _ _ _ _ _ _ _ _
      (k0_off12_inb k 1) (k0_off13_inb k 1) (k0_off14_inb k 1) (k0_off15_inb k 1) (k0_off16_inb k 1) (k0_off17_inb k 1) (k0_off18_inb k 1) (k0_off19_inb k 1)
      (show k0_off12 k 1#32 = ![4 * k.val + 1, 0] from k0_off12_eq k ⟨1, by decide⟩)
      (show k0_off13 k 1#32 = ![4 * k.val + 1, 16] from k0_off13_eq k ⟨1, by decide⟩)
      (show k0_off14 k 1#32 = ![4 * k.val + 1, 32] from k0_off14_eq k ⟨1, by decide⟩)
      (show k0_off15 k 1#32 = ![4 * k.val + 1, 48] from k0_off15_eq k ⟨1, by decide⟩)
      (show k0_off16 k 1#32 = ![4 * k.val + 1, 64] from k0_off16_eq k ⟨1, by decide⟩)
      (show k0_off17 k 1#32 = ![4 * k.val + 1, 80] from k0_off17_eq k ⟨1, by decide⟩)
      (show k0_off18 k 1#32 = ![4 * k.val + 1, 96] from k0_off18_eq k ⟨1, by decide⟩)
      (show k0_off19 k 1#32 = ![4 * k.val + 1, 112] from k0_off19_eq k ⟨1, by decide⟩)
      _ _ _ _ _ _ _ _ shapeCasts_S16_S1x16 r0 hacc3
  have r2 := acc_row_ok' (F := F) d L ids emb fI hfi (fin16 (2 * k.val + 1)) 0 (by decide) _ (4 * k.val + 0 + 2) (by omega) (by show 4 * k.val + 0 + 2 = 2 * ((2 * k.val + 1) % 16) + 0; omega)
      _ _ _ _ _ _ _ _
      (k0_off37_inb k 0) (k0_off38_inb k 0) (k0_off39_inb k 0) (k0_off40_inb k 0) (k0_off41_inb k 0) (k0_off42_inb k 0) (k0_off43_inb k 0) (k0_off44_inb k 0)
      (show k0_off37 k 0#32 = ![4 * k.val + 0 + 2, 0] from k0_off37_eq k ⟨0, by decide⟩)
      (show k0_off38 k 0#32 = ![4 * k.val + 0 + 2, 16] from k0_off38_eq k ⟨0, by decide⟩)
      (show k0_off39 k 0#32 = ![4 * k.val + 0 + 2, 32] from k0_off39_eq k ⟨0, by decide⟩)
      (show k0_off40 k 0#32 = ![4 * k.val + 0 + 2, 48] from k0_off40_eq k ⟨0, by decide⟩)
      (show k0_off41 k 0#32 = ![4 * k.val + 0 + 2, 64] from k0_off41_eq k ⟨0, by decide⟩)
      (show k0_off42 k 0#32 = ![4 * k.val + 0 + 2, 80] from k0_off42_eq k ⟨0, by decide⟩)
      (show k0_off43 k 0#32 = ![4 * k.val + 0 + 2, 96] from k0_off43_eq k ⟨0, by decide⟩)
      (show k0_off44 k 0#32 = ![4 * k.val + 0 + 2, 112] from k0_off44_eq k ⟨0, by decide⟩)
      _ _ _ _ _ _ _ _ shapeCasts_S16_S1x16 (accOK_cast ids emb (wL0 L) (by omega) r1) hacc4
  have r3 := acc_row_ok' (F := F) d L ids emb fI hfi (fin16 (2 * k.val + 1)) 1 (by decide) _ (4 * k.val + 1 + 2) (by omega) (by show 4 * k.val + 1 + 2 = 2 * ((2 * k.val + 1) % 16) + 1; omega)
      _ _ _ _ _ _ _ _
      (k0_off37_inb k 1) (k0_off38_inb k 1) (k0_off39_inb k 1) (k0_off40_inb k 1) (k0_off41_inb k 1) (k0_off42_inb k 1) (k0_off43_inb k 1) (k0_off44_inb k 1)
      (show k0_off37 k 1#32 = ![4 * k.val + 1 + 2, 0] from k0_off37_eq k ⟨1, by decide⟩)
      (show k0_off38 k 1#32 = ![4 * k.val + 1 + 2, 16] from k0_off38_eq k ⟨1, by decide⟩)
      (show k0_off39 k 1#32 = ![4 * k.val + 1 + 2, 32] from k0_off39_eq k ⟨1, by decide⟩)
      (show k0_off40 k 1#32 = ![4 * k.val + 1 + 2, 48] from k0_off40_eq k ⟨1, by decide⟩)
      (show k0_off41 k 1#32 = ![4 * k.val + 1 + 2, 64] from k0_off41_eq k ⟨1, by decide⟩)
      (show k0_off42 k 1#32 = ![4 * k.val + 1 + 2, 80] from k0_off42_eq k ⟨1, by decide⟩)
      (show k0_off43 k 1#32 = ![4 * k.val + 1 + 2, 96] from k0_off43_eq k ⟨1, by decide⟩)
      (show k0_off44 k 1#32 = ![4 * k.val + 1 + 2, 112] from k0_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl (F := F) d L _ _)); iexact HeR
  isplitl [HA]
  · iexists _; isplitr
    rotate_left
    · iexact HA
    · ipureintro; exact accOK_cast ids emb (wL0 L) (by omega) r3
  isplitl [Hfl Hrow0 Hrow1' Hrows]
  · isplitl [Hfl]
    · iapply (flight_canon (F := F) d L emb (fiOf d L ids fI) hfi (k0_off28 k) (k0_off28_inb k h1) _ hoff2 _ _ (gPay_off (F := F) d L emb (fiOf d L ids fI) hfi (k0_off28 k) (k0_off28_inb k h1) _ hoff2 _ _) _)
      iexact Hfl
    · iapply (rows_shift (F := F) d L (fiOf d L ids fI) (fin16 (2 * k.val)) (fin16 (2 * k.val + 1)) (fin16 (2 * (k.val + 1)))
        (fun e => by have := congrArg Fin.val e; simp only [fin16] at this; omega)
        (fun e => by have := congrArg Fin.val e; simp only [fin16] at this; omega)
        (fun e => by have := congrArg Fin.val e; simp only [fin16] at this; omega))
      isplitl [Hrow0]; · iexact Hrow0
      isplitl [Hrow1']; · iapply (Entails.of_eq (pts_offsP (F := F) d L (k0_off2 k) (k0_off2_inb k) _ hoff1 _)); iexact Hrow1'
      iexact Hrows
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

theorem trip0_last (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2))
    (k : Fin k0_t1_loop.trips) (hk7 : k.val = 7) (acc : PUnit) :
    outerInvV d L ids emb fI hfi q O W k.val acc
      ⊢ wp frame (wpE (defs₀ (F := F)) 𝒱₀ (thr0 d L) none) Set.univ
          (k0_t1_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 k acc)
          (outerInvV d L ids emb fI hfi q O W (k.val + 1)) := by
  have hk8 : k.val < 8 := by omega
  have hk8' : ¬ (k.val + 1 < 8) := by omega
  have h1 : ¬ k0_cond1 k = 1#1 := by revert hk7; revert k; decide
  unfold outerInvV
  rw [if_pos hk8, if_neg hk8']
  unfold flightC0
  iintro ⟨Hmw, Hc5, ⟨%f1, HR1⟩, HeR, ⟨%fA, %hAcc, HA⟩, ⟨Hfl, Hrows⟩, %W', %hW', HO⟩
  have hm1 : fin16 (2 * k.val + 1) ∈ (Finset.univ : Finset (Fin 16)).erase (fin16 (2 * k.val)) :=
    Finset.mem_erase.mpr ⟨fun e => by have := congrArg Fin.val e; simp only [fin16] at this; omega, Finset.mem_univ _⟩
  ihave H1 := (Entails.of_eq (SparseCore.bigSep_erase' hm1)) $$ Hrows
  icases H1 with ⟨Hrow1, Hrows⟩
  have e1 : (2 * k.val + 1) % 16 = 2 * k.val + 1 := by omega
  have hoff1 : k0_off2 k = ![(fin16 (2 * k.val + 1)).val, 0] := by
    show k0_off2 k = ![(2 * k.val + 1) % 16, 0]
    rw [k0_off2_eq, e1]
  ihave Hrow1' := (Entails.of_eq (pts_offsP (F := F) d L (k0_off2 k) (k0_off2_inb k) _ hoff1 _).symm) $$ Hrow1
  have hfi' : ∀ (row : Fin 2 → ℕ) (hk : ∀ a, row a + S1x100.size a ≤ S16x100.size a) (x : S100.Idx),
      (View.read (Elt F) (((Memref.whole cc0_scratch0 : Memref sig .scVector .vmem S16x100 .i32).slice (Rect.unit (s := S16x100) row S1x100.size hk) (fun _ => rfl)).squeeze S100 squeezes_S1x100_S100).view (fiOf d L ids fI) x).toNat < 100000 := hfi
  unfold k0_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 0 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 0 0 t.val _ _ _ _ (k0_off4_eq t) (by omega) rfl _)
        (acc_step0 (gPay d L emb (fiOf d L ids fI) hfi (fin16 (2 * k.val))) 0 1 t.val _ _ _ _ (k0_off5_eq t) (by omega) rfl _)
        (acc_step0 (gPay d L emb (fiOf d L ids fI) hfi (fin16 (2 * k.val))) 0 2 t.val _ _ _ _ (k0_off6_eq t) (by omega) rfl _)
        (acc_step0 (gPay d L emb (fiOf d L ids fI) hfi (fin16 (2 * k.val))) 0 3 t.val _ _ _ _ (k0_off7_eq t) (by omega) rfl _)
        (acc_step0 (gPay d L emb (fiOf d L ids fI) hfi (fin16 (2 * k.val))) 0 4 t.val _ _ _ _ (k0_off8_eq t) (by omega) rfl _)
        (acc_step0 (gPay d L emb (fiOf d L ids fI) hfi (fin16 (2 * k.val))) 0 5 t.val _ _ _ _ (k0_off9_eq t) (by omega) rfl _)
        (acc_step0 (gPay d L emb (fiOf d L ids fI) hfi (fin16 (2 * k.val))) 0 6 t.val _ _ _ _ (k0_off10_eq t) (by omega) rfl _)
        (acc_step0 (gPay d L emb (fiOf d L ids fI) hfi (fin16 (2 * k.val))) 0 7 t.val _ _ _ _ (k0_off11_eq t) (by omega) rfl _)
    · iexact HR
  · isplitr
    · ipureintro
      exact tuple8_eq
        (acc_init0 (gPay d L emb (fiOf d L ids fI) hfi (fin16 (2 * k.val))) 0 0 _ _ 0 rfl rfl _)
        (acc_init0 (gPay d L emb (fiOf d L ids fI) hfi (fin16 (2 * k.val))) 0 1 _ _ 16 rfl rfl _)
        (acc_init0 (gPay d L emb (fiOf d L ids fI) hfi (fin16 (2 * k.val))) 0 2 _ _ 32 rfl rfl _)
        (acc_init0 (gPay d L emb (fiOf d L ids fI) hfi (fin16 (2 * k.val))) 0 3 _ _ 48 rfl rfl _)
        (acc_init0 (gPay d L emb (fiOf d L ids fI) hfi (fin16 (2 * k.val))) 0 4 _ _ 64 rfl rfl _)
        (acc_init0 (gPay d L emb (fiOf d L ids fI) hfi (fin16 (2 * k.val))) 0 5 _ _ 80 rfl rfl _)
        (acc_init0 (gPay d L emb (fiOf d L ids fI) hfi (fin16 (2 * k.val))) 0 6 _ _ 96 rfl rfl _)
        (acc_init0 (gPay d L emb (fiOf d L ids fI) hfi (fin16 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 50 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 50 0 t.val _ _ _ _ (k0_off20_eq t) (by omega) rfl _)
        (acc_step0 (gPay d L emb (fiOf d L ids fI) hfi (fin16 (2 * k.val))) 50 1 t.val _ _ _ _ (k0_off21_eq t) (by omega) rfl _)
        (acc_step0 (gPay d L emb (fiOf d L ids fI) hfi (fin16 (2 * k.val))) 50 2 t.val _ _ _ _ (k0_off22_eq t) (by omega) rfl _)
        (acc_step0 (gPay d L emb (fiOf d L ids fI) hfi (fin16 (2 * k.val))) 50 3 t.val _ _ _ _ (k0_off23_eq t) (by omega) rfl _)
        (acc_step0 (gPay d L emb (fiOf d L ids fI) hfi (fin16 (2 * k.val))) 50 4 t.val _ _ _ _ (k0_off24_eq t) (by omega) rfl _)
        (acc_step0 (gPay d L emb (fiOf d L ids fI) hfi (fin16 (2 * k.val))) 50 5 t.val _ _ _ _ (k0_off25_eq t) (by omega) rfl _)
        (acc_step0 (gPay d L emb (fiOf d L ids fI) hfi (fin16 (2 * k.val))) 50 6 t.val _ _ _ _ (k0_off26_eq t) (by omega) rfl _)
        (acc_step0 (gPay d L emb (fiOf d L ids fI) hfi (fin16 (2 * k.val))) 50 7 t.val _ _ _ _ (k0_off27_eq t) (by omega) rfl _)
    · iexact HR
  · isplitr
    · ipureintro
      exact tuple8_eq
        (acc_init0 (gPay d L emb (fiOf d L ids fI) hfi (fin16 (2 * k.val))) 50 0 _ _ 0 rfl rfl _)
        (acc_init0 (gPay d L emb (fiOf d L ids fI) hfi (fin16 (2 * k.val))) 50 1 _ _ 16 rfl rfl _)
        (acc_init0 (gPay d L emb (fiOf d L ids fI) hfi (fin16 (2 * k.val))) 50 2 _ _ 32 rfl rfl _)
        (acc_init0 (gPay d L emb (fiOf d L ids fI) hfi (fin16 (2 * k.val))) 50 3 _ _ 48 rfl rfl _)
        (acc_init0 (gPay d L emb (fiOf d L ids fI) hfi (fin16 (2 * k.val))) 50 4 _ _ 64 rfl rfl _)
        (acc_init0 (gPay d L emb (fiOf d L ids fI) hfi (fin16 (2 * k.val))) 50 5 _ _ 80 rfl rfl _)
        (acc_init0 (gPay d L emb (fiOf d L ids fI) hfi (fin16 (2 * k.val))) 50 6 _ _ 96 rfl rfl _)
        (acc_init0 (gPay d L emb (fiOf d L ids fI) hfi (fin16 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W).view.writes (Elt F) f1 [⟨Rect.whole S100x128, trip0_last.sl.gather0 d L ids emb fI k hfi'⟩] = (gPay d L emb (fiOf d L ids fI) hfi (fin16 (2 * k.val + 1))) :=
    (whole_writes (F := F) cc0_scratch2 f1 _).trans (gPay_off (F := F) d L emb (fiOf d L ids fI) hfi (k0_off2 k) (k0_off2_inb k) _ hoff1 _ _)
  ihave HR1 := (Entails.of_eq (congrArg (fun f => ((sR1W).view.loc (thr0 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 0 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 0 0 t.val _ _ _ _ (k0_off29_eq t) (by omega) rfl _)
        (acc_step1 (gPay d L emb (fiOf d L ids fI) hfi (fin16 (2 * k.val + 1))) 0 1 t.val _ _ _ _ (k0_off30_eq t) (by omega) rfl _)
        (acc_step1 (gPay d L emb (fiOf d L ids fI) hfi (fin16 (2 * k.val + 1))) 0 2 t.val _ _ _ _ (k0_off31_eq t) (by omega) rfl _)
        (acc_step1 (gPay d L emb (fiOf d L ids fI) hfi (fin16 (2 * k.val + 1))) 0 3 t.val _ _ _ _ (k0_off32_eq t) (by omega) rfl _)
        (acc_step1 (gPay d L emb (fiOf d L ids fI) hfi (fin16 (2 * k.val + 1))) 0 4 t.val _ _ _ _ (k0_off33_eq t) (by omega) rfl _)
        (acc_step1 (gPay d L emb (fiOf d L ids fI) hfi (fin16 (2 * k.val + 1))) 0 5 t.val _ _ _ _ (k0_off34_eq t) (by omega) rfl _)
        (acc_step1 (gPay d L emb (fiOf d L ids fI) hfi (fin16 (2 * k.val + 1))) 0 6 t.val _ _ _ _ (k0_off35_eq t) (by omega) rfl _)
        (acc_step1 (gPay d L emb (fiOf d L ids fI) hfi (fin16 (2 * k.val + 1))) 0 7 t.val _ _ _ _ (k0_off36_eq t) (by omega) rfl _)
    · iexact HR
  · isplitr
    · ipureintro
      exact tuple8_eq
        (acc_init1 (gPay d L emb (fiOf d L ids fI) hfi (fin16 (2 * k.val + 1))) 0 0 _ _ 0 rfl rfl _)
        (acc_init1 (gPay d L emb (fiOf d L ids fI) hfi (fin16 (2 * k.val + 1))) 0 1 _ _ 16 rfl rfl _)
        (acc_init1 (gPay d L emb (fiOf d L ids fI) hfi (fin16 (2 * k.val + 1))) 0 2 _ _ 32 rfl rfl _)
        (acc_init1 (gPay d L emb (fiOf d L ids fI) hfi (fin16 (2 * k.val + 1))) 0 3 _ _ 48 rfl rfl _)
        (acc_init1 (gPay d L emb (fiOf d L ids fI) hfi (fin16 (2 * k.val + 1))) 0 4 _ _ 64 rfl rfl _)
        (acc_init1 (gPay d L emb (fiOf d L ids fI) hfi (fin16 (2 * k.val + 1))) 0 5 _ _ 80 rfl rfl _)
        (acc_init1 (gPay d L emb (fiOf d L ids fI) hfi (fin16 (2 * k.val + 1))) 0 6 _ _ 96 rfl rfl _)
        (acc_init1 (gPay d L emb (fiOf d L ids fI) hfi (fin16 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 50 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 50 0 t.val _ _ _ _ (k0_off45_eq t) (by omega) rfl _)
        (acc_step1 (gPay d L emb (fiOf d L ids fI) hfi (fin16 (2 * k.val + 1))) 50 1 t.val _ _ _ _ (k0_off46_eq t) (by omega) rfl _)
        (acc_step1 (gPay d L emb (fiOf d L ids fI) hfi (fin16 (2 * k.val + 1))) 50 2 t.val _ _ _ _ (k0_off47_eq t) (by omega) rfl _)
        (acc_step1 (gPay d L emb (fiOf d L ids fI) hfi (fin16 (2 * k.val + 1))) 50 3 t.val _ _ _ _ (k0_off48_eq t) (by omega) rfl _)
        (acc_step1 (gPay d L emb (fiOf d L ids fI) hfi (fin16 (2 * k.val + 1))) 50 4 t.val _ _ _ _ (k0_off49_eq t) (by omega) rfl _)
        (acc_step1 (gPay d L emb (fiOf d L ids fI) hfi (fin16 (2 * k.val + 1))) 50 5 t.val _ _ _ _ (k0_off50_eq t) (by omega) rfl _)
        (acc_step1 (gPay d L emb (fiOf d L ids fI) hfi (fin16 (2 * k.val + 1))) 50 6 t.val _ _ _ _ (k0_off51_eq t) (by omega) rfl _)
        (acc_step1 (gPay d L emb (fiOf d L ids fI) hfi (fin16 (2 * k.val + 1))) 50 7 t.val _ _ _ _ (k0_off52_eq t) (by omega) rfl _)
    · iexact HR
  · isplitr
    · ipureintro
      exact tuple8_eq
        (acc_init1 (gPay d L emb (fiOf d L ids fI) hfi (fin16 (2 * k.val + 1))) 50 0 _ _ 0 rfl rfl _)
        (acc_init1 (gPay d L emb (fiOf d L ids fI) hfi (fin16 (2 * k.val + 1))) 50 1 _ _ 16 rfl rfl _)
        (acc_init1 (gPay d L emb (fiOf d L ids fI) hfi (fin16 (2 * k.val + 1))) 50 2 _ _ 32 rfl rfl _)
        (acc_init1 (gPay d L emb (fiOf d L ids fI) hfi (fin16 (2 * k.val + 1))) 50 3 _ _ 48 rfl rfl _)
        (acc_init1 (gPay d L emb (fiOf d L ids fI) hfi (fin16 (2 * k.val + 1))) 50 4 _ _ 64 rfl rfl _)
        (acc_init1 (gPay d L emb (fiOf d L ids fI) hfi (fin16 (2 * k.val + 1))) 50 5 _ _ 80 rfl rfl _)
        (acc_init1 (gPay d L emb (fiOf d L ids fI) hfi (fin16 (2 * k.val + 1))) 50 6 _ _ 96 rfl rfl _)
        (acc_init1 (gPay d L emb (fiOf d L ids fI) hfi (fin16 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok' (F := F) d L ids emb fI hfi (fin16 (2 * k.val)) 0 (by decide) fA (4 * k.val + 0) (by omega) (by show 4 * k.val + 0 = 2 * ((2 * k.val) % 16) + 0; omega)
      _ _ _ _ _ _ _ _
      (k0_off12_inb k 0) (k0_off13_inb k 0) (k0_off14_inb k 0) (k0_off15_inb k 0) (k0_off16_inb k 0) (k0_off17_inb k 0) (k0_off18_inb k 0) (k0_off19_inb k 0)
      (show k0_off12 k 0#32 = ![4 * k.val + 0, 0] from k0_off12_eq k ⟨0, by decide⟩)
      (show k0_off13 k 0#32 = ![4 * k.val + 0, 16] from k0_off13_eq k ⟨0, by decide⟩)
      (show k0_off14 k 0#32 = ![4 * k.val + 0, 32] from k0_off14_eq k ⟨0, by decide⟩)
      (show k0_off15 k 0#32 = ![4 * k.val + 0, 48] from k0_off15_eq k ⟨0, by decide⟩)
      (show k0_off16 k 0#32 = ![4 * k.val + 0, 64] from k0_off16_eq k ⟨0, by decide⟩)
      (show k0_off17 k 0#32 = ![4 * k.val + 0, 80] from k0_off17_eq k ⟨0, by decide⟩)
      (show k0_off18 k 0#32 = ![4 * k.val + 0, 96] from k0_off18_eq k ⟨0, by decide⟩)
      (show k0_off19 k 0#32 = ![4 * k.val + 0, 112] from k0_off19_eq k ⟨0, by decide⟩)
      _ _ _ _ _ _ _ _ shapeCasts_S16_S1x16 hAcc hacc2
  have r1 := acc_row_ok' (F := F) d L ids emb fI hfi (fin16 (2 * k.val)) 1 (by decide) _ (4 * k.val + 1) (by omega) (by show 4 * k.val + 1 = 2 * ((2 * k.val) % 16) + 1; omega)
      _ _ _ _ _ _ _ _
      (k0_off12_inb k 1) (k0_off13_inb k 1) (k0_off14_inb k 1) (k0_off15_inb k 1) (k0_off16_inb k 1) (k0_off17_inb k 1) (k0_off18_inb k 1) (k0_off19_inb k 1)
      (show k0_off12 k 1#32 = ![4 * k.val + 1, 0] from k0_off12_eq k ⟨1, by decide⟩)
      (show k0_off13 k 1#32 = ![4 * k.val + 1, 16] from k0_off13_eq k ⟨1, by decide⟩)
      (show k0_off14 k 1#32 = ![4 * k.val + 1, 32] from k0_off14_eq k ⟨1, by decide⟩)
      (show k0_off15 k 1#32 = ![4 * k.val + 1, 48] from k0_off15_eq k ⟨1, by decide⟩)
      (show k0_off16 k 1#32 = ![4 * k.val + 1, 64] from k0_off16_eq k ⟨1, by decide⟩)
      (show k0_off17 k 1#32 = ![4 * k.val + 1, 80] from k0_off17_eq k ⟨1, by decide⟩)
      (show k0_off18 k 1#32 = ![4 * k.val + 1, 96] from k0_off18_eq k ⟨1, by decide⟩)
      (show k0_off19 k 1#32 = ![4 * k.val + 1, 112] from k0_off19_eq k ⟨1, by decide⟩)
      _ _ _ _ _ _ _ _ shapeCasts_S16_S1x16 r0 hacc3
  have r2 := acc_row_ok' (F := F) d L ids emb fI hfi (fin16 (2 * k.val + 1)) 0 (by decide) _ (4 * k.val + 0 + 2) (by omega) (by show 4 * k.val + 0 + 2 = 2 * ((2 * k.val + 1) % 16) + 0; omega)
      _ _ _ _ _ _ _ _
      (k0_off37_inb k 0) (k0_off38_inb k 0) (k0_off39_inb k 0) (k0_off40_inb k 0) (k0_off41_inb k 0) (k0_off42_inb k 0) (k0_off43_inb k 0) (k0_off44_inb k 0)
      (show k0_off37 k 0#32 = ![4 * k.val + 0 + 2, 0] from k0_off37_eq k ⟨0, by decide⟩)
      (show k0_off38 k 0#32 = ![4 * k.val + 0 + 2, 16] from k0_off38_eq k ⟨0, by decide⟩)
      (show k0_off39 k 0#32 = ![4 * k.val + 0 + 2, 32] from k0_off39_eq k ⟨0, by decide⟩)
      (show k0_off40 k 0#32 = ![4 * k.val + 0 + 2, 48] from k0_off40_eq k ⟨0, by decide⟩)
      (show k0_off41 k 0#32 = ![4 * k.val + 0 + 2, 64] from k0_off41_eq k ⟨0, by decide⟩)
      (show k0_off42 k 0#32 = ![4 * k.val + 0 + 2, 80] from k0_off42_eq k ⟨0, by decide⟩)
      (show k0_off43 k 0#32 = ![4 * k.val + 0 + 2, 96] from k0_off43_eq k ⟨0, by decide⟩)
      (show k0_off44 k 0#32 = ![4 * k.val + 0 + 2, 112] from k0_off44_eq k ⟨0, by decide⟩)
      _ _ _ _ _ _ _ _ shapeCasts_S16_S1x16 (accOK_cast ids emb (wL0 L) (by omega) r1) hacc4
  have r3 := acc_row_ok' (F := F) d L ids emb fI hfi (fin16 (2 * k.val + 1)) 1 (by decide) _ (4 * k.val + 1 + 2) (by omega) (by show 4 * k.val + 1 + 2 = 2 * ((2 * k.val + 1) % 16) + 1; omega)
      _ _ _ _ _ _ _ _
      (k0_off37_inb k 1) (k0_off38_inb k 1) (k0_off39_inb k 1) (k0_off40_inb k 1) (k0_off41_inb k 1) (k0_off42_inb k 1) (k0_off43_inb k 1) (k0_off44_inb k 1)
      (show k0_off37 k 1#32 = ![4 * k.val + 1 + 2, 0] from k0_off37_eq k ⟨1, by decide⟩)
      (show k0_off38 k 1#32 = ![4 * k.val + 1 + 2, 16] from k0_off38_eq k ⟨1, by decide⟩)
      (show k0_off39 k 1#32 = ![4 * k.val + 1 + 2, 32] from k0_off39_eq k ⟨1, by decide⟩)
      (show k0_off40 k 1#32 = ![4 * k.val + 1 + 2, 48] from k0_off40_eq k ⟨1, by decide⟩)
      (show k0_off41 k 1#32 = ![4 * k.val + 1 + 2, 64] from k0_off41_eq k ⟨1, by decide⟩)
      (show k0_off42 k 1#32 = ![4 * k.val + 1 + 2, 80] from k0_off42_eq k ⟨1, by decide⟩)
      (show k0_off43 k 1#32 = ![4 * k.val + 1 + 2, 96] from k0_off43_eq k ⟨1, by decide⟩)
      (show k0_off44 k 1#32 = ![4 * k.val + 1 + 2, 112] from k0_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl (F := F) d L _ _)); iexact HeR
  isplitl [HA]
  · iexists _; isplitr
    rotate_left
    · iexact HA
    · ipureintro; exact accOK_cast ids emb (wL0 L) (by omega) r3
  isplitl [Hfl HR0 Hfl_src Hrow0 Hrow1' Hrows]
  · isplitl [Hfl]; · iexact Hfl
    isplitl [HR0]; · iexists _; iexact HR0
    isplitr [Hfl_src]
    · iapply (rows_all (F := F) d L (fiOf d L ids fI) (fin16 (2 * k.val)) (fin16 (2 * k.val + 1))
        (fun e => by have := congrArg Fin.val e; simp only [fin16] at this; omega))
      isplitl [Hrow0]; · iexact Hrow0
      isplitl [Hrow1']; · iapply (Entails.of_eq (pts_offsP (F := F) d L (k0_off2 k) (k0_off2_inb k) _ hoff1 _)); iexact Hrow1'
      iexact Hrows
    · iexact Hfl_src
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

/-- One trip of the streams' loop, whichever it is. -/
theorem trip0_all (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2))
    (k : Fin k0_t1_loop.trips) (acc : PUnit) :
    outerInvV d L ids emb fI hfi q O W k.val acc
      ⊢ wp frame (wpE (defs₀ (F := F)) 𝒱₀ (thr0 d L) none) Set.univ
          (k0_t1_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 k acc)
          (outerInvV d L ids emb fI hfi q O W (k.val + 1)) := by
  by_cases hk : k.val < 7
  · exact trip0 d L ids emb fI hfi q O W k hk acc
  · exact trip0_last d L ids emb fI hfi q O W k (by have := k.isLt; change _ < 8 at this; omega) acc

end Tile0
end Cert.Proof.KI
end
-- ==== Proof.Act0.lean ====
/-
  The activation loop of a pooling task: trip `k` replaces row `k` of the accumulator, lane group by lane group, by the
  clamp at zero of its product with the scale; so before trip `k` the rows below `k` are activated and the others
  still hold the pooled sums.
-/
import proofs.«204104_g71330816851969_cont_9to1_m_219_17_alg».proof.Proof.Tile0Defs
import proofs.«204104_g71330816851969_cont_9to1_m_219_17_alg».proof.Proof.Val0B

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 2) (Elt F) ℕ UU ℕ

section Tile0
variable (d : Dev nD) (L : grid0.Coords)

/-- Lane `lane` of the activated group read at row `i`, columns `c0 …`: the clamp of the scaled element. -/
theorem act_val (f : S32x128.Idx → Elt F .f32) (off : Fin 2 → ℕ) (h : ∀ a, off a + S1x16.size a ≤ S32x128.size a) (i c0 : ℕ)
    (hoff : off = ![i, c0]) (lane : S16.Idx) :
    (maximumf (mulf (shapeCast S16 (View.readAt (Elt F) (sAW).view (Rect.unit (s := S32x128) off S1x16.size h).toLoadRect f) shapeCasts_S1x16_S16)
        (k0_pay106 (F := F))) (k0_pay107 (F := F))) lane
      = FloatOps.maximumf (FloatOps.mulf (f (Shape.pair (d := ![32, 128]) ⟨i % 32, Nat.mod_lt _ (by decide)⟩ ⟨(c0 + (lane 0).val) % 128, Nat.mod_lt _ (by decide)⟩)) inv0) zero0 := by
  show FloatOps.maximumf (FloatOps.mulf (shapeCast S16 (View.readAt (Elt F) (sAW).view (Rect.unit (s := S32x128) off S1x16.size h).toLoadRect f) shapeCasts_S1x16_S16 lane)
    (k0_pay106 (F := F) lane)) (k0_pay107 (F := F) lane) = _
  rw [lane_readA f off h i c0 hoff]
  rfl

/-- The piece one lane group's activation stores. -/
def actPiece (f : S32x128.Idx → Elt F .f32) (off : Fin 2 → ℕ) (h : ∀ a, off a + S1x16.size a ≤ S32x128.size a) : View.Piece (Elt F) S32x128 .f32 :=
  ⟨Rect.unit (s := S32x128) off S1x16.size h,
    shapeCast S1x16 (maximumf (mulf (shapeCast S16 (View.readAt (Elt F) (sAW).view (Rect.unit (s := S32x128) off S1x16.size h).toLoadRect f) shapeCasts_S1x16_S16)
      (k0_pay106 (F := F))) (k0_pay107 (F := F))) shapeCasts_S16_S1x16⟩

/-- The accumulator after one more activated group: inside the group the clamp of the scaled element of `f`, outside
    what was there. -/
theorem writes_actPiece (g f : S32x128.Idx → Elt F .f32) (off : Fin 2 → ℕ) (h : ∀ a, off a + S1x16.size a ≤ S32x128.size a) (i c0 : ℕ)
    (hoff : off = ![i, c0]) (hi : i < 32) (hc : c0 + 16 ≤ 128) (Lst : List (View.Piece (Elt F) S32x128 .f32)) (x : S32x128.Idx) :
    (sAW).view.writes (Elt F) g (actPiece f off h :: Lst) x
      = if (x 0).val = i ∧ c0 ≤ (x 1).val ∧ (x 1).val < c0 + 16 then FloatOps.maximumf (FloatOps.mulf (f x) inv0) zero0
        else (sAW).view.writes (Elt F) g Lst x := by
  unfold actPiece
  rw [acc_piece_apply g off h i c0 hoff]
  by_cases hx : (x 0).val = i ∧ c0 ≤ (x 1).val ∧ (x 1).val < c0 + 16
  · rw [if_pos hx, if_pos hx, act_val f off h i c0 hoff]
    obtain ⟨h0, h1, h2⟩ := hx
    refine congrArg (fun t => FloatOps.maximumf (FloatOps.mulf (f t) inv0) zero0) ?_
    funext b; apply Fin.ext
    match b with
    | ⟨0, _⟩ => show i % 32 = (x 0).val; omega
    | ⟨1, _⟩ =>
      show (c0 + ((x 1).val - c0) % 16) % 128 = (x 1).val
      have hlt : (x 1).val < 128 := (x 1).isLt
      omega
  · rw [if_neg hx, if_neg hx]

omit [Named F] in
/-- With no row activated yet the accumulator holds the pooled sums. -/
theorem actOK_zero (inv zero : F .f32) (ids : S32x16x100.Idx → Elt F .i32) (emb : S100000x128.Idx → Elt F .f32) (w : Fin 32)
    (fA : S32x128.Idx → Elt F .f32) (h : AccOK ids emb w 32 fA) : ActOK inv zero ids emb w 0 fA := by
  intro x
  rw [if_neg (Nat.not_lt_zero _)]
  exact h x (x 0).isLt

/-- One trip's eight stores take the accumulator from "rows below `k` activated" to "rows below `k + 1`". -/
theorem actOK_succ (ids : S32x16x100.Idx → Elt F .i32) (emb : S100000x128.Idx → Elt F .f32) (k : Fin k0_t6_loop.trips)
    (f : S32x128.Idx → Elt F .f32) (hf : ActOK inv0 zero0 ids emb (wL0 L) k.val f) :
    ActOK inv0 zero0 ids emb (wL0 L) (k.val + 1) ((sAW).view.writes (Elt F) f
      [actPiece f (k0_off60 k) (k0_off60_inb k), actPiece f (k0_off59 k) (k0_off59_inb k), actPiece f (k0_off58 k) (k0_off58_inb k),
       actPiece f (k0_off57 k) (k0_off57_inb k), actPiece f (k0_off56 k) (k0_off56_inb k), actPiece f (k0_off55 k) (k0_off55_inb k),
       actPiece f (k0_off54 k) (k0_off54_inb k), actPiece f (k0_off53 k) (k0_off53_inb k)]) := by
  have hk : k.val < 32 := k.isLt
  intro x
  have hx1 : (x 1).val < 128 := (x 1).isLt
  rw [writes_actPiece f f _ _ k.val 112 (k0_off60_eq k) hk (by omega), writes_actPiece f f _ _ k.val 96 (k0_off59_eq k) hk (by omega),
    writes_actPiece f f _ _ k.val 80 (k0_off58_eq k) hk (by omega), writes_actPiece f f _ _ k.val 64 (k0_off57_eq k) hk (by omega),
    writes_actPiece f f _ _ k.val 48 (k0_off56_eq k) hk (by omega), writes_actPiece f f _ _ k.val 32 (k0_off55_eq k) hk (by omega),
    writes_actPiece f f _ _ k.val 16 (k0_off54_eq k) hk (by omega), writes_actPiece f f _ _ k.val 0 (k0_off53_eq k) hk (by omega),
    View.writes_nil]
  have hfx := hf x
  by_cases h0 : (x 0).val = k.val
  · have hnk : ¬ (x 0).val < k.val := by omega
    rw [if_neg hnk] at hfx
    rw [if_pos (by omega : (x 0).val < k.val + 1), hfx]
    split_ifs <;> first | rfl | (exfalso; omega)
  · have hne : ∀ c0 : ℕ, ¬ ((x 0).val = k.val ∧ c0 ≤ (x 1).val ∧ (x 1).val < c0 + 16) := fun c0 h => h0 h.1
    rw [if_neg (hne 112), if_neg (hne 96), if_neg (hne 80), if_neg (hne 64), if_neg (hne 48), if_neg (hne 32), if_neg (hne 16), if_neg (hne 0)]
    by_cases hlt : (x 0).val < k.val
    · rw [if_pos hlt] at hfx
      rw [if_pos (by omega : (x 0).val < k.val + 1), hfx]
    · rw [if_neg hlt] at hfx
      rw [if_neg (by omega : ¬ (x 0).val < k.val + 1), hfx]

/-- Before trip `n` of the activation loop the accumulator's rows below `n` hold the activated values, the others
    the pooled sums. -/
def actInv (ids : S32x16x100.Idx → Elt F .i32) (emb : S100000x128.Idx → Elt F .f32) (n : ℕ) (_ : PUnit) : sProp 𝕄 :=
  iprop(∃ fA, ⌜ActOK inv0 zero0 ids emb (wL0 L) n fA⌝ ∗ (sAW).view.loc (thr0 d L) ↦{fullShare} fA)

theorem act_trip0 (ids : S32x16x100.Idx → Elt F .i32) (emb : S100000x128.Idx → Elt F .f32) (t : Fin k0_t6_loop.trips) (u : PUnit) :
    actInv d L ids emb t.val u
      ⊢ wp frame (wpE (defs₀ (F := F)) 𝒱₀ (thr0 d L) none) Set.univ
          (k0_t6_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 t u)
          (actInv d L ids emb (t.val + 1)) := by
  unfold actInv
  iintro ⟨%f, %hf, HA⟩
  unfold k0_t6_body
  sl_exec_parts
  sl_step
  iexists _
  isplitr
  · ipureintro
    exact actOK_succ L ids emb t f hf
  · iexact HA

end Tile0
end Cert.Proof.KI
end
-- ==== Proof.Val0D.lean ====
/-
  The copy-out's value: the task's row of the result array, once the accumulator — every row activated — has been
  copied into it, holds the pooled, scaled and clamped values the call's result function names there.
-/
import proofs.«204104_g71330816851969_cont_9to1_m_219_17_alg».proof.Proof.Val0C
import Idealize.ShloMosaic.Rules.PointsTo
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Val0D

variable (d : Dev nD) (L : grid0.Coords)

omit [Named F] in
/-- The pooled value depends on the task, the row and the lane as numbers only. -/
theorem poolAt_congr {nch : ℕ} (inv zero : F .f32) (ids : (⟨3, ![32, nch, 100]⟩ : Shape).Idx → Elt F .i32) (emb : S100000x128.Idx → Elt F .f32)
    (w w' : Fin 32) (i i' : ℕ) (hi : i / 2 < nch) (hi' : i' / 2 < nch) (q q' : Fin 128) (hw : w = w') (hii : i = i') (hq : q = q') :
    poolAt inv zero ids emb w i hi q = poolAt inv zero ids emb w' i' hi' q' := by
  subst hw hii hq; rfl

omit [FloatOps F] [Named F] in
/-- Where element `y` of the task's row of the result array sits in the array: at the task's number, then `y`. -/
theorem emb_outRowK (y : S32x128.Idx) :
    (((outRowK L).view.emb y : S32x32x128.Idx) 0).val = (wL0 L).val ∧ (((outRowK L).view.emb y : S32x32x128.Idx) 1).val = (y 0).val
      ∧ (((outRowK L).view.emb y : S32x32x128.Idx) 2).val = (y 1).val := by
  have he : ((outRowK L).view.emb y : S32x32x128.Idx)
      = (outRect L).emb (Shape.reshapeEquiv squeezes_S1x32x128_S32x128.numel_eq y) := rfl
  rw [he, Shape.reshapeEquiv_cons_one]
  refine ⟨?_, ?_, ?_⟩
  · rw [Rect.emb_apply]; show k0_off61 L 0 + 1 * 0 = _; rw [k0_off61_eq]; show 16 * (L 0).val + (L 1).val + 1 * 0 = 16 * (L 0).val + (L 1).val; omega
  · rw [Rect.emb_apply]; show k0_off61 L 1 + 1 * (y 0).val = _; rw [k0_off61_eq]; show 0 + 1 * (y 0).val = (y 0).val; omega
  · rw [Rect.emb_apply]; show k0_off61 L 2 + 1 * (y 1).val = _; rw [k0_off61_eq]; show 0 + 1 * (y 1).val = (y 1).val; omega

omit [Named F] in
/-- The task's row of the result array after the accumulator, every row activated, is copied into it. -/
theorem out_row_val' (ids : Buf (Elt F) (idsLoc0 d)) (emb : Buf (Elt F) (embLoc d)) (o₀ : Buf (Elt F) (outLoc0 d))
    (inv zero : F .f32) (fA : S32x128.Idx → Elt F .f32) (hA : ActOK inv zero ids emb (wL0 L) 32 fA)
    (P : S32x128.Idx → Elt F .f32) (hP : ∀ y, P y = fA y) :
    ∀ x ∈ rowSetO0 (wL0 L), ((outRowK L).view.writes (Elt F) o₀ [⟨Rect.whole S32x128, P⟩]) x = pool0 inv zero ids emb x := by
  intro x hx
  rw [← set_outRowK L] at hx
  obtain ⟨y, rfl⟩ := View.exists_emb_of_mem_set (outRowK L).view hx
  have hy : (outRowK L).view.emb y = ((outRowK L).view.slice (Rect.whole S32x128)).emb y := by
    show _ = (outRowK L).view.emb ((Rect.whole S32x128).emb y)
    rw [Rect.emb_whole_apply]
  rw [View.writes_cons, View.writes_nil]
  conv_lhs => rw [hy]
  rw [View.write_emb_of_mem _ _ (Finset.mem_univ _)]
  show P y = _
  obtain ⟨e0, e1, e2⟩ := emb_outRowK L y
  rw [hP, hA y, if_pos (show (y 0).val < 32 from (y 0).isLt)]
  show poolAt (nch := 16) inv zero ids emb (wL0 L) (y 0).val _ (y 1) = poolAt (nch := 16) inv zero ids emb _ _ _ _
  exact poolAt_congr inv zero ids emb _ _ _ _ _ _ _ _ (Fin.ext e0.symm) e1.symm (Fin.ext e2.symm)

/-- The same at the call's own scale and clamp. -/
theorem out_row_val (ids : Buf (Elt F) (idsLoc0 d)) (emb : Buf (Elt F) (embLoc d)) (o₀ : Buf (Elt F) (outLoc0 d))
    (fA : S32x128.Idx → Elt F .f32) (hA : ActOK (inv0 (F := F)) (zero0 (F := F)) ids emb (wL0 L) 32 fA)
    (P : S32x128.Idx → Elt F .f32) (hP : ∀ y, P y = fA y) :
    ∀ x ∈ rowSetO0 (wL0 L), ((outRowK L).view.writes (Elt F) o₀ [⟨Rect.whole S32x128, P⟩]) x = pool0 (inv0 (F := F)) (zero0 (F := F)) ids emb x :=
  out_row_val' d L ids emb o₀ inv0 zero0 fA hA P hP

/-- So the task holds its row of the result array at the call's result function. -/
theorem out_row_pts (ids : Buf (Elt F) (idsLoc0 d)) (emb : Buf (Elt F) (embLoc d)) (o₀ : Buf (Elt F) (outLoc0 d))
    (fA : S32x128.Idx → Elt F .f32) (hA : ActOK (inv0 (F := F)) (zero0 (F := F)) ids emb (wL0 L) 32 fA)
    (P : S32x128.Idx → Elt F .f32) (hP : ∀ y, P y = fA y) :
    ((outRowK L).view.loc (thr0 d L) ↦[(outRowK L).view.set]{fullShare} (outRowK L).view.writes (Elt F) o₀ [⟨Rect.whole S32x128, P⟩] : sProp 𝕄)
      = outPts0 d (wL0 L) (pool0 (inv0 (F := F)) (zero0 (F := F)) ids emb) := by
  rw [pts_outRowK]
  exact pointsTo_congr (out_row_val d L ids emb o₀ fA hA P hP)

end Val0D
end Cert.Proof.KI
end
-- ==== Proof.Tile0.lean ====
/-
  The task of the first pooling call at a symbolic place, with its value: from its row of the index array, a read share of
  the embedding table, its row of the result, its own scratch and semaphores, the body runs to the end and gives everything
  back, its row of the result holding the pooled, scaled and clamped sums the index array names.
-/
import proofs.«204104_g71330816851969_cont_9to1_m_219_17_alg».proof.Proof.Tile0Trip
import proofs.«204104_g71330816851969_cont_9to1_m_219_17_alg».proof.Proof.Act0
import proofs.«204104_g71330816851969_cont_9to1_m_219_17_alg».proof.Proof.Val0D

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Tile0

variable (d : Dev nD) (L : grid0.Coords)

theorem tile_body0 (hF : (K (F := F)).Facts) (q : PosShare TreeShare)
    (ids : Buf (Elt F) (idsLoc0 d)) (emb : Buf (Elt F) (embLoc d)) (o₀ : Buf (Elt F) (outLoc0 d))
    (hin : ∀ x : S32x16x100.Idx, (show BitVec 32 from ids x).toNat < 100000)
    (O : CellTallies nD τ sig (HIx 2)) (W : Waits sig (HIx 2)) (hO : ∀ g, O g none = 0) :
    iprop(levAts (K (F := F)).L (K (F := F)).lev
        ∗ (idsPts0 d (wL0 L) ids ∗ embPts d q emb ∗ outPts0 d (wL0 L) o₀)
        ∗ scopedBufs (thr0 d L) ∗ scopedSems0 (thr0 d L) ∗ owes (thr0 d L) O W)
      ⊢ wp frame (wpE (defs₀ (F := F)) 𝒱₀ (thr0 d L) none) Set.univ
          (cc0_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1)
          fun _ => iprop((idsPts0 d (wL0 L) ids ∗ embPts d q emb ∗ outPts0 d (wL0 L) (pool0 inv0 zero0 ids emb))
            ∗ scopedBufs (thr0 d L) ∗ scopedSems0 (thr0 d L)
            ∗ ∃ W', ⌜∀ p ∈ W', p ∈ W ∨ p.2 = none⌝ ∗ owes (thr0 d L) O W') := by
  simp only [cc0_body_eq_skeleton]; unfold cc0_body_skel
  rw [(K (F := F)).scopedBufs_V hF d (cV0 L) (jV0 L), SparseCore.Cfg.scopedSems0_V (Val := Elt F) d (cV0 L) (jV0 L), ownSems0_V0, ownBufs_V0]
  iintro ⟨#Hlv, ⟨Hi, He, Ho⟩, ⟨⟨%fI, HsI⟩, ⟨%fR0, HsR0⟩, ⟨%fR1, HsR1⟩, ⟨%fA, HsA⟩, Hbufs⟩, ⟨Hc4, Hc5, Hcs0, Hcs1, Hsems⟩, HO⟩
  ihave Hmw := ((K (F := F)).mayWaits_none (thr := thr0 d L) hO) $$ Hlv
  ihave Hi' := (Entails.of_eq (pts_idsRowK (F := F) d L _).symm) $$ Hi
  ihave Ho' := (Entails.of_eq (pts_outRowK (F := F) d L _).symm) $$ Ho
  ihave HsI' := (Entails.of_eq (pts_sI0 (F := F) d L _).symm) $$ HsI
  ihave HsR0' := (Entails.of_eq (pts_sR0 (F := F) d L _).symm) $$ HsR0
  ihave HsR1' := (Entails.of_eq (pts_sR1 (F := F) d L _).symm) $$ HsR1
  ihave HsA' := (Entails.of_eq (pts_sA0 (F := F) d L _).symm) $$ HsA
  ihave He' := (Entails.of_eq (pts_embW (F := F) d L q _).symm) $$ He
  ihave He2 := (pointsTo_share (PosShare.mem_left_op_right q)).1 $$ He'
  icases He2 with ⟨HeL, HeR⟩
  sl_exec_parts
  have hEq : View.write (Elt F) (Memref.whole cc0_scratch0).view fI (tile_body0.sl.dma0 d L ids) Finset.univ = fiOf d L ids fI := rfl
  ihave HsI' := (Entails.of_eq (congrArg (fun f => ((sIW).view.loc (thr0 d L) ↦{fullShare} f : sProp 𝕄)) hEq)) $$ HsI'
  have hidx := fun g row hk hr hq => offs_inb (F := F) d L g (idsPay d L ids) (idsPay_lt d L ids hin) row hk hr hq
  have hfiT : IdxOK d L (fiOf d L ids fI) := fun row hk x => hidx fI row hk _ _ x
  ihave Hrows := (Entails.of_eq (idsv_row_split (F := F) d L (fiOf d L ids fI) 0)) $$ HsI'
  icases Hrows with ⟨Hrow0, Hrows⟩
  ihave Hrow0' := (Entails.of_eq (pts_offsP (F := F) d L ![0, 0] inb_S16x100_S1x100_0_0 0 rfl _).symm) $$ Hrow0
  sl_exec_parts
  iclear HeL
  sl_for (outerInvV d L ids emb fI hfiT q O (insert (SemLoc.dma cc0_scoped0.sem, (default : HIx 2)) W)) $$ [Hmw Hc5 HsR1' HeR HsA' Hc4 Hrows HO]
  case region =>
    intro k u
    exact trip0_all d L ids emb fI hfiT q O _ k u
  · unfold outerInvV
    rw [if_pos (by decide : (0 : ℕ) < 8)]
    isplitl [Hmw]; · iexact Hmw
    isplitl [Hc5]; · iexact Hc5
    isplitl [HsR1']; · iexists _; iexact HsR1'
    isplitl [HeR]; · iexact HeR
    isplitl [HsA']
    · iexists _; isplitr
      rotate_left
      · iexact HsA'
      · ipureintro; exact fun x hx => absurd hx (Nat.not_lt_zero _)
    isplitl [Hc4 Hrows]
    · isplitl [Hc4]
      · unfold flightC0
        iapply (flight_canon (F := F) d L emb (fiOf d L ids fI) hfiT ![0, 0] inb_S16x100_S1x100_0_0 (fin16 (2 * 0)) rfl fR0 _
          (gPay_off (F := F) d L emb (fiOf d L ids fI) hfiT ![0, 0] inb_S16x100_S1x100_0_0 (fin16 (2 * 0)) rfl _ _) q.left)
        iexact Hc4
      · iexact Hrows
    iexists _; isplitr
    rotate_left
    · iexact HO
    · ipureintro; exact fun p hp => .inl hp
  iintro %u HI
  ihave HI' := (outerInvV_exit (F := F) d L ids emb fI hfiT q O _ u) $$ HI
  icases HI' with ⟨-, Hc5, ⟨%f1, HR1⟩, HeR, ⟨%fA', %hAcc, HA⟩, ⟨Hc4, ⟨%f0, HR0⟩, HsI, HeL⟩, %W1, %hW1, HO⟩
  sl_exec_parts
  sl_for (actInv d L ids emb) $$ [HA]
  case region =>
    intro t u
    exact act_trip0 d L ids emb t u
  · unfold actInv
    iexists _; isplitr
    rotate_left
    · iexact HA
    · ipureintro; exact actOK_zero inv0 zero0 ids emb (wL0 L) _ hAcc
  iintro %u2 HA
  unfold actInv
  icases HA with ⟨%fA2, %hAct, HA⟩
  sl_exec_parts
  sl_step
  isplitl [Hi' HeL HeR Ho']
  · isplitl [Hi']; · iapply (Entails.of_eq (pts_idsRowK (F := F) d L _)); iexact Hi'
    isplitl [HeL HeR]
    · iapply (Entails.of_eq (pts_embW (F := F) d L q _))
      iapply (pointsTo_share (PosShare.mem_left_op_right q)).2
      isplitl [HeL]; · iexact HeL
      iexact HeR
    · iapply (Entails.of_eq (out_row_pts (F := F) d L ids emb o₀ fA2 hAct _ (fun y => rfl)))
      iexact Ho'
  isplitl [HsI HR0 HR1 HA Hbufs]
  · isplitl [HsI]; · iexists _; iexact HsI
    isplitl [HR0]; · iexists _; iexact HR0
    isplitl [HR1]; · iexists _; iexact HR1
    isplitl [HA]; · iexists _; iexact HA
    iexact Hbufs
  isplitl [Hc4 Hc5 Hcs0 Hcs1 Hsems]
  · isplitl [Hc4]; · iexact Hc4
    isplitl [Hc5]; · iexact Hc5
    isplitl [Hcs0]; · iexact Hcs0
    isplitl [Hcs1]; · iexact Hcs1
    iexact Hsems
  iexists _; isplitr
  rotate_left
  · iexact HO
  · ipureintro; intro p hp
    rcases Finset.mem_insert.mp hp with hp | hp
    · exact .inr (by subst hp; rfl)
    · rcases hW1 p hp with h | h
      · rcases Finset.mem_insert.mp h with h | h
        · exact .inr (by subst h; rfl)
        · exact .inl h
      · exact .inr h

end Tile0
end Cert.Proof.KI
end
-- ==== Proof.Tile1Defs.lean ====
/-
  The task of the second pooling call at a symbolic place: its thread, the arrays' rows it is dealt, its own scratch
  buffers and semaphores, the index scratch by rows, the streams' loop's invariant, and the values the buffers hold.
-/
import proofs.«204104_g71330816851969_cont_9to1_m_219_17_alg».proof.Proof.Common
import proofs.«204104_g71330816851969_cont_9to1_m_219_17_alg».proof.Proof.Rows
import proofs.«204104_g71330816851969_cont_9to1_m_219_17_alg».proof.Proof.PoolSpec
import proofs.«204104_g71330816851969_cont_9to1_m_219_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The task of call 1 at a symbolic place -/

section Tile1

variable (d : Dev nD) (L : grid1.Coords)

abbrev cV1 (L : grid1.Coords) : Fin τ.nSC := (L 0).castLE hcore1
abbrev jV1 (L : grid1.Coords) : Fin τ.nSub := (L 1).castLE hsub1
theorem bound1_zero : grid1.bound 0 = 2 := rfl
theorem bound1_one : grid1.bound 1 = 16 := rfl
abbrev cL1 (L : grid1.Coords) : Fin 2 := Fin.cast bound1_zero (L 0)
abbrev jL1 (L : grid1.Coords) : Fin 16 := Fin.cast bound1_one (L 1)
/-- The task's number: sixteen times its SparseCore plus its subcore. -/
abbrev wL1 (L : grid1.Coords) : Fin 32 := taskIx (cL1 L) (jL1 L)

/-- The scale and the clamp of the activation, as the printed body spells them (each a lane of the broadcast). -/
def inv1 : F .f32 := k1_pay106 (F := F) (Shape.ofLane (d := ![16]) (0 : Fin 16))
def zero1 : F .f32 := k1_pay107 (F := F) (Shape.ofLane (d := ![16]) (0 : Fin 16))

abbrev thr1 (d : Dev nD) (L : grid1.Coords) : Thread nD τ := V d (cV1 L) (jV1 L)

abbrev idsLoc1 (d : Dev nD) : Loc nD τ sig := (SparseCore.T d).loc main_v6
abbrev embLoc1 (d : Dev nD) : Loc nD τ sig := (SparseCore.T d).loc main_arg3
abbrev outLoc1 (d : Dev nD) : Loc nD τ sig := (SparseCore.T d).loc main_v7
abbrev idsPts1 (d : Dev nD) (w : Fin 32) (ids : Buf (Elt F) (idsLoc1 d)) : sProp 𝕄 := idsLoc1 d ↦[rowSetI1 w]{fullShare} ids
abbrev embPts1 (d : Dev nD) (q : PosShare TreeShare) (emb : Buf (Elt F) (embLoc1 d)) : sProp 𝕄 := embLoc1 d ↦{q} emb
abbrev outPts1 (d : Dev nD) (w : Fin 32) (o : Buf (Elt F) (outLoc1 d)) : sProp 𝕄 := outLoc1 d ↦[rowSetO1 w]{fullShare} o

/-! ### The task's own semaphores and scratch buffers -/

abbrev c4_1 (d : Dev nD) (L : grid1.Coords) : GSem nD τ sig := (thr1 d L, SemLoc.dma cc1_scratch4.sem)
abbrev c5_1 (d : Dev nD) (L : grid1.Coords) : GSem nD τ sig := (thr1 d L, SemLoc.dma cc1_scratch5.sem)
abbrev cs0_1 (d : Dev nD) (L : grid1.Coords) : GSem nD τ sig := (thr1 d L, SemLoc.dma cc1_scoped0.sem)
abbrev cs1_1 (d : Dev nD) (L : grid1.Coords) : GSem nD τ sig := (thr1 d L, SemLoc.dma cc1_scoped1.sem)

omit [FloatOps F] [Named F] in
theorem cell_ne1 {a b : DmaSem sig} (h : a ≠ b) : ((thr1 d L, SemLoc.dma a) : GSem nD τ sig) ≠ (thr1 d L, SemLoc.dma b) :=
  fun e => h (by injection e with _ e2; injection e2)

omit [FloatOps F] [Named F] in
theorem cell_mem1 (a : DmaSem sig) (h : (SemLoc.dma a : SemLoc sig).isScoped .scVector = true) :
    ((thr1 d L, SemLoc.dma a) : GSem nD τ sig) ∈ ownCells (thr1 d L) := mem_ownCells.mpr ⟨rfl, h⟩

omit [FloatOps F] [Named F] in
theorem ownSems0_V1 :
    (ownSems0 (thr1 d L) : sProp 𝕄)
      = iprop(semVal (c4_1 d L) 0 ∗ semVal (c5_1 d L) 0 ∗ semVal (cs0_1 d L) 0 ∗ semVal (cs1_1 d L) 0
          ∗ bigSep (((((ownCells (thr1 d L)).erase (c4_1 d L)).erase (c5_1 d L)).erase (cs0_1 d L)).erase (cs1_1 d L)) fun g => semVal g 0) := by
  unfold SparseCore.Cfg.ownSems0
  rw [SparseCore.bigSep_erase' (cell_mem1 d L cc1_scratch4.sem (by decide)),
    SparseCore.bigSep_erase' (Finset.mem_erase.mpr ⟨cell_ne1 d L (a := cc1_scratch5.sem) (b := cc1_scratch4.sem) (by decide), cell_mem1 d L cc1_scratch5.sem (by decide)⟩),
    SparseCore.bigSep_erase' (Finset.mem_erase.mpr ⟨cell_ne1 d L (a := cc1_scoped0.sem) (b := cc1_scratch5.sem) (by decide),
      Finset.mem_erase.mpr ⟨cell_ne1 d L (a := cc1_scoped0.sem) (b := cc1_scratch4.sem) (by decide), cell_mem1 d L cc1_scoped0.sem (by decide)⟩⟩),
    SparseCore.bigSep_erase' (Finset.mem_erase.mpr ⟨cell_ne1 d L (a := cc1_scoped1.sem) (b := cc1_scoped0.sem) (by decide),
      Finset.mem_erase.mpr ⟨cell_ne1 d L (a := cc1_scoped1.sem) (b := cc1_scratch5.sem) (by decide),
      Finset.mem_erase.mpr ⟨cell_ne1 d L (a := cc1_scoped1.sem) (b := cc1_scratch4.sem) (by decide), cell_mem1 d L cc1_scoped1.sem (by decide)⟩⟩⟩)]

abbrev pV1 (L : grid1.Coords) : Proc τ := Proc.scVector (cV1 L) (jV1 L)

omit [FloatOps F] [Named F] in
theorem ref_ne1 {a b : Ref sig .scVector} (h : a ≠ b) : (pV1 L).devRef a ≠ (pV1 L).devRef b :=
  fun e => h (Proc.devRef_injective _ e)

omit [FloatOps F] [Named F] in
theorem ref_mem1 (a : Ref sig .scVector) (h : ((pV1 L).devRef a).owner = .proc (pV1 L)) : (pV1 L).devRef a ∈ ownRefs (τ := τ) (pV1 L) :=
  SparseCore.Cfg.mem_ownRefs_of_owner h

omit [FloatOps F] [Named F] in
/-- The four scratch buffers are among the subcore's own: they are them, at some contents, and the rest. -/
theorem ownBufs_V1 :
    (ownBufs (thr1 d L) : sProp 𝕄)
      = iprop((∃ f, (thr1 d L).loc cc1_scratch0 ↦{fullShare} f) ∗ (∃ f, (thr1 d L).loc cc1_scratch1 ↦{fullShare} f)
          ∗ (∃ f, (thr1 d L).loc cc1_scratch2 ↦{fullShare} f) ∗ (∃ f, (thr1 d L).loc cc1_scratch3 ↦{fullShare} f)
          ∗ bigSep (((((ownRefs (τ := τ) (pV1 L)).erase ((pV1 L).devRef cc1_scratch0)).erase ((pV1 L).devRef cc1_scratch1)).erase
              ((pV1 L).devRef cc1_scratch2)).erase ((pV1 L).devRef cc1_scratch3))
              fun b => iprop(∃ f, ((d, b) : Loc nD τ sig) ↦{fullShare} f)) := by
  unfold SparseCore.Cfg.ownBufs
  refine (SparseCore.bigSep_erase' (ref_mem1 L cc1_scratch0 rfl)).trans ?_
  rw [SparseCore.bigSep_erase' (Finset.mem_erase.mpr ⟨ref_ne1 L (a := cc1_scratch1) (b := cc1_scratch0) (by decide), ref_mem1 L cc1_scratch1 rfl⟩),
    SparseCore.bigSep_erase' (Finset.mem_erase.mpr ⟨ref_ne1 L (a := cc1_scratch2) (b := cc1_scratch1) (by decide),
      Finset.mem_erase.mpr ⟨ref_ne1 L (a := cc1_scratch2) (b := cc1_scratch0) (by decide), ref_mem1 L cc1_scratch2 rfl⟩⟩),
    SparseCore.bigSep_erase' (Finset.mem_erase.mpr ⟨ref_ne1 L (a := cc1_scratch3) (b := cc1_scratch2) (by decide),
      Finset.mem_erase.mpr ⟨ref_ne1 L (a := cc1_scratch3) (b := cc1_scratch1) (by decide),
      Finset.mem_erase.mpr ⟨ref_ne1 L (a := cc1_scratch3) (b := cc1_scratch0) (by decide), ref_mem1 L cc1_scratch3 rfl⟩⟩⟩)]

/-! ### The task's rows of the index array and of the result, as the body slices them -/

abbrev idsRect1 (L : grid1.Coords) : Rect S32x48x100 := Rect.unit (s := S32x48x100) (k1_off1 L) S1x48x100.size (k1_off1_inb L)
abbrev outRect1 (L : grid1.Coords) : Rect S32x96x128 := Rect.unit (s := S32x96x128) (k1_off61 L) S1x96x128.size (k1_off61_inb L)
abbrev idsW1 : Memref sig .scVector .hbm S32x48x100 .i32 := Memref.whole main_v6_scv
abbrev embW1 : Memref sig .scVector .hbm S100000x128 .f32 := Memref.whole main_arg3_scv
abbrev outW1 : Memref sig .scVector .hbm S32x96x128 .f32 := Memref.whole main_v7_scv
abbrev idsRowK1 (L : grid1.Coords) : Memref sig .scVector .hbm S48x100 .i32 := ((idsW1).slice (idsRect1 L) (fun _ => rfl)).squeeze S48x100 squeezes_S1x48x100_S48x100
abbrev outRowK1 (L : grid1.Coords) : Memref sig .scVector .hbm S96x128 .f32 := ((outW1).slice (outRect1 L) (fun _ => rfl)).squeeze S96x128 squeezes_S1x96x128_S96x128

omit [FloatOps F] [Named F] in
theorem idsRect_eq1 : idsRect1 L = rowI1 (wL1 L) := by
  unfold idsRect1 rowI1 Rect.part Rect.block
  congr 1 <;> funext a
  · rw [k1_off1_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]
omit [FloatOps F] [Named F] in
theorem outRect_eq1 : outRect1 L = rowO1 (wL1 L) := by
  unfold outRect1 rowO1 Rect.part Rect.block
  congr 1 <;> funext a
  · rw [k1_off61_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]

omit [FloatOps F] [Named F] in
theorem set_idsRowK1 : (idsRowK1 L).view.set = rowSetI1 (wL1 L) := by
  show (((View.whole main_v6_scv : View sig .scVector .hbm S32x48x100 .i32).slice (idsRect1 L)).reshape S48x100 squeezes_S1x48x100_S48x100.numel_eq).set = (rowI1 (wL1 L)).set
  rw [View.set_reshape, View.set_slice_whole]
  exact congrArg (fun r : Rect S32x48x100 => r.set) (idsRect_eq1 L)
omit [FloatOps F] [Named F] in
theorem set_outRowK1 : (outRowK1 L).view.set = rowSetO1 (wL1 L) := by
  show (((View.whole main_v7_scv : View sig .scVector .hbm S32x96x128 .f32).slice (outRect1 L)).reshape S96x128 squeezes_S1x96x128_S96x128.numel_eq).set = (rowO1 (wL1 L)).set
  rw [View.set_reshape, View.set_slice_whole]
  exact congrArg (fun r : Rect S32x96x128 => r.set) (outRect_eq1 L)

omit [FloatOps F] [Named F] in
theorem pts_idsRowK1 (f : Buf (Elt F) (idsLoc1 d)) :
    ((idsRowK1 L).view.loc (thr1 d L) ↦[(idsRowK1 L).view.set]{fullShare} f : sProp 𝕄) = idsLoc1 d ↦[rowSetI1 (wL1 L)]{fullShare} f := by
  rw [set_idsRowK1]
omit [FloatOps F] [Named F] in
theorem pts_outRowK1 (f : Buf (Elt F) (outLoc1 d)) :
    ((outRowK1 L).view.loc (thr1 d L) ↦[(outRowK1 L).view.set]{fullShare} f : sProp 𝕄) = outLoc1 d ↦[rowSetO1 (wL1 L)]{fullShare} f := by
  rw [set_outRowK1]
omit [FloatOps F] [Named F] in
theorem pts_embW1 (q : PosShare TreeShare) (f : Buf (Elt F) (embLoc1 d)) :
    ((embW1).view.loc (thr1 d L) ↦{q} f : sProp 𝕄) = embLoc1 d ↦{q} f := rfl

abbrev sIW1 : Memref sig .scVector .vmem S48x100 .i32 := Memref.whole cc1_scratch0
abbrev sR0W1 : Memref sig .scVector .vmem S100x128 .f32 := Memref.whole cc1_scratch1
abbrev sR1W1 : Memref sig .scVector .vmem S100x128 .f32 := Memref.whole cc1_scratch2
abbrev sAW1 : Memref sig .scVector .vmem S96x128 .f32 := Memref.whole cc1_scratch3
omit [FloatOps F] [Named F] in
theorem pts_sI1 (f : Buf (Elt F) ((thr1 d L).loc cc1_scratch0)) :
    ((sIW1).view.loc (thr1 d L) ↦{fullShare} f : sProp 𝕄) = (thr1 d L).loc cc1_scratch0 ↦{fullShare} f := rfl
omit [FloatOps F] [Named F] in
theorem pts_sR0_1 (f : Buf (Elt F) ((thr1 d L).loc cc1_scratch1)) :
    ((sR0W1).view.loc (thr1 d L) ↦{fullShare} f : sProp 𝕄) = (thr1 d L).loc cc1_scratch1 ↦{fullShare} f := rfl
omit [FloatOps F] [Named F] in
theorem pts_sR1_1 (f : Buf (Elt F) ((thr1 d L).loc cc1_scratch2)) :
    ((sR1W1).view.loc (thr1 d L) ↦{fullShare} f : sProp 𝕄) = (thr1 d L).loc cc1_scratch2 ↦{fullShare} f := rfl
omit [FloatOps F] [Named F] in
theorem pts_sA1 (f : Buf (Elt F) ((thr1 d L).loc cc1_scratch3)) :
    ((sAW1).view.loc (thr1 d L) ↦{fullShare} f : sProp 𝕄) = (thr1 d L).loc cc1_scratch3 ↦{fullShare} f := rfl

/-! ### The offset lists are in range -/

/-- What the first copy lands in the index scratch: the task's row of the index array. -/
abbrev idsPay1 (ids : Buf (Elt F) (idsLoc1 d)) : S48x100.Idx → Elt F .i32 := (idsRowK1 L).view.read (Elt F) ids

omit [FloatOps F] [Named F] in
theorem idsPay_lt1 (ids : Buf (Elt F) (idsLoc1 d)) (hin : ∀ x : S32x48x100.Idx, (show BitVec 32 from ids x).toNat < 100000) (y : S48x100.Idx) :
    (show BitVec 32 from idsPay1 d L ids y).toNat < 100000 := by
  show (show BitVec 32 from (idsRowK1 L).view.read (Elt F) ids y).toNat < 100000
  rw [View.read_apply]
  exact hin _

omit [FloatOps F] [Named F] in
/-- Every word of any row of the index scratch, once the copy has landed a payload whose words are row numbers of the
    table, is one: for any prior contents of the scratch and any row. -/
theorem offs_inb1 (g0 : Buf (Elt F) ((sIW1).view.loc (thr1 d L))) (pay : S48x100.Idx → Elt F .i32)
    (hpay : ∀ y, (show BitVec 32 from pay y).toNat < 100000)
    (row : Fin 2 → Nat) (hk : ∀ a, row a + S1x100.size a ≤ S48x100.size a)
    (hr : ∀ a, (Rect.unit (s := S48x100) row S1x100.size hk).stride a = 1)
    (hq : (Rect.unit (s := S48x100) row S1x100.size hk).shape.Squeezes S100) :
    ∀ x, (View.read (Elt F) (((sIW1).slice (Rect.unit (s := S48x100) row S1x100.size hk) hr).squeeze S100 hq).view
      (View.write (Elt F) (sIW1).view g0 pay Finset.univ) x).toNat < 100000 := by
  intro x
  rw [View.write_whole_univ, View.read_apply]
  exact hpay _

/-! ### The index scratch by rows: each gather's offset list is one row, lent whole to its stream -/

/-- Row `j` of the index scratch as the body slices it at offsets `off`. -/
abbrev offsP1 (off : Fin 2 → Nat) (h : ∀ a, off a + S1x100.size a ≤ S48x100.size a) : Memref sig .scVector .vmem S100 .i32 :=
  ((Memref.whole cc1_scratch0 : Memref sig .scVector .vmem S48x100 .i32).slice (Rect.unit (s := S48x100) off S1x100.size h) (fun _ => rfl)).squeeze S100 squeezes_S1x100_S100

/-- Row `j` of the index scratch held outright at contents `f`. -/
abbrev rowPts1 (f : Buf (Elt F) ((sIW1).view.loc (thr1 d L))) (j : Fin 48) : sProp 𝕄 :=
  (sIW1).view.loc (thr1 d L) ↦[((sIW1).view.slice (S48x100.rowRect 0 j)).set]{fullShare} f

omit [FloatOps F] [Named F] in
theorem rect_row1 (off : Fin 2 → Nat) (h : ∀ a, off a + S1x100.size a ≤ S48x100.size a) (j : Fin 48) (hoff : off = ![j.val, 0]) :
    Rect.unit (s := S48x100) off S1x100.size h = S48x100.rowRect 0 j := by
  subst hoff
  unfold Shape.rowRect
  congr 1
  congr 1
  · funext a; match a with
    | 0 => rfl
    | 1 => rfl
  · funext a; match a with
    | 0 => rfl
    | 1 => rfl

omit [FloatOps F] [Named F] in
theorem win_eq1 (off : Fin 2 → Nat) (h : ∀ a, off a + S1x100.size a ≤ S48x100.size a) (j : Fin 48) (hoff : off = ![j.val, 0]) :
    (offsP1 off h).view.set = ((sIW1).view.slice (S48x100.rowRect 0 j)).set := by
  show (((sIW1).view.slice (Rect.unit (s := S48x100) off S1x100.size h)).reshape S100 squeezes_S1x100_S100.numel_eq).set = _
  rw [View.set_reshape]
  exact rect_row1 off h j hoff ▸ rfl

omit [FloatOps F] [Named F] in
theorem pts_offsP1 (off : Fin 2 → Nat) (h : ∀ a, off a + S1x100.size a ≤ S48x100.size a) (j : Fin 48) (hoff : off = ![j.val, 0])
    (f : Buf (Elt F) ((sIW1).view.loc (thr1 d L))) :
    ((offsP1 off h).view.loc (thr1 d L) ↦[(offsP1 off h).view.set]{fullShare} f : sProp 𝕄) = rowPts1 d L f j := by
  rw [win_eq1 off h j hoff]

omit [FloatOps F] [Named F] in
theorem idsv_rows1 (f : Buf (Elt F) ((sIW1).view.loc (thr1 d L))) :
    ((sIW1).view.loc (thr1 d L) ↦{fullShare} f : sProp 𝕄) = bigSep Finset.univ fun j : Fin 48 => rowPts1 d L f j := by
  have h := pointsTo_rows (Val := Elt F) (U := UU) (Ix := HIx 2) (Name := ℕ) (Lvl := ℕ) (thr1 d L) (sIW1).view 0 fullShare f
  rw [show ((sIW1).view.set) = Finset.univ from View.set_whole cc1_scratch0] at h
  exact h

omit [FloatOps F] [Named F] in
theorem idsv_row_split1 (f : Buf (Elt F) ((sIW1).view.loc (thr1 d L))) (j : Fin 48) :
    ((sIW1).view.loc (thr1 d L) ↦{fullShare} f : sProp 𝕄) = iprop(rowPts1 d L f j ∗ bigSep (Finset.univ.erase j) fun j : Fin 48 => rowPts1 d L f j) :=
  (idsv_rows1 d L f).trans (bigSep_univ_split j)

/-! ### The streams' loop: its invariant -/

/-- A row number of the index scratch from a natural number (in range wherever it is used). -/
abbrev fin48 (n : ℕ) : Fin 48 := ⟨n % 48, Nat.mod_lt _ (by decide)⟩

/-- The table as the gathers slice it (whole). -/
abbrev embSl1 : Memref sig .scVector .hbm S100000x128 .f32 :=
  (Memref.whole main_arg3_scv : Memref sig .scVector .hbm S100000x128 .f32).slice (Rect.unit (s := S100000x128) ![0, 0] S100000x128.size inb_S100000x128_S100000x128_0_0) (fun _ => rfl)

omit [FloatOps F] [Named F] in
theorem inbRow1 (j : Fin 48) : ∀ a, (![j.val, 0] : Fin 2 → ℕ) a + S1x100.size a ≤ S48x100.size a := by
  intro a
  match a with
  | 0 => show j.val + 1 ≤ 48; omega
  | 1 => show 0 + 100 ≤ 100; omega

/-- Every word of every row of the index scratch at contents `fi` names a row of the table. -/
abbrev IdxOK1 (fi : Buf (Elt F) ((sIW1).view.loc (thr1 d L))) : Prop :=
  ∀ (row : Fin 2 → ℕ) (hk : ∀ a, row a + S1x100.size a ≤ S48x100.size a) (x : S100.Idx),
    ((offsP1 row hk).view.read (Elt F) fi x).toNat < 100000

/-- What a gather over row `c` of the index scratch (contents `fi`) lands in a rows buffer. -/
def gPay1 (emb : Buf (Elt F) (embLoc1 d)) (fi : Buf (Elt F) ((sIW1).view.loc (thr1 d L))) (hfi : IdxOK1 d L fi) (c : Fin 48) :
    S100x128.Idx → Elt F .f32 :=
  SparseCore.gatherPayload gathers_S100000x128_S100x128 ((embSl1).view.read (Elt F) emb)
    (SparseCore.rows ((offsP1 ![c.val, 0] (inbRow1 c)).view.read (Elt F) fi) rfl (hfi ![c.val, 0] (inbRow1 c)))

/-- A gather of chunk `c` into the first rows buffer in flight on its semaphore, reading the table at share `qe`: it
    delivers the buffer at the gathered rows, row `c` of the index scratch, and the table's share. -/
def flightC0_1 (emb : Buf (Elt F) (embLoc1 d)) (fi : Buf (Elt F) ((sIW1).view.loc (thr1 d L))) (hfi : IdxOK1 d L fi)
    (c : Fin 48) (qe : PosShare TreeShare) : sProp 𝕄 :=
  Transfers.Flight countersEmb (thr1 d L) (SemLoc.dma cc1_scratch4.sem) default 409600
    iprop((((sR0W1).view.loc (thr1 d L) ↦{fullShare} gPay1 d L emb fi hfi c) ∗ rowPts1 d L fi c)
      ∗ ((embW1).view.loc (thr1 d L) ↦{qe} emb))

/-- Before trip `k` of the streams' loop: the second rows buffer and its semaphore free, the accumulator held, the
    table's second share held; while trips remain, the gather of chunk `2k` in flight into the first rows buffer and
    every other row of the index scratch held; after the last, everything back. -/
def outerInv1 (emb : Buf (Elt F) (embLoc1 d)) (fi : Buf (Elt F) ((sIW1).view.loc (thr1 d L))) (hfi : IdxOK1 d L fi)
    (q : PosShare TreeShare) (O : CellTallies nD τ sig (HIx 2)) (W : Waits sig (HIx 2)) (k : ℕ) (_ : PUnit) : sProp 𝕄 :=
  iprop(Transfers.MayWaits (thr1 d L) (none : HIx 2) O
    ∗ semVal (c5_1 d L) 0
    ∗ (∃ f1, (sR1W1).view.loc (thr1 d L) ↦{fullShare} f1)
    ∗ ((embW1).view.loc (thr1 d L) ↦{q.right} emb)
    ∗ (∃ fA, (sAW1).view.loc (thr1 d L) ↦{fullShare} fA)
    ∗ (if k < 24 then iprop(flightC0_1 d L emb fi hfi (fin48 (2 * k)) q.left
          ∗ bigSep (Finset.univ.erase (fin48 (2 * k))) fun j => rowPts1 d L fi j)
       else iprop(semVal (c4_1 d L) 0 ∗ (∃ f0, (sR0W1).view.loc (thr1 d L) ↦{fullShare} f0)
          ∗ ((sIW1).view.loc (thr1 d L) ↦{fullShare} fi) ∗ ((embW1).view.loc (thr1 d L) ↦{q.left} emb)))
    ∗ ∃ W', ⌜∀ p ∈ W', p ∈ W ∨ p.2 = none⌝ ∗ owes (thr1 d L) O W')

/-! ### The values: what the buffers hold -/

/-- Element `(r, q)` of a rows buffer's contents (total: the coordinates reduced into range). -/
def Gat1 (G : S100x128.Idx → Elt F .f32) (r q : ℕ) : F .f32 :=
  G (Shape.pair (d := ![100, 128]) ⟨r % 100, Nat.mod_lt _ (by decide)⟩ ⟨q % 128, Nat.mod_lt _ (by decide)⟩)

/-- Lane group `j` of the sum, from the left, of rows `base, …, base + t` of a rows buffer's contents. -/
def accV1 (G : S100x128.Idx → Elt F .f32) (base j t : ℕ) : FVec F S16 .f32 :=
  fun lane => lsum (fun l => Gat1 G (base + l) (16 * j + (lane 0).val)) t

omit [Named F] in
theorem accV_zero1 (G : S100x128.Idx → Elt F .f32) (base j : ℕ) :
    accV1 G base j 0 = fun lane => Gat1 G base (16 * j + (lane 0).val) := rfl

omit [Named F] in
/-- One more row added to every lane of a lane group. -/
theorem accV_succ1 (G : S100x128.Idx → Elt F .f32) (base j t r : ℕ) (hr : r = base + (t + 1)) :
    addf (accV1 G base j t) (fun lane => Gat1 G r (16 * j + (lane 0).val)) = accV1 G base j (t + 1) := by
  subst hr; rfl

/-- The eight lane groups after `t` additions. -/
def accs8_1 (G : S100x128.Idx → Elt F .f32) (base t : ℕ) :
    FVec F S16 .f32 × FVec F S16 .f32 × FVec F S16 .f32 × FVec F S16 .f32 × FVec F S16 .f32 × FVec F S16 .f32 × FVec F S16 .f32 × FVec F S16 .f32 :=
  (accV1 G base 0 t, accV1 G base 1 t, accV1 G base 2 t, accV1 G base 3 t, accV1 G base 4 t, accV1 G base 5 t, accV1 G base 6 t, accV1 G base 7 t)

/-- The pooled sum before the activation at `(i, q)` of the task's result block, from the index array and the table. -/
def Spre1 (ids : S32x48x100.Idx → Elt F .i32) (emb : S100000x128.Idx → Elt F .f32) (w : Fin 32) (x : S96x128.Idx) : F .f32 :=
  lsum (fun l => embAt emb (rowNo (nch := 48) ids w (x 0).val (by have := (x 0).isLt; change _ < 96 at this; omega) l) (x 1)) 49

/-- The accumulator's rows below `n` hold the pooled sums. -/
def AccOK1 (ids : S32x48x100.Idx → Elt F .i32) (emb : S100000x128.Idx → Elt F .f32) (w : Fin 32) (n : ℕ)
    (fA : S96x128.Idx → Elt F .f32) : Prop :=
  ∀ x : S96x128.Idx, (x 0).val < n → fA x = Spre1 ids emb w x

/-- The accumulator's rows below `n` hold the activated values, the others the pooled sums. -/
def ActOK1 (inv zero : F .f32) (ids : S32x48x100.Idx → Elt F .i32) (emb : S100000x128.Idx → Elt F .f32) (w : Fin 32) (n : ℕ)
    (fA : S96x128.Idx → Elt F .f32) : Prop :=
  ∀ x : S96x128.Idx, fA x = if (x 0).val < n then FloatOps.maximumf (FloatOps.mulf (Spre1 ids emb w x) inv) zero else Spre1 ids emb w x

/-! ### Small facts the run's bookkeeping uses -/

omit [FloatOps F] [Named F] in
/-- The table sliced whole is the table. -/
theorem embSl_set1 : (embSl1).view.set = Finset.univ := by
  show ((View.whole main_arg3_scv : View sig .scVector .hbm S100000x128 .f32).slice (Rect.unit (s := S100000x128) ![0, 0] S100000x128.size inb_S100000x128_S100000x128_0_0)).set = Finset.univ
  rw [View.set_slice_whole]
  ext i
  simp only [Rect.mem_set_unit, Finset.mem_univ, iff_true]
  intro a
  match a with
  | 0 => exact ⟨Nat.zero_le _, by simp; exact (i 0).isLt⟩
  | 1 => exact ⟨Nat.zero_le _, by simp; exact (i 1).isLt⟩

omit [FloatOps F] [Named F] in
theorem pts_embSl1 (qe : PosShare TreeShare) (f : Buf (Elt F) (embLoc1 d)) :
    ((embW1).view.loc (thr1 d L) ↦[(embSl1).view.set]{qe} f : sProp 𝕄) = ((embW1).view.loc (thr1 d L) ↦{qe} f) := by
  rw [embSl_set1]

omit [FloatOps F] [Named F] in
/-- A whole buffer written whole holds what was written. -/
theorem whole_writes1 (b : Ref sig .scVector) (f w : b.ty.Contents (Elt F)) :
    (Memref.whole b).view.writes (Elt F) f [⟨Rect.whole _, w⟩] = w :=
  Memref.write_access_whole_univ (Elt F) b f w

omit [FloatOps F] [Named F] in
/-- The gather's payload over a row of the index scratch sliced at offsets `off` is the one over row `c` when `off` names it. -/
theorem gPay_off1 (emb : Buf (Elt F) (embLoc1 d)) (fi : Buf (Elt F) ((sIW1).view.loc (thr1 d L))) (hfi : IdxOK1 d L fi)
    (off : Fin 2 → Nat) (h : ∀ a, off a + S1x100.size a ≤ S48x100.size a) (c : Fin 48) (hoff : off = ![c.val, 0])
    (hn : S100.numel = S100x128.size gathers_S100000x128_S100x128.axis')
    (hin : ∀ x, ((offsP1 off h).view.read (Elt F) fi x).toNat < S100000x128.size gathers_S100000x128_S100x128.axis) :
    SparseCore.gatherPayload gathers_S100000x128_S100x128 ((embSl1).view.read (Elt F) emb)
        (SparseCore.rows ((offsP1 off h).view.read (Elt F) fi) hn hin) = gPay1 d L emb fi hfi c := by
  subst hoff; rfl

omit [FloatOps F] [Named F] in
/-- Rows `a` and `b` back among the others, row `c` out. -/
theorem rows_shift1 (fi : Buf (Elt F) ((sIW1).view.loc (thr1 d L))) (a b c : Fin 48) (hab : a ≠ b) (hac : a ≠ c) (hbc : b ≠ c) :
    iprop(rowPts1 d L fi a ∗ rowPts1 d L fi b ∗ bigSep (((Finset.univ.erase a).erase b).erase c) fun j : Fin 48 => rowPts1 d L fi j)
      ⊢ (bigSep (Finset.univ.erase c) fun j : Fin 48 => rowPts1 d L fi j : sProp 𝕄) := by
  rw [SparseCore.bigSep_erase' (i := a) (s := Finset.univ.erase c) (Finset.mem_erase.mpr ⟨hac, Finset.mem_univ _⟩),
    SparseCore.bigSep_erase' (i := b) (s := (Finset.univ.erase c).erase a) (Finset.mem_erase.mpr ⟨hab.symm, Finset.mem_erase.mpr ⟨hbc, Finset.mem_univ _⟩⟩),
    show ((Finset.univ : Finset (Fin 48)).erase c).erase a = (Finset.univ.erase a).erase c from Finset.erase_right_comm,
    show (((Finset.univ : Finset (Fin 48)).erase a).erase c).erase b = ((Finset.univ.erase a).erase b).erase c from Finset.erase_right_comm]

omit [FloatOps F] [Named F] in
/-- The last two rows back: every row. -/
theorem rows_all1 (fi : Buf (Elt F) ((sIW1).view.loc (thr1 d L))) (a b : Fin 48) (hab : a ≠ b) :
    iprop(rowPts1 d L fi a ∗ rowPts1 d L fi b ∗ bigSep ((Finset.univ.erase a).erase b) fun j : Fin 48 => rowPts1 d L fi j)
      ⊢ ((sIW1).view.loc (thr1 d L) ↦{fullShare} fi : sProp 𝕄) := by
  rw [idsv_rows1, SparseCore.bigSep_erase' (i := a) (s := Finset.univ) (Finset.mem_univ _),
    SparseCore.bigSep_erase' (i := b) (s := Finset.univ.erase a) (Finset.mem_erase.mpr ⟨hab.symm, Finset.mem_univ _⟩)]

omit [Named F] in
theorem lsum_congr1 (f g : ℕ → F .f32) (n : ℕ) (h : ∀ l, l ≤ n → f l = g l) : lsum f n = lsum g n := by
  induction n with
  | zero => exact h 0 (Nat.le_refl _)
  | succ n ih => rw [lsum_succ, lsum_succ, ih (fun l hl => h l (Nat.le_succ_of_le hl)), h (n + 1) (Nat.le_refl _)]

end Tile1
end Cert.Proof.KI
end
-- ==== Proof.Val1A.lean ====
/-
  The values a pooling task's gathers land: the index scratch holds the task's row of the index array, so row `c` of
  the scratch names, position by position, the table rows the index array names at `(w, c, ·)`; a gather over that row
  lands, at `(r, q)`, lane `q` of the table's row named at `(w, c, r)`.
-/
import proofs.«204104_g71330816851969_cont_9to1_m_219_17_alg».proof.Proof.Tile1Defs

noncomputable section
namespace Cert.Proof.KI
open Cert.KernelIdeal Cert.KernelIdeal.Gen
open Idealize.ShloMosaic
open Idealize.ShloMosaic.SparseCore (S V T)
open Idealize.SL Idealize.SL.Sem

variable {F : FTy → Type} [FloatOps F] [Named F]
section Tile1
variable (d : Dev nD) (L : grid1.Coords)

omit [FloatOps F] [Named F] in
/-- A position of a list of 100 re-indexed as one row of 100: row 0, the same position. -/
theorem rsh_100_1 (h : S100.numel = S1x100.numel) (x : S100.Idx) :
    Shape.reshapeEquiv h x = Shape.pair (d := ![1, 100]) (0 : Fin 1) (x 0) := by
  refine Shape.reshapeEquiv_eq_of_rowMajor h ?_
  rw [Shape.rowMajor_val_two, Shape.rowMajor_val_one]
  show (0 : ℕ) * 100 + (x 0).val = (x 0).val
  omega

omit [FloatOps F] [Named F] in
/-- An index of [48,100] re-indexed as one slab of [1,48,100]: slab 0, the same coordinates. -/
theorem rsh_48x100 (h : S48x100.numel = S1x48x100.numel) (y : S48x100.Idx) :
    Shape.reshapeEquiv h y = ix3 (a := 1) (b := 48) (c := 100) (0 : Fin 1) (y 0) (y 1) := by
  refine Shape.reshapeEquiv_eq_of_rowMajor h ?_
  rw [Shape.rowMajor_val_three, Shape.rowMajor_val_two]
  show ((0 : ℕ) * 48 + (y 0).val) * 100 + (y 1).val = (y 0).val * 100 + (y 1).val
  omega

omit [Named F] [FloatOps F] in
/-- Position `r` of row `c` of the index scratch, once the task's row of the index array has landed in it, is the
    index array at `(w, c, r)`. -/
theorem offs_read1 (ids : Buf (Elt F) (idsLoc1 d)) (fI : Buf (Elt F) ((sIW1).view.loc (thr1 d L))) (c : Fin 48) (x : S100.Idx)
    (r : ℕ) (hr : r < 100) (hx : (x 0).val = r) :
    (offsP1 ![c.val, 0] (inbRow1 c)).view.read (Elt F) (View.write (Elt F) (sIW1).view fI (idsPay1 d L ids) Finset.univ) x
      = ids (ix3 (a := 32) (b := 48) (c := 100) (wL1 L) c ⟨r, hr⟩) := by
  have hw : View.write (Elt F) (sIW1).view fI (idsPay1 d L ids) Finset.univ = idsPay1 d L ids := View.write_whole_univ _ _ _
  rw [hw, View.read_apply]
  refine (cast_eq _ _).trans ?_
  unfold idsPay1
  rw [View.read_apply]
  refine (cast_eq _ _).trans ?_
  refine congrArg ids ?_
  funext b; apply Fin.ext
  simp only [Memref.view_slice, Memref.view_whole, Memref.view_squeeze, View.emb_slice, View.emb_whole, View.emb_reshape,
    Function.Embedding.trans_apply, Function.Embedding.refl_apply, Equiv.coe_toEmbedding, Rect.emb_apply, rsh_100_1, rsh_48x100]
  show ((idsRect1 L).emb (Shape.reshapeEquiv _ ((Rect.unit (s := S48x100) ![c.val, 0] S1x100.size (inbRow1 c)).emb (Shape.reshapeEquiv _ x))) b).val = _
  rw [Rect.emb_apply, rsh_48x100, rsh_100_1]
  match b with
  | ⟨0, hb⟩ =>
    show (k1_off1 L) 0 + 1 * 0 = 16 * (L 0).val + (L 1).val
    rw [k1_off1_eq]; rfl
  | ⟨1, hb⟩ =>
    show (k1_off1 L) 1 + 1 * ((Rect.unit (s := S48x100) ![c.val, 0] S1x100.size (inbRow1 c)).emb (Shape.pair (d := ![1, 100]) (0 : Fin 1) (x 0)) 0).val = c.val
    rw [k1_off1_eq, Rect.emb_apply]
    show 0 + 1 * (c.val + 1 * 0) = c.val
    omega
  | ⟨2, hb⟩ =>
    show (k1_off1 L) 2 + 1 * ((Rect.unit (s := S48x100) ![c.val, 0] S1x100.size (inbRow1 c)).emb (Shape.pair (d := ![1, 100]) (0 : Fin 1) (x 0)) 1).val = r
    rw [k1_off1_eq, Rect.emb_apply]
    show 0 + 1 * (0 + 1 * (x 0).val) = r
    omega

omit [FloatOps F] [Named F] in
/-- The row an offset list names for position `k`: the word at `k`, as a natural number. -/
theorem rows_val1 {o z : ℕ} (idx : S100.Idx → Elt F .i32) (hn : S100.numel = o) (h : ∀ x, (idx x).toNat < z) (k : Fin o) :
    (SparseCore.rows idx hn h k).val = (idx (S100.rowMajor.symm (k.cast hn.symm))).toNat := rfl

omit [FloatOps F] [Named F] in
/-- The index of a list of 100 at row-major position `k` has coordinate `k`. -/
theorem symm_coord1 (k : Fin S100.numel) : ((S100.rowMajor.symm k) 0).val = k.val := by
  have h := Shape.rowMajor_val_one (d := ![100]) (S100.rowMajor.symm k)
  rw [Equiv.apply_symm_apply] at h
  exact h.symm

omit [Named F] in
/-- What a gather over row `c` of the index scratch lands at `(r, q)`: lane `q` of the table's row named by the index
    array at `(w, c, r)`. -/
theorem gPay_apply1 (ids : Buf (Elt F) (idsLoc1 d)) (emb : Buf (Elt F) (embLoc1 d)) (fI : Buf (Elt F) ((sIW1).view.loc (thr1 d L)))
    (hfi : IdxOK1 d L (View.write (Elt F) (sIW1).view fI (idsPay1 d L ids) Finset.univ)) (c : Fin 48) (r q : ℕ) (hr : r < 100) (hq : q < 128) :
    Gat1 (gPay1 d L emb (View.write (Elt F) (sIW1).view fI (idsPay1 d L ids) Finset.univ) hfi c) r q
      = embAt emb (show BitVec 32 from ids (ix3 (wL1 L) c ⟨r, hr⟩)).toNat ⟨q, hq⟩ := by
  unfold Gat1 gPay1 SparseCore.gatherPayload embAt
  rw [View.read_apply]
  refine (cast_eq _ _).trans (congrArg emb ?_)
  have hr' : r % 100 = r := Nat.mod_eq_of_lt hr
  have hq' : q % 128 = q := Nat.mod_eq_of_lt hq
  funext b; apply Fin.ext
  show ((Rect.unit (s := S100000x128) ![0, 0] S100000x128.size inb_S100000x128_S100000x128_0_0).emb (gathers_S100000x128_S100x128.idx _ _) b).val = _
  rw [Rect.emb_apply]
  match b with
  | ⟨1, hb⟩ =>
    show 0 + 1 * (gathers_S100000x128_S100x128.idx _ _ ⟨1, hb⟩).val = q
    rw [Shape.Gathers.idx_of_ne _ _ _ ⟨1, hb⟩ Nat.one_ne_zero]
    show 0 + 1 * (q % 128) = q
    omega
  | ⟨0, hb⟩ =>
    show 0 + 1 * (Shape.Gathers.idx gathers_S100000x128_S100x128 _ _ ⟨0, hb⟩).val = _
    unfold Shape.Gathers.idx
    rw [dif_pos rfl, Fin.val_cast]
    let k : Fin (S100x128.size gathers_S100000x128_S100x128.axis') :=
      (Shape.pair (d := ![100, 128]) ⟨r % 100, Nat.mod_lt _ (by decide)⟩ ⟨q % 128, Nat.mod_lt _ (by decide)⟩ : S100x128.Idx) gathers_S100000x128_S100x128.axis'
    let x : S100.Idx := S100.rowMajor.symm (Fin.cast (by rfl) k)
    have hx : (x 0).val = r := by
      show ((S100.rowMajor.symm (Fin.cast _ k)) 0).val = r
      rw [symm_coord1]; exact hr'
    have hrd := offs_read1 d L ids fI c x r hr hx
    have hn := hfi ![c.val, 0] (inbRow1 c) x
    rw [hrd] at hn
    show 0 + 1 * BitVec.toNat ((offsP1 ![c.val, 0] (inbRow1 c)).view.read (Elt F) (View.write (Elt F) (sIW1).view fI (idsPay1 d L ids) Finset.univ) x)
      = BitVec.toNat (ids (ix3 (wL1 L) c ⟨r, hr⟩)) % 100000
    rw [hrd, Nat.mod_eq_of_lt hn]; omega

end Tile1
end Cert.Proof.KI
end
-- ==== Proof.Val1B.lean ====
/-
  Reads and writes of sixteen-lane groups through the task's whole scratch buffers: a group read off a rows buffer or
  off the accumulator is the buffer's contents at the row and the sixteen columns the offsets name, and a group
  stored into the accumulator replaces those sixteen elements and leaves the others.
-/
import proofs.«204104_g71330816851969_cont_9to1_m_219_17_alg».proof.Proof.Tile1Defs
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Val1B

variable (d : Dev nD) (L : grid1.Coords)

/-- The index of the one-row, sixteen-column group under lane `lane`. -/
def laneIx1 (lane : S16.Idx) : S1x16.Idx :=
  Shape.pair (d := ![1, 16]) ⟨0, by decide⟩ ⟨(lane 0).val, (lane 0).isLt⟩

omit [FloatOps F] [Named F] in
theorem laneIx_rowMajor1 (lane : S16.Idx) : (S1x16.rowMajor (laneIx1 lane)).val = (S16.rowMajor lane).val := by
  rw [Shape.rowMajor_val_two, Shape.rowMajor_val_one]
  show 0 * 16 + (lane 0).val = (lane 0).val
  omega

omit [Named F] in
/-- A sixteen-lane group read off the first rows buffer at row `r`, columns `c0 …`. -/
theorem lane_read0_1 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR0W1).view (Rect.unit (s := S100x128) off S1x16.size h).toLoadRect G) hsc
      = fun lane => Gat1 G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx1 lane) (laneIx_rowMajor1 lane), View.readAt_apply, View.read_apply]
  unfold Gat1
  show G _ = G _
  congr 1
  funext a; apply Fin.ext
  match a with
  | 0 => show r + 1 * 0 = r % 100; omega
  | 1 => show c0 + 1 * (lane 0).val = (c0 + (lane 0).val) % 128; omega

omit [Named F] in
/-- The same off the second rows buffer. -/
theorem lane_read1_1 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR1W1).view (Rect.unit (s := S100x128) off S1x16.size h).toLoadRect G) hsc
      = fun lane => Gat1 G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx1 lane) (laneIx_rowMajor1 lane), View.readAt_apply, View.read_apply]
  unfold Gat1
  show G _ = G _
  congr 1
  funext a; apply Fin.ext
  match a with
  | 0 => show r + 1 * 0 = r % 100; omega
  | 1 => show c0 + 1 * (lane 0).val = (c0 + (lane 0).val) % 128; omega

omit [FloatOps F] [Named F] in
/-- A sixteen-lane group read off the accumulator at row `i`, columns `c0 …`, lane by lane. -/
theorem lane_readA1 (f : S96x128.Idx → Elt F .f32) (off : Fin 2 → ℕ) (h : ∀ a, off a + S1x16.size a ≤ S96x128.size a) (i c0 : ℕ)
    (hoff : off = ![i, c0]) (hsc : S1x16.ShapeCasts S16) (lane : S16.Idx) :
    shapeCast S16 (View.readAt (Elt F) (sAW1).view (Rect.unit (s := S96x128) off S1x16.size h).toLoadRect f) hsc lane
      = f (Shape.pair (d := ![96, 128]) ⟨i % 96, Nat.mod_lt _ (by decide)⟩ ⟨(c0 + (lane 0).val) % 128, Nat.mod_lt _ (by decide)⟩) := by
  subst hoff
  have hr : i + 1 ≤ 96 := h 0
  have hc : c0 + 16 ≤ 128 := h 1
  have hl : (lane 0).val < 16 := (lane 0).isLt
  rw [shapeCast_apply _ hsc lane (laneIx1 lane) (laneIx_rowMajor1 lane), View.readAt_apply, View.read_apply]
  show f _ = f _
  congr 1
  funext a; apply Fin.ext
  match a with
  | 0 => show i + 1 * 0 = i % 96; omega
  | 1 => show c0 + 1 * (lane 0).val = (c0 + (lane 0).val) % 128; omega

omit [FloatOps F] [Named F] in
/-- A sixteen-lane group stored into the accumulator at row `i`, columns `c0 …`, last of a run of stores: those sixteen
    elements are the group's lanes, every other element is what the earlier stores left. -/
theorem acc_piece_apply1 (f : S96x128.Idx → Elt F .f32) (off : Fin 2 → ℕ) (h : ∀ a, off a + S1x16.size a ≤ S96x128.size a) (i c0 : ℕ)
    (hoff : off = ![i, c0]) (v : FVec F S16 .f32) (hc : S16.ShapeCasts S1x16) (Lst : List (View.Piece (Elt F) S96x128 .f32)) (x : S96x128.Idx) :
    (sAW1).view.writes (Elt F) f (⟨Rect.unit (s := S96x128) off S1x16.size h, shapeCast S1x16 v hc⟩ :: Lst) x
      = if (x 0).val = i ∧ c0 ≤ (x 1).val ∧ (x 1).val < c0 + 16
        then v (Shape.ofLane (d := ![16]) ⟨((x 1).val - c0) % 16, Nat.mod_lt _ (by decide)⟩)
        else (sAW1).view.writes (Elt F) f Lst x := by
  subst hoff
  rw [View.writes_cons]
  by_cases hx : (x 0).val = i ∧ c0 ≤ (x 1).val ∧ (x 1).val < c0 + 16
  · rw [if_pos hx]
    obtain ⟨h0, h1, h2⟩ := hx
    -- the element's index within the group
    let y : S1x16.Idx := Shape.pair (d := ![1, 16]) ⟨0, by decide⟩ ⟨(x 1).val - c0, by show (x 1).val - c0 < 16; omega⟩
    have hxy : x = ((sAW1).view.slice (Rect.unit (s := S96x128) ![i, c0] S1x16.size h)).emb y := by
      funext a; apply Fin.ext
      match a with
      | 0 => show (x 0).val = i + 1 * 0; omega
      | 1 => show (x 1).val = c0 + 1 * ((x 1).val - c0); omega
    conv_lhs => rw [hxy]
    rw [View.write_emb_of_mem _ _ (Finset.mem_univ _)]
    show shapeCast S1x16 v hc y = _
    rw [shapeCast_apply _ hc y (Shape.ofLane (d := ![16]) ⟨((x 1).val - c0) % 16, Nat.mod_lt _ (by decide)⟩)
      (by rw [Shape.rowMajor_val_two, Shape.rowMajor_val_one]
          show ((x 1).val - c0) % 16 = 0 * 16 + ((x 1).val - c0); omega)]
  · rw [if_neg hx]
    refine View.write_of_not_mem _ _ _ ?_
    rw [View.setOn_univ]
    show x ∉ ((View.whole cc1_scratch3 : View sig .scVector .vmem S96x128 .f32).slice (Rect.unit (s := S96x128) ![i, c0] S1x16.size h)).set
    rw [View.set_slice_whole, Rect.mem_set_unit]
    intro hm
    have m0 := hm 0; have m1 := hm 1
    apply hx
    have e0 : (![i, c0] : Fin 2 → ℕ) 0 = i := rfl
    have e1 : (![i, c0] : Fin 2 → ℕ) 1 = c0 := rfl
    have s0 : S1x16.size 0 = 1 := rfl
    have s1 : S1x16.size 1 = 16 := rfl
    rw [e0, s0] at m0; rw [e1, s1] at m1
    exact ⟨by omega, m1.1, m1.2⟩

end Val1B
end Cert.Proof.KI
end
-- ==== Proof.Val1C.lean ====
/-
  The accumulator after one row of sixteen-lane groups is stored: the rows below and the new row hold the pooled
  sums; and the lane sums over a rows buffer are the pooled sums once the buffer holds the gathered table rows.
-/
import proofs.«204104_g71330816851969_cont_9to1_m_219_17_alg».proof.Proof.Val1B
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Val1C

variable (d : Dev nD) (L : grid1.Coords)

omit [Named F] in
/-- One stored group's element is the pooled sum there, when the group's lanes are. -/
theorem group_val1 (ids : S32x48x100.Idx → Elt F .i32) (emb : S100000x128.Idx → Elt F .f32) (w : Fin 32) (i : ℕ) (hi : i < 96)
    (c0 : ℕ) (hc0 : c0 + 16 ≤ 128) (a : FVec F S16 .f32)
    (ha : ∀ lane : S16.Idx, a lane = Spre1 ids emb w (Shape.pair (d := ![96, 128]) ⟨i % 96, Nat.mod_lt _ (by decide)⟩ ⟨(c0 + (lane 0).val) % 128, Nat.mod_lt _ (by decide)⟩))
    (x : S96x128.Idx) (hx0 : (x 0).val = i) (h1 : c0 ≤ (x 1).val) (h2 : (x 1).val < c0 + 16) :
    a (Shape.ofLane (d := ![16]) ⟨((x 1).val - c0) % 16, Nat.mod_lt _ (by decide)⟩) = Spre1 ids emb w x := by
  rw [ha]
  congr 1
  funext b; apply Fin.ext
  match b with
  | 0 => show i % 96 = (x 0).val; omega
  | 1 => show (c0 + ((x 1).val - c0) % 16) % 128 = (x 1).val; omega

omit [Named F] in
/-- ONE ROW of the accumulator stored, eight groups, the last store first: the rows up to and including it hold the
    pooled sums. -/
theorem acc_row_ok1 (ids : S32x48x100.Idx → Elt F .i32) (emb : S100000x128.Idx → Elt F .f32) (w : Fin 32) (f : S96x128.Idx → Elt F .f32) (i : ℕ) (hi : i < 96)
    (o0 o1 o2 o3 o4 o5 o6 o7 : Fin 2 → ℕ)
    (h0 : ∀ a, o0 a + S1x16.size a ≤ S96x128.size a) (h1 : ∀ a, o1 a + S1x16.size a ≤ S96x128.size a)
    (h2 : ∀ a, o2 a + S1x16.size a ≤ S96x128.size a) (h3 : ∀ a, o3 a + S1x16.size a ≤ S96x128.size a)
    (h4 : ∀ a, o4 a + S1x16.size a ≤ S96x128.size a) (h5 : ∀ a, o5 a + S1x16.size a ≤ S96x128.size a)
    (h6 : ∀ a, o6 a + S1x16.size a ≤ S96x128.size a) (h7 : ∀ a, o7 a + S1x16.size a ≤ S96x128.size a)
    (e0 : o0 = ![i, 0]) (e1 : o1 = ![i, 16]) (e2 : o2 = ![i, 32]) (e3 : o3 = ![i, 48]) (e4 : o4 = ![i, 64]) (e5 : o5 = ![i, 80])
    (e6 : o6 = ![i, 96]) (e7 : o7 = ![i, 112])
    (a0 a1 a2 a3 a4 a5 a6 a7 : FVec F S16 .f32) (hc : S16.ShapeCasts S1x16)
    (hf : AccOK1 ids emb w i f)
    (ha0 : ∀ lane : S16.Idx, a0 lane = Spre1 ids emb w (Shape.pair (d := ![96, 128]) ⟨i % 96, Nat.mod_lt _ (by decide)⟩ ⟨(0 + (lane 0).val) % 128, Nat.mod_lt _ (by decide)⟩))
    (ha1 : ∀ lane : S16.Idx, a1 lane = Spre1 ids emb w (Shape.pair (d := ![96, 128]) ⟨i % 96, Nat.mod_lt _ (by decide)⟩ ⟨(16 + (lane 0).val) % 128, Nat.mod_lt _ (by decide)⟩))
    (ha2 : ∀ lane : S16.Idx, a2 lane = Spre1 ids emb w (Shape.pair (d := ![96, 128]) ⟨i % 96, Nat.mod_lt _ (by decide)⟩ ⟨(32 + (lane 0).val) % 128, Nat.mod_lt _ (by decide)⟩))
    (ha3 : ∀ lane : S16.Idx, a3 lane = Spre1 ids emb w (Shape.pair (d := ![96, 128]) ⟨i % 96, Nat.mod_lt _ (by decide)⟩ ⟨(48 + (lane 0).val) % 128, Nat.mod_lt _ (by decide)⟩))
    (ha4 : ∀ lane : S16.Idx, a4 lane = Spre1 ids emb w (Shape.pair (d := ![96, 128]) ⟨i % 96, Nat.mod_lt _ (by decide)⟩ ⟨(64 + (lane 0).val) % 128, Nat.mod_lt _ (by decide)⟩))
    (ha5 : ∀ lane : S16.Idx, a5 lane = Spre1 ids emb w (Shape.pair (d := ![96, 128]) ⟨i % 96, Nat.mod_lt _ (by decide)⟩ ⟨(80 + (lane 0).val) % 128, Nat.mod_lt _ (by decide)⟩))
    (ha6 : ∀ lane : S16.Idx, a6 lane = Spre1 ids emb w (Shape.pair (d := ![96, 128]) ⟨i % 96, Nat.mod_lt _ (by decide)⟩ ⟨(96 + (lane 0).val) % 128, Nat.mod_lt _ (by decide)⟩))
    (ha7 : ∀ lane : S16.Idx, a7 lane = Spre1 ids emb w (Shape.pair (d := ![96, 128]) ⟨i % 96, Nat.mod_lt _ (by decide)⟩ ⟨(112 + (lane 0).val) % 128, Nat.mod_lt _ (by decide)⟩)) :
    AccOK1 ids emb w (i + 1) ((sAW1).view.writes (Elt F) f
      [⟨Rect.unit (s := S96x128) o7 S1x16.size h7, shapeCast S1x16 a7 hc⟩, ⟨Rect.unit (s := S96x128) o6 S1x16.size h6, shapeCast S1x16 a6 hc⟩,
       ⟨Rect.unit (s := S96x128) o5 S1x16.size h5, shapeCast S1x16 a5 hc⟩, ⟨Rect.unit (s := S96x128) o4 S1x16.size h4, shapeCast S1x16 a4 hc⟩,
       ⟨Rect.unit (s := S96x128) o3 S1x16.size h3, shapeCast S1x16 a3 hc⟩, ⟨Rect.unit (s := S96x128) o2 S1x16.size h2, shapeCast S1x16 a2 hc⟩,
       ⟨Rect.unit (s := S96x128) o1 S1x16.size h1, shapeCast S1x16 a1 hc⟩, ⟨Rect.unit (s := S96x128) o0 S1x16.size h0, shapeCast S1x16 a0 hc⟩]) := by
  intro x hx
  have hx1 : (x 1).val < 128 := (x 1).isLt
  rw [acc_piece_apply1 f o7 h7 i 112 e7, acc_piece_apply1 f o6 h6 i 96 e6, acc_piece_apply1 f o5 h5 i 80 e5, acc_piece_apply1 f o4 h4 i 64 e4,
    acc_piece_apply1 f o3 h3 i 48 e3, acc_piece_apply1 f o2 h2 i 32 e2, acc_piece_apply1 f o1 h1 i 16 e1, acc_piece_apply1 f o0 h0 i 0 e0, View.writes_nil]
  by_cases c7 : (x 0).val = i ∧ 112 ≤ (x 1).val ∧ (x 1).val < 112 + 16
  · rw [if_pos c7]; exact group_val1 ids emb w i hi 112 (by omega) a7 ha7 x c7.1 c7.2.1 c7.2.2
  rw [if_neg c7]
  by_cases c6 : (x 0).val = i ∧ 96 ≤ (x 1).val ∧ (x 1).val < 96 + 16
  · rw [if_pos c6]; exact group_val1 ids emb w i hi 96 (by omega) a6 ha6 x c6.1 c6.2.1 c6.2.2
  rw [if_neg c6]
  by_cases c5_1 : (x 0).val = i ∧ 80 ≤ (x 1).val ∧ (x 1).val < 80 + 16
  · rw [if_pos c5_1]; exact group_val1 ids emb w i hi 80 (by omega) a5 ha5 x c5_1.1 c5_1.2.1 c5_1.2.2
  rw [if_neg c5_1]
  by_cases c4_1 : (x 0).val = i ∧ 64 ≤ (x 1).val ∧ (x 1).val < 64 + 16
  · rw [if_pos c4_1]; exact group_val1 ids emb w i hi 64 (by omega) a4 ha4 x c4_1.1 c4_1.2.1 c4_1.2.2
  rw [if_neg c4_1]
  by_cases c3 : (x 0).val = i ∧ 48 ≤ (x 1).val ∧ (x 1).val < 48 + 16
  · rw [if_pos c3]; exact group_val1 ids emb w i hi 48 (by omega) a3 ha3 x c3.1 c3.2.1 c3.2.2
  rw [if_neg c3]
  by_cases c2 : (x 0).val = i ∧ 32 ≤ (x 1).val ∧ (x 1).val < 32 + 16
  · rw [if_pos c2]; exact group_val1 ids emb w i hi 32 (by omega) a2 ha2 x c2.1 c2.2.1 c2.2.2
  rw [if_neg c2]
  by_cases c1 : (x 0).val = i ∧ 16 ≤ (x 1).val ∧ (x 1).val < 16 + 16
  · rw [if_pos c1]; exact group_val1 ids emb w i hi 16 (by omega) a1 ha1 x c1.1 c1.2.1 c1.2.2
  rw [if_neg c1]
  by_cases c0 : (x 0).val = i ∧ 0 ≤ (x 1).val ∧ (x 1).val < 0 + 16
  · rw [if_pos c0]; exact group_val1 ids emb w i hi 0 (by omega) a0 ha0 x c0.1 c0.2.1 c0.2.2
  rw [if_neg c0]
  refine hf x ?_
  by_contra hge
  have hxi : (x 0).val = i := by omega
  have b7 : (x 1).val < 112 := by omega
  have b6 : (x 1).val < 96 := by omega
  have b5 : (x 1).val < 80 := by omega
  have b4 : (x 1).val < 64 := by omega
  have b3 : (x 1).val < 48 := by omega
  have b2 : (x 1).val < 32 := by omega
  have b1 : (x 1).val < 16 := by omega
  omega

omit [Named F] in
/-- The lane sums over the fifty rows `50 b, …, 50 b + 49` of a rows buffer that holds the table rows chunk `c` of the
    index array names are the pooled sums of output row `2 c + b`. -/
theorem accV_Spre1 (G : S100x128.Idx → Elt F .f32) (ids : S32x48x100.Idx → Elt F .i32) (emb : S100000x128.Idx → Elt F .f32) (w : Fin 32) (c : Fin 48)
    (hG : ∀ (r q : ℕ) (hr : r < 100) (hq : q < 128), Gat1 G r q = embAt emb (show BitVec 32 from ids (ix3 w c ⟨r, hr⟩)).toNat ⟨q, hq⟩)
    (b : ℕ) (hb : b < 2) (j : ℕ) (hj : j < 8) (lane : S16.Idx) :
    accV1 G (50 * b) j 49 lane
      = Spre1 ids emb w (Shape.pair (d := ![96, 128]) ⟨(2 * c.val + b) % 96, Nat.mod_lt _ (by decide)⟩ ⟨(16 * j + (lane 0).val) % 128, Nat.mod_lt _ (by decide)⟩) := by
  have hl16 : (lane 0).val < 16 := (lane 0).isLt
  have hc : c.val < 48 := c.isLt
  unfold accV1 Spre1
  refine lsum_congr1 _ _ 49 fun l hl => ?_
  rw [hG (50 * b + l) (16 * j + (lane 0).val) (by omega) (by omega)]
  unfold rowNo
  have e1 : (⟨16 * j + (lane 0).val, by omega⟩ : Fin 128)
      = (Shape.pair (d := ![96, 128]) ⟨(2 * c.val + b) % 96, Nat.mod_lt _ (by decide)⟩ ⟨(16 * j + (lane 0).val) % 128, Nat.mod_lt _ (by decide)⟩ : S96x128.Idx) 1 :=
    Fin.ext (by show 16 * j + (lane 0).val = (16 * j + (lane 0).val) % 128; omega)
  rw [e1]
  congr 3
  show ids _ = ids _
  refine congrArg ids (congrArg₂ (ix3 w) (Fin.ext ?_) (Fin.ext ?_))
  · show c.val = (2 * c.val + b) % 96 / 2; omega
  · show 50 * b + l = (2 * c.val + b) % 96 % 2 * 50 + l % 50; omega

end Val1C
end Cert.Proof.KI
end
-- ==== Proof.Tile1Val.lean ====
/-
  The values through the streams' loop of the first pooling call's task: the loop's invariant with the accumulator's
  finished rows at the pooled sums, and the steps that keep it.
-/
import proofs.«204104_g71330816851969_cont_9to1_m_219_17_alg».proof.Proof.Val1A
import proofs.«204104_g71330816851969_cont_9to1_m_219_17_alg».proof.Proof.Val1C

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Tile1

variable (d : Dev nD) (L : grid1.Coords)

/-! ### The values through the streams' loop -/

/-- The index scratch's contents once the first copy has landed the task's row of the index array over `fI`. -/
abbrev fiOf1 (ids : Buf (Elt F) (idsLoc1 d)) (fI : Buf (Elt F) ((sIW1).view.loc (thr1 d L))) : Buf (Elt F) ((sIW1).view.loc (thr1 d L)) :=
  View.write (Elt F) (sIW1).view fI (idsPay1 d L ids) Finset.univ

/-- Before trip `k` of the streams' loop, with the values: as `outerInv1`, the accumulator's rows below `4k` at the pooled sums. -/
def outerInvV1 (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2)) (k : ℕ) (_ : PUnit) : sProp 𝕄 :=
  iprop(Transfers.MayWaits (thr1 d L) (none : HIx 2) O
    ∗ semVal (c5_1 d L) 0
    ∗ (∃ f1, (sR1W1).view.loc (thr1 d L) ↦{fullShare} f1)
    ∗ ((embW1).view.loc (thr1 d L) ↦{q.right} emb)
    ∗ (∃ fA, ⌜AccOK1 ids emb (wL1 L) (4 * k) fA⌝ ∗ (sAW1).view.loc (thr1 d L) ↦{fullShare} fA)
    ∗ (if k < 24 then iprop(flightC0_1 d L emb (fiOf1 d L ids fI) hfi (fin48 (2 * k)) q.left
          ∗ bigSep (Finset.univ.erase (fin48 (2 * k))) fun j => rowPts1 d L (fiOf1 d L ids fI) j)
       else iprop(semVal (c4_1 d L) 0 ∗ (∃ f0, (sR0W1).view.loc (thr1 d L) ↦{fullShare} f0)
          ∗ ((sIW1).view.loc (thr1 d L) ↦{fullShare} fiOf1 d L ids fI) ∗ ((embW1).view.loc (thr1 d L) ↦{q.left} emb)))
    ∗ ∃ W', ⌜∀ p ∈ W', p ∈ W ∨ p.2 = none⌝ ∗ owes (thr1 d L) O W')

omit [Named F] in
/-- After the last trip: everything the streams used is back, the accumulator at the pooled sums. -/
theorem outerInvV_exit1 (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2)) (u : PUnit) :
    outerInvV1 d L ids emb fI hfi q O W (Scf.trips k1_t1_loop.lb k1_t1_loop.ub k1_t1_loop.st) u
      ⊢ iprop(Transfers.MayWaits (thr1 d L) (none : HIx 2) O
          ∗ semVal (c5_1 d L) 0
          ∗ (∃ f1, (sR1W1).view.loc (thr1 d L) ↦{fullShare} f1)
          ∗ ((embW1).view.loc (thr1 d L) ↦{q.right} emb)
          ∗ (∃ fA, ⌜AccOK1 ids emb (wL1 L) 96 fA⌝ ∗ (sAW1).view.loc (thr1 d L) ↦{fullShare} fA)
          ∗ (semVal (c4_1 d L) 0 ∗ (∃ f0, (sR0W1).view.loc (thr1 d L) ↦{fullShare} f0)
              ∗ ((sIW1).view.loc (thr1 d L) ↦{fullShare} fiOf1 d L ids fI) ∗ ((embW1).view.loc (thr1 d L) ↦{q.left} emb))
          ∗ ∃ W', ⌜∀ p ∈ W', p ∈ W ∨ p.2 = none⌝ ∗ owes (thr1 d L) O W') := by
  unfold outerInvV1
  rw [if_neg (by decide)]
  exact .rfl

omit [FloatOps F] [Named F] in
theorem tuple8_eq1 {α : Type} {x0 x1 x2 x3 x4 x5 x6 x7 y0 y1 y2 y3 y4 y5 y6 y7 : α}
    (h0 : x0 = y0) (h1 : x1 = y1) (h2 : x2 = y2) (h3 : x3 = y3) (h4 : x4 = y4) (h5 : x5 = y5) (h6 : x6 = y6) (h7 : x7 = y7) :
    (x0, x1, x2, x3, x4, x5, x6, x7) = (y0, y1, y2, y3, y4, y5, y6, y7) := by
  subst h0 h1 h2 h3 h4 h5 h6 h7; rfl

omit [Named F] in
/-- One more row of the first rows buffer added to a lane group. -/
theorem acc_step0_1 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV1 G base j t) (shapeCast S16 (View.readAt (Elt F) (sR0W1).view (Rect.unit (s := S100x128) off S1x16.size h).toLoadRect G) hsc)
      = accV1 G base j (t + 1) := by
  rw [lane_read0_1 G off h r c0 hoff hsc]; subst hc; exact accV_succ1 G base j t r hr
omit [Named F] in
/-- One more row of the second rows buffer added to a lane group. -/
theorem acc_step1_1 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV1 G base j t) (shapeCast S16 (View.readAt (Elt F) (sR1W1).view (Rect.unit (s := S100x128) off S1x16.size h).toLoadRect G) hsc)
      = accV1 G base j (t + 1) := by
  rw [lane_read1_1 G off h r c0 hoff hsc]; subst hc; exact accV_succ1 G base j t r hr

omit [Named F] in
/-- The first row of a block of a rows buffer, as a lane group's starting value. -/
theorem acc_init0_1 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR0W1).view (Rect.unit (s := S100x128) off S1x16.size h).toLoadRect G) hsc = accV1 G base j 0 := by
  rw [lane_read0_1 G off h base c0 hoff hsc]; subst hc; rfl
omit [Named F] in
theorem acc_init1_1 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR1W1).view (Rect.unit (s := S100x128) off S1x16.size h).toLoadRect G) hsc = accV1 G base j 0 := by
  rw [lane_read1_1 G off h base c0 hoff hsc]; subst hc; rfl

omit [Named F] in
theorem accOK_cast1 (ids : S32x48x100.Idx → Elt F .i32) (emb : S100000x128.Idx → Elt F .f32) (w : Fin 32) {n m : ℕ} (h : n = m)
    {f : S96x128.Idx → Elt F .f32} (hf : AccOK1 ids emb w n f) : AccOK1 ids emb w m f := h ▸ hf

omit [Named F] in
/-- One row of the accumulator stored from the eight lane sums of a block of fifty gathered rows: the pooled sums there. -/
theorem acc_row_ok'1 (ids : Buf (Elt F) (idsLoc1 d)) (emb : Buf (Elt F) (embLoc1 d)) (fI : Buf (Elt F) ((sIW1).view.loc (thr1 d L)))
    (hfi : IdxOK1 d L (fiOf1 d L ids fI)) (c : Fin 48) (b : ℕ) (hb : b < 2) (f : S96x128.Idx → Elt F .f32) (i : ℕ) (hi : i < 96) (hic : i = 2 * c.val + b)
    (o0 o1 o2 o3 o4 o5 o6 o7 : Fin 2 → ℕ)
    (h0 : ∀ a, o0 a + S1x16.size a ≤ S96x128.size a) (h1 : ∀ a, o1 a + S1x16.size a ≤ S96x128.size a) (h2 : ∀ a, o2 a + S1x16.size a ≤ S96x128.size a) (h3 : ∀ a, o3 a + S1x16.size a ≤ S96x128.size a) (h4 : ∀ a, o4 a + S1x16.size a ≤ S96x128.size a) (h5 : ∀ a, o5 a + S1x16.size a ≤ S96x128.size a) (h6 : ∀ a, o6 a + S1x16.size a ≤ S96x128.size a) (h7 : ∀ a, o7 a + S1x16.size a ≤ S96x128.size a)
    (e0 : o0 = ![i, 0]) (e1 : o1 = ![i, 16]) (e2 : o2 = ![i, 32]) (e3 : o3 = ![i, 48]) (e4 : o4 = ![i, 64]) (e5 : o5 = ![i, 80]) (e6 : o6 = ![i, 96]) (e7 : o7 = ![i, 112])
    (a0 a1 a2 a3 a4 a5 a6 a7 : FVec F S16 .f32) (hc : S16.ShapeCasts S1x16)
    (hf : AccOK1 ids emb (wL1 L) i f)
    (hacc : (a0, a1, a2, a3, a4, a5, a6, a7) = accs8_1 (gPay1 d L emb (fiOf1 d L ids fI) hfi c) (50 * b) 49) :
    AccOK1 ids emb (wL1 L) (i + 1) ((sAW1).view.writes (Elt F) f
      [⟨Rect.unit (s := S96x128) o7 S1x16.size h7, shapeCast S1x16 a7 hc⟩, ⟨Rect.unit (s := S96x128) o6 S1x16.size h6, shapeCast S1x16 a6 hc⟩, ⟨Rect.unit (s := S96x128) o5 S1x16.size h5, shapeCast S1x16 a5 hc⟩, ⟨Rect.unit (s := S96x128) o4 S1x16.size h4, shapeCast S1x16 a4 hc⟩, ⟨Rect.unit (s := S96x128) o3 S1x16.size h3, shapeCast S1x16 a3 hc⟩, ⟨Rect.unit (s := S96x128) o2 S1x16.size h2, shapeCast S1x16 a2 hc⟩, ⟨Rect.unit (s := S96x128) o1 S1x16.size h1, shapeCast S1x16 a1 hc⟩, ⟨Rect.unit (s := S96x128) o0 S1x16.size h0, shapeCast S1x16 a0 hc⟩]) := by
  simp only [accs8_1, Prod.mk.injEq] at hacc
  obtain ⟨rfl, rfl, rfl, rfl, rfl, rfl, rfl, rfl⟩ := hacc
  subst hic
  have hG := fun (r q : ℕ) (hr : r < 100) (hq : q < 128) => gPay_apply1 d L ids emb fI hfi c r q hr hq
  exact acc_row_ok1 ids emb (wL1 L) f _ hi o0 o1 o2 o3 o4 o5 o6 o7 h0 h1 h2 h3 h4 h5 h6 h7 e0 e1 e2 e3 e4 e5 e6 e7 _ _ _ _ _ _ _ _ hc hf
    (fun lane => accV_Spre1 _ ids emb (wL1 L) c hG b hb 0 (by decide) lane)
    (fun lane => accV_Spre1 _ ids emb (wL1 L) c hG b hb 1 (by decide) lane)
    (fun lane => accV_Spre1 _ ids emb (wL1 L) c hG b hb 2 (by decide) lane)
    (fun lane => accV_Spre1 _ ids emb (wL1 L) c hG b hb 3 (by decide) lane)
    (fun lane => accV_Spre1 _ ids emb (wL1 L) c hG b hb 4 (by decide) lane)
    (fun lane => accV_Spre1 _ ids emb (wL1 L) c hG b hb 5 (by decide) lane)
    (fun lane => accV_Spre1 _ ids emb (wL1 L) c hG b hb 6 (by decide) lane)
    (fun lane => accV_Spre1 _ ids emb (wL1 L) c hG b hb 7 (by decide) lane)

/-- A gather into the first rows buffer issued over the row of the index scratch sliced at `off`, as the run leaves it in
    flight, is the invariant's gather of chunk `c` when `off` names row `c`. -/
theorem flight_canon1 (emb : Buf (Elt F) (embLoc1 d)) (fi : Buf (Elt F) ((sIW1).view.loc (thr1 d L))) (hfi : IdxOK1 d L fi)
    (off : Fin 2 → Nat) (h : ∀ a, off a + S1x100.size a ≤ S48x100.size a) (c : Fin 48) (hoff : off = ![c.val, 0])
    (f0 : Buf (Elt F) ((sR0W1).view.loc (thr1 d L))) (g : S100x128.Idx → Elt F .f32) (hg : g = gPay1 d L emb fi hfi c) (qe : PosShare TreeShare) :
    (Transfers.Flight countersEmb (thr1 d L) (SemLoc.dma cc1_scratch4.sem) default 409600
      iprop((((sR0W1).view.loc (thr1 d L) ↦{fullShare} (sR0W1).view.writes (Elt F) f0 [⟨Rect.whole S100x128, g⟩])
          ∗ ((offsP1 off h).view.loc (thr1 d L) ↦[(offsP1 off h).view.set]{fullShare} fi))
        ∗ ((embW1).view.loc (thr1 d L) ↦[(embSl1).view.set]{qe} emb)) : sProp 𝕄)
      ⊢ (Transfers.Flight countersEmb (thr1 d L) (SemLoc.dma cc1_scratch4.sem) default 409600
          iprop((((sR0W1).view.loc (thr1 d L) ↦{fullShare} gPay1 d L emb fi hfi c) ∗ rowPts1 d L fi c)
            ∗ ((embW1).view.loc (thr1 d L) ↦{qe} emb)) : sProp 𝕄) := by
  refine Transfers.Flight_mono countersEmb (thr1 d L) ?_
  subst hg
  have E : (sR0W1).view.writes (Elt F) f0 [⟨Rect.whole S100x128, gPay1 d L emb fi hfi c⟩] = gPay1 d L emb fi hfi c :=
    whole_writes1 (F := F) cc1_scratch1 f0 _
  rw [pts_embSl1, pts_offsP1 (F := F) d L off h c hoff fi, E]

end Tile1
end Cert.Proof.KI
end
-- ==== Proof.Tile1Trip.lean ====
/-
  The streams' loop of the first pooling call's task, with the values: one trip from the loop's invariant to the invariant
  at the next trip — the two chunks' rows summed lane group by lane group into four rows of the accumulator —, while a later
  chunk remains to be fetched and at the last trip.
-/
import proofs.«204104_g71330816851969_cont_9to1_m_219_17_alg».proof.Proof.Tile1Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Tile1

variable (d : Dev nD) (L : grid1.Coords)

set_option maxHeartbeats 1600000 in
theorem trip1 (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2))
    (k : Fin k1_t1_loop.trips) (hk7 : k.val < 23) (acc : PUnit) :
    outerInvV1 d L ids emb fI hfi q O W k.val acc
      ⊢ wp frame (wpE (defs₀ (F := F)) 𝒱₀ (thr1 d L) none) Set.univ
          (k1_t1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 k acc)
          (outerInvV1 d L ids emb fI hfi q O W (k.val + 1)) := by
  have hk8 : k.val < 24 := by omega
  have hk8' : k.val + 1 < 24 := by omega
  have h1 : k1_cond1 k = 1#1 := by revert hk7; revert k; decide
  unfold outerInvV1
  rw [if_pos hk8, if_pos hk8']
  unfold flightC0_1
  iintro ⟨Hmw, Hc5, ⟨%f1, HR1⟩, HeR, ⟨%fA, %hAcc, HA⟩, ⟨Hfl, Hrows⟩, %W', %hW', HO⟩
  have hm1 : fin48 (2 * k.val + 1) ∈ (Finset.univ : Finset (Fin 48)).erase (fin48 (2 * k.val)) :=
    Finset.mem_erase.mpr ⟨fun e => by have := congrArg Fin.val e; simp only [fin48] at this; omega, Finset.mem_univ _⟩
  ihave H1 := (Entails.of_eq (SparseCore.bigSep_erase' hm1)) $$ Hrows
  icases H1 with ⟨Hrow1, Hrows⟩
  have e1 : (2 * k.val + 1) % 48 = 2 * k.val + 1 := by omega
  have hoff1 : k1_off2 k = ![(fin48 (2 * k.val + 1)).val, 0] := by
    show k1_off2 k = ![(2 * k.val + 1) % 48, 0]
    rw [k1_off2_eq, e1]
  ihave Hrow1' := (Entails.of_eq (pts_offsP1 (F := F) d L (k1_off2 k) (k1_off2_inb k) _ hoff1 _).symm) $$ Hrow1
  have hm2 : fin48 (2 * (k.val + 1)) ∈ ((Finset.univ : Finset (Fin 48)).erase (fin48 (2 * k.val))).erase (fin48 (2 * k.val + 1)) :=
    Finset.mem_erase.mpr ⟨fun e => by have := congrArg Fin.val e; simp only [fin48] at this; omega,
      Finset.mem_erase.mpr ⟨fun e => by have := congrArg Fin.val e; simp only [fin48] at this; omega, Finset.mem_univ _⟩⟩
  ihave H2 := (Entails.of_eq (SparseCore.bigSep_erase' hm2)) $$ Hrows
  icases H2 with ⟨Hrow2, Hrows⟩
  have e2 : (2 * (k.val + 1)) % 48 = 2 * k.val + 2 := by omega
  have hoff2 : k1_off28 k = ![(fin48 (2 * (k.val + 1))).val, 0] := by
    show k1_off28 k = ![(2 * (k.val + 1)) % 48, 0]
    rw [k1_off28_eq, e2]
  ihave Hrow2' := (Entails.of_eq (pts_offsP1 (F := F) d L (k1_off28 k) (k1_off28_inb k h1) _ hoff2 _).symm) $$ Hrow2
  have hfi' : ∀ (row : Fin 2 → ℕ) (hk : ∀ a, row a + S1x100.size a ≤ S48x100.size a) (x : S100.Idx),
      (View.read (Elt F) (((Memref.whole cc1_scratch0 : Memref sig .scVector .vmem S48x100 .i32).slice (Rect.unit (s := S48x100) row S1x100.size hk) (fun _ => rfl)).squeeze S100 squeezes_S1x100_S100).view (fiOf1 d L ids fI) x).toNat < 100000 := hfi
  unfold k1_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 0 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 0 0 t.val _ _ _ _ (k1_off4_eq t) (by omega) rfl _)
        (acc_step0_1 (gPay1 d L emb (fiOf1 d L ids fI) hfi (fin48 (2 * k.val))) 0 1 t.val _ _ _ _ (k1_off5_eq t) (by omega) rfl _)
        (acc_step0_1 (gPay1 d L emb (fiOf1 d L ids fI) hfi (fin48 (2 * k.val))) 0 2 t.val _ _ _ _ (k1_off6_eq t) (by omega) rfl _)
        (acc_step0_1 (gPay1 d L emb (fiOf1 d L ids fI) hfi (fin48 (2 * k.val))) 0 3 t.val _ _ _ _ (k1_off7_eq t) (by omega) rfl _)
        (acc_step0_1 (gPay1 d L emb (fiOf1 d L ids fI) hfi (fin48 (2 * k.val))) 0 4 t.val _ _ _ _ (k1_off8_eq t) (by omega) rfl _)
        (acc_step0_1 (gPay1 d L emb (fiOf1 d L ids fI) hfi (fin48 (2 * k.val))) 0 5 t.val _ _ _ _ (k1_off9_eq t) (by omega) rfl _)
        (acc_step0_1 (gPay1 d L emb (fiOf1 d L ids fI) hfi (fin48 (2 * k.val))) 0 6 t.val _ _ _ _ (k1_off10_eq t) (by omega) rfl _)
        (acc_step0_1 (gPay1 d L emb (fiOf1 d L ids fI) hfi (fin48 (2 * k.val))) 0 7 t.val _ _ _ _ (k1_off11_eq t) (by omega) rfl _)
    · iexact HR
  · isplitr
    · ipureintro
      exact tuple8_eq1
        (acc_init0_1 (gPay1 d L emb (fiOf1 d L ids fI) hfi (fin48 (2 * k.val))) 0 0 _ _ 0 rfl rfl _)
        (acc_init0_1 (gPay1 d L emb (fiOf1 d L ids fI) hfi (fin48 (2 * k.val))) 0 1 _ _ 16 rfl rfl _)
        (acc_init0_1 (gPay1 d L emb (fiOf1 d L ids fI) hfi (fin48 (2 * k.val))) 0 2 _ _ 32 rfl rfl _)
        (acc_init0_1 (gPay1 d L emb (fiOf1 d L ids fI) hfi (fin48 (2 * k.val))) 0 3 _ _ 48 rfl rfl _)
        (acc_init0_1 (gPay1 d L emb (fiOf1 d L ids fI) hfi (fin48 (2 * k.val))) 0 4 _ _ 64 rfl rfl _)
        (acc_init0_1 (gPay1 d L emb (fiOf1 d L ids fI) hfi (fin48 (2 * k.val))) 0 5 _ _ 80 rfl rfl _)
        (acc_init0_1 (gPay1 d L emb (fiOf1 d L ids fI) hfi (fin48 (2 * k.val))) 0 6 _ _ 96 rfl rfl _)
        (acc_init0_1 (gPay1 d L emb (fiOf1 d L ids fI) hfi (fin48 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 50 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 50 0 t.val _ _ _ _ (k1_off20_eq t) (by omega) rfl _)
        (acc_step0_1 (gPay1 d L emb (fiOf1 d L ids fI) hfi (fin48 (2 * k.val))) 50 1 t.val _ _ _ _ (k1_off21_eq t) (by omega) rfl _)
        (acc_step0_1 (gPay1 d L emb (fiOf1 d L ids fI) hfi (fin48 (2 * k.val))) 50 2 t.val _ _ _ _ (k1_off22_eq t) (by omega) rfl _)
        (acc_step0_1 (gPay1 d L emb (fiOf1 d L ids fI) hfi (fin48 (2 * k.val))) 50 3 t.val _ _ _ _ (k1_off23_eq t) (by omega) rfl _)
        (acc_step0_1 (gPay1 d L emb (fiOf1 d L ids fI) hfi (fin48 (2 * k.val))) 50 4 t.val _ _ _ _ (k1_off24_eq t) (by omega) rfl _)
        (acc_step0_1 (gPay1 d L emb (fiOf1 d L ids fI) hfi (fin48 (2 * k.val))) 50 5 t.val _ _ _ _ (k1_off25_eq t) (by omega) rfl _)
        (acc_step0_1 (gPay1 d L emb (fiOf1 d L ids fI) hfi (fin48 (2 * k.val))) 50 6 t.val _ _ _ _ (k1_off26_eq t) (by omega) rfl _)
        (acc_step0_1 (gPay1 d L emb (fiOf1 d L ids fI) hfi (fin48 (2 * k.val))) 50 7 t.val _ _ _ _ (k1_off27_eq t) (by omega) rfl _)
    · iexact HR
  · isplitr
    · ipureintro
      exact tuple8_eq1
        (acc_init0_1 (gPay1 d L emb (fiOf1 d L ids fI) hfi (fin48 (2 * k.val))) 50 0 _ _ 0 rfl rfl _)
        (acc_init0_1 (gPay1 d L emb (fiOf1 d L ids fI) hfi (fin48 (2 * k.val))) 50 1 _ _ 16 rfl rfl _)
        (acc_init0_1 (gPay1 d L emb (fiOf1 d L ids fI) hfi (fin48 (2 * k.val))) 50 2 _ _ 32 rfl rfl _)
        (acc_init0_1 (gPay1 d L emb (fiOf1 d L ids fI) hfi (fin48 (2 * k.val))) 50 3 _ _ 48 rfl rfl _)
        (acc_init0_1 (gPay1 d L emb (fiOf1 d L ids fI) hfi (fin48 (2 * k.val))) 50 4 _ _ 64 rfl rfl _)
        (acc_init0_1 (gPay1 d L emb (fiOf1 d L ids fI) hfi (fin48 (2 * k.val))) 50 5 _ _ 80 rfl rfl _)
        (acc_init0_1 (gPay1 d L emb (fiOf1 d L ids fI) hfi (fin48 (2 * k.val))) 50 6 _ _ 96 rfl rfl _)
        (acc_init0_1 (gPay1 d L emb (fiOf1 d L ids fI) hfi (fin48 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W1).view.writes (Elt F) f1 [⟨Rect.whole S100x128, trip1.sl.gather0 d L ids emb fI k hfi'⟩] = (gPay1 d L emb (fiOf1 d L ids fI) hfi (fin48 (2 * k.val + 1))) :=
    (whole_writes1 (F := F) cc1_scratch2 f1 _).trans (gPay_off1 (F := F) d L emb (fiOf1 d L ids fI) hfi (k1_off2 k) (k1_off2_inb k) _ hoff1 _ _)
  ihave HR1 := (Entails.of_eq (congrArg (fun f => ((sR1W1).view.loc (thr1 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 0 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 0 0 t.val _ _ _ _ (k1_off29_eq t) (by omega) rfl _)
        (acc_step1_1 (gPay1 d L emb (fiOf1 d L ids fI) hfi (fin48 (2 * k.val + 1))) 0 1 t.val _ _ _ _ (k1_off30_eq t) (by omega) rfl _)
        (acc_step1_1 (gPay1 d L emb (fiOf1 d L ids fI) hfi (fin48 (2 * k.val + 1))) 0 2 t.val _ _ _ _ (k1_off31_eq t) (by omega) rfl _)
        (acc_step1_1 (gPay1 d L emb (fiOf1 d L ids fI) hfi (fin48 (2 * k.val + 1))) 0 3 t.val _ _ _ _ (k1_off32_eq t) (by omega) rfl _)
        (acc_step1_1 (gPay1 d L emb (fiOf1 d L ids fI) hfi (fin48 (2 * k.val + 1))) 0 4 t.val _ _ _ _ (k1_off33_eq t) (by omega) rfl _)
        (acc_step1_1 (gPay1 d L emb (fiOf1 d L ids fI) hfi (fin48 (2 * k.val + 1))) 0 5 t.val _ _ _ _ (k1_off34_eq t) (by omega) rfl _)
        (acc_step1_1 (gPay1 d L emb (fiOf1 d L ids fI) hfi (fin48 (2 * k.val + 1))) 0 6 t.val _ _ _ _ (k1_off35_eq t) (by omega) rfl _)
        (acc_step1_1 (gPay1 d L emb (fiOf1 d L ids fI) hfi (fin48 (2 * k.val + 1))) 0 7 t.val _ _ _ _ (k1_off36_eq t) (by omega) rfl _)
    · iexact HR
  · isplitr
    · ipureintro
      exact tuple8_eq1
        (acc_init1_1 (gPay1 d L emb (fiOf1 d L ids fI) hfi (fin48 (2 * k.val + 1))) 0 0 _ _ 0 rfl rfl _)
        (acc_init1_1 (gPay1 d L emb (fiOf1 d L ids fI) hfi (fin48 (2 * k.val + 1))) 0 1 _ _ 16 rfl rfl _)
        (acc_init1_1 (gPay1 d L emb (fiOf1 d L ids fI) hfi (fin48 (2 * k.val + 1))) 0 2 _ _ 32 rfl rfl _)
        (acc_init1_1 (gPay1 d L emb (fiOf1 d L ids fI) hfi (fin48 (2 * k.val + 1))) 0 3 _ _ 48 rfl rfl _)
        (acc_init1_1 (gPay1 d L emb (fiOf1 d L ids fI) hfi (fin48 (2 * k.val + 1))) 0 4 _ _ 64 rfl rfl _)
        (acc_init1_1 (gPay1 d L emb (fiOf1 d L ids fI) hfi (fin48 (2 * k.val + 1))) 0 5 _ _ 80 rfl rfl _)
        (acc_init1_1 (gPay1 d L emb (fiOf1 d L ids fI) hfi (fin48 (2 * k.val + 1))) 0 6 _ _ 96 rfl rfl _)
        (acc_init1_1 (gPay1 d L emb (fiOf1 d L ids fI) hfi (fin48 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 50 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 50 0 t.val _ _ _ _ (k1_off45_eq t) (by omega) rfl _)
        (acc_step1_1 (gPay1 d L emb (fiOf1 d L ids fI) hfi (fin48 (2 * k.val + 1))) 50 1 t.val _ _ _ _ (k1_off46_eq t) (by omega) rfl _)
        (acc_step1_1 (gPay1 d L emb (fiOf1 d L ids fI) hfi (fin48 (2 * k.val + 1))) 50 2 t.val _ _ _ _ (k1_off47_eq t) (by omega) rfl _)
        (acc_step1_1 (gPay1 d L emb (fiOf1 d L ids fI) hfi (fin48 (2 * k.val + 1))) 50 3 t.val _ _ _ _ (k1_off48_eq t) (by omega) rfl _)
        (acc_step1_1 (gPay1 d L emb (fiOf1 d L ids fI) hfi (fin48 (2 * k.val + 1))) 50 4 t.val _ _ _ _ (k1_off49_eq t) (by omega) rfl _)
        (acc_step1_1 (gPay1 d L emb (fiOf1 d L ids fI) hfi (fin48 (2 * k.val + 1))) 50 5 t.val _ _ _ _ (k1_off50_eq t) (by omega) rfl _)
        (acc_step1_1 (gPay1 d L emb (fiOf1 d L ids fI) hfi (fin48 (2 * k.val + 1))) 50 6 t.val _ _ _ _ (k1_off51_eq t) (by omega) rfl _)
        (acc_step1_1 (gPay1 d L emb (fiOf1 d L ids fI) hfi (fin48 (2 * k.val + 1))) 50 7 t.val _ _ _ _ (k1_off52_eq t) (by omega) rfl _)
    · iexact HR
  · isplitr
    · ipureintro
      exact tuple8_eq1
        (acc_init1_1 (gPay1 d L emb (fiOf1 d L ids fI) hfi (fin48 (2 * k.val + 1))) 50 0 _ _ 0 rfl rfl _)
        (acc_init1_1 (gPay1 d L emb (fiOf1 d L ids fI) hfi (fin48 (2 * k.val + 1))) 50 1 _ _ 16 rfl rfl _)
        (acc_init1_1 (gPay1 d L emb (fiOf1 d L ids fI) hfi (fin48 (2 * k.val + 1))) 50 2 _ _ 32 rfl rfl _)
        (acc_init1_1 (gPay1 d L emb (fiOf1 d L ids fI) hfi (fin48 (2 * k.val + 1))) 50 3 _ _ 48 rfl rfl _)
        (acc_init1_1 (gPay1 d L emb (fiOf1 d L ids fI) hfi (fin48 (2 * k.val + 1))) 50 4 _ _ 64 rfl rfl _)
        (acc_init1_1 (gPay1 d L emb (fiOf1 d L ids fI) hfi (fin48 (2 * k.val + 1))) 50 5 _ _ 80 rfl rfl _)
        (acc_init1_1 (gPay1 d L emb (fiOf1 d L ids fI) hfi (fin48 (2 * k.val + 1))) 50 6 _ _ 96 rfl rfl _)
        (acc_init1_1 (gPay1 d L emb (fiOf1 d L ids fI) hfi (fin48 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok'1 (F := F) d L ids emb fI hfi (fin48 (2 * k.val)) 0 (by decide) fA (4 * k.val + 0) (by omega) (by show 4 * k.val + 0 = 2 * ((2 * k.val) % 48) + 0; omega)
      _ _ _ _ _ _ _ _
      (k1_off12_inb k 0) (k1_off13_inb k 0) (k1_off14_inb k 0) (k1_off15_inb k 0) (k1_off16_inb k 0) (k1_off17_inb k 0) (k1_off18_inb k 0) (k1_off19_inb k 0)
      (show k1_off12 k 0#32 = ![4 * k.val + 0, 0] from k1_off12_eq k ⟨0, by decide⟩)
      (show k1_off13 k 0#32 = ![4 * k.val + 0, 16] from k1_off13_eq k ⟨0, by decide⟩)
      (show k1_off14 k 0#32 = ![4 * k.val + 0, 32] from k1_off14_eq k ⟨0, by decide⟩)
      (show k1_off15 k 0#32 = ![4 * k.val + 0, 48] from k1_off15_eq k ⟨0, by decide⟩)
      (show k1_off16 k 0#32 = ![4 * k.val + 0, 64] from k1_off16_eq k ⟨0, by decide⟩)
      (show k1_off17 k 0#32 = ![4 * k.val + 0, 80] from k1_off17_eq k ⟨0, by decide⟩)
      (show k1_off18 k 0#32 = ![4 * k.val + 0, 96] from k1_off18_eq k ⟨0, by decide⟩)
      (show k1_off19 k 0#32 = ![4 * k.val + 0, 112] from k1_off19_eq k ⟨0, by decide⟩)
      _ _ _ _ _ _ _ _ shapeCasts_S16_S1x16 hAcc hacc2
  have r1 := acc_row_ok'1 (F := F) d L ids emb fI hfi (fin48 (2 * k.val)) 1 (by decide) _ (4 * k.val + 1) (by omega) (by show 4 * k.val + 1 = 2 * ((2 * k.val) % 48) + 1; omega)
      _ _ _ _ _ _ _ _
      (k1_off12_inb k 1) (k1_off13_inb k 1) (k1_off14_inb k 1) (k1_off15_inb k 1) (k1_off16_inb k 1) (k1_off17_inb k 1) (k1_off18_inb k 1) (k1_off19_inb k 1)
      (show k1_off12 k 1#32 = ![4 * k.val + 1, 0] from k1_off12_eq k ⟨1, by decide⟩)
      (show k1_off13 k 1#32 = ![4 * k.val + 1, 16] from k1_off13_eq k ⟨1, by decide⟩)
      (show k1_off14 k 1#32 = ![4 * k.val + 1, 32] from k1_off14_eq k ⟨1, by decide⟩)
      (show k1_off15 k 1#32 = ![4 * k.val + 1, 48] from k1_off15_eq k ⟨1, by decide⟩)
      (show k1_off16 k 1#32 = ![4 * k.val + 1, 64] from k1_off16_eq k ⟨1, by decide⟩)
      (show k1_off17 k 1#32 = ![4 * k.val + 1, 80] from k1_off17_eq k ⟨1, by decide⟩)
      (show k1_off18 k 1#32 = ![4 * k.val + 1, 96] from k1_off18_eq k ⟨1, by decide⟩)
      (show k1_off19 k 1#32 = ![4 * k.val + 1, 112] from k1_off19_eq k ⟨1, by decide⟩)
      _ _ _ _ _ _ _ _ shapeCasts_S16_S1x16 r0 hacc3
  have r2 := acc_row_ok'1 (F := F) d L ids emb fI hfi (fin48 (2 * k.val + 1)) 0 (by decide) _ (4 * k.val + 0 + 2) (by omega) (by show 4 * k.val + 0 + 2 = 2 * ((2 * k.val + 1) % 48) + 0; omega)
      _ _ _ _ _ _ _ _
      (k1_off37_inb k 0) (k1_off38_inb k 0) (k1_off39_inb k 0) (k1_off40_inb k 0) (k1_off41_inb k 0) (k1_off42_inb k 0) (k1_off43_inb k 0) (k1_off44_inb k 0)
      (show k1_off37 k 0#32 = ![4 * k.val + 0 + 2, 0] from k1_off37_eq k ⟨0, by decide⟩)
      (show k1_off38 k 0#32 = ![4 * k.val + 0 + 2, 16] from k1_off38_eq k ⟨0, by decide⟩)
      (show k1_off39 k 0#32 = ![4 * k.val + 0 + 2, 32] from k1_off39_eq k ⟨0, by decide⟩)
      (show k1_off40 k 0#32 = ![4 * k.val + 0 + 2, 48] from k1_off40_eq k ⟨0, by decide⟩)
      (show k1_off41 k 0#32 = ![4 * k.val + 0 + 2, 64] from k1_off41_eq k ⟨0, by decide⟩)
      (show k1_off42 k 0#32 = ![4 * k.val + 0 + 2, 80] from k1_off42_eq k ⟨0, by decide⟩)
      (show k1_off43 k 0#32 = ![4 * k.val + 0 + 2, 96] from k1_off43_eq k ⟨0, by decide⟩)
      (show k1_off44 k 0#32 = ![4 * k.val + 0 + 2, 112] from k1_off44_eq k ⟨0, by decide⟩)
      _ _ _ _ _ _ _ _ shapeCasts_S16_S1x16 (accOK_cast1 ids emb (wL1 L) (by omega) r1) hacc4
  have r3 := acc_row_ok'1 (F := F) d L ids emb fI hfi (fin48 (2 * k.val + 1)) 1 (by decide) _ (4 * k.val + 1 + 2) (by omega) (by show 4 * k.val + 1 + 2 = 2 * ((2 * k.val + 1) % 48) + 1; omega)
      _ _ _ _ _ _ _ _
      (k1_off37_inb k 1) (k1_off38_inb k 1) (k1_off39_inb k 1) (k1_off40_inb k 1) (k1_off41_inb k 1) (k1_off42_inb k 1) (k1_off43_inb k 1) (k1_off44_inb k 1)
      (show k1_off37 k 1#32 = ![4 * k.val + 1 + 2, 0] from k1_off37_eq k ⟨1, by decide⟩)
      (show k1_off38 k 1#32 = ![4 * k.val + 1 + 2, 16] from k1_off38_eq k ⟨1, by decide⟩)
      (show k1_off39 k 1#32 = ![4 * k.val + 1 + 2, 32] from k1_off39_eq k ⟨1, by decide⟩)
      (show k1_off40 k 1#32 = ![4 * k.val + 1 + 2, 48] from k1_off40_eq k ⟨1, by decide⟩)
      (show k1_off41 k 1#32 = ![4 * k.val + 1 + 2, 64] from k1_off41_eq k ⟨1, by decide⟩)
      (show k1_off42 k 1#32 = ![4 * k.val + 1 + 2, 80] from k1_off42_eq k ⟨1, by decide⟩)
      (show k1_off43 k 1#32 = ![4 * k.val + 1 + 2, 96] from k1_off43_eq k ⟨1, by decide⟩)
      (show k1_off44 k 1#32 = ![4 * k.val + 1 + 2, 112] from k1_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl1 (F := F) d L _ _)); iexact HeR
  isplitl [HA]
  · iexists _; isplitr
    rotate_left
    · iexact HA
    · ipureintro; exact accOK_cast1 ids emb (wL1 L) (by omega) r3
  isplitl [Hfl Hrow0 Hrow1' Hrows]
  · isplitl [Hfl]
    · iapply (flight_canon1 (F := F) d L emb (fiOf1 d L ids fI) hfi (k1_off28 k) (k1_off28_inb k h1) _ hoff2 _ _ (gPay_off1 (F := F) d L emb (fiOf1 d L ids fI) hfi (k1_off28 k) (k1_off28_inb k h1) _ hoff2 _ _) _)
      iexact Hfl
    · iapply (rows_shift1 (F := F) d L (fiOf1 d L ids fI) (fin48 (2 * k.val)) (fin48 (2 * k.val + 1)) (fin48 (2 * (k.val + 1)))
        (fun e => by have := congrArg Fin.val e; simp only [fin48] at this; omega)
        (fun e => by have := congrArg Fin.val e; simp only [fin48] at this; omega)
        (fun e => by have := congrArg Fin.val e; simp only [fin48] at this; omega))
      isplitl [Hrow0]; · iexact Hrow0
      isplitl [Hrow1']; · iapply (Entails.of_eq (pts_offsP1 (F := F) d L (k1_off2 k) (k1_off2_inb k) _ hoff1 _)); iexact Hrow1'
      iexact Hrows
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

set_option maxHeartbeats 1600000 in
theorem trip1_last (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2))
    (k : Fin k1_t1_loop.trips) (hk7 : k.val = 23) (acc : PUnit) :
    outerInvV1 d L ids emb fI hfi q O W k.val acc
      ⊢ wp frame (wpE (defs₀ (F := F)) 𝒱₀ (thr1 d L) none) Set.univ
          (k1_t1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 k acc)
          (outerInvV1 d L ids emb fI hfi q O W (k.val + 1)) := by
  have hk8 : k.val < 24 := by omega
  have hk8' : ¬ (k.val + 1 < 24) := by omega
  have h1 : ¬ k1_cond1 k = 1#1 := by revert hk7; revert k; decide
  unfold outerInvV1
  rw [if_pos hk8, if_neg hk8']
  unfold flightC0_1
  iintro ⟨Hmw, Hc5, ⟨%f1, HR1⟩, HeR, ⟨%fA, %hAcc, HA⟩, ⟨Hfl, Hrows⟩, %W', %hW', HO⟩
  have hm1 : fin48 (2 * k.val + 1) ∈ (Finset.univ : Finset (Fin 48)).erase (fin48 (2 * k.val)) :=
    Finset.mem_erase.mpr ⟨fun e => by have := congrArg Fin.val e; simp only [fin48] at this; omega, Finset.mem_univ _⟩
  ihave H1 := (Entails.of_eq (SparseCore.bigSep_erase' hm1)) $$ Hrows
  icases H1 with ⟨Hrow1, Hrows⟩
  have e1 : (2 * k.val + 1) % 48 = 2 * k.val + 1 := by omega
  have hoff1 : k1_off2 k = ![(fin48 (2 * k.val + 1)).val, 0] := by
    show k1_off2 k = ![(2 * k.val + 1) % 48, 0]
    rw [k1_off2_eq, e1]
  ihave Hrow1' := (Entails.of_eq (pts_offsP1 (F := F) d L (k1_off2 k) (k1_off2_inb k) _ hoff1 _).symm) $$ Hrow1
  have hfi' : ∀ (row : Fin 2 → ℕ) (hk : ∀ a, row a + S1x100.size a ≤ S48x100.size a) (x : S100.Idx),
      (View.read (Elt F) (((Memref.whole cc1_scratch0 : Memref sig .scVector .vmem S48x100 .i32).slice (Rect.unit (s := S48x100) row S1x100.size hk) (fun _ => rfl)).squeeze S100 squeezes_S1x100_S100).view (fiOf1 d L ids fI) x).toNat < 100000 := hfi
  unfold k1_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 0 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 0 0 t.val _ _ _ _ (k1_off4_eq t) (by omega) rfl _)
        (acc_step0_1 (gPay1 d L emb (fiOf1 d L ids fI) hfi (fin48 (2 * k.val))) 0 1 t.val _ _ _ _ (k1_off5_eq t) (by omega) rfl _)
        (acc_step0_1 (gPay1 d L emb (fiOf1 d L ids fI) hfi (fin48 (2 * k.val))) 0 2 t.val _ _ _ _ (k1_off6_eq t) (by omega) rfl _)
        (acc_step0_1 (gPay1 d L emb (fiOf1 d L ids fI) hfi (fin48 (2 * k.val))) 0 3 t.val _ _ _ _ (k1_off7_eq t) (by omega) rfl _)
        (acc_step0_1 (gPay1 d L emb (fiOf1 d L ids fI) hfi (fin48 (2 * k.val))) 0 4 t.val _ _ _ _ (k1_off8_eq t) (by omega) rfl _)
        (acc_step0_1 (gPay1 d L emb (fiOf1 d L ids fI) hfi (fin48 (2 * k.val))) 0 5 t.val _ _ _ _ (k1_off9_eq t) (by omega) rfl _)
        (acc_step0_1 (gPay1 d L emb (fiOf1 d L ids fI) hfi (fin48 (2 * k.val))) 0 6 t.val _ _ _ _ (k1_off10_eq t) (by omega) rfl _)
        (acc_step0_1 (gPay1 d L emb (fiOf1 d L ids fI) hfi (fin48 (2 * k.val))) 0 7 t.val _ _ _ _ (k1_off11_eq t) (by omega) rfl _)
    · iexact HR
  · isplitr
    · ipureintro
      exact tuple8_eq1
        (acc_init0_1 (gPay1 d L emb (fiOf1 d L ids fI) hfi (fin48 (2 * k.val))) 0 0 _ _ 0 rfl rfl _)
        (acc_init0_1 (gPay1 d L emb (fiOf1 d L ids fI) hfi (fin48 (2 * k.val))) 0 1 _ _ 16 rfl rfl _)
        (acc_init0_1 (gPay1 d L emb (fiOf1 d L ids fI) hfi (fin48 (2 * k.val))) 0 2 _ _ 32 rfl rfl _)
        (acc_init0_1 (gPay1 d L emb (fiOf1 d L ids fI) hfi (fin48 (2 * k.val))) 0 3 _ _ 48 rfl rfl _)
        (acc_init0_1 (gPay1 d L emb (fiOf1 d L ids fI) hfi (fin48 (2 * k.val))) 0 4 _ _ 64 rfl rfl _)
        (acc_init0_1 (gPay1 d L emb (fiOf1 d L ids fI) hfi (fin48 (2 * k.val))) 0 5 _ _ 80 rfl rfl _)
        (acc_init0_1 (gPay1 d L emb (fiOf1 d L ids fI) hfi (fin48 (2 * k.val))) 0 6 _ _ 96 rfl rfl _)
        (acc_init0_1 (gPay1 d L emb (fiOf1 d L ids fI) hfi (fin48 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 50 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 50 0 t.val _ _ _ _ (k1_off20_eq t) (by omega) rfl _)
        (acc_step0_1 (gPay1 d L emb (fiOf1 d L ids fI) hfi (fin48 (2 * k.val))) 50 1 t.val _ _ _ _ (k1_off21_eq t) (by omega) rfl _)
        (acc_step0_1 (gPay1 d L emb (fiOf1 d L ids fI) hfi (fin48 (2 * k.val))) 50 2 t.val _ _ _ _ (k1_off22_eq t) (by omega) rfl _)
        (acc_step0_1 (gPay1 d L emb (fiOf1 d L ids fI) hfi (fin48 (2 * k.val))) 50 3 t.val _ _ _ _ (k1_off23_eq t) (by omega) rfl _)
        (acc_step0_1 (gPay1 d L emb (fiOf1 d L ids fI) hfi (fin48 (2 * k.val))) 50 4 t.val _ _ _ _ (k1_off24_eq t) (by omega) rfl _)
        (acc_step0_1 (gPay1 d L emb (fiOf1 d L ids fI) hfi (fin48 (2 * k.val))) 50 5 t.val _ _ _ _ (k1_off25_eq t) (by omega) rfl _)
        (acc_step0_1 (gPay1 d L emb (fiOf1 d L ids fI) hfi (fin48 (2 * k.val))) 50 6 t.val _ _ _ _ (k1_off26_eq t) (by omega) rfl _)
        (acc_step0_1 (gPay1 d L emb (fiOf1 d L ids fI) hfi (fin48 (2 * k.val))) 50 7 t.val _ _ _ _ (k1_off27_eq t) (by omega) rfl _)
    · iexact HR
  · isplitr
    · ipureintro
      exact tuple8_eq1
        (acc_init0_1 (gPay1 d L emb (fiOf1 d L ids fI) hfi (fin48 (2 * k.val))) 50 0 _ _ 0 rfl rfl _)
        (acc_init0_1 (gPay1 d L emb (fiOf1 d L ids fI) hfi (fin48 (2 * k.val))) 50 1 _ _ 16 rfl rfl _)
        (acc_init0_1 (gPay1 d L emb (fiOf1 d L ids fI) hfi (fin48 (2 * k.val))) 50 2 _ _ 32 rfl rfl _)
        (acc_init0_1 (gPay1 d L emb (fiOf1 d L ids fI) hfi (fin48 (2 * k.val))) 50 3 _ _ 48 rfl rfl _)
        (acc_init0_1 (gPay1 d L emb (fiOf1 d L ids fI) hfi (fin48 (2 * k.val))) 50 4 _ _ 64 rfl rfl _)
        (acc_init0_1 (gPay1 d L emb (fiOf1 d L ids fI) hfi (fin48 (2 * k.val))) 50 5 _ _ 80 rfl rfl _)
        (acc_init0_1 (gPay1 d L emb (fiOf1 d L ids fI) hfi (fin48 (2 * k.val))) 50 6 _ _ 96 rfl rfl _)
        (acc_init0_1 (gPay1 d L emb (fiOf1 d L ids fI) hfi (fin48 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W1).view.writes (Elt F) f1 [⟨Rect.whole S100x128, trip1_last.sl.gather0 d L ids emb fI k hfi'⟩] = (gPay1 d L emb (fiOf1 d L ids fI) hfi (fin48 (2 * k.val + 1))) :=
    (whole_writes1 (F := F) cc1_scratch2 f1 _).trans (gPay_off1 (F := F) d L emb (fiOf1 d L ids fI) hfi (k1_off2 k) (k1_off2_inb k) _ hoff1 _ _)
  ihave HR1 := (Entails.of_eq (congrArg (fun f => ((sR1W1).view.loc (thr1 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 0 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 0 0 t.val _ _ _ _ (k1_off29_eq t) (by omega) rfl _)
        (acc_step1_1 (gPay1 d L emb (fiOf1 d L ids fI) hfi (fin48 (2 * k.val + 1))) 0 1 t.val _ _ _ _ (k1_off30_eq t) (by omega) rfl _)
        (acc_step1_1 (gPay1 d L emb (fiOf1 d L ids fI) hfi (fin48 (2 * k.val + 1))) 0 2 t.val _ _ _ _ (k1_off31_eq t) (by omega) rfl _)
        (acc_step1_1 (gPay1 d L emb (fiOf1 d L ids fI) hfi (fin48 (2 * k.val + 1))) 0 3 t.val _ _ _ _ (k1_off32_eq t) (by omega) rfl _)
        (acc_step1_1 (gPay1 d L emb (fiOf1 d L ids fI) hfi (fin48 (2 * k.val + 1))) 0 4 t.val _ _ _ _ (k1_off33_eq t) (by omega) rfl _)
        (acc_step1_1 (gPay1 d L emb (fiOf1 d L ids fI) hfi (fin48 (2 * k.val + 1))) 0 5 t.val _ _ _ _ (k1_off34_eq t) (by omega) rfl _)
        (acc_step1_1 (gPay1 d L emb (fiOf1 d L ids fI) hfi (fin48 (2 * k.val + 1))) 0 6 t.val _ _ _ _ (k1_off35_eq t) (by omega) rfl _)
        (acc_step1_1 (gPay1 d L emb (fiOf1 d L ids fI) hfi (fin48 (2 * k.val + 1))) 0 7 t.val _ _ _ _ (k1_off36_eq t) (by omega) rfl _)
    · iexact HR
  · isplitr
    · ipureintro
      exact tuple8_eq1
        (acc_init1_1 (gPay1 d L emb (fiOf1 d L ids fI) hfi (fin48 (2 * k.val + 1))) 0 0 _ _ 0 rfl rfl _)
        (acc_init1_1 (gPay1 d L emb (fiOf1 d L ids fI) hfi (fin48 (2 * k.val + 1))) 0 1 _ _ 16 rfl rfl _)
        (acc_init1_1 (gPay1 d L emb (fiOf1 d L ids fI) hfi (fin48 (2 * k.val + 1))) 0 2 _ _ 32 rfl rfl _)
        (acc_init1_1 (gPay1 d L emb (fiOf1 d L ids fI) hfi (fin48 (2 * k.val + 1))) 0 3 _ _ 48 rfl rfl _)
        (acc_init1_1 (gPay1 d L emb (fiOf1 d L ids fI) hfi (fin48 (2 * k.val + 1))) 0 4 _ _ 64 rfl rfl _)
        (acc_init1_1 (gPay1 d L emb (fiOf1 d L ids fI) hfi (fin48 (2 * k.val + 1))) 0 5 _ _ 80 rfl rfl _)
        (acc_init1_1 (gPay1 d L emb (fiOf1 d L ids fI) hfi (fin48 (2 * k.val + 1))) 0 6 _ _ 96 rfl rfl _)
        (acc_init1_1 (gPay1 d L emb (fiOf1 d L ids fI) hfi (fin48 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 50 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 50 0 t.val _ _ _ _ (k1_off45_eq t) (by omega) rfl _)
        (acc_step1_1 (gPay1 d L emb (fiOf1 d L ids fI) hfi (fin48 (2 * k.val + 1))) 50 1 t.val _ _ _ _ (k1_off46_eq t) (by omega) rfl _)
        (acc_step1_1 (gPay1 d L emb (fiOf1 d L ids fI) hfi (fin48 (2 * k.val + 1))) 50 2 t.val _ _ _ _ (k1_off47_eq t) (by omega) rfl _)
        (acc_step1_1 (gPay1 d L emb (fiOf1 d L ids fI) hfi (fin48 (2 * k.val + 1))) 50 3 t.val _ _ _ _ (k1_off48_eq t) (by omega) rfl _)
        (acc_step1_1 (gPay1 d L emb (fiOf1 d L ids fI) hfi (fin48 (2 * k.val + 1))) 50 4 t.val _ _ _ _ (k1_off49_eq t) (by omega) rfl _)
        (acc_step1_1 (gPay1 d L emb (fiOf1 d L ids fI) hfi (fin48 (2 * k.val + 1))) 50 5 t.val _ _ _ _ (k1_off50_eq t) (by omega) rfl _)
        (acc_step1_1 (gPay1 d L emb (fiOf1 d L ids fI) hfi (fin48 (2 * k.val + 1))) 50 6 t.val _ _ _ _ (k1_off51_eq t) (by omega) rfl _)
        (acc_step1_1 (gPay1 d L emb (fiOf1 d L ids fI) hfi (fin48 (2 * k.val + 1))) 50 7 t.val _ _ _ _ (k1_off52_eq t) (by omega) rfl _)
    · iexact HR
  · isplitr
    · ipureintro
      exact tuple8_eq1
        (acc_init1_1 (gPay1 d L emb (fiOf1 d L ids fI) hfi (fin48 (2 * k.val + 1))) 50 0 _ _ 0 rfl rfl _)
        (acc_init1_1 (gPay1 d L emb (fiOf1 d L ids fI) hfi (fin48 (2 * k.val + 1))) 50 1 _ _ 16 rfl rfl _)
        (acc_init1_1 (gPay1 d L emb (fiOf1 d L ids fI) hfi (fin48 (2 * k.val + 1))) 50 2 _ _ 32 rfl rfl _)
        (acc_init1_1 (gPay1 d L emb (fiOf1 d L ids fI) hfi (fin48 (2 * k.val + 1))) 50 3 _ _ 48 rfl rfl _)
        (acc_init1_1 (gPay1 d L emb (fiOf1 d L ids fI) hfi (fin48 (2 * k.val + 1))) 50 4 _ _ 64 rfl rfl _)
        (acc_init1_1 (gPay1 d L emb (fiOf1 d L ids fI) hfi (fin48 (2 * k.val + 1))) 50 5 _ _ 80 rfl rfl _)
        (acc_init1_1 (gPay1 d L emb (fiOf1 d L ids fI) hfi (fin48 (2 * k.val + 1))) 50 6 _ _ 96 rfl rfl _)
        (acc_init1_1 (gPay1 d L emb (fiOf1 d L ids fI) hfi (fin48 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok'1 (F := F) d L ids emb fI hfi (fin48 (2 * k.val)) 0 (by decide) fA (4 * k.val + 0) (by omega) (by show 4 * k.val + 0 = 2 * ((2 * k.val) % 48) + 0; omega)
      _ _ _ _ _ _ _ _
      (k1_off12_inb k 0) (k1_off13_inb k 0) (k1_off14_inb k 0) (k1_off15_inb k 0) (k1_off16_inb k 0) (k1_off17_inb k 0) (k1_off18_inb k 0) (k1_off19_inb k 0)
      (show k1_off12 k 0#32 = ![4 * k.val + 0, 0] from k1_off12_eq k ⟨0, by decide⟩)
      (show k1_off13 k 0#32 = ![4 * k.val + 0, 16] from k1_off13_eq k ⟨0, by decide⟩)
      (show k1_off14 k 0#32 = ![4 * k.val + 0, 32] from k1_off14_eq k ⟨0, by decide⟩)
      (show k1_off15 k 0#32 = ![4 * k.val + 0, 48] from k1_off15_eq k ⟨0, by decide⟩)
      (show k1_off16 k 0#32 = ![4 * k.val + 0, 64] from k1_off16_eq k ⟨0, by decide⟩)
      (show k1_off17 k 0#32 = ![4 * k.val + 0, 80] from k1_off17_eq k ⟨0, by decide⟩)
      (show k1_off18 k 0#32 = ![4 * k.val + 0, 96] from k1_off18_eq k ⟨0, by decide⟩)
      (show k1_off19 k 0#32 = ![4 * k.val + 0, 112] from k1_off19_eq k ⟨0, by decide⟩)
      _ _ _ _ _ _ _ _ shapeCasts_S16_S1x16 hAcc hacc2
  have r1 := acc_row_ok'1 (F := F) d L ids emb fI hfi (fin48 (2 * k.val)) 1 (by decide) _ (4 * k.val + 1) (by omega) (by show 4 * k.val + 1 = 2 * ((2 * k.val) % 48) + 1; omega)
      _ _ _ _ _ _ _ _
      (k1_off12_inb k 1) (k1_off13_inb k 1) (k1_off14_inb k 1) (k1_off15_inb k 1) (k1_off16_inb k 1) (k1_off17_inb k 1) (k1_off18_inb k 1) (k1_off19_inb k 1)
      (show k1_off12 k 1#32 = ![4 * k.val + 1, 0] from k1_off12_eq k ⟨1, by decide⟩)
      (show k1_off13 k 1#32 = ![4 * k.val + 1, 16] from k1_off13_eq k ⟨1, by decide⟩)
      (show k1_off14 k 1#32 = ![4 * k.val + 1, 32] from k1_off14_eq k ⟨1, by decide⟩)
      (show k1_off15 k 1#32 = ![4 * k.val + 1, 48] from k1_off15_eq k ⟨1, by decide⟩)
      (show k1_off16 k 1#32 = ![4 * k.val + 1, 64] from k1_off16_eq k ⟨1, by decide⟩)
      (show k1_off17 k 1#32 = ![4 * k.val + 1, 80] from k1_off17_eq k ⟨1, by decide⟩)
      (show k1_off18 k 1#32 = ![4 * k.val + 1, 96] from k1_off18_eq k ⟨1, by decide⟩)
      (show k1_off19 k 1#32 = ![4 * k.val + 1, 112] from k1_off19_eq k ⟨1, by decide⟩)
      _ _ _ _ _ _ _ _ shapeCasts_S16_S1x16 r0 hacc3
  have r2 := acc_row_ok'1 (F := F) d L ids emb fI hfi (fin48 (2 * k.val + 1)) 0 (by decide) _ (4 * k.val + 0 + 2) (by omega) (by show 4 * k.val + 0 + 2 = 2 * ((2 * k.val + 1) % 48) + 0; omega)
      _ _ _ _ _ _ _ _
      (k1_off37_inb k 0) (k1_off38_inb k 0) (k1_off39_inb k 0) (k1_off40_inb k 0) (k1_off41_inb k 0) (k1_off42_inb k 0) (k1_off43_inb k 0) (k1_off44_inb k 0)
      (show k1_off37 k 0#32 = ![4 * k.val + 0 + 2, 0] from k1_off37_eq k ⟨0, by decide⟩)
      (show k1_off38 k 0#32 = ![4 * k.val + 0 + 2, 16] from k1_off38_eq k ⟨0, by decide⟩)
      (show k1_off39 k 0#32 = ![4 * k.val + 0 + 2, 32] from k1_off39_eq k ⟨0, by decide⟩)
      (show k1_off40 k 0#32 = ![4 * k.val + 0 + 2, 48] from k1_off40_eq k ⟨0, by decide⟩)
      (show k1_off41 k 0#32 = ![4 * k.val + 0 + 2, 64] from k1_off41_eq k ⟨0, by decide⟩)
      (show k1_off42 k 0#32 = ![4 * k.val + 0 + 2, 80] from k1_off42_eq k ⟨0, by decide⟩)
      (show k1_off43 k 0#32 = ![4 * k.val + 0 + 2, 96] from k1_off43_eq k ⟨0, by decide⟩)
      (show k1_off44 k 0#32 = ![4 * k.val + 0 + 2, 112] from k1_off44_eq k ⟨0, by decide⟩)
      _ _ _ _ _ _ _ _ shapeCasts_S16_S1x16 (accOK_cast1 ids emb (wL1 L) (by omega) r1) hacc4
  have r3 := acc_row_ok'1 (F := F) d L ids emb fI hfi (fin48 (2 * k.val + 1)) 1 (by decide) _ (4 * k.val + 1 + 2) (by omega) (by show 4 * k.val + 1 + 2 = 2 * ((2 * k.val + 1) % 48) + 1; omega)
      _ _ _ _ _ _ _ _
      (k1_off37_inb k 1) (k1_off38_inb k 1) (k1_off39_inb k 1) (k1_off40_inb k 1) (k1_off41_inb k 1) (k1_off42_inb k 1) (k1_off43_inb k 1) (k1_off44_inb k 1)
      (show k1_off37 k 1#32 = ![4 * k.val + 1 + 2, 0] from k1_off37_eq k ⟨1, by decide⟩)
      (show k1_off38 k 1#32 = ![4 * k.val + 1 + 2, 16] from k1_off38_eq k ⟨1, by decide⟩)
      (show k1_off39 k 1#32 = ![4 * k.val + 1 + 2, 32] from k1_off39_eq k ⟨1, by decide⟩)
      (show k1_off40 k 1#32 = ![4 * k.val + 1 + 2, 48] from k1_off40_eq k ⟨1, by decide⟩)
      (show k1_off41 k 1#32 = ![4 * k.val + 1 + 2, 64] from k1_off41_eq k ⟨1, by decide⟩)
      (show k1_off42 k 1#32 = ![4 * k.val + 1 + 2, 80] from k1_off42_eq k ⟨1, by decide⟩)
      (show k1_off43 k 1#32 = ![4 * k.val + 1 + 2, 96] from k1_off43_eq k ⟨1, by decide⟩)
      (show k1_off44 k 1#32 = ![4 * k.val + 1 + 2, 112] from k1_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl1 (F := F) d L _ _)); iexact HeR
  isplitl [HA]
  · iexists _; isplitr
    rotate_left
    · iexact HA
    · ipureintro; exact accOK_cast1 ids emb (wL1 L) (by omega) r3
  isplitl [Hfl HR0 Hfl_src Hrow0 Hrow1' Hrows]
  · isplitl [Hfl]; · iexact Hfl
    isplitl [HR0]; · iexists _; iexact HR0
    isplitr [Hfl_src]
    · iapply (rows_all1 (F := F) d L (fiOf1 d L ids fI) (fin48 (2 * k.val)) (fin48 (2 * k.val + 1))
        (fun e => by have := congrArg Fin.val e; simp only [fin48] at this; omega))
      isplitl [Hrow0]; · iexact Hrow0
      isplitl [Hrow1']; · iapply (Entails.of_eq (pts_offsP1 (F := F) d L (k1_off2 k) (k1_off2_inb k) _ hoff1 _)); iexact Hrow1'
      iexact Hrows
    · iexact Hfl_src
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

/-- One trip of the streams' loop, whichever it is. -/
theorem trip1_all (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2))
    (k : Fin k1_t1_loop.trips) (acc : PUnit) :
    outerInvV1 d L ids emb fI hfi q O W k.val acc
      ⊢ wp frame (wpE (defs₀ (F := F)) 𝒱₀ (thr1 d L) none) Set.univ
          (k1_t1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 k acc)
          (outerInvV1 d L ids emb fI hfi q O W (k.val + 1)) := by
  by_cases hk : k.val < 23
  · exact trip1 d L ids emb fI hfi q O W k hk acc
  · exact trip1_last d L ids emb fI hfi q O W k (by have := k.isLt; change _ < 24 at this; omega) acc

end Tile1
end Cert.Proof.KI
end
-- ==== Proof.Act1.lean ====
/-
  The activation loop of a pooling task: trip `k` replaces row `k` of the accumulator, lane group by lane group, by the
  clamp at zero of its product with the scale; so before trip `k` the rows below `k` are activated and the others
  still hold the pooled sums.
-/
import proofs.«204104_g71330816851969_cont_9to1_m_219_17_alg».proof.Proof.Tile1Defs
import proofs.«204104_g71330816851969_cont_9to1_m_219_17_alg».proof.Proof.Val1B

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 2) (Elt F) ℕ UU ℕ

section Tile1
variable (d : Dev nD) (L : grid1.Coords)

/-- Lane `lane` of the activated group read at row `i`, columns `c0 …`: the clamp of the scaled element. -/
theorem act_val1 (f : S96x128.Idx → Elt F .f32) (off : Fin 2 → ℕ) (h : ∀ a, off a + S1x16.size a ≤ S96x128.size a) (i c0 : ℕ)
    (hoff : off = ![i, c0]) (lane : S16.Idx) :
    (maximumf (mulf (shapeCast S16 (View.readAt (Elt F) (sAW1).view (Rect.unit (s := S96x128) off S1x16.size h).toLoadRect f) shapeCasts_S1x16_S16)
        (k1_pay106 (F := F))) (k1_pay107 (F := F))) lane
      = FloatOps.maximumf (FloatOps.mulf (f (Shape.pair (d := ![96, 128]) ⟨i % 96, Nat.mod_lt _ (by decide)⟩ ⟨(c0 + (lane 0).val) % 128, Nat.mod_lt _ (by decide)⟩)) inv1) zero1 := by
  show FloatOps.maximumf (FloatOps.mulf (shapeCast S16 (View.readAt (Elt F) (sAW1).view (Rect.unit (s := S96x128) off S1x16.size h).toLoadRect f) shapeCasts_S1x16_S16 lane)
    (k1_pay106 (F := F) lane)) (k1_pay107 (F := F) lane) = _
  rw [lane_readA1 f off h i c0 hoff]
  rfl

/-- The piece one lane group's activation stores. -/
def actPiece1 (f : S96x128.Idx → Elt F .f32) (off : Fin 2 → ℕ) (h : ∀ a, off a + S1x16.size a ≤ S96x128.size a) : View.Piece (Elt F) S96x128 .f32 :=
  ⟨Rect.unit (s := S96x128) off S1x16.size h,
    shapeCast S1x16 (maximumf (mulf (shapeCast S16 (View.readAt (Elt F) (sAW1).view (Rect.unit (s := S96x128) off S1x16.size h).toLoadRect f) shapeCasts_S1x16_S16)
      (k1_pay106 (F := F))) (k1_pay107 (F := F))) shapeCasts_S16_S1x16⟩

/-- The accumulator after one more activated group: inside the group the clamp of the scaled element of `f`, outside
    what was there. -/
theorem writes_actPiece1 (g f : S96x128.Idx → Elt F .f32) (off : Fin 2 → ℕ) (h : ∀ a, off a + S1x16.size a ≤ S96x128.size a) (i c0 : ℕ)
    (hoff : off = ![i, c0]) (hi : i < 96) (hc : c0 + 16 ≤ 128) (Lst : List (View.Piece (Elt F) S96x128 .f32)) (x : S96x128.Idx) :
    (sAW1).view.writes (Elt F) g (actPiece1 f off h :: Lst) x
      = if (x 0).val = i ∧ c0 ≤ (x 1).val ∧ (x 1).val < c0 + 16 then FloatOps.maximumf (FloatOps.mulf (f x) inv1) zero1
        else (sAW1).view.writes (Elt F) g Lst x := by
  unfold actPiece1
  rw [acc_piece_apply1 g off h i c0 hoff]
  by_cases hx : (x 0).val = i ∧ c0 ≤ (x 1).val ∧ (x 1).val < c0 + 16
  · rw [if_pos hx, if_pos hx, act_val1 f off h i c0 hoff]
    obtain ⟨h0, h1, h2⟩ := hx
    refine congrArg (fun t => FloatOps.maximumf (FloatOps.mulf (f t) inv1) zero1) ?_
    funext b; apply Fin.ext
    match b with
    | ⟨0, _⟩ => show i % 96 = (x 0).val; omega
    | ⟨1, _⟩ =>
      show (c0 + ((x 1).val - c0) % 16) % 128 = (x 1).val
      have hlt : (x 1).val < 128 := (x 1).isLt
      omega
  · rw [if_neg hx, if_neg hx]

omit [Named F] in
/-- With no row activated yet the accumulator holds the pooled sums. -/
theorem actOK_zero1 (inv zero : F .f32) (ids : S32x48x100.Idx → Elt F .i32) (emb : S100000x128.Idx → Elt F .f32) (w : Fin 32)
    (fA : S96x128.Idx → Elt F .f32) (h : AccOK1 ids emb w 96 fA) : ActOK1 inv zero ids emb w 0 fA := by
  intro x
  rw [if_neg (Nat.not_lt_zero _)]
  exact h x (x 0).isLt

/-- One trip's eight stores take the accumulator from "rows below `k` activated" to "rows below `k + 1`". -/
theorem actOK_succ1 (ids : S32x48x100.Idx → Elt F .i32) (emb : S100000x128.Idx → Elt F .f32) (k : Fin k1_t6_loop.trips)
    (f : S96x128.Idx → Elt F .f32) (hf : ActOK1 inv1 zero1 ids emb (wL1 L) k.val f) :
    ActOK1 inv1 zero1 ids emb (wL1 L) (k.val + 1) ((sAW1).view.writes (Elt F) f
      [actPiece1 f (k1_off60 k) (k1_off60_inb k), actPiece1 f (k1_off59 k) (k1_off59_inb k), actPiece1 f (k1_off58 k) (k1_off58_inb k),
       actPiece1 f (k1_off57 k) (k1_off57_inb k), actPiece1 f (k1_off56 k) (k1_off56_inb k), actPiece1 f (k1_off55 k) (k1_off55_inb k),
       actPiece1 f (k1_off54 k) (k1_off54_inb k), actPiece1 f (k1_off53 k) (k1_off53_inb k)]) := by
  have hk : k.val < 96 := k.isLt
  intro x
  have hx1 : (x 1).val < 128 := (x 1).isLt
  rw [writes_actPiece1 f f _ _ k.val 112 (k1_off60_eq k) hk (by omega), writes_actPiece1 f f _ _ k.val 96 (k1_off59_eq k) hk (by omega),
    writes_actPiece1 f f _ _ k.val 80 (k1_off58_eq k) hk (by omega), writes_actPiece1 f f _ _ k.val 64 (k1_off57_eq k) hk (by omega),
    writes_actPiece1 f f _ _ k.val 48 (k1_off56_eq k) hk (by omega), writes_actPiece1 f f _ _ k.val 32 (k1_off55_eq k) hk (by omega),
    writes_actPiece1 f f _ _ k.val 16 (k1_off54_eq k) hk (by omega), writes_actPiece1 f f _ _ k.val 0 (k1_off53_eq k) hk (by omega),
    View.writes_nil]
  have hfx := hf x
  by_cases h0 : (x 0).val = k.val
  · have hnk : ¬ (x 0).val < k.val := by omega
    rw [if_neg hnk] at hfx
    rw [if_pos (by omega : (x 0).val < k.val + 1), hfx]
    split_ifs <;> first | rfl | (exfalso; omega)
  · have hne : ∀ c0 : ℕ, ¬ ((x 0).val = k.val ∧ c0 ≤ (x 1).val ∧ (x 1).val < c0 + 16) := fun c0 h => h0 h.1
    rw [if_neg (hne 112), if_neg (hne 96), if_neg (hne 80), if_neg (hne 64), if_neg (hne 48), if_neg (hne 32), if_neg (hne 16), if_neg (hne 0)]
    by_cases hlt : (x 0).val < k.val
    · rw [if_pos hlt] at hfx
      rw [if_pos (by omega : (x 0).val < k.val + 1), hfx]
    · rw [if_neg hlt] at hfx
      rw [if_neg (by omega : ¬ (x 0).val < k.val + 1), hfx]

/-- Before trip `n` of the activation loop the accumulator's rows below `n` hold the activated values, the others
    the pooled sums. -/
def actInv1 (ids : S32x48x100.Idx → Elt F .i32) (emb : S100000x128.Idx → Elt F .f32) (n : ℕ) (_ : PUnit) : sProp 𝕄 :=
  iprop(∃ fA, ⌜ActOK1 inv1 zero1 ids emb (wL1 L) n fA⌝ ∗ (sAW1).view.loc (thr1 d L) ↦{fullShare} fA)

theorem act_trip1 (ids : S32x48x100.Idx → Elt F .i32) (emb : S100000x128.Idx → Elt F .f32) (t : Fin k1_t6_loop.trips) (u : PUnit) :
    actInv1 d L ids emb t.val u
      ⊢ wp frame (wpE (defs₀ (F := F)) 𝒱₀ (thr1 d L) none) Set.univ
          (k1_t6_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 t u)
          (actInv1 d L ids emb (t.val + 1)) := by
  unfold actInv1
  iintro ⟨%f, %hf, HA⟩
  unfold k1_t6_body
  sl_exec_parts
  sl_step
  iexists _
  isplitr
  · ipureintro
    exact actOK_succ1 L ids emb t f hf
  · iexact HA

end Tile1
end Cert.Proof.KI
end
-- ==== Proof.Val1D.lean ====
/-
  The copy-out's value: the task's row of the result array, once the accumulator — every row activated — has been
  copied into it, holds the pooled, scaled and clamped values the call's result function names there.
-/
import proofs.«204104_g71330816851969_cont_9to1_m_219_17_alg».proof.Proof.Val1C
import Idealize.ShloMosaic.Rules.PointsTo
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Val1D

variable (d : Dev nD) (L : grid1.Coords)

omit [Named F] in
/-- The pooled value depends on the task, the row and the lane as numbers only. -/
theorem poolAt_congr1 {nch : ℕ} (inv zero : F .f32) (ids : (⟨3, ![32, nch, 100]⟩ : Shape).Idx → Elt F .i32) (emb : S100000x128.Idx → Elt F .f32)
    (w w' : Fin 32) (i i' : ℕ) (hi : i / 2 < nch) (hi' : i' / 2 < nch) (q q' : Fin 128) (hw : w = w') (hii : i = i') (hq : q = q') :
    poolAt inv zero ids emb w i hi q = poolAt inv zero ids emb w' i' hi' q' := by
  subst hw hii hq; rfl

omit [FloatOps F] [Named F] in
/-- Where element `y` of the task's row of the result array sits in the array: at the task's number, then `y`. -/
theorem emb_outRowK1 (y : S96x128.Idx) :
    (((outRowK1 L).view.emb y : S32x96x128.Idx) 0).val = (wL1 L).val ∧ (((outRowK1 L).view.emb y : S32x96x128.Idx) 1).val = (y 0).val
      ∧ (((outRowK1 L).view.emb y : S32x96x128.Idx) 2).val = (y 1).val := by
  have he : ((outRowK1 L).view.emb y : S32x96x128.Idx)
      = (outRect1 L).emb (Shape.reshapeEquiv squeezes_S1x96x128_S96x128.numel_eq y) := rfl
  rw [he, Shape.reshapeEquiv_cons_one]
  refine ⟨?_, ?_, ?_⟩
  · rw [Rect.emb_apply]; show k1_off61 L 0 + 1 * 0 = _; rw [k1_off61_eq]; show 16 * (L 0).val + (L 1).val + 1 * 0 = 16 * (L 0).val + (L 1).val; omega
  · rw [Rect.emb_apply]; show k1_off61 L 1 + 1 * (y 0).val = _; rw [k1_off61_eq]; show 0 + 1 * (y 0).val = (y 0).val; omega
  · rw [Rect.emb_apply]; show k1_off61 L 2 + 1 * (y 1).val = _; rw [k1_off61_eq]; show 0 + 1 * (y 1).val = (y 1).val; omega

omit [Named F] in
/-- The task's row of the result array after the accumulator, every row activated, is copied into it. -/
theorem out_row_val1' (ids : Buf (Elt F) (idsLoc1 d)) (emb : Buf (Elt F) (embLoc1 d)) (o₀ : Buf (Elt F) (outLoc1 d))
    (inv zero : F .f32) (fA : S96x128.Idx → Elt F .f32) (hA : ActOK1 inv zero ids emb (wL1 L) 96 fA)
    (P : S96x128.Idx → Elt F .f32) (hP : ∀ y, P y = fA y) :
    ∀ x ∈ rowSetO1 (wL1 L), ((outRowK1 L).view.writes (Elt F) o₀ [⟨Rect.whole S96x128, P⟩]) x = pool1 inv zero ids emb x := by
  intro x hx
  rw [← set_outRowK1 L] at hx
  obtain ⟨y, rfl⟩ := View.exists_emb_of_mem_set (outRowK1 L).view hx
  have hy : (outRowK1 L).view.emb y = ((outRowK1 L).view.slice (Rect.whole S96x128)).emb y := by
    show _ = (outRowK1 L).view.emb ((Rect.whole S96x128).emb y)
    rw [Rect.emb_whole_apply]
  rw [View.writes_cons, View.writes_nil]
  conv_lhs => rw [hy]
  rw [View.write_emb_of_mem _ _ (Finset.mem_univ _)]
  show P y = _
  obtain ⟨e0, e1, e2⟩ := emb_outRowK1 L y
  rw [hP, hA y, if_pos (show (y 0).val < 96 from (y 0).isLt)]
  show poolAt (nch := 48) inv zero ids emb (wL1 L) (y 0).val _ (y 1) = poolAt (nch := 48) inv zero ids emb _ _ _ _
  exact poolAt_congr1 inv zero ids emb _ _ _ _ _ _ _ _ (Fin.ext e0.symm) e1.symm (Fin.ext e2.symm)

/-- The same at the call's own scale and clamp. -/
theorem out_row_val1 (ids : Buf (Elt F) (idsLoc1 d)) (emb : Buf (Elt F) (embLoc1 d)) (o₀ : Buf (Elt F) (outLoc1 d))
    (fA : S96x128.Idx → Elt F .f32) (hA : ActOK1 (inv1 (F := F)) (zero1 (F := F)) ids emb (wL1 L) 96 fA)
    (P : S96x128.Idx → Elt F .f32) (hP : ∀ y, P y = fA y) :
    ∀ x ∈ rowSetO1 (wL1 L), ((outRowK1 L).view.writes (Elt F) o₀ [⟨Rect.whole S96x128, P⟩]) x = pool1 (inv1 (F := F)) (zero1 (F := F)) ids emb x :=
  out_row_val1' d L ids emb o₀ inv1 zero1 fA hA P hP

/-- So the task holds its row of the result array at the call's result function. -/
theorem out_row_pts1 (ids : Buf (Elt F) (idsLoc1 d)) (emb : Buf (Elt F) (embLoc1 d)) (o₀ : Buf (Elt F) (outLoc1 d))
    (fA : S96x128.Idx → Elt F .f32) (hA : ActOK1 (inv1 (F := F)) (zero1 (F := F)) ids emb (wL1 L) 96 fA)
    (P : S96x128.Idx → Elt F .f32) (hP : ∀ y, P y = fA y) :
    ((outRowK1 L).view.loc (thr1 d L) ↦[(outRowK1 L).view.set]{fullShare} (outRowK1 L).view.writes (Elt F) o₀ [⟨Rect.whole S96x128, P⟩] : sProp 𝕄)
      = outPts1 d (wL1 L) (pool1 (inv1 (F := F)) (zero1 (F := F)) ids emb) := by
  rw [pts_outRowK1]
  exact pointsTo_congr (out_row_val1 d L ids emb o₀ fA hA P hP)

end Val1D
end Cert.Proof.KI
end
-- ==== Proof.Tile1.lean ====
/-
  The task of the first pooling call at a symbolic place, with its value: from its row of the index array, a read share of
  the embedding table, its row of the result, its own scratch and semaphores, the body runs to the end and gives everything
  back, its row of the result holding the pooled, scaled and clamped sums the index array names.
-/
import proofs.«204104_g71330816851969_cont_9to1_m_219_17_alg».proof.Proof.Tile1Trip
import proofs.«204104_g71330816851969_cont_9to1_m_219_17_alg».proof.Proof.Act1
import proofs.«204104_g71330816851969_cont_9to1_m_219_17_alg».proof.Proof.Val1D

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

section Tile1

variable (d : Dev nD) (L : grid1.Coords)

theorem tile_body1 (hF : (K (F := F)).Facts) (q : PosShare TreeShare)
    (ids : Buf (Elt F) (idsLoc1 d)) (emb : Buf (Elt F) (embLoc1 d)) (o₀ : Buf (Elt F) (outLoc1 d))
    (hin : ∀ x : S32x48x100.Idx, (show BitVec 32 from ids x).toNat < 100000)
    (O : CellTallies nD τ sig (HIx 2)) (W : Waits sig (HIx 2)) (hO : ∀ g, O g none = 0) :
    iprop(levAts (K (F := F)).L (K (F := F)).lev
        ∗ (idsPts1 d (wL1 L) ids ∗ embPts1 d q emb ∗ outPts1 d (wL1 L) o₀)
        ∗ scopedBufs (thr1 d L) ∗ scopedSems0 (thr1 d L) ∗ owes (thr1 d L) O W)
      ⊢ wp frame (wpE (defs₀ (F := F)) 𝒱₀ (thr1 d L) none) Set.univ
          (cc1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1)
          fun _ => iprop((idsPts1 d (wL1 L) ids ∗ embPts1 d q emb ∗ outPts1 d (wL1 L) (pool1 inv1 zero1 ids emb))
            ∗ scopedBufs (thr1 d L) ∗ scopedSems0 (thr1 d L)
            ∗ ∃ W', ⌜∀ p ∈ W', p ∈ W ∨ p.2 = none⌝ ∗ owes (thr1 d L) O W') := by
  simp only [cc1_body_eq_skeleton]; unfold cc1_body_skel
  rw [(K (F := F)).scopedBufs_V hF d (cV1 L) (jV1 L), SparseCore.Cfg.scopedSems0_V (Val := Elt F) d (cV1 L) (jV1 L), ownSems0_V1, ownBufs_V1]
  iintro ⟨#Hlv, ⟨Hi, He, Ho⟩, ⟨⟨%fI, HsI⟩, ⟨%fR0, HsR0⟩, ⟨%fR1, HsR1⟩, ⟨%fA, HsA⟩, Hbufs⟩, ⟨Hc4, Hc5, Hcs0, Hcs1, Hsems⟩, HO⟩
  ihave Hmw := ((K (F := F)).mayWaits_none (thr := thr1 d L) hO) $$ Hlv
  ihave Hi' := (Entails.of_eq (pts_idsRowK1 (F := F) d L _).symm) $$ Hi
  ihave Ho' := (Entails.of_eq (pts_outRowK1 (F := F) d L _).symm) $$ Ho
  ihave HsI' := (Entails.of_eq (pts_sI1 (F := F) d L _).symm) $$ HsI
  ihave HsR0' := (Entails.of_eq (pts_sR0_1 (F := F) d L _).symm) $$ HsR0
  ihave HsR1' := (Entails.of_eq (pts_sR1_1 (F := F) d L _).symm) $$ HsR1
  ihave HsA' := (Entails.of_eq (pts_sA1 (F := F) d L _).symm) $$ HsA
  ihave He' := (Entails.of_eq (pts_embW1 (F := F) d L q _).symm) $$ He
  ihave He2 := (pointsTo_share (PosShare.mem_left_op_right q)).1 $$ He'
  icases He2 with ⟨HeL, HeR⟩
  sl_exec_parts
  have hEq : View.write (Elt F) (Memref.whole cc1_scratch0).view fI (tile_body1.sl.dma0 d L ids) Finset.univ = fiOf1 d L ids fI := rfl
  ihave HsI' := (Entails.of_eq (congrArg (fun f => ((sIW1).view.loc (thr1 d L) ↦{fullShare} f : sProp 𝕄)) hEq)) $$ HsI'
  have hidx := fun g row hk hr hq => offs_inb1 (F := F) d L g (idsPay1 d L ids) (idsPay_lt1 d L ids hin) row hk hr hq
  have hfiT : IdxOK1 d L (fiOf1 d L ids fI) := fun row hk x => hidx fI row hk _ _ x
  ihave Hrows := (Entails.of_eq (idsv_row_split1 (F := F) d L (fiOf1 d L ids fI) 0)) $$ HsI'
  icases Hrows with ⟨Hrow0, Hrows⟩
  ihave Hrow0' := (Entails.of_eq (pts_offsP1 (F := F) d L ![0, 0] inb_S48x100_S1x100_0_0 0 rfl _).symm) $$ Hrow0
  sl_exec_parts
  iclear HeL
  sl_for (outerInvV1 d L ids emb fI hfiT q O (insert (SemLoc.dma cc1_scoped0.sem, (default : HIx 2)) W)) $$ [Hmw Hc5 HsR1' HeR HsA' Hc4 Hrows HO]
  case region =>
    intro k u
    exact trip1_all d L ids emb fI hfiT q O _ k u
  · unfold outerInvV1
    rw [if_pos (by decide : (0 : ℕ) < 24)]
    isplitl [Hmw]; · iexact Hmw
    isplitl [Hc5]; · iexact Hc5
    isplitl [HsR1']; · iexists _; iexact HsR1'
    isplitl [HeR]; · iexact HeR
    isplitl [HsA']
    · iexists _; isplitr
      rotate_left
      · iexact HsA'
      · ipureintro; exact fun x hx => absurd hx (Nat.not_lt_zero _)
    isplitl [Hc4 Hrows]
    · isplitl [Hc4]
      · unfold flightC0_1
        iapply (flight_canon1 (F := F) d L emb (fiOf1 d L ids fI) hfiT ![0, 0] inb_S48x100_S1x100_0_0 (fin48 (2 * 0)) rfl fR0 _
          (gPay_off1 (F := F) d L emb (fiOf1 d L ids fI) hfiT ![0, 0] inb_S48x100_S1x100_0_0 (fin48 (2 * 0)) rfl _ _) q.left)
        iexact Hc4
      · iexact Hrows
    iexists _; isplitr
    rotate_left
    · iexact HO
    · ipureintro; exact fun p hp => .inl hp
  iintro %u HI
  ihave HI' := (outerInvV_exit1 (F := F) d L ids emb fI hfiT q O _ u) $$ HI
  icases HI' with ⟨-, Hc5, ⟨%f1, HR1⟩, HeR, ⟨%fA', %hAcc, HA⟩, ⟨Hc4, ⟨%f0, HR0⟩, HsI, HeL⟩, %W1, %hW1, HO⟩
  sl_exec_parts
  sl_for (actInv1 d L ids emb) $$ [HA]
  case region =>
    intro t u
    exact act_trip1 d L ids emb t u
  · unfold actInv1
    iexists _; isplitr
    rotate_left
    · iexact HA
    · ipureintro; exact actOK_zero1 inv1 zero1 ids emb (wL1 L) _ hAcc
  iintro %u2 HA
  unfold actInv1
  icases HA with ⟨%fA2, %hAct, HA⟩
  sl_exec_parts
  sl_step
  isplitl [Hi' HeL HeR Ho']
  · isplitl [Hi']; · iapply (Entails.of_eq (pts_idsRowK1 (F := F) d L _)); iexact Hi'
    isplitl [HeL HeR]
    · iapply (Entails.of_eq (pts_embW1 (F := F) d L q _))
      iapply (pointsTo_share (PosShare.mem_left_op_right q)).2
      isplitl [HeL]; · iexact HeL
      iexact HeR
    · iapply (Entails.of_eq (out_row_pts1 (F := F) d L ids emb o₀ fA2 hAct _ (fun y => rfl)))
      iexact Ho'
  isplitl [HsI HR0 HR1 HA Hbufs]
  · isplitl [HsI]; · iexists _; iexact HsI
    isplitl [HR0]; · iexists _; iexact HR0
    isplitl [HR1]; · iexists _; iexact HR1
    isplitl [HA]; · iexists _; iexact HA
    iexact Hbufs
  isplitl [Hc4 Hc5 Hcs0 Hcs1 Hsems]
  · isplitl [Hc4]; · iexact Hc4
    isplitl [Hc5]; · iexact Hc5
    isplitl [Hcs0]; · iexact Hcs0
    isplitl [Hcs1]; · iexact Hcs1
    iexact Hsems
  iexists _; isplitr
  rotate_left
  · iexact HO
  · ipureintro; intro p hp
    rcases Finset.mem_insert.mp hp with hp | hp
    · exact .inr (by subst hp; rfl)
    · rcases hW1 p hp with h | h
      · rcases Finset.mem_insert.mp h with h | h
        · exact .inr (by subst h; rfl)
        · exact .inl h
      · exact .inr h

end Tile1
end Cert.Proof.KI
end
-- ==== Proof.Tiles.lean ====
/-
  The launch theorem's obligations for the two pooling calls' tasks, from the tasks' body theorems at a symbolic
  place: a task runs the call's body at the place its SparseCore and subcore name, on what the handshake hands it.
-/
import proofs.«204104_g71330816851969_cont_9to1_m_219_17_alg».proof.Proof.Held
import proofs.«204104_g71330816851969_cont_9to1_m_219_17_alg».proof.Proof.Pay
import proofs.«204104_g71330816851969_cont_9to1_m_219_17_alg».proof.Proof.Gen.KernelIdeal.Skeleton
import proofs.«204104_g71330816851969_cont_9to1_m_219_17_alg».proof.Proof.Tile0
import proofs.«204104_g71330816851969_cont_9to1_m_219_17_alg».proof.Proof.Tile1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The launch theorem's obligation for the first pooling call's tasks

A task of the call runs the call's body at the place its SparseCore and subcore name; what the handshake hands it —
its row of the index array, its read share of the table, its row of the result array — is what the body's theorem
takes, and what the body leaves is what the handshake takes back. -/

/-- The place of subcore `s` of SparseCore `c` in the first call's grid. -/
def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_body (coordsV0 c s)
          (Memref.whole main_v2_scv) (Memref.isWhole_whole _) (Memref.whole main_arg3_scv) (Memref.isWhole_whole _)
          (Memref.whole main_v3_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scoped0 cc0_scoped1) ⟨⟩ c s := rfl

omit [FloatOps F] [Named F] in
/-- A body's recorded waits, all its own, are within what the launch allows a task of call `q`. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl0

variable (m : (ℓ : Loc nD τ sig) → Buf (Elt F) ℓ) (inv1 zero1 : F .f32)

/-- The task number of the place the launch names is the one the handshake's payload is stated at. -/
theorem wL0_coords (c : Fin ((K (F := F)).nCore 0)) (i : Fin ((K (F := F)).nSub 0))
    (h1 : ((K (F := F)).core 0 c).val < grid0.bound 0) (h2 : ((K (F := F)).sub 0 i).val < grid0.bound 1) :
    wL0 (coordsV0 ⟨((K (F := F)).core 0 c).val, h1⟩ ⟨((K (F := F)).sub 0 i).val, h2⟩)
      = taskIx (Fin.cast (nCore_q (F := F) 0) c) (Fin.cast (nSub_q (F := F) 0) i) := Fin.ext rfl

theorem tileObl0 (hF : (K (F := F)).Facts)
    (hin : ∀ d x, (show BitVec 32 from (C m (inv0 (F := F)) (zero0 (F := F)) inv1 zero1).ids0 d x).toNat < 100000) :
    (K (F := F)).TileObl (D (F := F)) 𝒱 (P (C m (inv0 (F := F)) (zero0 (F := F)) inv1 zero1)) v₀ 0 := by
  intro d c i O W hO _ _
  simp only [show (P (C m (inv0 (F := F)) (zero0 (F := F)) inv1 zero1)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hb := tile_body0 (F := F) d (coordsV0 ⟨_, hc.1⟩ ⟨_, hc.2⟩) hF
    (shT (Fin.cast (nCore_q (F := F) 0) c) (Fin.cast (nSub_q (F := F) 0) i))
    ((C m (inv0 (F := F)) (zero0 (F := F)) inv1 zero1).ids0 d) ((C m (inv0 (F := F)) (zero0 (F := F)) inv1 zero1).emb d)
    ((C m (inv0 (F := F)) (zero0 (F := F)) inv1 zero1).old0 d) (hin d) O W hO
  rw [wL0_coords (F := F) c i hc.1 hc.2] at hb
  refine BIBase.Entails.trans ?_ (hb.trans (wp_mono frame _ _ fun _ => obl_post (q := 0)))
  rw [show (P (C m (inv0 (F := F)) (zero0 (F := F)) inv1 zero1)).go 0 d c i
      = iprop(idsPts0 d (taskIx (Fin.cast (nCore_q (F := F) 0) c) (Fin.cast (nSub_q (F := F) 0) i)) ((C m (inv0 (F := F)) (zero0 (F := F)) inv1 zero1).ids0 d)
          ∗ embPts d (shT (Fin.cast (nCore_q (F := F) 0) c) (Fin.cast (nSub_q (F := F) 0) i)) ((C m (inv0 (F := F)) (zero0 (F := F)) inv1 zero1).emb d)
          ∗ outPts0 d (taskIx (Fin.cast (nCore_q (F := F) 0) c) (Fin.cast (nSub_q (F := F) 0) i)) ((C m (inv0 (F := F)) (zero0 (F := F)) inv1 zero1).old0 d)) from rfl]
  iintro ⟨Hlv, -, Hgo, Hb, Hs, HO⟩
  isplitl [Hlv]; · iexact Hlv
  isplitl [Hgo]; · iexact Hgo
  isplitl [Hb]; · iexact Hb
  isplitl [Hs]; · iexact Hs
  iexact HO

end Obl0

/-- The place of subcore `s` of SparseCore `c` in the second call's grid. -/
def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_body (coordsV1 c s)
          (Memref.whole main_v6_scv) (Memref.isWhole_whole _) (Memref.whole main_arg3_scv) (Memref.isWhole_whole _)
          (Memref.whole main_v7_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scoped0 cc1_scoped1) ⟨⟩ c s := rfl

section Obl1

variable (m : (ℓ : Loc nD τ sig) → Buf (Elt F) ℓ) (inv0' zero0' : F .f32)

/-- The task number of the place the launch names is the one the handshake's payload is stated at. -/
theorem wL1_coords (c : Fin ((K (F := F)).nCore 1)) (i : Fin ((K (F := F)).nSub 1))
    (h1 : ((K (F := F)).core 1 c).val < grid1.bound 0) (h2 : ((K (F := F)).sub 1 i).val < grid1.bound 1) :
    wL1 (coordsV1 ⟨((K (F := F)).core 1 c).val, h1⟩ ⟨((K (F := F)).sub 1 i).val, h2⟩)
      = taskIx (Fin.cast (nCore_q (F := F) 1) c) (Fin.cast (nSub_q (F := F) 1) i) := Fin.ext rfl

theorem tileObl1 (hF : (K (F := F)).Facts)
    (hin : ∀ d x, (show BitVec 32 from (C m inv0' zero0' (inv1 (F := F)) (zero1 (F := F))).ids1 d x).toNat < 100000) :
    (K (F := F)).TileObl (D (F := F)) 𝒱 (P (C m inv0' zero0' (inv1 (F := F)) (zero1 (F := F)))) v₀ 1 := by
  intro d c i O W hO _ _
  simp only [show (P (C m inv0' zero0' (inv1 (F := F)) (zero1 (F := F)))).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  have hb := tile_body1 (F := F) d (coordsV1 ⟨_, hc.1⟩ ⟨_, hc.2⟩) hF
    (shT (Fin.cast (nCore_q (F := F) 1) c) (Fin.cast (nSub_q (F := F) 1) i))
    ((C m inv0' zero0' (inv1 (F := F)) (zero1 (F := F))).ids1 d) ((C m inv0' zero0' (inv1 (F := F)) (zero1 (F := F))).emb d)
    ((C m inv0' zero0' (inv1 (F := F)) (zero1 (F := F))).old1 d) (hin d) O W hO
  rw [wL1_coords (F := F) c i hc.1 hc.2] at hb
  refine BIBase.Entails.trans ?_ (hb.trans (wp_mono frame _ _ fun _ => obl_post (q := 1)))
  rw [show (P (C m inv0' zero0' (inv1 (F := F)) (zero1 (F := F)))).go 1 d c i
      = iprop(idsPts1 d (taskIx (Fin.cast (nCore_q (F := F) 1) c) (Fin.cast (nSub_q (F := F) 1) i)) ((C m inv0' zero0' (inv1 (F := F)) (zero1 (F := F))).ids1 d)
          ∗ embPts1 d (shT (Fin.cast (nCore_q (F := F) 1) c) (Fin.cast (nSub_q (F := F) 1) i)) ((C m inv0' zero0' (inv1 (F := F)) (zero1 (F := F))).emb d)
          ∗ outPts1 d (taskIx (Fin.cast (nCore_q (F := F) 1) c) (Fin.cast (nSub_q (F := F) 1) i)) ((C m inv0' zero0' (inv1 (F := F)) (zero1 (F := F))).old1 d)) from rfl]
  iintro ⟨Hlv, -, Hgo, Hb, Hs, HO⟩
  isplitl [Hlv]; · iexact Hlv
  isplitl [Hgo]; · iexact Hgo
  isplitl [Hb]; · iexact Hb
  isplitl [Hs]; · iexact Hs
  iexact HO

end Obl1

end Cert.Proof.KI

end
-- ==== Proof.B.Tile0Defs.lean ====
/-
  The task of the first pooling call at a symbolic place: its thread, the arrays' rows it is dealt, its own scratch
  buffers and semaphores, the index scratch by rows, the streams' loop's invariant, and the values the buffers hold.
-/
import proofs.«204104_g71330816851969_cont_9to1_m_219_17_alg».proof.Proof.B.Common
import proofs.«204104_g71330816851969_cont_9to1_m_219_17_alg».proof.Proof.B.Rows
import proofs.«204104_g71330816851969_cont_9to1_m_219_17_alg».proof.Proof.B.PoolSpec
import proofs.«204104_g71330816851969_cont_9to1_m_219_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The task of call 0 at a symbolic place -/

section Tile0

variable (d : Dev nD) (L : grid0.Coords)

abbrev cV0 (L : grid0.Coords) : Fin τ.nSC := (L 0).castLE hcore0
abbrev jV0 (L : grid0.Coords) : Fin τ.nSub := (L 1).castLE hsub0
theorem bound0_zero : grid0.bound 0 = 2 := rfl
theorem bound0_one : grid0.bound 1 = 16 := rfl
abbrev cL0 (L : grid0.Coords) : Fin 2 := Fin.cast bound0_zero (L 0)
abbrev jL0 (L : grid0.Coords) : Fin 16 := Fin.cast bound0_one (L 1)
/-- The task's number: sixteen times its SparseCore plus its subcore. -/
abbrev wL0 (L : grid0.Coords) : Fin 32 := taskIx (cL0 L) (jL0 L)

/-- The scale and the clamp of the activation, as the printed body spells them (each a lane of the broadcast). -/
def inv0 : F .f32 := k0_pay106 (F := F) (Shape.ofLane (d := ![16]) (0 : Fin 16))
def zero0 : F .f32 := k0_pay107 (F := F) (Shape.ofLane (d := ![16]) (0 : Fin 16))

abbrev thr0 (d : Dev nD) (L : grid0.Coords) : Thread nD τ := V d (cV0 L) (jV0 L)

abbrev idsLoc0 (d : Dev nD) : Loc nD τ sig := (SparseCore.T d).loc main_v2
abbrev embLoc (d : Dev nD) : Loc nD τ sig := (SparseCore.T d).loc main_arg3
abbrev outLoc0 (d : Dev nD) : Loc nD τ sig := (SparseCore.T d).loc main_v3
abbrev idsPts0 (d : Dev nD) (w : Fin 32) (ids : Buf (Elt F) (idsLoc0 d)) : sProp 𝕄 := idsLoc0 d ↦[rowSetI0 w]{fullShare} ids
abbrev embPts (d : Dev nD) (q : PosShare TreeShare) (emb : Buf (Elt F) (embLoc d)) : sProp 𝕄 := embLoc d ↦{q} emb
abbrev outPts0 (d : Dev nD) (w : Fin 32) (o : Buf (Elt F) (outLoc0 d)) : sProp 𝕄 := outLoc0 d ↦[rowSetO0 w]{fullShare} o

/-! ### The task's own semaphores and scratch buffers -/

abbrev c4 (d : Dev nD) (L : grid0.Coords) : GSem nD τ sig := (thr0 d L, SemLoc.dma cc0_scratch4.sem)
abbrev c5 (d : Dev nD) (L : grid0.Coords) : GSem nD τ sig := (thr0 d L, SemLoc.dma cc0_scratch5.sem)
abbrev cs0 (d : Dev nD) (L : grid0.Coords) : GSem nD τ sig := (thr0 d L, SemLoc.dma cc0_scoped0.sem)
abbrev cs1 (d : Dev nD) (L : grid0.Coords) : GSem nD τ sig := (thr0 d L, SemLoc.dma cc0_scoped1.sem)

omit [FloatOps F] in
theorem cell_ne0 {a b : DmaSem sig} (h : a ≠ b) : ((thr0 d L, SemLoc.dma a) : GSem nD τ sig) ≠ (thr0 d L, SemLoc.dma b) :=
  fun e => h (by injection e with _ e2; injection e2)

omit [FloatOps F] in
theorem cell_mem0 (a : DmaSem sig) (h : (SemLoc.dma a : SemLoc sig).isScoped .scVector = true) :
    ((thr0 d L, SemLoc.dma a) : GSem nD τ sig) ∈ ownCells (thr0 d L) := mem_ownCells.mpr ⟨rfl, h⟩

omit [FloatOps F] in
theorem ownSems0_V0 :
    (ownSems0 (thr0 d L) : sProp 𝕄)
      = iprop(semVal (c4 d L) 0 ∗ semVal (c5 d L) 0 ∗ semVal (cs0 d L) 0 ∗ semVal (cs1 d L) 0
          ∗ bigSep (((((ownCells (thr0 d L)).erase (c4 d L)).erase (c5 d L)).erase (cs0 d L)).erase (cs1 d L)) fun g => semVal g 0) := by
  unfold SparseCore.Cfg.ownSems0
  rw [SparseCore.bigSep_erase' (cell_mem0 d L cc0_scratch4.sem (by decide)),
    SparseCore.bigSep_erase' (Finset.mem_erase.mpr ⟨cell_ne0 d L (a := cc0_scratch5.sem) (b := cc0_scratch4.sem) (by decide), cell_mem0 d L cc0_scratch5.sem (by decide)⟩),
    SparseCore.bigSep_erase' (Finset.mem_erase.mpr ⟨cell_ne0 d L (a := cc0_scoped0.sem) (b := cc0_scratch5.sem) (by decide),
      Finset.mem_erase.mpr ⟨cell_ne0 d L (a := cc0_scoped0.sem) (b := cc0_scratch4.sem) (by decide), cell_mem0 d L cc0_scoped0.sem (by decide)⟩⟩),
    SparseCore.bigSep_erase' (Finset.mem_erase.mpr ⟨cell_ne0 d L (a := cc0_scoped1.sem) (b := cc0_scoped0.sem) (by decide),
      Finset.mem_erase.mpr ⟨cell_ne0 d L (a := cc0_scoped1.sem) (b := cc0_scratch5.sem) (by decide),
      Finset.mem_erase.mpr ⟨cell_ne0 d L (a := cc0_scoped1.sem) (b := cc0_scratch4.sem) (by decide), cell_mem0 d L cc0_scoped1.sem (by decide)⟩⟩⟩)]

abbrev pV0 (L : grid0.Coords) : Proc τ := Proc.scVector (cV0 L) (jV0 L)

omit [FloatOps F] in
theorem ref_ne0 {a b : Ref sig .scVector} (h : a ≠ b) : (pV0 L).devRef a ≠ (pV0 L).devRef b :=
  fun e => h (Proc.devRef_injective _ e)

omit [FloatOps F] in
theorem ref_mem0 (a : Ref sig .scVector) (h : ((pV0 L).devRef a).owner = .proc (pV0 L)) : (pV0 L).devRef a ∈ ownRefs (τ := τ) (pV0 L) :=
  SparseCore.Cfg.mem_ownRefs_of_owner h

omit [FloatOps F] in
/-- The four scratch buffers are among the subcore's own: they are them, at some contents, and the rest. -/
theorem ownBufs_V0 :
    (ownBufs (thr0 d L) : sProp 𝕄)
      = iprop((∃ f, (thr0 d L).loc cc0_scratch0 ↦{fullShare} f) ∗ (∃ f, (thr0 d L).loc cc0_scratch1 ↦{fullShare} f)
          ∗ (∃ f, (thr0 d L).loc cc0_scratch2 ↦{fullShare} f) ∗ (∃ f, (thr0 d L).loc cc0_scratch3 ↦{fullShare} f)
          ∗ bigSep (((((ownRefs (τ := τ) (pV0 L)).erase ((pV0 L).devRef cc0_scratch0)).erase ((pV0 L).devRef cc0_scratch1)).erase
              ((pV0 L).devRef cc0_scratch2)).erase ((pV0 L).devRef cc0_scratch3))
              fun b => iprop(∃ f, ((d, b) : Loc nD τ sig) ↦{fullShare} f)) := by
  unfold SparseCore.Cfg.ownBufs
  refine (SparseCore.bigSep_erase' (ref_mem0 L cc0_scratch0 rfl)).trans ?_
  rw [SparseCore.bigSep_erase' (Finset.mem_erase.mpr ⟨ref_ne0 L (a := cc0_scratch1) (b := cc0_scratch0) (by decide), ref_mem0 L cc0_scratch1 rfl⟩),
    SparseCore.bigSep_erase' (Finset.mem_erase.mpr ⟨ref_ne0 L (a := cc0_scratch2) (b := cc0_scratch1) (by decide),
      Finset.mem_erase.mpr ⟨ref_ne0 L (a := cc0_scratch2) (b := cc0_scratch0) (by decide), ref_mem0 L cc0_scratch2 rfl⟩⟩),
    SparseCore.bigSep_erase' (Finset.mem_erase.mpr ⟨ref_ne0 L (a := cc0_scratch3) (b := cc0_scratch2) (by decide),
      Finset.mem_erase.mpr ⟨ref_ne0 L (a := cc0_scratch3) (b := cc0_scratch1) (by decide),
      Finset.mem_erase.mpr ⟨ref_ne0 L (a := cc0_scratch3) (b := cc0_scratch0) (by decide), ref_mem0 L cc0_scratch3 rfl⟩⟩⟩)]

/-! ### The task's rows of the index array and of the result, as the body slices them -/

abbrev idsRect (L : grid0.Coords) : Rect S32x16x100 := Rect.unit (s := S32x16x100) (k0_off1 L) S1x16x100.size (k0_off1_inb L)
abbrev outRect (L : grid0.Coords) : Rect S32x32x128 := Rect.unit (s := S32x32x128) (k0_off61 L) S1x32x128.size (k0_off61_inb L)
abbrev idsW : Memref sig .scVector .hbm S32x16x100 .i32 := Memref.whole main_v2_scv
abbrev embW : Memref sig .scVector .hbm S100000x128 .f32 := Memref.whole main_arg3_scv
abbrev outW : Memref sig .scVector .hbm S32x32x128 .f32 := Memref.whole main_v3_scv
abbrev idsRowK (L : grid0.Coords) : Memref sig .scVector .hbm S16x100 .i32 := ((idsW).slice (idsRect L) (fun _ => rfl)).squeeze S16x100 squeezes_S1x16x100_S16x100
abbrev outRowK (L : grid0.Coords) : Memref sig .scVector .hbm S32x128 .f32 := ((outW).slice (outRect L) (fun _ => rfl)).squeeze S32x128 squeezes_S1x32x128_S32x128

omit [FloatOps F] in
theorem idsRect_eq : idsRect L = rowI0 (wL0 L) := by
  unfold idsRect rowI0 Rect.part Rect.block
  congr 1 <;> funext a
  · rw [k0_off1_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem outRect_eq : outRect L = rowO0 (wL0 L) := by
  unfold outRect rowO0 Rect.part Rect.block
  congr 1 <;> funext a
  · rw [k0_off61_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_idsRowK : (idsRowK L).view.set = rowSetI0 (wL0 L) := by
  show (((View.whole main_v2_scv : View sig .scVector .hbm S32x16x100 .i32).slice (idsRect L)).reshape S16x100 squeezes_S1x16x100_S16x100.numel_eq).set = (rowI0 (wL0 L)).set
  rw [View.set_reshape, View.set_slice_whole]
  exact congrArg (fun r : Rect S32x16x100 => r.set) (idsRect_eq L)
omit [FloatOps F] in
theorem set_outRowK : (outRowK L).view.set = rowSetO0 (wL0 L) := by
  show (((View.whole main_v3_scv : View sig .scVector .hbm S32x32x128 .f32).slice (outRect L)).reshape S32x128 squeezes_S1x32x128_S32x128.numel_eq).set = (rowO0 (wL0 L)).set
  rw [View.set_reshape, View.set_slice_whole]
  exact congrArg (fun r : Rect S32x32x128 => r.set) (outRect_eq L)

omit [FloatOps F] in
theorem pts_idsRowK (f : Buf (Elt F) (idsLoc0 d)) :
    ((idsRowK L).view.loc (thr0 d L) ↦[(idsRowK L).view.set]{fullShare} f : sProp 𝕄) = idsLoc0 d ↦[rowSetI0 (wL0 L)]{fullShare} f := by
  rw [set_idsRowK]
omit [FloatOps F] in
theorem pts_outRowK (f : Buf (Elt F) (outLoc0 d)) :
    ((outRowK L).view.loc (thr0 d L) ↦[(outRowK L).view.set]{fullShare} f : sProp 𝕄) = outLoc0 d ↦[rowSetO0 (wL0 L)]{fullShare} f := by
  rw [set_outRowK]
omit [FloatOps F] in
theorem pts_embW (q : PosShare TreeShare) (f : Buf (Elt F) (embLoc d)) :
    ((embW).view.loc (thr0 d L) ↦{q} f : sProp 𝕄) = embLoc d ↦{q} f := rfl

abbrev sIW : Memref sig .scVector .vmem S16x100 .i32 := Memref.whole cc0_scratch0
abbrev sR0W : Memref sig .scVector .vmem S100x128 .f32 := Memref.whole cc0_scratch1
abbrev sR1W : Memref sig .scVector .vmem S100x128 .f32 := Memref.whole cc0_scratch2
abbrev sAW : Memref sig .scVector .vmem S32x128 .f32 := Memref.whole cc0_scratch3
omit [FloatOps F] in
theorem pts_sI0 (f : Buf (Elt F) ((thr0 d L).loc cc0_scratch0)) :
    ((sIW).view.loc (thr0 d L) ↦{fullShare} f : sProp 𝕄) = (thr0 d L).loc cc0_scratch0 ↦{fullShare} f := rfl
omit [FloatOps F] in
theorem pts_sR0 (f : Buf (Elt F) ((thr0 d L).loc cc0_scratch1)) :
    ((sR0W).view.loc (thr0 d L) ↦{fullShare} f : sProp 𝕄) = (thr0 d L).loc cc0_scratch1 ↦{fullShare} f := rfl
omit [FloatOps F] in
theorem pts_sR1 (f : Buf (Elt F) ((thr0 d L).loc cc0_scratch2)) :
    ((sR1W).view.loc (thr0 d L) ↦{fullShare} f : sProp 𝕄) = (thr0 d L).loc cc0_scratch2 ↦{fullShare} f := rfl
omit [FloatOps F] in
theorem pts_sA0 (f : Buf (Elt F) ((thr0 d L).loc cc0_scratch3)) :
    ((sAW).view.loc (thr0 d L) ↦{fullShare} f : sProp 𝕄) = (thr0 d L).loc cc0_scratch3 ↦{fullShare} f := rfl

/-! ### The offset lists are in range -/

/-- What the first copy lands in the index scratch: the task's row of the index array. -/
abbrev idsPay (ids : Buf (Elt F) (idsLoc0 d)) : S16x100.Idx → Elt F .i32 := (idsRowK L).view.read (Elt F) ids

omit [FloatOps F] in
theorem idsPay_lt (ids : Buf (Elt F) (idsLoc0 d)) (hin : ∀ x : S32x16x100.Idx, (show BitVec 32 from ids x).toNat < 100000) (y : S16x100.Idx) :
    (show BitVec 32 from idsPay d L ids y).toNat < 100000 := by
  show (show BitVec 32 from (idsRowK L).view.read (Elt F) ids y).toNat < 100000
  rw [View.read_apply]
  exact hin _

omit [FloatOps F] in
/-- Every word of any row of the index scratch, once the copy has landed a payload whose words are row numbers of the
    table, is one: for any prior contents of the scratch and any row. -/
theorem offs_inb (g0 : Buf (Elt F) ((sIW).view.loc (thr0 d L))) (pay : S16x100.Idx → Elt F .i32)
    (hpay : ∀ y, (show BitVec 32 from pay y).toNat < 100000)
    (row : Fin 2 → Nat) (hk : ∀ a, row a + S1x100.size a ≤ S16x100.size a)
    (hr : ∀ a, (Rect.unit (s := S16x100) row S1x100.size hk).stride a = 1)
    (hq : (Rect.unit (s := S16x100) row S1x100.size hk).shape.Squeezes S100) :
    ∀ x, (View.read (Elt F) (((sIW).slice (Rect.unit (s := S16x100) row S1x100.size hk) hr).squeeze S100 hq).view
      (View.write (Elt F) (sIW).view g0 pay Finset.univ) x).toNat < 100000 := by
  intro x
  rw [View.write_whole_univ, View.read_apply]
  exact hpay _

/-! ### The index scratch by rows: each gather's offset list is one row, lent whole to its stream -/

/-- Row `j` of the index scratch as the body slices it at offsets `off`. -/
abbrev offsP (off : Fin 2 → Nat) (h : ∀ a, off a + S1x100.size a ≤ S16x100.size a) : Memref sig .scVector .vmem S100 .i32 :=
  ((Memref.whole cc0_scratch0 : Memref sig .scVector .vmem S16x100 .i32).slice (Rect.unit (s := S16x100) off S1x100.size h) (fun _ => rfl)).squeeze S100 squeezes_S1x100_S100

/-- Row `j` of the index scratch held outright at contents `f`. -/
abbrev rowPts (f : Buf (Elt F) ((sIW).view.loc (thr0 d L))) (j : Fin 16) : sProp 𝕄 :=
  (sIW).view.loc (thr0 d L) ↦[((sIW).view.slice (S16x100.rowRect 0 j)).set]{fullShare} f

omit [FloatOps F] in
theorem rect_row (off : Fin 2 → Nat) (h : ∀ a, off a + S1x100.size a ≤ S16x100.size a) (j : Fin 16) (hoff : off = ![j.val, 0]) :
    Rect.unit (s := S16x100) off S1x100.size h = S16x100.rowRect 0 j := by
  subst hoff
  unfold Shape.rowRect
  congr 1
  congr 1
  · funext a; match a with
    | 0 => rfl
    | 1 => rfl
  · funext a; match a with
    | 0 => rfl
    | 1 => rfl

omit [FloatOps F] in
theorem win_eq (off : Fin 2 → Nat) (h : ∀ a, off a + S1x100.size a ≤ S16x100.size a) (j : Fin 16) (hoff : off = ![j.val, 0]) :
    (offsP off h).view.set = ((sIW).view.slice (S16x100.rowRect 0 j)).set := by
  show (((sIW).view.slice (Rect.unit (s := S16x100) off S1x100.size h)).reshape S100 squeezes_S1x100_S100.numel_eq).set = _
  rw [View.set_reshape]
  exact rect_row off h j hoff ▸ rfl

omit [FloatOps F] in
theorem pts_offsP (off : Fin 2 → Nat) (h : ∀ a, off a + S1x100.size a ≤ S16x100.size a) (j : Fin 16) (hoff : off = ![j.val, 0])
    (f : Buf (Elt F) ((sIW).view.loc (thr0 d L))) :
    ((offsP off h).view.loc (thr0 d L) ↦[(offsP off h).view.set]{fullShare} f : sProp 𝕄) = rowPts d L f j := by
  rw [win_eq off h j hoff]

omit [FloatOps F] in
theorem idsv_rows (f : Buf (Elt F) ((sIW).view.loc (thr0 d L))) :
    ((sIW).view.loc (thr0 d L) ↦{fullShare} f : sProp 𝕄) = bigSep Finset.univ fun j : Fin 16 => rowPts d L f j := by
  have h := pointsTo_rows (Val := Elt F) (U := UU) (Ix := HIx 2) (Name := ℕ) (Lvl := ℕ) (thr0 d L) (sIW).view 0 fullShare f
  rw [show ((sIW).view.set) = Finset.univ from View.set_whole cc0_scratch0] at h
  exact h

omit [FloatOps F] in
theorem idsv_row_split (f : Buf (Elt F) ((sIW).view.loc (thr0 d L))) (j : Fin 16) :
    ((sIW).view.loc (thr0 d L) ↦{fullShare} f : sProp 𝕄) = iprop(rowPts d L f j ∗ bigSep (Finset.univ.erase j) fun j : Fin 16 => rowPts d L f j) :=
  (idsv_rows d L f).trans (bigSep_univ_split j)

/-! ### The streams' loop: its invariant -/

/-- A row number of the index scratch from a natural number (in range wherever it is used). -/
abbrev fin16 (n : ℕ) : Fin 16 := ⟨n % 16, Nat.mod_lt _ (by decide)⟩

/-- The table as the gathers slice it (whole). -/
abbrev embSl : Memref sig .scVector .hbm S100000x128 .f32 :=
  (Memref.whole main_arg3_scv : Memref sig .scVector .hbm S100000x128 .f32).slice (Rect.unit (s := S100000x128) ![0, 0] S100000x128.size inb_S100000x128_S100000x128_0_0) (fun _ => rfl)

omit [FloatOps F] in
theorem inbRow (j : Fin 16) : ∀ a, (![j.val, 0] : Fin 2 → ℕ) a + S1x100.size a ≤ S16x100.size a := by
  intro a
  match a with
  | 0 => show j.val + 1 ≤ 16; omega
  | 1 => show 0 + 100 ≤ 100; omega

/-- Every word of every row of the index scratch at contents `fi` names a row of the table. -/
abbrev IdxOK (fi : Buf (Elt F) ((sIW).view.loc (thr0 d L))) : Prop :=
  ∀ (row : Fin 2 → ℕ) (hk : ∀ a, row a + S1x100.size a ≤ S16x100.size a) (x : S100.Idx),
    ((offsP row hk).view.read (Elt F) fi x).toNat < 100000

/-- What a gather over row `c` of the index scratch (contents `fi`) lands in a rows buffer. -/
def gPay (emb : Buf (Elt F) (embLoc d)) (fi : Buf (Elt F) ((sIW).view.loc (thr0 d L))) (hfi : IdxOK d L fi) (c : Fin 16) :
    S100x128.Idx → Elt F .f32 :=
  SparseCore.gatherPayload gathers_S100000x128_S100x128 ((embSl).view.read (Elt F) emb)
    (SparseCore.rows ((offsP ![c.val, 0] (inbRow c)).view.read (Elt F) fi) rfl (hfi ![c.val, 0] (inbRow c)))

/-- A gather of chunk `c` into the first rows buffer in flight on its semaphore, reading the table at share `qe`: it
    delivers the buffer at the gathered rows, row `c` of the index scratch, and the table's share. -/
def flightC0 (emb : Buf (Elt F) (embLoc d)) (fi : Buf (Elt F) ((sIW).view.loc (thr0 d L))) (hfi : IdxOK d L fi)
    (c : Fin 16) (qe : PosShare TreeShare) : sProp 𝕄 :=
  Transfers.Flight countersEmb (thr0 d L) (SemLoc.dma cc0_scratch4.sem) default 409600
    iprop((((sR0W).view.loc (thr0 d L) ↦{fullShare} gPay d L emb fi hfi c) ∗ rowPts d L fi c)
      ∗ ((embW).view.loc (thr0 d L) ↦{qe} emb))

/-- Before trip `k` of the streams' loop: the second rows buffer and its semaphore free, the accumulator held, the
    table's second share held; while trips remain, the gather of chunk `2k` in flight into the first rows buffer and
    every other row of the index scratch held; after the last, everything back. -/
def outerInv (emb : Buf (Elt F) (embLoc d)) (fi : Buf (Elt F) ((sIW).view.loc (thr0 d L))) (hfi : IdxOK d L fi)
    (q : PosShare TreeShare) (O : CellTallies nD τ sig (HIx 2)) (W : Waits sig (HIx 2)) (k : ℕ) (_ : PUnit) : sProp 𝕄 :=
  iprop(Transfers.MayWaits (thr0 d L) (none : HIx 2) O
    ∗ semVal (c5 d L) 0
    ∗ (∃ f1, (sR1W).view.loc (thr0 d L) ↦{fullShare} f1)
    ∗ ((embW).view.loc (thr0 d L) ↦{q.right} emb)
    ∗ (∃ fA, (sAW).view.loc (thr0 d L) ↦{fullShare} fA)
    ∗ (if k < 8 then iprop(flightC0 d L emb fi hfi (fin16 (2 * k)) q.left
          ∗ bigSep (Finset.univ.erase (fin16 (2 * k))) fun j => rowPts d L fi j)
       else iprop(semVal (c4 d L) 0 ∗ (∃ f0, (sR0W).view.loc (thr0 d L) ↦{fullShare} f0)
          ∗ ((sIW).view.loc (thr0 d L) ↦{fullShare} fi) ∗ ((embW).view.loc (thr0 d L) ↦{q.left} emb)))
    ∗ ∃ W', ⌜∀ p ∈ W', p ∈ W ∨ p.2 = none⌝ ∗ owes (thr0 d L) O W')

/-! ### The values: what the buffers hold -/

/-- Element `(r, q)` of a rows buffer's contents (total: the coordinates reduced into range). -/
def Gat (G : S100x128.Idx → Elt F .f32) (r q : ℕ) : F .f32 :=
  G (Shape.pair (d := ![100, 128]) ⟨r % 100, Nat.mod_lt _ (by decide)⟩ ⟨q % 128, Nat.mod_lt _ (by decide)⟩)

/-- Lane group `j` of the sum, from the left, of rows `base, …, base + t` of a rows buffer's contents. -/
def accV (G : S100x128.Idx → Elt F .f32) (base j t : ℕ) : FVec F S16 .f32 :=
  fun lane => lsum (fun l => Gat G (base + l) (16 * j + (lane 0).val)) t

theorem accV_zero (G : S100x128.Idx → Elt F .f32) (base j : ℕ) :
    accV G base j 0 = fun lane => Gat G base (16 * j + (lane 0).val) := rfl

/-- One more row added to every lane of a lane group. -/
theorem accV_succ (G : S100x128.Idx → Elt F .f32) (base j t r : ℕ) (hr : r = base + (t + 1)) :
    addf (accV G base j t) (fun lane => Gat G r (16 * j + (lane 0).val)) = accV G base j (t + 1) := by
  subst hr; rfl

/-- The eight lane groups after `t` additions. -/
def accs8 (G : S100x128.Idx → Elt F .f32) (base t : ℕ) :
    FVec F S16 .f32 × FVec F S16 .f32 × FVec F S16 .f32 × FVec F S16 .f32 × FVec F S16 .f32 × FVec F S16 .f32 × FVec F S16 .f32 × FVec F S16 .f32 :=
  (accV G base 0 t, accV G base 1 t, accV G base 2 t, accV G base 3 t, accV G base 4 t, accV G base 5 t, accV G base 6 t, accV G base 7 t)

/-- The pooled sum before the activation at `(i, q)` of the task's result block, from the index array and the table. -/
def Spre (ids : S32x16x100.Idx → Elt F .i32) (emb : S100000x128.Idx → Elt F .f32) (w : Fin 32) (x : S32x128.Idx) : F .f32 :=
  lsum (fun l => embAt emb (rowNo (nch := 16) ids w (x 0).val (by have := (x 0).isLt; change _ < 32 at this; omega) l) (x 1)) 49

/-- The accumulator's rows below `n` hold the pooled sums. -/
def AccOK (ids : S32x16x100.Idx → Elt F .i32) (emb : S100000x128.Idx → Elt F .f32) (w : Fin 32) (n : ℕ)
    (fA : S32x128.Idx → Elt F .f32) : Prop :=
  ∀ x : S32x128.Idx, (x 0).val < n → fA x = Spre ids emb w x

/-- The accumulator's rows below `n` hold the activated values, the others the pooled sums. -/
def ActOK (inv zero : F .f32) (ids : S32x16x100.Idx → Elt F .i32) (emb : S100000x128.Idx → Elt F .f32) (w : Fin 32) (n : ℕ)
    (fA : S32x128.Idx → Elt F .f32) : Prop :=
  ∀ x : S32x128.Idx, fA x = if (x 0).val < n then FloatOps.maximumf (FloatOps.mulf (Spre ids emb w x) inv) zero else Spre ids emb w x

/-! ### Small facts the run's bookkeeping uses -/

omit [FloatOps F] in
/-- The table sliced whole is the table. -/
theorem embSl_set : (embSl).view.set = Finset.univ := by
  show ((View.whole main_arg3_scv : View sig .scVector .hbm S100000x128 .f32).slice (Rect.unit (s := S100000x128) ![0, 0] S100000x128.size inb_S100000x128_S100000x128_0_0)).set = Finset.univ
  rw [View.set_slice_whole]
  ext i
  simp only [Rect.mem_set_unit, Finset.mem_univ, iff_true]
  intro a
  match a with
  | 0 => exact ⟨Nat.zero_le _, by simp; exact (i 0).isLt⟩
  | 1 => exact ⟨Nat.zero_le _, by simp; exact (i 1).isLt⟩

omit [FloatOps F] in
theorem pts_embSl (qe : PosShare TreeShare) (f : Buf (Elt F) (embLoc d)) :
    ((embW).view.loc (thr0 d L) ↦[(embSl).view.set]{qe} f : sProp 𝕄) = ((embW).view.loc (thr0 d L) ↦{qe} f) := by
  rw [embSl_set]

omit [FloatOps F] in
/-- A whole buffer written whole holds what was written. -/
theorem whole_writes (b : Ref sig .scVector) (f w : b.ty.Contents (Elt F)) :
    (Memref.whole b).view.writes (Elt F) f [⟨Rect.whole _, w⟩] = w :=
  Memref.write_access_whole_univ (Elt F) b f w

omit [FloatOps F] in
/-- The gather's payload over a row of the index scratch sliced at offsets `off` is the one over row `c` when `off` names it. -/
theorem gPay_off (emb : Buf (Elt F) (embLoc d)) (fi : Buf (Elt F) ((sIW).view.loc (thr0 d L))) (hfi : IdxOK d L fi)
    (off : Fin 2 → Nat) (h : ∀ a, off a + S1x100.size a ≤ S16x100.size a) (c : Fin 16) (hoff : off = ![c.val, 0])
    (hn : S100.numel = S100x128.size gathers_S100000x128_S100x128.axis')
    (hin : ∀ x, ((offsP off h).view.read (Elt F) fi x).toNat < S100000x128.size gathers_S100000x128_S100x128.axis) :
    SparseCore.gatherPayload gathers_S100000x128_S100x128 ((embSl).view.read (Elt F) emb)
        (SparseCore.rows ((offsP off h).view.read (Elt F) fi) hn hin) = gPay d L emb fi hfi c := by
  subst hoff; rfl

omit [FloatOps F] in
/-- Rows `a` and `b` back among the others, row `c` out. -/
theorem rows_shift (fi : Buf (Elt F) ((sIW).view.loc (thr0 d L))) (a b c : Fin 16) (hab : a ≠ b) (hac : a ≠ c) (hbc : b ≠ c) :
    iprop(rowPts d L fi a ∗ rowPts d L fi b ∗ bigSep (((Finset.univ.erase a).erase b).erase c) fun j : Fin 16 => rowPts d L fi j)
      ⊢ (bigSep (Finset.univ.erase c) fun j : Fin 16 => rowPts d L fi j : sProp 𝕄) := by
  rw [SparseCore.bigSep_erase' (i := a) (s := Finset.univ.erase c) (Finset.mem_erase.mpr ⟨hac, Finset.mem_univ _⟩),
    SparseCore.bigSep_erase' (i := b) (s := (Finset.univ.erase c).erase a) (Finset.mem_erase.mpr ⟨hab.symm, Finset.mem_erase.mpr ⟨hbc, Finset.mem_univ _⟩⟩),
    show ((Finset.univ : Finset (Fin 16)).erase c).erase a = (Finset.univ.erase a).erase c from Finset.erase_right_comm,
    show (((Finset.univ : Finset (Fin 16)).erase a).erase c).erase b = ((Finset.univ.erase a).erase b).erase c from Finset.erase_right_comm]

omit [FloatOps F] in
/-- The last two rows back: every row. -/
theorem rows_all (fi : Buf (Elt F) ((sIW).view.loc (thr0 d L))) (a b : Fin 16) (hab : a ≠ b) :
    iprop(rowPts d L fi a ∗ rowPts d L fi b ∗ bigSep ((Finset.univ.erase a).erase b) fun j : Fin 16 => rowPts d L fi j)
      ⊢ ((sIW).view.loc (thr0 d L) ↦{fullShare} fi : sProp 𝕄) := by
  rw [idsv_rows, SparseCore.bigSep_erase' (i := a) (s := Finset.univ) (Finset.mem_univ _),
    SparseCore.bigSep_erase' (i := b) (s := Finset.univ.erase a) (Finset.mem_erase.mpr ⟨hab.symm, Finset.mem_univ _⟩)]

theorem lsum_congr (f g : ℕ → F .f32) (n : ℕ) (h : ∀ l, l ≤ n → f l = g l) : lsum f n = lsum g n := by
  induction n with
  | zero => exact h 0 (Nat.le_refl _)
  | succ n ih => rw [lsum_succ, lsum_succ, ih (fun l hl => h l (Nat.le_succ_of_le hl)), h (n + 1) (Nat.le_refl _)]

end Tile0
end Cert.Proof.KB
end
-- ==== Proof.B.Val0A.lean ====
/-
  The values a pooling task's gathers land: the index scratch holds the task's row of the index array, so row `c` of
  the scratch names, position by position, the table rows the index array names at `(w, c, ·)`; a gather over that row
  lands, at `(r, q)`, lane `q` of the table's row named at `(w, c, r)`.
-/
import proofs.«204104_g71330816851969_cont_9to1_m_219_17_alg».proof.Proof.B.Tile0Defs

noncomputable section
namespace Cert.Proof.KB
open Cert.Kernel Cert.Kernel.Gen
open Idealize.ShloMosaic
open Idealize.ShloMosaic.SparseCore (S V T)
open Idealize.SL Idealize.SL.Sem

variable {F : FTy → Type} [FloatOps F]
section Tile0
variable (d : Dev nD) (L : grid0.Coords)

omit [FloatOps F] in
/-- A position of a list of 100 re-indexed as one row of 100: row 0, the same position. -/
theorem rsh_100 (h : S100.numel = S1x100.numel) (x : S100.Idx) :
    Shape.reshapeEquiv h x = Shape.pair (d := ![1, 100]) (0 : Fin 1) (x 0) := by
  refine Shape.reshapeEquiv_eq_of_rowMajor h ?_
  rw [Shape.rowMajor_val_two, Shape.rowMajor_val_one]
  show (0 : ℕ) * 100 + (x 0).val = (x 0).val
  omega

omit [FloatOps F] in
/-- An index of [16,100] re-indexed as one slab of [1,16,100]: slab 0, the same coordinates. -/
theorem rsh_16x100 (h : S16x100.numel = S1x16x100.numel) (y : S16x100.Idx) :
    Shape.reshapeEquiv h y = ix3 (a := 1) (b := 16) (c := 100) (0 : Fin 1) (y 0) (y 1) := by
  refine Shape.reshapeEquiv_eq_of_rowMajor h ?_
  rw [Shape.rowMajor_val_three, Shape.rowMajor_val_two]
  show ((0 : ℕ) * 16 + (y 0).val) * 100 + (y 1).val = (y 0).val * 100 + (y 1).val
  omega

omit [FloatOps F] in
/-- Position `r` of row `c` of the index scratch, once the task's row of the index array has landed in it, is the
    index array at `(w, c, r)`. -/
theorem offs_read (ids : Buf (Elt F) (idsLoc0 d)) (fI : Buf (Elt F) ((sIW).view.loc (thr0 d L))) (c : Fin 16) (x : S100.Idx)
    (r : ℕ) (hr : r < 100) (hx : (x 0).val = r) :
    (offsP ![c.val, 0] (inbRow c)).view.read (Elt F) (View.write (Elt F) (sIW).view fI (idsPay d L ids) Finset.univ) x
      = ids (ix3 (a := 32) (b := 16) (c := 100) (wL0 L) c ⟨r, hr⟩) := by
  have hw : View.write (Elt F) (sIW).view fI (idsPay d L ids) Finset.univ = idsPay d L ids := View.write_whole_univ _ _ _
  rw [hw, View.read_apply]
  refine (cast_eq _ _).trans ?_
  unfold idsPay
  rw [View.read_apply]
  refine (cast_eq _ _).trans ?_
  refine congrArg ids ?_
  funext b; apply Fin.ext
  simp only [Memref.view_slice, Memref.view_whole, Memref.view_squeeze, View.emb_slice, View.emb_whole, View.emb_reshape,
    Function.Embedding.trans_apply, Function.Embedding.refl_apply, Equiv.coe_toEmbedding, Rect.emb_apply, rsh_100, rsh_16x100]
  show ((idsRect L).emb (Shape.reshapeEquiv _ ((Rect.unit (s := S16x100) ![c.val, 0] S1x100.size (inbRow c)).emb (Shape.reshapeEquiv _ x))) b).val = _
  rw [Rect.emb_apply, rsh_16x100, rsh_100]
  match b with
  | ⟨0, hb⟩ =>
    show (k0_off1 L) 0 + 1 * 0 = 16 * (L 0).val + (L 1).val
    rw [k0_off1_eq]; rfl
  | ⟨1, hb⟩ =>
    show (k0_off1 L) 1 + 1 * ((Rect.unit (s := S16x100) ![c.val, 0] S1x100.size (inbRow c)).emb (Shape.pair (d := ![1, 100]) (0 : Fin 1) (x 0)) 0).val = c.val
    rw [k0_off1_eq, Rect.emb_apply]
    show 0 + 1 * (c.val + 1 * 0) = c.val
    omega
  | ⟨2, hb⟩ =>
    show (k0_off1 L) 2 + 1 * ((Rect.unit (s := S16x100) ![c.val, 0] S1x100.size (inbRow c)).emb (Shape.pair (d := ![1, 100]) (0 : Fin 1) (x 0)) 1).val = r
    rw [k0_off1_eq, Rect.emb_apply]
    show 0 + 1 * (0 + 1 * (x 0).val) = r
    omega

omit [FloatOps F] in
/-- The row an offset list names for position `k`: the word at `k`, as a natural number. -/
theorem rows_val {o z : ℕ} (idx : S100.Idx → Elt F .i32) (hn : S100.numel = o) (h : ∀ x, (idx x).toNat < z) (k : Fin o) :
    (SparseCore.rows idx hn h k).val = (idx (S100.rowMajor.symm (k.cast hn.symm))).toNat := rfl

omit [FloatOps F] in
/-- The index of a list of 100 at row-major position `k` has coordinate `k`. -/
theorem symm_coord (k : Fin S100.numel) : ((S100.rowMajor.symm k) 0).val = k.val := by
  have h := Shape.rowMajor_val_one (d := ![100]) (S100.rowMajor.symm k)
  rw [Equiv.apply_symm_apply] at h
  exact h.symm

/-- What a gather over row `c` of the index scratch lands at `(r, q)`: lane `q` of the table's row named by the index
    array at `(w, c, r)`. -/
theorem gPay_apply (ids : Buf (Elt F) (idsLoc0 d)) (emb : Buf (Elt F) (embLoc d)) (fI : Buf (Elt F) ((sIW).view.loc (thr0 d L)))
    (hfi : IdxOK d L (View.write (Elt F) (sIW).view fI (idsPay d L ids) Finset.univ)) (c : Fin 16) (r q : ℕ) (hr : r < 100) (hq : q < 128) :
    Gat (gPay d L emb (View.write (Elt F) (sIW).view fI (idsPay d L ids) Finset.univ) hfi c) r q
      = embAt emb (show BitVec 32 from ids (ix3 (wL0 L) c ⟨r, hr⟩)).toNat ⟨q, hq⟩ := by
  unfold Gat gPay SparseCore.gatherPayload embAt
  rw [View.read_apply]
  refine (cast_eq _ _).trans (congrArg emb ?_)
  have hr' : r % 100 = r := Nat.mod_eq_of_lt hr
  have hq' : q % 128 = q := Nat.mod_eq_of_lt hq
  funext b; apply Fin.ext
  show ((Rect.unit (s := S100000x128) ![0, 0] S100000x128.size inb_S100000x128_S100000x128_0_0).emb (gathers_S100000x128_S100x128.idx _ _) b).val = _
  rw [Rect.emb_apply]
  match b with
  | ⟨1, hb⟩ =>
    show 0 + 1 * (gathers_S100000x128_S100x128.idx _ _ ⟨1, hb⟩).val = q
    rw [Shape.Gathers.idx_of_ne _ _ _ ⟨1, hb⟩ Nat.one_ne_zero]
    show 0 + 1 * (q % 128) = q
    omega
  | ⟨0, hb⟩ =>
    show 0 + 1 * (Shape.Gathers.idx gathers_S100000x128_S100x128 _ _ ⟨0, hb⟩).val = _
    unfold Shape.Gathers.idx
    rw [dif_pos rfl, Fin.val_cast]
    let k : Fin (S100x128.size gathers_S100000x128_S100x128.axis') :=
      (Shape.pair (d := ![100, 128]) ⟨r % 100, Nat.mod_lt _ (by decide)⟩ ⟨q % 128, Nat.mod_lt _ (by decide)⟩ : S100x128.Idx) gathers_S100000x128_S100x128.axis'
    let x : S100.Idx := S100.rowMajor.symm (Fin.cast (by rfl) k)
    have hx : (x 0).val = r := by
      show ((S100.rowMajor.symm (Fin.cast _ k)) 0).val = r
      rw [symm_coord]; exact hr'
    have hrd := offs_read d L ids fI c x r hr hx
    have hn := hfi ![c.val, 0] (inbRow c) x
    rw [hrd] at hn
    show 0 + 1 * BitVec.toNat ((offsP ![c.val, 0] (inbRow c)).view.read (Elt F) (View.write (Elt F) (sIW).view fI (idsPay d L ids) Finset.univ) x)
      = BitVec.toNat (ids (ix3 (wL0 L) c ⟨r, hr⟩)) % 100000
    rw [hrd, Nat.mod_eq_of_lt hn]; omega

end Tile0
end Cert.Proof.KB
end
-- ==== Proof.B.Val0B.lean ====
/-
  Reads and writes of sixteen-lane groups through the task's whole scratch buffers: a group read off a rows buffer or
  off the accumulator is the buffer's contents at the row and the sixteen columns the offsets name, and a group
  stored into the accumulator replaces those sixteen elements and leaves the others.
-/
import proofs.«204104_g71330816851969_cont_9to1_m_219_17_alg».proof.Proof.B.Tile0Defs
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Val0B

variable (d : Dev nD) (L : grid0.Coords)

/-- The index of the one-row, sixteen-column group under lane `lane`. -/
def laneIx (lane : S16.Idx) : S1x16.Idx :=
  Shape.pair (d := ![1, 16]) ⟨0, by decide⟩ ⟨(lane 0).val, (lane 0).isLt⟩

omit [FloatOps F] in
theorem laneIx_rowMajor (lane : S16.Idx) : (S1x16.rowMajor (laneIx lane)).val = (S16.rowMajor lane).val := by
  rw [Shape.rowMajor_val_two, Shape.rowMajor_val_one]
  show 0 * 16 + (lane 0).val = (lane 0).val
  omega

/-- A sixteen-lane group read off the first rows buffer at row `r`, columns `c0 …`. -/
theorem lane_read0 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR0W).view (Rect.unit (s := S100x128) off S1x16.size h).toLoadRect G) hsc
      = fun lane => Gat G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx lane) (laneIx_rowMajor lane), View.readAt_apply, View.read_apply]
  unfold Gat
  show G _ = G _
  congr 1
  funext a; apply Fin.ext
  match a with
  | 0 => show r + 1 * 0 = r % 100; omega
  | 1 => show c0 + 1 * (lane 0).val = (c0 + (lane 0).val) % 128; omega

/-- The same off the second rows buffer. -/
theorem lane_read1 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR1W).view (Rect.unit (s := S100x128) off S1x16.size h).toLoadRect G) hsc
      = fun lane => Gat G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx lane) (laneIx_rowMajor lane), View.readAt_apply, View.read_apply]
  unfold Gat
  show G _ = G _
  congr 1
  funext a; apply Fin.ext
  match a with
  | 0 => show r + 1 * 0 = r % 100; omega
  | 1 => show c0 + 1 * (lane 0).val = (c0 + (lane 0).val) % 128; omega

omit [FloatOps F] in
/-- A sixteen-lane group read off the accumulator at row `i`, columns `c0 …`, lane by lane. -/
theorem lane_readA (f : S32x128.Idx → Elt F .f32) (off : Fin 2 → ℕ) (h : ∀ a, off a + S1x16.size a ≤ S32x128.size a) (i c0 : ℕ)
    (hoff : off = ![i, c0]) (hsc : S1x16.ShapeCasts S16) (lane : S16.Idx) :
    shapeCast S16 (View.readAt (Elt F) (sAW).view (Rect.unit (s := S32x128) off S1x16.size h).toLoadRect f) hsc lane
      = f (Shape.pair (d := ![32, 128]) ⟨i % 32, Nat.mod_lt _ (by decide)⟩ ⟨(c0 + (lane 0).val) % 128, Nat.mod_lt _ (by decide)⟩) := by
  subst hoff
  have hr : i + 1 ≤ 32 := h 0
  have hc : c0 + 16 ≤ 128 := h 1
  have hl : (lane 0).val < 16 := (lane 0).isLt
  rw [shapeCast_apply _ hsc lane (laneIx lane) (laneIx_rowMajor lane), View.readAt_apply, View.read_apply]
  show f _ = f _
  congr 1
  funext a; apply Fin.ext
  match a with
  | 0 => show i + 1 * 0 = i % 32; omega
  | 1 => show c0 + 1 * (lane 0).val = (c0 + (lane 0).val) % 128; omega

omit [FloatOps F] in
/-- A sixteen-lane group stored into the accumulator at row `i`, columns `c0 …`, last of a run of stores: those sixteen
    elements are the group's lanes, every other element is what the earlier stores left. -/
theorem acc_piece_apply (f : S32x128.Idx → Elt F .f32) (off : Fin 2 → ℕ) (h : ∀ a, off a + S1x16.size a ≤ S32x128.size a) (i c0 : ℕ)
    (hoff : off = ![i, c0]) (v : FVec F S16 .f32) (hc : S16.ShapeCasts S1x16) (Lst : List (View.Piece (Elt F) S32x128 .f32)) (x : S32x128.Idx) :
    (sAW).view.writes (Elt F) f (⟨Rect.unit (s := S32x128) off S1x16.size h, shapeCast S1x16 v hc⟩ :: Lst) x
      = if (x 0).val = i ∧ c0 ≤ (x 1).val ∧ (x 1).val < c0 + 16
        then v (Shape.ofLane (d := ![16]) ⟨((x 1).val - c0) % 16, Nat.mod_lt _ (by decide)⟩)
        else (sAW).view.writes (Elt F) f Lst x := by
  subst hoff
  rw [View.writes_cons]
  by_cases hx : (x 0).val = i ∧ c0 ≤ (x 1).val ∧ (x 1).val < c0 + 16
  · rw [if_pos hx]
    obtain ⟨h0, h1, h2⟩ := hx
    -- the element's index within the group
    let y : S1x16.Idx := Shape.pair (d := ![1, 16]) ⟨0, by decide⟩ ⟨(x 1).val - c0, by show (x 1).val - c0 < 16; omega⟩
    have hxy : x = ((sAW).view.slice (Rect.unit (s := S32x128) ![i, c0] S1x16.size h)).emb y := by
      funext a; apply Fin.ext
      match a with
      | 0 => show (x 0).val = i + 1 * 0; omega
      | 1 => show (x 1).val = c0 + 1 * ((x 1).val - c0); omega
    conv_lhs => rw [hxy]
    rw [View.write_emb_of_mem _ _ (Finset.mem_univ _)]
    show shapeCast S1x16 v hc y = _
    rw [shapeCast_apply _ hc y (Shape.ofLane (d := ![16]) ⟨((x 1).val - c0) % 16, Nat.mod_lt _ (by decide)⟩)
      (by rw [Shape.rowMajor_val_two, Shape.rowMajor_val_one]
          show ((x 1).val - c0) % 16 = 0 * 16 + ((x 1).val - c0); omega)]
  · rw [if_neg hx]
    refine View.write_of_not_mem _ _ _ ?_
    rw [View.setOn_univ]
    show x ∉ ((View.whole cc0_scratch3 : View sig .scVector .vmem S32x128 .f32).slice (Rect.unit (s := S32x128) ![i, c0] S1x16.size h)).set
    rw [View.set_slice_whole, Rect.mem_set_unit]
    intro hm
    have m0 := hm 0; have m1 := hm 1
    apply hx
    have e0 : (![i, c0] : Fin 2 → ℕ) 0 = i := rfl
    have e1 : (![i, c0] : Fin 2 → ℕ) 1 = c0 := rfl
    have s0 : S1x16.size 0 = 1 := rfl
    have s1 : S1x16.size 1 = 16 := rfl
    rw [e0, s0] at m0; rw [e1, s1] at m1
    exact ⟨by omega, m1.1, m1.2⟩

end Val0B
end Cert.Proof.KB
end
-- ==== Proof.B.Val0C.lean ====
/-
  The accumulator after one row of sixteen-lane groups is stored: the rows below and the new row hold the pooled
  sums; and the lane sums over a rows buffer are the pooled sums once the buffer holds the gathered table rows.
-/
import proofs.«204104_g71330816851969_cont_9to1_m_219_17_alg».proof.Proof.B.Val0B
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Val0C

variable (d : Dev nD) (L : grid0.Coords)

/-- One stored group's element is the pooled sum there, when the group's lanes are. -/
theorem group_val (ids : S32x16x100.Idx → Elt F .i32) (emb : S100000x128.Idx → Elt F .f32) (w : Fin 32) (i : ℕ) (hi : i < 32)
    (c0 : ℕ) (hc0 : c0 + 16 ≤ 128) (a : FVec F S16 .f32)
    (ha : ∀ lane : S16.Idx, a lane = Spre ids emb w (Shape.pair (d := ![32, 128]) ⟨i % 32, Nat.mod_lt _ (by decide)⟩ ⟨(c0 + (lane 0).val) % 128, Nat.mod_lt _ (by decide)⟩))
    (x : S32x128.Idx) (hx0 : (x 0).val = i) (h1 : c0 ≤ (x 1).val) (h2 : (x 1).val < c0 + 16) :
    a (Shape.ofLane (d := ![16]) ⟨((x 1).val - c0) % 16, Nat.mod_lt _ (by decide)⟩) = Spre ids emb w x := by
  rw [ha]
  congr 1
  funext b; apply Fin.ext
  match b with
  | 0 => show i % 32 = (x 0).val; omega
  | 1 => show (c0 + ((x 1).val - c0) % 16) % 128 = (x 1).val; omega

/-- ONE ROW of the accumulator stored, eight groups, the last store first: the rows up to and including it hold the
    pooled sums. -/
theorem acc_row_ok (ids : S32x16x100.Idx → Elt F .i32) (emb : S100000x128.Idx → Elt F .f32) (w : Fin 32) (f : S32x128.Idx → Elt F .f32) (i : ℕ) (hi : i < 32)
    (o0 o1 o2 o3 o4 o5 o6 o7 : Fin 2 → ℕ)
    (h0 : ∀ a, o0 a + S1x16.size a ≤ S32x128.size a) (h1 : ∀ a, o1 a + S1x16.size a ≤ S32x128.size a)
    (h2 : ∀ a, o2 a + S1x16.size a ≤ S32x128.size a) (h3 : ∀ a, o3 a + S1x16.size a ≤ S32x128.size a)
    (h4 : ∀ a, o4 a + S1x16.size a ≤ S32x128.size a) (h5 : ∀ a, o5 a + S1x16.size a ≤ S32x128.size a)
    (h6 : ∀ a, o6 a + S1x16.size a ≤ S32x128.size a) (h7 : ∀ a, o7 a + S1x16.size a ≤ S32x128.size a)
    (e0 : o0 = ![i, 0]) (e1 : o1 = ![i, 16]) (e2 : o2 = ![i, 32]) (e3 : o3 = ![i, 48]) (e4 : o4 = ![i, 64]) (e5 : o5 = ![i, 80])
    (e6 : o6 = ![i, 96]) (e7 : o7 = ![i, 112])
    (a0 a1 a2 a3 a4 a5 a6 a7 : FVec F S16 .f32) (hc : S16.ShapeCasts S1x16)
    (hf : AccOK ids emb w i f)
    (ha0 : ∀ lane : S16.Idx, a0 lane = Spre ids emb w (Shape.pair (d := ![32, 128]) ⟨i % 32, Nat.mod_lt _ (by decide)⟩ ⟨(0 + (lane 0).val) % 128, Nat.mod_lt _ (by decide)⟩))
    (ha1 : ∀ lane : S16.Idx, a1 lane = Spre ids emb w (Shape.pair (d := ![32, 128]) ⟨i % 32, Nat.mod_lt _ (by decide)⟩ ⟨(16 + (lane 0).val) % 128, Nat.mod_lt _ (by decide)⟩))
    (ha2 : ∀ lane : S16.Idx, a2 lane = Spre ids emb w (Shape.pair (d := ![32, 128]) ⟨i % 32, Nat.mod_lt _ (by decide)⟩ ⟨(32 + (lane 0).val) % 128, Nat.mod_lt _ (by decide)⟩))
    (ha3 : ∀ lane : S16.Idx, a3 lane = Spre ids emb w (Shape.pair (d := ![32, 128]) ⟨i % 32, Nat.mod_lt _ (by decide)⟩ ⟨(48 + (lane 0).val) % 128, Nat.mod_lt _ (by decide)⟩))
    (ha4 : ∀ lane : S16.Idx, a4 lane = Spre ids emb w (Shape.pair (d := ![32, 128]) ⟨i % 32, Nat.mod_lt _ (by decide)⟩ ⟨(64 + (lane 0).val) % 128, Nat.mod_lt _ (by decide)⟩))
    (ha5 : ∀ lane : S16.Idx, a5 lane = Spre ids emb w (Shape.pair (d := ![32, 128]) ⟨i % 32, Nat.mod_lt _ (by decide)⟩ ⟨(80 + (lane 0).val) % 128, Nat.mod_lt _ (by decide)⟩))
    (ha6 : ∀ lane : S16.Idx, a6 lane = Spre ids emb w (Shape.pair (d := ![32, 128]) ⟨i % 32, Nat.mod_lt _ (by decide)⟩ ⟨(96 + (lane 0).val) % 128, Nat.mod_lt _ (by decide)⟩))
    (ha7 : ∀ lane : S16.Idx, a7 lane = Spre ids emb w (Shape.pair (d := ![32, 128]) ⟨i % 32, Nat.mod_lt _ (by decide)⟩ ⟨(112 + (lane 0).val) % 128, Nat.mod_lt _ (by decide)⟩)) :
    AccOK ids emb w (i + 1) ((sAW).view.writes (Elt F) f
      [⟨Rect.unit (s := S32x128) o7 S1x16.size h7, shapeCast S1x16 a7 hc⟩, ⟨Rect.unit (s := S32x128) o6 S1x16.size h6, shapeCast S1x16 a6 hc⟩,
       ⟨Rect.unit (s := S32x128) o5 S1x16.size h5, shapeCast S1x16 a5 hc⟩, ⟨Rect.unit (s := S32x128) o4 S1x16.size h4, shapeCast S1x16 a4 hc⟩,
       ⟨Rect.unit (s := S32x128) o3 S1x16.size h3, shapeCast S1x16 a3 hc⟩, ⟨Rect.unit (s := S32x128) o2 S1x16.size h2, shapeCast S1x16 a2 hc⟩,
       ⟨Rect.unit (s := S32x128) o1 S1x16.size h1, shapeCast S1x16 a1 hc⟩, ⟨Rect.unit (s := S32x128) o0 S1x16.size h0, shapeCast S1x16 a0 hc⟩]) := by
  intro x hx
  have hx1 : (x 1).val < 128 := (x 1).isLt
  rw [acc_piece_apply f o7 h7 i 112 e7, acc_piece_apply f o6 h6 i 96 e6, acc_piece_apply f o5 h5 i 80 e5, acc_piece_apply f o4 h4 i 64 e4,
    acc_piece_apply f o3 h3 i 48 e3, acc_piece_apply f o2 h2 i 32 e2, acc_piece_apply f o1 h1 i 16 e1, acc_piece_apply f o0 h0 i 0 e0, View.writes_nil]
  by_cases c7 : (x 0).val = i ∧ 112 ≤ (x 1).val ∧ (x 1).val < 112 + 16
  · rw [if_pos c7]; exact group_val ids emb w i hi 112 (by omega) a7 ha7 x c7.1 c7.2.1 c7.2.2
  rw [if_neg c7]
  by_cases c6 : (x 0).val = i ∧ 96 ≤ (x 1).val ∧ (x 1).val < 96 + 16
  · rw [if_pos c6]; exact group_val ids emb w i hi 96 (by omega) a6 ha6 x c6.1 c6.2.1 c6.2.2
  rw [if_neg c6]
  by_cases c5 : (x 0).val = i ∧ 80 ≤ (x 1).val ∧ (x 1).val < 80 + 16
  · rw [if_pos c5]; exact group_val ids emb w i hi 80 (by omega) a5 ha5 x c5.1 c5.2.1 c5.2.2
  rw [if_neg c5]
  by_cases c4 : (x 0).val = i ∧ 64 ≤ (x 1).val ∧ (x 1).val < 64 + 16
  · rw [if_pos c4]; exact group_val ids emb w i hi 64 (by omega) a4 ha4 x c4.1 c4.2.1 c4.2.2
  rw [if_neg c4]
  by_cases c3 : (x 0).val = i ∧ 48 ≤ (x 1).val ∧ (x 1).val < 48 + 16
  · rw [if_pos c3]; exact group_val ids emb w i hi 48 (by omega) a3 ha3 x c3.1 c3.2.1 c3.2.2
  rw [if_neg c3]
  by_cases c2 : (x 0).val = i ∧ 32 ≤ (x 1).val ∧ (x 1).val < 32 + 16
  · rw [if_pos c2]; exact group_val ids emb w i hi 32 (by omega) a2 ha2 x c2.1 c2.2.1 c2.2.2
  rw [if_neg c2]
  by_cases c1 : (x 0).val = i ∧ 16 ≤ (x 1).val ∧ (x 1).val < 16 + 16
  · rw [if_pos c1]; exact group_val ids emb w i hi 16 (by omega) a1 ha1 x c1.1 c1.2.1 c1.2.2
  rw [if_neg c1]
  by_cases c0 : (x 0).val = i ∧ 0 ≤ (x 1).val ∧ (x 1).val < 0 + 16
  · rw [if_pos c0]; exact group_val ids emb w i hi 0 (by omega) a0 ha0 x c0.1 c0.2.1 c0.2.2
  rw [if_neg c0]
  refine hf x ?_
  by_contra hge
  have hxi : (x 0).val = i := by omega
  have b7 : (x 1).val < 112 := by omega
  have b6 : (x 1).val < 96 := by omega
  have b5 : (x 1).val < 80 := by omega
  have b4 : (x 1).val < 64 := by omega
  have b3 : (x 1).val < 48 := by omega
  have b2 : (x 1).val < 32 := by omega
  have b1 : (x 1).val < 16 := by omega
  omega

/-- The lane sums over the fifty rows `50 b, …, 50 b + 49` of a rows buffer that holds the table rows chunk `c` of the
    index array names are the pooled sums of output row `2 c + b`. -/
theorem accV_Spre (G : S100x128.Idx → Elt F .f32) (ids : S32x16x100.Idx → Elt F .i32) (emb : S100000x128.Idx → Elt F .f32) (w : Fin 32) (c : Fin 16)
    (hG : ∀ (r q : ℕ) (hr : r < 100) (hq : q < 128), Gat G r q = embAt emb (show BitVec 32 from ids (ix3 w c ⟨r, hr⟩)).toNat ⟨q, hq⟩)
    (b : ℕ) (hb : b < 2) (j : ℕ) (hj : j < 8) (lane : S16.Idx) :
    accV G (50 * b) j 49 lane
      = Spre ids emb w (Shape.pair (d := ![32, 128]) ⟨(2 * c.val + b) % 32, Nat.mod_lt _ (by decide)⟩ ⟨(16 * j + (lane 0).val) % 128, Nat.mod_lt _ (by decide)⟩) := by
  have hl16 : (lane 0).val < 16 := (lane 0).isLt
  have hc : c.val < 16 := c.isLt
  unfold accV Spre
  refine lsum_congr _ _ 49 fun l hl => ?_
  rw [hG (50 * b + l) (16 * j + (lane 0).val) (by omega) (by omega)]
  unfold rowNo
  have e1 : (⟨16 * j + (lane 0).val, by omega⟩ : Fin 128)
      = (Shape.pair (d := ![32, 128]) ⟨(2 * c.val + b) % 32, Nat.mod_lt _ (by decide)⟩ ⟨(16 * j + (lane 0).val) % 128, Nat.mod_lt _ (by decide)⟩ : S32x128.Idx) 1 :=
    Fin.ext (by show 16 * j + (lane 0).val = (16 * j + (lane 0).val) % 128; omega)
  rw [e1]
  congr 3
  show ids _ = ids _
  refine congrArg ids (congrArg₂ (ix3 w) (Fin.ext ?_) (Fin.ext ?_))
  · show c.val = (2 * c.val + b) % 32 / 2; omega
  · show 50 * b + l = (2 * c.val + b) % 32 % 2 * 50 + l % 50; omega

end Val0C
end Cert.Proof.KB
end
-- ==== Proof.B.Tile0Val.lean ====
/-
  The values through the streams' loop of the first pooling call's task: the loop's invariant with the accumulator's
  finished rows at the pooled sums, and the steps that keep it.
-/
import proofs.«204104_g71330816851969_cont_9to1_m_219_17_alg».proof.Proof.B.Val0A
import proofs.«204104_g71330816851969_cont_9to1_m_219_17_alg».proof.Proof.B.Val0C

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile0

variable (d : Dev nD) (L : grid0.Coords)

/-! ### The values through the streams' loop -/

/-- The index scratch's contents once the first copy has landed the task's row of the index array over `fI`. -/
abbrev fiOf (ids : Buf (Elt F) (idsLoc0 d)) (fI : Buf (Elt F) ((sIW).view.loc (thr0 d L))) : Buf (Elt F) ((sIW).view.loc (thr0 d L)) :=
  View.write (Elt F) (sIW).view fI (idsPay d L ids) Finset.univ

/-- Before trip `k` of the streams' loop, with the values: as `outerInv`, the accumulator's rows below `4k` at the pooled sums. -/
def outerInvV (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2)) (k : ℕ) (_ : PUnit) : sProp 𝕄 :=
  iprop(Transfers.MayWaits (thr0 d L) (none : HIx 2) O
    ∗ semVal (c5 d L) 0
    ∗ (∃ f1, (sR1W).view.loc (thr0 d L) ↦{fullShare} f1)
    ∗ ((embW).view.loc (thr0 d L) ↦{q.right} emb)
    ∗ (∃ fA, ⌜AccOK ids emb (wL0 L) (4 * k) fA⌝ ∗ (sAW).view.loc (thr0 d L) ↦{fullShare} fA)
    ∗ (if k < 8 then iprop(flightC0 d L emb (fiOf d L ids fI) hfi (fin16 (2 * k)) q.left
          ∗ bigSep (Finset.univ.erase (fin16 (2 * k))) fun j => rowPts d L (fiOf d L ids fI) j)
       else iprop(semVal (c4 d L) 0 ∗ (∃ f0, (sR0W).view.loc (thr0 d L) ↦{fullShare} f0)
          ∗ ((sIW).view.loc (thr0 d L) ↦{fullShare} fiOf d L ids fI) ∗ ((embW).view.loc (thr0 d L) ↦{q.left} emb)))
    ∗ ∃ W', ⌜∀ p ∈ W', p ∈ W ∨ p.2 = none⌝ ∗ owes (thr0 d L) O W')

/-- After the last trip: everything the streams used is back, the accumulator at the pooled sums. -/
theorem outerInvV_exit (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2)) (u : PUnit) :
    outerInvV d L ids emb fI hfi q O W (Scf.trips k0_t1_loop.lb k0_t1_loop.ub k0_t1_loop.st) u
      ⊢ iprop(Transfers.MayWaits (thr0 d L) (none : HIx 2) O
          ∗ semVal (c5 d L) 0
          ∗ (∃ f1, (sR1W).view.loc (thr0 d L) ↦{fullShare} f1)
          ∗ ((embW).view.loc (thr0 d L) ↦{q.right} emb)
          ∗ (∃ fA, ⌜AccOK ids emb (wL0 L) 32 fA⌝ ∗ (sAW).view.loc (thr0 d L) ↦{fullShare} fA)
          ∗ (semVal (c4 d L) 0 ∗ (∃ f0, (sR0W).view.loc (thr0 d L) ↦{fullShare} f0)
              ∗ ((sIW).view.loc (thr0 d L) ↦{fullShare} fiOf d L ids fI) ∗ ((embW).view.loc (thr0 d L) ↦{q.left} emb))
          ∗ ∃ W', ⌜∀ p ∈ W', p ∈ W ∨ p.2 = none⌝ ∗ owes (thr0 d L) O W') := by
  unfold outerInvV
  rw [if_neg (by decide)]
  exact .rfl

omit [FloatOps F] in
theorem tuple8_eq {α : Type} {x0 x1 x2 x3 x4 x5 x6 x7 y0 y1 y2 y3 y4 y5 y6 y7 : α}
    (h0 : x0 = y0) (h1 : x1 = y1) (h2 : x2 = y2) (h3 : x3 = y3) (h4 : x4 = y4) (h5 : x5 = y5) (h6 : x6 = y6) (h7 : x7 = y7) :
    (x0, x1, x2, x3, x4, x5, x6, x7) = (y0, y1, y2, y3, y4, y5, y6, y7) := by
  subst h0 h1 h2 h3 h4 h5 h6 h7; rfl

/-- One more row of the first rows buffer added to a lane group. -/
theorem acc_step0 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV G base j t) (shapeCast S16 (View.readAt (Elt F) (sR0W).view (Rect.unit (s := S100x128) off S1x16.size h).toLoadRect G) hsc)
      = accV G base j (t + 1) := by
  rw [lane_read0 G off h r c0 hoff hsc]; subst hc; exact accV_succ G base j t r hr
/-- One more row of the second rows buffer added to a lane group. -/
theorem acc_step1 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV G base j t) (shapeCast S16 (View.readAt (Elt F) (sR1W).view (Rect.unit (s := S100x128) off S1x16.size h).toLoadRect G) hsc)
      = accV G base j (t + 1) := by
  rw [lane_read1 G off h r c0 hoff hsc]; subst hc; exact accV_succ G base j t r hr

/-- The first row of a block of a rows buffer, as a lane group's starting value. -/
theorem acc_init0 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR0W).view (Rect.unit (s := S100x128) off S1x16.size h).toLoadRect G) hsc = accV G base j 0 := by
  rw [lane_read0 G off h base c0 hoff hsc]; subst hc; rfl
theorem acc_init1 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR1W).view (Rect.unit (s := S100x128) off S1x16.size h).toLoadRect G) hsc = accV G base j 0 := by
  rw [lane_read1 G off h base c0 hoff hsc]; subst hc; rfl

theorem accOK_cast (ids : S32x16x100.Idx → Elt F .i32) (emb : S100000x128.Idx → Elt F .f32) (w : Fin 32) {n m : ℕ} (h : n = m)
    {f : S32x128.Idx → Elt F .f32} (hf : AccOK ids emb w n f) : AccOK ids emb w m f := h ▸ hf

/-- One row of the accumulator stored from the eight lane sums of a block of fifty gathered rows: the pooled sums there. -/
theorem acc_row_ok' (ids : Buf (Elt F) (idsLoc0 d)) (emb : Buf (Elt F) (embLoc d)) (fI : Buf (Elt F) ((sIW).view.loc (thr0 d L)))
    (hfi : IdxOK d L (fiOf d L ids fI)) (c : Fin 16) (b : ℕ) (hb : b < 2) (f : S32x128.Idx → Elt F .f32) (i : ℕ) (hi : i < 32) (hic : i = 2 * c.val + b)
    (o0 o1 o2 o3 o4 o5 o6 o7 : Fin 2 → ℕ)
    (h0 : ∀ a, o0 a + S1x16.size a ≤ S32x128.size a) (h1 : ∀ a, o1 a + S1x16.size a ≤ S32x128.size a) (h2 : ∀ a, o2 a + S1x16.size a ≤ S32x128.size a) (h3 : ∀ a, o3 a + S1x16.size a ≤ S32x128.size a) (h4 : ∀ a, o4 a + S1x16.size a ≤ S32x128.size a) (h5 : ∀ a, o5 a + S1x16.size a ≤ S32x128.size a) (h6 : ∀ a, o6 a + S1x16.size a ≤ S32x128.size a) (h7 : ∀ a, o7 a + S1x16.size a ≤ S32x128.size a)
    (e0 : o0 = ![i, 0]) (e1 : o1 = ![i, 16]) (e2 : o2 = ![i, 32]) (e3 : o3 = ![i, 48]) (e4 : o4 = ![i, 64]) (e5 : o5 = ![i, 80]) (e6 : o6 = ![i, 96]) (e7 : o7 = ![i, 112])
    (a0 a1 a2 a3 a4 a5 a6 a7 : FVec F S16 .f32) (hc : S16.ShapeCasts S1x16)
    (hf : AccOK ids emb (wL0 L) i f)
    (hacc : (a0, a1, a2, a3, a4, a5, a6, a7) = accs8 (gPay d L emb (fiOf d L ids fI) hfi c) (50 * b) 49) :
    AccOK ids emb (wL0 L) (i + 1) ((sAW).view.writes (Elt F) f
      [⟨Rect.unit (s := S32x128) o7 S1x16.size h7, shapeCast S1x16 a7 hc⟩, ⟨Rect.unit (s := S32x128) o6 S1x16.size h6, shapeCast S1x16 a6 hc⟩, ⟨Rect.unit (s := S32x128) o5 S1x16.size h5, shapeCast S1x16 a5 hc⟩, ⟨Rect.unit (s := S32x128) o4 S1x16.size h4, shapeCast S1x16 a4 hc⟩, ⟨Rect.unit (s := S32x128) o3 S1x16.size h3, shapeCast S1x16 a3 hc⟩, ⟨Rect.unit (s := S32x128) o2 S1x16.size h2, shapeCast S1x16 a2 hc⟩, ⟨Rect.unit (s := S32x128) o1 S1x16.size h1, shapeCast S1x16 a1 hc⟩, ⟨Rect.unit (s := S32x128) o0 S1x16.size h0, shapeCast S1x16 a0 hc⟩]) := by
  simp only [accs8, Prod.mk.injEq] at hacc
  obtain ⟨rfl, rfl, rfl, rfl, rfl, rfl, rfl, rfl⟩ := hacc
  subst hic
  have hG := fun (r q : ℕ) (hr : r < 100) (hq : q < 128) => gPay_apply d L ids emb fI hfi c r q hr hq
  exact acc_row_ok ids emb (wL0 L) f _ hi o0 o1 o2 o3 o4 o5 o6 o7 h0 h1 h2 h3 h4 h5 h6 h7 e0 e1 e2 e3 e4 e5 e6 e7 _ _ _ _ _ _ _ _ hc hf
    (fun lane => accV_Spre _ ids emb (wL0 L) c hG b hb 0 (by decide) lane)
    (fun lane => accV_Spre _ ids emb (wL0 L) c hG b hb 1 (by decide) lane)
    (fun lane => accV_Spre _ ids emb (wL0 L) c hG b hb 2 (by decide) lane)
    (fun lane => accV_Spre _ ids emb (wL0 L) c hG b hb 3 (by decide) lane)
    (fun lane => accV_Spre _ ids emb (wL0 L) c hG b hb 4 (by decide) lane)
    (fun lane => accV_Spre _ ids emb (wL0 L) c hG b hb 5 (by decide) lane)
    (fun lane => accV_Spre _ ids emb (wL0 L) c hG b hb 6 (by decide) lane)
    (fun lane => accV_Spre _ ids emb (wL0 L) c hG b hb 7 (by decide) lane)

/-- A gather into the first rows buffer issued over the row of the index scratch sliced at `off`, as the run leaves it in
    flight, is the invariant's gather of chunk `c` when `off` names row `c`. -/
theorem flight_canon (emb : Buf (Elt F) (embLoc d)) (fi : Buf (Elt F) ((sIW).view.loc (thr0 d L))) (hfi : IdxOK d L fi)
    (off : Fin 2 → Nat) (h : ∀ a, off a + S1x100.size a ≤ S16x100.size a) (c : Fin 16) (hoff : off = ![c.val, 0])
    (f0 : Buf (Elt F) ((sR0W).view.loc (thr0 d L))) (g : S100x128.Idx → Elt F .f32) (hg : g = gPay d L emb fi hfi c) (qe : PosShare TreeShare) :
    (Transfers.Flight countersEmb (thr0 d L) (SemLoc.dma cc0_scratch4.sem) default 409600
      iprop((((sR0W).view.loc (thr0 d L) ↦{fullShare} (sR0W).view.writes (Elt F) f0 [⟨Rect.whole S100x128, g⟩])
          ∗ ((offsP off h).view.loc (thr0 d L) ↦[(offsP off h).view.set]{fullShare} fi))
        ∗ ((embW).view.loc (thr0 d L) ↦[(embSl).view.set]{qe} emb)) : sProp 𝕄)
      ⊢ (Transfers.Flight countersEmb (thr0 d L) (SemLoc.dma cc0_scratch4.sem) default 409600
          iprop((((sR0W).view.loc (thr0 d L) ↦{fullShare} gPay d L emb fi hfi c) ∗ rowPts d L fi c)
            ∗ ((embW).view.loc (thr0 d L) ↦{qe} emb)) : sProp 𝕄) := by
  refine Transfers.Flight_mono countersEmb (thr0 d L) ?_
  subst hg
  have E : (sR0W).view.writes (Elt F) f0 [⟨Rect.whole S100x128, gPay d L emb fi hfi c⟩] = gPay d L emb fi hfi c :=
    whole_writes (F := F) cc0_scratch1 f0 _
  rw [pts_embSl, pts_offsP (F := F) d L off h c hoff fi, E]

end Tile0
end Cert.Proof.KB
end
-- ==== Proof.B.Tile0Trip.lean ====
/-
  The streams' loop of the first pooling call's task, with the values: one trip from the loop's invariant to the invariant
  at the next trip — the two chunks' rows summed lane group by lane group into four rows of the accumulator —, while a later
  chunk remains to be fetched and at the last trip.
-/
import proofs.«204104_g71330816851969_cont_9to1_m_219_17_alg».proof.Proof.B.Tile0Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile0

variable (d : Dev nD) (L : grid0.Coords)

theorem trip0 (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2))
    (k : Fin k0_t1_loop.trips) (hk7 : k.val < 7) (acc : PUnit) :
    outerInvV d L ids emb fI hfi q O W k.val acc
      ⊢ wp frame (wpE (defs₀ (F := F)) 𝒱₀ (thr0 d L) none) Set.univ
          (k0_t1_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 k acc)
          (outerInvV d L ids emb fI hfi q O W (k.val + 1)) := by
  have hk8 : k.val < 8 := by omega
  have hk8' : k.val + 1 < 8 := by omega
  have h1 : k0_cond1 k = 1#1 := by revert hk7; revert k; decide
  unfold outerInvV
  rw [if_pos hk8, if_pos hk8']
  unfold flightC0
  iintro ⟨Hmw, Hc5, ⟨%f1, HR1⟩, HeR, ⟨%fA, %hAcc, HA⟩, ⟨Hfl, Hrows⟩, %W', %hW', HO⟩
  have hm1 : fin16 (2 * k.val + 1) ∈ (Finset.univ : Finset (Fin 16)).erase (fin16 (2 * k.val)) :=
    Finset.mem_erase.mpr ⟨fun e => by have := congrArg Fin.val e; simp only [fin16] at this; omega, Finset.mem_univ _⟩
  ihave H1 := (Entails.of_eq (SparseCore.bigSep_erase' hm1)) $$ Hrows
  icases H1 with ⟨Hrow1, Hrows⟩
  have e1 : (2 * k.val + 1) % 16 = 2 * k.val + 1 := by omega
  have hoff1 : k0_off2 k = ![(fin16 (2 * k.val + 1)).val, 0] := by
    show k0_off2 k = ![(2 * k.val + 1) % 16, 0]
    rw [k0_off2_eq, e1]
  ihave Hrow1' := (Entails.of_eq (pts_offsP (F := F) d L (k0_off2 k) (k0_off2_inb k) _ hoff1 _).symm) $$ Hrow1
  have hm2 : fin16 (2 * (k.val + 1)) ∈ ((Finset.univ : Finset (Fin 16)).erase (fin16 (2 * k.val))).erase (fin16 (2 * k.val + 1)) :=
    Finset.mem_erase.mpr ⟨fun e => by have := congrArg Fin.val e; simp only [fin16] at this; omega,
      Finset.mem_erase.mpr ⟨fun e => by have := congrArg Fin.val e; simp only [fin16] at this; omega, Finset.mem_univ _⟩⟩
  ihave H2 := (Entails.of_eq (SparseCore.bigSep_erase' hm2)) $$ Hrows
  icases H2 with ⟨Hrow2, Hrows⟩
  have e2 : (2 * (k.val + 1)) % 16 = 2 * k.val + 2 := by omega
  have hoff2 : k0_off28 k = ![(fin16 (2 * (k.val + 1))).val, 0] := by
    show k0_off28 k = ![(2 * (k.val + 1)) % 16, 0]
    rw [k0_off28_eq, e2]
  ihave Hrow2' := (Entails.of_eq (pts_offsP (F := F) d L (k0_off28 k) (k0_off28_inb k h1) _ hoff2 _).symm) $$ Hrow2
  have hfi' : ∀ (row : Fin 2 → ℕ) (hk : ∀ a, row a + S1x100.size a ≤ S16x100.size a) (x : S100.Idx),
      (View.read (Elt F) (((Memref.whole cc0_scratch0 : Memref sig .scVector .vmem S16x100 .i32).slice (Rect.unit (s := S16x100) row S1x100.size hk) (fun _ => rfl)).squeeze S100 squeezes_S1x100_S100).view (fiOf d L ids fI) x).toNat < 100000 := hfi
  unfold k0_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 0 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 0 0 t.val _ _ _ _ (k0_off4_eq t) (by omega) rfl _)
        (acc_step0 (gPay d L emb (fiOf d L ids fI) hfi (fin16 (2 * k.val))) 0 1 t.val _ _ _ _ (k0_off5_eq t) (by omega) rfl _)
        (acc_step0 (gPay d L emb (fiOf d L ids fI) hfi (fin16 (2 * k.val))) 0 2 t.val _ _ _ _ (k0_off6_eq t) (by omega) rfl _)
        (acc_step0 (gPay d L emb (fiOf d L ids fI) hfi (fin16 (2 * k.val))) 0 3 t.val _ _ _ _ (k0_off7_eq t) (by omega) rfl _)
        (acc_step0 (gPay d L emb (fiOf d L ids fI) hfi (fin16 (2 * k.val))) 0 4 t.val _ _ _ _ (k0_off8_eq t) (by omega) rfl _)
        (acc_step0 (gPay d L emb (fiOf d L ids fI) hfi (fin16 (2 * k.val))) 0 5 t.val _ _ _ _ (k0_off9_eq t) (by omega) rfl _)
        (acc_step0 (gPay d L emb (fiOf d L ids fI) hfi (fin16 (2 * k.val))) 0 6 t.val _ _ _ _ (k0_off10_eq t) (by omega) rfl _)
        (acc_step0 (gPay d L emb (fiOf d L ids fI) hfi (fin16 (2 * k.val))) 0 7 t.val _ _ _ _ (k0_off11_eq t) (by omega) rfl _)
    · iexact HR
  · isplitr
    · ipureintro
      exact tuple8_eq
        (acc_init0 (gPay d L emb (fiOf d L ids fI) hfi (fin16 (2 * k.val))) 0 0 _ _ 0 rfl rfl _)
        (acc_init0 (gPay d L emb (fiOf d L ids fI) hfi (fin16 (2 * k.val))) 0 1 _ _ 16 rfl rfl _)
        (acc_init0 (gPay d L emb (fiOf d L ids fI) hfi (fin16 (2 * k.val))) 0 2 _ _ 32 rfl rfl _)
        (acc_init0 (gPay d L emb (fiOf d L ids fI) hfi (fin16 (2 * k.val))) 0 3 _ _ 48 rfl rfl _)
        (acc_init0 (gPay d L emb (fiOf d L ids fI) hfi (fin16 (2 * k.val))) 0 4 _ _ 64 rfl rfl _)
        (acc_init0 (gPay d L emb (fiOf d L ids fI) hfi (fin16 (2 * k.val))) 0 5 _ _ 80 rfl rfl _)
        (acc_init0 (gPay d L emb (fiOf d L ids fI) hfi (fin16 (2 * k.val))) 0 6 _ _ 96 rfl rfl _)
        (acc_init0 (gPay d L emb (fiOf d L ids fI) hfi (fin16 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 50 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 50 0 t.val _ _ _ _ (k0_off20_eq t) (by omega) rfl _)
        (acc_step0 (gPay d L emb (fiOf d L ids fI) hfi (fin16 (2 * k.val))) 50 1 t.val _ _ _ _ (k0_off21_eq t) (by omega) rfl _)
        (acc_step0 (gPay d L emb (fiOf d L ids fI) hfi (fin16 (2 * k.val))) 50 2 t.val _ _ _ _ (k0_off22_eq t) (by omega) rfl _)
        (acc_step0 (gPay d L emb (fiOf d L ids fI) hfi (fin16 (2 * k.val))) 50 3 t.val _ _ _ _ (k0_off23_eq t) (by omega) rfl _)
        (acc_step0 (gPay d L emb (fiOf d L ids fI) hfi (fin16 (2 * k.val))) 50 4 t.val _ _ _ _ (k0_off24_eq t) (by omega) rfl _)
        (acc_step0 (gPay d L emb (fiOf d L ids fI) hfi (fin16 (2 * k.val))) 50 5 t.val _ _ _ _ (k0_off25_eq t) (by omega) rfl _)
        (acc_step0 (gPay d L emb (fiOf d L ids fI) hfi (fin16 (2 * k.val))) 50 6 t.val _ _ _ _ (k0_off26_eq t) (by omega) rfl _)
        (acc_step0 (gPay d L emb (fiOf d L ids fI) hfi (fin16 (2 * k.val))) 50 7 t.val _ _ _ _ (k0_off27_eq t) (by omega) rfl _)
    · iexact HR
  · isplitr
    · ipureintro
      exact tuple8_eq
        (acc_init0 (gPay d L emb (fiOf d L ids fI) hfi (fin16 (2 * k.val))) 50 0 _ _ 0 rfl rfl _)
        (acc_init0 (gPay d L emb (fiOf d L ids fI) hfi (fin16 (2 * k.val))) 50 1 _ _ 16 rfl rfl _)
        (acc_init0 (gPay d L emb (fiOf d L ids fI) hfi (fin16 (2 * k.val))) 50 2 _ _ 32 rfl rfl _)
        (acc_init0 (gPay d L emb (fiOf d L ids fI) hfi (fin16 (2 * k.val))) 50 3 _ _ 48 rfl rfl _)
        (acc_init0 (gPay d L emb (fiOf d L ids fI) hfi (fin16 (2 * k.val))) 50 4 _ _ 64 rfl rfl _)
        (acc_init0 (gPay d L emb (fiOf d L ids fI) hfi (fin16 (2 * k.val))) 50 5 _ _ 80 rfl rfl _)
        (acc_init0 (gPay d L emb (fiOf d L ids fI) hfi (fin16 (2 * k.val))) 50 6 _ _ 96 rfl rfl _)
        (acc_init0 (gPay d L emb (fiOf d L ids fI) hfi (fin16 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W).view.writes (Elt F) f1 [⟨Rect.whole S100x128, trip0.sl.gather0 d L ids emb fI k hfi'⟩] = (gPay d L emb (fiOf d L ids fI) hfi (fin16 (2 * k.val + 1))) :=
    (whole_writes (F := F) cc0_scratch2 f1 _).trans (gPay_off (F := F) d L emb (fiOf d L ids fI) hfi (k0_off2 k) (k0_off2_inb k) _ hoff1 _ _)
  ihave HR1 := (Entails.of_eq (congrArg (fun f => ((sR1W).view.loc (thr0 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 0 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 0 0 t.val _ _ _ _ (k0_off29_eq t) (by omega) rfl _)
        (acc_step1 (gPay d L emb (fiOf d L ids fI) hfi (fin16 (2 * k.val + 1))) 0 1 t.val _ _ _ _ (k0_off30_eq t) (by omega) rfl _)
        (acc_step1 (gPay d L emb (fiOf d L ids fI) hfi (fin16 (2 * k.val + 1))) 0 2 t.val _ _ _ _ (k0_off31_eq t) (by omega) rfl _)
        (acc_step1 (gPay d L emb (fiOf d L ids fI) hfi (fin16 (2 * k.val + 1))) 0 3 t.val _ _ _ _ (k0_off32_eq t) (by omega) rfl _)
        (acc_step1 (gPay d L emb (fiOf d L ids fI) hfi (fin16 (2 * k.val + 1))) 0 4 t.val _ _ _ _ (k0_off33_eq t) (by omega) rfl _)
        (acc_step1 (gPay d L emb (fiOf d L ids fI) hfi (fin16 (2 * k.val + 1))) 0 5 t.val _ _ _ _ (k0_off34_eq t) (by omega) rfl _)
        (acc_step1 (gPay d L emb (fiOf d L ids fI) hfi (fin16 (2 * k.val + 1))) 0 6 t.val _ _ _ _ (k0_off35_eq t) (by omega) rfl _)
        (acc_step1 (gPay d L emb (fiOf d L ids fI) hfi (fin16 (2 * k.val + 1))) 0 7 t.val _ _ _ _ (k0_off36_eq t) (by omega) rfl _)
    · iexact HR
  · isplitr
    · ipureintro
      exact tuple8_eq
        (acc_init1 (gPay d L emb (fiOf d L ids fI) hfi (fin16 (2 * k.val + 1))) 0 0 _ _ 0 rfl rfl _)
        (acc_init1 (gPay d L emb (fiOf d L ids fI) hfi (fin16 (2 * k.val + 1))) 0 1 _ _ 16 rfl rfl _)
        (acc_init1 (gPay d L emb (fiOf d L ids fI) hfi (fin16 (2 * k.val + 1))) 0 2 _ _ 32 rfl rfl _)
        (acc_init1 (gPay d L emb (fiOf d L ids fI) hfi (fin16 (2 * k.val + 1))) 0 3 _ _ 48 rfl rfl _)
        (acc_init1 (gPay d L emb (fiOf d L ids fI) hfi (fin16 (2 * k.val + 1))) 0 4 _ _ 64 rfl rfl _)
        (acc_init1 (gPay d L emb (fiOf d L ids fI) hfi (fin16 (2 * k.val + 1))) 0 5 _ _ 80 rfl rfl _)
        (acc_init1 (gPay d L emb (fiOf d L ids fI) hfi (fin16 (2 * k.val + 1))) 0 6 _ _ 96 rfl rfl _)
        (acc_init1 (gPay d L emb (fiOf d L ids fI) hfi (fin16 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 50 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 50 0 t.val _ _ _ _ (k0_off45_eq t) (by omega) rfl _)
        (acc_step1 (gPay d L emb (fiOf d L ids fI) hfi (fin16 (2 * k.val + 1))) 50 1 t.val _ _ _ _ (k0_off46_eq t) (by omega) rfl _)
        (acc_step1 (gPay d L emb (fiOf d L ids fI) hfi (fin16 (2 * k.val + 1))) 50 2 t.val _ _ _ _ (k0_off47_eq t) (by omega) rfl _)
        (acc_step1 (gPay d L emb (fiOf d L ids fI) hfi (fin16 (2 * k.val + 1))) 50 3 t.val _ _ _ _ (k0_off48_eq t) (by omega) rfl _)
        (acc_step1 (gPay d L emb (fiOf d L ids fI) hfi (fin16 (2 * k.val + 1))) 50 4 t.val _ _ _ _ (k0_off49_eq t) (by omega) rfl _)
        (acc_step1 (gPay d L emb (fiOf d L ids fI) hfi (fin16 (2 * k.val + 1))) 50 5 t.val _ _ _ _ (k0_off50_eq t) (by omega) rfl _)
        (acc_step1 (gPay d L emb (fiOf d L ids fI) hfi (fin16 (2 * k.val + 1))) 50 6 t.val _ _ _ _ (k0_off51_eq t) (by omega) rfl _)
        (acc_step1 (gPay d L emb (fiOf d L ids fI) hfi (fin16 (2 * k.val + 1))) 50 7 t.val _ _ _ _ (k0_off52_eq t) (by omega) rfl _)
    · iexact HR
  · isplitr
    · ipureintro
      exact tuple8_eq
        (acc_init1 (gPay d L emb (fiOf d L ids fI) hfi (fin16 (2 * k.val + 1))) 50 0 _ _ 0 rfl rfl _)
        (acc_init1 (gPay d L emb (fiOf d L ids fI) hfi (fin16 (2 * k.val + 1))) 50 1 _ _ 16 rfl rfl _)
        (acc_init1 (gPay d L emb (fiOf d L ids fI) hfi (fin16 (2 * k.val + 1))) 50 2 _ _ 32 rfl rfl _)
        (acc_init1 (gPay d L emb (fiOf d L ids fI) hfi (fin16 (2 * k.val + 1))) 50 3 _ _ 48 rfl rfl _)
        (acc_init1 (gPay d L emb (fiOf d L ids fI) hfi (fin16 (2 * k.val + 1))) 50 4 _ _ 64 rfl rfl _)
        (acc_init1 (gPay d L emb (fiOf d L ids fI) hfi (fin16 (2 * k.val + 1))) 50 5 _ _ 80 rfl rfl _)
        (acc_init1 (gPay d L emb (fiOf d L ids fI) hfi (fin16 (2 * k.val + 1))) 50 6 _ _ 96 rfl rfl _)
        (acc_init1 (gPay d L emb (fiOf d L ids fI) hfi (fin16 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok' (F := F) d L ids emb fI hfi (fin16 (2 * k.val)) 0 (by decide) fA (4 * k.val + 0) (by omega) (by show 4 * k.val + 0 = 2 * ((2 * k.val) % 16) + 0; omega)
      _ _ _ _ _ _ _ _
      (k0_off12_inb k 0) (k0_off13_inb k 0) (k0_off14_inb k 0) (k0_off15_inb k 0) (k0_off16_inb k 0) (k0_off17_inb k 0) (k0_off18_inb k 0) (k0_off19_inb k 0)
      (show k0_off12 k 0#32 = ![4 * k.val + 0, 0] from k0_off12_eq k ⟨0, by decide⟩)
      (show k0_off13 k 0#32 = ![4 * k.val + 0, 16] from k0_off13_eq k ⟨0, by decide⟩)
      (show k0_off14 k 0#32 = ![4 * k.val + 0, 32] from k0_off14_eq k ⟨0, by decide⟩)
      (show k0_off15 k 0#32 = ![4 * k.val + 0, 48] from k0_off15_eq k ⟨0, by decide⟩)
      (show k0_off16 k 0#32 = ![4 * k.val + 0, 64] from k0_off16_eq k ⟨0, by decide⟩)
      (show k0_off17 k 0#32 = ![4 * k.val + 0, 80] from k0_off17_eq k ⟨0, by decide⟩)
      (show k0_off18 k 0#32 = ![4 * k.val + 0, 96] from k0_off18_eq k ⟨0, by decide⟩)
      (show k0_off19 k 0#32 = ![4 * k.val + 0, 112] from k0_off19_eq k ⟨0, by decide⟩)
      _ _ _ _ _ _ _ _ shapeCasts_S16_S1x16 hAcc hacc2
  have r1 := acc_row_ok' (F := F) d L ids emb fI hfi (fin16 (2 * k.val)) 1 (by decide) _ (4 * k.val + 1) (by omega) (by show 4 * k.val + 1 = 2 * ((2 * k.val) % 16) + 1; omega)
      _ _ _ _ _ _ _ _
      (k0_off12_inb k 1) (k0_off13_inb k 1) (k0_off14_inb k 1) (k0_off15_inb k 1) (k0_off16_inb k 1) (k0_off17_inb k 1) (k0_off18_inb k 1) (k0_off19_inb k 1)
      (show k0_off12 k 1#32 = ![4 * k.val + 1, 0] from k0_off12_eq k ⟨1, by decide⟩)
      (show k0_off13 k 1#32 = ![4 * k.val + 1, 16] from k0_off13_eq k ⟨1, by decide⟩)
      (show k0_off14 k 1#32 = ![4 * k.val + 1, 32] from k0_off14_eq k ⟨1, by decide⟩)
      (show k0_off15 k 1#32 = ![4 * k.val + 1, 48] from k0_off15_eq k ⟨1, by decide⟩)
      (show k0_off16 k 1#32 = ![4 * k.val + 1, 64] from k0_off16_eq k ⟨1, by decide⟩)
      (show k0_off17 k 1#32 = ![4 * k.val + 1, 80] from k0_off17_eq k ⟨1, by decide⟩)
      (show k0_off18 k 1#32 = ![4 * k.val + 1, 96] from k0_off18_eq k ⟨1, by decide⟩)
      (show k0_off19 k 1#32 = ![4 * k.val + 1, 112] from k0_off19_eq k ⟨1, by decide⟩)
      _ _ _ _ _ _ _ _ shapeCasts_S16_S1x16 r0 hacc3
  have r2 := acc_row_ok' (F := F) d L ids emb fI hfi (fin16 (2 * k.val + 1)) 0 (by decide) _ (4 * k.val + 0 + 2) (by omega) (by show 4 * k.val + 0 + 2 = 2 * ((2 * k.val + 1) % 16) + 0; omega)
      _ _ _ _ _ _ _ _
      (k0_off37_inb k 0) (k0_off38_inb k 0) (k0_off39_inb k 0) (k0_off40_inb k 0) (k0_off41_inb k 0) (k0_off42_inb k 0) (k0_off43_inb k 0) (k0_off44_inb k 0)
      (show k0_off37 k 0#32 = ![4 * k.val + 0 + 2, 0] from k0_off37_eq k ⟨0, by decide⟩)
      (show k0_off38 k 0#32 = ![4 * k.val + 0 + 2, 16] from k0_off38_eq k ⟨0, by decide⟩)
      (show k0_off39 k 0#32 = ![4 * k.val + 0 + 2, 32] from k0_off39_eq k ⟨0, by decide⟩)
      (show k0_off40 k 0#32 = ![4 * k.val + 0 + 2, 48] from k0_off40_eq k ⟨0, by decide⟩)
      (show k0_off41 k 0#32 = ![4 * k.val + 0 + 2, 64] from k0_off41_eq k ⟨0, by decide⟩)
      (show k0_off42 k 0#32 = ![4 * k.val + 0 + 2, 80] from k0_off42_eq k ⟨0, by decide⟩)
      (show k0_off43 k 0#32 = ![4 * k.val + 0 + 2, 96] from k0_off43_eq k ⟨0, by decide⟩)
      (show k0_off44 k 0#32 = ![4 * k.val + 0 + 2, 112] from k0_off44_eq k ⟨0, by decide⟩)
      _ _ _ _ _ _ _ _ shapeCasts_S16_S1x16 (accOK_cast ids emb (wL0 L) (by omega) r1) hacc4
  have r3 := acc_row_ok' (F := F) d L ids emb fI hfi (fin16 (2 * k.val + 1)) 1 (by decide) _ (4 * k.val + 1 + 2) (by omega) (by show 4 * k.val + 1 + 2 = 2 * ((2 * k.val + 1) % 16) + 1; omega)
      _ _ _ _ _ _ _ _
      (k0_off37_inb k 1) (k0_off38_inb k 1) (k0_off39_inb k 1) (k0_off40_inb k 1) (k0_off41_inb k 1) (k0_off42_inb k 1) (k0_off43_inb k 1) (k0_off44_inb k 1)
      (show k0_off37 k 1#32 = ![4 * k.val + 1 + 2, 0] from k0_off37_eq k ⟨1, by decide⟩)
      (show k0_off38 k 1#32 = ![4 * k.val + 1 + 2, 16] from k0_off38_eq k ⟨1, by decide⟩)
      (show k0_off39 k 1#32 = ![4 * k.val + 1 + 2, 32] from k0_off39_eq k ⟨1, by decide⟩)
      (show k0_off40 k 1#32 = ![4 * k.val + 1 + 2, 48] from k0_off40_eq k ⟨1, by decide⟩)
      (show k0_off41 k 1#32 = ![4 * k.val + 1 + 2, 64] from k0_off41_eq k ⟨1, by decide⟩)
      (show k0_off42 k 1#32 = ![4 * k.val + 1 + 2, 80] from k0_off42_eq k ⟨1, by decide⟩)
      (show k0_off43 k 1#32 = ![4 * k.val + 1 + 2, 96] from k0_off43_eq k ⟨1, by decide⟩)
      (show k0_off44 k 1#32 = ![4 * k.val + 1 + 2, 112] from k0_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl (F := F) d L _ _)); iexact HeR
  isplitl [HA]
  · iexists _; isplitr
    rotate_left
    · iexact HA
    · ipureintro; exact accOK_cast ids emb (wL0 L) (by omega) r3
  isplitl [Hfl Hrow0 Hrow1' Hrows]
  · isplitl [Hfl]
    · iapply (flight_canon (F := F) d L emb (fiOf d L ids fI) hfi (k0_off28 k) (k0_off28_inb k h1) _ hoff2 _ _ (gPay_off (F := F) d L emb (fiOf d L ids fI) hfi (k0_off28 k) (k0_off28_inb k h1) _ hoff2 _ _) _)
      iexact Hfl
    · iapply (rows_shift (F := F) d L (fiOf d L ids fI) (fin16 (2 * k.val)) (fin16 (2 * k.val + 1)) (fin16 (2 * (k.val + 1)))
        (fun e => by have := congrArg Fin.val e; simp only [fin16] at this; omega)
        (fun e => by have := congrArg Fin.val e; simp only [fin16] at this; omega)
        (fun e => by have := congrArg Fin.val e; simp only [fin16] at this; omega))
      isplitl [Hrow0]; · iexact Hrow0
      isplitl [Hrow1']; · iapply (Entails.of_eq (pts_offsP (F := F) d L (k0_off2 k) (k0_off2_inb k) _ hoff1 _)); iexact Hrow1'
      iexact Hrows
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

theorem trip0_last (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2))
    (k : Fin k0_t1_loop.trips) (hk7 : k.val = 7) (acc : PUnit) :
    outerInvV d L ids emb fI hfi q O W k.val acc
      ⊢ wp frame (wpE (defs₀ (F := F)) 𝒱₀ (thr0 d L) none) Set.univ
          (k0_t1_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 k acc)
          (outerInvV d L ids emb fI hfi q O W (k.val + 1)) := by
  have hk8 : k.val < 8 := by omega
  have hk8' : ¬ (k.val + 1 < 8) := by omega
  have h1 : ¬ k0_cond1 k = 1#1 := by revert hk7; revert k; decide
  unfold outerInvV
  rw [if_pos hk8, if_neg hk8']
  unfold flightC0
  iintro ⟨Hmw, Hc5, ⟨%f1, HR1⟩, HeR, ⟨%fA, %hAcc, HA⟩, ⟨Hfl, Hrows⟩, %W', %hW', HO⟩
  have hm1 : fin16 (2 * k.val + 1) ∈ (Finset.univ : Finset (Fin 16)).erase (fin16 (2 * k.val)) :=
    Finset.mem_erase.mpr ⟨fun e => by have := congrArg Fin.val e; simp only [fin16] at this; omega, Finset.mem_univ _⟩
  ihave H1 := (Entails.of_eq (SparseCore.bigSep_erase' hm1)) $$ Hrows
  icases H1 with ⟨Hrow1, Hrows⟩
  have e1 : (2 * k.val + 1) % 16 = 2 * k.val + 1 := by omega
  have hoff1 : k0_off2 k = ![(fin16 (2 * k.val + 1)).val, 0] := by
    show k0_off2 k = ![(2 * k.val + 1) % 16, 0]
    rw [k0_off2_eq, e1]
  ihave Hrow1' := (Entails.of_eq (pts_offsP (F := F) d L (k0_off2 k) (k0_off2_inb k) _ hoff1 _).symm) $$ Hrow1
  have hfi' : ∀ (row : Fin 2 → ℕ) (hk : ∀ a, row a + S1x100.size a ≤ S16x100.size a) (x : S100.Idx),
      (View.read (Elt F) (((Memref.whole cc0_scratch0 : Memref sig .scVector .vmem S16x100 .i32).slice (Rect.unit (s := S16x100) row S1x100.size hk) (fun _ => rfl)).squeeze S100 squeezes_S1x100_S100).view (fiOf d L ids fI) x).toNat < 100000 := hfi
  unfold k0_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 0 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 0 0 t.val _ _ _ _ (k0_off4_eq t) (by omega) rfl _)
        (acc_step0 (gPay d L emb (fiOf d L ids fI) hfi (fin16 (2 * k.val))) 0 1 t.val _ _ _ _ (k0_off5_eq t) (by omega) rfl _)
        (acc_step0 (gPay d L emb (fiOf d L ids fI) hfi (fin16 (2 * k.val))) 0 2 t.val _ _ _ _ (k0_off6_eq t) (by omega) rfl _)
        (acc_step0 (gPay d L emb (fiOf d L ids fI) hfi (fin16 (2 * k.val))) 0 3 t.val _ _ _ _ (k0_off7_eq t) (by omega) rfl _)
        (acc_step0 (gPay d L emb (fiOf d L ids fI) hfi (fin16 (2 * k.val))) 0 4 t.val _ _ _ _ (k0_off8_eq t) (by omega) rfl _)
        (acc_step0 (gPay d L emb (fiOf d L ids fI) hfi (fin16 (2 * k.val))) 0 5 t.val _ _ _ _ (k0_off9_eq t) (by omega) rfl _)
        (acc_step0 (gPay d L emb (fiOf d L ids fI) hfi (fin16 (2 * k.val))) 0 6 t.val _ _ _ _ (k0_off10_eq t) (by omega) rfl _)
        (acc_step0 (gPay d L emb (fiOf d L ids fI) hfi (fin16 (2 * k.val))) 0 7 t.val _ _ _ _ (k0_off11_eq t) (by omega) rfl _)
    · iexact HR
  · isplitr
    · ipureintro
      exact tuple8_eq
        (acc_init0 (gPay d L emb (fiOf d L ids fI) hfi (fin16 (2 * k.val))) 0 0 _ _ 0 rfl rfl _)
        (acc_init0 (gPay d L emb (fiOf d L ids fI) hfi (fin16 (2 * k.val))) 0 1 _ _ 16 rfl rfl _)
        (acc_init0 (gPay d L emb (fiOf d L ids fI) hfi (fin16 (2 * k.val))) 0 2 _ _ 32 rfl rfl _)
        (acc_init0 (gPay d L emb (fiOf d L ids fI) hfi (fin16 (2 * k.val))) 0 3 _ _ 48 rfl rfl _)
        (acc_init0 (gPay d L emb (fiOf d L ids fI) hfi (fin16 (2 * k.val))) 0 4 _ _ 64 rfl rfl _)
        (acc_init0 (gPay d L emb (fiOf d L ids fI) hfi (fin16 (2 * k.val))) 0 5 _ _ 80 rfl rfl _)
        (acc_init0 (gPay d L emb (fiOf d L ids fI) hfi (fin16 (2 * k.val))) 0 6 _ _ 96 rfl rfl _)
        (acc_init0 (gPay d L emb (fiOf d L ids fI) hfi (fin16 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val))) 50 t⌝ ∗ ((sR0W).view.loc (thr0 d L) ↦{fullShare} (gPay d L emb (fiOf d L ids fI) hfi (fin16 (2 * k.val))))) : sProp 𝕄)) $$ [HR0]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step0 (gPay d L emb (fiOf d L ids fI) hfi (fin16 (2 * k.val))) 50 0 t.val _ _ _ _ (k0_off20_eq t) (by omega) rfl _)
        (acc_step0 (gPay d L emb (fiOf d L ids fI) hfi (fin16 (2 * k.val))) 50 1 t.val _ _ _ _ (k0_off21_eq t) (by omega) rfl _)
        (acc_step0 (gPay d L emb (fiOf d L ids fI) hfi (fin16 (2 * k.val))) 50 2 t.val _ _ _ _ (k0_off22_eq t) (by omega) rfl _)
        (acc_step0 (gPay d L emb (fiOf d L ids fI) hfi (fin16 (2 * k.val))) 50 3 t.val _ _ _ _ (k0_off23_eq t) (by omega) rfl _)
        (acc_step0 (gPay d L emb (fiOf d L ids fI) hfi (fin16 (2 * k.val))) 50 4 t.val _ _ _ _ (k0_off24_eq t) (by omega) rfl _)
        (acc_step0 (gPay d L emb (fiOf d L ids fI) hfi (fin16 (2 * k.val))) 50 5 t.val _ _ _ _ (k0_off25_eq t) (by omega) rfl _)
        (acc_step0 (gPay d L emb (fiOf d L ids fI) hfi (fin16 (2 * k.val))) 50 6 t.val _ _ _ _ (k0_off26_eq t) (by omega) rfl _)
        (acc_step0 (gPay d L emb (fiOf d L ids fI) hfi (fin16 (2 * k.val))) 50 7 t.val _ _ _ _ (k0_off27_eq t) (by omega) rfl _)
    · iexact HR
  · isplitr
    · ipureintro
      exact tuple8_eq
        (acc_init0 (gPay d L emb (fiOf d L ids fI) hfi (fin16 (2 * k.val))) 50 0 _ _ 0 rfl rfl _)
        (acc_init0 (gPay d L emb (fiOf d L ids fI) hfi (fin16 (2 * k.val))) 50 1 _ _ 16 rfl rfl _)
        (acc_init0 (gPay d L emb (fiOf d L ids fI) hfi (fin16 (2 * k.val))) 50 2 _ _ 32 rfl rfl _)
        (acc_init0 (gPay d L emb (fiOf d L ids fI) hfi (fin16 (2 * k.val))) 50 3 _ _ 48 rfl rfl _)
        (acc_init0 (gPay d L emb (fiOf d L ids fI) hfi (fin16 (2 * k.val))) 50 4 _ _ 64 rfl rfl _)
        (acc_init0 (gPay d L emb (fiOf d L ids fI) hfi (fin16 (2 * k.val))) 50 5 _ _ 80 rfl rfl _)
        (acc_init0 (gPay d L emb (fiOf d L ids fI) hfi (fin16 (2 * k.val))) 50 6 _ _ 96 rfl rfl _)
        (acc_init0 (gPay d L emb (fiOf d L ids fI) hfi (fin16 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W).view.writes (Elt F) f1 [⟨Rect.whole S100x128, trip0_last.sl.gather0 d L ids emb fI k hfi'⟩] = (gPay d L emb (fiOf d L ids fI) hfi (fin16 (2 * k.val + 1))) :=
    (whole_writes (F := F) cc0_scratch2 f1 _).trans (gPay_off (F := F) d L emb (fiOf d L ids fI) hfi (k0_off2 k) (k0_off2_inb k) _ hoff1 _ _)
  ihave HR1 := (Entails.of_eq (congrArg (fun f => ((sR1W).view.loc (thr0 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 0 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 0 0 t.val _ _ _ _ (k0_off29_eq t) (by omega) rfl _)
        (acc_step1 (gPay d L emb (fiOf d L ids fI) hfi (fin16 (2 * k.val + 1))) 0 1 t.val _ _ _ _ (k0_off30_eq t) (by omega) rfl _)
        (acc_step1 (gPay d L emb (fiOf d L ids fI) hfi (fin16 (2 * k.val + 1))) 0 2 t.val _ _ _ _ (k0_off31_eq t) (by omega) rfl _)
        (acc_step1 (gPay d L emb (fiOf d L ids fI) hfi (fin16 (2 * k.val + 1))) 0 3 t.val _ _ _ _ (k0_off32_eq t) (by omega) rfl _)
        (acc_step1 (gPay d L emb (fiOf d L ids fI) hfi (fin16 (2 * k.val + 1))) 0 4 t.val _ _ _ _ (k0_off33_eq t) (by omega) rfl _)
        (acc_step1 (gPay d L emb (fiOf d L ids fI) hfi (fin16 (2 * k.val + 1))) 0 5 t.val _ _ _ _ (k0_off34_eq t) (by omega) rfl _)
        (acc_step1 (gPay d L emb (fiOf d L ids fI) hfi (fin16 (2 * k.val + 1))) 0 6 t.val _ _ _ _ (k0_off35_eq t) (by omega) rfl _)
        (acc_step1 (gPay d L emb (fiOf d L ids fI) hfi (fin16 (2 * k.val + 1))) 0 7 t.val _ _ _ _ (k0_off36_eq t) (by omega) rfl _)
    · iexact HR
  · isplitr
    · ipureintro
      exact tuple8_eq
        (acc_init1 (gPay d L emb (fiOf d L ids fI) hfi (fin16 (2 * k.val + 1))) 0 0 _ _ 0 rfl rfl _)
        (acc_init1 (gPay d L emb (fiOf d L ids fI) hfi (fin16 (2 * k.val + 1))) 0 1 _ _ 16 rfl rfl _)
        (acc_init1 (gPay d L emb (fiOf d L ids fI) hfi (fin16 (2 * k.val + 1))) 0 2 _ _ 32 rfl rfl _)
        (acc_init1 (gPay d L emb (fiOf d L ids fI) hfi (fin16 (2 * k.val + 1))) 0 3 _ _ 48 rfl rfl _)
        (acc_init1 (gPay d L emb (fiOf d L ids fI) hfi (fin16 (2 * k.val + 1))) 0 4 _ _ 64 rfl rfl _)
        (acc_init1 (gPay d L emb (fiOf d L ids fI) hfi (fin16 (2 * k.val + 1))) 0 5 _ _ 80 rfl rfl _)
        (acc_init1 (gPay d L emb (fiOf d L ids fI) hfi (fin16 (2 * k.val + 1))) 0 6 _ _ 96 rfl rfl _)
        (acc_init1 (gPay d L emb (fiOf d L ids fI) hfi (fin16 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8 (gPay d L emb (fiOf d L ids fI) hfi (fin16 (2 * k.val + 1))) 50 t⌝ ∗ ((sR1W).view.loc (thr0 d L) ↦{fullShare} (gPay d L emb (fiOf d L ids fI) hfi (fin16 (2 * k.val + 1))))) : sProp 𝕄)) $$ [HR1]
  case region =>
    intro t acc
    obtain ⟨a0, a1, a2, a3, a4, a5, a6, a7⟩ := acc
    iintro ⟨%hacc, HR⟩
    simp only [accs8, Prod.mk.injEq] at hacc
    obtain ⟨rfl, rfl, rfl, rfl, rfl, rfl, rfl, rfl⟩ := hacc
    sl_exec_parts
    sl_step
    isplitr
    · ipureintro
      exact tuple8_eq
        (acc_step1 (gPay d L emb (fiOf d L ids fI) hfi (fin16 (2 * k.val + 1))) 50 0 t.val _ _ _ _ (k0_off45_eq t) (by omega) rfl _)
        (acc_step1 (gPay d L emb (fiOf d L ids fI) hfi (fin16 (2 * k.val + 1))) 50 1 t.val _ _ _ _ (k0_off46_eq t) (by omega) rfl _)
        (acc_step1 (gPay d L emb (fiOf d L ids fI) hfi (fin16 (2 * k.val + 1))) 50 2 t.val _ _ _ _ (k0_off47_eq t) (by omega) rfl _)
        (acc_step1 (gPay d L emb (fiOf d L ids fI) hfi (fin16 (2 * k.val + 1))) 50 3 t.val _ _ _ _ (k0_off48_eq t) (by omega) rfl _)
        (acc_step1 (gPay d L emb (fiOf d L ids fI) hfi (fin16 (2 * k.val + 1))) 50 4 t.val _ _ _ _ (k0_off49_eq t) (by omega) rfl _)
        (acc_step1 (gPay d L emb (fiOf d L ids fI) hfi (fin16 (2 * k.val + 1))) 50 5 t.val _ _ _ _ (k0_off50_eq t) (by omega) rfl _)
        (acc_step1 (gPay d L emb (fiOf d L ids fI) hfi (fin16 (2 * k.val + 1))) 50 6 t.val _ _ _ _ (k0_off51_eq t) (by omega) rfl _)
        (acc_step1 (gPay d L emb (fiOf d L ids fI) hfi (fin16 (2 * k.val + 1))) 50 7 t.val _ _ _ _ (k0_off52_eq t) (by omega) rfl _)
    · iexact HR
  · isplitr
    · ipureintro
      exact tuple8_eq
        (acc_init1 (gPay d L emb (fiOf d L ids fI) hfi (fin16 (2 * k.val + 1))) 50 0 _ _ 0 rfl rfl _)
        (acc_init1 (gPay d L emb (fiOf d L ids fI) hfi (fin16 (2 * k.val + 1))) 50 1 _ _ 16 rfl rfl _)
        (acc_init1 (gPay d L emb (fiOf d L ids fI) hfi (fin16 (2 * k.val + 1))) 50 2 _ _ 32 rfl rfl _)
        (acc_init1 (gPay d L emb (fiOf d L ids fI) hfi (fin16 (2 * k.val + 1))) 50 3 _ _ 48 rfl rfl _)
        (acc_init1 (gPay d L emb (fiOf d L ids fI) hfi (fin16 (2 * k.val + 1))) 50 4 _ _ 64 rfl rfl _)
        (acc_init1 (gPay d L emb (fiOf d L ids fI) hfi (fin16 (2 * k.val + 1))) 50 5 _ _ 80 rfl rfl _)
        (acc_init1 (gPay d L emb (fiOf d L ids fI) hfi (fin16 (2 * k.val + 1))) 50 6 _ _ 96 rfl rfl _)
        (acc_init1 (gPay d L emb (fiOf d L ids fI) hfi (fin16 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok' (F := F) d L ids emb fI hfi (fin16 (2 * k.val)) 0 (by decide) fA (4 * k.val + 0) (by omega) (by show 4 * k.val + 0 = 2 * ((2 * k.val) % 16) + 0; omega)
      _ _ _ _ _ _ _ _
      (k0_off12_inb k 0) (k0_off13_inb k 0) (k0_off14_inb k 0) (k0_off15_inb k 0) (k0_off16_inb k 0) (k0_off17_inb k 0) (k0_off18_inb k 0) (k0_off19_inb k 0)
      (show k0_off12 k 0#32 = ![4 * k.val + 0, 0] from k0_off12_eq k ⟨0, by decide⟩)
      (show k0_off13 k 0#32 = ![4 * k.val + 0, 16] from k0_off13_eq k ⟨0, by decide⟩)
      (show k0_off14 k 0#32 = ![4 * k.val + 0, 32] from k0_off14_eq k ⟨0, by decide⟩)
      (show k0_off15 k 0#32 = ![4 * k.val + 0, 48] from k0_off15_eq k ⟨0, by decide⟩)
      (show k0_off16 k 0#32 = ![4 * k.val + 0, 64] from k0_off16_eq k ⟨0, by decide⟩)
      (show k0_off17 k 0#32 = ![4 * k.val + 0, 80] from k0_off17_eq k ⟨0, by decide⟩)
      (show k0_off18 k 0#32 = ![4 * k.val + 0, 96] from k0_off18_eq k ⟨0, by decide⟩)
      (show k0_off19 k 0#32 = ![4 * k.val + 0, 112] from k0_off19_eq k ⟨0, by decide⟩)
      _ _ _ _ _ _ _ _ shapeCasts_S16_S1x16 hAcc hacc2
  have r1 := acc_row_ok' (F := F) d L ids emb fI hfi (fin16 (2 * k.val)) 1 (by decide) _ (4 * k.val + 1) (by omega) (by show 4 * k.val + 1 = 2 * ((2 * k.val) % 16) + 1; omega)
      _ _ _ _ _ _ _ _
      (k0_off12_inb k 1) (k0_off13_inb k 1) (k0_off14_inb k 1) (k0_off15_inb k 1) (k0_off16_inb k 1) (k0_off17_inb k 1) (k0_off18_inb k 1) (k0_off19_inb k 1)
      (show k0_off12 k 1#32 = ![4 * k.val + 1, 0] from k0_off12_eq k ⟨1, by decide⟩)
      (show k0_off13 k 1#32 = ![4 * k.val + 1, 16] from k0_off13_eq k ⟨1, by decide⟩)
      (show k0_off14 k 1#32 = ![4 * k.val + 1, 32] from k0_off14_eq k ⟨1, by decide⟩)
      (show k0_off15 k 1#32 = ![4 * k.val + 1, 48] from k0_off15_eq k ⟨1, by decide⟩)
      (show k0_off16 k 1#32 = ![4 * k.val + 1, 64] from k0_off16_eq k ⟨1, by decide⟩)
      (show k0_off17 k 1#32 = ![4 * k.val + 1, 80] from k0_off17_eq k ⟨1, by decide⟩)
      (show k0_off18 k 1#32 = ![4 * k.val + 1, 96] from k0_off18_eq k ⟨1, by decide⟩)
      (show k0_off19 k 1#32 = ![4 * k.val + 1, 112] from k0_off19_eq k ⟨1, by decide⟩)
      _ _ _ _ _ _ _ _ shapeCasts_S16_S1x16 r0 hacc3
  have r2 := acc_row_ok' (F := F) d L ids emb fI hfi (fin16 (2 * k.val + 1)) 0 (by decide) _ (4 * k.val + 0 + 2) (by omega) (by show 4 * k.val + 0 + 2 = 2 * ((2 * k.val + 1) % 16) + 0; omega)
      _ _ _ _ _ _ _ _
      (k0_off37_inb k 0) (k0_off38_inb k 0) (k0_off39_inb k 0) (k0_off40_inb k 0) (k0_off41_inb k 0) (k0_off42_inb k 0) (k0_off43_inb k 0) (k0_off44_inb k 0)
      (show k0_off37 k 0#32 = ![4 * k.val + 0 + 2, 0] from k0_off37_eq k ⟨0, by decide⟩)
      (show k0_off38 k 0#32 = ![4 * k.val + 0 + 2, 16] from k0_off38_eq k ⟨0, by decide⟩)
      (show k0_off39 k 0#32 = ![4 * k.val + 0 + 2, 32] from k0_off39_eq k ⟨0, by decide⟩)
      (show k0_off40 k 0#32 = ![4 * k.val + 0 + 2, 48] from k0_off40_eq k ⟨0, by decide⟩)
      (show k0_off41 k 0#32 = ![4 * k.val + 0 + 2, 64] from k0_off41_eq k ⟨0, by decide⟩)
      (show k0_off42 k 0#32 = ![4 * k.val + 0 + 2, 80] from k0_off42_eq k ⟨0, by decide⟩)
      (show k0_off43 k 0#32 = ![4 * k.val + 0 + 2, 96] from k0_off43_eq k ⟨0, by decide⟩)
      (show k0_off44 k 0#32 = ![4 * k.val + 0 + 2, 112] from k0_off44_eq k ⟨0, by decide⟩)
      _ _ _ _ _ _ _ _ shapeCasts_S16_S1x16 (accOK_cast ids emb (wL0 L) (by omega) r1) hacc4
  have r3 := acc_row_ok' (F := F) d L ids emb fI hfi (fin16 (2 * k.val + 1)) 1 (by decide) _ (4 * k.val + 1 + 2) (by omega) (by show 4 * k.val + 1 + 2 = 2 * ((2 * k.val + 1) % 16) + 1; omega)
      _ _ _ _ _ _ _ _
      (k0_off37_inb k 1) (k0_off38_inb k 1) (k0_off39_inb k 1) (k0_off40_inb k 1) (k0_off41_inb k 1) (k0_off42_inb k 1) (k0_off43_inb k 1) (k0_off44_inb k 1)
      (show k0_off37 k 1#32 = ![4 * k.val + 1 + 2, 0] from k0_off37_eq k ⟨1, by decide⟩)
      (show k0_off38 k 1#32 = ![4 * k.val + 1 + 2, 16] from k0_off38_eq k ⟨1, by decide⟩)
      (show k0_off39 k 1#32 = ![4 * k.val + 1 + 2, 32] from k0_off39_eq k ⟨1, by decide⟩)
      (show k0_off40 k 1#32 = ![4 * k.val + 1 + 2, 48] from k0_off40_eq k ⟨1, by decide⟩)
      (show k0_off41 k 1#32 = ![4 * k.val + 1 + 2, 64] from k0_off41_eq k ⟨1, by decide⟩)
      (show k0_off42 k 1#32 = ![4 * k.val + 1 + 2, 80] from k0_off42_eq k ⟨1, by decide⟩)
      (show k0_off43 k 1#32 = ![4 * k.val + 1 + 2, 96] from k0_off43_eq k ⟨1, by decide⟩)
      (show k0_off44 k 1#32 = ![4 * k.val + 1 + 2, 112] from k0_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl (F := F) d L _ _)); iexact HeR
  isplitl [HA]
  · iexists _; isplitr
    rotate_left
    · iexact HA
    · ipureintro; exact accOK_cast ids emb (wL0 L) (by omega) r3
  isplitl [Hfl HR0 Hfl_src Hrow0 Hrow1' Hrows]
  · isplitl [Hfl]; · iexact Hfl
    isplitl [HR0]; · iexists _; iexact HR0
    isplitr [Hfl_src]
    · iapply (rows_all (F := F) d L (fiOf d L ids fI) (fin16 (2 * k.val)) (fin16 (2 * k.val + 1))
        (fun e => by have := congrArg Fin.val e; simp only [fin16] at this; omega))
      isplitl [Hrow0]; · iexact Hrow0
      isplitl [Hrow1']; · iapply (Entails.of_eq (pts_offsP (F := F) d L (k0_off2 k) (k0_off2_inb k) _ hoff1 _)); iexact Hrow1'
      iexact Hrows
    · iexact Hfl_src
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

/-- One trip of the streams' loop, whichever it is. -/
theorem trip0_all (ids : Buf (Elt F) (idsLoc0 d)) (emb : Buf (Elt F) (embLoc d)) (fI : Buf (Elt F) ((sIW).view.loc (thr0 d L)))
    (hfi : IdxOK d L (fiOf d L ids fI))
    (q : PosShare TreeShare) (O : CellTallies nD τ sig (HIx 2)) (W : Waits sig (HIx 2))
    (k : Fin k0_t1_loop.trips) (acc : PUnit) :
    outerInvV d L ids emb fI hfi q O W k.val acc
      ⊢ wp frame (wpE (defs₀ (F := F)) 𝒱₀ (thr0 d L) none) Set.univ
          (k0_t1_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 k acc)
          (outerInvV d L ids emb fI hfi q O W (k.val + 1)) := by
  by_cases hk : k.val < 7
  · exact trip0 d L ids emb fI hfi q O W k hk acc
  · exact trip0_last d L ids emb fI hfi q O W k (by have := k.isLt; change _ < 8 at this; omega) acc

end Tile0
end Cert.Proof.KB
end
-- ==== Proof.B.Act0.lean ====
/-
  The activation loop of a pooling task: trip `k` replaces row `k` of the accumulator, lane group by lane group, by the
  clamp at zero of its product with the scale; so before trip `k` the rows below `k` are activated and the others
  still hold the pooled sums.
-/
import proofs.«204104_g71330816851969_cont_9to1_m_219_17_alg».proof.Proof.B.Tile0Defs
import proofs.«204104_g71330816851969_cont_9to1_m_219_17_alg».proof.Proof.B.Val0B

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

section Tile0
variable (d : Dev nD) (L : grid0.Coords)

/-- Lane `lane` of the activated group read at row `i`, columns `c0 …`: the clamp of the scaled element. -/
theorem act_val (f : S32x128.Idx → Elt F .f32) (off : Fin 2 → ℕ) (h : ∀ a, off a + S1x16.size a ≤ S32x128.size a) (i c0 : ℕ)
    (hoff : off = ![i, c0]) (lane : S16.Idx) :
    (maximumf (mulf (shapeCast S16 (View.readAt (Elt F) (sAW).view (Rect.unit (s := S32x128) off S1x16.size h).toLoadRect f) shapeCasts_S1x16_S16)
        (k0_pay106 (F := F))) (k0_pay107 (F := F))) lane
      = FloatOps.maximumf (FloatOps.mulf (f (Shape.pair (d := ![32, 128]) ⟨i % 32, Nat.mod_lt _ (by decide)⟩ ⟨(c0 + (lane 0).val) % 128, Nat.mod_lt _ (by decide)⟩)) inv0) zero0 := by
  show FloatOps.maximumf (FloatOps.mulf (shapeCast S16 (View.readAt (Elt F) (sAW).view (Rect.unit (s := S32x128) off S1x16.size h).toLoadRect f) shapeCasts_S1x16_S16 lane)
    (k0_pay106 (F := F) lane)) (k0_pay107 (F := F) lane) = _
  rw [lane_readA f off h i c0 hoff]
  rfl

/-- The piece one lane group's activation stores. -/
def actPiece (f : S32x128.Idx → Elt F .f32) (off : Fin 2 → ℕ) (h : ∀ a, off a + S1x16.size a ≤ S32x128.size a) : View.Piece (Elt F) S32x128 .f32 :=
  ⟨Rect.unit (s := S32x128) off S1x16.size h,
    shapeCast S1x16 (maximumf (mulf (shapeCast S16 (View.readAt (Elt F) (sAW).view (Rect.unit (s := S32x128) off S1x16.size h).toLoadRect f) shapeCasts_S1x16_S16)
      (k0_pay106 (F := F))) (k0_pay107 (F := F))) shapeCasts_S16_S1x16⟩

/-- The accumulator after one more activated group: inside the group the clamp of the scaled element of `f`, outside
    what was there. -/
theorem writes_actPiece (g f : S32x128.Idx → Elt F .f32) (off : Fin 2 → ℕ) (h : ∀ a, off a + S1x16.size a ≤ S32x128.size a) (i c0 : ℕ)
    (hoff : off = ![i, c0]) (hi : i < 32) (hc : c0 + 16 ≤ 128) (Lst : List (View.Piece (Elt F) S32x128 .f32)) (x : S32x128.Idx) :
    (sAW).view.writes (Elt F) g (actPiece f off h :: Lst) x
      = if (x 0).val = i ∧ c0 ≤ (x 1).val ∧ (x 1).val < c0 + 16 then FloatOps.maximumf (FloatOps.mulf (f x) inv0) zero0
        else (sAW).view.writes (Elt F) g Lst x := by
  unfold actPiece
  rw [acc_piece_apply g off h i c0 hoff]
  by_cases hx : (x 0).val = i ∧ c0 ≤ (x 1).val ∧ (x 1).val < c0 + 16
  · rw [if_pos hx, if_pos hx, act_val f off h i c0 hoff]
    obtain ⟨h0, h1, h2⟩ := hx
    refine congrArg (fun t => FloatOps.maximumf (FloatOps.mulf (f t) inv0) zero0) ?_
    funext b; apply Fin.ext
    match b with
    | ⟨0, _⟩ => show i % 32 = (x 0).val; omega
    | ⟨1, _⟩ =>
      show (c0 + ((x 1).val - c0) % 16) % 128 = (x 1).val
      have hlt : (x 1).val < 128 := (x 1).isLt
      omega
  · rw [if_neg hx, if_neg hx]

/-- With no row activated yet the accumulator holds the pooled sums. -/
theorem actOK_zero (inv zero : F .f32) (ids : S32x16x100.Idx → Elt F .i32) (emb : S100000x128.Idx → Elt F .f32) (w : Fin 32)
    (fA : S32x128.Idx → Elt F .f32) (h : AccOK ids emb w 32 fA) : ActOK inv zero ids emb w 0 fA := by
  intro x
  rw [if_neg (Nat.not_lt_zero _)]
  exact h x (x 0).isLt

/-- One trip's eight stores take the accumulator from "rows below `k` activated" to "rows below `k + 1`". -/
theorem actOK_succ (ids : S32x16x100.Idx → Elt F .i32) (emb : S100000x128.Idx → Elt F .f32) (k : Fin k0_t6_loop.trips)
    (f : S32x128.Idx → Elt F .f32) (hf : ActOK inv0 zero0 ids emb (wL0 L) k.val f) :
    ActOK inv0 zero0 ids emb (wL0 L) (k.val + 1) ((sAW).view.writes (Elt F) f
      [actPiece f (k0_off60 k) (k0_off60_inb k), actPiece f (k0_off59 k) (k0_off59_inb k), actPiece f (k0_off58 k) (k0_off58_inb k),
       actPiece f (k0_off57 k) (k0_off57_inb k), actPiece f (k0_off56 k) (k0_off56_inb k), actPiece f (k0_off55 k) (k0_off55_inb k),
       actPiece f (k0_off54 k) (k0_off54_inb k), actPiece f (k0_off53 k) (k0_off53_inb k)]) := by
  have hk : k.val < 32 := k.isLt
  intro x
  have hx1 : (x 1).val < 128 := (x 1).isLt
  rw [writes_actPiece f f _ _ k.val 112 (k0_off60_eq k) hk (by omega), writes_actPiece f f _ _ k.val 96 (k0_off59_eq k) hk (by omega),
    writes_actPiece f f _ _ k.val 80 (k0_off58_eq k) hk (by omega), writes_actPiece f f _ _ k.val 64 (k0_off57_eq k) hk (by omega),
    writes_actPiece f f _ _ k.val 48 (k0_off56_eq k) hk (by omega), writes_actPiece f f _ _ k.val 32 (k0_off55_eq k) hk (by omega),
    writes_actPiece f f _ _ k.val 16 (k0_off54_eq k) hk (by omega), writes_actPiece f f _ _ k.val 0 (k0_off53_eq k) hk (by omega),
    View.writes_nil]
  have hfx := hf x
  by_cases h0 : (x 0).val = k.val
  · have hnk : ¬ (x 0).val < k.val := by omega
    rw [if_neg hnk] at hfx
    rw [if_pos (by omega : (x 0).val < k.val + 1), hfx]
    split_ifs <;> first | rfl | (exfalso; omega)
  · have hne : ∀ c0 : ℕ, ¬ ((x 0).val = k.val ∧ c0 ≤ (x 1).val ∧ (x 1).val < c0 + 16) := fun c0 h => h0 h.1
    rw [if_neg (hne 112), if_neg (hne 96), if_neg (hne 80), if_neg (hne 64), if_neg (hne 48), if_neg (hne 32), if_neg (hne 16), if_neg (hne 0)]
    by_cases hlt : (x 0).val < k.val
    · rw [if_pos hlt] at hfx
      rw [if_pos (by omega : (x 0).val < k.val + 1), hfx]
    · rw [if_neg hlt] at hfx
      rw [if_neg (by omega : ¬ (x 0).val < k.val + 1), hfx]

/-- Before trip `n` of the activation loop the accumulator's rows below `n` hold the activated values, the others
    the pooled sums. -/
def actInv (ids : S32x16x100.Idx → Elt F .i32) (emb : S100000x128.Idx → Elt F .f32) (n : ℕ) (_ : PUnit) : sProp 𝕄 :=
  iprop(∃ fA, ⌜ActOK inv0 zero0 ids emb (wL0 L) n fA⌝ ∗ (sAW).view.loc (thr0 d L) ↦{fullShare} fA)

theorem act_trip0 (ids : S32x16x100.Idx → Elt F .i32) (emb : S100000x128.Idx → Elt F .f32) (t : Fin k0_t6_loop.trips) (u : PUnit) :
    actInv d L ids emb t.val u
      ⊢ wp frame (wpE (defs₀ (F := F)) 𝒱₀ (thr0 d L) none) Set.univ
          (k0_t6_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 t u)
          (actInv d L ids emb (t.val + 1)) := by
  unfold actInv
  iintro ⟨%f, %hf, HA⟩
  unfold k0_t6_body
  sl_exec_parts
  sl_step
  iexists _
  isplitr
  · ipureintro
    exact actOK_succ L ids emb t f hf
  · iexact HA

end Tile0
end Cert.Proof.KB
end
-- ==== Proof.B.Val0D.lean ====
/-
  The copy-out's value: the task's row of the result array, once the accumulator — every row activated — has been
  copied into it, holds the pooled, scaled and clamped values the call's result function names there.
-/
import proofs.«204104_g71330816851969_cont_9to1_m_219_17_alg».proof.Proof.B.Val0C
import Idealize.ShloMosaic.Rules.PointsTo
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Val0D

variable (d : Dev nD) (L : grid0.Coords)

/-- The pooled value depends on the task, the row and the lane as numbers only. -/
theorem poolAt_congr {nch : ℕ} (inv zero : F .f32) (ids : (⟨3, ![32, nch, 100]⟩ : Shape).Idx → Elt F .i32) (emb : S100000x128.Idx → Elt F .f32)
    (w w' : Fin 32) (i i' : ℕ) (hi : i / 2 < nch) (hi' : i' / 2 < nch) (q q' : Fin 128) (hw : w = w') (hii : i = i') (hq : q = q') :
    poolAt inv zero ids emb w i hi q = poolAt inv zero ids emb w' i' hi' q' := by
  subst hw hii hq; rfl

omit [FloatOps F] in
/-- Where element `y` of the task's row of the result array sits in the array: at the task's number, then `y`. -/
theorem emb_outRowK (y : S32x128.Idx) :
    (((outRowK L).view.emb y : S32x32x128.Idx) 0).val = (wL0 L).val ∧ (((outRowK L).view.emb y : S32x32x128.Idx) 1).val = (y 0).val
      ∧ (((outRowK L).view.emb y : S32x32x128.Idx) 2).val = (y 1).val := by
  have he : ((outRowK L).view.emb y : S32x32x128.Idx)
      = (outRect L).emb (Shape.reshapeEquiv squeezes_S1x32x128_S32x128.numel_eq y) := rfl
  rw [he, Shape.reshapeEquiv_cons_one]
  refine ⟨?_, ?_, ?_⟩
  · rw [Rect.emb_apply]; show k0_off61 L 0 + 1 * 0 = _; rw [k0_off61_eq]; show 16 * (L 0).val + (L 1).val + 1 * 0 = 16 * (L 0).val + (L 1).val; omega
  · rw [Rect.emb_apply]; show k0_off61 L 1 + 1 * (y 0).val = _; rw [k0_off61_eq]; show 0 + 1 * (y 0).val = (y 0).val; omega
  · rw [Rect.emb_apply]; show k0_off61 L 2 + 1 * (y 1).val = _; rw [k0_off61_eq]; show 0 + 1 * (y 1).val = (y 1).val; omega

/-- The task's row of the result array after the accumulator, every row activated, is copied into it. -/
theorem out_row_val' (ids : Buf (Elt F) (idsLoc0 d)) (emb : Buf (Elt F) (embLoc d)) (o₀ : Buf (Elt F) (outLoc0 d))
    (inv zero : F .f32) (fA : S32x128.Idx → Elt F .f32) (hA : ActOK inv zero ids emb (wL0 L) 32 fA)
    (P : S32x128.Idx → Elt F .f32) (hP : ∀ y, P y = fA y) :
    ∀ x ∈ rowSetO0 (wL0 L), ((outRowK L).view.writes (Elt F) o₀ [⟨Rect.whole S32x128, P⟩]) x = pool0 inv zero ids emb x := by
  intro x hx
  rw [← set_outRowK L] at hx
  obtain ⟨y, rfl⟩ := View.exists_emb_of_mem_set (outRowK L).view hx
  have hy : (outRowK L).view.emb y = ((outRowK L).view.slice (Rect.whole S32x128)).emb y := by
    show _ = (outRowK L).view.emb ((Rect.whole S32x128).emb y)
    rw [Rect.emb_whole_apply]
  rw [View.writes_cons, View.writes_nil]
  conv_lhs => rw [hy]
  rw [View.write_emb_of_mem _ _ (Finset.mem_univ _)]
  show P y = _
  obtain ⟨e0, e1, e2⟩ := emb_outRowK L y
  rw [hP, hA y, if_pos (show (y 0).val < 32 from (y 0).isLt)]
  show poolAt (nch := 16) inv zero ids emb (wL0 L) (y 0).val _ (y 1) = poolAt (nch := 16) inv zero ids emb _ _ _ _
  exact poolAt_congr inv zero ids emb _ _ _ _ _ _ _ _ (Fin.ext e0.symm) e1.symm (Fin.ext e2.symm)

/-- The same at the call's own scale and clamp. -/
theorem out_row_val (ids : Buf (Elt F) (idsLoc0 d)) (emb : Buf (Elt F) (embLoc d)) (o₀ : Buf (Elt F) (outLoc0 d))
    (fA : S32x128.Idx → Elt F .f32) (hA : ActOK (inv0 (F := F)) (zero0 (F := F)) ids emb (wL0 L) 32 fA)
    (P : S32x128.Idx → Elt F .f32) (hP : ∀ y, P y = fA y) :
    ∀ x ∈ rowSetO0 (wL0 L), ((outRowK L).view.writes (Elt F) o₀ [⟨Rect.whole S32x128, P⟩]) x = pool0 (inv0 (F := F)) (zero0 (F := F)) ids emb x :=
  out_row_val' d L ids emb o₀ inv0 zero0 fA hA P hP

/-- So the task holds its row of the result array at the call's result function. -/
theorem out_row_pts (ids : Buf (Elt F) (idsLoc0 d)) (emb : Buf (Elt F) (embLoc d)) (o₀ : Buf (Elt F) (outLoc0 d))
    (fA : S32x128.Idx → Elt F .f32) (hA : ActOK (inv0 (F := F)) (zero0 (F := F)) ids emb (wL0 L) 32 fA)
    (P : S32x128.Idx → Elt F .f32) (hP : ∀ y, P y = fA y) :
    ((outRowK L).view.loc (thr0 d L) ↦[(outRowK L).view.set]{fullShare} (outRowK L).view.writes (Elt F) o₀ [⟨Rect.whole S32x128, P⟩] : sProp 𝕄)
      = outPts0 d (wL0 L) (pool0 (inv0 (F := F)) (zero0 (F := F)) ids emb) := by
  rw [pts_outRowK]
  exact pointsTo_congr (out_row_val d L ids emb o₀ fA hA P hP)

end Val0D
end Cert.Proof.KB
end
-- ==== Proof.B.Tile0.lean ====
/-
  The task of the first pooling call at a symbolic place, with its value: from its row of the index array, a read share of
  the embedding table, its row of the result, its own scratch and semaphores, the body runs to the end and gives everything
  back, its row of the result holding the pooled, scaled and clamped sums the index array names.
-/
import proofs.«204104_g71330816851969_cont_9to1_m_219_17_alg».proof.Proof.B.Tile0Trip
import proofs.«204104_g71330816851969_cont_9to1_m_219_17_alg».proof.Proof.B.Act0
import proofs.«204104_g71330816851969_cont_9to1_m_219_17_alg».proof.Proof.B.Val0D

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile0

variable (d : Dev nD) (L : grid0.Coords)

theorem tile_body0 (hF : (K (F := F)).Facts) (q : PosShare TreeShare)
    (ids : Buf (Elt F) (idsLoc0 d)) (emb : Buf (Elt F) (embLoc d)) (o₀ : Buf (Elt F) (outLoc0 d))
    (hin : ∀ x : S32x16x100.Idx, (show BitVec 32 from ids x).toNat < 100000)
    (O : CellTallies nD τ sig (HIx 2)) (W : Waits sig (HIx 2)) (hO : ∀ g, O g none = 0) :
    iprop(levAts (K (F := F)).L (K (F := F)).lev
        ∗ (idsPts0 d (wL0 L) ids ∗ embPts d q emb ∗ outPts0 d (wL0 L) o₀)
        ∗ scopedBufs (thr0 d L) ∗ scopedSems0 (thr0 d L) ∗ owes (thr0 d L) O W)
      ⊢ wp frame (wpE (defs₀ (F := F)) 𝒱₀ (thr0 d L) none) Set.univ
          (cc0_body L (Memref.whole main_v2_scv) (Memref.isWhole_whole _) (Memref.whole main_arg3_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1)
          fun _ => iprop((idsPts0 d (wL0 L) ids ∗ embPts d q emb ∗ outPts0 d (wL0 L) (pool0 inv0 zero0 ids emb))
            ∗ scopedBufs (thr0 d L) ∗ scopedSems0 (thr0 d L)
            ∗ ∃ W', ⌜∀ p ∈ W', p ∈ W ∨ p.2 = none⌝ ∗ owes (thr0 d L) O W') := by
  simp only [cc0_body_eq_skeleton]; unfold cc0_body_skel
  rw [(K (F := F)).scopedBufs_V hF d (cV0 L) (jV0 L), SparseCore.Cfg.scopedSems0_V (Val := Elt F) d (cV0 L) (jV0 L), ownSems0_V0, ownBufs_V0]
  iintro ⟨#Hlv, ⟨Hi, He, Ho⟩, ⟨⟨%fI, HsI⟩, ⟨%fR0, HsR0⟩, ⟨%fR1, HsR1⟩, ⟨%fA, HsA⟩, Hbufs⟩, ⟨Hc4, Hc5, Hcs0, Hcs1, Hsems⟩, HO⟩
  ihave Hmw := ((K (F := F)).mayWaits_none (thr := thr0 d L) hO) $$ Hlv
  ihave Hi' := (Entails.of_eq (pts_idsRowK (F := F) d L _).symm) $$ Hi
  ihave Ho' := (Entails.of_eq (pts_outRowK (F := F) d L _).symm) $$ Ho
  ihave HsI' := (Entails.of_eq (pts_sI0 (F := F) d L _).symm) $$ HsI
  ihave HsR0' := (Entails.of_eq (pts_sR0 (F := F) d L _).symm) $$ HsR0
  ihave HsR1' := (Entails.of_eq (pts_sR1 (F := F) d L _).symm) $$ HsR1
  ihave HsA' := (Entails.of_eq (pts_sA0 (F := F) d L _).symm) $$ HsA
  ihave He' := (Entails.of_eq (pts_embW (F := F) d L q _).symm) $$ He
  ihave He2 := (pointsTo_share (PosShare.mem_left_op_right q)).1 $$ He'
  icases He2 with ⟨HeL, HeR⟩
  sl_exec_parts
  have hEq : View.write (Elt F) (Memref.whole cc0_scratch0).view fI (tile_body0.sl.dma0 d L ids) Finset.univ = fiOf d L ids fI := rfl
  ihave HsI' := (Entails.of_eq (congrArg (fun f => ((sIW).view.loc (thr0 d L) ↦{fullShare} f : sProp 𝕄)) hEq)) $$ HsI'
  have hidx := fun g row hk hr hq => offs_inb (F := F) d L g (idsPay d L ids) (idsPay_lt d L ids hin) row hk hr hq
  have hfiT : IdxOK d L (fiOf d L ids fI) := fun row hk x => hidx fI row hk _ _ x
  ihave Hrows := (Entails.of_eq (idsv_row_split (F := F) d L (fiOf d L ids fI) 0)) $$ HsI'
  icases Hrows with ⟨Hrow0, Hrows⟩
  ihave Hrow0' := (Entails.of_eq (pts_offsP (F := F) d L ![0, 0] inb_S16x100_S1x100_0_0 0 rfl _).symm) $$ Hrow0
  sl_exec_parts
  iclear HeL
  sl_for (outerInvV d L ids emb fI hfiT q O (insert (SemLoc.dma cc0_scoped0.sem, (default : HIx 2)) W)) $$ [Hmw Hc5 HsR1' HeR HsA' Hc4 Hrows HO]
  case region =>
    intro k u
    exact trip0_all d L ids emb fI hfiT q O _ k u
  · unfold outerInvV
    rw [if_pos (by decide : (0 : ℕ) < 8)]
    isplitl [Hmw]; · iexact Hmw
    isplitl [Hc5]; · iexact Hc5
    isplitl [HsR1']; · iexists _; iexact HsR1'
    isplitl [HeR]; · iexact HeR
    isplitl [HsA']
    · iexists _; isplitr
      rotate_left
      · iexact HsA'
      · ipureintro; exact fun x hx => absurd hx (Nat.not_lt_zero _)
    isplitl [Hc4 Hrows]
    · isplitl [Hc4]
      · unfold flightC0
        iapply (flight_canon (F := F) d L emb (fiOf d L ids fI) hfiT ![0, 0] inb_S16x100_S1x100_0_0 (fin16 (2 * 0)) rfl fR0 _
          (gPay_off (F := F) d L emb (fiOf d L ids fI) hfiT ![0, 0] inb_S16x100_S1x100_0_0 (fin16 (2 * 0)) rfl _ _) q.left)
        iexact Hc4
      · iexact Hrows
    iexists _; isplitr
    rotate_left
    · iexact HO
    · ipureintro; exact fun p hp => .inl hp
  iintro %u HI
  ihave HI' := (outerInvV_exit (F := F) d L ids emb fI hfiT q O _ u) $$ HI
  icases HI' with ⟨-, Hc5, ⟨%f1, HR1⟩, HeR, ⟨%fA', %hAcc, HA⟩, ⟨Hc4, ⟨%f0, HR0⟩, HsI, HeL⟩, %W1, %hW1, HO⟩
  sl_exec_parts
  sl_for (actInv d L ids emb) $$ [HA]
  case region =>
    intro t u
    exact act_trip0 d L ids emb t u
  · unfold actInv
    iexists _; isplitr
    rotate_left
    · iexact HA
    · ipureintro; exact actOK_zero inv0 zero0 ids emb (wL0 L) _ hAcc
  iintro %u2 HA
  unfold actInv
  icases HA with ⟨%fA2, %hAct, HA⟩
  sl_exec_parts
  sl_step
  isplitl [Hi' HeL HeR Ho']
  · isplitl [Hi']; · iapply (Entails.of_eq (pts_idsRowK (F := F) d L _)); iexact Hi'
    isplitl [HeL HeR]
    · iapply (Entails.of_eq (pts_embW (F := F) d L q _))
      iapply (pointsTo_share (PosShare.mem_left_op_right q)).2
      isplitl [HeL]; · iexact HeL
      iexact HeR
    · iapply (Entails.of_eq (out_row_pts (F := F) d L ids emb o₀ fA2 hAct _ (fun y => rfl)))
      iexact Ho'
  isplitl [HsI HR0 HR1 HA Hbufs]
  · isplitl [HsI]; · iexists _; iexact HsI
    isplitl [HR0]; · iexists _; iexact HR0
    isplitl [HR1]; · iexists _; iexact HR1
    isplitl [HA]; · iexists _; iexact HA
    iexact Hbufs
  isplitl [Hc4 Hc5 Hcs0 Hcs1 Hsems]
  · isplitl [Hc4]; · iexact Hc4
    isplitl [Hc5]; · iexact Hc5
    isplitl [Hcs0]; · iexact Hcs0
    isplitl [Hcs1]; · iexact Hcs1
    iexact Hsems
  iexists _; isplitr
  rotate_left
  · iexact HO
  · ipureintro; intro p hp
    rcases Finset.mem_insert.mp hp with hp | hp
    · exact .inr (by subst hp; rfl)
    · rcases hW1 p hp with h | h
      · rcases Finset.mem_insert.mp h with h | h
        · exact .inr (by subst h; rfl)
        · exact .inl h
      · exact .inr h

end Tile0
end Cert.Proof.KB
end
-- ==== Proof.B.Tile1Defs.lean ====
/-
  The task of the second pooling call at a symbolic place: its thread, the arrays' rows it is dealt, its own scratch
  buffers and semaphores, the index scratch by rows, the streams' loop's invariant, and the values the buffers hold.
-/
import proofs.«204104_g71330816851969_cont_9to1_m_219_17_alg».proof.Proof.B.Common
import proofs.«204104_g71330816851969_cont_9to1_m_219_17_alg».proof.Proof.B.Rows
import proofs.«204104_g71330816851969_cont_9to1_m_219_17_alg».proof.Proof.B.PoolSpec
import proofs.«204104_g71330816851969_cont_9to1_m_219_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The task of call 1 at a symbolic place -/

section Tile1

variable (d : Dev nD) (L : grid1.Coords)

abbrev cV1 (L : grid1.Coords) : Fin τ.nSC := (L 0).castLE hcore1
abbrev jV1 (L : grid1.Coords) : Fin τ.nSub := (L 1).castLE hsub1
theorem bound1_zero : grid1.bound 0 = 2 := rfl
theorem bound1_one : grid1.bound 1 = 16 := rfl
abbrev cL1 (L : grid1.Coords) : Fin 2 := Fin.cast bound1_zero (L 0)
abbrev jL1 (L : grid1.Coords) : Fin 16 := Fin.cast bound1_one (L 1)
/-- The task's number: sixteen times its SparseCore plus its subcore. -/
abbrev wL1 (L : grid1.Coords) : Fin 32 := taskIx (cL1 L) (jL1 L)

/-- The scale and the clamp of the activation, as the printed body spells them (each a lane of the broadcast). -/
def inv1 : F .f32 := k1_pay106 (F := F) (Shape.ofLane (d := ![16]) (0 : Fin 16))
def zero1 : F .f32 := k1_pay107 (F := F) (Shape.ofLane (d := ![16]) (0 : Fin 16))

abbrev thr1 (d : Dev nD) (L : grid1.Coords) : Thread nD τ := V d (cV1 L) (jV1 L)

abbrev idsLoc1 (d : Dev nD) : Loc nD τ sig := (SparseCore.T d).loc main_v6
abbrev embLoc1 (d : Dev nD) : Loc nD τ sig := (SparseCore.T d).loc main_arg3
abbrev outLoc1 (d : Dev nD) : Loc nD τ sig := (SparseCore.T d).loc main_v7
abbrev idsPts1 (d : Dev nD) (w : Fin 32) (ids : Buf (Elt F) (idsLoc1 d)) : sProp 𝕄 := idsLoc1 d ↦[rowSetI1 w]{fullShare} ids
abbrev embPts1 (d : Dev nD) (q : PosShare TreeShare) (emb : Buf (Elt F) (embLoc1 d)) : sProp 𝕄 := embLoc1 d ↦{q} emb
abbrev outPts1 (d : Dev nD) (w : Fin 32) (o : Buf (Elt F) (outLoc1 d)) : sProp 𝕄 := outLoc1 d ↦[rowSetO1 w]{fullShare} o

/-! ### The task's own semaphores and scratch buffers -/

abbrev c4_1 (d : Dev nD) (L : grid1.Coords) : GSem nD τ sig := (thr1 d L, SemLoc.dma cc1_scratch4.sem)
abbrev c5_1 (d : Dev nD) (L : grid1.Coords) : GSem nD τ sig := (thr1 d L, SemLoc.dma cc1_scratch5.sem)
abbrev cs0_1 (d : Dev nD) (L : grid1.Coords) : GSem nD τ sig := (thr1 d L, SemLoc.dma cc1_scoped0.sem)
abbrev cs1_1 (d : Dev nD) (L : grid1.Coords) : GSem nD τ sig := (thr1 d L, SemLoc.dma cc1_scoped1.sem)

omit [FloatOps F] in
theorem cell_ne1 {a b : DmaSem sig} (h : a ≠ b) : ((thr1 d L, SemLoc.dma a) : GSem nD τ sig) ≠ (thr1 d L, SemLoc.dma b) :=
  fun e => h (by injection e with _ e2; injection e2)

omit [FloatOps F] in
theorem cell_mem1 (a : DmaSem sig) (h : (SemLoc.dma a : SemLoc sig).isScoped .scVector = true) :
    ((thr1 d L, SemLoc.dma a) : GSem nD τ sig) ∈ ownCells (thr1 d L) := mem_ownCells.mpr ⟨rfl, h⟩

omit [FloatOps F] in
theorem ownSems0_V1 :
    (ownSems0 (thr1 d L) : sProp 𝕄)
      = iprop(semVal (c4_1 d L) 0 ∗ semVal (c5_1 d L) 0 ∗ semVal (cs0_1 d L) 0 ∗ semVal (cs1_1 d L) 0
          ∗ bigSep (((((ownCells (thr1 d L)).erase (c4_1 d L)).erase (c5_1 d L)).erase (cs0_1 d L)).erase (cs1_1 d L)) fun g => semVal g 0) := by
  unfold SparseCore.Cfg.ownSems0
  rw [SparseCore.bigSep_erase' (cell_mem1 d L cc1_scratch4.sem (by decide)),
    SparseCore.bigSep_erase' (Finset.mem_erase.mpr ⟨cell_ne1 d L (a := cc1_scratch5.sem) (b := cc1_scratch4.sem) (by decide), cell_mem1 d L cc1_scratch5.sem (by decide)⟩),
    SparseCore.bigSep_erase' (Finset.mem_erase.mpr ⟨cell_ne1 d L (a := cc1_scoped0.sem) (b := cc1_scratch5.sem) (by decide),
      Finset.mem_erase.mpr ⟨cell_ne1 d L (a := cc1_scoped0.sem) (b := cc1_scratch4.sem) (by decide), cell_mem1 d L cc1_scoped0.sem (by decide)⟩⟩),
    SparseCore.bigSep_erase' (Finset.mem_erase.mpr ⟨cell_ne1 d L (a := cc1_scoped1.sem) (b := cc1_scoped0.sem) (by decide),
      Finset.mem_erase.mpr ⟨cell_ne1 d L (a := cc1_scoped1.sem) (b := cc1_scratch5.sem) (by decide),
      Finset.mem_erase.mpr ⟨cell_ne1 d L (a := cc1_scoped1.sem) (b := cc1_scratch4.sem) (by decide), cell_mem1 d L cc1_scoped1.sem (by decide)⟩⟩⟩)]

abbrev pV1 (L : grid1.Coords) : Proc τ := Proc.scVector (cV1 L) (jV1 L)

omit [FloatOps F] in
theorem ref_ne1 {a b : Ref sig .scVector} (h : a ≠ b) : (pV1 L).devRef a ≠ (pV1 L).devRef b :=
  fun e => h (Proc.devRef_injective _ e)

omit [FloatOps F] in
theorem ref_mem1 (a : Ref sig .scVector) (h : ((pV1 L).devRef a).owner = .proc (pV1 L)) : (pV1 L).devRef a ∈ ownRefs (τ := τ) (pV1 L) :=
  SparseCore.Cfg.mem_ownRefs_of_owner h

omit [FloatOps F] in
/-- The four scratch buffers are among the subcore's own: they are them, at some contents, and the rest. -/
theorem ownBufs_V1 :
    (ownBufs (thr1 d L) : sProp 𝕄)
      = iprop((∃ f, (thr1 d L).loc cc1_scratch0 ↦{fullShare} f) ∗ (∃ f, (thr1 d L).loc cc1_scratch1 ↦{fullShare} f)
          ∗ (∃ f, (thr1 d L).loc cc1_scratch2 ↦{fullShare} f) ∗ (∃ f, (thr1 d L).loc cc1_scratch3 ↦{fullShare} f)
          ∗ bigSep (((((ownRefs (τ := τ) (pV1 L)).erase ((pV1 L).devRef cc1_scratch0)).erase ((pV1 L).devRef cc1_scratch1)).erase
              ((pV1 L).devRef cc1_scratch2)).erase ((pV1 L).devRef cc1_scratch3))
              fun b => iprop(∃ f, ((d, b) : Loc nD τ sig) ↦{fullShare} f)) := by
  unfold SparseCore.Cfg.ownBufs
  refine (SparseCore.bigSep_erase' (ref_mem1 L cc1_scratch0 rfl)).trans ?_
  rw [SparseCore.bigSep_erase' (Finset.mem_erase.mpr ⟨ref_ne1 L (a := cc1_scratch1) (b := cc1_scratch0) (by decide), ref_mem1 L cc1_scratch1 rfl⟩),
    SparseCore.bigSep_erase' (Finset.mem_erase.mpr ⟨ref_ne1 L (a := cc1_scratch2) (b := cc1_scratch1) (by decide),
      Finset.mem_erase.mpr ⟨ref_ne1 L (a := cc1_scratch2) (b := cc1_scratch0) (by decide), ref_mem1 L cc1_scratch2 rfl⟩⟩),
    SparseCore.bigSep_erase' (Finset.mem_erase.mpr ⟨ref_ne1 L (a := cc1_scratch3) (b := cc1_scratch2) (by decide),
      Finset.mem_erase.mpr ⟨ref_ne1 L (a := cc1_scratch3) (b := cc1_scratch1) (by decide),
      Finset.mem_erase.mpr ⟨ref_ne1 L (a := cc1_scratch3) (b := cc1_scratch0) (by decide), ref_mem1 L cc1_scratch3 rfl⟩⟩⟩)]

/-! ### The task's rows of the index array and of the result, as the body slices them -/

abbrev idsRect1 (L : grid1.Coords) : Rect S32x48x100 := Rect.unit (s := S32x48x100) (k1_off1 L) S1x48x100.size (k1_off1_inb L)
abbrev outRect1 (L : grid1.Coords) : Rect S32x96x128 := Rect.unit (s := S32x96x128) (k1_off61 L) S1x96x128.size (k1_off61_inb L)
abbrev idsW1 : Memref sig .scVector .hbm S32x48x100 .i32 := Memref.whole main_v6_scv
abbrev embW1 : Memref sig .scVector .hbm S100000x128 .f32 := Memref.whole main_arg3_scv
abbrev outW1 : Memref sig .scVector .hbm S32x96x128 .f32 := Memref.whole main_v7_scv
abbrev idsRowK1 (L : grid1.Coords) : Memref sig .scVector .hbm S48x100 .i32 := ((idsW1).slice (idsRect1 L) (fun _ => rfl)).squeeze S48x100 squeezes_S1x48x100_S48x100
abbrev outRowK1 (L : grid1.Coords) : Memref sig .scVector .hbm S96x128 .f32 := ((outW1).slice (outRect1 L) (fun _ => rfl)).squeeze S96x128 squeezes_S1x96x128_S96x128

omit [FloatOps F] in
theorem idsRect_eq1 : idsRect1 L = rowI1 (wL1 L) := by
  unfold idsRect1 rowI1 Rect.part Rect.block
  congr 1 <;> funext a
  · rw [k1_off1_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem outRect_eq1 : outRect1 L = rowO1 (wL1 L) := by
  unfold outRect1 rowO1 Rect.part Rect.block
  congr 1 <;> funext a
  · rw [k1_off61_eq]
    match a with
    | 0 => simp [Shape.partIx, Shape.partSize, taskIx]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_idsRowK1 : (idsRowK1 L).view.set = rowSetI1 (wL1 L) := by
  show (((View.whole main_v6_scv : View sig .scVector .hbm S32x48x100 .i32).slice (idsRect1 L)).reshape S48x100 squeezes_S1x48x100_S48x100.numel_eq).set = (rowI1 (wL1 L)).set
  rw [View.set_reshape, View.set_slice_whole]
  exact congrArg (fun r : Rect S32x48x100 => r.set) (idsRect_eq1 L)
omit [FloatOps F] in
theorem set_outRowK1 : (outRowK1 L).view.set = rowSetO1 (wL1 L) := by
  show (((View.whole main_v7_scv : View sig .scVector .hbm S32x96x128 .f32).slice (outRect1 L)).reshape S96x128 squeezes_S1x96x128_S96x128.numel_eq).set = (rowO1 (wL1 L)).set
  rw [View.set_reshape, View.set_slice_whole]
  exact congrArg (fun r : Rect S32x96x128 => r.set) (outRect_eq1 L)

omit [FloatOps F] in
theorem pts_idsRowK1 (f : Buf (Elt F) (idsLoc1 d)) :
    ((idsRowK1 L).view.loc (thr1 d L) ↦[(idsRowK1 L).view.set]{fullShare} f : sProp 𝕄) = idsLoc1 d ↦[rowSetI1 (wL1 L)]{fullShare} f := by
  rw [set_idsRowK1]
omit [FloatOps F] in
theorem pts_outRowK1 (f : Buf (Elt F) (outLoc1 d)) :
    ((outRowK1 L).view.loc (thr1 d L) ↦[(outRowK1 L).view.set]{fullShare} f : sProp 𝕄) = outLoc1 d ↦[rowSetO1 (wL1 L)]{fullShare} f := by
  rw [set_outRowK1]
omit [FloatOps F] in
theorem pts_embW1 (q : PosShare TreeShare) (f : Buf (Elt F) (embLoc1 d)) :
    ((embW1).view.loc (thr1 d L) ↦{q} f : sProp 𝕄) = embLoc1 d ↦{q} f := rfl

abbrev sIW1 : Memref sig .scVector .vmem S48x100 .i32 := Memref.whole cc1_scratch0
abbrev sR0W1 : Memref sig .scVector .vmem S100x128 .f32 := Memref.whole cc1_scratch1
abbrev sR1W1 : Memref sig .scVector .vmem S100x128 .f32 := Memref.whole cc1_scratch2
abbrev sAW1 : Memref sig .scVector .vmem S96x128 .f32 := Memref.whole cc1_scratch3
omit [FloatOps F] in
theorem pts_sI1 (f : Buf (Elt F) ((thr1 d L).loc cc1_scratch0)) :
    ((sIW1).view.loc (thr1 d L) ↦{fullShare} f : sProp 𝕄) = (thr1 d L).loc cc1_scratch0 ↦{fullShare} f := rfl
omit [FloatOps F] in
theorem pts_sR0_1 (f : Buf (Elt F) ((thr1 d L).loc cc1_scratch1)) :
    ((sR0W1).view.loc (thr1 d L) ↦{fullShare} f : sProp 𝕄) = (thr1 d L).loc cc1_scratch1 ↦{fullShare} f := rfl
omit [FloatOps F] in
theorem pts_sR1_1 (f : Buf (Elt F) ((thr1 d L).loc cc1_scratch2)) :
    ((sR1W1).view.loc (thr1 d L) ↦{fullShare} f : sProp 𝕄) = (thr1 d L).loc cc1_scratch2 ↦{fullShare} f := rfl
omit [FloatOps F] in
theorem pts_sA1 (f : Buf (Elt F) ((thr1 d L).loc cc1_scratch3)) :
    ((sAW1).view.loc (thr1 d L) ↦{fullShare} f : sProp 𝕄) = (thr1 d L).loc cc1_scratch3 ↦{fullShare} f := rfl

/-! ### The offset lists are in range -/

/-- What the first copy lands in the index scratch: the task's row of the index array. -/
abbrev idsPay1 (ids : Buf (Elt F) (idsLoc1 d)) : S48x100.Idx → Elt F .i32 := (idsRowK1 L).view.read (Elt F) ids

omit [FloatOps F] in
theorem idsPay_lt1 (ids : Buf (Elt F) (idsLoc1 d)) (hin : ∀ x : S32x48x100.Idx, (show BitVec 32 from ids x).toNat < 100000) (y : S48x100.Idx) :
    (show BitVec 32 from idsPay1 d L ids y).toNat < 100000 := by
  show (show BitVec 32 from (idsRowK1 L).view.read (Elt F) ids y).toNat < 100000
  rw [View.read_apply]
  exact hin _

omit [FloatOps F] in
/-- Every word of any row of the index scratch, once the copy has landed a payload whose words are row numbers of the
    table, is one: for any prior contents of the scratch and any row. -/
theorem offs_inb1 (g0 : Buf (Elt F) ((sIW1).view.loc (thr1 d L))) (pay : S48x100.Idx → Elt F .i32)
    (hpay : ∀ y, (show BitVec 32 from pay y).toNat < 100000)
    (row : Fin 2 → Nat) (hk : ∀ a, row a + S1x100.size a ≤ S48x100.size a)
    (hr : ∀ a, (Rect.unit (s := S48x100) row S1x100.size hk).stride a = 1)
    (hq : (Rect.unit (s := S48x100) row S1x100.size hk).shape.Squeezes S100) :
    ∀ x, (View.read (Elt F) (((sIW1).slice (Rect.unit (s := S48x100) row S1x100.size hk) hr).squeeze S100 hq).view
      (View.write (Elt F) (sIW1).view g0 pay Finset.univ) x).toNat < 100000 := by
  intro x
  rw [View.write_whole_univ, View.read_apply]
  exact hpay _

/-! ### The index scratch by rows: each gather's offset list is one row, lent whole to its stream -/

/-- Row `j` of the index scratch as the body slices it at offsets `off`. -/
abbrev offsP1 (off : Fin 2 → Nat) (h : ∀ a, off a + S1x100.size a ≤ S48x100.size a) : Memref sig .scVector .vmem S100 .i32 :=
  ((Memref.whole cc1_scratch0 : Memref sig .scVector .vmem S48x100 .i32).slice (Rect.unit (s := S48x100) off S1x100.size h) (fun _ => rfl)).squeeze S100 squeezes_S1x100_S100

/-- Row `j` of the index scratch held outright at contents `f`. -/
abbrev rowPts1 (f : Buf (Elt F) ((sIW1).view.loc (thr1 d L))) (j : Fin 48) : sProp 𝕄 :=
  (sIW1).view.loc (thr1 d L) ↦[((sIW1).view.slice (S48x100.rowRect 0 j)).set]{fullShare} f

omit [FloatOps F] in
theorem rect_row1 (off : Fin 2 → Nat) (h : ∀ a, off a + S1x100.size a ≤ S48x100.size a) (j : Fin 48) (hoff : off = ![j.val, 0]) :
    Rect.unit (s := S48x100) off S1x100.size h = S48x100.rowRect 0 j := by
  subst hoff
  unfold Shape.rowRect
  congr 1
  congr 1
  · funext a; match a with
    | 0 => rfl
    | 1 => rfl
  · funext a; match a with
    | 0 => rfl
    | 1 => rfl

omit [FloatOps F] in
theorem win_eq1 (off : Fin 2 → Nat) (h : ∀ a, off a + S1x100.size a ≤ S48x100.size a) (j : Fin 48) (hoff : off = ![j.val, 0]) :
    (offsP1 off h).view.set = ((sIW1).view.slice (S48x100.rowRect 0 j)).set := by
  show (((sIW1).view.slice (Rect.unit (s := S48x100) off S1x100.size h)).reshape S100 squeezes_S1x100_S100.numel_eq).set = _
  rw [View.set_reshape]
  exact rect_row1 off h j hoff ▸ rfl

omit [FloatOps F] in
theorem pts_offsP1 (off : Fin 2 → Nat) (h : ∀ a, off a + S1x100.size a ≤ S48x100.size a) (j : Fin 48) (hoff : off = ![j.val, 0])
    (f : Buf (Elt F) ((sIW1).view.loc (thr1 d L))) :
    ((offsP1 off h).view.loc (thr1 d L) ↦[(offsP1 off h).view.set]{fullShare} f : sProp 𝕄) = rowPts1 d L f j := by
  rw [win_eq1 off h j hoff]

omit [FloatOps F] in
theorem idsv_rows1 (f : Buf (Elt F) ((sIW1).view.loc (thr1 d L))) :
    ((sIW1).view.loc (thr1 d L) ↦{fullShare} f : sProp 𝕄) = bigSep Finset.univ fun j : Fin 48 => rowPts1 d L f j := by
  have h := pointsTo_rows (Val := Elt F) (U := UU) (Ix := HIx 2) (Name := ℕ) (Lvl := ℕ) (thr1 d L) (sIW1).view 0 fullShare f
  rw [show ((sIW1).view.set) = Finset.univ from View.set_whole cc1_scratch0] at h
  exact h

omit [FloatOps F] in
theorem idsv_row_split1 (f : Buf (Elt F) ((sIW1).view.loc (thr1 d L))) (j : Fin 48) :
    ((sIW1).view.loc (thr1 d L) ↦{fullShare} f : sProp 𝕄) = iprop(rowPts1 d L f j ∗ bigSep (Finset.univ.erase j) fun j : Fin 48 => rowPts1 d L f j) :=
  (idsv_rows1 d L f).trans (bigSep_univ_split j)

/-! ### The streams' loop: its invariant -/

/-- A row number of the index scratch from a natural number (in range wherever it is used). -/
abbrev fin48 (n : ℕ) : Fin 48 := ⟨n % 48, Nat.mod_lt _ (by decide)⟩

/-- The table as the gathers slice it (whole). -/
abbrev embSl1 : Memref sig .scVector .hbm S100000x128 .f32 :=
  (Memref.whole main_arg3_scv : Memref sig .scVector .hbm S100000x128 .f32).slice (Rect.unit (s := S100000x128) ![0, 0] S100000x128.size inb_S100000x128_S100000x128_0_0) (fun _ => rfl)

omit [FloatOps F] in
theorem inbRow1 (j : Fin 48) : ∀ a, (![j.val, 0] : Fin 2 → ℕ) a + S1x100.size a ≤ S48x100.size a := by
  intro a
  match a with
  | 0 => show j.val + 1 ≤ 48; omega
  | 1 => show 0 + 100 ≤ 100; omega

/-- Every word of every row of the index scratch at contents `fi` names a row of the table. -/
abbrev IdxOK1 (fi : Buf (Elt F) ((sIW1).view.loc (thr1 d L))) : Prop :=
  ∀ (row : Fin 2 → ℕ) (hk : ∀ a, row a + S1x100.size a ≤ S48x100.size a) (x : S100.Idx),
    ((offsP1 row hk).view.read (Elt F) fi x).toNat < 100000

/-- What a gather over row `c` of the index scratch (contents `fi`) lands in a rows buffer. -/
def gPay1 (emb : Buf (Elt F) (embLoc1 d)) (fi : Buf (Elt F) ((sIW1).view.loc (thr1 d L))) (hfi : IdxOK1 d L fi) (c : Fin 48) :
    S100x128.Idx → Elt F .f32 :=
  SparseCore.gatherPayload gathers_S100000x128_S100x128 ((embSl1).view.read (Elt F) emb)
    (SparseCore.rows ((offsP1 ![c.val, 0] (inbRow1 c)).view.read (Elt F) fi) rfl (hfi ![c.val, 0] (inbRow1 c)))

/-- A gather of chunk `c` into the first rows buffer in flight on its semaphore, reading the table at share `qe`: it
    delivers the buffer at the gathered rows, row `c` of the index scratch, and the table's share. -/
def flightC0_1 (emb : Buf (Elt F) (embLoc1 d)) (fi : Buf (Elt F) ((sIW1).view.loc (thr1 d L))) (hfi : IdxOK1 d L fi)
    (c : Fin 48) (qe : PosShare TreeShare) : sProp 𝕄 :=
  Transfers.Flight countersEmb (thr1 d L) (SemLoc.dma cc1_scratch4.sem) default 409600
    iprop((((sR0W1).view.loc (thr1 d L) ↦{fullShare} gPay1 d L emb fi hfi c) ∗ rowPts1 d L fi c)
      ∗ ((embW1).view.loc (thr1 d L) ↦{qe} emb))

/-- Before trip `k` of the streams' loop: the second rows buffer and its semaphore free, the accumulator held, the
    table's second share held; while trips remain, the gather of chunk `2k` in flight into the first rows buffer and
    every other row of the index scratch held; after the last, everything back. -/
def outerInv1 (emb : Buf (Elt F) (embLoc1 d)) (fi : Buf (Elt F) ((sIW1).view.loc (thr1 d L))) (hfi : IdxOK1 d L fi)
    (q : PosShare TreeShare) (O : CellTallies nD τ sig (HIx 2)) (W : Waits sig (HIx 2)) (k : ℕ) (_ : PUnit) : sProp 𝕄 :=
  iprop(Transfers.MayWaits (thr1 d L) (none : HIx 2) O
    ∗ semVal (c5_1 d L) 0
    ∗ (∃ f1, (sR1W1).view.loc (thr1 d L) ↦{fullShare} f1)
    ∗ ((embW1).view.loc (thr1 d L) ↦{q.right} emb)
    ∗ (∃ fA, (sAW1).view.loc (thr1 d L) ↦{fullShare} fA)
    ∗ (if k < 24 then iprop(flightC0_1 d L emb fi hfi (fin48 (2 * k)) q.left
          ∗ bigSep (Finset.univ.erase (fin48 (2 * k))) fun j => rowPts1 d L fi j)
       else iprop(semVal (c4_1 d L) 0 ∗ (∃ f0, (sR0W1).view.loc (thr1 d L) ↦{fullShare} f0)
          ∗ ((sIW1).view.loc (thr1 d L) ↦{fullShare} fi) ∗ ((embW1).view.loc (thr1 d L) ↦{q.left} emb)))
    ∗ ∃ W', ⌜∀ p ∈ W', p ∈ W ∨ p.2 = none⌝ ∗ owes (thr1 d L) O W')

/-! ### The values: what the buffers hold -/

/-- Element `(r, q)` of a rows buffer's contents (total: the coordinates reduced into range). -/
def Gat1 (G : S100x128.Idx → Elt F .f32) (r q : ℕ) : F .f32 :=
  G (Shape.pair (d := ![100, 128]) ⟨r % 100, Nat.mod_lt _ (by decide)⟩ ⟨q % 128, Nat.mod_lt _ (by decide)⟩)

/-- Lane group `j` of the sum, from the left, of rows `base, …, base + t` of a rows buffer's contents. -/
def accV1 (G : S100x128.Idx → Elt F .f32) (base j t : ℕ) : FVec F S16 .f32 :=
  fun lane => lsum (fun l => Gat1 G (base + l) (16 * j + (lane 0).val)) t

theorem accV_zero1 (G : S100x128.Idx → Elt F .f32) (base j : ℕ) :
    accV1 G base j 0 = fun lane => Gat1 G base (16 * j + (lane 0).val) := rfl

/-- One more row added to every lane of a lane group. -/
theorem accV_succ1 (G : S100x128.Idx → Elt F .f32) (base j t r : ℕ) (hr : r = base + (t + 1)) :
    addf (accV1 G base j t) (fun lane => Gat1 G r (16 * j + (lane 0).val)) = accV1 G base j (t + 1) := by
  subst hr; rfl

/-- The eight lane groups after `t` additions. -/
def accs8_1 (G : S100x128.Idx → Elt F .f32) (base t : ℕ) :
    FVec F S16 .f32 × FVec F S16 .f32 × FVec F S16 .f32 × FVec F S16 .f32 × FVec F S16 .f32 × FVec F S16 .f32 × FVec F S16 .f32 × FVec F S16 .f32 :=
  (accV1 G base 0 t, accV1 G base 1 t, accV1 G base 2 t, accV1 G base 3 t, accV1 G base 4 t, accV1 G base 5 t, accV1 G base 6 t, accV1 G base 7 t)

/-- The pooled sum before the activation at `(i, q)` of the task's result block, from the index array and the table. -/
def Spre1 (ids : S32x48x100.Idx → Elt F .i32) (emb : S100000x128.Idx → Elt F .f32) (w : Fin 32) (x : S96x128.Idx) : F .f32 :=
  lsum (fun l => embAt emb (rowNo (nch := 48) ids w (x 0).val (by have := (x 0).isLt; change _ < 96 at this; omega) l) (x 1)) 49

/-- The accumulator's rows below `n` hold the pooled sums. -/
def AccOK1 (ids : S32x48x100.Idx → Elt F .i32) (emb : S100000x128.Idx → Elt F .f32) (w : Fin 32) (n : ℕ)
    (fA : S96x128.Idx → Elt F .f32) : Prop :=
  ∀ x : S96x128.Idx, (x 0).val < n → fA x = Spre1 ids emb w x

/-- The accumulator's rows below `n` hold the activated values, the others the pooled sums. -/
def ActOK1 (inv zero : F .f32) (ids : S32x48x100.Idx → Elt F .i32) (emb : S100000x128.Idx → Elt F .f32) (w : Fin 32) (n : ℕ)
    (fA : S96x128.Idx → Elt F .f32) : Prop :=
  ∀ x : S96x128.Idx, fA x = if (x 0).val < n then FloatOps.maximumf (FloatOps.mulf (Spre1 ids emb w x) inv) zero else Spre1 ids emb w x

/-! ### Small facts the run's bookkeeping uses -/

omit [FloatOps F] in
/-- The table sliced whole is the table. -/
theorem embSl_set1 : (embSl1).view.set = Finset.univ := by
  show ((View.whole main_arg3_scv : View sig .scVector .hbm S100000x128 .f32).slice (Rect.unit (s := S100000x128) ![0, 0] S100000x128.size inb_S100000x128_S100000x128_0_0)).set = Finset.univ
  rw [View.set_slice_whole]
  ext i
  simp only [Rect.mem_set_unit, Finset.mem_univ, iff_true]
  intro a
  match a with
  | 0 => exact ⟨Nat.zero_le _, by simp; exact (i 0).isLt⟩
  | 1 => exact ⟨Nat.zero_le _, by simp; exact (i 1).isLt⟩

omit [FloatOps F] in
theorem pts_embSl1 (qe : PosShare TreeShare) (f : Buf (Elt F) (embLoc1 d)) :
    ((embW1).view.loc (thr1 d L) ↦[(embSl1).view.set]{qe} f : sProp 𝕄) = ((embW1).view.loc (thr1 d L) ↦{qe} f) := by
  rw [embSl_set1]

omit [FloatOps F] in
/-- A whole buffer written whole holds what was written. -/
theorem whole_writes1 (b : Ref sig .scVector) (f w : b.ty.Contents (Elt F)) :
    (Memref.whole b).view.writes (Elt F) f [⟨Rect.whole _, w⟩] = w :=
  Memref.write_access_whole_univ (Elt F) b f w

omit [FloatOps F] in
/-- The gather's payload over a row of the index scratch sliced at offsets `off` is the one over row `c` when `off` names it. -/
theorem gPay_off1 (emb : Buf (Elt F) (embLoc1 d)) (fi : Buf (Elt F) ((sIW1).view.loc (thr1 d L))) (hfi : IdxOK1 d L fi)
    (off : Fin 2 → Nat) (h : ∀ a, off a + S1x100.size a ≤ S48x100.size a) (c : Fin 48) (hoff : off = ![c.val, 0])
    (hn : S100.numel = S100x128.size gathers_S100000x128_S100x128.axis')
    (hin : ∀ x, ((offsP1 off h).view.read (Elt F) fi x).toNat < S100000x128.size gathers_S100000x128_S100x128.axis) :
    SparseCore.gatherPayload gathers_S100000x128_S100x128 ((embSl1).view.read (Elt F) emb)
        (SparseCore.rows ((offsP1 off h).view.read (Elt F) fi) hn hin) = gPay1 d L emb fi hfi c := by
  subst hoff; rfl

omit [FloatOps F] in
/-- Rows `a` and `b` back among the others, row `c` out. -/
theorem rows_shift1 (fi : Buf (Elt F) ((sIW1).view.loc (thr1 d L))) (a b c : Fin 48) (hab : a ≠ b) (hac : a ≠ c) (hbc : b ≠ c) :
    iprop(rowPts1 d L fi a ∗ rowPts1 d L fi b ∗ bigSep (((Finset.univ.erase a).erase b).erase c) fun j : Fin 48 => rowPts1 d L fi j)
      ⊢ (bigSep (Finset.univ.erase c) fun j : Fin 48 => rowPts1 d L fi j : sProp 𝕄) := by
  rw [SparseCore.bigSep_erase' (i := a) (s := Finset.univ.erase c) (Finset.mem_erase.mpr ⟨hac, Finset.mem_univ _⟩),
    SparseCore.bigSep_erase' (i := b) (s := (Finset.univ.erase c).erase a) (Finset.mem_erase.mpr ⟨hab.symm, Finset.mem_erase.mpr ⟨hbc, Finset.mem_univ _⟩⟩),
    show ((Finset.univ : Finset (Fin 48)).erase c).erase a = (Finset.univ.erase a).erase c from Finset.erase_right_comm,
    show (((Finset.univ : Finset (Fin 48)).erase a).erase c).erase b = ((Finset.univ.erase a).erase b).erase c from Finset.erase_right_comm]

omit [FloatOps F] in
/-- The last two rows back: every row. -/
theorem rows_all1 (fi : Buf (Elt F) ((sIW1).view.loc (thr1 d L))) (a b : Fin 48) (hab : a ≠ b) :
    iprop(rowPts1 d L fi a ∗ rowPts1 d L fi b ∗ bigSep ((Finset.univ.erase a).erase b) fun j : Fin 48 => rowPts1 d L fi j)
      ⊢ ((sIW1).view.loc (thr1 d L) ↦{fullShare} fi : sProp 𝕄) := by
  rw [idsv_rows1, SparseCore.bigSep_erase' (i := a) (s := Finset.univ) (Finset.mem_univ _),
    SparseCore.bigSep_erase' (i := b) (s := Finset.univ.erase a) (Finset.mem_erase.mpr ⟨hab.symm, Finset.mem_univ _⟩)]

theorem lsum_congr1 (f g : ℕ → F .f32) (n : ℕ) (h : ∀ l, l ≤ n → f l = g l) : lsum f n = lsum g n := by
  induction n with
  | zero => exact h 0 (Nat.le_refl _)
  | succ n ih => rw [lsum_succ, lsum_succ, ih (fun l hl => h l (Nat.le_succ_of_le hl)), h (n + 1) (Nat.le_refl _)]

end Tile1
end Cert.Proof.KB
end
-- ==== Proof.B.Val1A.lean ====
/-
  The values a pooling task's gathers land: the index scratch holds the task's row of the index array, so row `c` of
  the scratch names, position by position, the table rows the index array names at `(w, c, ·)`; a gather over that row
  lands, at `(r, q)`, lane `q` of the table's row named at `(w, c, r)`.
-/
import proofs.«204104_g71330816851969_cont_9to1_m_219_17_alg».proof.Proof.B.Tile1Defs

noncomputable section
namespace Cert.Proof.KB
open Cert.Kernel Cert.Kernel.Gen
open Idealize.ShloMosaic
open Idealize.ShloMosaic.SparseCore (S V T)
open Idealize.SL Idealize.SL.Sem

variable {F : FTy → Type} [FloatOps F]
section Tile1
variable (d : Dev nD) (L : grid1.Coords)

omit [FloatOps F] in
/-- A position of a list of 100 re-indexed as one row of 100: row 0, the same position. -/
theorem rsh_100_1 (h : S100.numel = S1x100.numel) (x : S100.Idx) :
    Shape.reshapeEquiv h x = Shape.pair (d := ![1, 100]) (0 : Fin 1) (x 0) := by
  refine Shape.reshapeEquiv_eq_of_rowMajor h ?_
  rw [Shape.rowMajor_val_two, Shape.rowMajor_val_one]
  show (0 : ℕ) * 100 + (x 0).val = (x 0).val
  omega

omit [FloatOps F] in
/-- An index of [48,100] re-indexed as one slab of [1,48,100]: slab 0, the same coordinates. -/
theorem rsh_48x100 (h : S48x100.numel = S1x48x100.numel) (y : S48x100.Idx) :
    Shape.reshapeEquiv h y = ix3 (a := 1) (b := 48) (c := 100) (0 : Fin 1) (y 0) (y 1) := by
  refine Shape.reshapeEquiv_eq_of_rowMajor h ?_
  rw [Shape.rowMajor_val_three, Shape.rowMajor_val_two]
  show ((0 : ℕ) * 48 + (y 0).val) * 100 + (y 1).val = (y 0).val * 100 + (y 1).val
  omega

omit [FloatOps F] in
/-- Position `r` of row `c` of the index scratch, once the task's row of the index array has landed in it, is the
    index array at `(w, c, r)`. -/
theorem offs_read1 (ids : Buf (Elt F) (idsLoc1 d)) (fI : Buf (Elt F) ((sIW1).view.loc (thr1 d L))) (c : Fin 48) (x : S100.Idx)
    (r : ℕ) (hr : r < 100) (hx : (x 0).val = r) :
    (offsP1 ![c.val, 0] (inbRow1 c)).view.read (Elt F) (View.write (Elt F) (sIW1).view fI (idsPay1 d L ids) Finset.univ) x
      = ids (ix3 (a := 32) (b := 48) (c := 100) (wL1 L) c ⟨r, hr⟩) := by
  have hw : View.write (Elt F) (sIW1).view fI (idsPay1 d L ids) Finset.univ = idsPay1 d L ids := View.write_whole_univ _ _ _
  rw [hw, View.read_apply]
  refine (cast_eq _ _).trans ?_
  unfold idsPay1
  rw [View.read_apply]
  refine (cast_eq _ _).trans ?_
  refine congrArg ids ?_
  funext b; apply Fin.ext
  simp only [Memref.view_slice, Memref.view_whole, Memref.view_squeeze, View.emb_slice, View.emb_whole, View.emb_reshape,
    Function.Embedding.trans_apply, Function.Embedding.refl_apply, Equiv.coe_toEmbedding, Rect.emb_apply, rsh_100_1, rsh_48x100]
  show ((idsRect1 L).emb (Shape.reshapeEquiv _ ((Rect.unit (s := S48x100) ![c.val, 0] S1x100.size (inbRow1 c)).emb (Shape.reshapeEquiv _ x))) b).val = _
  rw [Rect.emb_apply, rsh_48x100, rsh_100_1]
  match b with
  | ⟨0, hb⟩ =>
    show (k1_off1 L) 0 + 1 * 0 = 16 * (L 0).val + (L 1).val
    rw [k1_off1_eq]; rfl
  | ⟨1, hb⟩ =>
    show (k1_off1 L) 1 + 1 * ((Rect.unit (s := S48x100) ![c.val, 0] S1x100.size (inbRow1 c)).emb (Shape.pair (d := ![1, 100]) (0 : Fin 1) (x 0)) 0).val = c.val
    rw [k1_off1_eq, Rect.emb_apply]
    show 0 + 1 * (c.val + 1 * 0) = c.val
    omega
  | ⟨2, hb⟩ =>
    show (k1_off1 L) 2 + 1 * ((Rect.unit (s := S48x100) ![c.val, 0] S1x100.size (inbRow1 c)).emb (Shape.pair (d := ![1, 100]) (0 : Fin 1) (x 0)) 1).val = r
    rw [k1_off1_eq, Rect.emb_apply]
    show 0 + 1 * (0 + 1 * (x 0).val) = r
    omega

omit [FloatOps F] in
/-- The row an offset list names for position `k`: the word at `k`, as a natural number. -/
theorem rows_val1 {o z : ℕ} (idx : S100.Idx → Elt F .i32) (hn : S100.numel = o) (h : ∀ x, (idx x).toNat < z) (k : Fin o) :
    (SparseCore.rows idx hn h k).val = (idx (S100.rowMajor.symm (k.cast hn.symm))).toNat := rfl

omit [FloatOps F] in
/-- The index of a list of 100 at row-major position `k` has coordinate `k`. -/
theorem symm_coord1 (k : Fin S100.numel) : ((S100.rowMajor.symm k) 0).val = k.val := by
  have h := Shape.rowMajor_val_one (d := ![100]) (S100.rowMajor.symm k)
  rw [Equiv.apply_symm_apply] at h
  exact h.symm

/-- What a gather over row `c` of the index scratch lands at `(r, q)`: lane `q` of the table's row named by the index
    array at `(w, c, r)`. -/
theorem gPay_apply1 (ids : Buf (Elt F) (idsLoc1 d)) (emb : Buf (Elt F) (embLoc1 d)) (fI : Buf (Elt F) ((sIW1).view.loc (thr1 d L)))
    (hfi : IdxOK1 d L (View.write (Elt F) (sIW1).view fI (idsPay1 d L ids) Finset.univ)) (c : Fin 48) (r q : ℕ) (hr : r < 100) (hq : q < 128) :
    Gat1 (gPay1 d L emb (View.write (Elt F) (sIW1).view fI (idsPay1 d L ids) Finset.univ) hfi c) r q
      = embAt emb (show BitVec 32 from ids (ix3 (wL1 L) c ⟨r, hr⟩)).toNat ⟨q, hq⟩ := by
  unfold Gat1 gPay1 SparseCore.gatherPayload embAt
  rw [View.read_apply]
  refine (cast_eq _ _).trans (congrArg emb ?_)
  have hr' : r % 100 = r := Nat.mod_eq_of_lt hr
  have hq' : q % 128 = q := Nat.mod_eq_of_lt hq
  funext b; apply Fin.ext
  show ((Rect.unit (s := S100000x128) ![0, 0] S100000x128.size inb_S100000x128_S100000x128_0_0).emb (gathers_S100000x128_S100x128.idx _ _) b).val = _
  rw [Rect.emb_apply]
  match b with
  | ⟨1, hb⟩ =>
    show 0 + 1 * (gathers_S100000x128_S100x128.idx _ _ ⟨1, hb⟩).val = q
    rw [Shape.Gathers.idx_of_ne _ _ _ ⟨1, hb⟩ Nat.one_ne_zero]
    show 0 + 1 * (q % 128) = q
    omega
  | ⟨0, hb⟩ =>
    show 0 + 1 * (Shape.Gathers.idx gathers_S100000x128_S100x128 _ _ ⟨0, hb⟩).val = _
    unfold Shape.Gathers.idx
    rw [dif_pos rfl, Fin.val_cast]
    let k : Fin (S100x128.size gathers_S100000x128_S100x128.axis') :=
      (Shape.pair (d := ![100, 128]) ⟨r % 100, Nat.mod_lt _ (by decide)⟩ ⟨q % 128, Nat.mod_lt _ (by decide)⟩ : S100x128.Idx) gathers_S100000x128_S100x128.axis'
    let x : S100.Idx := S100.rowMajor.symm (Fin.cast (by rfl) k)
    have hx : (x 0).val = r := by
      show ((S100.rowMajor.symm (Fin.cast _ k)) 0).val = r
      rw [symm_coord1]; exact hr'
    have hrd := offs_read1 d L ids fI c x r hr hx
    have hn := hfi ![c.val, 0] (inbRow1 c) x
    rw [hrd] at hn
    show 0 + 1 * BitVec.toNat ((offsP1 ![c.val, 0] (inbRow1 c)).view.read (Elt F) (View.write (Elt F) (sIW1).view fI (idsPay1 d L ids) Finset.univ) x)
      = BitVec.toNat (ids (ix3 (wL1 L) c ⟨r, hr⟩)) % 100000
    rw [hrd, Nat.mod_eq_of_lt hn]; omega

end Tile1
end Cert.Proof.KB
end
-- ==== Proof.B.Val1B.lean ====
/-
  Reads and writes of sixteen-lane groups through the task's whole scratch buffers: a group read off a rows buffer or
  off the accumulator is the buffer's contents at the row and the sixteen columns the offsets name, and a group
  stored into the accumulator replaces those sixteen elements and leaves the others.
-/
import proofs.«204104_g71330816851969_cont_9to1_m_219_17_alg».proof.Proof.B.Tile1Defs
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Val1B

variable (d : Dev nD) (L : grid1.Coords)

/-- The index of the one-row, sixteen-column group under lane `lane`. -/
def laneIx1 (lane : S16.Idx) : S1x16.Idx :=
  Shape.pair (d := ![1, 16]) ⟨0, by decide⟩ ⟨(lane 0).val, (lane 0).isLt⟩

omit [FloatOps F] in
theorem laneIx_rowMajor1 (lane : S16.Idx) : (S1x16.rowMajor (laneIx1 lane)).val = (S16.rowMajor lane).val := by
  rw [Shape.rowMajor_val_two, Shape.rowMajor_val_one]
  show 0 * 16 + (lane 0).val = (lane 0).val
  omega

/-- A sixteen-lane group read off the first rows buffer at row `r`, columns `c0 …`. -/
theorem lane_read0_1 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR0W1).view (Rect.unit (s := S100x128) off S1x16.size h).toLoadRect G) hsc
      = fun lane => Gat1 G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx1 lane) (laneIx_rowMajor1 lane), View.readAt_apply, View.read_apply]
  unfold Gat1
  show G _ = G _
  congr 1
  funext a; apply Fin.ext
  match a with
  | 0 => show r + 1 * 0 = r % 100; omega
  | 1 => show c0 + 1 * (lane 0).val = (c0 + (lane 0).val) % 128; omega

/-- The same off the second rows buffer. -/
theorem lane_read1_1 (G : S100x128.Idx → Elt F .f32) (off : Fin 2 → ℕ) (h : ∀ a, off a + S1x16.size a ≤ S100x128.size a) (r c0 : ℕ)
    (hoff : off = ![r, c0]) (hsc : S1x16.ShapeCasts S16) :
    shapeCast S16 (View.readAt (Elt F) (sR1W1).view (Rect.unit (s := S100x128) off S1x16.size h).toLoadRect G) hsc
      = fun lane => Gat1 G r (c0 + (lane 0).val) := by
  subst hoff
  have hr : r + 1 ≤ 100 := h 0
  have hc : c0 + 16 ≤ 128 := h 1
  funext lane
  have hl : (lane 0).val < 16 := (lane 0).isLt
  rw [shapeCast_apply _ hsc lane (laneIx1 lane) (laneIx_rowMajor1 lane), View.readAt_apply, View.read_apply]
  unfold Gat1
  show G _ = G _
  congr 1
  funext a; apply Fin.ext
  match a with
  | 0 => show r + 1 * 0 = r % 100; omega
  | 1 => show c0 + 1 * (lane 0).val = (c0 + (lane 0).val) % 128; omega

omit [FloatOps F] in
/-- A sixteen-lane group read off the accumulator at row `i`, columns `c0 …`, lane by lane. -/
theorem lane_readA1 (f : S96x128.Idx → Elt F .f32) (off : Fin 2 → ℕ) (h : ∀ a, off a + S1x16.size a ≤ S96x128.size a) (i c0 : ℕ)
    (hoff : off = ![i, c0]) (hsc : S1x16.ShapeCasts S16) (lane : S16.Idx) :
    shapeCast S16 (View.readAt (Elt F) (sAW1).view (Rect.unit (s := S96x128) off S1x16.size h).toLoadRect f) hsc lane
      = f (Shape.pair (d := ![96, 128]) ⟨i % 96, Nat.mod_lt _ (by decide)⟩ ⟨(c0 + (lane 0).val) % 128, Nat.mod_lt _ (by decide)⟩) := by
  subst hoff
  have hr : i + 1 ≤ 96 := h 0
  have hc : c0 + 16 ≤ 128 := h 1
  have hl : (lane 0).val < 16 := (lane 0).isLt
  rw [shapeCast_apply _ hsc lane (laneIx1 lane) (laneIx_rowMajor1 lane), View.readAt_apply, View.read_apply]
  show f _ = f _
  congr 1
  funext a; apply Fin.ext
  match a with
  | 0 => show i + 1 * 0 = i % 96; omega
  | 1 => show c0 + 1 * (lane 0).val = (c0 + (lane 0).val) % 128; omega

omit [FloatOps F] in
/-- A sixteen-lane group stored into the accumulator at row `i`, columns `c0 …`, last of a run of stores: those sixteen
    elements are the group's lanes, every other element is what the earlier stores left. -/
theorem acc_piece_apply1 (f : S96x128.Idx → Elt F .f32) (off : Fin 2 → ℕ) (h : ∀ a, off a + S1x16.size a ≤ S96x128.size a) (i c0 : ℕ)
    (hoff : off = ![i, c0]) (v : FVec F S16 .f32) (hc : S16.ShapeCasts S1x16) (Lst : List (View.Piece (Elt F) S96x128 .f32)) (x : S96x128.Idx) :
    (sAW1).view.writes (Elt F) f (⟨Rect.unit (s := S96x128) off S1x16.size h, shapeCast S1x16 v hc⟩ :: Lst) x
      = if (x 0).val = i ∧ c0 ≤ (x 1).val ∧ (x 1).val < c0 + 16
        then v (Shape.ofLane (d := ![16]) ⟨((x 1).val - c0) % 16, Nat.mod_lt _ (by decide)⟩)
        else (sAW1).view.writes (Elt F) f Lst x := by
  subst hoff
  rw [View.writes_cons]
  by_cases hx : (x 0).val = i ∧ c0 ≤ (x 1).val ∧ (x 1).val < c0 + 16
  · rw [if_pos hx]
    obtain ⟨h0, h1, h2⟩ := hx
    -- the element's index within the group
    let y : S1x16.Idx := Shape.pair (d := ![1, 16]) ⟨0, by decide⟩ ⟨(x 1).val - c0, by show (x 1).val - c0 < 16; omega⟩
    have hxy : x = ((sAW1).view.slice (Rect.unit (s := S96x128) ![i, c0] S1x16.size h)).emb y := by
      funext a; apply Fin.ext
      match a with
      | 0 => show (x 0).val = i + 1 * 0; omega
      | 1 => show (x 1).val = c0 + 1 * ((x 1).val - c0); omega
    conv_lhs => rw [hxy]
    rw [View.write_emb_of_mem _ _ (Finset.mem_univ _)]
    show shapeCast S1x16 v hc y = _
    rw [shapeCast_apply _ hc y (Shape.ofLane (d := ![16]) ⟨((x 1).val - c0) % 16, Nat.mod_lt _ (by decide)⟩)
      (by rw [Shape.rowMajor_val_two, Shape.rowMajor_val_one]
          show ((x 1).val - c0) % 16 = 0 * 16 + ((x 1).val - c0); omega)]
  · rw [if_neg hx]
    refine View.write_of_not_mem _ _ _ ?_
    rw [View.setOn_univ]
    show x ∉ ((View.whole cc1_scratch3 : View sig .scVector .vmem S96x128 .f32).slice (Rect.unit (s := S96x128) ![i, c0] S1x16.size h)).set
    rw [View.set_slice_whole, Rect.mem_set_unit]
    intro hm
    have m0 := hm 0; have m1 := hm 1
    apply hx
    have e0 : (![i, c0] : Fin 2 → ℕ) 0 = i := rfl
    have e1 : (![i, c0] : Fin 2 → ℕ) 1 = c0 := rfl
    have s0 : S1x16.size 0 = 1 := rfl
    have s1 : S1x16.size 1 = 16 := rfl
    rw [e0, s0] at m0; rw [e1, s1] at m1
    exact ⟨by omega, m1.1, m1.2⟩

end Val1B
end Cert.Proof.KB
end
-- ==== Proof.B.Val1C.lean ====
/-
  The accumulator after one row of sixteen-lane groups is stored: the rows below and the new row hold the pooled
  sums; and the lane sums over a rows buffer are the pooled sums once the buffer holds the gathered table rows.
-/
import proofs.«204104_g71330816851969_cont_9to1_m_219_17_alg».proof.Proof.B.Val1B
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Val1C

variable (d : Dev nD) (L : grid1.Coords)

/-- One stored group's element is the pooled sum there, when the group's lanes are. -/
theorem group_val1 (ids : S32x48x100.Idx → Elt F .i32) (emb : S100000x128.Idx → Elt F .f32) (w : Fin 32) (i : ℕ) (hi : i < 96)
    (c0 : ℕ) (hc0 : c0 + 16 ≤ 128) (a : FVec F S16 .f32)
    (ha : ∀ lane : S16.Idx, a lane = Spre1 ids emb w (Shape.pair (d := ![96, 128]) ⟨i % 96, Nat.mod_lt _ (by decide)⟩ ⟨(c0 + (lane 0).val) % 128, Nat.mod_lt _ (by decide)⟩))
    (x : S96x128.Idx) (hx0 : (x 0).val = i) (h1 : c0 ≤ (x 1).val) (h2 : (x 1).val < c0 + 16) :
    a (Shape.ofLane (d := ![16]) ⟨((x 1).val - c0) % 16, Nat.mod_lt _ (by decide)⟩) = Spre1 ids emb w x := by
  rw [ha]
  congr 1
  funext b; apply Fin.ext
  match b with
  | 0 => show i % 96 = (x 0).val; omega
  | 1 => show (c0 + ((x 1).val - c0) % 16) % 128 = (x 1).val; omega

/-- ONE ROW of the accumulator stored, eight groups, the last store first: the rows up to and including it hold the
    pooled sums. -/
theorem acc_row_ok1 (ids : S32x48x100.Idx → Elt F .i32) (emb : S100000x128.Idx → Elt F .f32) (w : Fin 32) (f : S96x128.Idx → Elt F .f32) (i : ℕ) (hi : i < 96)
    (o0 o1 o2 o3 o4 o5 o6 o7 : Fin 2 → ℕ)
    (h0 : ∀ a, o0 a + S1x16.size a ≤ S96x128.size a) (h1 : ∀ a, o1 a + S1x16.size a ≤ S96x128.size a)
    (h2 : ∀ a, o2 a + S1x16.size a ≤ S96x128.size a) (h3 : ∀ a, o3 a + S1x16.size a ≤ S96x128.size a)
    (h4 : ∀ a, o4 a + S1x16.size a ≤ S96x128.size a) (h5 : ∀ a, o5 a + S1x16.size a ≤ S96x128.size a)
    (h6 : ∀ a, o6 a + S1x16.size a ≤ S96x128.size a) (h7 : ∀ a, o7 a + S1x16.size a ≤ S96x128.size a)
    (e0 : o0 = ![i, 0]) (e1 : o1 = ![i, 16]) (e2 : o2 = ![i, 32]) (e3 : o3 = ![i, 48]) (e4 : o4 = ![i, 64]) (e5 : o5 = ![i, 80])
    (e6 : o6 = ![i, 96]) (e7 : o7 = ![i, 112])
    (a0 a1 a2 a3 a4 a5 a6 a7 : FVec F S16 .f32) (hc : S16.ShapeCasts S1x16)
    (hf : AccOK1 ids emb w i f)
    (ha0 : ∀ lane : S16.Idx, a0 lane = Spre1 ids emb w (Shape.pair (d := ![96, 128]) ⟨i % 96, Nat.mod_lt _ (by decide)⟩ ⟨(0 + (lane 0).val) % 128, Nat.mod_lt _ (by decide)⟩))
    (ha1 : ∀ lane : S16.Idx, a1 lane = Spre1 ids emb w (Shape.pair (d := ![96, 128]) ⟨i % 96, Nat.mod_lt _ (by decide)⟩ ⟨(16 + (lane 0).val) % 128, Nat.mod_lt _ (by decide)⟩))
    (ha2 : ∀ lane : S16.Idx, a2 lane = Spre1 ids emb w (Shape.pair (d := ![96, 128]) ⟨i % 96, Nat.mod_lt _ (by decide)⟩ ⟨(32 + (lane 0).val) % 128, Nat.mod_lt _ (by decide)⟩))
    (ha3 : ∀ lane : S16.Idx, a3 lane = Spre1 ids emb w (Shape.pair (d := ![96, 128]) ⟨i % 96, Nat.mod_lt _ (by decide)⟩ ⟨(48 + (lane 0).val) % 128, Nat.mod_lt _ (by decide)⟩))
    (ha4 : ∀ lane : S16.Idx, a4 lane = Spre1 ids emb w (Shape.pair (d := ![96, 128]) ⟨i % 96, Nat.mod_lt _ (by decide)⟩ ⟨(64 + (lane 0).val) % 128, Nat.mod_lt _ (by decide)⟩))
    (ha5 : ∀ lane : S16.Idx, a5 lane = Spre1 ids emb w (Shape.pair (d := ![96, 128]) ⟨i % 96, Nat.mod_lt _ (by decide)⟩ ⟨(80 + (lane 0).val) % 128, Nat.mod_lt _ (by decide)⟩))
    (ha6 : ∀ lane : S16.Idx, a6 lane = Spre1 ids emb w (Shape.pair (d := ![96, 128]) ⟨i % 96, Nat.mod_lt _ (by decide)⟩ ⟨(96 + (lane 0).val) % 128, Nat.mod_lt _ (by decide)⟩))
    (ha7 : ∀ lane : S16.Idx, a7 lane = Spre1 ids emb w (Shape.pair (d := ![96, 128]) ⟨i % 96, Nat.mod_lt _ (by decide)⟩ ⟨(112 + (lane 0).val) % 128, Nat.mod_lt _ (by decide)⟩)) :
    AccOK1 ids emb w (i + 1) ((sAW1).view.writes (Elt F) f
      [⟨Rect.unit (s := S96x128) o7 S1x16.size h7, shapeCast S1x16 a7 hc⟩, ⟨Rect.unit (s := S96x128) o6 S1x16.size h6, shapeCast S1x16 a6 hc⟩,
       ⟨Rect.unit (s := S96x128) o5 S1x16.size h5, shapeCast S1x16 a5 hc⟩, ⟨Rect.unit (s := S96x128) o4 S1x16.size h4, shapeCast S1x16 a4 hc⟩,
       ⟨Rect.unit (s := S96x128) o3 S1x16.size h3, shapeCast S1x16 a3 hc⟩, ⟨Rect.unit (s := S96x128) o2 S1x16.size h2, shapeCast S1x16 a2 hc⟩,
       ⟨Rect.unit (s := S96x128) o1 S1x16.size h1, shapeCast S1x16 a1 hc⟩, ⟨Rect.unit (s := S96x128) o0 S1x16.size h0, shapeCast S1x16 a0 hc⟩]) := by
  intro x hx
  have hx1 : (x 1).val < 128 := (x 1).isLt
  rw [acc_piece_apply1 f o7 h7 i 112 e7, acc_piece_apply1 f o6 h6 i 96 e6, acc_piece_apply1 f o5 h5 i 80 e5, acc_piece_apply1 f o4 h4 i 64 e4,
    acc_piece_apply1 f o3 h3 i 48 e3, acc_piece_apply1 f o2 h2 i 32 e2, acc_piece_apply1 f o1 h1 i 16 e1, acc_piece_apply1 f o0 h0 i 0 e0, View.writes_nil]
  by_cases c7 : (x 0).val = i ∧ 112 ≤ (x 1).val ∧ (x 1).val < 112 + 16
  · rw [if_pos c7]; exact group_val1 ids emb w i hi 112 (by omega) a7 ha7 x c7.1 c7.2.1 c7.2.2
  rw [if_neg c7]
  by_cases c6 : (x 0).val = i ∧ 96 ≤ (x 1).val ∧ (x 1).val < 96 + 16
  · rw [if_pos c6]; exact group_val1 ids emb w i hi 96 (by omega) a6 ha6 x c6.1 c6.2.1 c6.2.2
  rw [if_neg c6]
  by_cases c5_1 : (x 0).val = i ∧ 80 ≤ (x 1).val ∧ (x 1).val < 80 + 16
  · rw [if_pos c5_1]; exact group_val1 ids emb w i hi 80 (by omega) a5 ha5 x c5_1.1 c5_1.2.1 c5_1.2.2
  rw [if_neg c5_1]
  by_cases c4_1 : (x 0).val = i ∧ 64 ≤ (x 1).val ∧ (x 1).val < 64 + 16
  · rw [if_pos c4_1]; exact group_val1 ids emb w i hi 64 (by omega) a4 ha4 x c4_1.1 c4_1.2.1 c4_1.2.2
  rw [if_neg c4_1]
  by_cases c3 : (x 0).val = i ∧ 48 ≤ (x 1).val ∧ (x 1).val < 48 + 16
  · rw [if_pos c3]; exact group_val1 ids emb w i hi 48 (by omega) a3 ha3 x c3.1 c3.2.1 c3.2.2
  rw [if_neg c3]
  by_cases c2 : (x 0).val = i ∧ 32 ≤ (x 1).val ∧ (x 1).val < 32 + 16
  · rw [if_pos c2]; exact group_val1 ids emb w i hi 32 (by omega) a2 ha2 x c2.1 c2.2.1 c2.2.2
  rw [if_neg c2]
  by_cases c1 : (x 0).val = i ∧ 16 ≤ (x 1).val ∧ (x 1).val < 16 + 16
  · rw [if_pos c1]; exact group_val1 ids emb w i hi 16 (by omega) a1 ha1 x c1.1 c1.2.1 c1.2.2
  rw [if_neg c1]
  by_cases c0 : (x 0).val = i ∧ 0 ≤ (x 1).val ∧ (x 1).val < 0 + 16
  · rw [if_pos c0]; exact group_val1 ids emb w i hi 0 (by omega) a0 ha0 x c0.1 c0.2.1 c0.2.2
  rw [if_neg c0]
  refine hf x ?_
  by_contra hge
  have hxi : (x 0).val = i := by omega
  have b7 : (x 1).val < 112 := by omega
  have b6 : (x 1).val < 96 := by omega
  have b5 : (x 1).val < 80 := by omega
  have b4 : (x 1).val < 64 := by omega
  have b3 : (x 1).val < 48 := by omega
  have b2 : (x 1).val < 32 := by omega
  have b1 : (x 1).val < 16 := by omega
  omega

/-- The lane sums over the fifty rows `50 b, …, 50 b + 49` of a rows buffer that holds the table rows chunk `c` of the
    index array names are the pooled sums of output row `2 c + b`. -/
theorem accV_Spre1 (G : S100x128.Idx → Elt F .f32) (ids : S32x48x100.Idx → Elt F .i32) (emb : S100000x128.Idx → Elt F .f32) (w : Fin 32) (c : Fin 48)
    (hG : ∀ (r q : ℕ) (hr : r < 100) (hq : q < 128), Gat1 G r q = embAt emb (show BitVec 32 from ids (ix3 w c ⟨r, hr⟩)).toNat ⟨q, hq⟩)
    (b : ℕ) (hb : b < 2) (j : ℕ) (hj : j < 8) (lane : S16.Idx) :
    accV1 G (50 * b) j 49 lane
      = Spre1 ids emb w (Shape.pair (d := ![96, 128]) ⟨(2 * c.val + b) % 96, Nat.mod_lt _ (by decide)⟩ ⟨(16 * j + (lane 0).val) % 128, Nat.mod_lt _ (by decide)⟩) := by
  have hl16 : (lane 0).val < 16 := (lane 0).isLt
  have hc : c.val < 48 := c.isLt
  unfold accV1 Spre1
  refine lsum_congr1 _ _ 49 fun l hl => ?_
  rw [hG (50 * b + l) (16 * j + (lane 0).val) (by omega) (by omega)]
  unfold rowNo
  have e1 : (⟨16 * j + (lane 0).val, by omega⟩ : Fin 128)
      = (Shape.pair (d := ![96, 128]) ⟨(2 * c.val + b) % 96, Nat.mod_lt _ (by decide)⟩ ⟨(16 * j + (lane 0).val) % 128, Nat.mod_lt _ (by decide)⟩ : S96x128.Idx) 1 :=
    Fin.ext (by show 16 * j + (lane 0).val = (16 * j + (lane 0).val) % 128; omega)
  rw [e1]
  congr 3
  show ids _ = ids _
  refine congrArg ids (congrArg₂ (ix3 w) (Fin.ext ?_) (Fin.ext ?_))
  · show c.val = (2 * c.val + b) % 96 / 2; omega
  · show 50 * b + l = (2 * c.val + b) % 96 % 2 * 50 + l % 50; omega

end Val1C
end Cert.Proof.KB
end
-- ==== Proof.B.Tile1Val.lean ====
/-
  The values through the streams' loop of the first pooling call's task: the loop's invariant with the accumulator's
  finished rows at the pooled sums, and the steps that keep it.
-/
import proofs.«204104_g71330816851969_cont_9to1_m_219_17_alg».proof.Proof.B.Val1A
import proofs.«204104_g71330816851969_cont_9to1_m_219_17_alg».proof.Proof.B.Val1C

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile1

variable (d : Dev nD) (L : grid1.Coords)

/-! ### The values through the streams' loop -/

/-- The index scratch's contents once the first copy has landed the task's row of the index array over `fI`. -/
abbrev fiOf1 (ids : Buf (Elt F) (idsLoc1 d)) (fI : Buf (Elt F) ((sIW1).view.loc (thr1 d L))) : Buf (Elt F) ((sIW1).view.loc (thr1 d L)) :=
  View.write (Elt F) (sIW1).view fI (idsPay1 d L ids) Finset.univ

/-- Before trip `k` of the streams' loop, with the values: as `outerInv1`, the accumulator's rows below `4k` at the pooled sums. -/
def outerInvV1 (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2)) (k : ℕ) (_ : PUnit) : sProp 𝕄 :=
  iprop(Transfers.MayWaits (thr1 d L) (none : HIx 2) O
    ∗ semVal (c5_1 d L) 0
    ∗ (∃ f1, (sR1W1).view.loc (thr1 d L) ↦{fullShare} f1)
    ∗ ((embW1).view.loc (thr1 d L) ↦{q.right} emb)
    ∗ (∃ fA, ⌜AccOK1 ids emb (wL1 L) (4 * k) fA⌝ ∗ (sAW1).view.loc (thr1 d L) ↦{fullShare} fA)
    ∗ (if k < 24 then iprop(flightC0_1 d L emb (fiOf1 d L ids fI) hfi (fin48 (2 * k)) q.left
          ∗ bigSep (Finset.univ.erase (fin48 (2 * k))) fun j => rowPts1 d L (fiOf1 d L ids fI) j)
       else iprop(semVal (c4_1 d L) 0 ∗ (∃ f0, (sR0W1).view.loc (thr1 d L) ↦{fullShare} f0)
          ∗ ((sIW1).view.loc (thr1 d L) ↦{fullShare} fiOf1 d L ids fI) ∗ ((embW1).view.loc (thr1 d L) ↦{q.left} emb)))
    ∗ ∃ W', ⌜∀ p ∈ W', p ∈ W ∨ p.2 = none⌝ ∗ owes (thr1 d L) O W')

/-- After the last trip: everything the streams used is back, the accumulator at the pooled sums. -/
theorem outerInvV_exit1 (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2)) (u : PUnit) :
    outerInvV1 d L ids emb fI hfi q O W (Scf.trips k1_t1_loop.lb k1_t1_loop.ub k1_t1_loop.st) u
      ⊢ iprop(Transfers.MayWaits (thr1 d L) (none : HIx 2) O
          ∗ semVal (c5_1 d L) 0
          ∗ (∃ f1, (sR1W1).view.loc (thr1 d L) ↦{fullShare} f1)
          ∗ ((embW1).view.loc (thr1 d L) ↦{q.right} emb)
          ∗ (∃ fA, ⌜AccOK1 ids emb (wL1 L) 96 fA⌝ ∗ (sAW1).view.loc (thr1 d L) ↦{fullShare} fA)
          ∗ (semVal (c4_1 d L) 0 ∗ (∃ f0, (sR0W1).view.loc (thr1 d L) ↦{fullShare} f0)
              ∗ ((sIW1).view.loc (thr1 d L) ↦{fullShare} fiOf1 d L ids fI) ∗ ((embW1).view.loc (thr1 d L) ↦{q.left} emb))
          ∗ ∃ W', ⌜∀ p ∈ W', p ∈ W ∨ p.2 = none⌝ ∗ owes (thr1 d L) O W') := by
  unfold outerInvV1
  rw [if_neg (by decide)]
  exact .rfl

omit [FloatOps F] in
theorem tuple8_eq1 {α : Type} {x0 x1 x2 x3 x4 x5 x6 x7 y0 y1 y2 y3 y4 y5 y6 y7 : α}
    (h0 : x0 = y0) (h1 : x1 = y1) (h2 : x2 = y2) (h3 : x3 = y3) (h4 : x4 = y4) (h5 : x5 = y5) (h6 : x6 = y6) (h7 : x7 = y7) :
    (x0, x1, x2, x3, x4, x5, x6, x7) = (y0, y1, y2, y3, y4, y5, y6, y7) := by
  subst h0 h1 h2 h3 h4 h5 h6 h7; rfl

/-- One more row of the first rows buffer added to a lane group. -/
theorem acc_step0_1 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV1 G base j t) (shapeCast S16 (View.readAt (Elt F) (sR0W1).view (Rect.unit (s := S100x128) off S1x16.size h).toLoadRect G) hsc)
      = accV1 G base j (t + 1) := by
  rw [lane_read0_1 G off h r c0 hoff hsc]; subst hc; exact accV_succ1 G base j t r hr
/-- One more row of the second rows buffer added to a lane group. -/
theorem acc_step1_1 (G : S100x128.Idx → Elt F .f32) (base j t : ℕ) (off : Fin 2 → ℕ) (h : ∀ a, off a + S1x16.size a ≤ S100x128.size a)
    (r c0 : ℕ) (hoff : off = ![r, c0]) (hr : r = base + (t + 1)) (hc : c0 = 16 * j) (hsc : S1x16.ShapeCasts S16) :
    addf (accV1 G base j t) (shapeCast S16 (View.readAt (Elt F) (sR1W1).view (Rect.unit (s := S100x128) off S1x16.size h).toLoadRect G) hsc)
      = accV1 G base j (t + 1) := by
  rw [lane_read1_1 G off h r c0 hoff hsc]; subst hc; exact accV_succ1 G base j t r hr

/-- The first row of a block of a rows buffer, as a lane group's starting value. -/
theorem acc_init0_1 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR0W1).view (Rect.unit (s := S100x128) off S1x16.size h).toLoadRect G) hsc = accV1 G base j 0 := by
  rw [lane_read0_1 G off h base c0 hoff hsc]; subst hc; rfl
theorem acc_init1_1 (G : S100x128.Idx → Elt F .f32) (base j : ℕ) (off : Fin 2 → ℕ) (h : ∀ a, off a + S1x16.size a ≤ S100x128.size a)
    (c0 : ℕ) (hoff : off = ![base, c0]) (hc : c0 = 16 * j) (hsc : S1x16.ShapeCasts S16) :
    shapeCast S16 (View.readAt (Elt F) (sR1W1).view (Rect.unit (s := S100x128) off S1x16.size h).toLoadRect G) hsc = accV1 G base j 0 := by
  rw [lane_read1_1 G off h base c0 hoff hsc]; subst hc; rfl

theorem accOK_cast1 (ids : S32x48x100.Idx → Elt F .i32) (emb : S100000x128.Idx → Elt F .f32) (w : Fin 32) {n m : ℕ} (h : n = m)
    {f : S96x128.Idx → Elt F .f32} (hf : AccOK1 ids emb w n f) : AccOK1 ids emb w m f := h ▸ hf

/-- One row of the accumulator stored from the eight lane sums of a block of fifty gathered rows: the pooled sums there. -/
theorem acc_row_ok'1 (ids : Buf (Elt F) (idsLoc1 d)) (emb : Buf (Elt F) (embLoc1 d)) (fI : Buf (Elt F) ((sIW1).view.loc (thr1 d L)))
    (hfi : IdxOK1 d L (fiOf1 d L ids fI)) (c : Fin 48) (b : ℕ) (hb : b < 2) (f : S96x128.Idx → Elt F .f32) (i : ℕ) (hi : i < 96) (hic : i = 2 * c.val + b)
    (o0 o1 o2 o3 o4 o5 o6 o7 : Fin 2 → ℕ)
    (h0 : ∀ a, o0 a + S1x16.size a ≤ S96x128.size a) (h1 : ∀ a, o1 a + S1x16.size a ≤ S96x128.size a) (h2 : ∀ a, o2 a + S1x16.size a ≤ S96x128.size a) (h3 : ∀ a, o3 a + S1x16.size a ≤ S96x128.size a) (h4 : ∀ a, o4 a + S1x16.size a ≤ S96x128.size a) (h5 : ∀ a, o5 a + S1x16.size a ≤ S96x128.size a) (h6 : ∀ a, o6 a + S1x16.size a ≤ S96x128.size a) (h7 : ∀ a, o7 a + S1x16.size a ≤ S96x128.size a)
    (e0 : o0 = ![i, 0]) (e1 : o1 = ![i, 16]) (e2 : o2 = ![i, 32]) (e3 : o3 = ![i, 48]) (e4 : o4 = ![i, 64]) (e5 : o5 = ![i, 80]) (e6 : o6 = ![i, 96]) (e7 : o7 = ![i, 112])
    (a0 a1 a2 a3 a4 a5 a6 a7 : FVec F S16 .f32) (hc : S16.ShapeCasts S1x16)
    (hf : AccOK1 ids emb (wL1 L) i f)
    (hacc : (a0, a1, a2, a3, a4, a5, a6, a7) = accs8_1 (gPay1 d L emb (fiOf1 d L ids fI) hfi c) (50 * b) 49) :
    AccOK1 ids emb (wL1 L) (i + 1) ((sAW1).view.writes (Elt F) f
      [⟨Rect.unit (s := S96x128) o7 S1x16.size h7, shapeCast S1x16 a7 hc⟩, ⟨Rect.unit (s := S96x128) o6 S1x16.size h6, shapeCast S1x16 a6 hc⟩, ⟨Rect.unit (s := S96x128) o5 S1x16.size h5, shapeCast S1x16 a5 hc⟩, ⟨Rect.unit (s := S96x128) o4 S1x16.size h4, shapeCast S1x16 a4 hc⟩, ⟨Rect.unit (s := S96x128) o3 S1x16.size h3, shapeCast S1x16 a3 hc⟩, ⟨Rect.unit (s := S96x128) o2 S1x16.size h2, shapeCast S1x16 a2 hc⟩, ⟨Rect.unit (s := S96x128) o1 S1x16.size h1, shapeCast S1x16 a1 hc⟩, ⟨Rect.unit (s := S96x128) o0 S1x16.size h0, shapeCast S1x16 a0 hc⟩]) := by
  simp only [accs8_1, Prod.mk.injEq] at hacc
  obtain ⟨rfl, rfl, rfl, rfl, rfl, rfl, rfl, rfl⟩ := hacc
  subst hic
  have hG := fun (r q : ℕ) (hr : r < 100) (hq : q < 128) => gPay_apply1 d L ids emb fI hfi c r q hr hq
  exact acc_row_ok1 ids emb (wL1 L) f _ hi o0 o1 o2 o3 o4 o5 o6 o7 h0 h1 h2 h3 h4 h5 h6 h7 e0 e1 e2 e3 e4 e5 e6 e7 _ _ _ _ _ _ _ _ hc hf
    (fun lane => accV_Spre1 _ ids emb (wL1 L) c hG b hb 0 (by decide) lane)
    (fun lane => accV_Spre1 _ ids emb (wL1 L) c hG b hb 1 (by decide) lane)
    (fun lane => accV_Spre1 _ ids emb (wL1 L) c hG b hb 2 (by decide) lane)
    (fun lane => accV_Spre1 _ ids emb (wL1 L) c hG b hb 3 (by decide) lane)
    (fun lane => accV_Spre1 _ ids emb (wL1 L) c hG b hb 4 (by decide) lane)
    (fun lane => accV_Spre1 _ ids emb (wL1 L) c hG b hb 5 (by decide) lane)
    (fun lane => accV_Spre1 _ ids emb (wL1 L) c hG b hb 6 (by decide) lane)
    (fun lane => accV_Spre1 _ ids emb (wL1 L) c hG b hb 7 (by decide) lane)

/-- A gather into the first rows buffer issued over the row of the index scratch sliced at `off`, as the run leaves it in
    flight, is the invariant's gather of chunk `c` when `off` names row `c`. -/
theorem flight_canon1 (emb : Buf (Elt F) (embLoc1 d)) (fi : Buf (Elt F) ((sIW1).view.loc (thr1 d L))) (hfi : IdxOK1 d L fi)
    (off : Fin 2 → Nat) (h : ∀ a, off a + S1x100.size a ≤ S48x100.size a) (c : Fin 48) (hoff : off = ![c.val, 0])
    (f0 : Buf (Elt F) ((sR0W1).view.loc (thr1 d L))) (g : S100x128.Idx → Elt F .f32) (hg : g = gPay1 d L emb fi hfi c) (qe : PosShare TreeShare) :
    (Transfers.Flight countersEmb (thr1 d L) (SemLoc.dma cc1_scratch4.sem) default 409600
      iprop((((sR0W1).view.loc (thr1 d L) ↦{fullShare} (sR0W1).view.writes (Elt F) f0 [⟨Rect.whole S100x128, g⟩])
          ∗ ((offsP1 off h).view.loc (thr1 d L) ↦[(offsP1 off h).view.set]{fullShare} fi))
        ∗ ((embW1).view.loc (thr1 d L) ↦[(embSl1).view.set]{qe} emb)) : sProp 𝕄)
      ⊢ (Transfers.Flight countersEmb (thr1 d L) (SemLoc.dma cc1_scratch4.sem) default 409600
          iprop((((sR0W1).view.loc (thr1 d L) ↦{fullShare} gPay1 d L emb fi hfi c) ∗ rowPts1 d L fi c)
            ∗ ((embW1).view.loc (thr1 d L) ↦{qe} emb)) : sProp 𝕄) := by
  refine Transfers.Flight_mono countersEmb (thr1 d L) ?_
  subst hg
  have E : (sR0W1).view.writes (Elt F) f0 [⟨Rect.whole S100x128, gPay1 d L emb fi hfi c⟩] = gPay1 d L emb fi hfi c :=
    whole_writes1 (F := F) cc1_scratch1 f0 _
  rw [pts_embSl1, pts_offsP1 (F := F) d L off h c hoff fi, E]

end Tile1
end Cert.Proof.KB
end
-- ==== Proof.B.Tile1Trip.lean ====
/-
  The streams' loop of the first pooling call's task, with the values: one trip from the loop's invariant to the invariant
  at the next trip — the two chunks' rows summed lane group by lane group into four rows of the accumulator —, while a later
  chunk remains to be fetched and at the last trip.
-/
import proofs.«204104_g71330816851969_cont_9to1_m_219_17_alg».proof.Proof.B.Tile1Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile1

variable (d : Dev nD) (L : grid1.Coords)

set_option maxHeartbeats 1600000 in
theorem trip1 (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2))
    (k : Fin k1_t1_loop.trips) (hk7 : k.val < 23) (acc : PUnit) :
    outerInvV1 d L ids emb fI hfi q O W k.val acc
      ⊢ wp frame (wpE (defs₀ (F := F)) 𝒱₀ (thr1 d L) none) Set.univ
          (k1_t1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 k acc)
          (outerInvV1 d L ids emb fI hfi q O W (k.val + 1)) := by
  have hk8 : k.val < 24 := by omega
  have hk8' : k.val + 1 < 24 := by omega
  have h1 : k1_cond1 k = 1#1 := by revert hk7; revert k; decide
  unfold outerInvV1
  rw [if_pos hk8, if_pos hk8']
  unfold flightC0_1
  iintro ⟨Hmw, Hc5, ⟨%f1, HR1⟩, HeR, ⟨%fA, %hAcc, HA⟩, ⟨Hfl, Hrows⟩, %W', %hW', HO⟩
  have hm1 : fin48 (2 * k.val + 1) ∈ (Finset.univ : Finset (Fin 48)).erase (fin48 (2 * k.val)) :=
    Finset.mem_erase.mpr ⟨fun e => by have := congrArg Fin.val e; simp only [fin48] at this; omega, Finset.mem_univ _⟩
  ihave H1 := (Entails.of_eq (SparseCore.bigSep_erase' hm1)) $$ Hrows
  icases H1 with ⟨Hrow1, Hrows⟩
  have e1 : (2 * k.val + 1) % 48 = 2 * k.val + 1 := by omega
  have hoff1 : k1_off2 k = ![(fin48 (2 * k.val + 1)).val, 0] := by
    show k1_off2 k = ![(2 * k.val + 1) % 48, 0]
    rw [k1_off2_eq, e1]
  ihave Hrow1' := (Entails.of_eq (pts_offsP1 (F := F) d L (k1_off2 k) (k1_off2_inb k) _ hoff1 _).symm) $$ Hrow1
  have hm2 : fin48 (2 * (k.val + 1)) ∈ ((Finset.univ : Finset (Fin 48)).erase (fin48 (2 * k.val))).erase (fin48 (2 * k.val + 1)) :=
    Finset.mem_erase.mpr ⟨fun e => by have := congrArg Fin.val e; simp only [fin48] at this; omega,
      Finset.mem_erase.mpr ⟨fun e => by have := congrArg Fin.val e; simp only [fin48] at this; omega, Finset.mem_univ _⟩⟩
  ihave H2 := (Entails.of_eq (SparseCore.bigSep_erase' hm2)) $$ Hrows
  icases H2 with ⟨Hrow2, Hrows⟩
  have e2 : (2 * (k.val + 1)) % 48 = 2 * k.val + 2 := by omega
  have hoff2 : k1_off28 k = ![(fin48 (2 * (k.val + 1))).val, 0] := by
    show k1_off28 k = ![(2 * (k.val + 1)) % 48, 0]
    rw [k1_off28_eq, e2]
  ihave Hrow2' := (Entails.of_eq (pts_offsP1 (F := F) d L (k1_off28 k) (k1_off28_inb k h1) _ hoff2 _).symm) $$ Hrow2
  have hfi' : ∀ (row : Fin 2 → ℕ) (hk : ∀ a, row a + S1x100.size a ≤ S48x100.size a) (x : S100.Idx),
      (View.read (Elt F) (((Memref.whole cc1_scratch0 : Memref sig .scVector .vmem S48x100 .i32).slice (Rect.unit (s := S48x100) row S1x100.size hk) (fun _ => rfl)).squeeze S100 squeezes_S1x100_S100).view (fiOf1 d L ids fI) x).toNat < 100000 := hfi
  unfold k1_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 0 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 0 0 t.val _ _ _ _ (k1_off4_eq t) (by omega) rfl _)
        (acc_step0_1 (gPay1 d L emb (fiOf1 d L ids fI) hfi (fin48 (2 * k.val))) 0 1 t.val _ _ _ _ (k1_off5_eq t) (by omega) rfl _)
        (acc_step0_1 (gPay1 d L emb (fiOf1 d L ids fI) hfi (fin48 (2 * k.val))) 0 2 t.val _ _ _ _ (k1_off6_eq t) (by omega) rfl _)
        (acc_step0_1 (gPay1 d L emb (fiOf1 d L ids fI) hfi (fin48 (2 * k.val))) 0 3 t.val _ _ _ _ (k1_off7_eq t) (by omega) rfl _)
        (acc_step0_1 (gPay1 d L emb (fiOf1 d L ids fI) hfi (fin48 (2 * k.val))) 0 4 t.val _ _ _ _ (k1_off8_eq t) (by omega) rfl _)
        (acc_step0_1 (gPay1 d L emb (fiOf1 d L ids fI) hfi (fin48 (2 * k.val))) 0 5 t.val _ _ _ _ (k1_off9_eq t) (by omega) rfl _)
        (acc_step0_1 (gPay1 d L emb (fiOf1 d L ids fI) hfi (fin48 (2 * k.val))) 0 6 t.val _ _ _ _ (k1_off10_eq t) (by omega) rfl _)
        (acc_step0_1 (gPay1 d L emb (fiOf1 d L ids fI) hfi (fin48 (2 * k.val))) 0 7 t.val _ _ _ _ (k1_off11_eq t) (by omega) rfl _)
    · iexact HR
  · isplitr
    · ipureintro
      exact tuple8_eq1
        (acc_init0_1 (gPay1 d L emb (fiOf1 d L ids fI) hfi (fin48 (2 * k.val))) 0 0 _ _ 0 rfl rfl _)
        (acc_init0_1 (gPay1 d L emb (fiOf1 d L ids fI) hfi (fin48 (2 * k.val))) 0 1 _ _ 16 rfl rfl _)
        (acc_init0_1 (gPay1 d L emb (fiOf1 d L ids fI) hfi (fin48 (2 * k.val))) 0 2 _ _ 32 rfl rfl _)
        (acc_init0_1 (gPay1 d L emb (fiOf1 d L ids fI) hfi (fin48 (2 * k.val))) 0 3 _ _ 48 rfl rfl _)
        (acc_init0_1 (gPay1 d L emb (fiOf1 d L ids fI) hfi (fin48 (2 * k.val))) 0 4 _ _ 64 rfl rfl _)
        (acc_init0_1 (gPay1 d L emb (fiOf1 d L ids fI) hfi (fin48 (2 * k.val))) 0 5 _ _ 80 rfl rfl _)
        (acc_init0_1 (gPay1 d L emb (fiOf1 d L ids fI) hfi (fin48 (2 * k.val))) 0 6 _ _ 96 rfl rfl _)
        (acc_init0_1 (gPay1 d L emb (fiOf1 d L ids fI) hfi (fin48 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 50 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 50 0 t.val _ _ _ _ (k1_off20_eq t) (by omega) rfl _)
        (acc_step0_1 (gPay1 d L emb (fiOf1 d L ids fI) hfi (fin48 (2 * k.val))) 50 1 t.val _ _ _ _ (k1_off21_eq t) (by omega) rfl _)
        (acc_step0_1 (gPay1 d L emb (fiOf1 d L ids fI) hfi (fin48 (2 * k.val))) 50 2 t.val _ _ _ _ (k1_off22_eq t) (by omega) rfl _)
        (acc_step0_1 (gPay1 d L emb (fiOf1 d L ids fI) hfi (fin48 (2 * k.val))) 50 3 t.val _ _ _ _ (k1_off23_eq t) (by omega) rfl _)
        (acc_step0_1 (gPay1 d L emb (fiOf1 d L ids fI) hfi (fin48 (2 * k.val))) 50 4 t.val _ _ _ _ (k1_off24_eq t) (by omega) rfl _)
        (acc_step0_1 (gPay1 d L emb (fiOf1 d L ids fI) hfi (fin48 (2 * k.val))) 50 5 t.val _ _ _ _ (k1_off25_eq t) (by omega) rfl _)
        (acc_step0_1 (gPay1 d L emb (fiOf1 d L ids fI) hfi (fin48 (2 * k.val))) 50 6 t.val _ _ _ _ (k1_off26_eq t) (by omega) rfl _)
        (acc_step0_1 (gPay1 d L emb (fiOf1 d L ids fI) hfi (fin48 (2 * k.val))) 50 7 t.val _ _ _ _ (k1_off27_eq t) (by omega) rfl _)
    · iexact HR
  · isplitr
    · ipureintro
      exact tuple8_eq1
        (acc_init0_1 (gPay1 d L emb (fiOf1 d L ids fI) hfi (fin48 (2 * k.val))) 50 0 _ _ 0 rfl rfl _)
        (acc_init0_1 (gPay1 d L emb (fiOf1 d L ids fI) hfi (fin48 (2 * k.val))) 50 1 _ _ 16 rfl rfl _)
        (acc_init0_1 (gPay1 d L emb (fiOf1 d L ids fI) hfi (fin48 (2 * k.val))) 50 2 _ _ 32 rfl rfl _)
        (acc_init0_1 (gPay1 d L emb (fiOf1 d L ids fI) hfi (fin48 (2 * k.val))) 50 3 _ _ 48 rfl rfl _)
        (acc_init0_1 (gPay1 d L emb (fiOf1 d L ids fI) hfi (fin48 (2 * k.val))) 50 4 _ _ 64 rfl rfl _)
        (acc_init0_1 (gPay1 d L emb (fiOf1 d L ids fI) hfi (fin48 (2 * k.val))) 50 5 _ _ 80 rfl rfl _)
        (acc_init0_1 (gPay1 d L emb (fiOf1 d L ids fI) hfi (fin48 (2 * k.val))) 50 6 _ _ 96 rfl rfl _)
        (acc_init0_1 (gPay1 d L emb (fiOf1 d L ids fI) hfi (fin48 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W1).view.writes (Elt F) f1 [⟨Rect.whole S100x128, trip1.sl.gather0 d L ids emb fI k hfi'⟩] = (gPay1 d L emb (fiOf1 d L ids fI) hfi (fin48 (2 * k.val + 1))) :=
    (whole_writes1 (F := F) cc1_scratch2 f1 _).trans (gPay_off1 (F := F) d L emb (fiOf1 d L ids fI) hfi (k1_off2 k) (k1_off2_inb k) _ hoff1 _ _)
  ihave HR1 := (Entails.of_eq (congrArg (fun f => ((sR1W1).view.loc (thr1 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 0 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 0 0 t.val _ _ _ _ (k1_off29_eq t) (by omega) rfl _)
        (acc_step1_1 (gPay1 d L emb (fiOf1 d L ids fI) hfi (fin48 (2 * k.val + 1))) 0 1 t.val _ _ _ _ (k1_off30_eq t) (by omega) rfl _)
        (acc_step1_1 (gPay1 d L emb (fiOf1 d L ids fI) hfi (fin48 (2 * k.val + 1))) 0 2 t.val _ _ _ _ (k1_off31_eq t) (by omega) rfl _)
        (acc_step1_1 (gPay1 d L emb (fiOf1 d L ids fI) hfi (fin48 (2 * k.val + 1))) 0 3 t.val _ _ _ _ (k1_off32_eq t) (by omega) rfl _)
        (acc_step1_1 (gPay1 d L emb (fiOf1 d L ids fI) hfi (fin48 (2 * k.val + 1))) 0 4 t.val _ _ _ _ (k1_off33_eq t) (by omega) rfl _)
        (acc_step1_1 (gPay1 d L emb (fiOf1 d L ids fI) hfi (fin48 (2 * k.val + 1))) 0 5 t.val _ _ _ _ (k1_off34_eq t) (by omega) rfl _)
        (acc_step1_1 (gPay1 d L emb (fiOf1 d L ids fI) hfi (fin48 (2 * k.val + 1))) 0 6 t.val _ _ _ _ (k1_off35_eq t) (by omega) rfl _)
        (acc_step1_1 (gPay1 d L emb (fiOf1 d L ids fI) hfi (fin48 (2 * k.val + 1))) 0 7 t.val _ _ _ _ (k1_off36_eq t) (by omega) rfl _)
    · iexact HR
  · isplitr
    · ipureintro
      exact tuple8_eq1
        (acc_init1_1 (gPay1 d L emb (fiOf1 d L ids fI) hfi (fin48 (2 * k.val + 1))) 0 0 _ _ 0 rfl rfl _)
        (acc_init1_1 (gPay1 d L emb (fiOf1 d L ids fI) hfi (fin48 (2 * k.val + 1))) 0 1 _ _ 16 rfl rfl _)
        (acc_init1_1 (gPay1 d L emb (fiOf1 d L ids fI) hfi (fin48 (2 * k.val + 1))) 0 2 _ _ 32 rfl rfl _)
        (acc_init1_1 (gPay1 d L emb (fiOf1 d L ids fI) hfi (fin48 (2 * k.val + 1))) 0 3 _ _ 48 rfl rfl _)
        (acc_init1_1 (gPay1 d L emb (fiOf1 d L ids fI) hfi (fin48 (2 * k.val + 1))) 0 4 _ _ 64 rfl rfl _)
        (acc_init1_1 (gPay1 d L emb (fiOf1 d L ids fI) hfi (fin48 (2 * k.val + 1))) 0 5 _ _ 80 rfl rfl _)
        (acc_init1_1 (gPay1 d L emb (fiOf1 d L ids fI) hfi (fin48 (2 * k.val + 1))) 0 6 _ _ 96 rfl rfl _)
        (acc_init1_1 (gPay1 d L emb (fiOf1 d L ids fI) hfi (fin48 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 50 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 50 0 t.val _ _ _ _ (k1_off45_eq t) (by omega) rfl _)
        (acc_step1_1 (gPay1 d L emb (fiOf1 d L ids fI) hfi (fin48 (2 * k.val + 1))) 50 1 t.val _ _ _ _ (k1_off46_eq t) (by omega) rfl _)
        (acc_step1_1 (gPay1 d L emb (fiOf1 d L ids fI) hfi (fin48 (2 * k.val + 1))) 50 2 t.val _ _ _ _ (k1_off47_eq t) (by omega) rfl _)
        (acc_step1_1 (gPay1 d L emb (fiOf1 d L ids fI) hfi (fin48 (2 * k.val + 1))) 50 3 t.val _ _ _ _ (k1_off48_eq t) (by omega) rfl _)
        (acc_step1_1 (gPay1 d L emb (fiOf1 d L ids fI) hfi (fin48 (2 * k.val + 1))) 50 4 t.val _ _ _ _ (k1_off49_eq t) (by omega) rfl _)
        (acc_step1_1 (gPay1 d L emb (fiOf1 d L ids fI) hfi (fin48 (2 * k.val + 1))) 50 5 t.val _ _ _ _ (k1_off50_eq t) (by omega) rfl _)
        (acc_step1_1 (gPay1 d L emb (fiOf1 d L ids fI) hfi (fin48 (2 * k.val + 1))) 50 6 t.val _ _ _ _ (k1_off51_eq t) (by omega) rfl _)
        (acc_step1_1 (gPay1 d L emb (fiOf1 d L ids fI) hfi (fin48 (2 * k.val + 1))) 50 7 t.val _ _ _ _ (k1_off52_eq t) (by omega) rfl _)
    · iexact HR
  · isplitr
    · ipureintro
      exact tuple8_eq1
        (acc_init1_1 (gPay1 d L emb (fiOf1 d L ids fI) hfi (fin48 (2 * k.val + 1))) 50 0 _ _ 0 rfl rfl _)
        (acc_init1_1 (gPay1 d L emb (fiOf1 d L ids fI) hfi (fin48 (2 * k.val + 1))) 50 1 _ _ 16 rfl rfl _)
        (acc_init1_1 (gPay1 d L emb (fiOf1 d L ids fI) hfi (fin48 (2 * k.val + 1))) 50 2 _ _ 32 rfl rfl _)
        (acc_init1_1 (gPay1 d L emb (fiOf1 d L ids fI) hfi (fin48 (2 * k.val + 1))) 50 3 _ _ 48 rfl rfl _)
        (acc_init1_1 (gPay1 d L emb (fiOf1 d L ids fI) hfi (fin48 (2 * k.val + 1))) 50 4 _ _ 64 rfl rfl _)
        (acc_init1_1 (gPay1 d L emb (fiOf1 d L ids fI) hfi (fin48 (2 * k.val + 1))) 50 5 _ _ 80 rfl rfl _)
        (acc_init1_1 (gPay1 d L emb (fiOf1 d L ids fI) hfi (fin48 (2 * k.val + 1))) 50 6 _ _ 96 rfl rfl _)
        (acc_init1_1 (gPay1 d L emb (fiOf1 d L ids fI) hfi (fin48 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok'1 (F := F) d L ids emb fI hfi (fin48 (2 * k.val)) 0 (by decide) fA (4 * k.val + 0) (by omega) (by show 4 * k.val + 0 = 2 * ((2 * k.val) % 48) + 0; omega)
      _ _ _ _ _ _ _ _
      (k1_off12_inb k 0) (k1_off13_inb k 0) (k1_off14_inb k 0) (k1_off15_inb k 0) (k1_off16_inb k 0) (k1_off17_inb k 0) (k1_off18_inb k 0) (k1_off19_inb k 0)
      (show k1_off12 k 0#32 = ![4 * k.val + 0, 0] from k1_off12_eq k ⟨0, by decide⟩)
      (show k1_off13 k 0#32 = ![4 * k.val + 0, 16] from k1_off13_eq k ⟨0, by decide⟩)
      (show k1_off14 k 0#32 = ![4 * k.val + 0, 32] from k1_off14_eq k ⟨0, by decide⟩)
      (show k1_off15 k 0#32 = ![4 * k.val + 0, 48] from k1_off15_eq k ⟨0, by decide⟩)
      (show k1_off16 k 0#32 = ![4 * k.val + 0, 64] from k1_off16_eq k ⟨0, by decide⟩)
      (show k1_off17 k 0#32 = ![4 * k.val + 0, 80] from k1_off17_eq k ⟨0, by decide⟩)
      (show k1_off18 k 0#32 = ![4 * k.val + 0, 96] from k1_off18_eq k ⟨0, by decide⟩)
      (show k1_off19 k 0#32 = ![4 * k.val + 0, 112] from k1_off19_eq k ⟨0, by decide⟩)
      _ _ _ _ _ _ _ _ shapeCasts_S16_S1x16 hAcc hacc2
  have r1 := acc_row_ok'1 (F := F) d L ids emb fI hfi (fin48 (2 * k.val)) 1 (by decide) _ (4 * k.val + 1) (by omega) (by show 4 * k.val + 1 = 2 * ((2 * k.val) % 48) + 1; omega)
      _ _ _ _ _ _ _ _
      (k1_off12_inb k 1) (k1_off13_inb k 1) (k1_off14_inb k 1) (k1_off15_inb k 1) (k1_off16_inb k 1) (k1_off17_inb k 1) (k1_off18_inb k 1) (k1_off19_inb k 1)
      (show k1_off12 k 1#32 = ![4 * k.val + 1, 0] from k1_off12_eq k ⟨1, by decide⟩)
      (show k1_off13 k 1#32 = ![4 * k.val + 1, 16] from k1_off13_eq k ⟨1, by decide⟩)
      (show k1_off14 k 1#32 = ![4 * k.val + 1, 32] from k1_off14_eq k ⟨1, by decide⟩)
      (show k1_off15 k 1#32 = ![4 * k.val + 1, 48] from k1_off15_eq k ⟨1, by decide⟩)
      (show k1_off16 k 1#32 = ![4 * k.val + 1, 64] from k1_off16_eq k ⟨1, by decide⟩)
      (show k1_off17 k 1#32 = ![4 * k.val + 1, 80] from k1_off17_eq k ⟨1, by decide⟩)
      (show k1_off18 k 1#32 = ![4 * k.val + 1, 96] from k1_off18_eq k ⟨1, by decide⟩)
      (show k1_off19 k 1#32 = ![4 * k.val + 1, 112] from k1_off19_eq k ⟨1, by decide⟩)
      _ _ _ _ _ _ _ _ shapeCasts_S16_S1x16 r0 hacc3
  have r2 := acc_row_ok'1 (F := F) d L ids emb fI hfi (fin48 (2 * k.val + 1)) 0 (by decide) _ (4 * k.val + 0 + 2) (by omega) (by show 4 * k.val + 0 + 2 = 2 * ((2 * k.val + 1) % 48) + 0; omega)
      _ _ _ _ _ _ _ _
      (k1_off37_inb k 0) (k1_off38_inb k 0) (k1_off39_inb k 0) (k1_off40_inb k 0) (k1_off41_inb k 0) (k1_off42_inb k 0) (k1_off43_inb k 0) (k1_off44_inb k 0)
      (show k1_off37 k 0#32 = ![4 * k.val + 0 + 2, 0] from k1_off37_eq k ⟨0, by decide⟩)
      (show k1_off38 k 0#32 = ![4 * k.val + 0 + 2, 16] from k1_off38_eq k ⟨0, by decide⟩)
      (show k1_off39 k 0#32 = ![4 * k.val + 0 + 2, 32] from k1_off39_eq k ⟨0, by decide⟩)
      (show k1_off40 k 0#32 = ![4 * k.val + 0 + 2, 48] from k1_off40_eq k ⟨0, by decide⟩)
      (show k1_off41 k 0#32 = ![4 * k.val + 0 + 2, 64] from k1_off41_eq k ⟨0, by decide⟩)
      (show k1_off42 k 0#32 = ![4 * k.val + 0 + 2, 80] from k1_off42_eq k ⟨0, by decide⟩)
      (show k1_off43 k 0#32 = ![4 * k.val + 0 + 2, 96] from k1_off43_eq k ⟨0, by decide⟩)
      (show k1_off44 k 0#32 = ![4 * k.val + 0 + 2, 112] from k1_off44_eq k ⟨0, by decide⟩)
      _ _ _ _ _ _ _ _ shapeCasts_S16_S1x16 (accOK_cast1 ids emb (wL1 L) (by omega) r1) hacc4
  have r3 := acc_row_ok'1 (F := F) d L ids emb fI hfi (fin48 (2 * k.val + 1)) 1 (by decide) _ (4 * k.val + 1 + 2) (by omega) (by show 4 * k.val + 1 + 2 = 2 * ((2 * k.val + 1) % 48) + 1; omega)
      _ _ _ _ _ _ _ _
      (k1_off37_inb k 1) (k1_off38_inb k 1) (k1_off39_inb k 1) (k1_off40_inb k 1) (k1_off41_inb k 1) (k1_off42_inb k 1) (k1_off43_inb k 1) (k1_off44_inb k 1)
      (show k1_off37 k 1#32 = ![4 * k.val + 1 + 2, 0] from k1_off37_eq k ⟨1, by decide⟩)
      (show k1_off38 k 1#32 = ![4 * k.val + 1 + 2, 16] from k1_off38_eq k ⟨1, by decide⟩)
      (show k1_off39 k 1#32 = ![4 * k.val + 1 + 2, 32] from k1_off39_eq k ⟨1, by decide⟩)
      (show k1_off40 k 1#32 = ![4 * k.val + 1 + 2, 48] from k1_off40_eq k ⟨1, by decide⟩)
      (show k1_off41 k 1#32 = ![4 * k.val + 1 + 2, 64] from k1_off41_eq k ⟨1, by decide⟩)
      (show k1_off42 k 1#32 = ![4 * k.val + 1 + 2, 80] from k1_off42_eq k ⟨1, by decide⟩)
      (show k1_off43 k 1#32 = ![4 * k.val + 1 + 2, 96] from k1_off43_eq k ⟨1, by decide⟩)
      (show k1_off44 k 1#32 = ![4 * k.val + 1 + 2, 112] from k1_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl1 (F := F) d L _ _)); iexact HeR
  isplitl [HA]
  · iexists _; isplitr
    rotate_left
    · iexact HA
    · ipureintro; exact accOK_cast1 ids emb (wL1 L) (by omega) r3
  isplitl [Hfl Hrow0 Hrow1' Hrows]
  · isplitl [Hfl]
    · iapply (flight_canon1 (F := F) d L emb (fiOf1 d L ids fI) hfi (k1_off28 k) (k1_off28_inb k h1) _ hoff2 _ _ (gPay_off1 (F := F) d L emb (fiOf1 d L ids fI) hfi (k1_off28 k) (k1_off28_inb k h1) _ hoff2 _ _) _)
      iexact Hfl
    · iapply (rows_shift1 (F := F) d L (fiOf1 d L ids fI) (fin48 (2 * k.val)) (fin48 (2 * k.val + 1)) (fin48 (2 * (k.val + 1)))
        (fun e => by have := congrArg Fin.val e; simp only [fin48] at this; omega)
        (fun e => by have := congrArg Fin.val e; simp only [fin48] at this; omega)
        (fun e => by have := congrArg Fin.val e; simp only [fin48] at this; omega))
      isplitl [Hrow0]; · iexact Hrow0
      isplitl [Hrow1']; · iapply (Entails.of_eq (pts_offsP1 (F := F) d L (k1_off2 k) (k1_off2_inb k) _ hoff1 _)); iexact Hrow1'
      iexact Hrows
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

set_option maxHeartbeats 1600000 in
theorem trip1_last (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2))
    (k : Fin k1_t1_loop.trips) (hk7 : k.val = 23) (acc : PUnit) :
    outerInvV1 d L ids emb fI hfi q O W k.val acc
      ⊢ wp frame (wpE (defs₀ (F := F)) 𝒱₀ (thr1 d L) none) Set.univ
          (k1_t1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 k acc)
          (outerInvV1 d L ids emb fI hfi q O W (k.val + 1)) := by
  have hk8 : k.val < 24 := by omega
  have hk8' : ¬ (k.val + 1 < 24) := by omega
  have h1 : ¬ k1_cond1 k = 1#1 := by revert hk7; revert k; decide
  unfold outerInvV1
  rw [if_pos hk8, if_neg hk8']
  unfold flightC0_1
  iintro ⟨Hmw, Hc5, ⟨%f1, HR1⟩, HeR, ⟨%fA, %hAcc, HA⟩, ⟨Hfl, Hrows⟩, %W', %hW', HO⟩
  have hm1 : fin48 (2 * k.val + 1) ∈ (Finset.univ : Finset (Fin 48)).erase (fin48 (2 * k.val)) :=
    Finset.mem_erase.mpr ⟨fun e => by have := congrArg Fin.val e; simp only [fin48] at this; omega, Finset.mem_univ _⟩
  ihave H1 := (Entails.of_eq (SparseCore.bigSep_erase' hm1)) $$ Hrows
  icases H1 with ⟨Hrow1, Hrows⟩
  have e1 : (2 * k.val + 1) % 48 = 2 * k.val + 1 := by omega
  have hoff1 : k1_off2 k = ![(fin48 (2 * k.val + 1)).val, 0] := by
    show k1_off2 k = ![(2 * k.val + 1) % 48, 0]
    rw [k1_off2_eq, e1]
  ihave Hrow1' := (Entails.of_eq (pts_offsP1 (F := F) d L (k1_off2 k) (k1_off2_inb k) _ hoff1 _).symm) $$ Hrow1
  have hfi' : ∀ (row : Fin 2 → ℕ) (hk : ∀ a, row a + S1x100.size a ≤ S48x100.size a) (x : S100.Idx),
      (View.read (Elt F) (((Memref.whole cc1_scratch0 : Memref sig .scVector .vmem S48x100 .i32).slice (Rect.unit (s := S48x100) row S1x100.size hk) (fun _ => rfl)).squeeze S100 squeezes_S1x100_S100).view (fiOf1 d L ids fI) x).toNat < 100000 := hfi
  unfold k1_t1_body
  sl_exec_parts
  icases Hfl_dst with ⟨HR0, Hrow0⟩
  iclear HeR
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 0 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 0 0 t.val _ _ _ _ (k1_off4_eq t) (by omega) rfl _)
        (acc_step0_1 (gPay1 d L emb (fiOf1 d L ids fI) hfi (fin48 (2 * k.val))) 0 1 t.val _ _ _ _ (k1_off5_eq t) (by omega) rfl _)
        (acc_step0_1 (gPay1 d L emb (fiOf1 d L ids fI) hfi (fin48 (2 * k.val))) 0 2 t.val _ _ _ _ (k1_off6_eq t) (by omega) rfl _)
        (acc_step0_1 (gPay1 d L emb (fiOf1 d L ids fI) hfi (fin48 (2 * k.val))) 0 3 t.val _ _ _ _ (k1_off7_eq t) (by omega) rfl _)
        (acc_step0_1 (gPay1 d L emb (fiOf1 d L ids fI) hfi (fin48 (2 * k.val))) 0 4 t.val _ _ _ _ (k1_off8_eq t) (by omega) rfl _)
        (acc_step0_1 (gPay1 d L emb (fiOf1 d L ids fI) hfi (fin48 (2 * k.val))) 0 5 t.val _ _ _ _ (k1_off9_eq t) (by omega) rfl _)
        (acc_step0_1 (gPay1 d L emb (fiOf1 d L ids fI) hfi (fin48 (2 * k.val))) 0 6 t.val _ _ _ _ (k1_off10_eq t) (by omega) rfl _)
        (acc_step0_1 (gPay1 d L emb (fiOf1 d L ids fI) hfi (fin48 (2 * k.val))) 0 7 t.val _ _ _ _ (k1_off11_eq t) (by omega) rfl _)
    · iexact HR
  · isplitr
    · ipureintro
      exact tuple8_eq1
        (acc_init0_1 (gPay1 d L emb (fiOf1 d L ids fI) hfi (fin48 (2 * k.val))) 0 0 _ _ 0 rfl rfl _)
        (acc_init0_1 (gPay1 d L emb (fiOf1 d L ids fI) hfi (fin48 (2 * k.val))) 0 1 _ _ 16 rfl rfl _)
        (acc_init0_1 (gPay1 d L emb (fiOf1 d L ids fI) hfi (fin48 (2 * k.val))) 0 2 _ _ 32 rfl rfl _)
        (acc_init0_1 (gPay1 d L emb (fiOf1 d L ids fI) hfi (fin48 (2 * k.val))) 0 3 _ _ 48 rfl rfl _)
        (acc_init0_1 (gPay1 d L emb (fiOf1 d L ids fI) hfi (fin48 (2 * k.val))) 0 4 _ _ 64 rfl rfl _)
        (acc_init0_1 (gPay1 d L emb (fiOf1 d L ids fI) hfi (fin48 (2 * k.val))) 0 5 _ _ 80 rfl rfl _)
        (acc_init0_1 (gPay1 d L emb (fiOf1 d L ids fI) hfi (fin48 (2 * k.val))) 0 6 _ _ 96 rfl rfl _)
        (acc_init0_1 (gPay1 d L emb (fiOf1 d L ids fI) hfi (fin48 (2 * k.val))) 0 7 _ _ 112 rfl rfl _)
    · iexact HR0
  iintro %acc HI
  obtain ⟨a0, a1, a2, a3, a4, a5, a6, a7⟩ := acc
  icases HI with ⟨%hacc2, HR0⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val))) 50 t⌝ ∗ ((sR0W1).view.loc (thr1 d L) ↦{fullShare} (gPay1 d L emb (fiOf1 d L ids fI) hfi (fin48 (2 * k.val))))) : sProp 𝕄)) $$ [HR0]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step0_1 (gPay1 d L emb (fiOf1 d L ids fI) hfi (fin48 (2 * k.val))) 50 0 t.val _ _ _ _ (k1_off20_eq t) (by omega) rfl _)
        (acc_step0_1 (gPay1 d L emb (fiOf1 d L ids fI) hfi (fin48 (2 * k.val))) 50 1 t.val _ _ _ _ (k1_off21_eq t) (by omega) rfl _)
        (acc_step0_1 (gPay1 d L emb (fiOf1 d L ids fI) hfi (fin48 (2 * k.val))) 50 2 t.val _ _ _ _ (k1_off22_eq t) (by omega) rfl _)
        (acc_step0_1 (gPay1 d L emb (fiOf1 d L ids fI) hfi (fin48 (2 * k.val))) 50 3 t.val _ _ _ _ (k1_off23_eq t) (by omega) rfl _)
        (acc_step0_1 (gPay1 d L emb (fiOf1 d L ids fI) hfi (fin48 (2 * k.val))) 50 4 t.val _ _ _ _ (k1_off24_eq t) (by omega) rfl _)
        (acc_step0_1 (gPay1 d L emb (fiOf1 d L ids fI) hfi (fin48 (2 * k.val))) 50 5 t.val _ _ _ _ (k1_off25_eq t) (by omega) rfl _)
        (acc_step0_1 (gPay1 d L emb (fiOf1 d L ids fI) hfi (fin48 (2 * k.val))) 50 6 t.val _ _ _ _ (k1_off26_eq t) (by omega) rfl _)
        (acc_step0_1 (gPay1 d L emb (fiOf1 d L ids fI) hfi (fin48 (2 * k.val))) 50 7 t.val _ _ _ _ (k1_off27_eq t) (by omega) rfl _)
    · iexact HR
  · isplitr
    · ipureintro
      exact tuple8_eq1
        (acc_init0_1 (gPay1 d L emb (fiOf1 d L ids fI) hfi (fin48 (2 * k.val))) 50 0 _ _ 0 rfl rfl _)
        (acc_init0_1 (gPay1 d L emb (fiOf1 d L ids fI) hfi (fin48 (2 * k.val))) 50 1 _ _ 16 rfl rfl _)
        (acc_init0_1 (gPay1 d L emb (fiOf1 d L ids fI) hfi (fin48 (2 * k.val))) 50 2 _ _ 32 rfl rfl _)
        (acc_init0_1 (gPay1 d L emb (fiOf1 d L ids fI) hfi (fin48 (2 * k.val))) 50 3 _ _ 48 rfl rfl _)
        (acc_init0_1 (gPay1 d L emb (fiOf1 d L ids fI) hfi (fin48 (2 * k.val))) 50 4 _ _ 64 rfl rfl _)
        (acc_init0_1 (gPay1 d L emb (fiOf1 d L ids fI) hfi (fin48 (2 * k.val))) 50 5 _ _ 80 rfl rfl _)
        (acc_init0_1 (gPay1 d L emb (fiOf1 d L ids fI) hfi (fin48 (2 * k.val))) 50 6 _ _ 96 rfl rfl _)
        (acc_init0_1 (gPay1 d L emb (fiOf1 d L ids fI) hfi (fin48 (2 * k.val))) 50 7 _ _ 112 rfl rfl _)
    · iexact HR0
  iintro %acc HI
  obtain ⟨b0, b1, b2, b3, b4, b5, b6, b7⟩ := acc
  icases HI with ⟨%hacc3, HR0⟩
  sl_exec_parts
  icases HR1 with ⟨HR1, Hrow1'⟩
  have E1 : (sR1W1).view.writes (Elt F) f1 [⟨Rect.whole S100x128, trip1_last.sl.gather0 d L ids emb fI k hfi'⟩] = (gPay1 d L emb (fiOf1 d L ids fI) hfi (fin48 (2 * k.val + 1))) :=
    (whole_writes1 (F := F) cc1_scratch2 f1 _).trans (gPay_off1 (F := F) d L emb (fiOf1 d L ids fI) hfi (k1_off2 k) (k1_off2_inb k) _ hoff1 _ _)
  ihave HR1 := (Entails.of_eq (congrArg (fun f => ((sR1W1).view.loc (thr1 d L) ↦{fullShare} f : sProp 𝕄)) E1)) $$ HR1
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 0 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 0 0 t.val _ _ _ _ (k1_off29_eq t) (by omega) rfl _)
        (acc_step1_1 (gPay1 d L emb (fiOf1 d L ids fI) hfi (fin48 (2 * k.val + 1))) 0 1 t.val _ _ _ _ (k1_off30_eq t) (by omega) rfl _)
        (acc_step1_1 (gPay1 d L emb (fiOf1 d L ids fI) hfi (fin48 (2 * k.val + 1))) 0 2 t.val _ _ _ _ (k1_off31_eq t) (by omega) rfl _)
        (acc_step1_1 (gPay1 d L emb (fiOf1 d L ids fI) hfi (fin48 (2 * k.val + 1))) 0 3 t.val _ _ _ _ (k1_off32_eq t) (by omega) rfl _)
        (acc_step1_1 (gPay1 d L emb (fiOf1 d L ids fI) hfi (fin48 (2 * k.val + 1))) 0 4 t.val _ _ _ _ (k1_off33_eq t) (by omega) rfl _)
        (acc_step1_1 (gPay1 d L emb (fiOf1 d L ids fI) hfi (fin48 (2 * k.val + 1))) 0 5 t.val _ _ _ _ (k1_off34_eq t) (by omega) rfl _)
        (acc_step1_1 (gPay1 d L emb (fiOf1 d L ids fI) hfi (fin48 (2 * k.val + 1))) 0 6 t.val _ _ _ _ (k1_off35_eq t) (by omega) rfl _)
        (acc_step1_1 (gPay1 d L emb (fiOf1 d L ids fI) hfi (fin48 (2 * k.val + 1))) 0 7 t.val _ _ _ _ (k1_off36_eq t) (by omega) rfl _)
    · iexact HR
  · isplitr
    · ipureintro
      exact tuple8_eq1
        (acc_init1_1 (gPay1 d L emb (fiOf1 d L ids fI) hfi (fin48 (2 * k.val + 1))) 0 0 _ _ 0 rfl rfl _)
        (acc_init1_1 (gPay1 d L emb (fiOf1 d L ids fI) hfi (fin48 (2 * k.val + 1))) 0 1 _ _ 16 rfl rfl _)
        (acc_init1_1 (gPay1 d L emb (fiOf1 d L ids fI) hfi (fin48 (2 * k.val + 1))) 0 2 _ _ 32 rfl rfl _)
        (acc_init1_1 (gPay1 d L emb (fiOf1 d L ids fI) hfi (fin48 (2 * k.val + 1))) 0 3 _ _ 48 rfl rfl _)
        (acc_init1_1 (gPay1 d L emb (fiOf1 d L ids fI) hfi (fin48 (2 * k.val + 1))) 0 4 _ _ 64 rfl rfl _)
        (acc_init1_1 (gPay1 d L emb (fiOf1 d L ids fI) hfi (fin48 (2 * k.val + 1))) 0 5 _ _ 80 rfl rfl _)
        (acc_init1_1 (gPay1 d L emb (fiOf1 d L ids fI) hfi (fin48 (2 * k.val + 1))) 0 6 _ _ 96 rfl rfl _)
        (acc_init1_1 (gPay1 d L emb (fiOf1 d L ids fI) hfi (fin48 (2 * k.val + 1))) 0 7 _ _ 112 rfl rfl _)
    · iexact HR1
  iintro %acc HI
  obtain ⟨u0, u1, u2, u3, u4, u5, u6, u7⟩ := acc
  icases HI with ⟨%hacc4, HR1⟩
  sl_exec_parts
  sl_for (fun (t : ℕ) (acc : FVec F S16 .f32 × FVec F S16 .f32 × FVec F S16 .f32 × FVec F S16 .f32 × FVec F S16 .f32 × FVec F S16 .f32 × FVec F S16 .f32 × FVec F S16 .f32) => (iprop(⌜acc = accs8_1 (gPay1 d L emb (fiOf1 d L ids fI) hfi (fin48 (2 * k.val + 1))) 50 t⌝ ∗ ((sR1W1).view.loc (thr1 d L) ↦{fullShare} (gPay1 d L emb (fiOf1 d L ids fI) hfi (fin48 (2 * k.val + 1))))) : sProp 𝕄)) $$ [HR1]
  case region =>
    intro t acc
    obtain ⟨a0, a1, a2, a3, a4, a5, a6, a7⟩ := acc
    iintro ⟨%hacc, HR⟩
    simp only [accs8_1, Prod.mk.injEq] at hacc
    obtain ⟨rfl, rfl, rfl, rfl, rfl, rfl, rfl, rfl⟩ := hacc
    sl_exec_parts
    sl_step
    isplitr
    · ipureintro
      exact tuple8_eq1
        (acc_step1_1 (gPay1 d L emb (fiOf1 d L ids fI) hfi (fin48 (2 * k.val + 1))) 50 0 t.val _ _ _ _ (k1_off45_eq t) (by omega) rfl _)
        (acc_step1_1 (gPay1 d L emb (fiOf1 d L ids fI) hfi (fin48 (2 * k.val + 1))) 50 1 t.val _ _ _ _ (k1_off46_eq t) (by omega) rfl _)
        (acc_step1_1 (gPay1 d L emb (fiOf1 d L ids fI) hfi (fin48 (2 * k.val + 1))) 50 2 t.val _ _ _ _ (k1_off47_eq t) (by omega) rfl _)
        (acc_step1_1 (gPay1 d L emb (fiOf1 d L ids fI) hfi (fin48 (2 * k.val + 1))) 50 3 t.val _ _ _ _ (k1_off48_eq t) (by omega) rfl _)
        (acc_step1_1 (gPay1 d L emb (fiOf1 d L ids fI) hfi (fin48 (2 * k.val + 1))) 50 4 t.val _ _ _ _ (k1_off49_eq t) (by omega) rfl _)
        (acc_step1_1 (gPay1 d L emb (fiOf1 d L ids fI) hfi (fin48 (2 * k.val + 1))) 50 5 t.val _ _ _ _ (k1_off50_eq t) (by omega) rfl _)
        (acc_step1_1 (gPay1 d L emb (fiOf1 d L ids fI) hfi (fin48 (2 * k.val + 1))) 50 6 t.val _ _ _ _ (k1_off51_eq t) (by omega) rfl _)
        (acc_step1_1 (gPay1 d L emb (fiOf1 d L ids fI) hfi (fin48 (2 * k.val + 1))) 50 7 t.val _ _ _ _ (k1_off52_eq t) (by omega) rfl _)
    · iexact HR
  · isplitr
    · ipureintro
      exact tuple8_eq1
        (acc_init1_1 (gPay1 d L emb (fiOf1 d L ids fI) hfi (fin48 (2 * k.val + 1))) 50 0 _ _ 0 rfl rfl _)
        (acc_init1_1 (gPay1 d L emb (fiOf1 d L ids fI) hfi (fin48 (2 * k.val + 1))) 50 1 _ _ 16 rfl rfl _)
        (acc_init1_1 (gPay1 d L emb (fiOf1 d L ids fI) hfi (fin48 (2 * k.val + 1))) 50 2 _ _ 32 rfl rfl _)
        (acc_init1_1 (gPay1 d L emb (fiOf1 d L ids fI) hfi (fin48 (2 * k.val + 1))) 50 3 _ _ 48 rfl rfl _)
        (acc_init1_1 (gPay1 d L emb (fiOf1 d L ids fI) hfi (fin48 (2 * k.val + 1))) 50 4 _ _ 64 rfl rfl _)
        (acc_init1_1 (gPay1 d L emb (fiOf1 d L ids fI) hfi (fin48 (2 * k.val + 1))) 50 5 _ _ 80 rfl rfl _)
        (acc_init1_1 (gPay1 d L emb (fiOf1 d L ids fI) hfi (fin48 (2 * k.val + 1))) 50 6 _ _ 96 rfl rfl _)
        (acc_init1_1 (gPay1 d L emb (fiOf1 d L ids fI) hfi (fin48 (2 * k.val + 1))) 50 7 _ _ 112 rfl rfl _)
    · iexact HR1
  iintro %acc HI
  obtain ⟨v0, v1, v2, v3, v4, v5, v6, v7⟩ := acc
  icases HI with ⟨%hacc5, HR1⟩
  sl_exec_parts
  have r0 := acc_row_ok'1 (F := F) d L ids emb fI hfi (fin48 (2 * k.val)) 0 (by decide) fA (4 * k.val + 0) (by omega) (by show 4 * k.val + 0 = 2 * ((2 * k.val) % 48) + 0; omega)
      _ _ _ _ _ _ _ _
      (k1_off12_inb k 0) (k1_off13_inb k 0) (k1_off14_inb k 0) (k1_off15_inb k 0) (k1_off16_inb k 0) (k1_off17_inb k 0) (k1_off18_inb k 0) (k1_off19_inb k 0)
      (show k1_off12 k 0#32 = ![4 * k.val + 0, 0] from k1_off12_eq k ⟨0, by decide⟩)
      (show k1_off13 k 0#32 = ![4 * k.val + 0, 16] from k1_off13_eq k ⟨0, by decide⟩)
      (show k1_off14 k 0#32 = ![4 * k.val + 0, 32] from k1_off14_eq k ⟨0, by decide⟩)
      (show k1_off15 k 0#32 = ![4 * k.val + 0, 48] from k1_off15_eq k ⟨0, by decide⟩)
      (show k1_off16 k 0#32 = ![4 * k.val + 0, 64] from k1_off16_eq k ⟨0, by decide⟩)
      (show k1_off17 k 0#32 = ![4 * k.val + 0, 80] from k1_off17_eq k ⟨0, by decide⟩)
      (show k1_off18 k 0#32 = ![4 * k.val + 0, 96] from k1_off18_eq k ⟨0, by decide⟩)
      (show k1_off19 k 0#32 = ![4 * k.val + 0, 112] from k1_off19_eq k ⟨0, by decide⟩)
      _ _ _ _ _ _ _ _ shapeCasts_S16_S1x16 hAcc hacc2
  have r1 := acc_row_ok'1 (F := F) d L ids emb fI hfi (fin48 (2 * k.val)) 1 (by decide) _ (4 * k.val + 1) (by omega) (by show 4 * k.val + 1 = 2 * ((2 * k.val) % 48) + 1; omega)
      _ _ _ _ _ _ _ _
      (k1_off12_inb k 1) (k1_off13_inb k 1) (k1_off14_inb k 1) (k1_off15_inb k 1) (k1_off16_inb k 1) (k1_off17_inb k 1) (k1_off18_inb k 1) (k1_off19_inb k 1)
      (show k1_off12 k 1#32 = ![4 * k.val + 1, 0] from k1_off12_eq k ⟨1, by decide⟩)
      (show k1_off13 k 1#32 = ![4 * k.val + 1, 16] from k1_off13_eq k ⟨1, by decide⟩)
      (show k1_off14 k 1#32 = ![4 * k.val + 1, 32] from k1_off14_eq k ⟨1, by decide⟩)
      (show k1_off15 k 1#32 = ![4 * k.val + 1, 48] from k1_off15_eq k ⟨1, by decide⟩)
      (show k1_off16 k 1#32 = ![4 * k.val + 1, 64] from k1_off16_eq k ⟨1, by decide⟩)
      (show k1_off17 k 1#32 = ![4 * k.val + 1, 80] from k1_off17_eq k ⟨1, by decide⟩)
      (show k1_off18 k 1#32 = ![4 * k.val + 1, 96] from k1_off18_eq k ⟨1, by decide⟩)
      (show k1_off19 k 1#32 = ![4 * k.val + 1, 112] from k1_off19_eq k ⟨1, by decide⟩)
      _ _ _ _ _ _ _ _ shapeCasts_S16_S1x16 r0 hacc3
  have r2 := acc_row_ok'1 (F := F) d L ids emb fI hfi (fin48 (2 * k.val + 1)) 0 (by decide) _ (4 * k.val + 0 + 2) (by omega) (by show 4 * k.val + 0 + 2 = 2 * ((2 * k.val + 1) % 48) + 0; omega)
      _ _ _ _ _ _ _ _
      (k1_off37_inb k 0) (k1_off38_inb k 0) (k1_off39_inb k 0) (k1_off40_inb k 0) (k1_off41_inb k 0) (k1_off42_inb k 0) (k1_off43_inb k 0) (k1_off44_inb k 0)
      (show k1_off37 k 0#32 = ![4 * k.val + 0 + 2, 0] from k1_off37_eq k ⟨0, by decide⟩)
      (show k1_off38 k 0#32 = ![4 * k.val + 0 + 2, 16] from k1_off38_eq k ⟨0, by decide⟩)
      (show k1_off39 k 0#32 = ![4 * k.val + 0 + 2, 32] from k1_off39_eq k ⟨0, by decide⟩)
      (show k1_off40 k 0#32 = ![4 * k.val + 0 + 2, 48] from k1_off40_eq k ⟨0, by decide⟩)
      (show k1_off41 k 0#32 = ![4 * k.val + 0 + 2, 64] from k1_off41_eq k ⟨0, by decide⟩)
      (show k1_off42 k 0#32 = ![4 * k.val + 0 + 2, 80] from k1_off42_eq k ⟨0, by decide⟩)
      (show k1_off43 k 0#32 = ![4 * k.val + 0 + 2, 96] from k1_off43_eq k ⟨0, by decide⟩)
      (show k1_off44 k 0#32 = ![4 * k.val + 0 + 2, 112] from k1_off44_eq k ⟨0, by decide⟩)
      _ _ _ _ _ _ _ _ shapeCasts_S16_S1x16 (accOK_cast1 ids emb (wL1 L) (by omega) r1) hacc4
  have r3 := acc_row_ok'1 (F := F) d L ids emb fI hfi (fin48 (2 * k.val + 1)) 1 (by decide) _ (4 * k.val + 1 + 2) (by omega) (by show 4 * k.val + 1 + 2 = 2 * ((2 * k.val + 1) % 48) + 1; omega)
      _ _ _ _ _ _ _ _
      (k1_off37_inb k 1) (k1_off38_inb k 1) (k1_off39_inb k 1) (k1_off40_inb k 1) (k1_off41_inb k 1) (k1_off42_inb k 1) (k1_off43_inb k 1) (k1_off44_inb k 1)
      (show k1_off37 k 1#32 = ![4 * k.val + 1 + 2, 0] from k1_off37_eq k ⟨1, by decide⟩)
      (show k1_off38 k 1#32 = ![4 * k.val + 1 + 2, 16] from k1_off38_eq k ⟨1, by decide⟩)
      (show k1_off39 k 1#32 = ![4 * k.val + 1 + 2, 32] from k1_off39_eq k ⟨1, by decide⟩)
      (show k1_off40 k 1#32 = ![4 * k.val + 1 + 2, 48] from k1_off40_eq k ⟨1, by decide⟩)
      (show k1_off41 k 1#32 = ![4 * k.val + 1 + 2, 64] from k1_off41_eq k ⟨1, by decide⟩)
      (show k1_off42 k 1#32 = ![4 * k.val + 1 + 2, 80] from k1_off42_eq k ⟨1, by decide⟩)
      (show k1_off43 k 1#32 = ![4 * k.val + 1 + 2, 96] from k1_off43_eq k ⟨1, by decide⟩)
      (show k1_off44 k 1#32 = ![4 * k.val + 1 + 2, 112] from k1_off44_eq k ⟨1, by decide⟩)
      _ _ _ _ _ _ _ _ shapeCasts_S16_S1x16 r2 hacc5
  sl_step
  isplitl [Hmw]; · iexact Hmw
  isplitl [Hc5]; · iexact Hc5
  isplitl [HR1]; · iexists _; iexact HR1
  isplitl [HeR]; · iapply (Entails.of_eq (pts_embSl1 (F := F) d L _ _)); iexact HeR
  isplitl [HA]
  · iexists _; isplitr
    rotate_left
    · iexact HA
    · ipureintro; exact accOK_cast1 ids emb (wL1 L) (by omega) r3
  isplitl [Hfl HR0 Hfl_src Hrow0 Hrow1' Hrows]
  · isplitl [Hfl]; · iexact Hfl
    isplitl [HR0]; · iexists _; iexact HR0
    isplitr [Hfl_src]
    · iapply (rows_all1 (F := F) d L (fiOf1 d L ids fI) (fin48 (2 * k.val)) (fin48 (2 * k.val + 1))
        (fun e => by have := congrArg Fin.val e; simp only [fin48] at this; omega))
      isplitl [Hrow0]; · iexact Hrow0
      isplitl [Hrow1']; · iapply (Entails.of_eq (pts_offsP1 (F := F) d L (k1_off2 k) (k1_off2_inb k) _ hoff1 _)); iexact Hrow1'
      iexact Hrows
    · iexact Hfl_src
  iexists _; isplitr
  rotate_left
  · iexact HO
  · ipureintro; intro p hp
    rcases Finset.mem_insert.mp hp with hp | hp
    · exact .inr (by subst hp; rfl)
    · rcases Finset.mem_insert.mp hp with hp | hp
      · exact .inr (by subst hp; rfl)
      · exact hW' p hp

/-- One trip of the streams' loop, whichever it is. -/
theorem trip1_all (ids : Buf (Elt F) (idsLoc1 d)) (emb : Buf (Elt F) (embLoc1 d)) (fI : Buf (Elt F) ((sIW1).view.loc (thr1 d L)))
    (hfi : IdxOK1 d L (fiOf1 d L ids fI))
    (q : PosShare TreeShare) (O : CellTallies nD τ sig (HIx 2)) (W : Waits sig (HIx 2))
    (k : Fin k1_t1_loop.trips) (acc : PUnit) :
    outerInvV1 d L ids emb fI hfi q O W k.val acc
      ⊢ wp frame (wpE (defs₀ (F := F)) 𝒱₀ (thr1 d L) none) Set.univ
          (k1_t1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 k acc)
          (outerInvV1 d L ids emb fI hfi q O W (k.val + 1)) := by
  by_cases hk : k.val < 23
  · exact trip1 d L ids emb fI hfi q O W k hk acc
  · exact trip1_last d L ids emb fI hfi q O W k (by have := k.isLt; change _ < 24 at this; omega) acc

end Tile1
end Cert.Proof.KB
end
-- ==== Proof.B.Act1.lean ====
/-
  The activation loop of a pooling task: trip `k` replaces row `k` of the accumulator, lane group by lane group, by the
  clamp at zero of its product with the scale; so before trip `k` the rows below `k` are activated and the others
  still hold the pooled sums.
-/
import proofs.«204104_g71330816851969_cont_9to1_m_219_17_alg».proof.Proof.B.Tile1Defs
import proofs.«204104_g71330816851969_cont_9to1_m_219_17_alg».proof.Proof.B.Val1B

noncomputable section
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

section Tile1
variable (d : Dev nD) (L : grid1.Coords)

/-- Lane `lane` of the activated group read at row `i`, columns `c0 …`: the clamp of the scaled element. -/
theorem act_val1 (f : S96x128.Idx → Elt F .f32) (off : Fin 2 → ℕ) (h : ∀ a, off a + S1x16.size a ≤ S96x128.size a) (i c0 : ℕ)
    (hoff : off = ![i, c0]) (lane : S16.Idx) :
    (maximumf (mulf (shapeCast S16 (View.readAt (Elt F) (sAW1).view (Rect.unit (s := S96x128) off S1x16.size h).toLoadRect f) shapeCasts_S1x16_S16)
        (k1_pay106 (F := F))) (k1_pay107 (F := F))) lane
      = FloatOps.maximumf (FloatOps.mulf (f (Shape.pair (d := ![96, 128]) ⟨i % 96, Nat.mod_lt _ (by decide)⟩ ⟨(c0 + (lane 0).val) % 128, Nat.mod_lt _ (by decide)⟩)) inv1) zero1 := by
  show FloatOps.maximumf (FloatOps.mulf (shapeCast S16 (View.readAt (Elt F) (sAW1).view (Rect.unit (s := S96x128) off S1x16.size h).toLoadRect f) shapeCasts_S1x16_S16 lane)
    (k1_pay106 (F := F) lane)) (k1_pay107 (F := F) lane) = _
  rw [lane_readA1 f off h i c0 hoff]
  rfl

/-- The piece one lane group's activation stores. -/
def actPiece1 (f : S96x128.Idx → Elt F .f32) (off : Fin 2 → ℕ) (h : ∀ a, off a + S1x16.size a ≤ S96x128.size a) : View.Piece (Elt F) S96x128 .f32 :=
  ⟨Rect.unit (s := S96x128) off S1x16.size h,
    shapeCast S1x16 (maximumf (mulf (shapeCast S16 (View.readAt (Elt F) (sAW1).view (Rect.unit (s := S96x128) off S1x16.size h).toLoadRect f) shapeCasts_S1x16_S16)
      (k1_pay106 (F := F))) (k1_pay107 (F := F))) shapeCasts_S16_S1x16⟩

/-- The accumulator after one more activated group: inside the group the clamp of the scaled element of `f`, outside
    what was there. -/
theorem writes_actPiece1 (g f : S96x128.Idx → Elt F .f32) (off : Fin 2 → ℕ) (h : ∀ a, off a + S1x16.size a ≤ S96x128.size a) (i c0 : ℕ)
    (hoff : off = ![i, c0]) (hi : i < 96) (hc : c0 + 16 ≤ 128) (Lst : List (View.Piece (Elt F) S96x128 .f32)) (x : S96x128.Idx) :
    (sAW1).view.writes (Elt F) g (actPiece1 f off h :: Lst) x
      = if (x 0).val = i ∧ c0 ≤ (x 1).val ∧ (x 1).val < c0 + 16 then FloatOps.maximumf (FloatOps.mulf (f x) inv1) zero1
        else (sAW1).view.writes (Elt F) g Lst x := by
  unfold actPiece1
  rw [acc_piece_apply1 g off h i c0 hoff]
  by_cases hx : (x 0).val = i ∧ c0 ≤ (x 1).val ∧ (x 1).val < c0 + 16
  · rw [if_pos hx, if_pos hx, act_val1 f off h i c0 hoff]
    obtain ⟨h0, h1, h2⟩ := hx
    refine congrArg (fun t => FloatOps.maximumf (FloatOps.mulf (f t) inv1) zero1) ?_
    funext b; apply Fin.ext
    match b with
    | ⟨0, _⟩ => show i % 96 = (x 0).val; omega
    | ⟨1, _⟩ =>
      show (c0 + ((x 1).val - c0) % 16) % 128 = (x 1).val
      have hlt : (x 1).val < 128 := (x 1).isLt
      omega
  · rw [if_neg hx, if_neg hx]

/-- With no row activated yet the accumulator holds the pooled sums. -/
theorem actOK_zero1 (inv zero : F .f32) (ids : S32x48x100.Idx → Elt F .i32) (emb : S100000x128.Idx → Elt F .f32) (w : Fin 32)
    (fA : S96x128.Idx → Elt F .f32) (h : AccOK1 ids emb w 96 fA) : ActOK1 inv zero ids emb w 0 fA := by
  intro x
  rw [if_neg (Nat.not_lt_zero _)]
  exact h x (x 0).isLt

/-- One trip's eight stores take the accumulator from "rows below `k` activated" to "rows below `k + 1`". -/
theorem actOK_succ1 (ids : S32x48x100.Idx → Elt F .i32) (emb : S100000x128.Idx → Elt F .f32) (k : Fin k1_t6_loop.trips)
    (f : S96x128.Idx → Elt F .f32) (hf : ActOK1 inv1 zero1 ids emb (wL1 L) k.val f) :
    ActOK1 inv1 zero1 ids emb (wL1 L) (k.val + 1) ((sAW1).view.writes (Elt F) f
      [actPiece1 f (k1_off60 k) (k1_off60_inb k), actPiece1 f (k1_off59 k) (k1_off59_inb k), actPiece1 f (k1_off58 k) (k1_off58_inb k),
       actPiece1 f (k1_off57 k) (k1_off57_inb k), actPiece1 f (k1_off56 k) (k1_off56_inb k), actPiece1 f (k1_off55 k) (k1_off55_inb k),
       actPiece1 f (k1_off54 k) (k1_off54_inb k), actPiece1 f (k1_off53 k) (k1_off53_inb k)]) := by
  have hk : k.val < 96 := k.isLt
  intro x
  have hx1 : (x 1).val < 128 := (x 1).isLt
  rw [writes_actPiece1 f f _ _ k.val 112 (k1_off60_eq k) hk (by omega), writes_actPiece1 f f _ _ k.val 96 (k1_off59_eq k) hk (by omega),
    writes_actPiece1 f f _ _ k.val 80 (k1_off58_eq k) hk (by omega), writes_actPiece1 f f _ _ k.val 64 (k1_off57_eq k) hk (by omega),
    writes_actPiece1 f f _ _ k.val 48 (k1_off56_eq k) hk (by omega), writes_actPiece1 f f _ _ k.val 32 (k1_off55_eq k) hk (by omega),
    writes_actPiece1 f f _ _ k.val 16 (k1_off54_eq k) hk (by omega), writes_actPiece1 f f _ _ k.val 0 (k1_off53_eq k) hk (by omega),
    View.writes_nil]
  have hfx := hf x
  by_cases h0 : (x 0).val = k.val
  · have hnk : ¬ (x 0).val < k.val := by omega
    rw [if_neg hnk] at hfx
    rw [if_pos (by omega : (x 0).val < k.val + 1), hfx]
    split_ifs <;> first | rfl | (exfalso; omega)
  · have hne : ∀ c0 : ℕ, ¬ ((x 0).val = k.val ∧ c0 ≤ (x 1).val ∧ (x 1).val < c0 + 16) := fun c0 h => h0 h.1
    rw [if_neg (hne 112), if_neg (hne 96), if_neg (hne 80), if_neg (hne 64), if_neg (hne 48), if_neg (hne 32), if_neg (hne 16), if_neg (hne 0)]
    by_cases hlt : (x 0).val < k.val
    · rw [if_pos hlt] at hfx
      rw [if_pos (by omega : (x 0).val < k.val + 1), hfx]
    · rw [if_neg hlt] at hfx
      rw [if_neg (by omega : ¬ (x 0).val < k.val + 1), hfx]

/-- Before trip `n` of the activation loop the accumulator's rows below `n` hold the activated values, the others
    the pooled sums. -/
def actInv1 (ids : S32x48x100.Idx → Elt F .i32) (emb : S100000x128.Idx → Elt F .f32) (n : ℕ) (_ : PUnit) : sProp 𝕄 :=
  iprop(∃ fA, ⌜ActOK1 inv1 zero1 ids emb (wL1 L) n fA⌝ ∗ (sAW1).view.loc (thr1 d L) ↦{fullShare} fA)

theorem act_trip1 (ids : S32x48x100.Idx → Elt F .i32) (emb : S100000x128.Idx → Elt F .f32) (t : Fin k1_t6_loop.trips) (u : PUnit) :
    actInv1 d L ids emb t.val u
      ⊢ wp frame (wpE (defs₀ (F := F)) 𝒱₀ (thr1 d L) none) Set.univ
          (k1_t6_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1 t u)
          (actInv1 d L ids emb (t.val + 1)) := by
  unfold actInv1
  iintro ⟨%f, %hf, HA⟩
  unfold k1_t6_body
  sl_exec_parts
  sl_step
  iexists _
  isplitr
  · ipureintro
    exact actOK_succ1 L ids emb t f hf
  · iexact HA

end Tile1
end Cert.Proof.KB
end
-- ==== Proof.B.Val1D.lean ====
/-
  The copy-out's value: the task's row of the result array, once the accumulator — every row activated — has been
  copied into it, holds the pooled, scaled and clamped values the call's result function names there.
-/
import proofs.«204104_g71330816851969_cont_9to1_m_219_17_alg».proof.Proof.B.Val1C
import Idealize.ShloMosaic.Rules.PointsTo
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Val1D

variable (d : Dev nD) (L : grid1.Coords)

/-- The pooled value depends on the task, the row and the lane as numbers only. -/
theorem poolAt_congr1 {nch : ℕ} (inv zero : F .f32) (ids : (⟨3, ![32, nch, 100]⟩ : Shape).Idx → Elt F .i32) (emb : S100000x128.Idx → Elt F .f32)
    (w w' : Fin 32) (i i' : ℕ) (hi : i / 2 < nch) (hi' : i' / 2 < nch) (q q' : Fin 128) (hw : w = w') (hii : i = i') (hq : q = q') :
    poolAt inv zero ids emb w i hi q = poolAt inv zero ids emb w' i' hi' q' := by
  subst hw hii hq; rfl

omit [FloatOps F] in
/-- Where element `y` of the task's row of the result array sits in the array: at the task's number, then `y`. -/
theorem emb_outRowK1 (y : S96x128.Idx) :
    (((outRowK1 L).view.emb y : S32x96x128.Idx) 0).val = (wL1 L).val ∧ (((outRowK1 L).view.emb y : S32x96x128.Idx) 1).val = (y 0).val
      ∧ (((outRowK1 L).view.emb y : S32x96x128.Idx) 2).val = (y 1).val := by
  have he : ((outRowK1 L).view.emb y : S32x96x128.Idx)
      = (outRect1 L).emb (Shape.reshapeEquiv squeezes_S1x96x128_S96x128.numel_eq y) := rfl
  rw [he, Shape.reshapeEquiv_cons_one]
  refine ⟨?_, ?_, ?_⟩
  · rw [Rect.emb_apply]; show k1_off61 L 0 + 1 * 0 = _; rw [k1_off61_eq]; show 16 * (L 0).val + (L 1).val + 1 * 0 = 16 * (L 0).val + (L 1).val; omega
  · rw [Rect.emb_apply]; show k1_off61 L 1 + 1 * (y 0).val = _; rw [k1_off61_eq]; show 0 + 1 * (y 0).val = (y 0).val; omega
  · rw [Rect.emb_apply]; show k1_off61 L 2 + 1 * (y 1).val = _; rw [k1_off61_eq]; show 0 + 1 * (y 1).val = (y 1).val; omega

/-- The task's row of the result array after the accumulator, every row activated, is copied into it. -/
theorem out_row_val1' (ids : Buf (Elt F) (idsLoc1 d)) (emb : Buf (Elt F) (embLoc1 d)) (o₀ : Buf (Elt F) (outLoc1 d))
    (inv zero : F .f32) (fA : S96x128.Idx → Elt F .f32) (hA : ActOK1 inv zero ids emb (wL1 L) 96 fA)
    (P : S96x128.Idx → Elt F .f32) (hP : ∀ y, P y = fA y) :
    ∀ x ∈ rowSetO1 (wL1 L), ((outRowK1 L).view.writes (Elt F) o₀ [⟨Rect.whole S96x128, P⟩]) x = pool1 inv zero ids emb x := by
  intro x hx
  rw [← set_outRowK1 L] at hx
  obtain ⟨y, rfl⟩ := View.exists_emb_of_mem_set (outRowK1 L).view hx
  have hy : (outRowK1 L).view.emb y = ((outRowK1 L).view.slice (Rect.whole S96x128)).emb y := by
    show _ = (outRowK1 L).view.emb ((Rect.whole S96x128).emb y)
    rw [Rect.emb_whole_apply]
  rw [View.writes_cons, View.writes_nil]
  conv_lhs => rw [hy]
  rw [View.write_emb_of_mem _ _ (Finset.mem_univ _)]
  show P y = _
  obtain ⟨e0, e1, e2⟩ := emb_outRowK1 L y
  rw [hP, hA y, if_pos (show (y 0).val < 96 from (y 0).isLt)]
  show poolAt (nch := 48) inv zero ids emb (wL1 L) (y 0).val _ (y 1) = poolAt (nch := 48) inv zero ids emb _ _ _ _
  exact poolAt_congr1 inv zero ids emb _ _ _ _ _ _ _ _ (Fin.ext e0.symm) e1.symm (Fin.ext e2.symm)

/-- The same at the call's own scale and clamp. -/
theorem out_row_val1 (ids : Buf (Elt F) (idsLoc1 d)) (emb : Buf (Elt F) (embLoc1 d)) (o₀ : Buf (Elt F) (outLoc1 d))
    (fA : S96x128.Idx → Elt F .f32) (hA : ActOK1 (inv1 (F := F)) (zero1 (F := F)) ids emb (wL1 L) 96 fA)
    (P : S96x128.Idx → Elt F .f32) (hP : ∀ y, P y = fA y) :
    ∀ x ∈ rowSetO1 (wL1 L), ((outRowK1 L).view.writes (Elt F) o₀ [⟨Rect.whole S96x128, P⟩]) x = pool1 (inv1 (F := F)) (zero1 (F := F)) ids emb x :=
  out_row_val1' d L ids emb o₀ inv1 zero1 fA hA P hP

/-- So the task holds its row of the result array at the call's result function. -/
theorem out_row_pts1 (ids : Buf (Elt F) (idsLoc1 d)) (emb : Buf (Elt F) (embLoc1 d)) (o₀ : Buf (Elt F) (outLoc1 d))
    (fA : S96x128.Idx → Elt F .f32) (hA : ActOK1 (inv1 (F := F)) (zero1 (F := F)) ids emb (wL1 L) 96 fA)
    (P : S96x128.Idx → Elt F .f32) (hP : ∀ y, P y = fA y) :
    ((outRowK1 L).view.loc (thr1 d L) ↦[(outRowK1 L).view.set]{fullShare} (outRowK1 L).view.writes (Elt F) o₀ [⟨Rect.whole S96x128, P⟩] : sProp 𝕄)
      = outPts1 d (wL1 L) (pool1 (inv1 (F := F)) (zero1 (F := F)) ids emb) := by
  rw [pts_outRowK1]
  exact pointsTo_congr (out_row_val1 d L ids emb o₀ fA hA P hP)

end Val1D
end Cert.Proof.KB
end
-- ==== Proof.B.Tile1.lean ====
/-
  The task of the first pooling call at a symbolic place, with its value: from its row of the index array, a read share of
  the embedding table, its row of the result, its own scratch and semaphores, the body runs to the end and gives everything
  back, its row of the result holding the pooled, scaled and clamped sums the index array names.
-/
import proofs.«204104_g71330816851969_cont_9to1_m_219_17_alg».proof.Proof.B.Tile1Trip
import proofs.«204104_g71330816851969_cont_9to1_m_219_17_alg».proof.Proof.B.Act1
import proofs.«204104_g71330816851969_cont_9to1_m_219_17_alg».proof.Proof.B.Val1D

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile1

variable (d : Dev nD) (L : grid1.Coords)

theorem tile_body1 (hF : (K (F := F)).Facts) (q : PosShare TreeShare)
    (ids : Buf (Elt F) (idsLoc1 d)) (emb : Buf (Elt F) (embLoc1 d)) (o₀ : Buf (Elt F) (outLoc1 d))
    (hin : ∀ x : S32x48x100.Idx, (show BitVec 32 from ids x).toNat < 100000)
    (O : CellTallies nD τ sig (HIx 2)) (W : Waits sig (HIx 2)) (hO : ∀ g, O g none = 0) :
    iprop(levAts (K (F := F)).L (K (F := F)).lev
        ∗ (idsPts1 d (wL1 L) ids ∗ embPts1 d q emb ∗ outPts1 d (wL1 L) o₀)
        ∗ scopedBufs (thr1 d L) ∗ scopedSems0 (thr1 d L) ∗ owes (thr1 d L) O W)
      ⊢ wp frame (wpE (defs₀ (F := F)) 𝒱₀ (thr1 d L) none) Set.univ
          (cc1_body L (Memref.whole main_v6_scv) (Memref.isWhole_whole _) (Memref.whole main_arg3_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scoped0 cc1_scoped1)
          fun _ => iprop((idsPts1 d (wL1 L) ids ∗ embPts1 d q emb ∗ outPts1 d (wL1 L) (pool1 inv1 zero1 ids emb))
            ∗ scopedBufs (thr1 d L) ∗ scopedSems0 (thr1 d L)
            ∗ ∃ W', ⌜∀ p ∈ W', p ∈ W ∨ p.2 = none⌝ ∗ owes (thr1 d L) O W') := by
  simp only [cc1_body_eq_skeleton]; unfold cc1_body_skel
  rw [(K (F := F)).scopedBufs_V hF d (cV1 L) (jV1 L), SparseCore.Cfg.scopedSems0_V (Val := Elt F) d (cV1 L) (jV1 L), ownSems0_V1, ownBufs_V1]
  iintro ⟨#Hlv, ⟨Hi, He, Ho⟩, ⟨⟨%fI, HsI⟩, ⟨%fR0, HsR0⟩, ⟨%fR1, HsR1⟩, ⟨%fA, HsA⟩, Hbufs⟩, ⟨Hc4, Hc5, Hcs0, Hcs1, Hsems⟩, HO⟩
  ihave Hmw := ((K (F := F)).mayWaits_none (thr := thr1 d L) hO) $$ Hlv
  ihave Hi' := (Entails.of_eq (pts_idsRowK1 (F := F) d L _).symm) $$ Hi
  ihave Ho' := (Entails.of_eq (pts_outRowK1 (F := F) d L _).symm) $$ Ho
  ihave HsI' := (Entails.of_eq (pts_sI1 (F := F) d L _).symm) $$ HsI
  ihave HsR0' := (Entails.of_eq (pts_sR0_1 (F := F) d L _).symm) $$ HsR0
  ihave HsR1' := (Entails.of_eq (pts_sR1_1 (F := F) d L _).symm) $$ HsR1
  ihave HsA' := (Entails.of_eq (pts_sA1 (F := F) d L _).symm) $$ HsA
  ihave He' := (Entails.of_eq (pts_embW1 (F := F) d L q _).symm) $$ He
  ihave He2 := (pointsTo_share (PosShare.mem_left_op_right q)).1 $$ He'
  icases He2 with ⟨HeL, HeR⟩
  sl_exec_parts
  have hEq : View.write (Elt F) (Memref.whole cc1_scratch0).view fI (tile_body1.sl.dma0 d L ids) Finset.univ = fiOf1 d L ids fI := rfl
  ihave HsI' := (Entails.of_eq (congrArg (fun f => ((sIW1).view.loc (thr1 d L) ↦{fullShare} f : sProp 𝕄)) hEq)) $$ HsI'
  have hidx := fun g row hk hr hq => offs_inb1 (F := F) d L g (idsPay1 d L ids) (idsPay_lt1 d L ids hin) row hk hr hq
  have hfiT : IdxOK1 d L (fiOf1 d L ids fI) := fun row hk x => hidx fI row hk _ _ x
  ihave Hrows := (Entails.of_eq (idsv_row_split1 (F := F) d L (fiOf1 d L ids fI) 0)) $$ HsI'
  icases Hrows with ⟨Hrow0, Hrows⟩
  ihave Hrow0' := (Entails.of_eq (pts_offsP1 (F := F) d L ![0, 0] inb_S48x100_S1x100_0_0 0 rfl _).symm) $$ Hrow0
  sl_exec_parts
  iclear HeL
  sl_for (outerInvV1 d L ids emb fI hfiT q O (insert (SemLoc.dma cc1_scoped0.sem, (default : HIx 2)) W)) $$ [Hmw Hc5 HsR1' HeR HsA' Hc4 Hrows HO]
  case region =>
    intro k u
    exact trip1_all d L ids emb fI hfiT q O _ k u
  · unfold outerInvV1
    rw [if_pos (by decide : (0 : ℕ) < 24)]
    isplitl [Hmw]; · iexact Hmw
    isplitl [Hc5]; · iexact Hc5
    isplitl [HsR1']; · iexists _; iexact HsR1'
    isplitl [HeR]; · iexact HeR
    isplitl [HsA']
    · iexists _; isplitr
      rotate_left
      · iexact HsA'
      · ipureintro; exact fun x hx => absurd hx (Nat.not_lt_zero _)
    isplitl [Hc4 Hrows]
    · isplitl [Hc4]
      · unfold flightC0_1
        iapply (flight_canon1 (F := F) d L emb (fiOf1 d L ids fI) hfiT ![0, 0] inb_S48x100_S1x100_0_0 (fin48 (2 * 0)) rfl fR0 _
          (gPay_off1 (F := F) d L emb (fiOf1 d L ids fI) hfiT ![0, 0] inb_S48x100_S1x100_0_0 (fin48 (2 * 0)) rfl _ _) q.left)
        iexact Hc4
      · iexact Hrows
    iexists _; isplitr
    rotate_left
    · iexact HO
    · ipureintro; exact fun p hp => .inl hp
  iintro %u HI
  ihave HI' := (outerInvV_exit1 (F := F) d L ids emb fI hfiT q O _ u) $$ HI
  icases HI' with ⟨-, Hc5, ⟨%f1, HR1⟩, HeR, ⟨%fA', %hAcc, HA⟩, ⟨Hc4, ⟨%f0, HR0⟩, HsI, HeL⟩, %W1, %hW1, HO⟩
  sl_exec_parts
  sl_for (actInv1 d L ids emb) $$ [HA]
  case region =>
    intro t u
    exact act_trip1 d L ids emb t u
  · unfold actInv1
    iexists _; isplitr
    rotate_left
    · iexact HA
    · ipureintro; exact actOK_zero1 inv1 zero1 ids emb (wL1 L) _ hAcc
  iintro %u2 HA
  unfold actInv1
  icases HA with ⟨%fA2, %hAct, HA⟩
  sl_exec_parts
  sl_step
  isplitl [Hi' HeL HeR Ho']
  · isplitl [Hi']; · iapply (Entails.of_eq (pts_idsRowK1 (F := F) d L _)); iexact Hi'
    isplitl [HeL HeR]
    · iapply (Entails.of_eq (pts_embW1 (F := F) d L q _))
      iapply (pointsTo_share (PosShare.mem_left_op_right q)).2
      isplitl [HeL]; · iexact HeL
      iexact HeR
    · iapply (Entails.of_eq (out_row_pts1 (F := F) d L ids emb o₀ fA2 hAct _ (fun y => rfl)))
      iexact Ho'
  isplitl [HsI HR0 HR1 HA Hbufs]
  · isplitl [HsI]; · iexists _; iexact HsI
    isplitl [HR0]; · iexists _; iexact HR0
    isplitl [HR1]; · iexists _; iexact HR1
    isplitl [HA]; · iexists _; iexact HA
    iexact Hbufs
  isplitl [Hc4 Hc5 Hcs0 Hcs1 Hsems]
  · isplitl [Hc4]; · iexact Hc4
    isplitl [Hc5]; · iexact Hc5
    isplitl [Hcs0]; · iexact Hcs0
    isplitl [Hcs1]; · iexact Hcs1
    iexact Hsems
  iexists _; isplitr
  rotate_left
  · iexact HO
  · ipureintro; intro p hp
    rcases Finset.mem_insert.mp hp with hp | hp
    · exact .inr (by subst hp; rfl)
    · rcases hW1 p hp with h | h
      · rcases Finset.mem_insert.mp h with h | h
        · exact .inr (by subst h; rfl)
        · exact .inl h
      · exact .inr h

end Tile1
end Cert.Proof.KB
end
-- ==== Proof.B.Tiles.lean ====
/-
  The launch theorem's obligations for the two pooling calls' tasks, from the tasks' body theorems at a symbolic
  place: a task runs the call's body at the place its SparseCore and subcore name, on what the handshake hands it.
-/
import proofs.«204104_g71330816851969_cont_9to1_m_219_17_alg».proof.Proof.B.Held
import proofs.«204104_g71330816851969_cont_9to1_m_219_17_alg».proof.Proof.B.Pay
import proofs.«204104_g71330816851969_cont_9to1_m_219_17_alg».proof.Proof.Gen.Kernel.Skeleton
import proofs.«204104_g71330816851969_cont_9to1_m_219_17_alg».proof.Proof.B.Tile0
import proofs.«204104_g71330816851969_cont_9to1_m_219_17_alg».proof.Proof.B.Tile1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The launch theorem's obligation for the first pooling call's tasks

A task of the call runs the call's body at the place its SparseCore and subcore name; what the handshake hands it —
its row of the index array, its read share of the table, its row of the result array — is what the body's theorem
takes, and what the body leaves is what the handshake takes back. -/

/-- The place of subcore `s` of SparseCore `c` in the first call's grid. -/
def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_body (coordsV0 c s)
          (Memref.whole main_v2_scv) (Memref.isWhole_whole _) (Memref.whole main_arg3_scv) (Memref.isWhole_whole _)
          (Memref.whole main_v3_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scoped0 cc0_scoped1) ⟨⟩ c s := rfl

omit [FloatOps F] in
/-- A body's recorded waits, all its own, are within what the launch allows a task of call `q`. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl0

variable (m : (ℓ : Loc nD τ sig) → Buf (Elt F) ℓ) (inv1 zero1 : F .f32)

/-- The task number of the place the launch names is the one the handshake's payload is stated at. -/
theorem wL0_coords (c : Fin ((K (F := F)).nCore 0)) (i : Fin ((K (F := F)).nSub 0))
    (h1 : ((K (F := F)).core 0 c).val < grid0.bound 0) (h2 : ((K (F := F)).sub 0 i).val < grid0.bound 1) :
    wL0 (coordsV0 ⟨((K (F := F)).core 0 c).val, h1⟩ ⟨((K (F := F)).sub 0 i).val, h2⟩)
      = taskIx (Fin.cast (nCore_q (F := F) 0) c) (Fin.cast (nSub_q (F := F) 0) i) := Fin.ext rfl

theorem tileObl0 (hF : (K (F := F)).Facts)
    (hin : ∀ d x, (show BitVec 32 from (C m (inv0 (F := F)) (zero0 (F := F)) inv1 zero1).ids0 d x).toNat < 100000) :
    (K (F := F)).TileObl (D (F := F)) 𝒱 (P (C m (inv0 (F := F)) (zero0 (F := F)) inv1 zero1)) v₀ 0 := by
  intro d c i O W hO _ _
  simp only [show (P (C m (inv0 (F := F)) (zero0 (F := F)) inv1 zero1)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hb := tile_body0 (F := F) d (coordsV0 ⟨_, hc.1⟩ ⟨_, hc.2⟩) hF
    (shT (Fin.cast (nCore_q (F := F) 0) c) (Fin.cast (nSub_q (F := F) 0) i))
    ((C m (inv0 (F := F)) (zero0 (F := F)) inv1 zero1).ids0 d) ((C m (inv0 (F := F)) (zero0 (F := F)) inv1 zero1).emb d)
    ((C m (inv0 (F := F)) (zero0 (F := F)) inv1 zero1).old0 d) (hin d) O W hO
  rw [wL0_coords (F := F) c i hc.1 hc.2] at hb
  refine BIBase.Entails.trans ?_ (hb.trans (wp_mono frame _ _ fun _ => obl_post (q := 0)))
  rw [show (P (C m (inv0 (F := F)) (zero0 (F := F)) inv1 zero1)).go 0 d c i
      = iprop(idsPts0 d (taskIx (Fin.cast (nCore_q (F := F) 0) c) (Fin.cast (nSub_q (F := F) 0) i)) ((C m (inv0 (F := F)) (zero0 (F := F)) inv1 zero1).ids0 d)
          ∗ embPts d (shT (Fin.cast (nCore_q (F := F) 0) c) (Fin.cast (nSub_q (F := F) 0) i)) ((C m (inv0 (F := F)) (zero0 (F := F)) inv1 zero1).emb d)
          ∗ outPts0 d (taskIx (Fin.cast (nCore_q (F := F) 0) c) (Fin.cast (nSub_q (F := F) 0) i)) ((C m (inv0 (F := F)) (zero0 (F := F)) inv1 zero1).old0 d)) from rfl]
  iintro ⟨Hlv, -, Hgo, Hb, Hs, HO⟩
  isplitl [Hlv]; · iexact Hlv
  isplitl [Hgo]; · iexact Hgo
  isplitl [Hb]; · iexact Hb
  isplitl [Hs]; · iexact Hs
  iexact HO

end Obl0

/-- The place of subcore `s` of SparseCore `c` in the second call's grid. -/
def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_body (coordsV1 c s)
          (Memref.whole main_v6_scv) (Memref.isWhole_whole _) (Memref.whole main_arg3_scv) (Memref.isWhole_whole _)
          (Memref.whole main_v7_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scoped0 cc1_scoped1) ⟨⟩ c s := rfl

section Obl1

variable (m : (ℓ : Loc nD τ sig) → Buf (Elt F) ℓ) (inv0' zero0' : F .f32)

/-- The task number of the place the launch names is the one the handshake's payload is stated at. -/
theorem wL1_coords (c : Fin ((K (F := F)).nCore 1)) (i : Fin ((K (F := F)).nSub 1))
    (h1 : ((K (F := F)).core 1 c).val < grid1.bound 0) (h2 : ((K (F := F)).sub 1 i).val < grid1.bound 1) :
    wL1 (coordsV1 ⟨((K (F := F)).core 1 c).val, h1⟩ ⟨((K (F := F)).sub 1 i).val, h2⟩)
      = taskIx (Fin.cast (nCore_q (F := F) 1) c) (Fin.cast (nSub_q (F := F) 1) i) := Fin.ext rfl

theorem tileObl1 (hF : (K (F := F)).Facts)
    (hin : ∀ d x, (show BitVec 32 from (C m inv0' zero0' (inv1 (F := F)) (zero1 (F := F))).ids1 d x).toNat < 100000) :
    (K (F := F)).TileObl (D (F := F)) 𝒱 (P (C m inv0' zero0' (inv1 (F := F)) (zero1 (F := F)))) v₀ 1 := by
  intro d c i O W hO _ _
  simp only [show (P (C m inv0' zero0' (inv1 (F := F)) (zero1 (F := F)))).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  have hb := tile_body1 (F := F) d (coordsV1 ⟨_, hc.1⟩ ⟨_, hc.2⟩) hF
    (shT (Fin.cast (nCore_q (F := F) 1) c) (Fin.cast (nSub_q (F := F) 1) i))
    ((C m inv0' zero0' (inv1 (F := F)) (zero1 (F := F))).ids1 d) ((C m inv0' zero0' (inv1 (F := F)) (zero1 (F := F))).emb d)
    ((C m inv0' zero0' (inv1 (F := F)) (zero1 (F := F))).old1 d) (hin d) O W hO
  rw [wL1_coords (F := F) c i hc.1 hc.2] at hb
  refine BIBase.Entails.trans ?_ (hb.trans (wp_mono frame _ _ fun _ => obl_post (q := 1)))
  rw [show (P (C m inv0' zero0' (inv1 (F := F)) (zero1 (F := F)))).go 1 d c i
      = iprop(idsPts1 d (taskIx (Fin.cast (nCore_q (F := F) 1) c) (Fin.cast (nSub_q (F := F) 1) i)) ((C m inv0' zero0' (inv1 (F := F)) (zero1 (F := F))).ids1 d)
          ∗ embPts1 d (shT (Fin.cast (nCore_q (F := F) 1) c) (Fin.cast (nSub_q (F := F) 1) i)) ((C m inv0' zero0' (inv1 (F := F)) (zero1 (F := F))).emb d)
          ∗ outPts1 d (taskIx (Fin.cast (nCore_q (F := F) 1) c) (Fin.cast (nSub_q (F := F) 1) i)) ((C m inv0' zero0' (inv1 (F := F)) (zero1 (F := F))).old1 d)) from rfl]
  iintro ⟨Hlv, -, Hgo, Hb, Hs, HO⟩
  isplitl [Hlv]; · iexact Hlv
  isplitl [Hgo]; · iexact Hgo
  isplitl [Hb]; · iexact Hb
  isplitl [Hs]; · iexact Hs
  iexact HO

end Obl1

end Cert.Proof.KB

end
-- ==== Proof.lean ====
/-
  The certificate's claim: both programs' frames, the reference's frame, the ledger's two entries and the equality of
  the idealized kernel's result with the reference's, over the extended reals.

  The kernel computes, for each of the 4096 token rows, the mean of its fifty embedding rows clamped below at zero
  (two pooling calls on the SparseCores: 1024 rows, then 3072), and then the product with the transposed weights plus
  the bias (two matrix-product pipelines on the TensorCore, the second writing into a copy of the first's result); the
  reference gathers, averages, clamps and multiplies on the host. Index by index both are
  Σ_k max((Σ_l emb[ids[r,l],k]) · (1/50), 0) · W[o,k] + b[o]: the pooled sum is taken from the left in the kernel and in
  any order on the host (addition of extended reals is associative and commutative), the kernel's scale is the named
  constant 1/50 where the host divides by 50, and a matrix product into a zero accumulator is the host's contraction.
  The frames need every token id to name a row of the table, which the precondition states.
-/
import proofs.«204104_g71330816851969_cont_9to1_m_219_17_alg».proof.Proof.Claims
import proofs.«204104_g71330816851969_cont_9to1_m_219_17_alg».proof.Proof.Tiles
import proofs.«204104_g71330816851969_cont_9to1_m_219_17_alg».proof.Proof.B.Tiles

noncomputable section

namespace Cert.Proof

open Idealize.ShloMosaic Idealize.SL.Sem

/-- The second pooling call's scale, as printed, is the named constant: 1/50 over the extended reals; its clamp is zero. -/
theorem inv1_ideal : KI.inv1 (F := Ideal) = ((1 / 50 : ℝ) : EReal) := Cert.Proof.Bridge.inv50
theorem zero1_ideal : KI.zero1 (F := Ideal) = (0 : EReal) := Cert.Proof.Bridge.zero32

theorem claim : Cert.Claim :=
  Cert.Proof.Claims.claim_of (KI.inv0 (F := Ideal)) (KI.zero0 (F := Ideal)) (KI.inv1 (F := Ideal)) (KI.zero1 (F := Ideal))
    Cert.Proof.Claims.inv0_ideal Cert.Proof.Claims.zero0_ideal inv1_ideal zero1_ideal
    (fun m hin => KI.tileObl0 m (KI.inv1 (F := Ideal)) (KI.zero1 (F := Ideal)) KI.facts hin)
    (fun m hin => KI.tileObl1 m (KI.inv0 (F := Ideal)) (KI.zero0 (F := Ideal)) KI.facts hin)
    (KB.inv0 (F := Bits)) (KB.zero0 (F := Bits)) (KB.inv1 (F := Bits)) (KB.zero1 (F := Bits))
    (fun m hin => KB.tileObl0 m (KB.inv1 (F := Bits)) (KB.zero1 (F := Bits)) KB.facts hin)
    (fun m hin => KB.tileObl1 m (KB.inv0 (F := Bits)) (KB.zero0 (F := Bits)) KB.facts hin)

end Cert.Proof

end
